-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100001x32 : Shape := ⟨2, ![100001, 32]⟩
abbrev S32x32 : Shape := ⟨2, ![32, 32]⟩
abbrev S32 : Shape := ⟨1, ![32]⟩
abbrev S_ : Shape := ⟨0, ![]⟩

class Facts : Prop where
  bcast_S_S100001x32 : S_.BroadcastsInDim S100001x32 (![] : Fin 0 → Fin S100001x32.rank)
  reducesTo_S100001x32_S_d0_1 : S100001x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg0 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : IVec S16384 32) (main_arg1 : FVec F S100001x32 .f32) (main_arg2 : FVec F S32x32 .f32) (main_arg3 : FVec F S32 .f32) : IVec S_ 1 :=
  let main_v0 : FVec F S100001x32 .f32 := Host.absf main_arg1
  let main_cst : FVec F S_ .f32 := constant S_ .f32 0x7F800000#32
  let main_v1 : FVec F S100001x32 .f32 := broadcastInDim S100001x32 ![] bcast_S_S100001x32 main_cst
  let main_v2 : IVec S100001x32 1 := cmpf .olt main_v0 main_v1
  let main_c : IVec S_ 1 := constantI S_ 1 1#1
  let main_v3 : IVec S_ 1 := (fun x v => Host.reduce IntOp.andi x v reducesTo_S100001x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg0 main_v14
  let main_c_5 : IVec S_ 32 := constantI S_ 32 100000#32
  fn_part1 (F := F) main_arg0 main_v13 main_v15 main_c_5
-- ==== Kernel.lean ====
abbrev S16384 : Shape := ⟨1, ![16384]⟩
abbrev S100001x32 : Shape := ⟨2, ![100001, 32]⟩
abbrev S32x32 : Shape := ⟨2, ![32, 32]⟩
abbrev S32 : Shape := ⟨1, ![32]⟩
abbrev S1x32 : Shape := ⟨2, ![1, 32]⟩
abbrev S1x128 : Shape := ⟨2, ![1, 128]⟩
abbrev S4x4 : Shape := ⟨2, ![4, 4]⟩
abbrev S_ : Shape := ⟨0, ![]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S32x100001 : Shape := ⟨2, ![32, 100001]⟩
abbrev S32768x128 : Shape := ⟨2, ![32768, 128]⟩
abbrev S32x16384 : Shape := ⟨2, ![32, 16384]⟩
abbrev S16384x128 : Shape := ⟨2, ![16384, 128]⟩
abbrev S128x16384 : Shape := ⟨2, ![128, 16384]⟩
abbrev S512 : Shape := ⟨1, ![512]⟩
abbrev S32x512 : Shape := ⟨2, ![32, 512]⟩
abbrev S16 : Shape := ⟨1, ![16]⟩
abbrev S128 : Shape := ⟨1, ![128]⟩
abbrev S1x16 : Shape := ⟨2, ![1, 16]⟩
abbrev S32x128 : Shape := ⟨2, ![32, 128]⟩
abbrev S16384x32 : Shape := ⟨2, ![16384, 32]⟩

abbrev nBuf : Table → Nat
  | .hbm => 23
  | .local .tc .vmem => 12
  | .local .scVector .vmem => 6
  | _ => 0

abbrev bufTy : (tb : Table) → Fin (nBuf tb) → BufTy
  | .hbm, ⟨0, _⟩ => ⟨S16384, .i32⟩
  | .hbm, ⟨1, _⟩ => ⟨S100001x32, .f32⟩
  | .hbm, ⟨2, _⟩ => ⟨S32x32, .f32⟩
  | .hbm, ⟨3, _⟩ => ⟨S32, .f32⟩
  | .hbm, ⟨4, _⟩ => ⟨S1x32, .f32⟩
  | .hbm, ⟨5, _⟩ => ⟨S1x128, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S4x1x4x1, .f32⟩
  | .hbm, ⟨14, _⟩ => ⟨S1x32x1x32, .f32⟩
  | .hbm, ⟨15, _⟩ => ⟨S4x32x4x32, .f32⟩
  | .hbm, ⟨16, _⟩ => ⟨S4x32x4x32, .f32⟩
  | .hbm, ⟨17, _⟩ => ⟨S4x32x4x32, .f32⟩
  | .hbm, ⟨18, _⟩ => ⟨S128x128, .f32⟩
  | .hbm, ⟨19, _⟩ => ⟨S32x100001, .f32⟩
  | .hbm, ⟨20, _⟩ => ⟨S32768x128, .f32⟩
  | .hbm, ⟨21, _⟩ => ⟨S32x16384, .f32⟩
  | .hbm, ⟨22, _⟩ => ⟨S16384x32, .f32⟩
  | .local .tc .vmem, ⟨0, _⟩ => ⟨S32x16384, .f32⟩
  | .local .tc .vmem, ⟨1, _⟩ => ⟨S32x16384, .f32⟩
  | .local .tc .vmem, ⟨2, _⟩ => ⟨S32x16384, .f32⟩
  | .local .tc .vmem, ⟨3, _⟩ => ⟨S32x16384, .f32⟩
  | .local .tc .vmem, ⟨4, _⟩ => ⟨S32x16384, .f32⟩
  | .local .tc .vmem, ⟨5, _⟩ => ⟨S32x16384, .f32⟩
  | .local .tc .vmem, ⟨6, _⟩ => ⟨S32x16384, .f32⟩
  | .local .tc .vmem, ⟨7, _⟩ => ⟨S32x16384, .f32⟩
  | .local .tc .vmem, ⟨8, _⟩ => ⟨S128x128, .f32⟩
  | .local .tc .vmem, ⟨9, _⟩ => ⟨S1x128, .f32⟩
  | .local .tc .vmem, ⟨10, _⟩ => ⟨S16384x128, .f32⟩
  | .local .tc .vmem, ⟨11, _⟩ => ⟨S16384x128, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S128x128, .f32⟩
  | .local .scVector .vmem, ⟨4, _⟩ => ⟨S128x128, .f32⟩
  | .local .scVector .vmem, ⟨5, _⟩ => ⟨S32x512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v10_scv : Ref sig .scVector := ⟨.hbm, 20, rfl⟩
abbrev main_arg0_scv : Ref sig .scVector := ⟨.hbm, 0, rfl⟩
abbrev main_v11_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let v1 : BitVec 32 := Scalar.minsi v0 c6_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c6_i32 : BitVec 32 := 6#32
  let v1 : BitVec 32 := Scalar.minsi v0 c6_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c6_i32 : BitVec 32 := 6#32
  let v1 : BitVec 32 := Scalar.minsi v0 c6_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c6_i32 : BitVec 32 := 6#32
  let v0 : BitVec 32 := Scalar.addi arg0 c6_i32
  let c6_i32_0 : BitVec 32 := 6#32
  let v1 : BitVec 32 := Scalar.minsi v0 c6_i32_0
  let c0_i32 : BitVec 32 := 0#32
  let c0_i32_1 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg14 : BitVec 32 := Scf.iv c0_i32_0 c1_i32 k1_t1
  let c16_i32 : BitVec 32 := 16#32
  let v61 : BitVec 32 := Scalar.muli arg14 c16_i32
  let v62 : Index := Scalar.indexCast v61
  ![v62.toNat]
@[reducible] def k1_t2_loop : Scf.Loop 32 :=
  let c0_i32_11 : BitVec 32 := 0#32
  let c8_i32 : BitVec 32 := 8#32
  let v11 : BitVec 32 := Scalar.addi c0_i32_11 c8_i32
  let c1_i32_12 : BitVec 32 := 1#32
  ⟨c0_i32_11, v11, c1_i32_12⟩
def k1_off3 (k1_t2 : Fin k1_t2_loop.trips) : Fin 1 → Nat :=
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v65 : Index := Scalar.indexCast v64
  ![v65.toNat]

def k1_chk1 (v63 : IVec S16 32) (v68 : IVec S16 32) : Prop :=
  (∀ a x, ((![v63, v68] : Fin 2 → IVec S16 32) a x).toNat < S128x128.size a)
instance k1_chk1.dec : ∀ (v63 : IVec S16 32) (v68 : IVec S16 32), Decidable (k1_chk1 v63 v68) := fun v63 v68 => decidable_of_iff' _ (Iff.of_eq (k1_chk1.eq_1 v63 v68))
theorem k1_idx1_inb : ∀ (v63 : IVec S16 32) (v68 : IVec S16 32) (k1_hw1 : k1_chk1 v63 v68), ∀ a x, ((![v63, v68] : Fin 2 → IVec S16 32) a x).toNat < S128x128.size a := fun v63 v68 k1_hw1 => k1_hw1
def k1_off4 (k1_t2 : Fin k1_t2_loop.trips) : Fin 2 → Nat :=
  let c0_i32_96 : BitVec 32 := 0#32
  let v70 : Index := Scalar.indexCast c0_i32_96
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v71 : Index := Scalar.indexCast v64
  ![0, v71.toNat]

def k1_chk2 (v63 : IVec S16 32) (v74 : IVec S16 32) : Prop :=
  (∀ a x, ((![v63, v74] : Fin 2 → IVec S16 32) a x).toNat < S128x128.size a)
instance k1_chk2.dec : ∀ (v63 : IVec S16 32) (v74 : IVec S16 32), Decidable (k1_chk2 v63 v74) := fun v63 v74 => decidable_of_iff' _ (Iff.of_eq (k1_chk2.eq_1 v63 v74))
theorem k1_idx2_inb : ∀ (v63 : IVec S16 32) (v74 : IVec S16 32) (k1_hw2 : k1_chk2 v63 v74), ∀ a x, ((![v63, v74] : Fin 2 → IVec S16 32) a x).toNat < S128x128.size a := fun v63 v74 k1_hw2 => k1_hw2
def k1_off5 (k1_t2 : Fin k1_t2_loop.trips) : Fin 2 → Nat :=
  let c1_i32_98 : BitVec 32 := 1#32
  let v76 : Index := Scalar.indexCast c1_i32_98
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v77 : Index := Scalar.indexCast v64
  ![1, v77.toNat]

def k1_chk3 (v63 : IVec S16 32) (v80 : IVec S16 32) : Prop :=
  (∀ a x, ((![v63, v80] : Fin 2 → IVec S16 32) a x).toNat < S128x128.size a)
instance k1_chk3.dec : ∀ (v63 : IVec S16 32) (v80 : IVec S16 32), Decidable (k1_chk3 v63 v80) := fun v63 v80 => decidable_of_iff' _ (Iff.of_eq (k1_chk3.eq_1 v63 v80))
theorem k1_idx3_inb : ∀ (v63 : IVec S16 32) (v80 : IVec S16 32) (k1_hw3 : k1_chk3 v63 v80), ∀ a x, ((![v63, v80] : Fin 2 → IVec S16 32) a x).toNat < S128x128.size a := fun v63 v80 k1_hw3 => k1_hw3
def k1_off6 (k1_t2 : Fin k1_t2_loop.trips) : Fin 2 → Nat :=
  let c2_i32_100 : BitVec 32 := 2#32
  let v82 : Index := Scalar.indexCast c2_i32_100
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v83 : Index := Scalar.indexCast v64
  ![2, v83.toNat]

def k1_chk4 (v63 : IVec S16 32) (v86 : IVec S16 32) : Prop :=
  (∀ a x, ((![v63, v86] : Fin 2 → IVec S16 32) a x).toNat < S128x128.size a)
instance k1_chk4.dec : ∀ (v63 : IVec S16 32) (v86 : IVec S16 32), Decidable (k1_chk4 v63 v86) := fun v63 v86 => decidable_of_iff' _ (Iff.of_eq (k1_chk4.eq_1 v63 v86))
theorem k1_idx4_inb : ∀ (v63 : IVec S16 32) (v86 : IVec S16 32) (k1_hw4 : k1_chk4 v63 v86), ∀ a x, ((![v63, v86] : Fin 2 → IVec S16 32) a x).toNat < S128x128.size a := fun v63 v86 k1_hw4 => k1_hw4
def k1_off7 (k1_t2 : Fin k1_t2_loop.trips) : Fin 2 → Nat :=
  let c3_i32_101 : BitVec 32 := 3#32
  let v88 : Index := Scalar.indexCast c3_i32_101
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v89 : Index := Scalar.indexCast v64
  ![3, v89.toNat]

def k1_chk5 (v63 : IVec S16 32) (v92 : IVec S16 32) : Prop :=
  (∀ a x, ((![v63, v92] : Fin 2 → IVec S16 32) a x).toNat < S128x128.size a)
instance k1_chk5.dec : ∀ (v63 : IVec S16 32) (v92 : IVec S16 32), Decidable (k1_chk5 v63 v92) := fun v63 v92 => decidable_of_iff' _ (Iff.of_eq (k1_chk5.eq_1 v63 v92))
theorem k1_idx5_inb : ∀ (v63 : IVec S16 32) (v92 : IVec S16 32) (k1_hw5 : k1_chk5 v63 v92), ∀ a x, ((![v63, v92] : Fin 2 → IVec S16 32) a x).toNat < S128x128.size a := fun v63 v92 k1_hw5 => k1_hw5
def k1_off8 (k1_t2 : Fin k1_t2_loop.trips) : Fin 2 → Nat :=
  let c4_i32_102 : BitVec 32 := 4#32
  let v94 : Index := Scalar.indexCast c4_i32_102
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v95 : Index := Scalar.indexCast v64
  ![4, v95.toNat]

def k1_chk6 (v63 : IVec S16 32) (v98 : IVec S16 32) : Prop :=
  (∀ a x, ((![v63, v98] : Fin 2 → IVec S16 32) a x).toNat < S128x128.size a)
instance k1_chk6.dec : ∀ (v63 : IVec S16 32) (v98 : IVec S16 32), Decidable (k1_chk6 v63 v98) := fun v63 v98 => decidable_of_iff' _ (Iff.of_eq (k1_chk6.eq_1 v63 v98))
theorem k1_idx6_inb : ∀ (v63 : IVec S16 32) (v98 : IVec S16 32) (k1_hw6 : k1_chk6 v63 v98), ∀ a x, ((![v63, v98] : Fin 2 → IVec S16 32) a x).toNat < S128x128.size a := fun v63 v98 k1_hw6 => k1_hw6
def k1_off9 (k1_t2 : Fin k1_t2_loop.trips) : Fin 2 → Nat :=
  let c5_i32_103 : BitVec 32 := 5#32
  let v100 : Index := Scalar.indexCast c5_i32_103
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v101 : Index := Scalar.indexCast v64
  ![5, v101.toNat]

def k1_chk7 (v63 : IVec S16 32) (v104 : IVec S16 32) : Prop :=
  (∀ a x, ((![v63, v104] : Fin 2 → IVec S16 32) a x).toNat < S128x128.size a)
instance k1_chk7.dec : ∀ (v63 : IVec S16 32) (v104 : IVec S16 32), Decidable (k1_chk7 v63 v104) := fun v63 v104 => decidable_of_iff' _ (Iff.of_eq (k1_chk7.eq_1 v63 v104))
theorem k1_idx7_inb : ∀ (v63 : IVec S16 32) (v104 : IVec S16 32) (k1_hw7 : k1_chk7 v63 v104), ∀ a x, ((![v63, v104] : Fin 2 → IVec S16 32) a x).toNat < S128x128.size a := fun v63 v104 k1_hw7 => k1_hw7
def k1_off10 (k1_t2 : Fin k1_t2_loop.trips) : Fin 2 → Nat :=
  let c6_i32_104 : BitVec 32 := 6#32
  let v106 : Index := Scalar.indexCast c6_i32_104
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v107 : Index := Scalar.indexCast v64
  ![6, v107.toNat]

def k1_chk8 (v63 : IVec S16 32) (v110 : IVec S16 32) : Prop :=
  (∀ a x, ((![v63, v110] : Fin 2 → IVec S16 32) a x).toNat < S128x128.size a)
instance k1_chk8.dec : ∀ (v63 : IVec S16 32) (v110 : IVec S16 32), Decidable (k1_chk8 v63 v110) := fun v63 v110 => decidable_of_iff' _ (Iff.of_eq (k1_chk8.eq_1 v63 v110))
theorem k1_idx8_inb : ∀ (v63 : IVec S16 32) (v110 : IVec S16 32) (k1_hw8 : k1_chk8 v63 v110), ∀ a x, ((![v63, v110] : Fin 2 → IVec S16 32) a x).toNat < S128x128.size a := fun v63 v110 k1_hw8 => k1_hw8
def k1_off11 (k1_t2 : Fin k1_t2_loop.trips) : Fin 2 → Nat :=
  let c7_i32_105 : BitVec 32 := 7#32
  let v112 : Index := Scalar.indexCast c7_i32_105
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v113 : Index := Scalar.indexCast v64
  ![7, v113.toNat]

def k1_chk9 (v63 : IVec S16 32) (v116 : IVec S16 32) : Prop :=
  (∀ a x, ((![v63, v116] : Fin 2 → IVec S16 32) a x).toNat < S128x128.size a)
instance k1_chk9.dec : ∀ (v63 : IVec S16 32) (v116 : IVec S16 32), Decidable (k1_chk9 v63 v116) := fun v63 v116 => decidable_of_iff' _ (Iff.of_eq (k1_chk9.eq_1 v63 v116))
theorem k1_idx9_inb : ∀ (v63 : IVec S16 32) (v116 : IVec S16 32) (k1_hw9 : k1_chk9 v63 v116), ∀ a x, ((![v63, v116] : Fin 2 → IVec S16 32) a x).toNat < S128x128.size a := fun v63 v116 k1_hw9 => k1_hw9
def k1_off12 (k1_t2 : Fin k1_t2_loop.trips) : Fin 2 → Nat :=
  let c8_i32_107 : BitVec 32 := 8#32
  let v118 : Index := Scalar.indexCast c8_i32_107
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v119 : Index := Scalar.indexCast v64
  ![8, v119.toNat]

def k1_chk10 (v63 : IVec S16 32) (v122 : IVec S16 32) : Prop :=
  (∀ a x, ((![v63, v122] : Fin 2 → IVec S16 32) a x).toNat < S128x128.size a)
instance k1_chk10.dec : ∀ (v63 : IVec S16 32) (v122 : IVec S16 32), Decidable (k1_chk10 v63 v122) := fun v63 v122 => decidable_of_iff' _ (Iff.of_eq (k1_chk10.eq_1 v63 v122))
theorem k1_idx10_inb : ∀ (v63 : IVec S16 32) (v122 : IVec S16 32) (k1_hw10 : k1_chk10 v63 v122), ∀ a x, ((![v63, v122] : Fin 2 → IVec S16 32) a x).toNat < S128x128.size a := fun v63 v122 k1_hw10 => k1_hw10
def k1_off13 (k1_t2 : Fin k1_t2_loop.trips) : Fin 2 → Nat :=
  let c9_i32_108 : BitVec 32 := 9#32
  let v124 : Index := Scalar.indexCast c9_i32_108
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v125 : Index := Scalar.indexCast v64
  ![9, v125.toNat]

def k1_chk11 (v63 : IVec S16 32) (v128 : IVec S16 32) : Prop :=
  (∀ a x, ((![v63, v128] : Fin 2 → IVec S16 32) a x).toNat < S128x128.size a)
instance k1_chk11.dec : ∀ (v63 : IVec S16 32) (v128 : IVec S16 32), Decidable (k1_chk11 v63 v128) := fun v63 v128 => decidable_of_iff' _ (Iff.of_eq (k1_chk11.eq_1 v63 v128))
theorem k1_idx11_inb : ∀ (v63 : IVec S16 32) (v128 : IVec S16 32) (k1_hw11 : k1_chk11 v63 v128), ∀ a x, ((![v63, v128] : Fin 2 → IVec S16 32) a x).toNat < S128x128.size a := fun v63 v128 k1_hw11 => k1_hw11
def k1_off14 (k1_t2 : Fin k1_t2_loop.trips) : Fin 2 → Nat :=
  let c10_i32_109 : BitVec 32 := 10#32
  let v130 : Index := Scalar.indexCast c10_i32_109
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v131 : Index := Scalar.indexCast v64
  ![10, v131.toNat]

def k1_chk12 (v63 : IVec S16 32) (v134 : IVec S16 32) : Prop :=
  (∀ a x, ((![v63, v134] : Fin 2 → IVec S16 32) a x).toNat < S128x128.size a)
instance k1_chk12.dec : ∀ (v63 : IVec S16 32) (v134 : IVec S16 32), Decidable (k1_chk12 v63 v134) := fun v63 v134 => decidable_of_iff' _ (Iff.of_eq (k1_chk12.eq_1 v63 v134))
theorem k1_idx12_inb : ∀ (v63 : IVec S16 32) (v134 : IVec S16 32) (k1_hw12 : k1_chk12 v63 v134), ∀ a x, ((![v63, v134] : Fin 2 → IVec S16 32) a x).toNat < S128x128.size a := fun v63 v134 k1_hw12 => k1_hw12
def k1_off15 (k1_t2 : Fin k1_t2_loop.trips) : Fin 2 → Nat :=
  let c11_i32_110 : BitVec 32 := 11#32
  let v136 : Index := Scalar.indexCast c11_i32_110
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v137 : Index := Scalar.indexCast v64
  ![11, v137.toNat]

def k1_chk13 (v63 : IVec S16 32) (v140 : IVec S16 32) : Prop :=
  (∀ a x, ((![v63, v140] : Fin 2 → IVec S16 32) a x).toNat < S128x128.size a)
instance k1_chk13.dec : ∀ (v63 : IVec S16 32) (v140 : IVec S16 32), Decidable (k1_chk13 v63 v140) := fun v63 v140 => decidable_of_iff' _ (Iff.of_eq (k1_chk13.eq_1 v63 v140))
theorem k1_idx13_inb : ∀ (v63 : IVec S16 32) (v140 : IVec S16 32) (k1_hw13 : k1_chk13 v63 v140), ∀ a x, ((![v63, v140] : Fin 2 → IVec S16 32) a x).toNat < S128x128.size a := fun v63 v140 k1_hw13 => k1_hw13
def k1_off16 (k1_t2 : Fin k1_t2_loop.trips) : Fin 2 → Nat :=
  let c12_i32_111 : BitVec 32 := 12#32
  let v142 : Index := Scalar.indexCast c12_i32_111
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v143 : Index := Scalar.indexCast v64
  ![12, v143.toNat]

def k1_chk14 (v63 : IVec S16 32) (v146 : IVec S16 32) : Prop :=
  (∀ a x, ((![v63, v146] : Fin 2 → IVec S16 32) a x).toNat < S128x128.size a)
instance k1_chk14.dec : ∀ (v63 : IVec S16 32) (v146 : IVec S16 32), Decidable (k1_chk14 v63 v146) := fun v63 v146 => decidable_of_iff' _ (Iff.of_eq (k1_chk14.eq_1 v63 v146))
theorem k1_idx14_inb : ∀ (v63 : IVec S16 32) (v146 : IVec S16 32) (k1_hw14 : k1_chk14 v63 v146), ∀ a x, ((![v63, v146] : Fin 2 → IVec S16 32) a x).toNat < S128x128.size a := fun v63 v146 k1_hw14 => k1_hw14
def k1_off17 (k1_t2 : Fin k1_t2_loop.trips) : Fin 2 → Nat :=
  let c13_i32_112 : BitVec 32 := 13#32
  let v148 : Index := Scalar.indexCast c13_i32_112
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v149 : Index := Scalar.indexCast v64
  ![13, v149.toNat]

def k1_chk15 (v63 : IVec S16 32) (v152 : IVec S16 32) : Prop :=
  (∀ a x, ((![v63, v152] : Fin 2 → IVec S16 32) a x).toNat < S128x128.size a)
instance k1_chk15.dec : ∀ (v63 : IVec S16 32) (v152 : IVec S16 32), Decidable (k1_chk15 v63 v152) := fun v63 v152 => decidable_of_iff' _ (Iff.of_eq (k1_chk15.eq_1 v63 v152))
theorem k1_idx15_inb : ∀ (v63 : IVec S16 32) (v152 : IVec S16 32) (k1_hw15 : k1_chk15 v63 v152), ∀ a x, ((![v63, v152] : Fin 2 → IVec S16 32) a x).toNat < S128x128.size a := fun v63 v152 k1_hw15 => k1_hw15
def k1_off18 (k1_t2 : Fin k1_t2_loop.trips) : Fin 2 → Nat :=
  let c14_i32_113 : BitVec 32 := 14#32
  let v154 : Index := Scalar.indexCast c14_i32_113
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v155 : Index := Scalar.indexCast v64
  ![14, v155.toNat]

def k1_chk16 (v63 : IVec S16 32) (v158 : IVec S16 32) : Prop :=
  (∀ a x, ((![v63, v158] : Fin 2 → IVec S16 32) a x).toNat < S128x128.size a)
instance k1_chk16.dec : ∀ (v63 : IVec S16 32) (v158 : IVec S16 32), Decidable (k1_chk16 v63 v158) := fun v63 v158 => decidable_of_iff' _ (Iff.of_eq (k1_chk16.eq_1 v63 v158))
theorem k1_idx16_inb : ∀ (v63 : IVec S16 32) (v158 : IVec S16 32) (k1_hw16 : k1_chk16 v63 v158), ∀ a x, ((![v63, v158] : Fin 2 → IVec S16 32) a x).toNat < S128x128.size a := fun v63 v158 k1_hw16 => k1_hw16
def k1_off19 (k1_t2 : Fin k1_t2_loop.trips) : Fin 2 → Nat :=
  let c15_i32_114 : BitVec 32 := 15#32
  let v160 : Index := Scalar.indexCast c15_i32_114
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v161 : Index := Scalar.indexCast v64
  ![15, v161.toNat]

def k1_chk17 (v63 : IVec S16 32) (v164 : IVec S16 32) : Prop :=
  (∀ a x, ((![v63, v164] : Fin 2 → IVec S16 32) a x).toNat < S128x128.size a)
instance k1_chk17.dec : ∀ (v63 : IVec S16 32) (v164 : IVec S16 32), Decidable (k1_chk17 v63 v164) := fun v63 v164 => decidable_of_iff' _ (Iff.of_eq (k1_chk17.eq_1 v63 v164))
theorem k1_idx17_inb : ∀ (v63 : IVec S16 32) (v164 : IVec S16 32) (k1_hw17 : k1_chk17 v63 v164), ∀ a x, ((![v63, v164] : Fin 2 → IVec S16 32) a x).toNat < S128x128.size a := fun v63 v164 k1_hw17 => k1_hw17
def k1_off20 (k1_t2 : Fin k1_t2_loop.trips) : Fin 2 → Nat :=
  let c16_i32_116 : BitVec 32 := 16#32
  let v166 : Index := Scalar.indexCast c16_i32_116
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v167 : Index := Scalar.indexCast v64
  ![16, v167.toNat]

def k1_chk18 (v63 : IVec S16 32) (v170 : IVec S16 32) : Prop :=
  (∀ a x, ((![v63, v170] : Fin 2 → IVec S16 32) a x).toNat < S128x128.size a)
instance k1_chk18.dec : ∀ (v63 : IVec S16 32) (v170 : IVec S16 32), Decidable (k1_chk18 v63 v170) := fun v63 v170 => decidable_of_iff' _ (Iff.of_eq (k1_chk18.eq_1 v63 v170))
theorem k1_idx18_inb : ∀ (v63 : IVec S16 32) (v170 : IVec S16 32) (k1_hw18 : k1_chk18 v63 v170), ∀ a x, ((![v63, v170] : Fin 2 → IVec S16 32) a x).toNat < S128x128.size a := fun v63 v170 k1_hw18 => k1_hw18
def k1_off21 (k1_t2 : Fin k1_t2_loop.trips) : Fin 2 → Nat :=
  let c17_i32_117 : BitVec 32 := 17#32
  let v172 : Index := Scalar.indexCast c17_i32_117
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v173 : Index := Scalar.indexCast v64
  ![17, v173.toNat]

def k1_chk19 (v63 : IVec S16 32) (v176 : IVec S16 32) : Prop :=
  (∀ a x, ((![v63, v176] : Fin 2 → IVec S16 32) a x).toNat < S128x128.size a)
instance k1_chk19.dec : ∀ (v63 : IVec S16 32) (v176 : IVec S16 32), Decidable (k1_chk19 v63 v176) := fun v63 v176 => decidable_of_iff' _ (Iff.of_eq (k1_chk19.eq_1 v63 v176))
theorem k1_idx19_inb : ∀ (v63 : IVec S16 32) (v176 : IVec S16 32) (k1_hw19 : k1_chk19 v63 v176), ∀ a x, ((![v63, v176] : Fin 2 → IVec S16 32) a x).toNat < S128x128.size a := fun v63 v176 k1_hw19 => k1_hw19
def k1_off22 (k1_t2 : Fin k1_t2_loop.trips) : Fin 2 → Nat :=
  let c18_i32_118 : BitVec 32 := 18#32
  let v178 : Index := Scalar.indexCast c18_i32_118
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v179 : Index := Scalar.indexCast v64
  ![18, v179.toNat]

def k1_chk20 (v63 : IVec S16 32) (v182 : IVec S16 32) : Prop :=
  (∀ a x, ((![v63, v182] : Fin 2 → IVec S16 32) a x).toNat < S128x128.size a)
instance k1_chk20.dec : ∀ (v63 : IVec S16 32) (v182 : IVec S16 32), Decidable (k1_chk20 v63 v182) := fun v63 v182 => decidable_of_iff' _ (Iff.of_eq (k1_chk20.eq_1 v63 v182))
theorem k1_idx20_inb : ∀ (v63 : IVec S16 32) (v182 : IVec S16 32) (k1_hw20 : k1_chk20 v63 v182), ∀ a x, ((![v63, v182] : Fin 2 → IVec S16 32) a x).toNat < S128x128.size a := fun v63 v182 k1_hw20 => k1_hw20
def k1_off23 (k1_t2 : Fin k1_t2_loop.trips) : Fin 2 → Nat :=
  let c19_i32_119 : BitVec 32 := 19#32
  let v184 : Index := Scalar.indexCast c19_i32_119
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v185 : Index := Scalar.indexCast v64
  ![19, v185.toNat]

def k1_chk21 (v63 : IVec S16 32) (v188 : IVec S16 32) : Prop :=
  (∀ a x, ((![v63, v188] : Fin 2 → IVec S16 32) a x).toNat < S128x128.size a)
instance k1_chk21.dec : ∀ (v63 : IVec S16 32) (v188 : IVec S16 32), Decidable (k1_chk21 v63 v188) := fun v63 v188 => decidable_of_iff' _ (Iff.of_eq (k1_chk21.eq_1 v63 v188))
theorem k1_idx21_inb : ∀ (v63 : IVec S16 32) (v188 : IVec S16 32) (k1_hw21 : k1_chk21 v63 v188), ∀ a x, ((![v63, v188] : Fin 2 → IVec S16 32) a x).toNat < S128x128.size a := fun v63 v188 k1_hw21 => k1_hw21
def k1_off24 (k1_t2 : Fin k1_t2_loop.trips) : Fin 2 → Nat :=
  let c20_i32_120 : BitVec 32 := 20#32
  let v190 : Index := Scalar.indexCast c20_i32_120
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v191 : Index := Scalar.indexCast v64
  ![20, v191.toNat]

def k1_chk22 (v63 : IVec S16 32) (v194 : IVec S16 32) : Prop :=
  (∀ a x, ((![v63, v194] : Fin 2 → IVec S16 32) a x).toNat < S128x128.size a)
instance k1_chk22.dec : ∀ (v63 : IVec S16 32) (v194 : IVec S16 32), Decidable (k1_chk22 v63 v194) := fun v63 v194 => decidable_of_iff' _ (Iff.of_eq (k1_chk22.eq_1 v63 v194))
theorem k1_idx22_inb : ∀ (v63 : IVec S16 32) (v194 : IVec S16 32) (k1_hw22 : k1_chk22 v63 v194), ∀ a x, ((![v63, v194] : Fin 2 → IVec S16 32) a x).toNat < S128x128.size a := fun v63 v194 k1_hw22 => k1_hw22
def k1_off25 (k1_t2 : Fin k1_t2_loop.trips) : Fin 2 → Nat :=
  let c21_i32_121 : BitVec 32 := 21#32
  let v196 : Index := Scalar.indexCast c21_i32_121
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v197 : Index := Scalar.indexCast v64
  ![21, v197.toNat]

def k1_chk23 (v63 : IVec S16 32) (v200 : IVec S16 32) : Prop :=
  (∀ a x, ((![v63, v200] : Fin 2 → IVec S16 32) a x).toNat < S128x128.size a)
instance k1_chk23.dec : ∀ (v63 : IVec S16 32) (v200 : IVec S16 32), Decidable (k1_chk23 v63 v200) := fun v63 v200 => decidable_of_iff' _ (Iff.of_eq (k1_chk23.eq_1 v63 v200))
theorem k1_idx23_inb : ∀ (v63 : IVec S16 32) (v200 : IVec S16 32) (k1_hw23 : k1_chk23 v63 v200), ∀ a x, ((![v63, v200] : Fin 2 → IVec S16 32) a x).toNat < S128x128.size a := fun v63 v200 k1_hw23 => k1_hw23
def k1_off26 (k1_t2 : Fin k1_t2_loop.trips) : Fin 2 → Nat :=
  let c22_i32_122 : BitVec 32 := 22#32
  let v202 : Index := Scalar.indexCast c22_i32_122
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v203 : Index := Scalar.indexCast v64
  ![22, v203.toNat]

def k1_chk24 (v63 : IVec S16 32) (v206 : IVec S16 32) : Prop :=
  (∀ a x, ((![v63, v206] : Fin 2 → IVec S16 32) a x).toNat < S128x128.size a)
instance k1_chk24.dec : ∀ (v63 : IVec S16 32) (v206 : IVec S16 32), Decidable (k1_chk24 v63 v206) := fun v63 v206 => decidable_of_iff' _ (Iff.of_eq (k1_chk24.eq_1 v63 v206))
theorem k1_idx24_inb : ∀ (v63 : IVec S16 32) (v206 : IVec S16 32) (k1_hw24 : k1_chk24 v63 v206), ∀ a x, ((![v63, v206] : Fin 2 → IVec S16 32) a x).toNat < S128x128.size a := fun v63 v206 k1_hw24 => k1_hw24
def k1_off27 (k1_t2 : Fin k1_t2_loop.trips) : Fin 2 → Nat :=
  let c23_i32_123 : BitVec 32 := 23#32
  let v208 : Index := Scalar.indexCast c23_i32_123
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v209 : Index := Scalar.indexCast v64
  ![23, v209.toNat]

def k1_chk25 (v63 : IVec S16 32) (v212 : IVec S16 32) : Prop :=
  (∀ a x, ((![v63, v212] : Fin 2 → IVec S16 32) a x).toNat < S128x128.size a)
instance k1_chk25.dec : ∀ (v63 : IVec S16 32) (v212 : IVec S16 32), Decidable (k1_chk25 v63 v212) := fun v63 v212 => decidable_of_iff' _ (Iff.of_eq (k1_chk25.eq_1 v63 v212))
theorem k1_idx25_inb : ∀ (v63 : IVec S16 32) (v212 : IVec S16 32) (k1_hw25 : k1_chk25 v63 v212), ∀ a x, ((![v63, v212] : Fin 2 → IVec S16 32) a x).toNat < S128x128.size a := fun v63 v212 k1_hw25 => k1_hw25
def k1_off28 (k1_t2 : Fin k1_t2_loop.trips) : Fin 2 → Nat :=
  let c24_i32_124 : BitVec 32 := 24#32
  let v214 : Index := Scalar.indexCast c24_i32_124
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v215 : Index := Scalar.indexCast v64
  ![24, v215.toNat]

def k1_chk26 (v63 : IVec S16 32) (v218 : IVec S16 32) : Prop :=
  (∀ a x, ((![v63, v218] : Fin 2 → IVec S16 32) a x).toNat < S128x128.size a)
instance k1_chk26.dec : ∀ (v63 : IVec S16 32) (v218 : IVec S16 32), Decidable (k1_chk26 v63 v218) := fun v63 v218 => decidable_of_iff' _ (Iff.of_eq (k1_chk26.eq_1 v63 v218))
theorem k1_idx26_inb : ∀ (v63 : IVec S16 32) (v218 : IVec S16 32) (k1_hw26 : k1_chk26 v63 v218), ∀ a x, ((![v63, v218] : Fin 2 → IVec S16 32) a x).toNat < S128x128.size a := fun v63 v218 k1_hw26 => k1_hw26
def k1_off29 (k1_t2 : Fin k1_t2_loop.trips) : Fin 2 → Nat :=
  let c25_i32_125 : BitVec 32 := 25#32
  let v220 : Index := Scalar.indexCast c25_i32_125
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v221 : Index := Scalar.indexCast v64
  ![25, v221.toNat]

def k1_chk27 (v63 : IVec S16 32) (v224 : IVec S16 32) : Prop :=
  (∀ a x, ((![v63, v224] : Fin 2 → IVec S16 32) a x).toNat < S128x128.size a)
instance k1_chk27.dec : ∀ (v63 : IVec S16 32) (v224 : IVec S16 32), Decidable (k1_chk27 v63 v224) := fun v63 v224 => decidable_of_iff' _ (Iff.of_eq (k1_chk27.eq_1 v63 v224))
theorem k1_idx27_inb : ∀ (v63 : IVec S16 32) (v224 : IVec S16 32) (k1_hw27 : k1_chk27 v63 v224), ∀ a x, ((![v63, v224] : Fin 2 → IVec S16 32) a x).toNat < S128x128.size a := fun v63 v224 k1_hw27 => k1_hw27
def k1_off30 (k1_t2 : Fin k1_t2_loop.trips) : Fin 2 → Nat :=
  let c26_i32_126 : BitVec 32 := 26#32
  let v226 : Index := Scalar.indexCast c26_i32_126
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v227 : Index := Scalar.indexCast v64
  ![26, v227.toNat]

def k1_chk28 (v63 : IVec S16 32) (v230 : IVec S16 32) : Prop :=
  (∀ a x, ((![v63, v230] : Fin 2 → IVec S16 32) a x).toNat < S128x128.size a)
instance k1_chk28.dec : ∀ (v63 : IVec S16 32) (v230 : IVec S16 32), Decidable (k1_chk28 v63 v230) := fun v63 v230 => decidable_of_iff' _ (Iff.of_eq (k1_chk28.eq_1 v63 v230))
theorem k1_idx28_inb : ∀ (v63 : IVec S16 32) (v230 : IVec S16 32) (k1_hw28 : k1_chk28 v63 v230), ∀ a x, ((![v63, v230] : Fin 2 → IVec S16 32) a x).toNat < S128x128.size a := fun v63 v230 k1_hw28 => k1_hw28
def k1_off31 (k1_t2 : Fin k1_t2_loop.trips) : Fin 2 → Nat :=
  let c27_i32_127 : BitVec 32 := 27#32
  let v232 : Index := Scalar.indexCast c27_i32_127
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v233 : Index := Scalar.indexCast v64
  ![27, v233.toNat]

def k1_chk29 (v63 : IVec S16 32) (v236 : IVec S16 32) : Prop :=
  (∀ a x, ((![v63, v236] : Fin 2 → IVec S16 32) a x).toNat < S128x128.size a)
instance k1_chk29.dec : ∀ (v63 : IVec S16 32) (v236 : IVec S16 32), Decidable (k1_chk29 v63 v236) := fun v63 v236 => decidable_of_iff' _ (Iff.of_eq (k1_chk29.eq_1 v63 v236))
theorem k1_idx29_inb : ∀ (v63 : IVec S16 32) (v236 : IVec S16 32) (k1_hw29 : k1_chk29 v63 v236), ∀ a x, ((![v63, v236] : Fin 2 → IVec S16 32) a x).toNat < S128x128.size a := fun v63 v236 k1_hw29 => k1_hw29
def k1_off32 (k1_t2 : Fin k1_t2_loop.trips) : Fin 2 → Nat :=
  let c28_i32_128 : BitVec 32 := 28#32
  let v238 : Index := Scalar.indexCast c28_i32_128
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v239 : Index := Scalar.indexCast v64
  ![28, v239.toNat]

def k1_chk30 (v63 : IVec S16 32) (v242 : IVec S16 32) : Prop :=
  (∀ a x, ((![v63, v242] : Fin 2 → IVec S16 32) a x).toNat < S128x128.size a)
instance k1_chk30.dec : ∀ (v63 : IVec S16 32) (v242 : IVec S16 32), Decidable (k1_chk30 v63 v242) := fun v63 v242 => decidable_of_iff' _ (Iff.of_eq (k1_chk30.eq_1 v63 v242))
theorem k1_idx30_inb : ∀ (v63 : IVec S16 32) (v242 : IVec S16 32) (k1_hw30 : k1_chk30 v63 v242), ∀ a x, ((![v63, v242] : Fin 2 → IVec S16 32) a x).toNat < S128x128.size a := fun v63 v242 k1_hw30 => k1_hw30
def k1_off33 (k1_t2 : Fin k1_t2_loop.trips) : Fin 2 → Nat :=
  let c29_i32_129 : BitVec 32 := 29#32
  let v244 : Index := Scalar.indexCast c29_i32_129
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v245 : Index := Scalar.indexCast v64
  ![29, v245.toNat]

def k1_chk31 (v63 : IVec S16 32) (v248 : IVec S16 32) : Prop :=
  (∀ a x, ((![v63, v248] : Fin 2 → IVec S16 32) a x).toNat < S128x128.size a)
instance k1_chk31.dec : ∀ (v63 : IVec S16 32) (v248 : IVec S16 32), Decidable (k1_chk31 v63 v248) := fun v63 v248 => decidable_of_iff' _ (Iff.of_eq (k1_chk31.eq_1 v63 v248))
theorem k1_idx31_inb : ∀ (v63 : IVec S16 32) (v248 : IVec S16 32) (k1_hw31 : k1_chk31 v63 v248), ∀ a x, ((![v63, v248] : Fin 2 → IVec S16 32) a x).toNat < S128x128.size a := fun v63 v248 k1_hw31 => k1_hw31
def k1_off34 (k1_t2 : Fin k1_t2_loop.trips) : Fin 2 → Nat :=
  let c30_i32_130 : BitVec 32 := 30#32
  let v250 : Index := Scalar.indexCast c30_i32_130
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v251 : Index := Scalar.indexCast v64
  ![30, v251.toNat]

def k1_chk32 (v63 : IVec S16 32) (v254 : IVec S16 32) : Prop :=
  (∀ a x, ((![v63, v254] : Fin 2 → IVec S16 32) a x).toNat < S128x128.size a)
instance k1_chk32.dec : ∀ (v63 : IVec S16 32) (v254 : IVec S16 32), Decidable (k1_chk32 v63 v254) := fun v63 v254 => decidable_of_iff' _ (Iff.of_eq (k1_chk32.eq_1 v63 v254))
theorem k1_idx32_inb : ∀ (v63 : IVec S16 32) (v254 : IVec S16 32) (k1_hw32 : k1_chk32 v63 v254), ∀ a x, ((![v63, v254] : Fin 2 → IVec S16 32) a x).toNat < S128x128.size a := fun v63 v254 k1_hw32 => k1_hw32
def k1_off35 (k1_t2 : Fin k1_t2_loop.trips) : Fin 2 → Nat :=
  let c31_i32_131 : BitVec 32 := 31#32
  let v256 : Index := Scalar.indexCast c31_i32_131
  let c0_i32_94 : BitVec 32 := 0#32
  let c0_i32_11 : BitVec 32 := 0#32
  let c1_i32_12 : BitVec 32 := 1#32
  let arg14 : BitVec 32 := Scf.iv c0_i32_11 c1_i32_12 k1_t2
  let c16_i32 : BitVec 32 := 16#32
  let v61 : BitVec 32 := Scalar.muli arg14 c16_i32
  let v64 : BitVec 32 := Scalar.addi c0_i32_94 v61
  let v257 : Index := Scalar.indexCast v64
  ![31, v257.toNat]
def k1_off36 (i : grid1.Coords) (c0_i32_16 : BitVec 32) : Fin 2 → Nat :=
  let c0_i32_19 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v14 : BitVec 32 := Scalar.addi v2 c0_i32_16
  ![0, v14.toNat]
@[reducible] def k1_t3_loop : Scf.Loop 32 :=
  let c0_i32_27 : BitVec 32 := 0#32
  let c8_i32_28 : BitVec 32 := 8#32
  let v21 : BitVec 32 := Scalar.addi c0_i32_27 c8_i32_28
  let c1_i32_29 : BitVec 32 := 1#32
  ⟨c0_i32_27, v21, c1_i32_29⟩
def k1_off37 (k1_t3 : Fin k1_t3_loop.trips) : Fin 1 → Nat :=
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v65 : Index := Scalar.indexCast v64
  ![v65.toNat]

def k1_chk33 (v63 : IVec S16 32) (v68 : IVec S16 32) : Prop :=
  (∀ a x, ((![v63, v68] : Fin 2 → IVec S16 32) a x).toNat < S128x128.size a)
instance k1_chk33.dec : ∀ (v63 : IVec S16 32) (v68 : IVec S16 32), Decidable (k1_chk33 v63 v68) := fun v63 v68 => decidable_of_iff' _ (Iff.of_eq (k1_chk33.eq_1 v63 v68))
theorem k1_idx33_inb : ∀ (v63 : IVec S16 32) (v68 : IVec S16 32) (k1_hw33 : k1_chk33 v63 v68), ∀ a x, ((![v63, v68] : Fin 2 → IVec S16 32) a x).toNat < S128x128.size a := fun v63 v68 k1_hw33 => k1_hw33
def k1_off38 (k1_t3 : Fin k1_t3_loop.trips) : Fin 2 → Nat :=
  let c0_i32_96 : BitVec 32 := 0#32
  let v70 : Index := Scalar.indexCast c0_i32_96
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v71 : Index := Scalar.indexCast v64
  ![0, v71.toNat]

def k1_chk34 (v63 : IVec S16 32) (v74 : IVec S16 32) : Prop :=
  (∀ a x, ((![v63, v74] : Fin 2 → IVec S16 32) a x).toNat < S128x128.size a)
instance k1_chk34.dec : ∀ (v63 : IVec S16 32) (v74 : IVec S16 32), Decidable (k1_chk34 v63 v74) := fun v63 v74 => decidable_of_iff' _ (Iff.of_eq (k1_chk34.eq_1 v63 v74))
theorem k1_idx34_inb : ∀ (v63 : IVec S16 32) (v74 : IVec S16 32) (k1_hw34 : k1_chk34 v63 v74), ∀ a x, ((![v63, v74] : Fin 2 → IVec S16 32) a x).toNat < S128x128.size a := fun v63 v74 k1_hw34 => k1_hw34
def k1_off39 (k1_t3 : Fin k1_t3_loop.trips) : Fin 2 → Nat :=
  let c1_i32_98 : BitVec 32 := 1#32
  let v76 : Index := Scalar.indexCast c1_i32_98
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v77 : Index := Scalar.indexCast v64
  ![1, v77.toNat]

def k1_chk35 (v63 : IVec S16 32) (v80 : IVec S16 32) : Prop :=
  (∀ a x, ((![v63, v80] : Fin 2 → IVec S16 32) a x).toNat < S128x128.size a)
instance k1_chk35.dec : ∀ (v63 : IVec S16 32) (v80 : IVec S16 32), Decidable (k1_chk35 v63 v80) := fun v63 v80 => decidable_of_iff' _ (Iff.of_eq (k1_chk35.eq_1 v63 v80))
theorem k1_idx35_inb : ∀ (v63 : IVec S16 32) (v80 : IVec S16 32) (k1_hw35 : k1_chk35 v63 v80), ∀ a x, ((![v63, v80] : Fin 2 → IVec S16 32) a x).toNat < S128x128.size a := fun v63 v80 k1_hw35 => k1_hw35
def k1_off40 (k1_t3 : Fin k1_t3_loop.trips) : Fin 2 → Nat :=
  let c2_i32_100 : BitVec 32 := 2#32
  let v82 : Index := Scalar.indexCast c2_i32_100
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v83 : Index := Scalar.indexCast v64
  ![2, v83.toNat]

def k1_chk36 (v63 : IVec S16 32) (v86 : IVec S16 32) : Prop :=
  (∀ a x, ((![v63, v86] : Fin 2 → IVec S16 32) a x).toNat < S128x128.size a)
instance k1_chk36.dec : ∀ (v63 : IVec S16 32) (v86 : IVec S16 32), Decidable (k1_chk36 v63 v86) := fun v63 v86 => decidable_of_iff' _ (Iff.of_eq (k1_chk36.eq_1 v63 v86))
theorem k1_idx36_inb : ∀ (v63 : IVec S16 32) (v86 : IVec S16 32) (k1_hw36 : k1_chk36 v63 v86), ∀ a x, ((![v63, v86] : Fin 2 → IVec S16 32) a x).toNat < S128x128.size a := fun v63 v86 k1_hw36 => k1_hw36
def k1_off41 (k1_t3 : Fin k1_t3_loop.trips) : Fin 2 → Nat :=
  let c3_i32_101 : BitVec 32 := 3#32
  let v88 : Index := Scalar.indexCast c3_i32_101
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v89 : Index := Scalar.indexCast v64
  ![3, v89.toNat]

def k1_chk37 (v63 : IVec S16 32) (v92 : IVec S16 32) : Prop :=
  (∀ a x, ((![v63, v92] : Fin 2 → IVec S16 32) a x).toNat < S128x128.size a)
instance k1_chk37.dec : ∀ (v63 : IVec S16 32) (v92 : IVec S16 32), Decidable (k1_chk37 v63 v92) := fun v63 v92 => decidable_of_iff' _ (Iff.of_eq (k1_chk37.eq_1 v63 v92))
theorem k1_idx37_inb : ∀ (v63 : IVec S16 32) (v92 : IVec S16 32) (k1_hw37 : k1_chk37 v63 v92), ∀ a x, ((![v63, v92] : Fin 2 → IVec S16 32) a x).toNat < S128x128.size a := fun v63 v92 k1_hw37 => k1_hw37
def k1_off42 (k1_t3 : Fin k1_t3_loop.trips) : Fin 2 → Nat :=
  let c4_i32_102 : BitVec 32 := 4#32
  let v94 : Index := Scalar.indexCast c4_i32_102
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v95 : Index := Scalar.indexCast v64
  ![4, v95.toNat]

def k1_chk38 (v63 : IVec S16 32) (v98 : IVec S16 32) : Prop :=
  (∀ a x, ((![v63, v98] : Fin 2 → IVec S16 32) a x).toNat < S128x128.size a)
instance k1_chk38.dec : ∀ (v63 : IVec S16 32) (v98 : IVec S16 32), Decidable (k1_chk38 v63 v98) := fun v63 v98 => decidable_of_iff' _ (Iff.of_eq (k1_chk38.eq_1 v63 v98))
theorem k1_idx38_inb : ∀ (v63 : IVec S16 32) (v98 : IVec S16 32) (k1_hw38 : k1_chk38 v63 v98), ∀ a x, ((![v63, v98] : Fin 2 → IVec S16 32) a x).toNat < S128x128.size a := fun v63 v98 k1_hw38 => k1_hw38
def k1_off43 (k1_t3 : Fin k1_t3_loop.trips) : Fin 2 → Nat :=
  let c5_i32_103 : BitVec 32 := 5#32
  let v100 : Index := Scalar.indexCast c5_i32_103
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v101 : Index := Scalar.indexCast v64
  ![5, v101.toNat]

def k1_chk39 (v63 : IVec S16 32) (v104 : IVec S16 32) : Prop :=
  (∀ a x, ((![v63, v104] : Fin 2 → IVec S16 32) a x).toNat < S128x128.size a)
instance k1_chk39.dec : ∀ (v63 : IVec S16 32) (v104 : IVec S16 32), Decidable (k1_chk39 v63 v104) := fun v63 v104 => decidable_of_iff' _ (Iff.of_eq (k1_chk39.eq_1 v63 v104))
theorem k1_idx39_inb : ∀ (v63 : IVec S16 32) (v104 : IVec S16 32) (k1_hw39 : k1_chk39 v63 v104), ∀ a x, ((![v63, v104] : Fin 2 → IVec S16 32) a x).toNat < S128x128.size a := fun v63 v104 k1_hw39 => k1_hw39
def k1_off44 (k1_t3 : Fin k1_t3_loop.trips) : Fin 2 → Nat :=
  let c6_i32_104 : BitVec 32 := 6#32
  let v106 : Index := Scalar.indexCast c6_i32_104
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v107 : Index := Scalar.indexCast v64
  ![6, v107.toNat]

def k1_chk40 (v63 : IVec S16 32) (v110 : IVec S16 32) : Prop :=
  (∀ a x, ((![v63, v110] : Fin 2 → IVec S16 32) a x).toNat < S128x128.size a)
instance k1_chk40.dec : ∀ (v63 : IVec S16 32) (v110 : IVec S16 32), Decidable (k1_chk40 v63 v110) := fun v63 v110 => decidable_of_iff' _ (Iff.of_eq (k1_chk40.eq_1 v63 v110))
theorem k1_idx40_inb : ∀ (v63 : IVec S16 32) (v110 : IVec S16 32) (k1_hw40 : k1_chk40 v63 v110), ∀ a x, ((![v63, v110] : Fin 2 → IVec S16 32) a x).toNat < S128x128.size a := fun v63 v110 k1_hw40 => k1_hw40
def k1_off45 (k1_t3 : Fin k1_t3_loop.trips) : Fin 2 → Nat :=
  let c7_i32_105 : BitVec 32 := 7#32
  let v112 : Index := Scalar.indexCast c7_i32_105
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v113 : Index := Scalar.indexCast v64
  ![7, v113.toNat]

def k1_chk41 (v63 : IVec S16 32) (v116 : IVec S16 32) : Prop :=
  (∀ a x, ((![v63, v116] : Fin 2 → IVec S16 32) a x).toNat < S128x128.size a)
instance k1_chk41.dec : ∀ (v63 : IVec S16 32) (v116 : IVec S16 32), Decidable (k1_chk41 v63 v116) := fun v63 v116 => decidable_of_iff' _ (Iff.of_eq (k1_chk41.eq_1 v63 v116))
theorem k1_idx41_inb : ∀ (v63 : IVec S16 32) (v116 : IVec S16 32) (k1_hw41 : k1_chk41 v63 v116), ∀ a x, ((![v63, v116] : Fin 2 → IVec S16 32) a x).toNat < S128x128.size a := fun v63 v116 k1_hw41 => k1_hw41
def k1_off46 (k1_t3 : Fin k1_t3_loop.trips) : Fin 2 → Nat :=
  let c8_i32_107 : BitVec 32 := 8#32
  let v118 : Index := Scalar.indexCast c8_i32_107
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v119 : Index := Scalar.indexCast v64
  ![8, v119.toNat]

def k1_chk42 (v63 : IVec S16 32) (v122 : IVec S16 32) : Prop :=
  (∀ a x, ((![v63, v122] : Fin 2 → IVec S16 32) a x).toNat < S128x128.size a)
instance k1_chk42.dec : ∀ (v63 : IVec S16 32) (v122 : IVec S16 32), Decidable (k1_chk42 v63 v122) := fun v63 v122 => decidable_of_iff' _ (Iff.of_eq (k1_chk42.eq_1 v63 v122))
theorem k1_idx42_inb : ∀ (v63 : IVec S16 32) (v122 : IVec S16 32) (k1_hw42 : k1_chk42 v63 v122), ∀ a x, ((![v63, v122] : Fin 2 → IVec S16 32) a x).toNat < S128x128.size a := fun v63 v122 k1_hw42 => k1_hw42
def k1_off47 (k1_t3 : Fin k1_t3_loop.trips) : Fin 2 → Nat :=
  let c9_i32_108 : BitVec 32 := 9#32
  let v124 : Index := Scalar.indexCast c9_i32_108
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v125 : Index := Scalar.indexCast v64
  ![9, v125.toNat]

def k1_chk43 (v63 : IVec S16 32) (v128 : IVec S16 32) : Prop :=
  (∀ a x, ((![v63, v128] : Fin 2 → IVec S16 32) a x).toNat < S128x128.size a)
instance k1_chk43.dec : ∀ (v63 : IVec S16 32) (v128 : IVec S16 32), Decidable (k1_chk43 v63 v128) := fun v63 v128 => decidable_of_iff' _ (Iff.of_eq (k1_chk43.eq_1 v63 v128))
theorem k1_idx43_inb : ∀ (v63 : IVec S16 32) (v128 : IVec S16 32) (k1_hw43 : k1_chk43 v63 v128), ∀ a x, ((![v63, v128] : Fin 2 → IVec S16 32) a x).toNat < S128x128.size a := fun v63 v128 k1_hw43 => k1_hw43
def k1_off48 (k1_t3 : Fin k1_t3_loop.trips) : Fin 2 → Nat :=
  let c10_i32_109 : BitVec 32 := 10#32
  let v130 : Index := Scalar.indexCast c10_i32_109
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v131 : Index := Scalar.indexCast v64
  ![10, v131.toNat]

def k1_chk44 (v63 : IVec S16 32) (v134 : IVec S16 32) : Prop :=
  (∀ a x, ((![v63, v134] : Fin 2 → IVec S16 32) a x).toNat < S128x128.size a)
instance k1_chk44.dec : ∀ (v63 : IVec S16 32) (v134 : IVec S16 32), Decidable (k1_chk44 v63 v134) := fun v63 v134 => decidable_of_iff' _ (Iff.of_eq (k1_chk44.eq_1 v63 v134))
theorem k1_idx44_inb : ∀ (v63 : IVec S16 32) (v134 : IVec S16 32) (k1_hw44 : k1_chk44 v63 v134), ∀ a x, ((![v63, v134] : Fin 2 → IVec S16 32) a x).toNat < S128x128.size a := fun v63 v134 k1_hw44 => k1_hw44
def k1_off49 (k1_t3 : Fin k1_t3_loop.trips) : Fin 2 → Nat :=
  let c11_i32_110 : BitVec 32 := 11#32
  let v136 : Index := Scalar.indexCast c11_i32_110
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v137 : Index := Scalar.indexCast v64
  ![11, v137.toNat]

def k1_chk45 (v63 : IVec S16 32) (v140 : IVec S16 32) : Prop :=
  (∀ a x, ((![v63, v140] : Fin 2 → IVec S16 32) a x).toNat < S128x128.size a)
instance k1_chk45.dec : ∀ (v63 : IVec S16 32) (v140 : IVec S16 32), Decidable (k1_chk45 v63 v140) := fun v63 v140 => decidable_of_iff' _ (Iff.of_eq (k1_chk45.eq_1 v63 v140))
theorem k1_idx45_inb : ∀ (v63 : IVec S16 32) (v140 : IVec S16 32) (k1_hw45 : k1_chk45 v63 v140), ∀ a x, ((![v63, v140] : Fin 2 → IVec S16 32) a x).toNat < S128x128.size a := fun v63 v140 k1_hw45 => k1_hw45
def k1_off50 (k1_t3 : Fin k1_t3_loop.trips) : Fin 2 → Nat :=
  let c12_i32_111 : BitVec 32 := 12#32
  let v142 : Index := Scalar.indexCast c12_i32_111
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v143 : Index := Scalar.indexCast v64
  ![12, v143.toNat]

def k1_chk46 (v63 : IVec S16 32) (v146 : IVec S16 32) : Prop :=
  (∀ a x, ((![v63, v146] : Fin 2 → IVec S16 32) a x).toNat < S128x128.size a)
instance k1_chk46.dec : ∀ (v63 : IVec S16 32) (v146 : IVec S16 32), Decidable (k1_chk46 v63 v146) := fun v63 v146 => decidable_of_iff' _ (Iff.of_eq (k1_chk46.eq_1 v63 v146))
theorem k1_idx46_inb : ∀ (v63 : IVec S16 32) (v146 : IVec S16 32) (k1_hw46 : k1_chk46 v63 v146), ∀ a x, ((![v63, v146] : Fin 2 → IVec S16 32) a x).toNat < S128x128.size a := fun v63 v146 k1_hw46 => k1_hw46
def k1_off51 (k1_t3 : Fin k1_t3_loop.trips) : Fin 2 → Nat :=
  let c13_i32_112 : BitVec 32 := 13#32
  let v148 : Index := Scalar.indexCast c13_i32_112
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v149 : Index := Scalar.indexCast v64
  ![13, v149.toNat]

def k1_chk47 (v63 : IVec S16 32) (v152 : IVec S16 32) : Prop :=
  (∀ a x, ((![v63, v152] : Fin 2 → IVec S16 32) a x).toNat < S128x128.size a)
instance k1_chk47.dec : ∀ (v63 : IVec S16 32) (v152 : IVec S16 32), Decidable (k1_chk47 v63 v152) := fun v63 v152 => decidable_of_iff' _ (Iff.of_eq (k1_chk47.eq_1 v63 v152))
theorem k1_idx47_inb : ∀ (v63 : IVec S16 32) (v152 : IVec S16 32) (k1_hw47 : k1_chk47 v63 v152), ∀ a x, ((![v63, v152] : Fin 2 → IVec S16 32) a x).toNat < S128x128.size a := fun v63 v152 k1_hw47 => k1_hw47
def k1_off52 (k1_t3 : Fin k1_t3_loop.trips) : Fin 2 → Nat :=
  let c14_i32_113 : BitVec 32 := 14#32
  let v154 : Index := Scalar.indexCast c14_i32_113
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v155 : Index := Scalar.indexCast v64
  ![14, v155.toNat]

def k1_chk48 (v63 : IVec S16 32) (v158 : IVec S16 32) : Prop :=
  (∀ a x, ((![v63, v158] : Fin 2 → IVec S16 32) a x).toNat < S128x128.size a)
instance k1_chk48.dec : ∀ (v63 : IVec S16 32) (v158 : IVec S16 32), Decidable (k1_chk48 v63 v158) := fun v63 v158 => decidable_of_iff' _ (Iff.of_eq (k1_chk48.eq_1 v63 v158))
theorem k1_idx48_inb : ∀ (v63 : IVec S16 32) (v158 : IVec S16 32) (k1_hw48 : k1_chk48 v63 v158), ∀ a x, ((![v63, v158] : Fin 2 → IVec S16 32) a x).toNat < S128x128.size a := fun v63 v158 k1_hw48 => k1_hw48
def k1_off53 (k1_t3 : Fin k1_t3_loop.trips) : Fin 2 → Nat :=
  let c15_i32_114 : BitVec 32 := 15#32
  let v160 : Index := Scalar.indexCast c15_i32_114
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v161 : Index := Scalar.indexCast v64
  ![15, v161.toNat]

def k1_chk49 (v63 : IVec S16 32) (v164 : IVec S16 32) : Prop :=
  (∀ a x, ((![v63, v164] : Fin 2 → IVec S16 32) a x).toNat < S128x128.size a)
instance k1_chk49.dec : ∀ (v63 : IVec S16 32) (v164 : IVec S16 32), Decidable (k1_chk49 v63 v164) := fun v63 v164 => decidable_of_iff' _ (Iff.of_eq (k1_chk49.eq_1 v63 v164))
theorem k1_idx49_inb : ∀ (v63 : IVec S16 32) (v164 : IVec S16 32) (k1_hw49 : k1_chk49 v63 v164), ∀ a x, ((![v63, v164] : Fin 2 → IVec S16 32) a x).toNat < S128x128.size a := fun v63 v164 k1_hw49 => k1_hw49
def k1_off54 (k1_t3 : Fin k1_t3_loop.trips) : Fin 2 → Nat :=
  let c16_i32_116 : BitVec 32 := 16#32
  let v166 : Index := Scalar.indexCast c16_i32_116
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v167 : Index := Scalar.indexCast v64
  ![16, v167.toNat]

def k1_chk50 (v63 : IVec S16 32) (v170 : IVec S16 32) : Prop :=
  (∀ a x, ((![v63, v170] : Fin 2 → IVec S16 32) a x).toNat < S128x128.size a)
instance k1_chk50.dec : ∀ (v63 : IVec S16 32) (v170 : IVec S16 32), Decidable (k1_chk50 v63 v170) := fun v63 v170 => decidable_of_iff' _ (Iff.of_eq (k1_chk50.eq_1 v63 v170))
theorem k1_idx50_inb : ∀ (v63 : IVec S16 32) (v170 : IVec S16 32) (k1_hw50 : k1_chk50 v63 v170), ∀ a x, ((![v63, v170] : Fin 2 → IVec S16 32) a x).toNat < S128x128.size a := fun v63 v170 k1_hw50 => k1_hw50
def k1_off55 (k1_t3 : Fin k1_t3_loop.trips) : Fin 2 → Nat :=
  let c17_i32_117 : BitVec 32 := 17#32
  let v172 : Index := Scalar.indexCast c17_i32_117
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v173 : Index := Scalar.indexCast v64
  ![17, v173.toNat]

def k1_chk51 (v63 : IVec S16 32) (v176 : IVec S16 32) : Prop :=
  (∀ a x, ((![v63, v176] : Fin 2 → IVec S16 32) a x).toNat < S128x128.size a)
instance k1_chk51.dec : ∀ (v63 : IVec S16 32) (v176 : IVec S16 32), Decidable (k1_chk51 v63 v176) := fun v63 v176 => decidable_of_iff' _ (Iff.of_eq (k1_chk51.eq_1 v63 v176))
theorem k1_idx51_inb : ∀ (v63 : IVec S16 32) (v176 : IVec S16 32) (k1_hw51 : k1_chk51 v63 v176), ∀ a x, ((![v63, v176] : Fin 2 → IVec S16 32) a x).toNat < S128x128.size a := fun v63 v176 k1_hw51 => k1_hw51
def k1_off56 (k1_t3 : Fin k1_t3_loop.trips) : Fin 2 → Nat :=
  let c18_i32_118 : BitVec 32 := 18#32
  let v178 : Index := Scalar.indexCast c18_i32_118
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v179 : Index := Scalar.indexCast v64
  ![18, v179.toNat]

def k1_chk52 (v63 : IVec S16 32) (v182 : IVec S16 32) : Prop :=
  (∀ a x, ((![v63, v182] : Fin 2 → IVec S16 32) a x).toNat < S128x128.size a)
instance k1_chk52.dec : ∀ (v63 : IVec S16 32) (v182 : IVec S16 32), Decidable (k1_chk52 v63 v182) := fun v63 v182 => decidable_of_iff' _ (Iff.of_eq (k1_chk52.eq_1 v63 v182))
theorem k1_idx52_inb : ∀ (v63 : IVec S16 32) (v182 : IVec S16 32) (k1_hw52 : k1_chk52 v63 v182), ∀ a x, ((![v63, v182] : Fin 2 → IVec S16 32) a x).toNat < S128x128.size a := fun v63 v182 k1_hw52 => k1_hw52
def k1_off57 (k1_t3 : Fin k1_t3_loop.trips) : Fin 2 → Nat :=
  let c19_i32_119 : BitVec 32 := 19#32
  let v184 : Index := Scalar.indexCast c19_i32_119
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v185 : Index := Scalar.indexCast v64
  ![19, v185.toNat]

def k1_chk53 (v63 : IVec S16 32) (v188 : IVec S16 32) : Prop :=
  (∀ a x, ((![v63, v188] : Fin 2 → IVec S16 32) a x).toNat < S128x128.size a)
instance k1_chk53.dec : ∀ (v63 : IVec S16 32) (v188 : IVec S16 32), Decidable (k1_chk53 v63 v188) := fun v63 v188 => decidable_of_iff' _ (Iff.of_eq (k1_chk53.eq_1 v63 v188))
theorem k1_idx53_inb : ∀ (v63 : IVec S16 32) (v188 : IVec S16 32) (k1_hw53 : k1_chk53 v63 v188), ∀ a x, ((![v63, v188] : Fin 2 → IVec S16 32) a x).toNat < S128x128.size a := fun v63 v188 k1_hw53 => k1_hw53
def k1_off58 (k1_t3 : Fin k1_t3_loop.trips) : Fin 2 → Nat :=
  let c20_i32_120 : BitVec 32 := 20#32
  let v190 : Index := Scalar.indexCast c20_i32_120
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v191 : Index := Scalar.indexCast v64
  ![20, v191.toNat]

def k1_chk54 (v63 : IVec S16 32) (v194 : IVec S16 32) : Prop :=
  (∀ a x, ((![v63, v194] : Fin 2 → IVec S16 32) a x).toNat < S128x128.size a)
instance k1_chk54.dec : ∀ (v63 : IVec S16 32) (v194 : IVec S16 32), Decidable (k1_chk54 v63 v194) := fun v63 v194 => decidable_of_iff' _ (Iff.of_eq (k1_chk54.eq_1 v63 v194))
theorem k1_idx54_inb : ∀ (v63 : IVec S16 32) (v194 : IVec S16 32) (k1_hw54 : k1_chk54 v63 v194), ∀ a x, ((![v63, v194] : Fin 2 → IVec S16 32) a x).toNat < S128x128.size a := fun v63 v194 k1_hw54 => k1_hw54
def k1_off59 (k1_t3 : Fin k1_t3_loop.trips) : Fin 2 → Nat :=
  let c21_i32_121 : BitVec 32 := 21#32
  let v196 : Index := Scalar.indexCast c21_i32_121
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v197 : Index := Scalar.indexCast v64
  ![21, v197.toNat]

def k1_chk55 (v63 : IVec S16 32) (v200 : IVec S16 32) : Prop :=
  (∀ a x, ((![v63, v200] : Fin 2 → IVec S16 32) a x).toNat < S128x128.size a)
instance k1_chk55.dec : ∀ (v63 : IVec S16 32) (v200 : IVec S16 32), Decidable (k1_chk55 v63 v200) := fun v63 v200 => decidable_of_iff' _ (Iff.of_eq (k1_chk55.eq_1 v63 v200))
theorem k1_idx55_inb : ∀ (v63 : IVec S16 32) (v200 : IVec S16 32) (k1_hw55 : k1_chk55 v63 v200), ∀ a x, ((![v63, v200] : Fin 2 → IVec S16 32) a x).toNat < S128x128.size a := fun v63 v200 k1_hw55 => k1_hw55
def k1_off60 (k1_t3 : Fin k1_t3_loop.trips) : Fin 2 → Nat :=
  let c22_i32_122 : BitVec 32 := 22#32
  let v202 : Index := Scalar.indexCast c22_i32_122
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v203 : Index := Scalar.indexCast v64
  ![22, v203.toNat]

def k1_chk56 (v63 : IVec S16 32) (v206 : IVec S16 32) : Prop :=
  (∀ a x, ((![v63, v206] : Fin 2 → IVec S16 32) a x).toNat < S128x128.size a)
instance k1_chk56.dec : ∀ (v63 : IVec S16 32) (v206 : IVec S16 32), Decidable (k1_chk56 v63 v206) := fun v63 v206 => decidable_of_iff' _ (Iff.of_eq (k1_chk56.eq_1 v63 v206))
theorem k1_idx56_inb : ∀ (v63 : IVec S16 32) (v206 : IVec S16 32) (k1_hw56 : k1_chk56 v63 v206), ∀ a x, ((![v63, v206] : Fin 2 → IVec S16 32) a x).toNat < S128x128.size a := fun v63 v206 k1_hw56 => k1_hw56
def k1_off61 (k1_t3 : Fin k1_t3_loop.trips) : Fin 2 → Nat :=
  let c23_i32_123 : BitVec 32 := 23#32
  let v208 : Index := Scalar.indexCast c23_i32_123
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v209 : Index := Scalar.indexCast v64
  ![23, v209.toNat]

def k1_chk57 (v63 : IVec S16 32) (v212 : IVec S16 32) : Prop :=
  (∀ a x, ((![v63, v212] : Fin 2 → IVec S16 32) a x).toNat < S128x128.size a)
instance k1_chk57.dec : ∀ (v63 : IVec S16 32) (v212 : IVec S16 32), Decidable (k1_chk57 v63 v212) := fun v63 v212 => decidable_of_iff' _ (Iff.of_eq (k1_chk57.eq_1 v63 v212))
theorem k1_idx57_inb : ∀ (v63 : IVec S16 32) (v212 : IVec S16 32) (k1_hw57 : k1_chk57 v63 v212), ∀ a x, ((![v63, v212] : Fin 2 → IVec S16 32) a x).toNat < S128x128.size a := fun v63 v212 k1_hw57 => k1_hw57
def k1_off62 (k1_t3 : Fin k1_t3_loop.trips) : Fin 2 → Nat :=
  let c24_i32_124 : BitVec 32 := 24#32
  let v214 : Index := Scalar.indexCast c24_i32_124
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v215 : Index := Scalar.indexCast v64
  ![24, v215.toNat]

def k1_chk58 (v63 : IVec S16 32) (v218 : IVec S16 32) : Prop :=
  (∀ a x, ((![v63, v218] : Fin 2 → IVec S16 32) a x).toNat < S128x128.size a)
instance k1_chk58.dec : ∀ (v63 : IVec S16 32) (v218 : IVec S16 32), Decidable (k1_chk58 v63 v218) := fun v63 v218 => decidable_of_iff' _ (Iff.of_eq (k1_chk58.eq_1 v63 v218))
theorem k1_idx58_inb : ∀ (v63 : IVec S16 32) (v218 : IVec S16 32) (k1_hw58 : k1_chk58 v63 v218), ∀ a x, ((![v63, v218] : Fin 2 → IVec S16 32) a x).toNat < S128x128.size a := fun v63 v218 k1_hw58 => k1_hw58
def k1_off63 (k1_t3 : Fin k1_t3_loop.trips) : Fin 2 → Nat :=
  let c25_i32_125 : BitVec 32 := 25#32
  let v220 : Index := Scalar.indexCast c25_i32_125
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v221 : Index := Scalar.indexCast v64
  ![25, v221.toNat]

def k1_chk59 (v63 : IVec S16 32) (v224 : IVec S16 32) : Prop :=
  (∀ a x, ((![v63, v224] : Fin 2 → IVec S16 32) a x).toNat < S128x128.size a)
instance k1_chk59.dec : ∀ (v63 : IVec S16 32) (v224 : IVec S16 32), Decidable (k1_chk59 v63 v224) := fun v63 v224 => decidable_of_iff' _ (Iff.of_eq (k1_chk59.eq_1 v63 v224))
theorem k1_idx59_inb : ∀ (v63 : IVec S16 32) (v224 : IVec S16 32) (k1_hw59 : k1_chk59 v63 v224), ∀ a x, ((![v63, v224] : Fin 2 → IVec S16 32) a x).toNat < S128x128.size a := fun v63 v224 k1_hw59 => k1_hw59
def k1_off64 (k1_t3 : Fin k1_t3_loop.trips) : Fin 2 → Nat :=
  let c26_i32_126 : BitVec 32 := 26#32
  let v226 : Index := Scalar.indexCast c26_i32_126
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v227 : Index := Scalar.indexCast v64
  ![26, v227.toNat]

def k1_chk60 (v63 : IVec S16 32) (v230 : IVec S16 32) : Prop :=
  (∀ a x, ((![v63, v230] : Fin 2 → IVec S16 32) a x).toNat < S128x128.size a)
instance k1_chk60.dec : ∀ (v63 : IVec S16 32) (v230 : IVec S16 32), Decidable (k1_chk60 v63 v230) := fun v63 v230 => decidable_of_iff' _ (Iff.of_eq (k1_chk60.eq_1 v63 v230))
theorem k1_idx60_inb : ∀ (v63 : IVec S16 32) (v230 : IVec S16 32) (k1_hw60 : k1_chk60 v63 v230), ∀ a x, ((![v63, v230] : Fin 2 → IVec S16 32) a x).toNat < S128x128.size a := fun v63 v230 k1_hw60 => k1_hw60
def k1_off65 (k1_t3 : Fin k1_t3_loop.trips) : Fin 2 → Nat :=
  let c27_i32_127 : BitVec 32 := 27#32
  let v232 : Index := Scalar.indexCast c27_i32_127
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v233 : Index := Scalar.indexCast v64
  ![27, v233.toNat]

def k1_chk61 (v63 : IVec S16 32) (v236 : IVec S16 32) : Prop :=
  (∀ a x, ((![v63, v236] : Fin 2 → IVec S16 32) a x).toNat < S128x128.size a)
instance k1_chk61.dec : ∀ (v63 : IVec S16 32) (v236 : IVec S16 32), Decidable (k1_chk61 v63 v236) := fun v63 v236 => decidable_of_iff' _ (Iff.of_eq (k1_chk61.eq_1 v63 v236))
theorem k1_idx61_inb : ∀ (v63 : IVec S16 32) (v236 : IVec S16 32) (k1_hw61 : k1_chk61 v63 v236), ∀ a x, ((![v63, v236] : Fin 2 → IVec S16 32) a x).toNat < S128x128.size a := fun v63 v236 k1_hw61 => k1_hw61
def k1_off66 (k1_t3 : Fin k1_t3_loop.trips) : Fin 2 → Nat :=
  let c28_i32_128 : BitVec 32 := 28#32
  let v238 : Index := Scalar.indexCast c28_i32_128
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v239 : Index := Scalar.indexCast v64
  ![28, v239.toNat]

def k1_chk62 (v63 : IVec S16 32) (v242 : IVec S16 32) : Prop :=
  (∀ a x, ((![v63, v242] : Fin 2 → IVec S16 32) a x).toNat < S128x128.size a)
instance k1_chk62.dec : ∀ (v63 : IVec S16 32) (v242 : IVec S16 32), Decidable (k1_chk62 v63 v242) := fun v63 v242 => decidable_of_iff' _ (Iff.of_eq (k1_chk62.eq_1 v63 v242))
theorem k1_idx62_inb : ∀ (v63 : IVec S16 32) (v242 : IVec S16 32) (k1_hw62 : k1_chk62 v63 v242), ∀ a x, ((![v63, v242] : Fin 2 → IVec S16 32) a x).toNat < S128x128.size a := fun v63 v242 k1_hw62 => k1_hw62
def k1_off67 (k1_t3 : Fin k1_t3_loop.trips) : Fin 2 → Nat :=
  let c29_i32_129 : BitVec 32 := 29#32
  let v244 : Index := Scalar.indexCast c29_i32_129
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v245 : Index := Scalar.indexCast v64
  ![29, v245.toNat]

def k1_chk63 (v63 : IVec S16 32) (v248 : IVec S16 32) : Prop :=
  (∀ a x, ((![v63, v248] : Fin 2 → IVec S16 32) a x).toNat < S128x128.size a)
instance k1_chk63.dec : ∀ (v63 : IVec S16 32) (v248 : IVec S16 32), Decidable (k1_chk63 v63 v248) := fun v63 v248 => decidable_of_iff' _ (Iff.of_eq (k1_chk63.eq_1 v63 v248))
theorem k1_idx63_inb : ∀ (v63 : IVec S16 32) (v248 : IVec S16 32) (k1_hw63 : k1_chk63 v63 v248), ∀ a x, ((![v63, v248] : Fin 2 → IVec S16 32) a x).toNat < S128x128.size a := fun v63 v248 k1_hw63 => k1_hw63
def k1_off68 (k1_t3 : Fin k1_t3_loop.trips) : Fin 2 → Nat :=
  let c30_i32_130 : BitVec 32 := 30#32
  let v250 : Index := Scalar.indexCast c30_i32_130
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v251 : Index := Scalar.indexCast v64
  ![30, v251.toNat]

def k1_chk64 (v63 : IVec S16 32) (v254 : IVec S16 32) : Prop :=
  (∀ a x, ((![v63, v254] : Fin 2 → IVec S16 32) a x).toNat < S128x128.size a)
instance k1_chk64.dec : ∀ (v63 : IVec S16 32) (v254 : IVec S16 32), Decidable (k1_chk64 v63 v254) := fun v63 v254 => decidable_of_iff' _ (Iff.of_eq (k1_chk64.eq_1 v63 v254))
theorem k1_idx64_inb : ∀ (v63 : IVec S16 32) (v254 : IVec S16 32) (k1_hw64 : k1_chk64 v63 v254), ∀ a x, ((![v63, v254] : Fin 2 → IVec S16 32) a x).toNat < S128x128.size a := fun v63 v254 k1_hw64 => k1_hw64
def k1_off69 (k1_t3 : Fin k1_t3_loop.trips) : Fin 2 → Nat :=
  let c31_i32_131 : BitVec 32 := 31#32
  let v256 : Index := Scalar.indexCast c31_i32_131
  let c128_i32_94 : BitVec 32 := 128#32
  let c0_i32_27 : BitVec 32 := 0#32
  let c1_i32_29 : BitVec 32 := 1#32
  let arg14 : BitVec 32 := Scf.iv c0_i32_27 c1_i32_29 k1_t3
  let c16_i32 : BitVec 32 := 16#32
  let v61 : BitVec 32 := Scalar.muli arg14 c16_i32
  let v64 : BitVec 32 := Scalar.addi c128_i32_94 v61
  let v257 : Index := Scalar.indexCast v64
  ![31, v257.toNat]
@[reducible] def k1_t4_loop : Scf.Loop 32 :=
  let c0_i32_44 : BitVec 32 := 0#32
  let c8_i32_45 : BitVec 32 := 8#32
  let v31 : BitVec 32 := Scalar.addi c0_i32_44 c8_i32_45
  let c1_i32_46 : BitVec 32 := 1#32
  ⟨c0_i32_44, v31, c1_i32_46⟩
def k1_off70 (k1_t4 : Fin k1_t4_loop.trips) : Fin 1 → Nat :=
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v65 : Index := Scalar.indexCast v64
  ![v65.toNat]

def k1_chk65 (v63 : IVec S16 32) (v68 : IVec S16 32) : Prop :=
  (∀ a x, ((![v63, v68] : Fin 2 → IVec S16 32) a x).toNat < S128x128.size a)
instance k1_chk65.dec : ∀ (v63 : IVec S16 32) (v68 : IVec S16 32), Decidable (k1_chk65 v63 v68) := fun v63 v68 => decidable_of_iff' _ (Iff.of_eq (k1_chk65.eq_1 v63 v68))
theorem k1_idx65_inb : ∀ (v63 : IVec S16 32) (v68 : IVec S16 32) (k1_hw65 : k1_chk65 v63 v68), ∀ a x, ((![v63, v68] : Fin 2 → IVec S16 32) a x).toNat < S128x128.size a := fun v63 v68 k1_hw65 => k1_hw65
def k1_off71 (k1_t4 : Fin k1_t4_loop.trips) : Fin 2 → Nat :=
  let c0_i32_96 : BitVec 32 := 0#32
  let v70 : Index := Scalar.indexCast c0_i32_96
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v71 : Index := Scalar.indexCast v64
  ![0, v71.toNat]

def k1_chk66 (v63 : IVec S16 32) (v74 : IVec S16 32) : Prop :=
  (∀ a x, ((![v63, v74] : Fin 2 → IVec S16 32) a x).toNat < S128x128.size a)
instance k1_chk66.dec : ∀ (v63 : IVec S16 32) (v74 : IVec S16 32), Decidable (k1_chk66 v63 v74) := fun v63 v74 => decidable_of_iff' _ (Iff.of_eq (k1_chk66.eq_1 v63 v74))
theorem k1_idx66_inb : ∀ (v63 : IVec S16 32) (v74 : IVec S16 32) (k1_hw66 : k1_chk66 v63 v74), ∀ a x, ((![v63, v74] : Fin 2 → IVec S16 32) a x).toNat < S128x128.size a := fun v63 v74 k1_hw66 => k1_hw66
def k1_off72 (k1_t4 : Fin k1_t4_loop.trips) : Fin 2 → Nat :=
  let c1_i32_98 : BitVec 32 := 1#32
  let v76 : Index := Scalar.indexCast c1_i32_98
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v77 : Index := Scalar.indexCast v64
  ![1, v77.toNat]

def k1_chk67 (v63 : IVec S16 32) (v80 : IVec S16 32) : Prop :=
  (∀ a x, ((![v63, v80] : Fin 2 → IVec S16 32) a x).toNat < S128x128.size a)
instance k1_chk67.dec : ∀ (v63 : IVec S16 32) (v80 : IVec S16 32), Decidable (k1_chk67 v63 v80) := fun v63 v80 => decidable_of_iff' _ (Iff.of_eq (k1_chk67.eq_1 v63 v80))
theorem k1_idx67_inb : ∀ (v63 : IVec S16 32) (v80 : IVec S16 32) (k1_hw67 : k1_chk67 v63 v80), ∀ a x, ((![v63, v80] : Fin 2 → IVec S16 32) a x).toNat < S128x128.size a := fun v63 v80 k1_hw67 => k1_hw67
def k1_off73 (k1_t4 : Fin k1_t4_loop.trips) : Fin 2 → Nat :=
  let c2_i32_100 : BitVec 32 := 2#32
  let v82 : Index := Scalar.indexCast c2_i32_100
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v83 : Index := Scalar.indexCast v64
  ![2, v83.toNat]

def k1_chk68 (v63 : IVec S16 32) (v86 : IVec S16 32) : Prop :=
  (∀ a x, ((![v63, v86] : Fin 2 → IVec S16 32) a x).toNat < S128x128.size a)
instance k1_chk68.dec : ∀ (v63 : IVec S16 32) (v86 : IVec S16 32), Decidable (k1_chk68 v63 v86) := fun v63 v86 => decidable_of_iff' _ (Iff.of_eq (k1_chk68.eq_1 v63 v86))
theorem k1_idx68_inb : ∀ (v63 : IVec S16 32) (v86 : IVec S16 32) (k1_hw68 : k1_chk68 v63 v86), ∀ a x, ((![v63, v86] : Fin 2 → IVec S16 32) a x).toNat < S128x128.size a := fun v63 v86 k1_hw68 => k1_hw68
def k1_off74 (k1_t4 : Fin k1_t4_loop.trips) : Fin 2 → Nat :=
  let c3_i32_101 : BitVec 32 := 3#32
  let v88 : Index := Scalar.indexCast c3_i32_101
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v89 : Index := Scalar.indexCast v64
  ![3, v89.toNat]

def k1_chk69 (v63 : IVec S16 32) (v92 : IVec S16 32) : Prop :=
  (∀ a x, ((![v63, v92] : Fin 2 → IVec S16 32) a x).toNat < S128x128.size a)
instance k1_chk69.dec : ∀ (v63 : IVec S16 32) (v92 : IVec S16 32), Decidable (k1_chk69 v63 v92) := fun v63 v92 => decidable_of_iff' _ (Iff.of_eq (k1_chk69.eq_1 v63 v92))
theorem k1_idx69_inb : ∀ (v63 : IVec S16 32) (v92 : IVec S16 32) (k1_hw69 : k1_chk69 v63 v92), ∀ a x, ((![v63, v92] : Fin 2 → IVec S16 32) a x).toNat < S128x128.size a := fun v63 v92 k1_hw69 => k1_hw69
def k1_off75 (k1_t4 : Fin k1_t4_loop.trips) : Fin 2 → Nat :=
  let c4_i32_102 : BitVec 32 := 4#32
  let v94 : Index := Scalar.indexCast c4_i32_102
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v95 : Index := Scalar.indexCast v64
  ![4, v95.toNat]

def k1_chk70 (v63 : IVec S16 32) (v98 : IVec S16 32) : Prop :=
  (∀ a x, ((![v63, v98] : Fin 2 → IVec S16 32) a x).toNat < S128x128.size a)
instance k1_chk70.dec : ∀ (v63 : IVec S16 32) (v98 : IVec S16 32), Decidable (k1_chk70 v63 v98) := fun v63 v98 => decidable_of_iff' _ (Iff.of_eq (k1_chk70.eq_1 v63 v98))
theorem k1_idx70_inb : ∀ (v63 : IVec S16 32) (v98 : IVec S16 32) (k1_hw70 : k1_chk70 v63 v98), ∀ a x, ((![v63, v98] : Fin 2 → IVec S16 32) a x).toNat < S128x128.size a := fun v63 v98 k1_hw70 => k1_hw70
def k1_off76 (k1_t4 : Fin k1_t4_loop.trips) : Fin 2 → Nat :=
  let c5_i32_103 : BitVec 32 := 5#32
  let v100 : Index := Scalar.indexCast c5_i32_103
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v101 : Index := Scalar.indexCast v64
  ![5, v101.toNat]

def k1_chk71 (v63 : IVec S16 32) (v104 : IVec S16 32) : Prop :=
  (∀ a x, ((![v63, v104] : Fin 2 → IVec S16 32) a x).toNat < S128x128.size a)
instance k1_chk71.dec : ∀ (v63 : IVec S16 32) (v104 : IVec S16 32), Decidable (k1_chk71 v63 v104) := fun v63 v104 => decidable_of_iff' _ (Iff.of_eq (k1_chk71.eq_1 v63 v104))
theorem k1_idx71_inb : ∀ (v63 : IVec S16 32) (v104 : IVec S16 32) (k1_hw71 : k1_chk71 v63 v104), ∀ a x, ((![v63, v104] : Fin 2 → IVec S16 32) a x).toNat < S128x128.size a := fun v63 v104 k1_hw71 => k1_hw71
def k1_off77 (k1_t4 : Fin k1_t4_loop.trips) : Fin 2 → Nat :=
  let c6_i32_104 : BitVec 32 := 6#32
  let v106 : Index := Scalar.indexCast c6_i32_104
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v107 : Index := Scalar.indexCast v64
  ![6, v107.toNat]

def k1_chk72 (v63 : IVec S16 32) (v110 : IVec S16 32) : Prop :=
  (∀ a x, ((![v63, v110] : Fin 2 → IVec S16 32) a x).toNat < S128x128.size a)
instance k1_chk72.dec : ∀ (v63 : IVec S16 32) (v110 : IVec S16 32), Decidable (k1_chk72 v63 v110) := fun v63 v110 => decidable_of_iff' _ (Iff.of_eq (k1_chk72.eq_1 v63 v110))
theorem k1_idx72_inb : ∀ (v63 : IVec S16 32) (v110 : IVec S16 32) (k1_hw72 : k1_chk72 v63 v110), ∀ a x, ((![v63, v110] : Fin 2 → IVec S16 32) a x).toNat < S128x128.size a := fun v63 v110 k1_hw72 => k1_hw72
def k1_off78 (k1_t4 : Fin k1_t4_loop.trips) : Fin 2 → Nat :=
  let c7_i32_105 : BitVec 32 := 7#32
  let v112 : Index := Scalar.indexCast c7_i32_105
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v113 : Index := Scalar.indexCast v64
  ![7, v113.toNat]

def k1_chk73 (v63 : IVec S16 32) (v116 : IVec S16 32) : Prop :=
  (∀ a x, ((![v63, v116] : Fin 2 → IVec S16 32) a x).toNat < S128x128.size a)
instance k1_chk73.dec : ∀ (v63 : IVec S16 32) (v116 : IVec S16 32), Decidable (k1_chk73 v63 v116) := fun v63 v116 => decidable_of_iff' _ (Iff.of_eq (k1_chk73.eq_1 v63 v116))
theorem k1_idx73_inb : ∀ (v63 : IVec S16 32) (v116 : IVec S16 32) (k1_hw73 : k1_chk73 v63 v116), ∀ a x, ((![v63, v116] : Fin 2 → IVec S16 32) a x).toNat < S128x128.size a := fun v63 v116 k1_hw73 => k1_hw73
def k1_off79 (k1_t4 : Fin k1_t4_loop.trips) : Fin 2 → Nat :=
  let c8_i32_107 : BitVec 32 := 8#32
  let v118 : Index := Scalar.indexCast c8_i32_107
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v119 : Index := Scalar.indexCast v64
  ![8, v119.toNat]

def k1_chk74 (v63 : IVec S16 32) (v122 : IVec S16 32) : Prop :=
  (∀ a x, ((![v63, v122] : Fin 2 → IVec S16 32) a x).toNat < S128x128.size a)
instance k1_chk74.dec : ∀ (v63 : IVec S16 32) (v122 : IVec S16 32), Decidable (k1_chk74 v63 v122) := fun v63 v122 => decidable_of_iff' _ (Iff.of_eq (k1_chk74.eq_1 v63 v122))
theorem k1_idx74_inb : ∀ (v63 : IVec S16 32) (v122 : IVec S16 32) (k1_hw74 : k1_chk74 v63 v122), ∀ a x, ((![v63, v122] : Fin 2 → IVec S16 32) a x).toNat < S128x128.size a := fun v63 v122 k1_hw74 => k1_hw74
def k1_off80 (k1_t4 : Fin k1_t4_loop.trips) : Fin 2 → Nat :=
  let c9_i32_108 : BitVec 32 := 9#32
  let v124 : Index := Scalar.indexCast c9_i32_108
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v125 : Index := Scalar.indexCast v64
  ![9, v125.toNat]

def k1_chk75 (v63 : IVec S16 32) (v128 : IVec S16 32) : Prop :=
  (∀ a x, ((![v63, v128] : Fin 2 → IVec S16 32) a x).toNat < S128x128.size a)
instance k1_chk75.dec : ∀ (v63 : IVec S16 32) (v128 : IVec S16 32), Decidable (k1_chk75 v63 v128) := fun v63 v128 => decidable_of_iff' _ (Iff.of_eq (k1_chk75.eq_1 v63 v128))
theorem k1_idx75_inb : ∀ (v63 : IVec S16 32) (v128 : IVec S16 32) (k1_hw75 : k1_chk75 v63 v128), ∀ a x, ((![v63, v128] : Fin 2 → IVec S16 32) a x).toNat < S128x128.size a := fun v63 v128 k1_hw75 => k1_hw75
def k1_off81 (k1_t4 : Fin k1_t4_loop.trips) : Fin 2 → Nat :=
  let c10_i32_109 : BitVec 32 := 10#32
  let v130 : Index := Scalar.indexCast c10_i32_109
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v131 : Index := Scalar.indexCast v64
  ![10, v131.toNat]

def k1_chk76 (v63 : IVec S16 32) (v134 : IVec S16 32) : Prop :=
  (∀ a x, ((![v63, v134] : Fin 2 → IVec S16 32) a x).toNat < S128x128.size a)
instance k1_chk76.dec : ∀ (v63 : IVec S16 32) (v134 : IVec S16 32), Decidable (k1_chk76 v63 v134) := fun v63 v134 => decidable_of_iff' _ (Iff.of_eq (k1_chk76.eq_1 v63 v134))
theorem k1_idx76_inb : ∀ (v63 : IVec S16 32) (v134 : IVec S16 32) (k1_hw76 : k1_chk76 v63 v134), ∀ a x, ((![v63, v134] : Fin 2 → IVec S16 32) a x).toNat < S128x128.size a := fun v63 v134 k1_hw76 => k1_hw76
def k1_off82 (k1_t4 : Fin k1_t4_loop.trips) : Fin 2 → Nat :=
  let c11_i32_110 : BitVec 32 := 11#32
  let v136 : Index := Scalar.indexCast c11_i32_110
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v137 : Index := Scalar.indexCast v64
  ![11, v137.toNat]

def k1_chk77 (v63 : IVec S16 32) (v140 : IVec S16 32) : Prop :=
  (∀ a x, ((![v63, v140] : Fin 2 → IVec S16 32) a x).toNat < S128x128.size a)
instance k1_chk77.dec : ∀ (v63 : IVec S16 32) (v140 : IVec S16 32), Decidable (k1_chk77 v63 v140) := fun v63 v140 => decidable_of_iff' _ (Iff.of_eq (k1_chk77.eq_1 v63 v140))
theorem k1_idx77_inb : ∀ (v63 : IVec S16 32) (v140 : IVec S16 32) (k1_hw77 : k1_chk77 v63 v140), ∀ a x, ((![v63, v140] : Fin 2 → IVec S16 32) a x).toNat < S128x128.size a := fun v63 v140 k1_hw77 => k1_hw77
def k1_off83 (k1_t4 : Fin k1_t4_loop.trips) : Fin 2 → Nat :=
  let c12_i32_111 : BitVec 32 := 12#32
  let v142 : Index := Scalar.indexCast c12_i32_111
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v143 : Index := Scalar.indexCast v64
  ![12, v143.toNat]

def k1_chk78 (v63 : IVec S16 32) (v146 : IVec S16 32) : Prop :=
  (∀ a x, ((![v63, v146] : Fin 2 → IVec S16 32) a x).toNat < S128x128.size a)
instance k1_chk78.dec : ∀ (v63 : IVec S16 32) (v146 : IVec S16 32), Decidable (k1_chk78 v63 v146) := fun v63 v146 => decidable_of_iff' _ (Iff.of_eq (k1_chk78.eq_1 v63 v146))
theorem k1_idx78_inb : ∀ (v63 : IVec S16 32) (v146 : IVec S16 32) (k1_hw78 : k1_chk78 v63 v146), ∀ a x, ((![v63, v146] : Fin 2 → IVec S16 32) a x).toNat < S128x128.size a := fun v63 v146 k1_hw78 => k1_hw78
def k1_off84 (k1_t4 : Fin k1_t4_loop.trips) : Fin 2 → Nat :=
  let c13_i32_112 : BitVec 32 := 13#32
  let v148 : Index := Scalar.indexCast c13_i32_112
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v149 : Index := Scalar.indexCast v64
  ![13, v149.toNat]

def k1_chk79 (v63 : IVec S16 32) (v152 : IVec S16 32) : Prop :=
  (∀ a x, ((![v63, v152] : Fin 2 → IVec S16 32) a x).toNat < S128x128.size a)
instance k1_chk79.dec : ∀ (v63 : IVec S16 32) (v152 : IVec S16 32), Decidable (k1_chk79 v63 v152) := fun v63 v152 => decidable_of_iff' _ (Iff.of_eq (k1_chk79.eq_1 v63 v152))
theorem k1_idx79_inb : ∀ (v63 : IVec S16 32) (v152 : IVec S16 32) (k1_hw79 : k1_chk79 v63 v152), ∀ a x, ((![v63, v152] : Fin 2 → IVec S16 32) a x).toNat < S128x128.size a := fun v63 v152 k1_hw79 => k1_hw79
def k1_off85 (k1_t4 : Fin k1_t4_loop.trips) : Fin 2 → Nat :=
  let c14_i32_113 : BitVec 32 := 14#32
  let v154 : Index := Scalar.indexCast c14_i32_113
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v155 : Index := Scalar.indexCast v64
  ![14, v155.toNat]

def k1_chk80 (v63 : IVec S16 32) (v158 : IVec S16 32) : Prop :=
  (∀ a x, ((![v63, v158] : Fin 2 → IVec S16 32) a x).toNat < S128x128.size a)
instance k1_chk80.dec : ∀ (v63 : IVec S16 32) (v158 : IVec S16 32), Decidable (k1_chk80 v63 v158) := fun v63 v158 => decidable_of_iff' _ (Iff.of_eq (k1_chk80.eq_1 v63 v158))
theorem k1_idx80_inb : ∀ (v63 : IVec S16 32) (v158 : IVec S16 32) (k1_hw80 : k1_chk80 v63 v158), ∀ a x, ((![v63, v158] : Fin 2 → IVec S16 32) a x).toNat < S128x128.size a := fun v63 v158 k1_hw80 => k1_hw80
def k1_off86 (k1_t4 : Fin k1_t4_loop.trips) : Fin 2 → Nat :=
  let c15_i32_114 : BitVec 32 := 15#32
  let v160 : Index := Scalar.indexCast c15_i32_114
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v161 : Index := Scalar.indexCast v64
  ![15, v161.toNat]

def k1_chk81 (v63 : IVec S16 32) (v164 : IVec S16 32) : Prop :=
  (∀ a x, ((![v63, v164] : Fin 2 → IVec S16 32) a x).toNat < S128x128.size a)
instance k1_chk81.dec : ∀ (v63 : IVec S16 32) (v164 : IVec S16 32), Decidable (k1_chk81 v63 v164) := fun v63 v164 => decidable_of_iff' _ (Iff.of_eq (k1_chk81.eq_1 v63 v164))
theorem k1_idx81_inb : ∀ (v63 : IVec S16 32) (v164 : IVec S16 32) (k1_hw81 : k1_chk81 v63 v164), ∀ a x, ((![v63, v164] : Fin 2 → IVec S16 32) a x).toNat < S128x128.size a := fun v63 v164 k1_hw81 => k1_hw81
def k1_off87 (k1_t4 : Fin k1_t4_loop.trips) : Fin 2 → Nat :=
  let c16_i32_116 : BitVec 32 := 16#32
  let v166 : Index := Scalar.indexCast c16_i32_116
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v167 : Index := Scalar.indexCast v64
  ![16, v167.toNat]

def k1_chk82 (v63 : IVec S16 32) (v170 : IVec S16 32) : Prop :=
  (∀ a x, ((![v63, v170] : Fin 2 → IVec S16 32) a x).toNat < S128x128.size a)
instance k1_chk82.dec : ∀ (v63 : IVec S16 32) (v170 : IVec S16 32), Decidable (k1_chk82 v63 v170) := fun v63 v170 => decidable_of_iff' _ (Iff.of_eq (k1_chk82.eq_1 v63 v170))
theorem k1_idx82_inb : ∀ (v63 : IVec S16 32) (v170 : IVec S16 32) (k1_hw82 : k1_chk82 v63 v170), ∀ a x, ((![v63, v170] : Fin 2 → IVec S16 32) a x).toNat < S128x128.size a := fun v63 v170 k1_hw82 => k1_hw82
def k1_off88 (k1_t4 : Fin k1_t4_loop.trips) : Fin 2 → Nat :=
  let c17_i32_117 : BitVec 32 := 17#32
  let v172 : Index := Scalar.indexCast c17_i32_117
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v173 : Index := Scalar.indexCast v64
  ![17, v173.toNat]

def k1_chk83 (v63 : IVec S16 32) (v176 : IVec S16 32) : Prop :=
  (∀ a x, ((![v63, v176] : Fin 2 → IVec S16 32) a x).toNat < S128x128.size a)
instance k1_chk83.dec : ∀ (v63 : IVec S16 32) (v176 : IVec S16 32), Decidable (k1_chk83 v63 v176) := fun v63 v176 => decidable_of_iff' _ (Iff.of_eq (k1_chk83.eq_1 v63 v176))
theorem k1_idx83_inb : ∀ (v63 : IVec S16 32) (v176 : IVec S16 32) (k1_hw83 : k1_chk83 v63 v176), ∀ a x, ((![v63, v176] : Fin 2 → IVec S16 32) a x).toNat < S128x128.size a := fun v63 v176 k1_hw83 => k1_hw83
def k1_off89 (k1_t4 : Fin k1_t4_loop.trips) : Fin 2 → Nat :=
  let c18_i32_118 : BitVec 32 := 18#32
  let v178 : Index := Scalar.indexCast c18_i32_118
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v179 : Index := Scalar.indexCast v64
  ![18, v179.toNat]

def k1_chk84 (v63 : IVec S16 32) (v182 : IVec S16 32) : Prop :=
  (∀ a x, ((![v63, v182] : Fin 2 → IVec S16 32) a x).toNat < S128x128.size a)
instance k1_chk84.dec : ∀ (v63 : IVec S16 32) (v182 : IVec S16 32), Decidable (k1_chk84 v63 v182) := fun v63 v182 => decidable_of_iff' _ (Iff.of_eq (k1_chk84.eq_1 v63 v182))
theorem k1_idx84_inb : ∀ (v63 : IVec S16 32) (v182 : IVec S16 32) (k1_hw84 : k1_chk84 v63 v182), ∀ a x, ((![v63, v182] : Fin 2 → IVec S16 32) a x).toNat < S128x128.size a := fun v63 v182 k1_hw84 => k1_hw84
def k1_off90 (k1_t4 : Fin k1_t4_loop.trips) : Fin 2 → Nat :=
  let c19_i32_119 : BitVec 32 := 19#32
  let v184 : Index := Scalar.indexCast c19_i32_119
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v185 : Index := Scalar.indexCast v64
  ![19, v185.toNat]

def k1_chk85 (v63 : IVec S16 32) (v188 : IVec S16 32) : Prop :=
  (∀ a x, ((![v63, v188] : Fin 2 → IVec S16 32) a x).toNat < S128x128.size a)
instance k1_chk85.dec : ∀ (v63 : IVec S16 32) (v188 : IVec S16 32), Decidable (k1_chk85 v63 v188) := fun v63 v188 => decidable_of_iff' _ (Iff.of_eq (k1_chk85.eq_1 v63 v188))
theorem k1_idx85_inb : ∀ (v63 : IVec S16 32) (v188 : IVec S16 32) (k1_hw85 : k1_chk85 v63 v188), ∀ a x, ((![v63, v188] : Fin 2 → IVec S16 32) a x).toNat < S128x128.size a := fun v63 v188 k1_hw85 => k1_hw85
def k1_off91 (k1_t4 : Fin k1_t4_loop.trips) : Fin 2 → Nat :=
  let c20_i32_120 : BitVec 32 := 20#32
  let v190 : Index := Scalar.indexCast c20_i32_120
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v191 : Index := Scalar.indexCast v64
  ![20, v191.toNat]

def k1_chk86 (v63 : IVec S16 32) (v194 : IVec S16 32) : Prop :=
  (∀ a x, ((![v63, v194] : Fin 2 → IVec S16 32) a x).toNat < S128x128.size a)
instance k1_chk86.dec : ∀ (v63 : IVec S16 32) (v194 : IVec S16 32), Decidable (k1_chk86 v63 v194) := fun v63 v194 => decidable_of_iff' _ (Iff.of_eq (k1_chk86.eq_1 v63 v194))
theorem k1_idx86_inb : ∀ (v63 : IVec S16 32) (v194 : IVec S16 32) (k1_hw86 : k1_chk86 v63 v194), ∀ a x, ((![v63, v194] : Fin 2 → IVec S16 32) a x).toNat < S128x128.size a := fun v63 v194 k1_hw86 => k1_hw86
def k1_off92 (k1_t4 : Fin k1_t4_loop.trips) : Fin 2 → Nat :=
  let c21_i32_121 : BitVec 32 := 21#32
  let v196 : Index := Scalar.indexCast c21_i32_121
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v197 : Index := Scalar.indexCast v64
  ![21, v197.toNat]

def k1_chk87 (v63 : IVec S16 32) (v200 : IVec S16 32) : Prop :=
  (∀ a x, ((![v63, v200] : Fin 2 → IVec S16 32) a x).toNat < S128x128.size a)
instance k1_chk87.dec : ∀ (v63 : IVec S16 32) (v200 : IVec S16 32), Decidable (k1_chk87 v63 v200) := fun v63 v200 => decidable_of_iff' _ (Iff.of_eq (k1_chk87.eq_1 v63 v200))
theorem k1_idx87_inb : ∀ (v63 : IVec S16 32) (v200 : IVec S16 32) (k1_hw87 : k1_chk87 v63 v200), ∀ a x, ((![v63, v200] : Fin 2 → IVec S16 32) a x).toNat < S128x128.size a := fun v63 v200 k1_hw87 => k1_hw87
def k1_off93 (k1_t4 : Fin k1_t4_loop.trips) : Fin 2 → Nat :=
  let c22_i32_122 : BitVec 32 := 22#32
  let v202 : Index := Scalar.indexCast c22_i32_122
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v203 : Index := Scalar.indexCast v64
  ![22, v203.toNat]

def k1_chk88 (v63 : IVec S16 32) (v206 : IVec S16 32) : Prop :=
  (∀ a x, ((![v63, v206] : Fin 2 → IVec S16 32) a x).toNat < S128x128.size a)
instance k1_chk88.dec : ∀ (v63 : IVec S16 32) (v206 : IVec S16 32), Decidable (k1_chk88 v63 v206) := fun v63 v206 => decidable_of_iff' _ (Iff.of_eq (k1_chk88.eq_1 v63 v206))
theorem k1_idx88_inb : ∀ (v63 : IVec S16 32) (v206 : IVec S16 32) (k1_hw88 : k1_chk88 v63 v206), ∀ a x, ((![v63, v206] : Fin 2 → IVec S16 32) a x).toNat < S128x128.size a := fun v63 v206 k1_hw88 => k1_hw88
def k1_off94 (k1_t4 : Fin k1_t4_loop.trips) : Fin 2 → Nat :=
  let c23_i32_123 : BitVec 32 := 23#32
  let v208 : Index := Scalar.indexCast c23_i32_123
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v209 : Index := Scalar.indexCast v64
  ![23, v209.toNat]

def k1_chk89 (v63 : IVec S16 32) (v212 : IVec S16 32) : Prop :=
  (∀ a x, ((![v63, v212] : Fin 2 → IVec S16 32) a x).toNat < S128x128.size a)
instance k1_chk89.dec : ∀ (v63 : IVec S16 32) (v212 : IVec S16 32), Decidable (k1_chk89 v63 v212) := fun v63 v212 => decidable_of_iff' _ (Iff.of_eq (k1_chk89.eq_1 v63 v212))
theorem k1_idx89_inb : ∀ (v63 : IVec S16 32) (v212 : IVec S16 32) (k1_hw89 : k1_chk89 v63 v212), ∀ a x, ((![v63, v212] : Fin 2 → IVec S16 32) a x).toNat < S128x128.size a := fun v63 v212 k1_hw89 => k1_hw89
def k1_off95 (k1_t4 : Fin k1_t4_loop.trips) : Fin 2 → Nat :=
  let c24_i32_124 : BitVec 32 := 24#32
  let v214 : Index := Scalar.indexCast c24_i32_124
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v215 : Index := Scalar.indexCast v64
  ![24, v215.toNat]

def k1_chk90 (v63 : IVec S16 32) (v218 : IVec S16 32) : Prop :=
  (∀ a x, ((![v63, v218] : Fin 2 → IVec S16 32) a x).toNat < S128x128.size a)
instance k1_chk90.dec : ∀ (v63 : IVec S16 32) (v218 : IVec S16 32), Decidable (k1_chk90 v63 v218) := fun v63 v218 => decidable_of_iff' _ (Iff.of_eq (k1_chk90.eq_1 v63 v218))
theorem k1_idx90_inb : ∀ (v63 : IVec S16 32) (v218 : IVec S16 32) (k1_hw90 : k1_chk90 v63 v218), ∀ a x, ((![v63, v218] : Fin 2 → IVec S16 32) a x).toNat < S128x128.size a := fun v63 v218 k1_hw90 => k1_hw90
def k1_off96 (k1_t4 : Fin k1_t4_loop.trips) : Fin 2 → Nat :=
  let c25_i32_125 : BitVec 32 := 25#32
  let v220 : Index := Scalar.indexCast c25_i32_125
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v221 : Index := Scalar.indexCast v64
  ![25, v221.toNat]

def k1_chk91 (v63 : IVec S16 32) (v224 : IVec S16 32) : Prop :=
  (∀ a x, ((![v63, v224] : Fin 2 → IVec S16 32) a x).toNat < S128x128.size a)
instance k1_chk91.dec : ∀ (v63 : IVec S16 32) (v224 : IVec S16 32), Decidable (k1_chk91 v63 v224) := fun v63 v224 => decidable_of_iff' _ (Iff.of_eq (k1_chk91.eq_1 v63 v224))
theorem k1_idx91_inb : ∀ (v63 : IVec S16 32) (v224 : IVec S16 32) (k1_hw91 : k1_chk91 v63 v224), ∀ a x, ((![v63, v224] : Fin 2 → IVec S16 32) a x).toNat < S128x128.size a := fun v63 v224 k1_hw91 => k1_hw91
def k1_off97 (k1_t4 : Fin k1_t4_loop.trips) : Fin 2 → Nat :=
  let c26_i32_126 : BitVec 32 := 26#32
  let v226 : Index := Scalar.indexCast c26_i32_126
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v227 : Index := Scalar.indexCast v64
  ![26, v227.toNat]

def k1_chk92 (v63 : IVec S16 32) (v230 : IVec S16 32) : Prop :=
  (∀ a x, ((![v63, v230] : Fin 2 → IVec S16 32) a x).toNat < S128x128.size a)
instance k1_chk92.dec : ∀ (v63 : IVec S16 32) (v230 : IVec S16 32), Decidable (k1_chk92 v63 v230) := fun v63 v230 => decidable_of_iff' _ (Iff.of_eq (k1_chk92.eq_1 v63 v230))
theorem k1_idx92_inb : ∀ (v63 : IVec S16 32) (v230 : IVec S16 32) (k1_hw92 : k1_chk92 v63 v230), ∀ a x, ((![v63, v230] : Fin 2 → IVec S16 32) a x).toNat < S128x128.size a := fun v63 v230 k1_hw92 => k1_hw92
def k1_off98 (k1_t4 : Fin k1_t4_loop.trips) : Fin 2 → Nat :=
  let c27_i32_127 : BitVec 32 := 27#32
  let v232 : Index := Scalar.indexCast c27_i32_127
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v233 : Index := Scalar.indexCast v64
  ![27, v233.toNat]

def k1_chk93 (v63 : IVec S16 32) (v236 : IVec S16 32) : Prop :=
  (∀ a x, ((![v63, v236] : Fin 2 → IVec S16 32) a x).toNat < S128x128.size a)
instance k1_chk93.dec : ∀ (v63 : IVec S16 32) (v236 : IVec S16 32), Decidable (k1_chk93 v63 v236) := fun v63 v236 => decidable_of_iff' _ (Iff.of_eq (k1_chk93.eq_1 v63 v236))
theorem k1_idx93_inb : ∀ (v63 : IVec S16 32) (v236 : IVec S16 32) (k1_hw93 : k1_chk93 v63 v236), ∀ a x, ((![v63, v236] : Fin 2 → IVec S16 32) a x).toNat < S128x128.size a := fun v63 v236 k1_hw93 => k1_hw93
def k1_off99 (k1_t4 : Fin k1_t4_loop.trips) : Fin 2 → Nat :=
  let c28_i32_128 : BitVec 32 := 28#32
  let v238 : Index := Scalar.indexCast c28_i32_128
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v239 : Index := Scalar.indexCast v64
  ![28, v239.toNat]

def k1_chk94 (v63 : IVec S16 32) (v242 : IVec S16 32) : Prop :=
  (∀ a x, ((![v63, v242] : Fin 2 → IVec S16 32) a x).toNat < S128x128.size a)
instance k1_chk94.dec : ∀ (v63 : IVec S16 32) (v242 : IVec S16 32), Decidable (k1_chk94 v63 v242) := fun v63 v242 => decidable_of_iff' _ (Iff.of_eq (k1_chk94.eq_1 v63 v242))
theorem k1_idx94_inb : ∀ (v63 : IVec S16 32) (v242 : IVec S16 32) (k1_hw94 : k1_chk94 v63 v242), ∀ a x, ((![v63, v242] : Fin 2 → IVec S16 32) a x).toNat < S128x128.size a := fun v63 v242 k1_hw94 => k1_hw94
def k1_off100 (k1_t4 : Fin k1_t4_loop.trips) : Fin 2 → Nat :=
  let c29_i32_129 : BitVec 32 := 29#32
  let v244 : Index := Scalar.indexCast c29_i32_129
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v245 : Index := Scalar.indexCast v64
  ![29, v245.toNat]

def k1_chk95 (v63 : IVec S16 32) (v248 : IVec S16 32) : Prop :=
  (∀ a x, ((![v63, v248] : Fin 2 → IVec S16 32) a x).toNat < S128x128.size a)
instance k1_chk95.dec : ∀ (v63 : IVec S16 32) (v248 : IVec S16 32), Decidable (k1_chk95 v63 v248) := fun v63 v248 => decidable_of_iff' _ (Iff.of_eq (k1_chk95.eq_1 v63 v248))
theorem k1_idx95_inb : ∀ (v63 : IVec S16 32) (v248 : IVec S16 32) (k1_hw95 : k1_chk95 v63 v248), ∀ a x, ((![v63, v248] : Fin 2 → IVec S16 32) a x).toNat < S128x128.size a := fun v63 v248 k1_hw95 => k1_hw95
def k1_off101 (k1_t4 : Fin k1_t4_loop.trips) : Fin 2 → Nat :=
  let c30_i32_130 : BitVec 32 := 30#32
  let v250 : Index := Scalar.indexCast c30_i32_130
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v251 : Index := Scalar.indexCast v64
  ![30, v251.toNat]

def k1_chk96 (v63 : IVec S16 32) (v254 : IVec S16 32) : Prop :=
  (∀ a x, ((![v63, v254] : Fin 2 → IVec S16 32) a x).toNat < S128x128.size a)
instance k1_chk96.dec : ∀ (v63 : IVec S16 32) (v254 : IVec S16 32), Decidable (k1_chk96 v63 v254) := fun v63 v254 => decidable_of_iff' _ (Iff.of_eq (k1_chk96.eq_1 v63 v254))
theorem k1_idx96_inb : ∀ (v63 : IVec S16 32) (v254 : IVec S16 32) (k1_hw96 : k1_chk96 v63 v254), ∀ a x, ((![v63, v254] : Fin 2 → IVec S16 32) a x).toNat < S128x128.size a := fun v63 v254 k1_hw96 => k1_hw96
def k1_off102 (k1_t4 : Fin k1_t4_loop.trips) : Fin 2 → Nat :=
  let c31_i32_131 : BitVec 32 := 31#32
  let v256 : Index := Scalar.indexCast c31_i32_131
  let c256_i32_94 : BitVec 32 := 256#32
  let c0_i32_44 : BitVec 32 := 0#32
  let c1_i32_46 : BitVec 32 := 1#32
  let arg14 : BitVec 32 := Scf.iv c0_i32_44 c1_i32_46 k1_t4
  let c16_i32 : BitVec 32 := 16#32
  let v61 : BitVec 32 := Scalar.muli arg14 c16_i32
  let v64 : BitVec 32 := Scalar.addi c256_i32_94 v61
  let v257 : Index := Scalar.indexCast v64
  ![31, v257.toNat]
@[reducible] def k1_t5_loop : Scf.Loop 32 :=
  let c0_i32_59 : BitVec 32 := 0#32
  let c8_i32_60 : BitVec 32 := 8#32
  let v39 : BitVec 32 := Scalar.addi c0_i32_59 c8_i32_60
  let c1_i32_61 : BitVec 32 := 1#32
  ⟨c0_i32_59, v39, c1_i32_61⟩
def k1_off103 (k1_t5 : Fin k1_t5_loop.trips) : Fin 1 → Nat :=
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v65 : Index := Scalar.indexCast v64
  ![v65.toNat]

def k1_chk97 (v63 : IVec S16 32) (v68 : IVec S16 32) : Prop :=
  (∀ a x, ((![v63, v68] : Fin 2 → IVec S16 32) a x).toNat < S128x128.size a)
instance k1_chk97.dec : ∀ (v63 : IVec S16 32) (v68 : IVec S16 32), Decidable (k1_chk97 v63 v68) := fun v63 v68 => decidable_of_iff' _ (Iff.of_eq (k1_chk97.eq_1 v63 v68))
theorem k1_idx97_inb : ∀ (v63 : IVec S16 32) (v68 : IVec S16 32) (k1_hw97 : k1_chk97 v63 v68), ∀ a x, ((![v63, v68] : Fin 2 → IVec S16 32) a x).toNat < S128x128.size a := fun v63 v68 k1_hw97 => k1_hw97
def k1_off104 (k1_t5 : Fin k1_t5_loop.trips) : Fin 2 → Nat :=
  let c0_i32_96 : BitVec 32 := 0#32
  let v70 : Index := Scalar.indexCast c0_i32_96
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v71 : Index := Scalar.indexCast v64
  ![0, v71.toNat]

def k1_chk98 (v63 : IVec S16 32) (v74 : IVec S16 32) : Prop :=
  (∀ a x, ((![v63, v74] : Fin 2 → IVec S16 32) a x).toNat < S128x128.size a)
instance k1_chk98.dec : ∀ (v63 : IVec S16 32) (v74 : IVec S16 32), Decidable (k1_chk98 v63 v74) := fun v63 v74 => decidable_of_iff' _ (Iff.of_eq (k1_chk98.eq_1 v63 v74))
theorem k1_idx98_inb : ∀ (v63 : IVec S16 32) (v74 : IVec S16 32) (k1_hw98 : k1_chk98 v63 v74), ∀ a x, ((![v63, v74] : Fin 2 → IVec S16 32) a x).toNat < S128x128.size a := fun v63 v74 k1_hw98 => k1_hw98
def k1_off105 (k1_t5 : Fin k1_t5_loop.trips) : Fin 2 → Nat :=
  let c1_i32_98 : BitVec 32 := 1#32
  let v76 : Index := Scalar.indexCast c1_i32_98
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v77 : Index := Scalar.indexCast v64
  ![1, v77.toNat]

def k1_chk99 (v63 : IVec S16 32) (v80 : IVec S16 32) : Prop :=
  (∀ a x, ((![v63, v80] : Fin 2 → IVec S16 32) a x).toNat < S128x128.size a)
instance k1_chk99.dec : ∀ (v63 : IVec S16 32) (v80 : IVec S16 32), Decidable (k1_chk99 v63 v80) := fun v63 v80 => decidable_of_iff' _ (Iff.of_eq (k1_chk99.eq_1 v63 v80))
theorem k1_idx99_inb : ∀ (v63 : IVec S16 32) (v80 : IVec S16 32) (k1_hw99 : k1_chk99 v63 v80), ∀ a x, ((![v63, v80] : Fin 2 → IVec S16 32) a x).toNat < S128x128.size a := fun v63 v80 k1_hw99 => k1_hw99
def k1_off106 (k1_t5 : Fin k1_t5_loop.trips) : Fin 2 → Nat :=
  let c2_i32_100 : BitVec 32 := 2#32
  let v82 : Index := Scalar.indexCast c2_i32_100
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v83 : Index := Scalar.indexCast v64
  ![2, v83.toNat]

def k1_chk100 (v63 : IVec S16 32) (v86 : IVec S16 32) : Prop :=
  (∀ a x, ((![v63, v86] : Fin 2 → IVec S16 32) a x).toNat < S128x128.size a)
instance k1_chk100.dec : ∀ (v63 : IVec S16 32) (v86 : IVec S16 32), Decidable (k1_chk100 v63 v86) := fun v63 v86 => decidable_of_iff' _ (Iff.of_eq (k1_chk100.eq_1 v63 v86))
theorem k1_idx100_inb : ∀ (v63 : IVec S16 32) (v86 : IVec S16 32) (k1_hw100 : k1_chk100 v63 v86), ∀ a x, ((![v63, v86] : Fin 2 → IVec S16 32) a x).toNat < S128x128.size a := fun v63 v86 k1_hw100 => k1_hw100
def k1_off107 (k1_t5 : Fin k1_t5_loop.trips) : Fin 2 → Nat :=
  let c3_i32_101 : BitVec 32 := 3#32
  let v88 : Index := Scalar.indexCast c3_i32_101
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v89 : Index := Scalar.indexCast v64
  ![3, v89.toNat]

def k1_chk101 (v63 : IVec S16 32) (v92 : IVec S16 32) : Prop :=
  (∀ a x, ((![v63, v92] : Fin 2 → IVec S16 32) a x).toNat < S128x128.size a)
instance k1_chk101.dec : ∀ (v63 : IVec S16 32) (v92 : IVec S16 32), Decidable (k1_chk101 v63 v92) := fun v63 v92 => decidable_of_iff' _ (Iff.of_eq (k1_chk101.eq_1 v63 v92))
theorem k1_idx101_inb : ∀ (v63 : IVec S16 32) (v92 : IVec S16 32) (k1_hw101 : k1_chk101 v63 v92), ∀ a x, ((![v63, v92] : Fin 2 → IVec S16 32) a x).toNat < S128x128.size a := fun v63 v92 k1_hw101 => k1_hw101
def k1_off108 (k1_t5 : Fin k1_t5_loop.trips) : Fin 2 → Nat :=
  let c4_i32_102 : BitVec 32 := 4#32
  let v94 : Index := Scalar.indexCast c4_i32_102
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v95 : Index := Scalar.indexCast v64
  ![4, v95.toNat]

def k1_chk102 (v63 : IVec S16 32) (v98 : IVec S16 32) : Prop :=
  (∀ a x, ((![v63, v98] : Fin 2 → IVec S16 32) a x).toNat < S128x128.size a)
instance k1_chk102.dec : ∀ (v63 : IVec S16 32) (v98 : IVec S16 32), Decidable (k1_chk102 v63 v98) := fun v63 v98 => decidable_of_iff' _ (Iff.of_eq (k1_chk102.eq_1 v63 v98))
theorem k1_idx102_inb : ∀ (v63 : IVec S16 32) (v98 : IVec S16 32) (k1_hw102 : k1_chk102 v63 v98), ∀ a x, ((![v63, v98] : Fin 2 → IVec S16 32) a x).toNat < S128x128.size a := fun v63 v98 k1_hw102 => k1_hw102
def k1_off109 (k1_t5 : Fin k1_t5_loop.trips) : Fin 2 → Nat :=
  let c5_i32_103 : BitVec 32 := 5#32
  let v100 : Index := Scalar.indexCast c5_i32_103
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v101 : Index := Scalar.indexCast v64
  ![5, v101.toNat]

def k1_chk103 (v63 : IVec S16 32) (v104 : IVec S16 32) : Prop :=
  (∀ a x, ((![v63, v104] : Fin 2 → IVec S16 32) a x).toNat < S128x128.size a)
instance k1_chk103.dec : ∀ (v63 : IVec S16 32) (v104 : IVec S16 32), Decidable (k1_chk103 v63 v104) := fun v63 v104 => decidable_of_iff' _ (Iff.of_eq (k1_chk103.eq_1 v63 v104))
theorem k1_idx103_inb : ∀ (v63 : IVec S16 32) (v104 : IVec S16 32) (k1_hw103 : k1_chk103 v63 v104), ∀ a x, ((![v63, v104] : Fin 2 → IVec S16 32) a x).toNat < S128x128.size a := fun v63 v104 k1_hw103 => k1_hw103
def k1_off110 (k1_t5 : Fin k1_t5_loop.trips) : Fin 2 → Nat :=
  let c6_i32_104 : BitVec 32 := 6#32
  let v106 : Index := Scalar.indexCast c6_i32_104
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v107 : Index := Scalar.indexCast v64
  ![6, v107.toNat]

def k1_chk104 (v63 : IVec S16 32) (v110 : IVec S16 32) : Prop :=
  (∀ a x, ((![v63, v110] : Fin 2 → IVec S16 32) a x).toNat < S128x128.size a)
instance k1_chk104.dec : ∀ (v63 : IVec S16 32) (v110 : IVec S16 32), Decidable (k1_chk104 v63 v110) := fun v63 v110 => decidable_of_iff' _ (Iff.of_eq (k1_chk104.eq_1 v63 v110))
theorem k1_idx104_inb : ∀ (v63 : IVec S16 32) (v110 : IVec S16 32) (k1_hw104 : k1_chk104 v63 v110), ∀ a x, ((![v63, v110] : Fin 2 → IVec S16 32) a x).toNat < S128x128.size a := fun v63 v110 k1_hw104 => k1_hw104
def k1_off111 (k1_t5 : Fin k1_t5_loop.trips) : Fin 2 → Nat :=
  let c7_i32_105 : BitVec 32 := 7#32
  let v112 : Index := Scalar.indexCast c7_i32_105
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v113 : Index := Scalar.indexCast v64
  ![7, v113.toNat]

def k1_chk105 (v63 : IVec S16 32) (v116 : IVec S16 32) : Prop :=
  (∀ a x, ((![v63, v116] : Fin 2 → IVec S16 32) a x).toNat < S128x128.size a)
instance k1_chk105.dec : ∀ (v63 : IVec S16 32) (v116 : IVec S16 32), Decidable (k1_chk105 v63 v116) := fun v63 v116 => decidable_of_iff' _ (Iff.of_eq (k1_chk105.eq_1 v63 v116))
theorem k1_idx105_inb : ∀ (v63 : IVec S16 32) (v116 : IVec S16 32) (k1_hw105 : k1_chk105 v63 v116), ∀ a x, ((![v63, v116] : Fin 2 → IVec S16 32) a x).toNat < S128x128.size a := fun v63 v116 k1_hw105 => k1_hw105
def k1_off112 (k1_t5 : Fin k1_t5_loop.trips) : Fin 2 → Nat :=
  let c8_i32_107 : BitVec 32 := 8#32
  let v118 : Index := Scalar.indexCast c8_i32_107
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v119 : Index := Scalar.indexCast v64
  ![8, v119.toNat]

def k1_chk106 (v63 : IVec S16 32) (v122 : IVec S16 32) : Prop :=
  (∀ a x, ((![v63, v122] : Fin 2 → IVec S16 32) a x).toNat < S128x128.size a)
instance k1_chk106.dec : ∀ (v63 : IVec S16 32) (v122 : IVec S16 32), Decidable (k1_chk106 v63 v122) := fun v63 v122 => decidable_of_iff' _ (Iff.of_eq (k1_chk106.eq_1 v63 v122))
theorem k1_idx106_inb : ∀ (v63 : IVec S16 32) (v122 : IVec S16 32) (k1_hw106 : k1_chk106 v63 v122), ∀ a x, ((![v63, v122] : Fin 2 → IVec S16 32) a x).toNat < S128x128.size a := fun v63 v122 k1_hw106 => k1_hw106
def k1_off113 (k1_t5 : Fin k1_t5_loop.trips) : Fin 2 → Nat :=
  let c9_i32_108 : BitVec 32 := 9#32
  let v124 : Index := Scalar.indexCast c9_i32_108
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v125 : Index := Scalar.indexCast v64
  ![9, v125.toNat]

def k1_chk107 (v63 : IVec S16 32) (v128 : IVec S16 32) : Prop :=
  (∀ a x, ((![v63, v128] : Fin 2 → IVec S16 32) a x).toNat < S128x128.size a)
instance k1_chk107.dec : ∀ (v63 : IVec S16 32) (v128 : IVec S16 32), Decidable (k1_chk107 v63 v128) := fun v63 v128 => decidable_of_iff' _ (Iff.of_eq (k1_chk107.eq_1 v63 v128))
theorem k1_idx107_inb : ∀ (v63 : IVec S16 32) (v128 : IVec S16 32) (k1_hw107 : k1_chk107 v63 v128), ∀ a x, ((![v63, v128] : Fin 2 → IVec S16 32) a x).toNat < S128x128.size a := fun v63 v128 k1_hw107 => k1_hw107
def k1_off114 (k1_t5 : Fin k1_t5_loop.trips) : Fin 2 → Nat :=
  let c10_i32_109 : BitVec 32 := 10#32
  let v130 : Index := Scalar.indexCast c10_i32_109
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v131 : Index := Scalar.indexCast v64
  ![10, v131.toNat]

def k1_chk108 (v63 : IVec S16 32) (v134 : IVec S16 32) : Prop :=
  (∀ a x, ((![v63, v134] : Fin 2 → IVec S16 32) a x).toNat < S128x128.size a)
instance k1_chk108.dec : ∀ (v63 : IVec S16 32) (v134 : IVec S16 32), Decidable (k1_chk108 v63 v134) := fun v63 v134 => decidable_of_iff' _ (Iff.of_eq (k1_chk108.eq_1 v63 v134))
theorem k1_idx108_inb : ∀ (v63 : IVec S16 32) (v134 : IVec S16 32) (k1_hw108 : k1_chk108 v63 v134), ∀ a x, ((![v63, v134] : Fin 2 → IVec S16 32) a x).toNat < S128x128.size a := fun v63 v134 k1_hw108 => k1_hw108
def k1_off115 (k1_t5 : Fin k1_t5_loop.trips) : Fin 2 → Nat :=
  let c11_i32_110 : BitVec 32 := 11#32
  let v136 : Index := Scalar.indexCast c11_i32_110
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v137 : Index := Scalar.indexCast v64
  ![11, v137.toNat]

def k1_chk109 (v63 : IVec S16 32) (v140 : IVec S16 32) : Prop :=
  (∀ a x, ((![v63, v140] : Fin 2 → IVec S16 32) a x).toNat < S128x128.size a)
instance k1_chk109.dec : ∀ (v63 : IVec S16 32) (v140 : IVec S16 32), Decidable (k1_chk109 v63 v140) := fun v63 v140 => decidable_of_iff' _ (Iff.of_eq (k1_chk109.eq_1 v63 v140))
theorem k1_idx109_inb : ∀ (v63 : IVec S16 32) (v140 : IVec S16 32) (k1_hw109 : k1_chk109 v63 v140), ∀ a x, ((![v63, v140] : Fin 2 → IVec S16 32) a x).toNat < S128x128.size a := fun v63 v140 k1_hw109 => k1_hw109
def k1_off116 (k1_t5 : Fin k1_t5_loop.trips) : Fin 2 → Nat :=
  let c12_i32_111 : BitVec 32 := 12#32
  let v142 : Index := Scalar.indexCast c12_i32_111
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v143 : Index := Scalar.indexCast v64
  ![12, v143.toNat]

def k1_chk110 (v63 : IVec S16 32) (v146 : IVec S16 32) : Prop :=
  (∀ a x, ((![v63, v146] : Fin 2 → IVec S16 32) a x).toNat < S128x128.size a)
instance k1_chk110.dec : ∀ (v63 : IVec S16 32) (v146 : IVec S16 32), Decidable (k1_chk110 v63 v146) := fun v63 v146 => decidable_of_iff' _ (Iff.of_eq (k1_chk110.eq_1 v63 v146))
theorem k1_idx110_inb : ∀ (v63 : IVec S16 32) (v146 : IVec S16 32) (k1_hw110 : k1_chk110 v63 v146), ∀ a x, ((![v63, v146] : Fin 2 → IVec S16 32) a x).toNat < S128x128.size a := fun v63 v146 k1_hw110 => k1_hw110
def k1_off117 (k1_t5 : Fin k1_t5_loop.trips) : Fin 2 → Nat :=
  let c13_i32_112 : BitVec 32 := 13#32
  let v148 : Index := Scalar.indexCast c13_i32_112
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v149 : Index := Scalar.indexCast v64
  ![13, v149.toNat]

def k1_chk111 (v63 : IVec S16 32) (v152 : IVec S16 32) : Prop :=
  (∀ a x, ((![v63, v152] : Fin 2 → IVec S16 32) a x).toNat < S128x128.size a)
instance k1_chk111.dec : ∀ (v63 : IVec S16 32) (v152 : IVec S16 32), Decidable (k1_chk111 v63 v152) := fun v63 v152 => decidable_of_iff' _ (Iff.of_eq (k1_chk111.eq_1 v63 v152))
theorem k1_idx111_inb : ∀ (v63 : IVec S16 32) (v152 : IVec S16 32) (k1_hw111 : k1_chk111 v63 v152), ∀ a x, ((![v63, v152] : Fin 2 → IVec S16 32) a x).toNat < S128x128.size a := fun v63 v152 k1_hw111 => k1_hw111
def k1_off118 (k1_t5 : Fin k1_t5_loop.trips) : Fin 2 → Nat :=
  let c14_i32_113 : BitVec 32 := 14#32
  let v154 : Index := Scalar.indexCast c14_i32_113
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v155 : Index := Scalar.indexCast v64
  ![14, v155.toNat]

def k1_chk112 (v63 : IVec S16 32) (v158 : IVec S16 32) : Prop :=
  (∀ a x, ((![v63, v158] : Fin 2 → IVec S16 32) a x).toNat < S128x128.size a)
instance k1_chk112.dec : ∀ (v63 : IVec S16 32) (v158 : IVec S16 32), Decidable (k1_chk112 v63 v158) := fun v63 v158 => decidable_of_iff' _ (Iff.of_eq (k1_chk112.eq_1 v63 v158))
theorem k1_idx112_inb : ∀ (v63 : IVec S16 32) (v158 : IVec S16 32) (k1_hw112 : k1_chk112 v63 v158), ∀ a x, ((![v63, v158] : Fin 2 → IVec S16 32) a x).toNat < S128x128.size a := fun v63 v158 k1_hw112 => k1_hw112
def k1_off119 (k1_t5 : Fin k1_t5_loop.trips) : Fin 2 → Nat :=
  let c15_i32_114 : BitVec 32 := 15#32
  let v160 : Index := Scalar.indexCast c15_i32_114
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v161 : Index := Scalar.indexCast v64
  ![15, v161.toNat]

def k1_chk113 (v63 : IVec S16 32) (v164 : IVec S16 32) : Prop :=
  (∀ a x, ((![v63, v164] : Fin 2 → IVec S16 32) a x).toNat < S128x128.size a)
instance k1_chk113.dec : ∀ (v63 : IVec S16 32) (v164 : IVec S16 32), Decidable (k1_chk113 v63 v164) := fun v63 v164 => decidable_of_iff' _ (Iff.of_eq (k1_chk113.eq_1 v63 v164))
theorem k1_idx113_inb : ∀ (v63 : IVec S16 32) (v164 : IVec S16 32) (k1_hw113 : k1_chk113 v63 v164), ∀ a x, ((![v63, v164] : Fin 2 → IVec S16 32) a x).toNat < S128x128.size a := fun v63 v164 k1_hw113 => k1_hw113
def k1_off120 (k1_t5 : Fin k1_t5_loop.trips) : Fin 2 → Nat :=
  let c16_i32_116 : BitVec 32 := 16#32
  let v166 : Index := Scalar.indexCast c16_i32_116
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v167 : Index := Scalar.indexCast v64
  ![16, v167.toNat]

def k1_chk114 (v63 : IVec S16 32) (v170 : IVec S16 32) : Prop :=
  (∀ a x, ((![v63, v170] : Fin 2 → IVec S16 32) a x).toNat < S128x128.size a)
instance k1_chk114.dec : ∀ (v63 : IVec S16 32) (v170 : IVec S16 32), Decidable (k1_chk114 v63 v170) := fun v63 v170 => decidable_of_iff' _ (Iff.of_eq (k1_chk114.eq_1 v63 v170))
theorem k1_idx114_inb : ∀ (v63 : IVec S16 32) (v170 : IVec S16 32) (k1_hw114 : k1_chk114 v63 v170), ∀ a x, ((![v63, v170] : Fin 2 → IVec S16 32) a x).toNat < S128x128.size a := fun v63 v170 k1_hw114 => k1_hw114
def k1_off121 (k1_t5 : Fin k1_t5_loop.trips) : Fin 2 → Nat :=
  let c17_i32_117 : BitVec 32 := 17#32
  let v172 : Index := Scalar.indexCast c17_i32_117
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v173 : Index := Scalar.indexCast v64
  ![17, v173.toNat]

def k1_chk115 (v63 : IVec S16 32) (v176 : IVec S16 32) : Prop :=
  (∀ a x, ((![v63, v176] : Fin 2 → IVec S16 32) a x).toNat < S128x128.size a)
instance k1_chk115.dec : ∀ (v63 : IVec S16 32) (v176 : IVec S16 32), Decidable (k1_chk115 v63 v176) := fun v63 v176 => decidable_of_iff' _ (Iff.of_eq (k1_chk115.eq_1 v63 v176))
theorem k1_idx115_inb : ∀ (v63 : IVec S16 32) (v176 : IVec S16 32) (k1_hw115 : k1_chk115 v63 v176), ∀ a x, ((![v63, v176] : Fin 2 → IVec S16 32) a x).toNat < S128x128.size a := fun v63 v176 k1_hw115 => k1_hw115
def k1_off122 (k1_t5 : Fin k1_t5_loop.trips) : Fin 2 → Nat :=
  let c18_i32_118 : BitVec 32 := 18#32
  let v178 : Index := Scalar.indexCast c18_i32_118
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v179 : Index := Scalar.indexCast v64
  ![18, v179.toNat]

def k1_chk116 (v63 : IVec S16 32) (v182 : IVec S16 32) : Prop :=
  (∀ a x, ((![v63, v182] : Fin 2 → IVec S16 32) a x).toNat < S128x128.size a)
instance k1_chk116.dec : ∀ (v63 : IVec S16 32) (v182 : IVec S16 32), Decidable (k1_chk116 v63 v182) := fun v63 v182 => decidable_of_iff' _ (Iff.of_eq (k1_chk116.eq_1 v63 v182))
theorem k1_idx116_inb : ∀ (v63 : IVec S16 32) (v182 : IVec S16 32) (k1_hw116 : k1_chk116 v63 v182), ∀ a x, ((![v63, v182] : Fin 2 → IVec S16 32) a x).toNat < S128x128.size a := fun v63 v182 k1_hw116 => k1_hw116
def k1_off123 (k1_t5 : Fin k1_t5_loop.trips) : Fin 2 → Nat :=
  let c19_i32_119 : BitVec 32 := 19#32
  let v184 : Index := Scalar.indexCast c19_i32_119
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v185 : Index := Scalar.indexCast v64
  ![19, v185.toNat]

def k1_chk117 (v63 : IVec S16 32) (v188 : IVec S16 32) : Prop :=
  (∀ a x, ((![v63, v188] : Fin 2 → IVec S16 32) a x).toNat < S128x128.size a)
instance k1_chk117.dec : ∀ (v63 : IVec S16 32) (v188 : IVec S16 32), Decidable (k1_chk117 v63 v188) := fun v63 v188 => decidable_of_iff' _ (Iff.of_eq (k1_chk117.eq_1 v63 v188))
theorem k1_idx117_inb : ∀ (v63 : IVec S16 32) (v188 : IVec S16 32) (k1_hw117 : k1_chk117 v63 v188), ∀ a x, ((![v63, v188] : Fin 2 → IVec S16 32) a x).toNat < S128x128.size a := fun v63 v188 k1_hw117 => k1_hw117
def k1_off124 (k1_t5 : Fin k1_t5_loop.trips) : Fin 2 → Nat :=
  let c20_i32_120 : BitVec 32 := 20#32
  let v190 : Index := Scalar.indexCast c20_i32_120
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v191 : Index := Scalar.indexCast v64
  ![20, v191.toNat]

def k1_chk118 (v63 : IVec S16 32) (v194 : IVec S16 32) : Prop :=
  (∀ a x, ((![v63, v194] : Fin 2 → IVec S16 32) a x).toNat < S128x128.size a)
instance k1_chk118.dec : ∀ (v63 : IVec S16 32) (v194 : IVec S16 32), Decidable (k1_chk118 v63 v194) := fun v63 v194 => decidable_of_iff' _ (Iff.of_eq (k1_chk118.eq_1 v63 v194))
theorem k1_idx118_inb : ∀ (v63 : IVec S16 32) (v194 : IVec S16 32) (k1_hw118 : k1_chk118 v63 v194), ∀ a x, ((![v63, v194] : Fin 2 → IVec S16 32) a x).toNat < S128x128.size a := fun v63 v194 k1_hw118 => k1_hw118
def k1_off125 (k1_t5 : Fin k1_t5_loop.trips) : Fin 2 → Nat :=
  let c21_i32_121 : BitVec 32 := 21#32
  let v196 : Index := Scalar.indexCast c21_i32_121
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v197 : Index := Scalar.indexCast v64
  ![21, v197.toNat]

def k1_chk119 (v63 : IVec S16 32) (v200 : IVec S16 32) : Prop :=
  (∀ a x, ((![v63, v200] : Fin 2 → IVec S16 32) a x).toNat < S128x128.size a)
instance k1_chk119.dec : ∀ (v63 : IVec S16 32) (v200 : IVec S16 32), Decidable (k1_chk119 v63 v200) := fun v63 v200 => decidable_of_iff' _ (Iff.of_eq (k1_chk119.eq_1 v63 v200))
theorem k1_idx119_inb : ∀ (v63 : IVec S16 32) (v200 : IVec S16 32) (k1_hw119 : k1_chk119 v63 v200), ∀ a x, ((![v63, v200] : Fin 2 → IVec S16 32) a x).toNat < S128x128.size a := fun v63 v200 k1_hw119 => k1_hw119
def k1_off126 (k1_t5 : Fin k1_t5_loop.trips) : Fin 2 → Nat :=
  let c22_i32_122 : BitVec 32 := 22#32
  let v202 : Index := Scalar.indexCast c22_i32_122
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v203 : Index := Scalar.indexCast v64
  ![22, v203.toNat]

def k1_chk120 (v63 : IVec S16 32) (v206 : IVec S16 32) : Prop :=
  (∀ a x, ((![v63, v206] : Fin 2 → IVec S16 32) a x).toNat < S128x128.size a)
instance k1_chk120.dec : ∀ (v63 : IVec S16 32) (v206 : IVec S16 32), Decidable (k1_chk120 v63 v206) := fun v63 v206 => decidable_of_iff' _ (Iff.of_eq (k1_chk120.eq_1 v63 v206))
theorem k1_idx120_inb : ∀ (v63 : IVec S16 32) (v206 : IVec S16 32) (k1_hw120 : k1_chk120 v63 v206), ∀ a x, ((![v63, v206] : Fin 2 → IVec S16 32) a x).toNat < S128x128.size a := fun v63 v206 k1_hw120 => k1_hw120
def k1_off127 (k1_t5 : Fin k1_t5_loop.trips) : Fin 2 → Nat :=
  let c23_i32_123 : BitVec 32 := 23#32
  let v208 : Index := Scalar.indexCast c23_i32_123
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v209 : Index := Scalar.indexCast v64
  ![23, v209.toNat]

def k1_chk121 (v63 : IVec S16 32) (v212 : IVec S16 32) : Prop :=
  (∀ a x, ((![v63, v212] : Fin 2 → IVec S16 32) a x).toNat < S128x128.size a)
instance k1_chk121.dec : ∀ (v63 : IVec S16 32) (v212 : IVec S16 32), Decidable (k1_chk121 v63 v212) := fun v63 v212 => decidable_of_iff' _ (Iff.of_eq (k1_chk121.eq_1 v63 v212))
theorem k1_idx121_inb : ∀ (v63 : IVec S16 32) (v212 : IVec S16 32) (k1_hw121 : k1_chk121 v63 v212), ∀ a x, ((![v63, v212] : Fin 2 → IVec S16 32) a x).toNat < S128x128.size a := fun v63 v212 k1_hw121 => k1_hw121
def k1_off128 (k1_t5 : Fin k1_t5_loop.trips) : Fin 2 → Nat :=
  let c24_i32_124 : BitVec 32 := 24#32
  let v214 : Index := Scalar.indexCast c24_i32_124
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v215 : Index := Scalar.indexCast v64
  ![24, v215.toNat]

def k1_chk122 (v63 : IVec S16 32) (v218 : IVec S16 32) : Prop :=
  (∀ a x, ((![v63, v218] : Fin 2 → IVec S16 32) a x).toNat < S128x128.size a)
instance k1_chk122.dec : ∀ (v63 : IVec S16 32) (v218 : IVec S16 32), Decidable (k1_chk122 v63 v218) := fun v63 v218 => decidable_of_iff' _ (Iff.of_eq (k1_chk122.eq_1 v63 v218))
theorem k1_idx122_inb : ∀ (v63 : IVec S16 32) (v218 : IVec S16 32) (k1_hw122 : k1_chk122 v63 v218), ∀ a x, ((![v63, v218] : Fin 2 → IVec S16 32) a x).toNat < S128x128.size a := fun v63 v218 k1_hw122 => k1_hw122
def k1_off129 (k1_t5 : Fin k1_t5_loop.trips) : Fin 2 → Nat :=
  let c25_i32_125 : BitVec 32 := 25#32
  let v220 : Index := Scalar.indexCast c25_i32_125
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v221 : Index := Scalar.indexCast v64
  ![25, v221.toNat]

def k1_chk123 (v63 : IVec S16 32) (v224 : IVec S16 32) : Prop :=
  (∀ a x, ((![v63, v224] : Fin 2 → IVec S16 32) a x).toNat < S128x128.size a)
instance k1_chk123.dec : ∀ (v63 : IVec S16 32) (v224 : IVec S16 32), Decidable (k1_chk123 v63 v224) := fun v63 v224 => decidable_of_iff' _ (Iff.of_eq (k1_chk123.eq_1 v63 v224))
theorem k1_idx123_inb : ∀ (v63 : IVec S16 32) (v224 : IVec S16 32) (k1_hw123 : k1_chk123 v63 v224), ∀ a x, ((![v63, v224] : Fin 2 → IVec S16 32) a x).toNat < S128x128.size a := fun v63 v224 k1_hw123 => k1_hw123
def k1_off130 (k1_t5 : Fin k1_t5_loop.trips) : Fin 2 → Nat :=
  let c26_i32_126 : BitVec 32 := 26#32
  let v226 : Index := Scalar.indexCast c26_i32_126
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v227 : Index := Scalar.indexCast v64
  ![26, v227.toNat]

def k1_chk124 (v63 : IVec S16 32) (v230 : IVec S16 32) : Prop :=
  (∀ a x, ((![v63, v230] : Fin 2 → IVec S16 32) a x).toNat < S128x128.size a)
instance k1_chk124.dec : ∀ (v63 : IVec S16 32) (v230 : IVec S16 32), Decidable (k1_chk124 v63 v230) := fun v63 v230 => decidable_of_iff' _ (Iff.of_eq (k1_chk124.eq_1 v63 v230))
theorem k1_idx124_inb : ∀ (v63 : IVec S16 32) (v230 : IVec S16 32) (k1_hw124 : k1_chk124 v63 v230), ∀ a x, ((![v63, v230] : Fin 2 → IVec S16 32) a x).toNat < S128x128.size a := fun v63 v230 k1_hw124 => k1_hw124
def k1_off131 (k1_t5 : Fin k1_t5_loop.trips) : Fin 2 → Nat :=
  let c27_i32_127 : BitVec 32 := 27#32
  let v232 : Index := Scalar.indexCast c27_i32_127
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v233 : Index := Scalar.indexCast v64
  ![27, v233.toNat]

def k1_chk125 (v63 : IVec S16 32) (v236 : IVec S16 32) : Prop :=
  (∀ a x, ((![v63, v236] : Fin 2 → IVec S16 32) a x).toNat < S128x128.size a)
instance k1_chk125.dec : ∀ (v63 : IVec S16 32) (v236 : IVec S16 32), Decidable (k1_chk125 v63 v236) := fun v63 v236 => decidable_of_iff' _ (Iff.of_eq (k1_chk125.eq_1 v63 v236))
theorem k1_idx125_inb : ∀ (v63 : IVec S16 32) (v236 : IVec S16 32) (k1_hw125 : k1_chk125 v63 v236), ∀ a x, ((![v63, v236] : Fin 2 → IVec S16 32) a x).toNat < S128x128.size a := fun v63 v236 k1_hw125 => k1_hw125
def k1_off132 (k1_t5 : Fin k1_t5_loop.trips) : Fin 2 → Nat :=
  let c28_i32_128 : BitVec 32 := 28#32
  let v238 : Index := Scalar.indexCast c28_i32_128
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v239 : Index := Scalar.indexCast v64
  ![28, v239.toNat]

def k1_chk126 (v63 : IVec S16 32) (v242 : IVec S16 32) : Prop :=
  (∀ a x, ((![v63, v242] : Fin 2 → IVec S16 32) a x).toNat < S128x128.size a)
instance k1_chk126.dec : ∀ (v63 : IVec S16 32) (v242 : IVec S16 32), Decidable (k1_chk126 v63 v242) := fun v63 v242 => decidable_of_iff' _ (Iff.of_eq (k1_chk126.eq_1 v63 v242))
theorem k1_idx126_inb : ∀ (v63 : IVec S16 32) (v242 : IVec S16 32) (k1_hw126 : k1_chk126 v63 v242), ∀ a x, ((![v63, v242] : Fin 2 → IVec S16 32) a x).toNat < S128x128.size a := fun v63 v242 k1_hw126 => k1_hw126
def k1_off133 (k1_t5 : Fin k1_t5_loop.trips) : Fin 2 → Nat :=
  let c29_i32_129 : BitVec 32 := 29#32
  let v244 : Index := Scalar.indexCast c29_i32_129
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v245 : Index := Scalar.indexCast v64
  ![29, v245.toNat]

def k1_chk127 (v63 : IVec S16 32) (v248 : IVec S16 32) : Prop :=
  (∀ a x, ((![v63, v248] : Fin 2 → IVec S16 32) a x).toNat < S128x128.size a)
instance k1_chk127.dec : ∀ (v63 : IVec S16 32) (v248 : IVec S16 32), Decidable (k1_chk127 v63 v248) := fun v63 v248 => decidable_of_iff' _ (Iff.of_eq (k1_chk127.eq_1 v63 v248))
theorem k1_idx127_inb : ∀ (v63 : IVec S16 32) (v248 : IVec S16 32) (k1_hw127 : k1_chk127 v63 v248), ∀ a x, ((![v63, v248] : Fin 2 → IVec S16 32) a x).toNat < S128x128.size a := fun v63 v248 k1_hw127 => k1_hw127
def k1_off134 (k1_t5 : Fin k1_t5_loop.trips) : Fin 2 → Nat :=
  let c30_i32_130 : BitVec 32 := 30#32
  let v250 : Index := Scalar.indexCast c30_i32_130
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v251 : Index := Scalar.indexCast v64
  ![30, v251.toNat]

def k1_chk128 (v63 : IVec S16 32) (v254 : IVec S16 32) : Prop :=
  (∀ a x, ((![v63, v254] : Fin 2 → IVec S16 32) a x).toNat < S128x128.size a)
instance k1_chk128.dec : ∀ (v63 : IVec S16 32) (v254 : IVec S16 32), Decidable (k1_chk128 v63 v254) := fun v63 v254 => decidable_of_iff' _ (Iff.of_eq (k1_chk128.eq_1 v63 v254))
theorem k1_idx128_inb : ∀ (v63 : IVec S16 32) (v254 : IVec S16 32) (k1_hw128 : k1_chk128 v63 v254), ∀ a x, ((![v63, v254] : Fin 2 → IVec S16 32) a x).toNat < S128x128.size a := fun v63 v254 k1_hw128 => k1_hw128
def k1_off135 (k1_t5 : Fin k1_t5_loop.trips) : Fin 2 → Nat :=
  let c31_i32_131 : BitVec 32 := 31#32
  let v256 : Index := Scalar.indexCast c31_i32_131
  let c384_i32_94 : BitVec 32 := 384#32
  let c0_i32_59 : BitVec 32 := 0#32
  let c1_i32_61 : BitVec 32 := 1#32
  let arg14 : BitVec 32 := Scf.iv c0_i32_59 c1_i32_61 k1_t5
  let c16_i32 : BitVec 32 := 16#32
  let v61 : BitVec 32 := Scalar.muli arg14 c16_i32
  let v64 : BitVec 32 := Scalar.addi c384_i32_94 v61
  let v257 : Index := Scalar.indexCast v64
  ![31, v257.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32_S1x32 : S32.ShapeCasts S1x32
  concatenates_S1x32_S1x32_S1x32_S1x32_S1x128_d1 : Shape.Concatenates [S1x32, S1x32, S1x32, S1x32] S1x128 1
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  transposes_S100001x32_S32x100001_1_0 : S100001x32.Transposes [1, 0] S32x100001
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  concatenates_S32x16384_S32x16384_S32x16384_S32x16384_S128x16384_d0 : Shape.Concatenates [S32x16384, S32x16384, S32x16384, S32x16384] S128x16384 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S16384x128_S16384x128_0_0 : ∀ a, (![0, 0] : Fin 2 → Nat) a + S16384x128.size a ≤ S16384x128.size a
  h_S16384x128 : 0 < S16384x128.numel
  h_S16 : 0 < S16.numel
  inb_S512_S128_0 : ∀ a, (![0] : Fin 1 → Nat) a + S128.size a ≤ S512.size a
  inb_S32768x128_S32768x128_0_0 : ∀ a, (![0, 0] : Fin 2 → Nat) a + S32768x128.size a ≤ S32768x128.size a
  gathers_S32768x128_S128x128 : S32768x128.Gathers 0 S128x128
  inb_S512_S128_128 : ∀ a, (![128] : Fin 1 → Nat) a + S128.size a ≤ S512.size a
  iota_S16_d0_w32_scVector : S16.Iotas .scVector 32 [0]
  h_S1x16 : 0 < S1x16.numel
  shapeCasts_S1x16_S16 : S1x16.ShapeCasts S16
  shapeCasts_S16_S1x16 : S16.ShapeCasts S1x16
  inb_S512_S128_256 : ∀ a, (![256] : Fin 1 → Nat) a + S128.size a ≤ S512.size a
  inb_S32x512_S32x128_0_0 : ∀ a, (![0, 0] : Fin 2 → Nat) a + S32x128.size a ≤ S32x512.size a
  inb_S512_S128_384 : ∀ a, (![384] : Fin 1 → Nat) a + S128.size a ≤ S512.size a
  inb_S32x512_S32x128_0_128 : ∀ a, (![0, 128] : Fin 2 → Nat) a + S32x128.size a ≤ S32x512.size a
  inb_S32x512_S32x128_0_256 : ∀ a, (![0, 256] : Fin 2 → Nat) a + S32x128.size a ≤ S32x512.size a
  inb_S32x512_S32x128_0_384 : ∀ a, (![0, 384] : Fin 2 → Nat) a + S32x128.size a ≤ S32x512.size a
  transposes_S32x16384_S16384x32_1_0 : S32x16384.Transposes [1, 0] S16384x32
  dot_S128x16384_S128x128_S16384x128_0_0_1_1_n_n_wf : DotDims.WF S128x16384 S128x128 S16384x128 [0] [0] [1] [1] [] []
  hcc1_scratch6 : 12 + S_.numel ≤ 16
  hcc1_scratch7 : 13 + S_.numel ≤ 16
  hcc1_scratch8 : 14 + S_.numel ≤ 16
  hcc1_scoped0 : 15 + S_.numel ≤ 16
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x16384.size a < S32x100001.size a
  hwx0_0 : ∀ i : grid0.Coords, EltTy.bits .f32 = 32 ∨ (Rect.unit (s := S32x100001) (fun a => cc0_transform_0 i a * S32x16384.size a) (fun a => (Pipeline.Clip.of (cc0_transform_0 i a) (S32x16384.size a) (S32x100001.size a)).extent (S32x16384.size a)) fun a => Pipeline.Clip.inb (Pipeline.Clip.ok_of (hstart0_0 i a))).WholeWords (EltTy.packing .f32)
  hwxs0_0 : ∀ i : grid0.Coords, EltTy.bits .f32 = 32 ∨ (Rect.unit (s := S32x16384) (fun _ => 0) (fun a => (Pipeline.Clip.of (cc0_transform_0 i a) (S32x16384.size a) (S32x100001.size a)).extent (S32x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x16384.size a < S32x100001.size a
  hwx0_1 : ∀ i : grid0.Coords, EltTy.bits .f32 = 32 ∨ (Rect.unit (s := S32x100001) (fun a => cc0_transform_1 i a * S32x16384.size a) (fun a => (Pipeline.Clip.of (cc0_transform_1 i a) (S32x16384.size a) (S32x100001.size a)).extent (S32x16384.size a)) fun a => Pipeline.Clip.inb (Pipeline.Clip.ok_of (hstart0_1 i a))).WholeWords (EltTy.packing .f32)
  hwxs0_1 : ∀ i : grid0.Coords, EltTy.bits .f32 = 32 ∨ (Rect.unit (s := S32x16384) (fun _ => 0) (fun a => (Pipeline.Clip.of (cc0_transform_1 i a) (S32x16384.size a) (S32x100001.size a)).extent (S32x16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x16384.size a < S32x100001.size a
  hwx0_2 : ∀ i : grid0.Coords, EltTy.bits .f32 = 32 ∨ (Rect.unit (s := S32x100001) (fun a => cc0_transform_2 i a * S32x16384.size a) (fun a => (Pipeline.Clip.of (cc0_transform_2 i a) (S32x16384.size a) (S32x100001.size a)).extent (S32x16384.size a)) fun a => Pipeline.Clip.inb (Pipeline.Clip.ok_of (hstart0_2 i a))).WholeWords (EltTy.packing .f32)
  hwxs0_2 : ∀ i : grid0.Coords, EltTy.bits .f32 = 32 ∨ (Rect.unit (s := S32x16384) (fun _ => 0) (fun a => (Pipeline.Clip.of (cc0_transform_2 i a) (S32x16384.size a) (S32x100001.size a)).extent (S32x16384.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x16384.size a < S32x100001.size a
  hwx0_3 : ∀ i : grid0.Coords, EltTy.bits .f32 = 32 ∨ (Rect.unit (s := S32x100001) (fun a => cc0_transform_3 i a * S32x16384.size a) (fun a => (Pipeline.Clip.of (cc0_transform_3 i a) (S32x16384.size a) (S32x100001.size a)).extent (S32x16384.size a)) fun a => Pipeline.Clip.inb (Pipeline.Clip.ok_of (hstart0_3 i a))).WholeWords (EltTy.packing .f32)
  hwxs0_3 : ∀ i : grid0.Coords, EltTy.bits .f32 = 32 ∨ (Rect.unit (s := S32x16384) (fun _ => 0) (fun a => (Pipeline.Clip.of (cc0_transform_3 i a) (S32x16384.size a) (S32x100001.size a)).extent (S32x16384.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384x128.size a ≤ S32768x128.size a
  hwx0_6 : ∀ i : grid0.Coords, EltTy.bits .f32 = 32 ∨ (Rect.block (s := S32768x128) S16384x128.size (cc0_transform_6 i) (hinb0_6 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_t2_ok : k1_t2_loop.OK
  k1_off3_inb : ∀ k1_t2 : Fin k1_t2_loop.trips, ∀ a, (k1_off3 k1_t2) a + S16.size a ≤ S512.size a
  k1_off4_inb : ∀ k1_t2 : Fin k1_t2_loop.trips, ∀ a, (k1_off4 k1_t2) a + S1x16.size a ≤ S32x512.size a
  k1_off5_inb : ∀ k1_t2 : Fin k1_t2_loop.trips, ∀ a, (k1_off5 k1_t2) a + S1x16.size a ≤ S32x512.size a
  k1_off6_inb : ∀ k1_t2 : Fin k1_t2_loop.trips, ∀ a, (k1_off6 k1_t2) a + S1x16.size a ≤ S32x512.size a
  k1_off7_inb : ∀ k1_t2 : Fin k1_t2_loop.trips, ∀ a, (k1_off7 k1_t2) a + S1x16.size a ≤ S32x512.size a
  k1_off8_inb : ∀ k1_t2 : Fin k1_t2_loop.trips, ∀ a, (k1_off8 k1_t2) a + S1x16.size a ≤ S32x512.size a
  k1_off9_inb : ∀ k1_t2 : Fin k1_t2_loop.trips, ∀ a, (k1_off9 k1_t2) a + S1x16.size a ≤ S32x512.size a
  k1_off10_inb : ∀ k1_t2 : Fin k1_t2_loop.trips, ∀ a, (k1_off10 k1_t2) a + S1x16.size a ≤ S32x512.size a
  k1_off11_inb : ∀ k1_t2 : Fin k1_t2_loop.trips, ∀ a, (k1_off11 k1_t2) a + S1x16.size a ≤ S32x512.size a
  k1_off12_inb : ∀ k1_t2 : Fin k1_t2_loop.trips, ∀ a, (k1_off12 k1_t2) a + S1x16.size a ≤ S32x512.size a
  k1_off13_inb : ∀ k1_t2 : Fin k1_t2_loop.trips, ∀ a, (k1_off13 k1_t2) a + S1x16.size a ≤ S32x512.size a
  k1_off14_inb : ∀ k1_t2 : Fin k1_t2_loop.trips, ∀ a, (k1_off14 k1_t2) a + S1x16.size a ≤ S32x512.size a
  k1_off15_inb : ∀ k1_t2 : Fin k1_t2_loop.trips, ∀ a, (k1_off15 k1_t2) a + S1x16.size a ≤ S32x512.size a
  k1_off16_inb : ∀ k1_t2 : Fin k1_t2_loop.trips, ∀ a, (k1_off16 k1_t2) a + S1x16.size a ≤ S32x512.size a
  k1_off17_inb : ∀ k1_t2 : Fin k1_t2_loop.trips, ∀ a, (k1_off17 k1_t2) a + S1x16.size a ≤ S32x512.size a
  k1_off18_inb : ∀ k1_t2 : Fin k1_t2_loop.trips, ∀ a, (k1_off18 k1_t2) a + S1x16.size a ≤ S32x512.size a
  k1_off19_inb : ∀ k1_t2 : Fin k1_t2_loop.trips, ∀ a, (k1_off19 k1_t2) a + S1x16.size a ≤ S32x512.size a
  k1_off20_inb : ∀ k1_t2 : Fin k1_t2_loop.trips, ∀ a, (k1_off20 k1_t2) a + S1x16.size a ≤ S32x512.size a
  k1_off21_inb : ∀ k1_t2 : Fin k1_t2_loop.trips, ∀ a, (k1_off21 k1_t2) a + S1x16.size a ≤ S32x512.size a
  k1_off22_inb : ∀ k1_t2 : Fin k1_t2_loop.trips, ∀ a, (k1_off22 k1_t2) a + S1x16.size a ≤ S32x512.size a
  k1_off23_inb : ∀ k1_t2 : Fin k1_t2_loop.trips, ∀ a, (k1_off23 k1_t2) a + S1x16.size a ≤ S32x512.size a
  k1_off24_inb : ∀ k1_t2 : Fin k1_t2_loop.trips, ∀ a, (k1_off24 k1_t2) a + S1x16.size a ≤ S32x512.size a
  k1_off25_inb : ∀ k1_t2 : Fin k1_t2_loop.trips, ∀ a, (k1_off25 k1_t2) a + S1x16.size a ≤ S32x512.size a
  k1_off26_inb : ∀ k1_t2 : Fin k1_t2_loop.trips, ∀ a, (k1_off26 k1_t2) a + S1x16.size a ≤ S32x512.size a
  k1_off27_inb : ∀ k1_t2 : Fin k1_t2_loop.trips, ∀ a, (k1_off27 k1_t2) a + S1x16.size a ≤ S32x512.size a
  k1_off28_inb : ∀ k1_t2 : Fin k1_t2_loop.trips, ∀ a, (k1_off28 k1_t2) a + S1x16.size a ≤ S32x512.size a
  k1_off29_inb : ∀ k1_t2 : Fin k1_t2_loop.trips, ∀ a, (k1_off29 k1_t2) a + S1x16.size a ≤ S32x512.size a
  k1_off30_inb : ∀ k1_t2 : Fin k1_t2_loop.trips, ∀ a, (k1_off30 k1_t2) a + S1x16.size a ≤ S32x512.size a
  k1_off31_inb : ∀ k1_t2 : Fin k1_t2_loop.trips, ∀ a, (k1_off31 k1_t2) a + S1x16.size a ≤ S32x512.size a
  k1_off32_inb : ∀ k1_t2 : Fin k1_t2_loop.trips, ∀ a, (k1_off32 k1_t2) a + S1x16.size a ≤ S32x512.size a
  k1_off33_inb : ∀ k1_t2 : Fin k1_t2_loop.trips, ∀ a, (k1_off33 k1_t2) a + S1x16.size a ≤ S32x512.size a
  k1_off34_inb : ∀ k1_t2 : Fin k1_t2_loop.trips, ∀ a, (k1_off34 k1_t2) a + S1x16.size a ≤ S32x512.size a
  k1_off35_inb : ∀ k1_t2 : Fin k1_t2_loop.trips, ∀ a, (k1_off35 k1_t2) a + S1x16.size a ≤ S32x512.size a
  k1_off36_inb : ∀ i : grid1.Coords, ∀ (r : Fin 4), ∀ a, (k1_off36 i (BitVec.ofNat 32 (128 * r.val))) a + S32x128.size a ≤ S32x16384.size a
  k1_t3_ok : k1_t3_loop.OK
  k1_off37_inb : ∀ k1_t3 : Fin k1_t3_loop.trips, ∀ a, (k1_off37 k1_t3) a + S16.size a ≤ S512.size a
  k1_off38_inb : ∀ k1_t3 : Fin k1_t3_loop.trips, ∀ a, (k1_off38 k1_t3) a + S1x16.size a ≤ S32x512.size a
  k1_off39_inb : ∀ k1_t3 : Fin k1_t3_loop.trips, ∀ a, (k1_off39 k1_t3) a + S1x16.size a ≤ S32x512.size a
  k1_off40_inb : ∀ k1_t3 : Fin k1_t3_loop.trips, ∀ a, (k1_off40 k1_t3) a + S1x16.size a ≤ S32x512.size a
  k1_off41_inb : ∀ k1_t3 : Fin k1_t3_loop.trips, ∀ a, (k1_off41 k1_t3) a + S1x16.size a ≤ S32x512.size a
  k1_off42_inb : ∀ k1_t3 : Fin k1_t3_loop.trips, ∀ a, (k1_off42 k1_t3) a + S1x16.size a ≤ S32x512.size a
  k1_off43_inb : ∀ k1_t3 : Fin k1_t3_loop.trips, ∀ a, (k1_off43 k1_t3) a + S1x16.size a ≤ S32x512.size a
  k1_off44_inb : ∀ k1_t3 : Fin k1_t3_loop.trips, ∀ a, (k1_off44 k1_t3) a + S1x16.size a ≤ S32x512.size a
  k1_off45_inb : ∀ k1_t3 : Fin k1_t3_loop.trips, ∀ a, (k1_off45 k1_t3) a + S1x16.size a ≤ S32x512.size a
  k1_off46_inb : ∀ k1_t3 : Fin k1_t3_loop.trips, ∀ a, (k1_off46 k1_t3) a + S1x16.size a ≤ S32x512.size a
  k1_off47_inb : ∀ k1_t3 : Fin k1_t3_loop.trips, ∀ a, (k1_off47 k1_t3) a + S1x16.size a ≤ S32x512.size a
  k1_off48_inb : ∀ k1_t3 : Fin k1_t3_loop.trips, ∀ a, (k1_off48 k1_t3) a + S1x16.size a ≤ S32x512.size a
  k1_off49_inb : ∀ k1_t3 : Fin k1_t3_loop.trips, ∀ a, (k1_off49 k1_t3) a + S1x16.size a ≤ S32x512.size a
  k1_off50_inb : ∀ k1_t3 : Fin k1_t3_loop.trips, ∀ a, (k1_off50 k1_t3) a + S1x16.size a ≤ S32x512.size a
  k1_off51_inb : ∀ k1_t3 : Fin k1_t3_loop.trips, ∀ a, (k1_off51 k1_t3) a + S1x16.size a ≤ S32x512.size a
  k1_off52_inb : ∀ k1_t3 : Fin k1_t3_loop.trips, ∀ a, (k1_off52 k1_t3) a + S1x16.size a ≤ S32x512.size a
  k1_off53_inb : ∀ k1_t3 : Fin k1_t3_loop.trips, ∀ a, (k1_off53 k1_t3) a + S1x16.size a ≤ S32x512.size a
  k1_off54_inb : ∀ k1_t3 : Fin k1_t3_loop.trips, ∀ a, (k1_off54 k1_t3) a + S1x16.size a ≤ S32x512.size a
  k1_off55_inb : ∀ k1_t3 : Fin k1_t3_loop.trips, ∀ a, (k1_off55 k1_t3) a + S1x16.size a ≤ S32x512.size a
  k1_off56_inb : ∀ k1_t3 : Fin k1_t3_loop.trips, ∀ a, (k1_off56 k1_t3) a + S1x16.size a ≤ S32x512.size a
  k1_off57_inb : ∀ k1_t3 : Fin k1_t3_loop.trips, ∀ a, (k1_off57 k1_t3) a + S1x16.size a ≤ S32x512.size a
  k1_off58_inb : ∀ k1_t3 : Fin k1_t3_loop.trips, ∀ a, (k1_off58 k1_t3) a + S1x16.size a ≤ S32x512.size a
  k1_off59_inb : ∀ k1_t3 : Fin k1_t3_loop.trips, ∀ a, (k1_off59 k1_t3) a + S1x16.size a ≤ S32x512.size a
  k1_off60_inb : ∀ k1_t3 : Fin k1_t3_loop.trips, ∀ a, (k1_off60 k1_t3) a + S1x16.size a ≤ S32x512.size a
  k1_off61_inb : ∀ k1_t3 : Fin k1_t3_loop.trips, ∀ a, (k1_off61 k1_t3) a + S1x16.size a ≤ S32x512.size a
  k1_off62_inb : ∀ k1_t3 : Fin k1_t3_loop.trips, ∀ a, (k1_off62 k1_t3) a + S1x16.size a ≤ S32x512.size a
  k1_off63_inb : ∀ k1_t3 : Fin k1_t3_loop.trips, ∀ a, (k1_off63 k1_t3) a + S1x16.size a ≤ S32x512.size a
  k1_off64_inb : ∀ k1_t3 : Fin k1_t3_loop.trips, ∀ a, (k1_off64 k1_t3) a + S1x16.size a ≤ S32x512.size a
  k1_off65_inb : ∀ k1_t3 : Fin k1_t3_loop.trips, ∀ a, (k1_off65 k1_t3) a + S1x16.size a ≤ S32x512.size a
  k1_off66_inb : ∀ k1_t3 : Fin k1_t3_loop.trips, ∀ a, (k1_off66 k1_t3) a + S1x16.size a ≤ S32x512.size a
  k1_off67_inb : ∀ k1_t3 : Fin k1_t3_loop.trips, ∀ a, (k1_off67 k1_t3) a + S1x16.size a ≤ S32x512.size a
  k1_off68_inb : ∀ k1_t3 : Fin k1_t3_loop.trips, ∀ a, (k1_off68 k1_t3) a + S1x16.size a ≤ S32x512.size a
  k1_off69_inb : ∀ k1_t3 : Fin k1_t3_loop.trips, ∀ a, (k1_off69 k1_t3) a + S1x16.size a ≤ S32x512.size a
  k1_t4_ok : k1_t4_loop.OK
  k1_off70_inb : ∀ k1_t4 : Fin k1_t4_loop.trips, ∀ a, (k1_off70 k1_t4) a + S16.size a ≤ S512.size a
  k1_off71_inb : ∀ k1_t4 : Fin k1_t4_loop.trips, ∀ a, (k1_off71 k1_t4) a + S1x16.size a ≤ S32x512.size a
  k1_off72_inb : ∀ k1_t4 : Fin k1_t4_loop.trips, ∀ a, (k1_off72 k1_t4) a + S1x16.size a ≤ S32x512.size a
  k1_off73_inb : ∀ k1_t4 : Fin k1_t4_loop.trips, ∀ a, (k1_off73 k1_t4) a + S1x16.size a ≤ S32x512.size a
  k1_off74_inb : ∀ k1_t4 : Fin k1_t4_loop.trips, ∀ a, (k1_off74 k1_t4) a + S1x16.size a ≤ S32x512.size a
  k1_off75_inb : ∀ k1_t4 : Fin k1_t4_loop.trips, ∀ a, (k1_off75 k1_t4) a + S1x16.size a ≤ S32x512.size a
  k1_off76_inb : ∀ k1_t4 : Fin k1_t4_loop.trips, ∀ a, (k1_off76 k1_t4) a + S1x16.size a ≤ S32x512.size a
  k1_off77_inb : ∀ k1_t4 : Fin k1_t4_loop.trips, ∀ a, (k1_off77 k1_t4) a + S1x16.size a ≤ S32x512.size a
  k1_off78_inb : ∀ k1_t4 : Fin k1_t4_loop.trips, ∀ a, (k1_off78 k1_t4) a + S1x16.size a ≤ S32x512.size a
  k1_off79_inb : ∀ k1_t4 : Fin k1_t4_loop.trips, ∀ a, (k1_off79 k1_t4) a + S1x16.size a ≤ S32x512.size a
  k1_off80_inb : ∀ k1_t4 : Fin k1_t4_loop.trips, ∀ a, (k1_off80 k1_t4) a + S1x16.size a ≤ S32x512.size a
  k1_off81_inb : ∀ k1_t4 : Fin k1_t4_loop.trips, ∀ a, (k1_off81 k1_t4) a + S1x16.size a ≤ S32x512.size a
  k1_off82_inb : ∀ k1_t4 : Fin k1_t4_loop.trips, ∀ a, (k1_off82 k1_t4) a + S1x16.size a ≤ S32x512.size a
  k1_off83_inb : ∀ k1_t4 : Fin k1_t4_loop.trips, ∀ a, (k1_off83 k1_t4) a + S1x16.size a ≤ S32x512.size a
  k1_off84_inb : ∀ k1_t4 : Fin k1_t4_loop.trips, ∀ a, (k1_off84 k1_t4) a + S1x16.size a ≤ S32x512.size a
  k1_off85_inb : ∀ k1_t4 : Fin k1_t4_loop.trips, ∀ a, (k1_off85 k1_t4) a + S1x16.size a ≤ S32x512.size a
  k1_off86_inb : ∀ k1_t4 : Fin k1_t4_loop.trips, ∀ a, (k1_off86 k1_t4) a + S1x16.size a ≤ S32x512.size a
  k1_off87_inb : ∀ k1_t4 : Fin k1_t4_loop.trips, ∀ a, (k1_off87 k1_t4) a + S1x16.size a ≤ S32x512.size a
  k1_off88_inb : ∀ k1_t4 : Fin k1_t4_loop.trips, ∀ a, (k1_off88 k1_t4) a + S1x16.size a ≤ S32x512.size a
  k1_off89_inb : ∀ k1_t4 : Fin k1_t4_loop.trips, ∀ a, (k1_off89 k1_t4) a + S1x16.size a ≤ S32x512.size a
  k1_off90_inb : ∀ k1_t4 : Fin k1_t4_loop.trips, ∀ a, (k1_off90 k1_t4) a + S1x16.size a ≤ S32x512.size a
  k1_off91_inb : ∀ k1_t4 : Fin k1_t4_loop.trips, ∀ a, (k1_off91 k1_t4) a + S1x16.size a ≤ S32x512.size a
  k1_off92_inb : ∀ k1_t4 : Fin k1_t4_loop.trips, ∀ a, (k1_off92 k1_t4) a + S1x16.size a ≤ S32x512.size a
  k1_off93_inb : ∀ k1_t4 : Fin k1_t4_loop.trips, ∀ a, (k1_off93 k1_t4) a + S1x16.size a ≤ S32x512.size a
  k1_off94_inb : ∀ k1_t4 : Fin k1_t4_loop.trips, ∀ a, (k1_off94 k1_t4) a + S1x16.size a ≤ S32x512.size a
  k1_off95_inb : ∀ k1_t4 : Fin k1_t4_loop.trips, ∀ a, (k1_off95 k1_t4) a + S1x16.size a ≤ S32x512.size a
  k1_off96_inb : ∀ k1_t4 : Fin k1_t4_loop.trips, ∀ a, (k1_off96 k1_t4) a + S1x16.size a ≤ S32x512.size a
  k1_off97_inb : ∀ k1_t4 : Fin k1_t4_loop.trips, ∀ a, (k1_off97 k1_t4) a + S1x16.size a ≤ S32x512.size a
  k1_off98_inb : ∀ k1_t4 : Fin k1_t4_loop.trips, ∀ a, (k1_off98 k1_t4) a + S1x16.size a ≤ S32x512.size a
  k1_off99_inb : ∀ k1_t4 : Fin k1_t4_loop.trips, ∀ a, (k1_off99 k1_t4) a + S1x16.size a ≤ S32x512.size a
  k1_off100_inb : ∀ k1_t4 : Fin k1_t4_loop.trips, ∀ a, (k1_off100 k1_t4) a + S1x16.size a ≤ S32x512.size a
  k1_off101_inb : ∀ k1_t4 : Fin k1_t4_loop.trips, ∀ a, (k1_off101 k1_t4) a + S1x16.size a ≤ S32x512.size a
  k1_off102_inb : ∀ k1_t4 : Fin k1_t4_loop.trips, ∀ a, (k1_off102 k1_t4) a + S1x16.size a ≤ S32x512.size a
  k1_t5_ok : k1_t5_loop.OK
  k1_off103_inb : ∀ k1_t5 : Fin k1_t5_loop.trips, ∀ a, (k1_off103 k1_t5) a + S16.size a ≤ S512.size a
  k1_off104_inb : ∀ k1_t5 : Fin k1_t5_loop.trips, ∀ a, (k1_off104 k1_t5) a + S1x16.size a ≤ S32x512.size a
  k1_off105_inb : ∀ k1_t5 : Fin k1_t5_loop.trips, ∀ a, (k1_off105 k1_t5) a + S1x16.size a ≤ S32x512.size a
  k1_off106_inb : ∀ k1_t5 : Fin k1_t5_loop.trips, ∀ a, (k1_off106 k1_t5) a + S1x16.size a ≤ S32x512.size a
  k1_off107_inb : ∀ k1_t5 : Fin k1_t5_loop.trips, ∀ a, (k1_off107 k1_t5) a + S1x16.size a ≤ S32x512.size a
  k1_off108_inb : ∀ k1_t5 : Fin k1_t5_loop.trips, ∀ a, (k1_off108 k1_t5) a + S1x16.size a ≤ S32x512.size a
  k1_off109_inb : ∀ k1_t5 : Fin k1_t5_loop.trips, ∀ a, (k1_off109 k1_t5) a + S1x16.size a ≤ S32x512.size a
  k1_off110_inb : ∀ k1_t5 : Fin k1_t5_loop.trips, ∀ a, (k1_off110 k1_t5) a + S1x16.size a ≤ S32x512.size a
  k1_off111_inb : ∀ k1_t5 : Fin k1_t5_loop.trips, ∀ a, (k1_off111 k1_t5) a + S1x16.size a ≤ S32x512.size a
  k1_off112_inb : ∀ k1_t5 : Fin k1_t5_loop.trips, ∀ a, (k1_off112 k1_t5) a + S1x16.size a ≤ S32x512.size a
  k1_off113_inb : ∀ k1_t5 : Fin k1_t5_loop.trips, ∀ a, (k1_off113 k1_t5) a + S1x16.size a ≤ S32x512.size a
  k1_off114_inb : ∀ k1_t5 : Fin k1_t5_loop.trips, ∀ a, (k1_off114 k1_t5) a + S1x16.size a ≤ S32x512.size a
  k1_off115_inb : ∀ k1_t5 : Fin k1_t5_loop.trips, ∀ a, (k1_off115 k1_t5) a + S1x16.size a ≤ S32x512.size a
  k1_off116_inb : ∀ k1_t5 : Fin k1_t5_loop.trips, ∀ a, (k1_off116 k1_t5) a + S1x16.size a ≤ S32x512.size a
  k1_off117_inb : ∀ k1_t5 : Fin k1_t5_loop.trips, ∀ a, (k1_off117 k1_t5) a + S1x16.size a ≤ S32x512.size a
  k1_off118_inb : ∀ k1_t5 : Fin k1_t5_loop.trips, ∀ a, (k1_off118 k1_t5) a + S1x16.size a ≤ S32x512.size a
  k1_off119_inb : ∀ k1_t5 : Fin k1_t5_loop.trips, ∀ a, (k1_off119 k1_t5) a + S1x16.size a ≤ S32x512.size a
  k1_off120_inb : ∀ k1_t5 : Fin k1_t5_loop.trips, ∀ a, (k1_off120 k1_t5) a + S1x16.size a ≤ S32x512.size a
  k1_off121_inb : ∀ k1_t5 : Fin k1_t5_loop.trips, ∀ a, (k1_off121 k1_t5) a + S1x16.size a ≤ S32x512.size a
  k1_off122_inb : ∀ k1_t5 : Fin k1_t5_loop.trips, ∀ a, (k1_off122 k1_t5) a + S1x16.size a ≤ S32x512.size a
  k1_off123_inb : ∀ k1_t5 : Fin k1_t5_loop.trips, ∀ a, (k1_off123 k1_t5) a + S1x16.size a ≤ S32x512.size a
  k1_off124_inb : ∀ k1_t5 : Fin k1_t5_loop.trips, ∀ a, (k1_off124 k1_t5) a + S1x16.size a ≤ S32x512.size a
  k1_off125_inb : ∀ k1_t5 : Fin k1_t5_loop.trips, ∀ a, (k1_off125 k1_t5) a + S1x16.size a ≤ S32x512.size a
  k1_off126_inb : ∀ k1_t5 : Fin k1_t5_loop.trips, ∀ a, (k1_off126 k1_t5) a + S1x16.size a ≤ S32x512.size a
  k1_off127_inb : ∀ k1_t5 : Fin k1_t5_loop.trips, ∀ a, (k1_off127 k1_t5) a + S1x16.size a ≤ S32x512.size a
  k1_off128_inb : ∀ k1_t5 : Fin k1_t5_loop.trips, ∀ a, (k1_off128 k1_t5) a + S1x16.size a ≤ S32x512.size a
  k1_off129_inb : ∀ k1_t5 : Fin k1_t5_loop.trips, ∀ a, (k1_off129 k1_t5) a + S1x16.size a ≤ S32x512.size a
  k1_off130_inb : ∀ k1_t5 : Fin k1_t5_loop.trips, ∀ a, (k1_off130 k1_t5) a + S1x16.size a ≤ S32x512.size a
  k1_off131_inb : ∀ k1_t5 : Fin k1_t5_loop.trips, ∀ a, (k1_off131 k1_t5) a + S1x16.size a ≤ S32x512.size a
  k1_off132_inb : ∀ k1_t5 : Fin k1_t5_loop.trips, ∀ a, (k1_off132 k1_t5) a + S1x16.size a ≤ S32x512.size a
  k1_off133_inb : ∀ k1_t5 : Fin k1_t5_loop.trips, ∀ a, (k1_off133 k1_t5) a + S1x16.size a ≤ S32x512.size a
  k1_off134_inb : ∀ k1_t5 : Fin k1_t5_loop.trips, ∀ a, (k1_off134 k1_t5) a + S1x16.size a ≤ S32x512.size a
  k1_off135_inb : ∀ k1_t5 : Fin k1_t5_loop.trips, ∀ a, (k1_off135 k1_t5) a + S1x16.size a ≤ S32x512.size a

variable [Facts₀]

abbrev cc1_scratch6 : DmaSems sig S_ := SemArray.consecutive 12 S_ hcc1_scratch6
abbrev cc1_scratch7 : DmaSems sig S_ := SemArray.consecutive 13 S_ hcc1_scratch7
abbrev cc1_scratch8 : DmaSems sig S_ := SemArray.consecutive 14 S_ hcc1_scratch8
abbrev cc1_scoped0 : DmaSems sig S_ := SemArray.consecutive 15 S_ hcc1_scoped0
def dot_S128x16384_S128x128_S16384x128_0_0_1_1_n_n : DotDims S128x16384 S128x128 S16384x128 where
  lhsContracting := [0]
  rhsContracting := [0]
  lhsNonContracting := [1]
  rhsNonContracting := [1]
  lhsBatch := []
  rhsBatch := []
  wf := dot_S128x16384_S128x128_S16384x128_0_0_1_1_n_n_wf

abbrev win0_0 : Pipeline.Window sig grid0 :=
  Pipeline.Window.ofSpecClip (Memref.whole main_v9) S32x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v9) S32x16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v9) S32x16384.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v9) S32x16384.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S16384x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384 : Shape := ⟨1, ![16384]⟩
abbrev S100001x32 : Shape := ⟨2, ![100001, 32]⟩
abbrev S32x32 : Shape := ⟨2, ![32, 32]⟩
abbrev S32 : Shape := ⟨1, ![32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S1x32 : Shape := ⟨2, ![1, 32]⟩

abbrev nBuf : Space → Nat
  | .hbm => 31
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100001x32, .f32⟩
  | .hbm, ⟨2, _⟩ => ⟨S32x32, .f32⟩
  | .hbm, ⟨3, _⟩ => ⟨S32, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x32, .f32⟩
  | .hbm, ⟨23, _⟩ => ⟨S16384x32, .i1⟩
  | .hbm, ⟨24, _⟩ => ⟨S_, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S1x32, .f32⟩
  | .hbm, ⟨29, _⟩ => ⟨S16384x32, .f32⟩
  | .hbm, ⟨30, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  gather_S100001x32_S16384x1_S16384x32_1_0_n_n_0_1_132_wf : GatherDims.WF S100001x32 S16384x1 S16384x32 [1] [0] [] [0] [] 1 ![1, 32]
  dot_S16384x32_S32x32_S16384x32_1_0_0_1_n_n_wf : DotDims.WF S16384x32 S32x32 S16384x32 [1] [0] [0] [1] [] []

variable [Facts₀]

def gather_S100001x32_S16384x1_S16384x32_1_0_n_n_0_1_132 : GatherDims S100001x32 S16384x1 S16384x32 where
  offsetDims := [1]
  collapsedSliceDims := [0]
  operandBatchingDims := []
  startIndicesBatchingDims := []
  startIndexMap := [0]
  indexVectorDim := 1
  sliceSizes := ![1, 32]
  wf := gather_S100001x32_S16384x1_S16384x32_1_0_n_n_0_1_132_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.KI.Common.lean ====
/-
  What every module of the kernel side shares: the program as the SparseCore launch theorem sees it (its label
  table, configuration and variants), the resource algebra (the handshakes' rounds, the TensorCore pipeline's
  staging cells, the transfers' counters), and the arrays the two processors pass between them.
-/
import proofs.«217943_g20899310862962_cont_8to1_1374_33_alg».proof.KernelIdeal
import proofs.«217943_g20899310862962_cont_8to1_1374_33_alg».proof.Proof.Gen.KernelIdeal
import proofs.«217943_g20899310862962_cont_8to1_1374_33_alg».proof.Proof.Gen.KernelIdeal.Skeleton
import proofs.«217943_g20899310862962_cont_8to1_1374_33_alg».proof.Proof.Gen.KernelIdeal.Launch
import proofs.«217943_g20899310862962_cont_8to1_1374_33_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := UR sig nD τ
abbrev UU : Type := UH × (UP × Counters)

/-- The handshakes' rounds, the left factor. -/
abbrev EH : Emb UH (MT nD τ sig (HIx 1) (Elt F) ℕ UU ℕ) := embL
/-- The pipeline's staging cells, the middle factor; the counters are found by instance in the right. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays the processors pass between them, as locations of device `d` -/

/-- The ids (an argument), the packed projected table (the TensorCore call's result), the transposed output (the
    SparseCore call's result). -/
abbrev uLoc (d : Dev nD) : Loc nD τ sig := (SparseCore.T d).loc main_arg0
abbrev twLoc (d : Dev nD) : Loc nD τ sig := (SparseCore.T d).loc main_v10
abbrev oLoc (d : Dev nD) : Loc nD τ sig := (SparseCore.T d).loc main_v11

end Cert.Proof.KI

end
-- ==== Proof.KI.RegionBody.lean ====
import proofs.«217943_g20899310862962_cont_8to1_1374_33_alg».proof.Proof.KI.Common
import Idealize.ShloMosaic.Lib.Pipeline.FrameBody
import Idealize.ShloMosaic.Lib.Pipeline.Value

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg Window cellOf kernel pipe)
variable {F : FTy → Type} [FloatOps F]

local notation "𝕄" => MT nD τ sig (HIx 1) (Elt F) ℕ UU ℕ

set_option maxRecDepth 16384

/-! ## The TensorCore kernel's body on its staging buffers

Six whole loads (the four table blocks, the block-diagonal weights, the bias row), the dead load of the result's
buffer, one whole store of the product plus bias: the inputs' buffers are left as found, the result's holds the
payload of what the six hold. -/

abbrev rT : Rect S32x16384 := Rect.unit (s := S32x16384) ![0, 0] S32x16384.size inb_S32x16384_S32x16384_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S16384x128 := Rect.unit (s := S16384x128) ![0, 0] S16384x128.size inb_S16384x128_S16384x128_0_0

/-- The result's staging buffer after the body, from what the six input buffers hold: its one whole store. -/
def out6 (x0 x1 x2 x3 : Vec F S32x16384 .f32) (x4 : Vec F S128x128 .f32) (x5 : Vec F S1x128 .f32) : Vec F S16384x128 .f32 :=
  View.canon [⟨rO, k0_pay1 (View.ld x0 rT) (View.ld x1 rT) (View.ld x2 rT) (View.ld x3 rT) (View.ld x4 rW) (View.ld x5 rB)⟩]

theorem cover6 (p0 : Vec F S16384x128 .f32) (y : S16384x128.Idx) :
    ∃ pc ∈ ([⟨rO, p0⟩] : List (View.Piece (Elt F) S16384x128 .f32)), y ∈ pc.1.set :=
  View.cover_of_tiled [⟨rO, p0⟩] S16384x128.size (by rfl) y

theorem hz2 : (![0, 0] : Fin 2 → Nat) = fun _ => 0 := funext fun a => by fin_cases a <;> rfl

/-- The store is whole and the loads are whole: the buffer holds the payload of the six contents. -/
theorem out6_eq (x0 x1 x2 x3 : Vec F S32x16384 .f32) (x4 : Vec F S128x128 .f32) (x5 : Vec F S1x128 .f32) :
    out6 x0 x1 x2 x3 x4 x5 = k0_pay1 x0 x1 x2 x3 x4 x5 := by
  unfold out6
  rw [View.canon_unit_zero hz2]
  simp only [View.ld_unit_zero (S := S32x16384) hz2, View.ld_unit_zero (S := S128x128) hz2, View.ld_unit_zero (S := S1x128) hz2]

set_option maxHeartbeats 1000000 in
theorem sound_body (d : Dev nD) (E : Set ℕ) (i : grid0.Coords)
    (arg1 : Memref sig .tc .vmem S32x16384 .f32) (harg1 : arg1.IsWhole) (arg2 : Memref sig .tc .vmem S32x16384 .f32) (harg2 : arg2.IsWhole)
    (arg3 : Memref sig .tc .vmem S32x16384 .f32) (harg3 : arg3.IsWhole) (arg4 : Memref sig .tc .vmem S32x16384 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S16384x128 .f32) (harg7 : arg7.IsWhole)
    (x0 x1 x2 x3 : Vec F S32x16384 .f32) (x4 : Vec F S128x128 .f32) (x5 : Vec F S1x128 .f32) (Kt : PUnit → sProp 𝕄) :
    iprop(owns (d : Thread nD τ) arg1 fullShare x0 ∗ owns (d : Thread nD τ) arg2 fullShare x1 ∗ owns (d : Thread nD τ) arg3 fullShare x2
          ∗ owns (d : Thread nD τ) arg4 fullShare x3 ∗ owns (d : Thread nD τ) arg5 fullShare x4 ∗ owns (d : Thread nD τ) arg6 fullShare x5
          ∗ (∃ y, owns (d : Thread nD τ) arg7 fullShare y)
          ∗ (iprop(owns (d : Thread nD τ) arg1 fullShare x0 ∗ owns (d : Thread nD τ) arg2 fullShare x1 ∗ owns (d : Thread nD τ) arg3 fullShare x2
            ∗ owns (d : Thread nD τ) arg4 fullShare x3 ∗ owns (d : Thread nD τ) arg5 fullShare x4 ∗ owns (d : Thread nD τ) arg6 fullShare x5
            ∗ owns (d : Thread nD τ) arg7 fullShare (k0_pay1 x0 x1 x2 x3 x4 x5)) -∗ Kt ⟨⟩))
      ⊢ wp frame (wpE (defs₀ (F := F)) 𝒱₀ (d : Thread nD τ) none) E
          (cc0_body i arg1 harg1 arg2 harg2 arg3 harg3 arg4 harg4 arg5 harg5 arg6 harg6 arg7 harg7) Kt := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%y6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover6 _)).trans (out6_eq _ _ _ _ _ _)

end Cert.Proof.KI

end
-- ==== Proof.KI.RegionData.lean ====
import proofs.«217943_g20899310862962_cont_8to1_1374_33_alg».proof.Proof.KI.Common
import proofs.«217943_g20899310862962_cont_8to1_1374_33_alg».proof.Proof.KI.RegionBody

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
variable {F : FTy → Type} [FloatOps F]

local notation "𝕄" => MT nD τ sig (HIx 1) (Elt F) ℕ UU ℕ

/-! ## The TensorCore call as a region of @main

The proof data is relational: the four table windows, the weights and the bias row are left as found; of the
result's staging buffer the body leaves contents in a relation `OutRel t` the instance chooses (nothing at the
word-level instance; the closed form on the rows inside the table at the exact one) — a function of the launch memory
it cannot be, because the last table block overhangs the table and what the staging buffer holds past the table's end
nobody names. -/

abbrev adm : (p : Fin 1) → (pcfgs (F := F) p).Adm := fun p => (cfgs p).toPCfg_adm

variable (M1 : (ℓ : Loc nD τ sig) → Buf (Elt F) ℓ)
variable (OutRel : Fin cfg0.N → (S16384x128.Idx → Elt F .f32) → Prop)

/-- The shares of the transposed table its four windows hold: four read shares cut off the whole. -/
def qW (w : Fin 7) : PosShare TreeShare :=
  if h : w.val < 4 then Transfers.shareTok fullShare 4 ⟨w.val, h⟩ else fullShare

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

def rdat (d : Dev nD) : RDat τ (Elt F) (HIx 1) ℕ UU ℕ cfg0 d where
  A w := M1 ((cfg0.win w).arr.view.loc (d.tc : Thread nD τ))
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => OutRel t X
  Φ _ := iprop(emp)
  q := qW
  owed _ := (K (F := F)).Otc d 0
  recorded _ := {p | p.2 = none}

def rdats : (p : Fin 1) → (c : Dev nD) → RDat τ (Elt F) (HIx 1) ℕ UU ℕ (Pipeline.pin (pcfgs (F := F)) adm p) c
  | 0 => rdat M1 OutRel

variable {M1 OutRel}

/-- The body obligation: the six inputs left as found, the result's buffer at the payload, which the instance's
    relation admits (`hOut`). -/
theorem body_obl (d : Dev nD)
    (hOut : ∀ (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5))) :
    (rdat M1 OutRel d).BodyObligation defs₀ 𝒱₀ (none : HIx 1) Set.univ := fun t Y hY => by
  rw [Gen.bigSep_W0, Gen.bigSep_W0]
  rw [show (rdat M1 OutRel d).Φ t.succ = (rdat M1 OutRel d).Φ t.castSucc from rfl,
    show (rdat M1 OutRel d).owesAt (none : HIx 1) t.succ = (rdat M1 OutRel d).owesAt (none : HIx 1) t.castSucc from rfl]
  show _ ⊢ wp frame _ Set.univ (bodyAt0 t) _
  iintro ⟨HΦ, HO, H0, H1, H2, H3, H4, H5, H6⟩
  iapply (sound_body d Set.univ (grid0.coords t) _ _ _ _ _ _ _ _ _ _ _ _ _ _ (Y 0) (Y 1) (Y 2) (Y 3) (Y 4) (Y 5))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [HO]; · iexact HO
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  isplitl [H5]; · iexists (Y 5); isplitr; · ipureintro; exact rfl
                  iexact H5
  iexists _; isplitr; · ipureintro; exact hOut t Y hY
  iexact H6

end Cert.Proof.KI

end
-- ==== Proof.KI.Region.lean ====
import proofs.«217943_g20899310862962_cont_8to1_1374_33_alg».proof.Proof.KI.Common
import proofs.«217943_g20899310862962_cont_8to1_1374_33_alg».proof.Proof.KI.RegionData

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
variable {F : FTy → Type} [FloatOps F]

local notation "𝕄" => MT nD τ sig (HIx 1) (Elt F) ℕ UU ℕ

variable {M1 : (ℓ : Loc nD τ sig) → Buf (Elt F) ℓ} {OutRel : Fin cfg0.N → (S16384x128.Idx → Elt F .f32) → Prop}

/-! ## The region's record -/

abbrev LK : GSem nD τ sig → Finset (HIx 1) := (K (F := F)).L
abbrev lvK : GSem nD τ sig → HIx 1 → ℕ := (K (F := F)).lev

theorem bigSep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

omit [FloatOps F] in
/-- A whole array as a window names it is the array as @main holds it. -/
theorem arrPt_eq (d : Dev nD) (b : Ref sig .tc) (q : PosShare TreeShare) (f : Buf (Elt F) ((SparseCore.T d).loc b)) :
    (((Memref.whole b).view.loc (d.tc : Thread nD τ) ↦[(Memref.whole b).view.set]{q} f : sProp 𝕄)) = ((SparseCore.T d).loc b ↦{q} f) := by
  simp only [Memref.view_whole, View.set_whole]

theorem bigSep_F0 {M : Type} [URA M] (Φ : Fin 0 → sProp M) : bigSep Finset.univ Φ = (BI.emp : sProp M) :=
  bigSep_univ_eq_bigSepL [] (by decide) (by decide) Φ

omit [FloatOps F] in
theorem prefHeld_emp (d : Dev nD) (q) (pf) :
    (Pipeline.prefHeld (Ix := HIx 1) (Name := ℕ) (U := UU) (Lvl := ℕ) (Val := Elt F) (pcfgs (F := F) 0).pre d q pf : sProp 𝕄) = BI.emp :=
  bigSep_F0 _

/-- The seven windows' arrays, from the four read shares of the transposed table and the three other arrays. -/
theorem arrays_intro (d : Dev nD) :
    iprop(((SparseCore.T d).loc main_v9 ↦{Transfers.shareTok fullShare 4 0} M1 ((SparseCore.T d).loc main_v9))
        ∗ ((SparseCore.T d).loc main_v9 ↦{Transfers.shareTok fullShare 4 1} M1 ((SparseCore.T d).loc main_v9))
        ∗ ((SparseCore.T d).loc main_v9 ↦{Transfers.shareTok fullShare 4 2} M1 ((SparseCore.T d).loc main_v9))
        ∗ ((SparseCore.T d).loc main_v9 ↦{Transfers.shareTok fullShare 4 3} M1 ((SparseCore.T d).loc main_v9))
        ∗ ((SparseCore.T d).loc main_v8 ↦{fullShare} M1 ((SparseCore.T d).loc main_v8))
        ∗ ((SparseCore.T d).loc main_v1 ↦{fullShare} M1 ((SparseCore.T d).loc main_v1))
        ∗ ((SparseCore.T d).loc main_v10 ↦{fullShare} M1 ((SparseCore.T d).loc main_v10)))
      ⊢ ((rdat M1 OutRel d).arrays (rdat M1 OutRel d).A : sProp 𝕄) := by
  unfold RDat.arrays
  rw [Gen.bigSep_W0]
  iintro ⟨T0, T1, T2, T3, H8, H1, H10⟩
  isplitl [T0]; · iapply (Entails.of_eq (arrPt_eq d main_v9 _ _).symm); iexact T0
  isplitl [T1]; · iapply (Entails.of_eq (arrPt_eq d main_v9 _ _).symm); iexact T1
  isplitl [T2]; · iapply (Entails.of_eq (arrPt_eq d main_v9 _ _).symm); iexact T2
  isplitl [T3]; · iapply (Entails.of_eq (arrPt_eq d main_v9 _ _).symm); iexact T3
  isplitl [H8]; · iapply (Entails.of_eq (arrPt_eq d main_v8 _ _).symm); iexact H8
  isplitl [H1]; · iapply (Entails.of_eq (arrPt_eq d main_v1 _ _).symm); iexact H1
  iapply (Entails.of_eq (arrPt_eq d main_v10 _ _).symm); iexact H10

theorem owesAt_intro (d : Dev nD) (t : Fin (cfg0.N + 1)) (W : Waits sig (HIx 1)) (hW : ∀ p ∈ W, p.2 = (none : HIx 1)) :
    (owes (SparseCore.T d) ((K (F := F)).Otc d 0) W : sProp 𝕄) ⊢ (rdat M1 OutRel d).owesAt (none : HIx 1) t := by
  iintro HO
  iexists W; isplitr; · ipureintro; exact fun p hp => Or.inl (hW p hp)
  iexact HO

theorem owesAt_elim (d : Dev nD) (t : Fin (cfg0.N + 1)) :
    ((rdat M1 OutRel d).owesAt (none : HIx 1) t : sProp 𝕄)
      ⊢ iprop(∃ W, ⌜∀ p ∈ W, p.2 = (none : HIx 1)⌝ ∗ owes (SparseCore.T d) ((K (F := F)).Otc d 0) W) := by
  iintro ⟨%W, %hW, HO⟩
  iexists W; isplitr
  · ipureintro; intro p hp
    rcases hW hp with h | ⟨w, s, rfl⟩
    · exact h
    · rfl
  · iexact HO

/-- The result array after both write-backs: at some contents they may have made. -/
theorem arraysAt_6 (d : Dev nD) :
    ((rdat M1 OutRel d).arraysAt cfg0.N : sProp 𝕄) ⊢ iprop(∃ Fc, ⌜(rdat M1 OutRel d).ArrAt 6 cfg0.N Fc⌝ ∗ twLoc d ↦{fullShare} Fc) := by
  unfold RDat.arraysAt
  rw [Gen.bigSep_W0]
  iintro ⟨-, -, -, -, -, -, %Fc, %hFc, H6⟩
  iexists Fc; isplitr; · ipureintro; exact hFc
  iapply (Entails.of_eq (arrPt_eq d main_v10 _ _)); iexact H6

variable (M1 OutRel)

/-- The arrays the region moves, as @main holds them at its entry: the transposed table, the block-diagonal weights,
    the tiled bias row, the result (at anything); and what the TensorCore owes the SparseCore call's handshakes. -/
def regPre (d : Dev nD) : sProp 𝕄 :=
  iprop(((SparseCore.T d).loc main_v9 ↦{fullShare} M1 ((SparseCore.T d).loc main_v9)) ∗ ((SparseCore.T d).loc main_v8 ↦{fullShare} M1 ((SparseCore.T d).loc main_v8))
    ∗ ((SparseCore.T d).loc main_v1 ↦{fullShare} M1 ((SparseCore.T d).loc main_v1)) ∗ ((SparseCore.T d).loc main_v10 ↦{fullShare} M1 ((SparseCore.T d).loc main_v10))
    ∗ ∃ W, ⌜∀ p ∈ W, p.2 = (none : HIx 1)⌝ ∗ owes (SparseCore.T d) ((K (F := F)).Otc d 0) W)

/-- What the region leaves: the result array at contents the two write-backs may have made, the three inputs back,
    the same debt. -/
def regPost (d : Dev nD) : sProp 𝕄 :=
  iprop((∃ Fc, ⌜(rdat M1 OutRel d).ArrAt 6 cfg0.N Fc⌝ ∗ twLoc d ↦{fullShare} Fc)
    ∗ ∃ W, ⌜∀ p ∈ W, p.2 = (none : HIx 1)⌝ ∗ owes (SparseCore.T d) ((K (F := F)).Otc d 0) W)

def R0 (hOut : ∀ (d : Dev nD) (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5))) :
    Pipeline.RDat.RegionSeg (pcfgs (F := F)) adm (rdats M1 OutRel) (none : HIx 1) defs₀ 𝒱₀ (LK (F := F)) (lvK (F := F)) 0 where
  win := winFacts₀0
  block_pos := block_pos0
  stage_whole := stage_whole0
  K := PEmpty
  osem k := k.elim
  ho := Pipeline.OwnSemFacts.none _
  hbody d := body_obl d (hOut d)
  hwaits d := Pipeline.RDat.cellsWaits_intro _ _ _ _ _ fun w s t =>
    (K (F := F)).mayWait_none _ (fun g => Otc_none d 0 g)
  pre := regPre M1
  post := regPost M1 OutRel
  X _ := iprop(emp)
  Y _ := iprop(emp)
  Z d := (SparseCore.T d).loc main_v9 ↦{Transfers.shareDrop fullShare 4} M1 ((SparseCore.T d).loc main_v9)
  hentry d := by
    rw [Pipeline.ownSems0_none, prefHeld_emp]
    unfold regPre
    iintro ⟨⟨H9, H8, H1, H10, %W, %hW, HO⟩, -, -⟩
    ihave H9s := (Transfers.pointsTo_toks_split fullShare 4) $$ H9
    icases H9s with ⟨H9d, H9t⟩
    ihave H9t' := (Entails.of_eq (bigSep4 _)) $$ H9t
    icases H9t' with ⟨T0, T1, T2, T3⟩
    imodintro
    isplitl [T0 T1 T2 T3 H8 H1 H10]
    · iapply (arrays_intro (M1 := M1) (OutRel := OutRel) d)
      isplitl [T0]; · iexact T0
      isplitl [T1]; · iexact T1
      isplitl [T2]; · iexact T2
      isplitl [T3]; · iexact T3
      isplitl [H8]; · iexact H8
      isplitl [H1]; · iexact H1
      iexact H10
    isplitr; · iempintro
    isplitl [HO]
    · iapply (owesAt_intro (M1 := M1) (OutRel := OutRel) d 0 W hW); iexact HO
    isplitr; · iempintro
    iexact H9d
  hin d := by
    show _ ⊢ (iprop(emp) : sProp 𝕄)
    iintro -; iempintro
  hout d := by
    show (iprop(emp) : sProp 𝕄) ⊢ iprop(emp ∗ Pipeline.ownSems0 (fun k : PEmpty => k.elim) d ∗ Pipeline.scopedRest spec0 d)
    rw [Pipeline.ownSems0_none, scopedRest0_eq]
    iintro -
    isplitr; · iempintro
    isplitr <;> iempintro
  hexit d := by
    unfold regPost
    iintro ⟨Harr, HO, -, -⟩
    imodintro
    isplitl [Harr]
    · iapply (show ((rdats M1 OutRel 0 d).arraysAt (Pipeline.pin (pcfgs (F := F)) adm 0).N : sProp 𝕄) ⊢ _ from arraysAt_6 (M1 := M1) (OutRel := OutRel) d)
      iexact Harr
    · iapply (show ((rdats M1 OutRel 0 d).owesAt (none : HIx 1) (Fin.last (Pipeline.pin (pcfgs (F := F)) adm 0).N) : sProp 𝕄) ⊢ _ from
        owesAt_elim (M1 := M1) (OutRel := OutRel) d (Fin.last cfg0.N))
      iexact HO

end Cert.Proof.KI

end
-- ==== Proof.KI.RegionWp.lean ====
import proofs.«217943_g20899310862962_cont_8to1_1374_33_alg».proof.Proof.KI.Common
import proofs.«217943_g20899310862962_cont_8to1_1374_33_alg».proof.Proof.KI.Region

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
variable {F : FTy → Type} [FloatOps F]

local notation "𝕄" => MT nD τ sig (HIx 1) (Elt F) ℕ UU ℕ

variable {M1 : (ℓ : Loc nD τ sig) → Buf (Elt F) ℓ} {OutRel : Fin cfg0.N → (S16384x128.Idx → Elt F .f32) → Prop}

theorem cellOf_inj' : Function.Injective (Pipeline.cellOf (nD := nD) (τ := τ) (Pipeline.pin (pcfgs (F := F)) adm)) := cellOf_inj

set_option maxHeartbeats 1000000 in
/-- The region in the pipelines' own label table. -/
theorem region_wp_D (hOut : ∀ (d : Dev nD) (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5)))
    [∀ e, Nonempty (Elt F e)] (d : Dev nD) (Φ : PUnit → sProp 𝕄) :
    iprop((iprop(boundary (d.tc : Thread nD τ) ∗ (R0 M1 OutRel hOut).post d) -∗ wp frame (wpE (D (F := F)) 𝒱 (d.tc : Thread nD τ) none) Set.univ (.ret ⟨⟩) Φ)
        ∗ boundary (d.tc : Thread nD τ) ∗ (R0 M1 OutRel hOut).pre d ∗ levAts (LK (F := F)) (lvK (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Φ :=
  Pipeline.RDat.RegionSeg.wp (pcfgs (F := F)) adm (rdats M1 OutRel) (none : HIx 1) cellOf_inj' EP defs₀ 𝒱₀ (LK (F := F)) (lvK (F := F))
    (R0 M1 OutRel hOut) d none (fun _ h => nomatch h) (fun _ => .ret ⟨⟩) Φ

set_option maxHeartbeats 1000000 in
/-- The TensorCore call as @main meets it, inside the SparseCore program's label table: from the boundary, the region's
    arrays and debt, the level facts and the pipeline's launch ghost state, to the boundary and what the region leaves. -/
theorem region_wp (hOut : ∀ (d : Dev nD) (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5)))
    [∀ e, Nonempty (Elt F e)] (d : Dev nD) {Φ : PUnit → sProp 𝕄} :
    iprop(boundary (SparseCore.T d) ∗ regPre M1 d ∗ levAts (LK (F := F)) (lvK (F := F))
        ∗ Pipeline.cellsGhost (Pipeline.pin (pcfgs (F := F)) adm) EP 0 d ∗ Pipeline.toksInit (Pipeline.pin (pcfgs (F := F)) adm) EP 0 d
        ∗ (iprop(boundary (SparseCore.T d) ∗ regPost M1 OutRel d) -∗ Φ ⟨⟩))
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) Set.univ none
    (Prog.op (.customCall (Pipeline.entry 0) ()) fun _ => Prog.ret PUnit.unit) Φ
  have haux : iprop(boundary (SparseCore.T d) ∗ regPre M1 d ∗ levAts (LK (F := F)) (lvK (F := F))
        ∗ Pipeline.cellsGhost (Pipeline.pin (pcfgs (F := F)) adm) EP 0 d ∗ Pipeline.toksInit (Pipeline.pin (pcfgs (F := F)) adm) EP 0 d
        ∗ (iprop(boundary (SparseCore.T d) ∗ regPost M1 OutRel d) -∗ Φ ⟨⟩))
      ⊢ iprop((iprop(boundary (d.tc : Thread nD τ) ∗ (R0 M1 OutRel hOut).post d) -∗ wp frame (wpE (D (F := F)) 𝒱 (d.tc : Thread nD τ) none) Set.univ (.ret ⟨⟩) Φ)
        ∗ boundary (d.tc : Thread nD τ) ∗ (R0 M1 OutRel hOut).pre d ∗ levAts (LK (F := F)) (lvK (F := F))
        ∗ Pipeline.cellsGhost (Pipeline.pin (pcfgs (F := F)) adm) EP 0 d ∗ Pipeline.toksInit (Pipeline.pin (pcfgs (F := F)) adm) EP 0 d) := by
    iintro ⟨Hb, Hpre, Hlev, Hcg, Htk, Hk⟩
    isplitl [Hk]
    · iintro ⟨Hb', Hp'⟩
      rw [wp_ret]; imodintro
      iapply Hk
      isplitl [Hb']; · iexact Hb'
      iapply (Entails.of_eq (show (R0 M1 OutRel hOut).post d = regPost M1 OutRel d from rfl)); iexact Hp'
    isplitl [Hb]; · iexact Hb
    isplitl [Hpre]; · iapply (Entails.of_eq (show regPre M1 d = (R0 M1 OutRel hOut).pre d from rfl)); iexact Hpre
    isplitl [Hlev]; · iexact Hlev
    isplitl [Hcg]; · iexact Hcg
    iexact Htk
  exact haux.trans ((region_wp_D hOut d Φ).trans hl)

end Cert.Proof.KI

end
-- ==== Proof.KI.Host.lean ====
import proofs.«217943_g20899310862962_cont_8to1_1374_33_alg».proof.Proof.KI.Common

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
variable {F : FTy → Type} [FloatOps F]

local notation "𝕄" => MT nD τ sig (HIx 1) (Elt F) ℕ UU ℕ

/-! ## @main's host lines

Before the TensorCore call: the bias row tiled four times, the 4 x 4 identity, its Kronecker product with W, the
table transposed. After the SparseCore call: the transposition back. -/

abbrev ops1 : List (HloOp τ sig (Elt F)) :=
  [ reshape main_arg3 main_v0 rfl shapeCasts_S32_S1x32,
    nary ![main_v0, main_v0, main_v0, main_v0] main_v1 (fun u => concatenate S1x128 1 [⟨S1x32, u 0⟩, ⟨S1x32, u 1⟩, ⟨S1x32, u 2⟩, ⟨S1x32, u 3⟩] concatenates_S1x32_S1x32_S1x32_S1x32_S1x128_d1),
    nullary main_v2 (iotaInDim S4x4 32 0),
    nullary main_v3 (iotaInDim S4x4 32 1),
    nullary main_c (constantI S_ 32 0#32),
    unary main_c main_v4 (broadcastInDim S4x4 ![] bcast_S_S4x4 : (⟨S_, .i32⟩ : BufTy).Contents (Elt F) → (⟨S4x4, .i32⟩ : BufTy).Contents (Elt F)),
    binary main_v2 main_v4 main_v5 (addi : (⟨S4x4, .i32⟩ : BufTy).Contents (Elt F) → (⟨S4x4, .i32⟩ : BufTy).Contents (Elt F) → (⟨S4x4, .i32⟩ : BufTy).Contents (Elt F)),
    binary main_v5 main_v3 main_v6 (cmpi .eq : (⟨S4x4, .i32⟩ : BufTy).Contents (Elt F) → (⟨S4x4, .i32⟩ : BufTy).Contents (Elt F) → (⟨S4x4, .i1⟩ : BufTy).Contents (Elt F)),
    unary main_v6 main_v7 (uitofp .f32 : (⟨S4x4, .i1⟩ : BufTy).Contents (Elt F) → (⟨S4x4, .f32⟩ : BufTy).Contents (Elt F)),
    TRef.unary (.of main_v7 : TRef sig ⟨S4x4, .f32⟩) main_call0.v0 (broadcastInDim S4x1x4x1 ![0, 2] bcast_S4x4_S4x1x4x1_0_2),
    TRef.unary (.of main_arg2 : TRef sig ⟨S32x32, .f32⟩) main_call0.v1 (broadcastInDim S1x32x1x32 ![1, 3] bcast_S32x32_S1x32x1x32_1_3),
    TRef.unary main_call0.v0 main_call0.v2 (broadcastInDim S4x32x4x32 ![0, 1, 2, 3] bcast_S4x1x4x1_S4x32x4x32_0_1_2_3),
    TRef.unary main_call0.v1 main_call0.v3 (broadcastInDim S4x32x4x32 ![0, 1, 2, 3] bcast_S1x32x1x32_S4x32x4x32_0_1_2_3),
    TRef.binary main_call0.v2 main_call0.v3 main_call0.v4 mulf,
    TRef.reshape main_call0.v4 main_call0.v5 rfl shapeCasts_S4x32x4x32_S128x128,
    unary main_arg1 main_v9 ((transpose S32x100001 [1, 0] · transposes_S100001x32_S32x100001_1_0) : (⟨S100001x32, .f32⟩ : BufTy).Contents (Elt F) → (⟨S32x100001, .f32⟩ : BufTy).Contents (Elt F)) ]

abbrev ops2 : List (HloOp τ sig (Elt F)) :=
  [ unary main_v11 main_v12 ((transpose S16384x32 [1, 0] · transposes_S32x16384_S16384x32_1_0) : (⟨S32x16384, .f32⟩ : BufTy).Contents (Elt F) → (⟨S16384x32, .f32⟩ : BufTy).Contents (Elt F)) ]

set_option maxRecDepth 4096 in
/-- @main is the first stretch, the TensorCore call, the SparseCore call, the last line. -/
theorem main_eq (d : Dev nD) :
    main (F := F) d = (seq ops1 >>= fun _ => Prog.lift (.customCall (SparseCore.inner (Pipeline.entry 0)) ()) >>= fun _ =>
      sc.run d 0 >>= fun _ => seq ops2) := by
  simp only [main, fn_kron.body, seq, bind_assoc, pure_bind]

/-- The device's buffers at launch and after the first stretch of host lines; the latter as a memory. -/
abbrev V0 (m : (ℓ : Loc nD τ sig) → Buf (Elt F) ℓ) (d : Dev nD) : Valuation τ sig (Elt F) := fun b => m (d, b)
abbrev V1 (m : (ℓ : Loc nD τ sig) → Buf (Elt F) ℓ) (d : Dev nD) : Valuation τ sig (Elt F) := after ops1 (V0 m d)
abbrev M1 (m : (ℓ : Loc nD τ sig) → Buf (Elt F) ℓ) : (ℓ : Loc nD τ sig) → Buf (Elt F) ℓ := fun ℓ => V1 m ℓ.1 ℓ.2

end Cert.Proof.KI

end
-- ==== Proof.Spec.lean ====
/-
  The function both programs compute, stated once over the argument arrays: an embedding lookup followed by a dense
  layer. Entry (e, q) of the result is the sum over the 32 features k of table[id e, k] * W[k, q], plus b[q], on the
  extended reals. An id is read as an unsigned word and capped at the last row of the table; under the precondition
  (0 <= id <= 100000) the cap never acts.
-/
import Idealize.ShloMosaic.PureOps.Ideal
import Idealize.ShloMosaic.Lib.ValueIdx

noncomputable section

open scoped BigOperators

namespace Cert.Spec

open Idealize.ShloMosaic Idealize.ShloMosaic.ValueIdx

/-- The table row an id names: the id read unsigned, capped at the last row. -/
def rowOf (u : BitVec 32) : Fin 100001 := ⟨min u.toNat 100000, by omega⟩

theorem rowOf_val_of_le {u : BitVec 32} (h : u.toNat ≤ 100000) : (rowOf u).val = u.toNat := by
  show min u.toNat 100000 = u.toNat
  omega

/-- The dense layer on the looked-up rows, entry by entry. -/
def G (u : IVec ⟨1, ![16384]⟩ 32) (T : FVec Ideal ⟨2, ![100001, 32]⟩ .f32) (W : FVec Ideal ⟨2, ![32, 32]⟩ .f32)
    (b : FVec Ideal ⟨1, ![32]⟩ .f32) : FVec Ideal ⟨2, ![16384, 32]⟩ .f32 :=
  fun i => ((∑ k : Fin 32, (T (ix2 (n0 := 100001) (n1 := 32) (rowOf (u (ix1 (n := 16384) (i 0)))) k) : EReal)
      * (W (ix2 (n0 := 32) (n1 := 32) k (i 1)) : EReal)) + (b (ix1 (n := 32) (i 1)) : EReal) : EReal)

theorem G_apply (u : IVec ⟨1, ![16384]⟩ 32) (T : FVec Ideal ⟨2, ![100001, 32]⟩ .f32) (W : FVec Ideal ⟨2, ![32, 32]⟩ .f32)
    (b : FVec Ideal ⟨1, ![32]⟩ .f32) (e : Fin 16384) (q : Fin 32) :
    G u T W b (ix2 e q) = ((∑ k : Fin 32, (T (ix2 (rowOf (u (ix1 e))) k) : EReal) * (W (ix2 k q) : EReal)) + (b (ix1 q) : EReal) : EReal) := rfl

end Cert.Spec

end
-- ==== Proof.KI.TileSpec.lean ====
/-
  What the SparseCore call carries and what a vector subcore's task must do with it.
  The 16384 ids are cut into 32 runs of 512; worker w = 2 * subcore + core owns run w of the ids and columns
  [512 w, 512 (w + 1)) of the transposed output; every worker reads the packed projected table through a read share.
  The packed table keeps the projection of table row u at row (u mod 32768), lanes 32 * (u div 32768) + dd, dd < 32;
  a worker's columns must end holding, at (dd, r), the projection of the row that id r names, at feature dd.
-/
import proofs.«217943_g20899310862962_cont_8to1_1374_33_alg».proof.Proof.KI.Common
import proofs.«217943_g20899310862962_cont_8to1_1374_33_alg».proof.Proof.Spec
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
-- The projected value of table row `u` at feature `dd`, and whether values are tracked at all (they are at the exact
-- instance, not at the word-level one). The packed table's contents when the SparseCore call starts are not a function
-- of the launch memory (blocks that overhang the table's end leave lanes nobody names), so they travel existentially.
variable (pv : Fin 100001 → Fin 32 → F .f32) (Ok : Prop)

/-! ## The pure facts -/

/-- Every id is a row of the table (the precondition's last conjunct, read unsigned). -/
def PreOK : Prop := ∀ (d : Dev nD) (r : S16384.Idx), (m (uLoc d) r).toNat ≤ 100000

theorem packRow_lt (u : Fin 100001) : u.val % 32768 < 32768 := Nat.mod_lt _ (by decide)
theorem packLane_lt (u : Fin 100001) (dd : Fin 32) : 32 * (u.val / 32768) + dd.val < 128 := by
  have := u.isLt; have := dd.isLt; omega

/-- The packed table holds every table row's projection where the lookup will read it. -/
def TWok (d : Dev nD) (twc : Buf (Elt F) (twLoc d)) : Prop :=
  Ok → ∀ (u : Fin 100001) (dd : Fin 32),
    twc (ix2 (n0 := 32768) (n1 := 128) ⟨u.val % 32768, packRow_lt u⟩ ⟨32 * (u.val / 32768) + dd.val, packLane_lt u dd⟩) = pv u dd

/-- Columns of worker `w` of a transposed output `f` hold the looked-up projections. -/
def OutOkOn (d : Dev nD) (w : Fin 32) (f : Buf (Elt F) (oLoc d)) : Prop :=
  Ok → ∀ (dd : Fin 32) (r : Fin 16384), r.val / 512 = w.val →
    f (ix2 (n0 := 32) (n1 := 16384) dd r) = pv (Cert.Spec.rowOf (m (uLoc d) (ix1 (n := 16384) r))) dd

/-- The whole transposed output holds them. -/
def OutOk (d : Dev nD) (f : Buf (Elt F) (oLoc d)) : Prop :=
  Ok → ∀ (dd : Fin 32) (r : Fin 16384),
    f (ix2 (n0 := 32) (n1 := 16384) dd r) = pv (Cert.Spec.rowOf (m (uLoc d) (ix1 (n := 16384) r))) dd

/-! ## The workers' parts of the arrays -/

theorem hdivU : 32 ∣ S16384.size 0 := ⟨512, rfl⟩
theorem hdivO : 32 ∣ S32x16384.size 1 := ⟨512, rfl⟩

/-- The worker a (core, subcore) pair is: 2 * subcore + core, as the kernel computes it. -/
def wid (c : Fin 2) (i : Fin 16) : Fin 32 := ⟨2 * i.val + c.val, by omega⟩

abbrev uPart (w : Fin 32) : Rect S16384 := Rect.part (s := S16384) (a₀ := 0) hdivU w
abbrev oPart (w : Fin 32) : Rect S32x16384 := Rect.part (s := S32x16384) (a₀ := 1) hdivO w
abbrev uSet (w : Fin 32) : Finset S16384.Idx := (uPart w).set
abbrev oSet (w : Fin 32) : Finset S32x16384.Idx := (oPart w).set

/-- Worker `w`'s read share of the packed table at contents `twc`, its run of the ids, its columns of the output at
    contents `f`. -/
abbrev twTok (d : Dev nD) (w : Fin 32) (twc : Buf (Elt F) (twLoc d)) : sProp 𝕄 := twLoc d ↦{Transfers.shareTok fullShare 32 w} twc
abbrev uPts (d : Dev nD) (w : Fin 32) : sProp 𝕄 := uLoc d ↦[uSet w]{fullShare} m (uLoc d)
abbrev oPts (d : Dev nD) (w : Fin 32) (f : Buf (Elt F) (oLoc d)) : sProp 𝕄 := oLoc d ↦[oSet w]{fullShare} f

/-- What the sequencer's go hands worker `w` (a read share of the packed table at some contents that hold the
    projections, its ids, its columns), and what its taskDone hands back (the ids, the columns filled; the read share
    is not needed again and is let go). -/
def goW (d : Dev nD) (w : Fin 32) : sProp 𝕄 :=
  iprop((∃ twc, ⌜TWok pv Ok d twc⌝ ∗ twTok d w twc) ∗ uPts m d w ∗ oPts d w (m (oLoc d)))
def tdW (d : Dev nD) (w : Fin 32) : sProp 𝕄 := iprop(uPts m d w ∗ ∃ f, ⌜OutOkOn m pv Ok d w f⌝ ∗ oPts d w f)

/-- The one SparseCore call: a SparseCore is handed exactly what its sixteen tasks are, and hands back what they do;
    no task consumes anything of the launch's. -/
def P : (K (F := F)).Pay (nD := nD) (Val := Elt F) (Name := ℕ) (U := UU) where
  st := fun q d c => match q with | 0 => bigSep Finset.univ fun i : Fin 16 => goW m pv Ok d (wid (Fin.cast nCore_zero c) i)
  dn := fun q d c => match q with | 0 => bigSep Finset.univ fun i : Fin 16 => tdW m pv Ok d (wid (Fin.cast nCore_zero c) i)
  go := fun q d c i => match q with | 0 => goW m pv Ok d (wid (Fin.cast nCore_zero c) (Fin.cast nSub_zero i))
  td := fun q d c i => match q with | 0 => tdW m pv Ok d (wid (Fin.cast nCore_zero c) (Fin.cast nSub_zero i))
  x := fun _ _ => iprop(emp)

instance P_storable : (P (F := F) m pv Ok).IsStorable where
  st q d c := match q with | 0 => by unfold P goW; infer_instance
  dn q d c := match q with | 0 => by unfold P tdW; infer_instance
  go q d c i := match q with | 0 => by unfold P goW; infer_instance
  td q d c i := match q with | 0 => by unfold P tdW; infer_instance

end Cert.Proof.KI

end
-- ==== Proof.KI.Split.lean ====
/-
  The SparseCore call's resources, split and rejoined. Before the call the device holds the packed projected table, the
  ids and the transposed output whole. The table's full share is cut into 32 read tokens and a remainder; the ids are
  cut into 32 runs of 512 and the output into 32 bands of 512 columns; worker w = 2 * subcore + core receives token w,
  run w and band w, and the pairs (core, subcore) name the 32 workers once each. After the call the 32 runs make the ids
  whole again, and the 32 bands, each holding the looked-up projections on its own columns, make a whole output that
  holds them on every column: column r lies in band r / 512 and in no other.
-/
import proofs.«217943_g20899310862962_cont_8to1_1374_33_alg».proof.Proof.KI.TileSpec
import Idealize.ShloMosaic.Lib.Transfers
import Idealize.ShloMosaic.Rules.PointsTo
import Idealize.ShloMosaic.Lib.SparseCore.Launch

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (pv : Fin 100001 → Fin 32 → F .f32) (Ok : Prop)

/-! ## The workers, once each -/

/-- Different (core, subcore) pairs are different workers. -/
theorem wid_injective : Function.Injective (fun p : Fin 2 × Fin 16 => wid p.1 p.2) := by
  rintro ⟨c, i⟩ ⟨c', i'⟩ h
  have hv : (wid c i).val = (wid c' i').val := congrArg Fin.val h
  change 2 * i.val + c.val = 2 * i'.val + c'.val at hv
  have hc := c.isLt
  have hc' := c'.isLt
  exact Prod.ext (Fin.ext (by show c.val = c'.val; omega)) (Fin.ext (by show i.val = i'.val; omega))

/-- Every worker is some pair's: worker w is core w mod 2, subcore w div 2. -/
theorem wid_image : (Finset.univ : Finset (Fin 2 × Fin 16)).image (fun p => wid p.1 p.2) = Finset.univ := by
  ext w
  simp only [Finset.mem_image, Finset.mem_univ, true_and, iff_true]
  exact ⟨(⟨w.val % 2, Nat.mod_lt _ (by decide)⟩, ⟨w.val / 2, by have := w.isLt; omega⟩),
    Fin.ext (by show 2 * (w.val / 2) + w.val % 2 = w.val; omega)⟩

/-- A family over the workers, gathered core by core and subcore by subcore, is the family over the 32 workers. -/
theorem bigSep_wid (Φ : Fin 32 → sProp 𝕄) :
    (bigSep Finset.univ fun c : Fin 2 => bigSep Finset.univ fun i : Fin 16 => Φ (wid c i)) = bigSep Finset.univ Φ := by
  rw [← wid_image, SparseCore.bigSep_image_of_injOn (wid_injective.injOn), ← Finset.univ_product_univ,
    SparseCore.bigSep_product]

/-- The call's cores are the two cores. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's tasks are the sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the two cores are handed together is what the 32 workers are handed. -/
theorem st_all (d : Dev nD) :
    (bigSep Finset.univ fun c : Fin ((K (F := F)).nCore 0) => (P m pv Ok).st 0 d c)
      = bigSep Finset.univ fun w : Fin 32 => goW m pv Ok d w := by
  show (bigSep Finset.univ fun c : Fin ((K (F := F)).nCore 0) =>
      bigSep Finset.univ fun i : Fin 16 => goW m pv Ok d (wid (Fin.cast nCore_zero c) i)) = _
  rw [bigSep_cores (F := F) (fun c => bigSep Finset.univ fun i : Fin 16 => goW m pv Ok d (wid c i)),
    bigSep_wid (F := F) (fun w => goW m pv Ok d w)]

/-- What the two cores hand back together is what the 32 workers hand back. -/
theorem dn_all (d : Dev nD) :
    (bigSep Finset.univ fun c : Fin ((K (F := F)).nCore 0) => (P m pv Ok).dn 0 d c)
      = bigSep Finset.univ fun w : Fin 32 => tdW m pv Ok d w := by
  show (bigSep Finset.univ fun c : Fin ((K (F := F)).nCore 0) =>
      bigSep Finset.univ fun i : Fin 16 => tdW m pv Ok d (wid (Fin.cast nCore_zero c) i)) = _
  rw [bigSep_cores (F := F) (fun c => bigSep Finset.univ fun i : Fin 16 => tdW m pv Ok d (wid c i)),
    bigSep_wid (F := F) (fun w => tdW m pv Ok d w)]

/-! ## The runs of the ids and the bands of the output -/

theorem uParts_disjoint : ∀ i ∈ (Finset.univ : Finset (Fin 32)), ∀ j ∈ (Finset.univ : Finset (Fin 32)), i ≠ j →
    Disjoint (uSet i) (uSet j) :=
  fun _ _ _ _ h => Rect.part_disjoint hdivU h
theorem uParts_cover : (Finset.univ : Finset (Fin 32)).biUnion uSet = Finset.univ := Rect.biUnion_part hdivU
theorem oParts_disjoint : ∀ i ∈ (Finset.univ : Finset (Fin 32)), ∀ j ∈ (Finset.univ : Finset (Fin 32)), i ≠ j →
    Disjoint (oSet i) (oSet j) :=
  fun _ _ _ _ h => Rect.part_disjoint hdivO h
theorem oParts_cover : (Finset.univ : Finset (Fin 32)).biUnion oSet = Finset.univ := Rect.biUnion_part hdivO

/-- The ids whole are their 32 runs. -/
theorem uPts_parts (d : Dev nD) (f : Buf (Elt F) (uLoc d)) :
    (uLoc d ↦{fullShare} f : sProp 𝕄) = bigSep Finset.univ fun w : Fin 32 => uLoc d ↦[uSet w]{fullShare} f := by
  rw [← pointsTo_biUnion Finset.univ (ℓ := uLoc d) uSet uParts_disjoint, uParts_cover]; try rfl

/-- The output whole is its 32 bands. -/
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oParts_disjoint, oParts_cover]; try rfl

/-- Column r of the output lies in band r div 512. -/
theorem mem_oSet (dd : Fin 32) (r : Fin 16384) (w : Fin 32) (h : r.val / 512 = w.val) :
    ix2 (n0 := 32) (n1 := 16384) dd r ∈ oSet w := by
  refine Rect.mem_set_unit.mpr fun a => ?_
  match a with
  | ⟨0, _⟩ =>
    show Shape.partIx S32x16384 1 w.val 0 * Shape.partSize S32x16384 1 32 0 ≤ dd.val
      ∧ dd.val < Shape.partIx S32x16384 1 w.val 0 * Shape.partSize S32x16384 1 32 0 + Shape.partSize S32x16384 1 32 0
    have h0 : Shape.partIx S32x16384 1 w.val 0 = 0 := rfl
    have h1 : Shape.partSize S32x16384 1 32 0 = 32 := rfl
    rw [h0, h1]
    have := dd.isLt
    omega
  | ⟨1, _⟩ =>
    show Shape.partIx S32x16384 1 w.val 1 * Shape.partSize S32x16384 1 32 1 ≤ r.val
      ∧ r.val < Shape.partIx S32x16384 1 w.val 1 * Shape.partSize S32x16384 1 32 1 + Shape.partSize S32x16384 1 32 1
    have h0 : Shape.partIx S32x16384 1 w.val 1 = w.val := rfl
    have h1 : Shape.partSize S32x16384 1 32 1 = 512 := rfl
    rw [h0, h1]
    omega

/-- A whole output that agrees with 32 band-wise correct outputs, each on its own band, is correct on every column. -/
theorem outOk_of_parts (d : Dev nD) (fs : Fin 32 → Buf (Elt F) (oLoc d)) (g : Buf (Elt F) (oLoc d))
    (hok : ∀ w ∈ (Finset.univ : Finset (Fin 32)), OutOkOn m pv Ok d w (fs w))
    (hg : ∀ t ∈ (Finset.univ : Finset (Fin 32)), ∀ i ∈ oSet t, g i = fs t i) : OutOk m pv Ok d g := by
  intro hOk dd r
  have hw : r.val / 512 < 32 := by have := r.isLt; omega
  have hmem := mem_oSet dd r ⟨r.val / 512, hw⟩ rfl
  rw [hg ⟨r.val / 512, hw⟩ (Finset.mem_univ _) _ hmem]
  exact hok ⟨r.val / 512, hw⟩ (Finset.mem_univ _) hOk dd r rfl

/-! ## Into the call, and out of it -/

/-- From the three arrays whole, the packed table's contents holding the projections: what the two cores are handed,
    and the remainder of the table's share. -/
theorem st_intro (pv : Fin 100001 → Fin 32 → F .f32) (Ok : Prop) (d : Dev nD) (twc : Buf (Elt F) (twLoc d))
    (htw : TWok pv Ok d twc) :
    iprop((twLoc d ↦{fullShare} twc) ∗ (uLoc d ↦{fullShare} m (uLoc d)) ∗ (oLoc d ↦{fullShare} m (oLoc d)))
      ⊢ (iprop((bigSep Finset.univ fun c : Fin ((K (F := F)).nCore 0) => (P m pv Ok).st 0 d c)
          ∗ (twLoc d ↦{Transfers.shareDrop fullShare 32} twc)) : sProp 𝕄) := by
  have htoks : (bigSep Finset.univ fun w : Fin 32 => (twLoc d ↦{Transfers.shareTok fullShare 32 w} twc : sProp 𝕄))
      ⊢ bigSep Finset.univ fun w : Fin 32 => iprop(∃ twc', ⌜TWok pv Ok d twc'⌝ ∗ twTok d w twc') :=
    bigSep_mono fun w _ => by
      show (twLoc d ↦{Transfers.shareTok fullShare 32 w} twc : sProp 𝕄) ⊢ iprop(∃ twc', ⌜TWok pv Ok d twc'⌝ ∗ twTok d w twc')
      iintro H
      iexists twc
      isplitr
      · ipureintro; exact htw
      · iexact H
  rw [st_all]
  unfold goW
  rw [bigSep_sep', bigSep_sep', uPts_parts, oPts_parts]
  iintro ⟨Htw, Hu, Ho⟩
  ihave Ht := (Transfers.pointsTo_toks_split (ℓ := twLoc d) (S := Finset.univ) (f := twc) fullShare 32) $$ Htw
  icases Ht with ⟨Hd, Hts⟩
  isplitr [Hd]
  · isplitl [Hts]
    · iapply htoks $$ Hts
    isplitl [Hu]
    · iexact Hu
    · iexact Ho
  · iexact Hd

/-- From what the two cores hand back: the ids whole, and the output whole at contents that hold the looked-up
    projections on every column. -/
theorem dn_elim (pv : Fin 100001 → Fin 32 → F .f32) (Ok : Prop) (d : Dev nD) :
    (bigSep Finset.univ fun c : Fin ((K (F := F)).nCore 0) => (P m pv Ok).dn 0 d c)
      ⊢ (iprop((uLoc d ↦{fullShare} m (uLoc d)) ∗ ∃ f, ⌜OutOk m pv Ok d f⌝ ∗ oLoc d ↦{fullShare} f) : sProp 𝕄) := by
  rw [dn_all]
  unfold tdW
  rw [bigSep_sep', uPts_parts]
  iintro ⟨Hu, Ho⟩
  isplitl [Hu]
  · iexact Hu
  ihave Ho1 := (bigSep_exists_pi Finset.univ
    (fun (w : Fin 32) (f : Buf (Elt F) (oLoc d)) => iprop(⌜OutOkOn m pv Ok d w f⌝ ∗ oPts d w f))) $$ Ho
  icases Ho1 with ⟨%fs, Ho1⟩
  ihave Ho2 := (bigSep_pure_sep Finset.univ (fun w : Fin 32 => OutOkOn m pv Ok d w (fs w))
    (fun w : Fin 32 => oPts d w (fs w))) $$ Ho1
  icases Ho2 with ⟨%hok, Ho2⟩
  ihave Hj := (pointsTo_biUnion_join Finset.univ oSet fs (fs 0) oParts_disjoint) $$ Ho2
  icases Hj with ⟨%g, %hg, Hg⟩
  rw [oParts_cover]
  iexists g
  isplitr
  · ipureintro; exact outOk_of_parts m pv Ok d fs g hok hg
  · iexact Hg

/-- A core's share is its sixteen tasks' shares, there and back. -/
theorem vecSplit (pv : Fin 100001 → Fin 32 → F .f32) (Ok : Prop) : (K (F := F)).VecSplit' (P m pv Ok) 0 := by
  intro d c
  show (bigSep Finset.univ fun i : Fin 16 => goW m pv Ok d (wid (Fin.cast nCore_zero c) i)) ⊢ |={Set.univ}=> iprop(
      (bigSep Finset.univ fun i : Fin ((K (F := F)).nSub 0) => goW m pv Ok d (wid (Fin.cast nCore_zero c) (Fin.cast nSub_zero i)))
      ∗ ((bigSep Finset.univ fun i : Fin ((K (F := F)).nSub 0) => tdW m pv Ok d (wid (Fin.cast nCore_zero c) (Fin.cast nSub_zero i)))
          -∗ bigSep Finset.univ fun i : Fin 16 => tdW m pv Ok d (wid (Fin.cast nCore_zero c) i)))
  rw [bigSep_tasks (F := F) (fun i => goW m pv Ok d (wid (Fin.cast nCore_zero c) i)),
    bigSep_tasks (F := F) (fun i => tdW m pv Ok d (wid (Fin.cast nCore_zero c) i))]
  iintro H
  imodintro
  isplitl [H]
  · iexact H
  iintro H
  iexact H

end Cert.Proof.KI

end
-- ==== Proof.KI.Launch.lean ====
import proofs.«217943_g20899310862962_cont_8to1_1374_33_alg».proof.Proof.KI.Common
import proofs.«217943_g20899310862962_cont_8to1_1374_33_alg».proof.Proof.KI.RegionWp
import proofs.«217943_g20899310862962_cont_8to1_1374_33_alg».proof.Proof.KI.Host
import proofs.«217943_g20899310862962_cont_8to1_1374_33_alg».proof.Proof.KI.TileSpec
import proofs.«217943_g20899310862962_cont_8to1_1374_33_alg».proof.Proof.KI.Split
import Idealize.ShloMosaic.Lib.ValueLayout

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within wp_seq after seq)
open Idealize.ShloMosaic.Pipeline (RDat Cfg Window cellOf kernel pipe)
open Idealize.ShloMosaic.ValueIdx
variable {F : FTy → Type} [FloatOps F]

local notation "𝕄" => MT nD τ sig (HIx 1) (Elt F) ℕ UU ℕ

/-! ## The launch: @main on the TensorCore around its two calls, the launch element, the final memory -/

variable (m : (ℓ : Loc nD τ sig) → Buf (Elt F) ℓ) (ρ : Dev nD → PrngReg)
variable (pv : Fin 100001 → Fin 32 → F .f32) (Ok : Prop)
variable (OutRel : Fin cfg0.N → (S16384x128.Idx → Elt F .f32) → Prop)

/-- The TensorCore's unscoped buffers. -/
def bufs : Finset (DevRef τ sig) := (StableHlo.tcRefs τ sig).filter fun b => ¬ b.isScoped

omit [FloatOps F] in
theorem unscopedBufs_held (d : Dev nD) (W : Valuation τ sig (Elt F)) :
    (unscopedBufs d (fun b => W b) : sProp 𝕄) = held (SparseCore.T d) bufs W := by
  unfold unscopedBufs held bufs StableHlo.tcRefs
  rw [Finset.filter_map, BI.bigSep_map]
  rfl

abbrev r9 : DevRef τ sig := Proc.devRef .tc (main_v9 : Ref sig .tc)
abbrev r8 : DevRef τ sig := Proc.devRef .tc (main_v8 : Ref sig .tc)
abbrev r1 : DevRef τ sig := Proc.devRef .tc (main_v1 : Ref sig .tc)
abbrev r10 : DevRef τ sig := Proc.devRef .tc (main_v10 : Ref sig .tc)
abbrev r11 : DevRef τ sig := Proc.devRef .tc (main_v11 : Ref sig .tc)
abbrev r12 : DevRef τ sig := Proc.devRef .tc (main_v12 : Ref sig .tc)
abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)

/-- The buffers @main's proof names: the region's four arrays, the four arguments, the SparseCore call's result and
    the program's. -/
def S10 : Finset (DevRef τ sig) := {r9, r8, r1, r10, a0, a1, a2, a3, r11, r12}
def S2 : Finset (DevRef τ sig) := {r11, r12}

theorem S10_sub : S10 ⊆ bufs := by decide

abbrev ptr (d : Dev nD) (b : Ref sig .tc) (f : Buf (Elt F) ((SparseCore.T (τ := τ) d).loc b)) : sProp 𝕄 := (SparseCore.T (τ := τ) d).loc b ↦{fullShare} f

omit [FloatOps F] in
theorem held_S10 (d : Dev nD) (W : Valuation τ sig (Elt F)) :
    (held (SparseCore.T d) S10 W : sProp 𝕄) = iprop(ptr d main_v9 (W r9) ∗ ptr d main_v8 (W r8) ∗ ptr d main_v1 (W r1) ∗ ptr d main_v10 (W r10)
      ∗ ptr d main_arg0 (W a0) ∗ ptr d main_arg1 (W a1) ∗ ptr d main_arg2 (W a2) ∗ ptr d main_arg3 (W a3) ∗ ptr d main_v11 (W r11) ∗ ptr d main_v12 (W r12)) := by
  unfold held
  rw [bigSep_eq_bigSepL_of_eq [r9, r8, r1, r10, a0, a1, a2, a3, r11, r12] (by decide) (by decide)]
  rfl

omit [FloatOps F] in
theorem held_S2 (d : Dev nD) (W : Valuation τ sig (Elt F)) :
    (held (SparseCore.T d) S2 W : sProp 𝕄) = iprop(ptr d main_v11 (W r11) ∗ ptr d main_v12 (W r12)) := by
  unfold held
  rw [bigSep_eq_bigSepL_of_eq [r11, r12] (by decide) (by decide)]
  rfl

theorem ops1_sub : ∀ op ∈ (ops1 : List (HloOp τ sig (Elt F))), op.bufs ⊆ bufs := by
  intro op h
  simp only [ops1, List.mem_cons, List.mem_nil_iff, or_false] at h
  rcases h with rfl | rfl | rfl | rfl | rfl | rfl | rfl | rfl | rfl | rfl | rfl | rfl | rfl | rfl | rfl | rfl
  · exact (by decide : ({Proc.devRef .tc (main_arg3 : Ref sig .tc), Proc.devRef .tc (main_v0 : Ref sig .tc)} : Finset (DevRef τ sig)) ⊆ bufs)
  · exact (by decide : (insert (Proc.devRef .tc (main_v1 : Ref sig .tc)) (Finset.univ.image fun k => (Proc.devRef .tc ((![main_v0, main_v0, main_v0, main_v0] : Fin 4 → Ref sig .tc) k) : DevRef τ sig)) : Finset (DevRef τ sig)) ⊆ bufs)
  · exact (by decide : ({Proc.devRef .tc (main_v2 : Ref sig .tc)} : Finset (DevRef τ sig)) ⊆ bufs)
  · exact (by decide : ({Proc.devRef .tc (main_v3 : Ref sig .tc)} : Finset (DevRef τ sig)) ⊆ bufs)
  · exact (by decide : ({Proc.devRef .tc (main_c : Ref sig .tc)} : Finset (DevRef τ sig)) ⊆ bufs)
  · exact (by decide : ({Proc.devRef .tc (main_c : Ref sig .tc), Proc.devRef .tc (main_v4 : Ref sig .tc)} : Finset (DevRef τ sig)) ⊆ bufs)
  · exact (by decide : ({Proc.devRef .tc (main_v2 : Ref sig .tc), Proc.devRef .tc (main_v4 : Ref sig .tc), Proc.devRef .tc (main_v5 : Ref sig .tc)} : Finset (DevRef τ sig)) ⊆ bufs)
  · exact (by decide : ({Proc.devRef .tc (main_v5 : Ref sig .tc), Proc.devRef .tc (main_v3 : Ref sig .tc), Proc.devRef .tc (main_v6 : Ref sig .tc)} : Finset (DevRef τ sig)) ⊆ bufs)
  · exact (by decide : ({Proc.devRef .tc (main_v6 : Ref sig .tc), Proc.devRef .tc (main_v7 : Ref sig .tc)} : Finset (DevRef τ sig)) ⊆ bufs)
  · exact (by decide : ({Proc.devRef .tc (main_v7 : Ref sig .tc), Proc.devRef .tc (main_call0_v0 : Ref sig .tc)} : Finset (DevRef τ sig)) ⊆ bufs)
  · exact (by decide : ({Proc.devRef .tc (main_arg2 : Ref sig .tc), Proc.devRef .tc (main_call0_v1 : Ref sig .tc)} : Finset (DevRef τ sig)) ⊆ bufs)
  · exact (by decide : ({Proc.devRef .tc (main_call0_v0 : Ref sig .tc), Proc.devRef .tc (main_call0_v2 : Ref sig .tc)} : Finset (DevRef τ sig)) ⊆ bufs)
  · exact (by decide : ({Proc.devRef .tc (main_call0_v1 : Ref sig .tc), Proc.devRef .tc (main_call0_v3 : Ref sig .tc)} : Finset (DevRef τ sig)) ⊆ bufs)
  · exact (by decide : ({Proc.devRef .tc (main_call0_v2 : Ref sig .tc), Proc.devRef .tc (main_call0_v3 : Ref sig .tc), Proc.devRef .tc (main_call0_v4 : Ref sig .tc)} : Finset (DevRef τ sig)) ⊆ bufs)
  · exact (by decide : ({Proc.devRef .tc (main_call0_v4 : Ref sig .tc), Proc.devRef .tc (main_v8 : Ref sig .tc)} : Finset (DevRef τ sig)) ⊆ bufs)
  · exact (by decide : ({Proc.devRef .tc (main_arg1 : Ref sig .tc), Proc.devRef .tc (main_v9 : Ref sig .tc)} : Finset (DevRef τ sig)) ⊆ bufs)
theorem ops1_fresh : ∀ op ∈ (ops1 : List (HloOp τ sig (Elt F))), op.fresh = ∅ := by
  intro op h
  simp only [ops1, List.mem_cons, List.mem_nil_iff, or_false] at h
  rcases h with rfl | rfl | rfl | rfl | rfl | rfl | rfl | rfl | rfl | rfl | rfl | rfl | rfl | rfl | rfl | rfl <;> rfl
theorem ops2_sub : ∀ op ∈ (ops2 : List (HloOp τ sig (Elt F))), op.bufs ⊆ S2 := by
  intro op h
  simp only [ops2, List.mem_cons, List.mem_nil_iff, or_false] at h
  subst h; exact (by decide : ({Proc.devRef .tc (main_v11 : Ref sig .tc), Proc.devRef .tc (main_v12 : Ref sig .tc)} : Finset (DevRef τ sig)) ⊆ S2)
theorem ops2_fresh : ∀ op ∈ (ops2 : List (HloOp τ sig (Elt F))), op.fresh = ∅ := by
  intro op h
  simp only [ops2, List.mem_cons, List.mem_nil_iff, or_false] at h
  subst h; rfl

/-- The first stretch writes none of the arguments, nor the two calls' results. -/
theorem V1_a0 (d : Dev nD) : V1 m d a0 = m ((SparseCore.T d).loc main_arg0) := by
  unfold V1; simp only [ops1, StableHlo.after_cons, StableHlo.after_nil]; rfl
theorem V1_a1 (d : Dev nD) : V1 m d a1 = m ((SparseCore.T d).loc main_arg1) := by
  unfold V1; simp only [ops1, StableHlo.after_cons, StableHlo.after_nil]; rfl
theorem V1_a2 (d : Dev nD) : V1 m d a2 = m ((SparseCore.T d).loc main_arg2) := by
  unfold V1; simp only [ops1, StableHlo.after_cons, StableHlo.after_nil]; rfl
theorem V1_a3 (d : Dev nD) : V1 m d a3 = m ((SparseCore.T d).loc main_arg3) := by
  unfold V1; simp only [ops1, StableHlo.after_cons, StableHlo.after_nil]; rfl
theorem V1_r11 (d : Dev nD) : V1 m d r11 = m ((SparseCore.T d).loc main_v11) := by
  unfold V1; simp only [ops1, StableHlo.after_cons, StableHlo.after_nil]; rfl

/-! ## @main on the TensorCore -/

/-- What the launch deals @main beside the handshakes: the pipeline's launch ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The program's result holds, at (e, q), the projection of the row id e names, at feature q. -/
def ResOk (d : Dev nD) (g : Buf (Elt F) ((SparseCore.T (τ := τ) d).loc main_v12)) : Prop :=
  Ok → ∀ (e : Fin 16384) (q : Fin 32), g (ix2 (n0 := 16384) (n1 := 32) e q) = pv (Cert.Spec.rowOf (m (uLoc d) (ix1 (n := 16384) e))) q

/-- What @main leaves the claim: the four arguments at their launch contents, the result at contents that hold. -/
abbrev FIN (d : Dev nD) : sProp 𝕄 :=
  iprop(ptr d main_arg0 (m ((SparseCore.T d).loc main_arg0)) ∗ ptr d main_arg1 (m ((SparseCore.T d).loc main_arg1))
    ∗ ptr d main_arg2 (m ((SparseCore.T d).loc main_arg2)) ∗ ptr d main_arg3 (m ((SparseCore.T d).loc main_arg3))
    ∗ ∃ g, ⌜ResOk m pv Ok d g⌝ ∗ ptr d main_v12 g)

/-- The last line transposes the SparseCore call's result. -/
theorem after_ops2 (W : Valuation τ sig (Elt F)) :
    after ops2 W r12 = transpose S16384x32 [1, 0] (W r11) transposes_S32x16384_S16384x32_1_0 := by
  simp only [ops2, StableHlo.after_cons, StableHlo.after_nil]; rfl

theorem resOk_of_outOk (d : Dev nD) (f : Buf (Elt F) (oLoc d)) (hf : OutOk m pv Ok d f) :
    ResOk m pv Ok d (transpose S16384x32 [1, 0] f transposes_S32x16384_S16384x32_1_0) := by
  intro hOk e q
  rw [transpose_ix2_apply]
  exact hf hOk q e

/-- The TensorCore's handshake state before call `n` but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := by
  unfold SparseCore.Cfg.tcSt tcRest; rfl

omit [FloatOps F] in
theorem wbelow_iff (d : Dev nD) (W : Waits sig (HIx 1)) : (K (F := F)).WBelow (SparseCore.T d) W (8 * 0) ↔ ∀ p ∈ W, p.2 = none := by
  constructor
  · intro h p hp
    have := h p hp
    cases hq : p.2 with
    | none => rfl
    | some q =>
      rw [hq] at this
      have h1 := (K (F := F)).lev_some_pos (SparseCore.T d, p.1) q
      omega
  · intro h p hp
    rw [h p hp]; exact Nat.le_of_eq (SparseCore.Cfg.lev_none _ _)

set_option backward.isDefEq.respectTransparency.types false in
set_option maxHeartbeats 1000000 in
/-- @main on device `d`'s TensorCore: the first stretch of host lines, the TensorCore call (the region), the
    SparseCore call (the library's `wp_run`), the last line. -/
theorem hmain [∀ e, Nonempty (Elt F e)]
    (hOut : ∀ (d : Dev nD) (t : Fin cfg0.N) (Y : (w : Fin cfg0.W) → (cfg0.win w).block.Idx → Elt F (cfg0.win w).elt),
      (∀ w, (rdat (M1 m) OutRel d).Finds w t (Y w)) → OutRel t (k0_pay1 (Y 0) (Y 1) (Y 2) (Y 3) (Y 4) (Y 5)))
    (hTW : ∀ (d : Dev nD) (Fc : Buf (Elt F) (twLoc d)), (rdat (M1 m) OutRel d).ArrAt 6 cfg0.N Fc → TWok pv Ok d Fc)
    (κ : GSem nD τ sig → ℕ) (d : Dev nD) :
    iprop((K (F := F)).ctx EH (P m pv Ok) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m pv Ok d) := by
  unfold SparseCore.Cfg.tcRes
  rw [show (unscopedBufs d (fun b => m ((SparseCore.T d).loc b)) : sProp 𝕄) = held (SparseCore.T d) bufs (V0 m d) from unscopedBufs_held d (V0 m d), main_eq]
  rw [tcSt_eq d 0]
  iintro ⟨#Hctx, ⟨⟨%W0, %hW0, HO⟩, Hst'⟩, ⟨Hb, Hheld, -, -⟩, Hcg, Htk⟩
  ihave #Hlev := ((K (F := F)).ctx_levAts (EH := EH) (P := P m pv Ok) κ) $$ Hctx
  -- the first stretch of host lines
  iapply (StableHlo.wp_seq 𝒱 none Set.univ d bufs _ ops1 ops1_sub ops1_fresh (V0 m d)) $$ [Hb Hheld]
  · isplitl [Hb]; · iexact Hb
    iexact Hheld
  iintro ⟨Hb, Hheld⟩
  ihave Hh := (Entails.of_eq (held_sub_split (SparseCore.T d) S10_sub (V1 m d))) $$ Hheld
  icases Hh with ⟨Hh, -⟩
  ihave Hh' := (Entails.of_eq (held_S10 d (V1 m d))) $$ Hh
  icases Hh' with ⟨H9, H8, H1, H10, Ha0, Ha1, Ha2, Ha3, H11, H12⟩
  -- the TensorCore call
  rw [wp_bind]
  iapply (region_wp (M1 := M1 m) (OutRel := OutRel) hOut d)
  isplitl [Hb]; · iexact Hb
  isplitl [H9 H8 H1 H10 HO]
  · unfold regPre
    isplitl [H9]; · iexact H9
    isplitl [H8]; · iexact H8
    isplitl [H1]; · iexact H1
    isplitl [H10]; · iexact H10
    iexists W0; isplitr; · ipureintro; exact (wbelow_iff d W0).mp hW0
    iexact HO
  isplitr; · iexact Hlev
  isplitl [Hcg]; · iexact Hcg
  isplitl [Htk]; · iexact Htk
  iintro ⟨Hb, Hpost⟩
  ihave Hpost' := (show regPost (M1 m) OutRel d ⊢ _ from Entails.of_eq (by unfold regPost; rfl)) $$ Hpost
  icases Hpost' with ⟨⟨%Fc, %hFc, Htw⟩, %W1, %hW1, HO⟩
  -- the SparseCore call
  rw [wp_bind]
  ihave Ha0' := (Entails.of_eq (congrArg (ptr d main_arg0) (V1_a0 m d))) $$ Ha0
  ihave H11' := (Entails.of_eq (congrArg (ptr d main_v11) (V1_r11 m d))) $$ H11
  ihave Hs := (st_intro m pv Ok d Fc (hTW d Fc hFc)) $$ [Htw Ha0' H11']
  · isplitl [Htw]; · iexact Htw
    isplitl [Ha0']; · iexact Ha0'
    iexact H11'
  icases Hs with ⟨Hstp, -⟩
  iapply ((K (F := F)).wp_run (D (F := F)) 𝒱 (EH := EH) (P := P m pv Ok) κ d 0)
  isplitr; · iexact Hctx
  isplitl [HO Hst']
  · iapply (Entails.of_eq (tcSt_eq (F := F) d 0).symm)
    isplitl [HO]
    · iexists W1; isplitr; · ipureintro; exact (wbelow_iff d W1).mpr hW1
      iexact HO
    iexact Hst'
  isplitl [Hstp]; · iexact Hstp
  iintro ⟨Hst, Hdn⟩
  ihave Hd := (dn_elim m pv Ok d) $$ Hdn
  icases Hd with ⟨Ha0, %f, %hf, H11⟩
  -- the last line
  rw [← bind_pure (seq ops2)]
  iapply (StableHlo.wp_seq 𝒱 none Set.univ d S2 _ ops2 ops2_sub ops2_fresh (Function.update (V1 m d) r11 f)) $$ [Hb H11 H12]
  · isplitl [Hb]; · iexact Hb
    rw [held_S2, Function.update_self, Function.update_of_ne (show r12 ≠ r11 by decide)]
    isplitl [H11]; · iexact H11
    iexact H12
  iintro ⟨Hb, Hheld⟩
  ihave Hh := (Entails.of_eq (held_S2 d _)) $$ Hheld
  icases Hh with ⟨-, H12⟩
  rw [wp_pure]
  imodintro
  isplitl [Hst]; · iexact Hst
  ihave Ha1' := (Entails.of_eq (congrArg (ptr d main_arg1) (V1_a1 m d))) $$ Ha1
  ihave Ha2' := (Entails.of_eq (congrArg (ptr d main_arg2) (V1_a2 m d))) $$ Ha2
  ihave Ha3' := (Entails.of_eq (congrArg (ptr d main_arg3) (V1_a3 m d))) $$ Ha3
  isplitl [Ha0]; · iexact Ha0
  isplitl [Ha1']; · iexact Ha1'
  isplitl [Ha2']; · iexact Ha2'
  isplitl [Ha3']; · iexact Ha3'
  iexists _; isplitr
  swap; · iexact H12
  ipureintro
  rw [after_ops2, Function.update_self]
  exact resOk_of_outOk m pv Ok d f hf

/-! ## The launch element -/

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

omit [FloatOps F] in
theorem bigSep_emp' {I : Type} (s : Finset I) : (bigSep s fun _ => iprop(emp)) = (iprop(emp) : sProp 𝕄) := bigSep_emp_const s

omit [FloatOps F] in
theorem ghost1 (d : Dev nD) : (bigSep Finset.univ fun p : Fin 1 => (Pipeline.cellsGhost (Pipeline.pin (pcfgs (F := F)) adm) EP p d : sProp 𝕄))
    = Pipeline.cellsGhost (Pipeline.pin (pcfgs (F := F)) adm) EP 0 d := bigSep_univ_of_subsingleton (0 : Fin 1)
omit [FloatOps F] in
theorem toks1 (d : Dev nD) : (bigSep Finset.univ fun p : Fin 1 => (Pipeline.toksInit (Pipeline.pin (pcfgs (F := F)) adm) EP p d : sProp 𝕄))
    = Pipeline.toksInit (Pipeline.pin (pcfgs (F := F)) adm) EP 0 d := bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m pv Ok).x q thr) := by
  unfold u₀
  iintro Hu
  ihave H := (ownU_pair _ _) $$ Hu
  icases H with ⟨HH, HR⟩
  ihave H2 := (own_pair_emb embR _ _) $$ HR
  icases H2 with ⟨HP0, -⟩
  ihave HP := (Entails.of_eq (show (BI.own (((Emb.inl : Emb UP (UP × Counters)).trans embR) _) : sProp 𝕄) = BI.own (EP _) from rfl)) $$ HP0
  imod (Pipeline.fund_ghost (Pipeline.pin (pcfgs (F := F)) adm) EP cellOf_inj') $$ HP with ⟨Hcg, Htk⟩
  imodintro
  isplitl [HH]; · iexact HH
  isplitl [Hcg Htk]
  · rw [bigSep_sep']
    isplitl [Hcg]
    · iapply (Entails.of_eq (bigSep_congr fun d _ => ghost1 (F := F) d)); iexact Hcg
    · iapply (Entails.of_eq (bigSep_congr fun d _ => toks1 (F := F) d)); iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory, the run -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ ResOk m pv Ok d (s'.mem.mem ((SparseCore.T d).loc main_v12))

theorem hfin (d : Dev nD) (s' : Phys nD τ sig (Elt F)) : iprop(FIN m pv Ok d ∗ SI s') ⊢ (⌜fq m pv Ok d s'⌝ : sProp 𝕄) := by
  iintro ⟨⟨H0, H1, H2, H3, %g, %hg, H12⟩, HSI⟩
  icombine HSI H0 gives %h0
  icombine HSI H1 gives %h1
  icombine HSI H2 gives %h2
  icombine HSI H3 gives %h3
  icombine HSI H12 gives %h12
  ipureintro
  exact ⟨Buf.eq_of_forall_mem_univ h0, Buf.eq_of_forall_mem_univ h1, Buf.eq_of_forall_mem_univ h2, Buf.eq_of_forall_mem_univ h3,
    (Buf.eq_of_forall_mem_univ h12) ▸ hg⟩

/-- The run's post: on every device the arguments unchanged and the result as specified. -/
def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)
  ∧ ResOk m pv Ok c (r.2.mem ((SparseCore.T c).loc main_v12))

end Cert.Proof.KI

end
-- ==== Proof.KI.TileSets.lean ====
/-
  The task's memrefs and the parts of the arrays a vector subcore's task touches. Worker w = 2 * subcore + core owns
  ids [512 w, 512 (w + 1)) and columns [512 w, 512 (w + 1)) of the transposed output. The task's first copy reads its
  run of the ids through the rectangle at the printed offset 1024 * subcore + 512 * core, which is 512 w; its four
  outgoing copies write the four [32, 128] column slabs of its columns. The sets of those rectangles are the worker's
  parts of the arrays; the subcore's six scratch buffers and four DMA semaphores are taken out of the subcore's own.
-/
import proofs.«217943_g20899310862962_cont_8to1_1374_33_alg».proof.Proof.KI.TileSpec
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (pv : Fin 100001 → Fin 32 → F .f32) (Ok : Prop)

abbrev aTW : Memref sig .scVector .hbm S32768x128 .f32 := Memref.whole main_v10_scv
abbrev aU : Memref sig .scVector .hbm S16384 .i32 := Memref.whole main_arg0_scv
abbrev aO : Memref sig .scVector .hbm S32x16384 .f32 := Memref.whole main_v11_scv
abbrev sUid : Memref sig .scVector .vmem S512 .i32 := Memref.whole cc1_scratch0
abbrev sIdx : Memref sig .scVector .vmem S512 .i32 := Memref.whole cc1_scratch1
abbrev sLane : Memref sig .scVector .vmem S512 .i32 := Memref.whole cc1_scratch2
abbrev sRA : Memref sig .scVector .vmem S128x128 .f32 := Memref.whole cc1_scratch3
abbrev sRB : Memref sig .scVector .vmem S128x128 .f32 := Memref.whole cc1_scratch4
abbrev sOut : Memref sig .scVector .vmem S32x512 .f32 := Memref.whole cc1_scratch5

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

theorem L0_lt (L : grid1.Coords) : (L 0).val < 2 := (L 0).isLt
theorem L1_lt (L : grid1.Coords) : (L 1).val < 16 := (L 1).isLt

/-- The worker at grid point `L`: 2 * subcore + core. -/
def wL (L : grid1.Coords) : Fin 32 := ⟨2 * (L 1).val + (L 0).val, by have := L0_lt L; have := L1_lt L; omega⟩

/-- The worker's run of the ids, as the task's first copy slices it. -/
abbrev uRect (L : grid1.Coords) : Rect S16384 := Rect.unit (s := S16384) (k1_off1 L) S512.size (k1_off1_inb L)

theorem oRect_inb (L : grid1.Coords) : ∀ a, (![0, 1024 * (L 1).val + 512 * (L 0).val] : Fin 2 → Nat) a + S32x512.size a ≤ S32x16384.size a := by
  have := L0_lt L; have := L1_lt L
  intro a; fin_cases a
  · show 0 + 32 ≤ 32; omega
  · show 1024 * (L 1).val + 512 * (L 0).val + 512 ≤ 16384; omega
/-- The worker's columns of the transposed output. -/
abbrev oRect (L : grid1.Coords) : Rect S32x16384 := Rect.unit (s := S32x16384) ![0, 1024 * (L 1).val + 512 * (L 0).val] S32x512.size (oRect_inb L)

theorem set_uRect (L : grid1.Coords) : (uRect L).set = uSet (wL L) := by
  ext i
  unfold uSet uPart Rect.part Rect.block
  rw [Rect.mem_set_unit, Rect.mem_set_unit, k1_off1_eq]
  have h0 := L0_lt L; have h1 := L1_lt L
  constructor
  · intro h a
    obtain rfl : a = 0 := Subsingleton.elim _ _
    have := h 0
    simp only [Shape.partIx, Shape.partSize, wL, if_true] at this ⊢
    simp at this ⊢
    omega
  · intro h a
    obtain rfl : a = 0 := Subsingleton.elim _ _
    have := h 0
    simp only [Shape.partIx, Shape.partSize, wL, if_true] at this ⊢
    simp at this ⊢
    omega

theorem set_oRect (L : grid1.Coords) : (oRect L).set = oSet (wL L) := by
  ext i
  unfold oSet oPart Rect.part Rect.block
  rw [Rect.mem_set_unit, Rect.mem_set_unit]
  have h0 := L0_lt L; have h1 := L1_lt L
  constructor
  · intro h a
    fin_cases a
    · have := h 0
      simp [Shape.partIx, Shape.partSize, wL] at this ⊢
      first | exact this | omega
    · have := h 1
      simp [Shape.partIx, Shape.partSize, wL] at this ⊢
      omega
  · intro h a
    fin_cases a
    · have := h 0
      simp [Shape.partIx, Shape.partSize, wL] at this ⊢
      omega
    · have := h 1
      simp [Shape.partIx, Shape.partSize, wL] at this ⊢
      omega

section Pts
variable (d : Dev nD) (L : grid1.Coords)

theorem pts_tw (q : PosShare TreeShare) (f : Buf (Elt F) (twLoc d)) :
    ((aTW).view.loc (thrV d L) ↦{q} f : sProp 𝕄) = twLoc d ↦{q} f := rfl
theorem pts_u (f : Buf (Elt F) (uLoc d)) :
    ((aU).view.loc (thrV d L) ↦[(aU).view.setOn (uRect L).set]{fullShare} f : sProp 𝕄) = uLoc d ↦[uSet (wL L)]{fullShare} f := by
  rw [← set_uRect]
  have h : Finset.map (aU).view.emb (uRect L).set = (uRect L).set := Finset.map_refl
  show (_ ↦[Finset.map _ _]{_} _ : sProp 𝕄) = _
  rw [h]
theorem pts_o (f : Buf (Elt F) (oLoc d)) :
    ((aO).view.loc (thrV d L) ↦[(aO).view.setOn (oRect L).set]{fullShare} f : sProp 𝕄) = oLoc d ↦[oSet (wL L)]{fullShare} f := by
  rw [← set_oRect]
  have h : Finset.map (aO).view.emb (oRect L).set = (oRect L).set := Finset.map_refl
  show (_ ↦[Finset.map _ _]{_} _ : sProp 𝕄) = _
  rw [h]
end Pts

section Own
variable [FloatOps F] (d : Dev nD) (L : grid1.Coords)

omit [FloatOps F] in
/-- The six scratch buffers are among the subcore's own: they are them, at some contents, and the rest. -/
theorem ownBufs_V :
    (ownBufs (thrV d L) : sProp 𝕄)
      = iprop((∃ f, (thrV d L).loc cc1_scratch0 ↦{fullShare} f)
          ∗ (∃ f, (thrV d L).loc cc1_scratch1 ↦{fullShare} f)
          ∗ (∃ f, (thrV d L).loc cc1_scratch2 ↦{fullShare} f)
          ∗ (∃ f, (thrV d L).loc cc1_scratch3 ↦{fullShare} f)
          ∗ (∃ f, (thrV d L).loc cc1_scratch4 ↦{fullShare} f)
          ∗ (∃ f, (thrV d L).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV L) (jV L))) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV L) (jV L))) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV L) (jV L))) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector (cV L) (jV L))) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := (Proc.scVector (cV L) (jV L))) (b := ((Proc.scVector (cV L) (jV L)).devRef cc1_scratch5)) rfl⟩⟩⟩⟩⟩)]

omit [FloatOps F] in
theorem ownSems0_V :
    (ownSems0 (thrV d L) : sProp 𝕄)
      = iprop(semVal (thrV d L, SemLoc.dma cc1_scratch6.sem) 0 ∗ semVal (thrV d L, SemLoc.dma cc1_scratch7.sem) 0 ∗ semVal (thrV d L, SemLoc.dma cc1_scratch8.sem) 0 ∗ semVal (thrV d L, SemLoc.dma cc1_scoped0.sem) 0
          ∗ bigSep (((((ownCells (thrV d L)).erase (thrV d L, SemLoc.dma cc1_scratch6.sem)).erase (thrV d L, SemLoc.dma cc1_scratch7.sem)).erase (thrV d L, SemLoc.dma cc1_scratch8.sem)).erase (thrV d L, SemLoc.dma cc1_scoped0.sem)) fun g => semVal g 0) := by
  unfold SparseCore.Cfg.ownSems0
  rw [SparseCore.bigSep_erase' ((mem_ownCells (g := ((thrV d L, SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨by simp; decide, (mem_ownCells (g := ((thrV d L, SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨by simp; decide, Finset.mem_erase.mpr ⟨by simp; decide, (mem_ownCells (g := ((thrV d L, SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨by simp; decide, Finset.mem_erase.mpr ⟨by simp; decide, Finset.mem_erase.mpr ⟨by simp; decide, (mem_ownCells (g := ((thrV d L, SemLoc.dma cc1_scoped0.sem) : GSem nD τ sig))).mpr ⟨rfl, by show (SemLoc.dma cc1_scoped0.sem : SemLoc sig).isScoped .scVector = true; decide⟩⟩⟩⟩)]

end Own

end Cert.Proof.KI
end
-- ==== Proof.KI.TileVals.lean ====
/-
  Word arithmetic of the lookup and one fact about stores. An id u ≤ 100000 names row (u mod 32768) of the packed
  table and lanes 32 * (u div 32768) + dd, dd < 32: the task computes the row as u AND 32767 and the lane base as
  (u SHR 15) * 32, which are these numbers, the lane base at most 96. After a list of stores whose payloads all agree
  with one function of the index, every index that already held that function's value or lies under a store holds it.
-/
import Idealize.ShloMosaic.PureOps
import Idealize.ShloMosaic.Lib.ValueIdx
import Idealize.ShloMosaic.Lib.Writes

namespace Cert.Proof.KI

open Idealize.ShloMosaic

theorem andw_toNat (u : BitVec 32) : (IntOp.andi u 32767#32).toNat = u.toNat % 32768 := by
  show (u &&& 32767#32).toNat = _
  rw [BitVec.toNat_and]
  exact Nat.and_two_pow_sub_one_eq_mod u.toNat 15

theorem shrw_toNat (u : BitVec 32) : (IntOp.shrui .vector u 15#32).toNat = u.toNat / 32768 := by
  unfold IntOp.shrui
  rw [if_pos (by decide)]
  rw [BitVec.ushiftRight_eq', BitVec.toNat_ushiftRight, Nat.shiftRight_eq_div_pow]
  rfl

theorem lanew_toNat (u : BitVec 32) (h : u.toNat ≤ 100000) :
    (IntOp.muli (IntOp.shrui .vector u 15#32) 32#32).toNat = 32 * (u.toNat / 32768) := by
  show ((IntOp.shrui .vector u 15#32) * 32#32).toNat = _
  rw [BitVec.toNat_mul, shrw_toNat]
  have : u.toNat / 32768 ≤ 3 := by omega
  show (u.toNat / 32768 * 32) % 4294967296 = _
  omega

theorem lanew_le (u : BitVec 32) (h : u.toNat ≤ 100000) : (IntOp.muli (IntOp.shrui .vector u 15#32) 32#32).toNat ≤ 96 := by
  rw [lanew_toNat u h]; omega

theorem addw_toNat (x c : BitVec 32) (hx : x.toNat ≤ 96) (hc : c.toNat < 32) : (IntOp.addi x c).toNat = x.toNat + c.toNat := by
  show (x + c).toNat = _
  rw [BitVec.toNat_add]
  show (x.toNat + c.toNat) % 4294967296 = _
  omega

section Writes
variable {sig : RefSig} {κ : Kind} {sp : Space} {s : Shape} {e : EltTy} {Val : EltTy → Type}

/-- After a list of stores whose payloads all agree with one function `G` of the index, every index that already
    held `G`'s value (`P`) or lies under some store holds `G`'s value. -/
theorem read_writes_list (v : View sig κ sp s e) (f : v.ty.Contents Val) (G : s.Idx → Val e) (P : s.Idx → Prop)
    (Ls : List (View.Piece Val s e))
    (hw : ∀ p ∈ Ls, ∀ x : p.1.shape.Idx, p.2 x = G (p.1.emb x))
    (hf : ∀ y, P y → v.read Val f y = G y) (y : s.Idx) (hy : P y ∨ ∃ p ∈ Ls, y ∈ p.1.set) :
    v.read Val (v.writes Val f Ls) y = G y := by
  by_cases hm : ∃ p ∈ Ls, y ∈ p.1.set
  · exact View.read_writes_apply_of_pieces v f G Ls hw y hm
  · rw [View.read_writes_apply_of_forall_not_mem v f y Ls (fun p hp hyp => hm ⟨p, hp, hyp⟩)]
    exact hf y (hy.resolve_right hm)

/-- An index under none of the stores keeps what it held. -/
theorem read_writes_keep (v : View sig κ sp s e) (f : v.ty.Contents Val) (Ls : List (View.Piece Val s e)) (y : s.Idx)
    (hy : ∀ p ∈ Ls, y ∉ p.1.set) : v.read Val (v.writes Val f Ls) y = v.read Val f y :=
  View.read_writes_apply_of_forall_not_mem v f y Ls hy
end Writes

end Cert.Proof.KI
-- ==== Proof.KI.TileTrip1.lean ====
/-
  The first loop of the task: trip k reads ids 16 k .. 16 k + 15 of the copied run and stores, for each id u, the
  row word u AND 32767 and the lane word (u SHR 15) * 32. Before trip k the words of the first 16 k ids are written;
  the trip writes sixteen more of each and touches nothing else.
-/
import proofs.«217943_g20899310862962_cont_8to1_1374_33_alg».proof.Proof.KI.TileSets
import proofs.«217943_g20899310862962_cont_8to1_1374_33_alg».proof.Proof.KI.TileVals
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- Before trip k of the first loop: the row and lane words of the first 16 k ids are written. -/
def inv1 (U : Buf (Elt F) ((thrV d L).loc cc1_scratch0)) (k : Nat) (_ : PUnit) : sProp 𝕄 :=
  iprop(((sUid).view.loc (thrV d L) ↦{fullShare} U)
    ∗ (∃ f1, ((sIdx).view.loc (thrV d L) ↦{fullShare} f1)
        ∗ ⌜∀ y : S512.Idx, (y 0).val < 16 * k → (sIdx).view.read (Elt F) f1 y = IntOp.andi ((sUid).view.read (Elt F) U y) 32767#32⌝)
    ∗ (∃ f2, ((sLane).view.loc (thrV d L) ↦{fullShare} f2)
        ∗ ⌜∀ y : S512.Idx, (y 0).val < 16 * k → (sLane).view.read (Elt F) f2 y = IntOp.muli (IntOp.shrui .vector ((sUid).view.read (Elt F) U y) 15#32) 32#32⌝))

theorem trip1 (U : Buf (Elt F) ((thrV d L).loc cc1_scratch0)) (k : Fin k1_t1_loop.trips) :
    inv1 d L U k.val ⟨⟩
      ⊢ wp frame (wpE (defs₀ (F := F)) 𝒱₀ (thrV d L) none) Set.univ
          (k1_t1_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 k ⟨⟩)
          (inv1 d L U (k.val + 1)) := by
  unfold k1_t1_body
  unfold inv1
  iintro ⟨H0, ⟨%f1', H1, %h1⟩, ⟨%f2', H2, %h2⟩⟩
  sl_exec
  sl_step
  isplitl [H0]; · iexact H0
  isplitl [H1]
  · iexists _; isplitl [H1]; · iexact H1
    ipureintro
    intro y hy
    have key := read_writes_list (Val := Elt F) (sIdx).view f1'
      (fun y : S512.Idx => (IntOp.andi ((sUid).view.read (Elt F) U y) 32767#32 : Elt F .i32))
      (fun y : S512.Idx => (y 0).val < 16 * k.val)
    exact key _ (by intro p hp x; rw [List.mem_singleton] at hp; subst hp; rfl) h1 y (by
      by_cases h : (y 0).val < 16 * k.val
      · exact .inl h
      · refine .inr ⟨_, List.mem_singleton_self _, ?_⟩
        rw [Rect.mem_set_unit, k1_off2_eq]
        intro a; obtain rfl : a = 0 := Subsingleton.elim _ _
        show 16 * k.val ≤ (y 0).val ∧ (y 0).val < 16 * k.val + 16
        omega)
  · iexists _; isplitl [H2]; · iexact H2
    ipureintro
    intro y hy
    have key := read_writes_list (Val := Elt F) (sLane).view f2'
      (fun y : S512.Idx => (IntOp.muli (IntOp.shrui .vector ((sUid).view.read (Elt F) U y) 15#32) 32#32 : Elt F .i32))
      (fun y : S512.Idx => (y 0).val < 16 * k.val)
    exact key _ (by intro p hp x; rw [List.mem_singleton] at hp; subst hp; rfl) h2 y (by
      by_cases h : (y 0).val < 16 * k.val
      · exact .inl h
      · refine .inr ⟨_, List.mem_singleton_self _, ?_⟩
        rw [Rect.mem_set_unit, k1_off2_eq]
        intro a; obtain rfl : a = 0 := Subsingleton.elim _ _
        show 16 * k.val ≤ (y 0).val ∧ (y 0).val < 16 * k.val + 16
        omega)

end Tile
end Cert.Proof.KI
end
-- ==== Proof.KI.TileGoal.lean ====
/-
  What the task's scratch buffers must hold, stated once. For the id u at position j of the worker's run: the row
  word u AND 32767, the lane word (u SHR 15) * 32; row r of the rows gathered for slab s is the packed table's row
  named by id 128 s + r; entry (dd, j) of the staged output is the packed table at id j's row and lane (lane word + dd).
  One load_gather of a trip followed by its store writes, at (dd, 128 s + 16 k + x), exactly that entry (piece_ok);
  a stored row segment right of a column window does not meet the window (out_disj).
-/
import proofs.«217943_g20899310862962_cont_8to1_1374_33_alg».proof.Proof.KI.TileSets
import proofs.«217943_g20899310862962_cont_8to1_1374_33_alg».proof.Proof.KI.TileVals
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Vals
variable (d : Dev nD) (L : grid1.Coords)
variable (U : Buf (Elt F) ((thrV d L).loc cc1_scratch0)) (twc : Buf (Elt F) (twLoc d))

/-- The id at position `y` of the task's run, its row word and its lane word. -/
def Ur (y : S512.Idx) : BitVec 32 := (sUid).view.read (Elt F) U y
def rowW (y : S512.Idx) : BitVec 32 := IntOp.andi (Ur d L U y) 32767#32
def laneW (y : S512.Idx) : BitVec 32 := IntOp.muli (IntOp.shrui .vector (Ur d L U y) 15#32) 32#32
/-- The packed table, read. -/
def twR : S32768x128.Idx → Elt F .f32 := (aTW).view.read (Elt F) twc
/-- Row `r` of the rows gathered for slab `s` is the packed table's row named by id `128 s + r`. -/
def Grow (s : ℕ) (y : S128x128.Idx) : Elt F .f32 :=
  twR d twc (ix2 (n0 := 32768) (n1 := 128) (Fin.ofNat 32768 (rowW d L U (ix1 (n := 512) (Fin.ofNat 512 (128 * s + (y 0).val)))).toNat) ⟨(y 1).val, (y 1).isLt⟩)
/-- Entry (dd, j) of the task's staged output: the packed table at id j's row and lane base + dd. -/
def Gout (y : S32x512.Idx) : Elt F .f32 :=
  twR d twc (ix2 (n0 := 32768) (n1 := 128) (Fin.ofNat 32768 (rowW d L U (ix1 (n := 512) ⟨(y 1).val, (y 1).isLt⟩)).toNat)
    (Fin.ofNat 128 ((laneW d L U (ix1 (n := 512) ⟨(y 1).val, (y 1).isLt⟩)).toNat + (y 0).val)))

omit [FloatOps F] in
theorem reshape_S1x16 (x : S1x16.Idx) : ((Shape.reshapeEquiv (shapeCasts_S16_S1x16 : S16.ShapeCasts S1x16) x) 0).val = (x 1).val := by
  have hx : x = Shape.reshapeEquiv (s := S1x16) (s' := S16) (shapeCasts_S16_S1x16 : S16.ShapeCasts S1x16).symm (ix1 (n := 16) ⟨(x 1).val, (x 1).isLt⟩) := by
    rw [Shape.reshapeEquiv_cons_one]
    funext a; fin_cases a
    · apply Fin.ext; have h0 : (x 0).val < 1 := (x 0).isLt; show (x 0).val = 0; omega
    · rfl
  conv_lhs => rw [hx]
  rw [Shape.reshapeEquiv_reshapeEquiv, Shape.reshapeEquiv_self]

end Vals

section Piece
variable (d : Dev nD) (L : grid1.Coords)
variable (U : Buf (Elt F) ((thrV d L).loc cc1_scratch0)) (twc : Buf (Elt F) (twLoc d))

theorem piece_ok (s kk c col : ℕ) (hs : s < 4) (hk : kk < 8) (hc : c < 32) (hcol : col = 128 * s + 16 * kk)
    (B : Memref sig .scVector .vmem S128x128 .f32) (fR : Buf (Elt F) (B.view.loc (thrV d L)))
    (hR : ∀ y, B.view.read (Elt F) fR y = Grow d L U twc s y)
    (fL : Buf (Elt F) ((thrV d L).loc cc1_scratch2))
    (hL : ∀ y, (sLane).view.read (Elt F) fL y = laneW d L U y) (hLb : ∀ y, (laneW d L U y).toNat ≤ 96)
    (v63 : IVec S16 32) (h63 : ∀ x : S16.Idx, (v63 x).toNat = 16 * kk + (x 0).val)
    (offL : Fin 1 → ℕ) (hoffL : offL = ![col]) (inbL : ∀ a, offL a + S16.size a ≤ S512.size a)
    (cw : BitVec 32) (hcw : cw.toNat = c)
    (off : Fin 2 → ℕ) (hoff : off = ![c, col]) (inb : ∀ a, off a + S1x16.size a ≤ S32x512.size a)
    (h : ∀ a x, ((![v63, addi ((sLane).view.readAt (Elt F) (Rect.unit (s := S512) offL S16.size inbL).toLoadRect fL) (broadcast S16 cw)] : Fin 2 → IVec S16 32) a x).toNat < S128x128.size a)
    (x : (Rect.unit (s := S32x512) off S1x16.size inb).shape.Idx) :
    shapeCast S1x16 (loadIdx (B.view.readAt (Elt F) (LoadRect.whole S128x128) fR)
        ![v63, addi ((sLane).view.readAt (Elt F) (Rect.unit (s := S512) offL S16.size inbL).toLoadRect fL) (broadcast S16 cw)] h) shapeCasts_S16_S1x16 x
      = Gout d L U twc ((Rect.unit (s := S32x512) off S1x16.size inb).emb x) := by
  subst hoff hoffL
  have hx1 : (x 1).val < 16 := (x 1).isLt
  have hx0 : (x 0).val < 1 := (x 0).isLt
  -- the lane the stored vector's element x comes from
  set x' : S16.Idx := Shape.reshapeEquiv (shapeCasts_S16_S1x16 : S16.ShapeCasts S1x16) x with hx'
  have hx'0 : (x' 0).val = (x 1).val := reshape_S1x16 x
  show (B.view.readAt (Elt F) (LoadRect.whole S128x128) fR) (idxAt _ h x') = _
  rw [View.readAt_apply, hR]
  unfold Grow Gout
  congr 1
  congr 5
  · -- the row
    apply Fin.ext
    show (128 * s + (0 + 1 * (v63 x').toNat)) % 512 = col + 1 * (x 1).val
    rw [h63, hx'0]; omega
  · -- the lane
    show 0 + 1 * (IntOp.addi ((sLane).view.read (Elt F) fL ((Rect.unit (s := S512) ![col] S16.size inbL).toLoadRect.idx x')) cw).toNat
      = ((laneW d L U (ix1 (n := 512) ⟨col + 1 * (x 1).val, _⟩)).toNat + (c + 1 * (x 0).val)) % 128
    rw [hL, addw_toNat _ _ (hLb _) (by omega), hcw]
    have e : (Rect.unit (s := S512) ![col] S16.size inbL).toLoadRect.idx x' = ix1 (n := 512) ⟨col + 1 * (x 1).val, by omega⟩ := by
      funext a; obtain rfl : a = 0 := Subsingleton.elim _ _
      apply Fin.ext
      show col + 1 * (x' 0).val = col + 1 * (x 1).val
      rw [hx'0]
    rw [e]
    have := hLb (ix1 (n := 512) ⟨col + 1 * (x 1).val, by omega⟩)
    omega
end Piece

section Geo
variable (d : Dev nD) (L : grid1.Coords)

omit [FloatOps F] in
/-- A row segment of the staged output right of a column window does not meet the window. -/
theorem out_disj (off : Fin 2 → ℕ) (inb : ∀ a, off a + S1x16.size a ≤ S32x512.size a) (c0 : ℕ)
    (inbw : ∀ a, (![0, c0] : Fin 2 → ℕ) a + S32x128.size a ≤ S32x512.size a)
    (hw : ∀ a, (Rect.unit (s := S32x512) ![0, c0] S32x128.size inbw).stride a = 1)
    (r col : ℕ) (heq : off = ![r, col]) (h : c0 + 128 ≤ col) :
    Disjoint ((sOut).view.setOn (Rect.unit (s := S32x512) off S1x16.size inb).set)
      ((sOut).slice (Rect.unit (s := S32x512) ![0, c0] S32x128.size inbw) hw).view.set := by
  subst heq
  refine View.disjoint_of_boxes (sOut).view (Rect.unit (s := S32x512) ![r, col] S1x16.size inb).toLoadRect
    (Rect.unit (s := S32x512) ![0, c0] S32x128.size inbw).toLoadRect (subset_of_eq rfl) ?_ 1 ?_
  · show ((sOut).view.slice _).set ⊆ _
    rw [View.set_slice]; exact subset_of_eq rfl
  · right; right
    show c0 + 1 * (128 - 1) < col
    omega

omit [FloatOps F] in
/-- The rows a trip gathers: 16 kk + lane. -/
theorem rows_toNat (kk : ℕ) (hk : kk < 8) (x : S16.Idx) :
    ((addi (broadcast S16 (Scalar.muli (Scf.iv 0#32 1#32 kk) 16#32)) (iota .scVector S16 32 [0] iota_S16_d0_w32_scVector)) x).toNat = 16 * kk + (x 0).val := by
  have hx : (x 0).val < 16 := (x 0).isLt
  show ((0#32 + BitVec.ofNat 32 kk * 1#32) * 16#32 + BitVec.ofNat 32 (0 * 16 + (x 0).val)).toNat = _
  simp only [BitVec.toNat_add, BitVec.toNat_mul, BitVec.toNat_ofNat]
  norm_num
  omega
end Geo

end Cert.Proof.KI
end
-- ==== Proof.KI.TileTripE0.lean ====
/-
  The loop over slab 0 of the staged output: trip k loads the sixteen lane words of ids 128 * 0 + 16 k .. + 15 and,
  for each of the 32 features dd, gathers from the rows buffer the entries (16 k + x, lane word + dd) and stores them
  as row dd, columns 128 * 0 + 16 k .. + 15 of the staged output. Each stored segment holds the output's entries
  (piece_ok); the 32 segments cover the sixteen new columns; earlier columns are kept.
-/
import proofs.«217943_g20899310862962_cont_8to1_1374_33_alg».proof.Proof.KI.TileGoal
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- Before trip k of the loop over slab 0: the staged output holds its entries in every column below 128 * 0 + 16 k. -/
def invE0 (U : Buf (Elt F) ((thrV d L).loc cc1_scratch0)) (twc : Buf (Elt F) (twLoc d))
    (fL : Buf (Elt F) ((thrV d L).loc cc1_scratch2)) (fR : Buf (Elt F) ((thrV d L).loc cc1_scratch3)) (k : Nat) (_ : PUnit) : sProp 𝕄 :=
  iprop(((sLane).view.loc (thrV d L) ↦{fullShare} fL) ∗ ((sRA).view.loc (thrV d L) ↦{fullShare} fR)
    ∗ (∃ fO, ((sOut).view.loc (thrV d L) ↦{fullShare} fO)
        ∗ ⌜∀ y : S32x512.Idx, (y 1).val < 0 + 16 * k → (sOut).view.read (Elt F) fO y = Gout d L U twc y⌝))

set_option maxHeartbeats 4000000 in
theorem tripE0 (U : Buf (Elt F) ((thrV d L).loc cc1_scratch0)) (twc : Buf (Elt F) (twLoc d)) (v2 : BitVec 32) (k : Fin k1_t2_loop.trips)
    (fL : Buf (Elt F) ((thrV d L).loc cc1_scratch2)) (fR : Buf (Elt F) ((thrV d L).loc cc1_scratch3))
    (hL : ∀ y, (sLane).view.read (Elt F) fL y = laneW d L U y) (hLb : ∀ y, (laneW d L U y).toNat ≤ 96)
    (hR : ∀ y, (sRA).view.read (Elt F) fR y = Grow d L U twc 0 y) :
    invE0 d L U twc fL fR k.val ⟨⟩
      ⊢ wp frame (wpE (defs₀ (F := F)) 𝒱₀ (thrV d L) none) Set.univ
          (k1_t2_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 (iota .scVector S16 32 [0] iota_S16_d0_w32_scVector) k ⟨⟩)
          (invE0 d L U twc fL fR (k.val + 1)) := by
  have hk : k.val < 8 := lt_of_lt_of_le k.isLt k1_t2_abs.2.1
  have h63 : ∀ x : S16.Idx, (k1_pay1 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay1 (iota .scVector S16 32 [0] iota_S16_d0_w32_scVector) 0#32 1#32 k, addi ((sLane).view.readAt (Elt F) (Rect.unit (s := S512) (k1_off3 k) S16.size (k1_off3_inb k)).toLoadRect fL) (broadcast S16 c)] : Fin 2 → IVec S16 32) a x).toNat < S128x128.size a := by
    intro c hc a x
    have hx : (x 0).val < 16 := (x 0).isLt
    fin_cases a
    · show (k1_pay1 (iota .scVector S16 32 [0] iota_S16_d0_w32_scVector) 0#32 1#32 k x).toNat < 128
      rw [h63]; omega
    · show (IntOp.addi ((sLane).view.read (Elt F) fL ((Rect.unit (s := S512) (k1_off3 k) S16.size (k1_off3_inb k)).toLoadRect.idx x)) c).toNat < 128
      rw [hL, addw_toNat _ _ (hLb _) hc]
      have := hLb ((Rect.unit (s := S512) (k1_off3 k) S16.size (k1_off3_inb k)).toLoadRect.idx x)
      omega
  unfold k1_t2_body
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  simp only [SparseCore.vectorLoadIdx_bind (thrV d L)]
  unfold invE0
  iintro ⟨HL, HR, ⟨%fO, HOut, %hO⟩⟩
  sl_exec (disch := first | exact hchk _ (by decide) | exact out_disj _ _ _ _ _ _ _ ClosedOff.eq (by omega))
  repeat (sl_rw [SparseCore.vectorLoadIdx_bind (thrV d L)]; sl_exec (disch := first | exact hchk _ (by decide) | exact out_disj _ _ _ _ _ _ _ ClosedOff.eq (by omega)))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 0 + 16 * k.val)
  refine key _ ?hw hO y ?cov
  case hw =>
    intro p hp
    rcases List.mem_cons.1 hp with rfl | hp
    · intro x
      exact piece_ok d L U twc 0 k.val 31 (16 * k.val) (by omega) hk (by omega) (by omega) _ _ hR _ hL hLb _ h63 _ (k1_off3_eq k) (k1_off3_inb k) 31#32 rfl _ (k1_off35_eq k) (k1_off35_inb k) _ x
    rcases List.mem_cons.1 hp with rfl | hp
    · intro x
      exact piece_ok d L U twc 0 k.val 30 (16 * k.val) (by omega) hk (by omega) (by omega) _ _ hR _ hL hLb _ h63 _ (k1_off3_eq k) (k1_off3_inb k) 30#32 rfl _ (k1_off34_eq k) (k1_off34_inb k) _ x
    rcases List.mem_cons.1 hp with rfl | hp
    · intro x
      exact piece_ok d L U twc 0 k.val 29 (16 * k.val) (by omega) hk (by omega) (by omega) _ _ hR _ hL hLb _ h63 _ (k1_off3_eq k) (k1_off3_inb k) 29#32 rfl _ (k1_off33_eq k) (k1_off33_inb k) _ x
    rcases List.mem_cons.1 hp with rfl | hp
    · intro x
      exact piece_ok d L U twc 0 k.val 28 (16 * k.val) (by omega) hk (by omega) (by omega) _ _ hR _ hL hLb _ h63 _ (k1_off3_eq k) (k1_off3_inb k) 28#32 rfl _ (k1_off32_eq k) (k1_off32_inb k) _ x
    rcases List.mem_cons.1 hp with rfl | hp
    · intro x
      exact piece_ok d L U twc 0 k.val 27 (16 * k.val) (by omega) hk (by omega) (by omega) _ _ hR _ hL hLb _ h63 _ (k1_off3_eq k) (k1_off3_inb k) 27#32 rfl _ (k1_off31_eq k) (k1_off31_inb k) _ x
    rcases List.mem_cons.1 hp with rfl | hp
    · intro x
      exact piece_ok d L U twc 0 k.val 26 (16 * k.val) (by omega) hk (by omega) (by omega) _ _ hR _ hL hLb _ h63 _ (k1_off3_eq k) (k1_off3_inb k) 26#32 rfl _ (k1_off30_eq k) (k1_off30_inb k) _ x
    rcases List.mem_cons.1 hp with rfl | hp
    · intro x
      exact piece_ok d L U twc 0 k.val 25 (16 * k.val) (by omega) hk (by omega) (by omega) _ _ hR _ hL hLb _ h63 _ (k1_off3_eq k) (k1_off3_inb k) 25#32 rfl _ (k1_off29_eq k) (k1_off29_inb k) _ x
    rcases List.mem_cons.1 hp with rfl | hp
    · intro x
      exact piece_ok d L U twc 0 k.val 24 (16 * k.val) (by omega) hk (by omega) (by omega) _ _ hR _ hL hLb _ h63 _ (k1_off3_eq k) (k1_off3_inb k) 24#32 rfl _ (k1_off28_eq k) (k1_off28_inb k) _ x
    rcases List.mem_cons.1 hp with rfl | hp
    · intro x
      exact piece_ok d L U twc 0 k.val 23 (16 * k.val) (by omega) hk (by omega) (by omega) _ _ hR _ hL hLb _ h63 _ (k1_off3_eq k) (k1_off3_inb k) 23#32 rfl _ (k1_off27_eq k) (k1_off27_inb k) _ x
    rcases List.mem_cons.1 hp with rfl | hp
    · intro x
      exact piece_ok d L U twc 0 k.val 22 (16 * k.val) (by omega) hk (by omega) (by omega) _ _ hR _ hL hLb _ h63 _ (k1_off3_eq k) (k1_off3_inb k) 22#32 rfl _ (k1_off26_eq k) (k1_off26_inb k) _ x
    rcases List.mem_cons.1 hp with rfl | hp
    · intro x
      exact piece_ok d L U twc 0 k.val 21 (16 * k.val) (by omega) hk (by omega) (by omega) _ _ hR _ hL hLb _ h63 _ (k1_off3_eq k) (k1_off3_inb k) 21#32 rfl _ (k1_off25_eq k) (k1_off25_inb k) _ x
    rcases List.mem_cons.1 hp with rfl | hp
    · intro x
      exact piece_ok d L U twc 0 k.val 20 (16 * k.val) (by omega) hk (by omega) (by omega) _ _ hR _ hL hLb _ h63 _ (k1_off3_eq k) (k1_off3_inb k) 20#32 rfl _ (k1_off24_eq k) (k1_off24_inb k) _ x
    rcases List.mem_cons.1 hp with rfl | hp
    · intro x
      exact piece_ok d L U twc 0 k.val 19 (16 * k.val) (by omega) hk (by omega) (by omega) _ _ hR _ hL hLb _ h63 _ (k1_off3_eq k) (k1_off3_inb k) 19#32 rfl _ (k1_off23_eq k) (k1_off23_inb k) _ x
    rcases List.mem_cons.1 hp with rfl | hp
    · intro x
      exact piece_ok d L U twc 0 k.val 18 (16 * k.val) (by omega) hk (by omega) (by omega) _ _ hR _ hL hLb _ h63 _ (k1_off3_eq k) (k1_off3_inb k) 18#32 rfl _ (k1_off22_eq k) (k1_off22_inb k) _ x
    rcases List.mem_cons.1 hp with rfl | hp
    · intro x
      exact piece_ok d L U twc 0 k.val 17 (16 * k.val) (by omega) hk (by omega) (by omega) _ _ hR _ hL hLb _ h63 _ (k1_off3_eq k) (k1_off3_inb k) 17#32 rfl _ (k1_off21_eq k) (k1_off21_inb k) _ x
    rcases List.mem_cons.1 hp with rfl | hp
    · intro x
      exact piece_ok d L U twc 0 k.val 16 (16 * k.val) (by omega) hk (by omega) (by omega) _ _ hR _ hL hLb _ h63 _ (k1_off3_eq k) (k1_off3_inb k) 16#32 rfl _ (k1_off20_eq k) (k1_off20_inb k) _ x
    rcases List.mem_cons.1 hp with rfl | hp
    · intro x
      exact piece_ok d L U twc 0 k.val 15 (16 * k.val) (by omega) hk (by omega) (by omega) _ _ hR _ hL hLb _ h63 _ (k1_off3_eq k) (k1_off3_inb k) 15#32 rfl _ (k1_off19_eq k) (k1_off19_inb k) _ x
    rcases List.mem_cons.1 hp with rfl | hp
    · intro x
      exact piece_ok d L U twc 0 k.val 14 (16 * k.val) (by omega) hk (by omega) (by omega) _ _ hR _ hL hLb _ h63 _ (k1_off3_eq k) (k1_off3_inb k) 14#32 rfl _ (k1_off18_eq k) (k1_off18_inb k) _ x
    rcases List.mem_cons.1 hp with rfl | hp
    · intro x
      exact piece_ok d L U twc 0 k.val 13 (16 * k.val) (by omega) hk (by omega) (by omega) _ _ hR _ hL hLb _ h63 _ (k1_off3_eq k) (k1_off3_inb k) 13#32 rfl _ (k1_off17_eq k) (k1_off17_inb k) _ x
    rcases List.mem_cons.1 hp with rfl | hp
    · intro x
      exact piece_ok d L U twc 0 k.val 12 (16 * k.val) (by omega) hk (by omega) (by omega) _ _ hR _ hL hLb _ h63 _ (k1_off3_eq k) (k1_off3_inb k) 12#32 rfl _ (k1_off16_eq k) (k1_off16_inb k) _ x
    rcases List.mem_cons.1 hp with rfl | hp
    · intro x
      exact piece_ok d L U twc 0 k.val 11 (16 * k.val) (by omega) hk (by omega) (by omega) _ _ hR _ hL hLb _ h63 _ (k1_off3_eq k) (k1_off3_inb k) 11#32 rfl _ (k1_off15_eq k) (k1_off15_inb k) _ x
    rcases List.mem_cons.1 hp with rfl | hp
    · intro x
      exact piece_ok d L U twc 0 k.val 10 (16 * k.val) (by omega) hk (by omega) (by omega) _ _ hR _ hL hLb _ h63 _ (k1_off3_eq k) (k1_off3_inb k) 10#32 rfl _ (k1_off14_eq k) (k1_off14_inb k) _ x
    rcases List.mem_cons.1 hp with rfl | hp
    · intro x
      exact piece_ok d L U twc 0 k.val 9 (16 * k.val) (by omega) hk (by omega) (by omega) _ _ hR _ hL hLb _ h63 _ (k1_off3_eq k) (k1_off3_inb k) 9#32 rfl _ (k1_off13_eq k) (k1_off13_inb k) _ x
    rcases List.mem_cons.1 hp with rfl | hp
    · intro x
      exact piece_ok d L U twc 0 k.val 8 (16 * k.val) (by omega) hk (by omega) (by omega) _ _ hR _ hL hLb _ h63 _ (k1_off3_eq k) (k1_off3_inb k) 8#32 rfl _ (k1_off12_eq k) (k1_off12_inb k) _ x
    rcases List.mem_cons.1 hp with rfl | hp
    · intro x
      exact piece_ok d L U twc 0 k.val 7 (16 * k.val) (by omega) hk (by omega) (by omega) _ _ hR _ hL hLb _ h63 _ (k1_off3_eq k) (k1_off3_inb k) 7#32 rfl _ (k1_off11_eq k) (k1_off11_inb k) _ x
    rcases List.mem_cons.1 hp with rfl | hp
    · intro x
      exact piece_ok d L U twc 0 k.val 6 (16 * k.val) (by omega) hk (by omega) (by omega) _ _ hR _ hL hLb _ h63 _ (k1_off3_eq k) (k1_off3_inb k) 6#32 rfl _ (k1_off10_eq k) (k1_off10_inb k) _ x
    rcases List.mem_cons.1 hp with rfl | hp
    · intro x
      exact piece_ok d L U twc 0 k.val 5 (16 * k.val) (by omega) hk (by omega) (by omega) _ _ hR _ hL hLb _ h63 _ (k1_off3_eq k) (k1_off3_inb k) 5#32 rfl _ (k1_off9_eq k) (k1_off9_inb k) _ x
    rcases List.mem_cons.1 hp with rfl | hp
    · intro x
      exact piece_ok d L U twc 0 k.val 4 (16 * k.val) (by omega) hk (by omega) (by omega) _ _ hR _ hL hLb _ h63 _ (k1_off3_eq k) (k1_off3_inb k) 4#32 rfl _ (k1_off8_eq k) (k1_off8_inb k) _ x
    rcases List.mem_cons.1 hp with rfl | hp
    · intro x
      exact piece_ok d L U twc 0 k.val 3 (16 * k.val) (by omega) hk (by omega) (by omega) _ _ hR _ hL hLb _ h63 _ (k1_off3_eq k) (k1_off3_inb k) 3#32 rfl _ (k1_off7_eq k) (k1_off7_inb k) _ x
    rcases List.mem_cons.1 hp with rfl | hp
    · intro x
      exact piece_ok d L U twc 0 k.val 2 (16 * k.val) (by omega) hk (by omega) (by omega) _ _ hR _ hL hLb _ h63 _ (k1_off3_eq k) (k1_off3_inb k) 2#32 rfl _ (k1_off6_eq k) (k1_off6_inb k) _ x
    rcases List.mem_cons.1 hp with rfl | hp
    · intro x
      exact piece_ok d L U twc 0 k.val 1 (16 * k.val) (by omega) hk (by omega) (by omega) _ _ hR _ hL hLb _ h63 _ (k1_off3_eq k) (k1_off3_inb k) 1#32 rfl _ (k1_off5_eq k) (k1_off5_inb k) _ x
    rcases List.mem_cons.1 hp with rfl | hp
    · intro x
      exact piece_ok d L U twc 0 k.val 0 (16 * k.val) (by omega) hk (by omega) (by omega) _ _ hR _ hL hLb _ h63 _ (k1_off3_eq k) (k1_off3_inb k) 0#32 rfl _ (k1_off4_eq k) (k1_off4_inb k) _ x
    cases hp
  case cov =>
    by_cases h : (y 1).val < 0 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off4_eq]
        intro a; fin_cases a
        · show 0 ≤ (y 0).val ∧ (y 0).val < 0 + 1
          omega
        · show 16 * k.val ≤ (y 1).val ∧ (y 1).val < 16 * k.val + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off5_eq]
        intro a; fin_cases a
        · show 1 ≤ (y 0).val ∧ (y 0).val < 1 + 1
          omega
        · show 16 * k.val ≤ (y 1).val ∧ (y 1).val < 16 * k.val + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off6_eq]
        intro a; fin_cases a
        · show 2 ≤ (y 0).val ∧ (y 0).val < 2 + 1
          omega
        · show 16 * k.val ≤ (y 1).val ∧ (y 1).val < 16 * k.val + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off7_eq]
        intro a; fin_cases a
        · show 3 ≤ (y 0).val ∧ (y 0).val < 3 + 1
          omega
        · show 16 * k.val ≤ (y 1).val ∧ (y 1).val < 16 * k.val + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off8_eq]
        intro a; fin_cases a
        · show 4 ≤ (y 0).val ∧ (y 0).val < 4 + 1
          omega
        · show 16 * k.val ≤ (y 1).val ∧ (y 1).val < 16 * k.val + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off9_eq]
        intro a; fin_cases a
        · show 5 ≤ (y 0).val ∧ (y 0).val < 5 + 1
          omega
        · show 16 * k.val ≤ (y 1).val ∧ (y 1).val < 16 * k.val + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off10_eq]
        intro a; fin_cases a
        · show 6 ≤ (y 0).val ∧ (y 0).val < 6 + 1
          omega
        · show 16 * k.val ≤ (y 1).val ∧ (y 1).val < 16 * k.val + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off11_eq]
        intro a; fin_cases a
        · show 7 ≤ (y 0).val ∧ (y 0).val < 7 + 1
          omega
        · show 16 * k.val ≤ (y 1).val ∧ (y 1).val < 16 * k.val + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off12_eq]
        intro a; fin_cases a
        · show 8 ≤ (y 0).val ∧ (y 0).val < 8 + 1
          omega
        · show 16 * k.val ≤ (y 1).val ∧ (y 1).val < 16 * k.val + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off13_eq]
        intro a; fin_cases a
        · show 9 ≤ (y 0).val ∧ (y 0).val < 9 + 1
          omega
        · show 16 * k.val ≤ (y 1).val ∧ (y 1).val < 16 * k.val + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off14_eq]
        intro a; fin_cases a
        · show 10 ≤ (y 0).val ∧ (y 0).val < 10 + 1
          omega
        · show 16 * k.val ≤ (y 1).val ∧ (y 1).val < 16 * k.val + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off15_eq]
        intro a; fin_cases a
        · show 11 ≤ (y 0).val ∧ (y 0).val < 11 + 1
          omega
        · show 16 * k.val ≤ (y 1).val ∧ (y 1).val < 16 * k.val + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off16_eq]
        intro a; fin_cases a
        · show 12 ≤ (y 0).val ∧ (y 0).val < 12 + 1
          omega
        · show 16 * k.val ≤ (y 1).val ∧ (y 1).val < 16 * k.val + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off17_eq]
        intro a; fin_cases a
        · show 13 ≤ (y 0).val ∧ (y 0).val < 13 + 1
          omega
        · show 16 * k.val ≤ (y 1).val ∧ (y 1).val < 16 * k.val + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off18_eq]
        intro a; fin_cases a
        · show 14 ≤ (y 0).val ∧ (y 0).val < 14 + 1
          omega
        · show 16 * k.val ≤ (y 1).val ∧ (y 1).val < 16 * k.val + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off19_eq]
        intro a; fin_cases a
        · show 15 ≤ (y 0).val ∧ (y 0).val < 15 + 1
          omega
        · show 16 * k.val ≤ (y 1).val ∧ (y 1).val < 16 * k.val + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off20_eq]
        intro a; fin_cases a
        · show 16 ≤ (y 0).val ∧ (y 0).val < 16 + 1
          omega
        · show 16 * k.val ≤ (y 1).val ∧ (y 1).val < 16 * k.val + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off21_eq]
        intro a; fin_cases a
        · show 17 ≤ (y 0).val ∧ (y 0).val < 17 + 1
          omega
        · show 16 * k.val ≤ (y 1).val ∧ (y 1).val < 16 * k.val + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off22_eq]
        intro a; fin_cases a
        · show 18 ≤ (y 0).val ∧ (y 0).val < 18 + 1
          omega
        · show 16 * k.val ≤ (y 1).val ∧ (y 1).val < 16 * k.val + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off23_eq]
        intro a; fin_cases a
        · show 19 ≤ (y 0).val ∧ (y 0).val < 19 + 1
          omega
        · show 16 * k.val ≤ (y 1).val ∧ (y 1).val < 16 * k.val + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off24_eq]
        intro a; fin_cases a
        · show 20 ≤ (y 0).val ∧ (y 0).val < 20 + 1
          omega
        · show 16 * k.val ≤ (y 1).val ∧ (y 1).val < 16 * k.val + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off25_eq]
        intro a; fin_cases a
        · show 21 ≤ (y 0).val ∧ (y 0).val < 21 + 1
          omega
        · show 16 * k.val ≤ (y 1).val ∧ (y 1).val < 16 * k.val + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off26_eq]
        intro a; fin_cases a
        · show 22 ≤ (y 0).val ∧ (y 0).val < 22 + 1
          omega
        · show 16 * k.val ≤ (y 1).val ∧ (y 1).val < 16 * k.val + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off27_eq]
        intro a; fin_cases a
        · show 23 ≤ (y 0).val ∧ (y 0).val < 23 + 1
          omega
        · show 16 * k.val ≤ (y 1).val ∧ (y 1).val < 16 * k.val + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off28_eq]
        intro a; fin_cases a
        · show 24 ≤ (y 0).val ∧ (y 0).val < 24 + 1
          omega
        · show 16 * k.val ≤ (y 1).val ∧ (y 1).val < 16 * k.val + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off29_eq]
        intro a; fin_cases a
        · show 25 ≤ (y 0).val ∧ (y 0).val < 25 + 1
          omega
        · show 16 * k.val ≤ (y 1).val ∧ (y 1).val < 16 * k.val + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off30_eq]
        intro a; fin_cases a
        · show 26 ≤ (y 0).val ∧ (y 0).val < 26 + 1
          omega
        · show 16 * k.val ≤ (y 1).val ∧ (y 1).val < 16 * k.val + 16
          omega
      · have hr' : (y 0).val = 27 := hr.symm
        refine ⟨_, (List.Mem.tail _ (List.Mem.tail _ (List.Mem.tail _ (List.Mem.tail _ (List.Mem.head _))))), ?_⟩
        rw [Rect.mem_set_unit, k1_off31_eq]
        intro a; fin_cases a
        · show 27 ≤ (y 0).val ∧ (y 0).val < 27 + 1
          omega
        · show 16 * k.val ≤ (y 1).val ∧ (y 1).val < 16 * k.val + 16
          omega
      · have hr' : (y 0).val = 28 := hr.symm
        refine ⟨_, (List.Mem.tail _ (List.Mem.tail _ (List.Mem.tail _ (List.Mem.head _)))), ?_⟩
        rw [Rect.mem_set_unit, k1_off32_eq]
        intro a; fin_cases a
        · show 28 ≤ (y 0).val ∧ (y 0).val < 28 + 1
          omega
        · show 16 * k.val ≤ (y 1).val ∧ (y 1).val < 16 * k.val + 16
          omega
      · have hr' : (y 0).val = 29 := hr.symm
        refine ⟨_, (List.Mem.tail _ (List.Mem.tail _ (List.Mem.head _))), ?_⟩
        rw [Rect.mem_set_unit, k1_off33_eq]
        intro a; fin_cases a
        · show 29 ≤ (y 0).val ∧ (y 0).val < 29 + 1
          omega
        · show 16 * k.val ≤ (y 1).val ∧ (y 1).val < 16 * k.val + 16
          omega
      · have hr' : (y 0).val = 30 := hr.symm
        refine ⟨_, (List.Mem.tail _ (List.Mem.head _)), ?_⟩
        rw [Rect.mem_set_unit, k1_off34_eq]
        intro a; fin_cases a
        · show 30 ≤ (y 0).val ∧ (y 0).val < 30 + 1
          omega
        · show 16 * k.val ≤ (y 1).val ∧ (y 1).val < 16 * k.val + 16
          omega
      · have hr' : (y 0).val = 31 := hr.symm
        refine ⟨_, (List.Mem.head _), ?_⟩
        rw [Rect.mem_set_unit, k1_off35_eq]
        intro a; fin_cases a
        · show 31 ≤ (y 0).val ∧ (y 0).val < 31 + 1
          omega
        · show 16 * k.val ≤ (y 1).val ∧ (y 1).val < 16 * k.val + 16
          omega

end Tile
end Cert.Proof.KI
end
-- ==== Proof.KI.TileGoal2.lean ====
/-
  A stored row segment of the staged output, as a store's own element set, does not meet a column window to its left.
-/
import proofs.«217943_g20899310862962_cont_8to1_1374_33_alg».proof.Proof.KI.TileGoal
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Geo2
variable (d : Dev nD) (L : grid1.Coords)

theorem out_disjA (off : Fin 2 → ℕ) (inb : ∀ a, off a + S1x16.size a ≤ S32x512.size a) (c0 : ℕ)
    (inbw : ∀ a, (![0, c0] : Fin 2 → ℕ) a + S32x128.size a ≤ S32x512.size a)
    (hw : ∀ a, (Rect.unit (s := S32x512) ![0, c0] S32x128.size inbw).stride a = 1)
    (r col : ℕ) (heq : off = ![r, col]) (h : c0 + 128 ≤ col) :
    Disjoint ((sOut).access (Rect.unit (s := S32x512) off S1x16.size inb)).set
      ((sOut).slice (Rect.unit (s := S32x512) ![0, c0] S32x128.size inbw) hw).view.set := by
  subst heq
  refine View.disjoint_of_boxes (sOut).view (Rect.unit (s := S32x512) ![r, col] S1x16.size inb).toLoadRect
    (Rect.unit (s := S32x512) ![0, c0] S32x128.size inbw).toLoadRect ?_ ?_ 1 ?_
  · show ((sOut).view.slice _).set ⊆ _
    rw [View.set_slice]; exact subset_of_eq rfl
  · show ((sOut).view.slice _).set ⊆ _
    rw [View.set_slice]; exact subset_of_eq rfl
  · right; right
    show c0 + 1 * (128 - 1) < col
    omega
end Geo2
end Cert.Proof.KI
end
-- ==== Proof.KI.TileInv.lean ====
/-
  The invariants of the loops over slabs 1, 2, 3 of the staged output: before trip k of the loop over slab s the staged
  output, held less the column windows of the outgoing copies already started, holds its entries in every column
  below 128 s + 16 k.
-/
import proofs.«217943_g20899310862962_cont_8to1_1374_33_alg».proof.Proof.KI.TileGoal2
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)
/-- Before trip k of the loop over slab 1: the staged output holds its entries in every column below 128 * 1 + 16 k. -/
def invE1 (U : Buf (Elt F) ((thrV d L).loc cc1_scratch0)) (twc : Buf (Elt F) (twLoc d))
    (fL : Buf (Elt F) ((thrV d L).loc cc1_scratch2)) (fR : Buf (Elt F) ((thrV d L).loc cc1_scratch4)) (k : Nat) (_ : PUnit) : sProp 𝕄 :=
  iprop(((sLane).view.loc (thrV d L) ↦{fullShare} fL) ∗ ((sRB).view.loc (thrV d L) ↦{fullShare} fR)
    ∗ (∃ fO, ((sOut).view.loc (thrV d L) ↦[(Finset.univ \ (sOut.slice (Rect.unit (s := S32x512) ![0, 0] S32x128.size inb_S32x512_S32x128_0_0) (fun _ => rfl)).view.set)]{fullShare} fO)
        ∗ ⌜∀ y : S32x512.Idx, (y 1).val < 128 + 16 * k → (sOut).view.read (Elt F) fO y = Gout d L U twc y⌝))

/-- Before trip k of the loop over slab 2: the staged output holds its entries in every column below 128 * 2 + 16 k. -/
def invE2 (U : Buf (Elt F) ((thrV d L).loc cc1_scratch0)) (twc : Buf (Elt F) (twLoc d))
    (fL : Buf (Elt F) ((thrV d L).loc cc1_scratch2)) (fR : Buf (Elt F) ((thrV d L).loc cc1_scratch3)) (k : Nat) (_ : PUnit) : sProp 𝕄 :=
  iprop(((sLane).view.loc (thrV d L) ↦{fullShare} fL) ∗ ((sRA).view.loc (thrV d L) ↦{fullShare} fR)
    ∗ (∃ fO, ((sOut).view.loc (thrV d L) ↦[((Finset.univ \ (sOut.slice (Rect.unit (s := S32x512) ![0, 0] S32x128.size inb_S32x512_S32x128_0_0) (fun _ => rfl)).view.set) \ (sOut.slice (Rect.unit (s := S32x512) ![0, 128] S32x128.size inb_S32x512_S32x128_0_128) (fun _ => rfl)).view.set)]{fullShare} fO)
        ∗ ⌜∀ y : S32x512.Idx, (y 1).val < 256 + 16 * k → (sOut).view.read (Elt F) fO y = Gout d L U twc y⌝))

/-- Before trip k of the loop over slab 3: the staged output holds its entries in every column below 128 * 3 + 16 k. -/
def invE3 (U : Buf (Elt F) ((thrV d L).loc cc1_scratch0)) (twc : Buf (Elt F) (twLoc d))
    (fL : Buf (Elt F) ((thrV d L).loc cc1_scratch2)) (fR : Buf (Elt F) ((thrV d L).loc cc1_scratch4)) (k : Nat) (_ : PUnit) : sProp 𝕄 :=
  iprop(((sLane).view.loc (thrV d L) ↦{fullShare} fL) ∗ ((sRB).view.loc (thrV d L) ↦{fullShare} fR)
    ∗ (∃ fO, ((sOut).view.loc (thrV d L) ↦[(((Finset.univ \ (sOut.slice (Rect.unit (s := S32x512) ![0, 0] S32x128.size inb_S32x512_S32x128_0_0) (fun _ => rfl)).view.set) \ (sOut.slice (Rect.unit (s := S32x512) ![0, 128] S32x128.size inb_S32x512_S32x128_0_128) (fun _ => rfl)).view.set) \ (sOut.slice (Rect.unit (s := S32x512) ![0, 256] S32x128.size inb_S32x512_S32x128_0_256) (fun _ => rfl)).view.set)]{fullShare} fO)
        ∗ ⌜∀ y : S32x512.Idx, (y 1).val < 384 + 16 * k → (sOut).view.read (Elt F) fO y = Gout d L U twc y⌝))

end Tile
end Cert.Proof.KI
end
-- ==== Proof.KI.TileAuxVal.lean ====
/-
  Two values of the lookup, read at an entry. For the id u at position j of a worker's run, u at most 100000: the row
  word u AND 32767 is u mod 32768 and the lane word (u SHR 15) * 32 is 32 * (u div 32768), so the staged output's entry
  (dd, j) — the packed table at that row and lane (lane word + dd) — is the projection of table row u at feature dd
  wherever the packed table holds the projections; and the lane word is at most 96.
-/
import proofs.«217943_g20899310862962_cont_8to1_1374_33_alg».proof.Proof.KI.TileGoal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Final
variable (m : (ℓ : Loc nD τ sig) → Buf (Elt F) ℓ) (pv : Fin 100001 → Fin 32 → F .f32) (Ok : Prop)
variable (d : Dev nD) (L : grid1.Coords)
variable (U : Buf (Elt F) ((thrV d L).loc cc1_scratch0)) (twc : Buf (Elt F) (twLoc d))

omit [FloatOps F] in
/-- Position j < 512 of worker w's run is id number 512 w + j, below 16384. -/
theorem run_lt (j : ℕ) (hj : j < 512) : 512 * (wL L).val + j < 16384 := by
  have := (wL L).isLt
  omega

/-- The lane word of an id that is a row of the table is at most 96. -/
theorem lane_le (hpre : PreOK m)
    (hU : ∀ y : S512.Idx, (sUid).view.read (Elt F) U y
      = m (uLoc d) (ix1 (n := 16384) ⟨512 * (wL L).val + (y 0).val, run_lt L _ (y 0).isLt⟩)) :
    ∀ y : S512.Idx, (laneW d L U y).toNat ≤ 96 := by
  intro y
  unfold laneW Ur
  rw [hU y]
  exact lanew_le _ (hpre d _)

/-- Entry (dd, j) of the staged output is the projection, at feature dd, of the table row that id j of the run names. -/
theorem gout_pv (hpre : PreOK m) (htw : TWok pv Ok d twc) (hOk : Ok)
    (hU : ∀ y : S512.Idx, (sUid).view.read (Elt F) U y
      = m (uLoc d) (ix1 (n := 16384) ⟨512 * (wL L).val + (y 0).val, run_lt L _ (y 0).isLt⟩))
    (y : S32x512.Idx) :
    Gout d L U twc y
      = pv (Cert.Spec.rowOf (m (uLoc d) (ix1 (n := 16384) ⟨512 * (wL L).val + (y 1).val, run_lt L _ (y 1).isLt⟩)))
          ⟨(y 0).val, (y 0).isLt⟩ := by
  have hle : (m (uLoc d) (ix1 (n := 16384) ⟨512 * (wL L).val + (y 1).val, run_lt L _ (y 1).isLt⟩)).toNat ≤ 100000 :=
    hpre d _
  have hur : Ur d L U (ix1 (n := 512) ⟨(y 1).val, (y 1).isLt⟩)
      = m (uLoc d) (ix1 (n := 16384) ⟨512 * (wL L).val + (y 1).val, run_lt L _ (y 1).isLt⟩) := hU _
  have hrow : (rowW d L U (ix1 (n := 512) ⟨(y 1).val, (y 1).isLt⟩)).toNat
      = (m (uLoc d) (ix1 (n := 16384) ⟨512 * (wL L).val + (y 1).val, run_lt L _ (y 1).isLt⟩)).toNat % 32768 := by
    unfold rowW; rw [hur]; exact andw_toNat _
  have hlane : (laneW d L U (ix1 (n := 512) ⟨(y 1).val, (y 1).isLt⟩)).toNat
      = 32 * ((m (uLoc d) (ix1 (n := 16384) ⟨512 * (wL L).val + (y 1).val, run_lt L _ (y 1).isLt⟩)).toNat / 32768) := by
    unfold laneW; rw [hur]; exact lanew_toNat _ hle
  have hv := Cert.Spec.rowOf_val_of_le hle
  have hy0 : (y 0).val < 32 := (y 0).isLt
  rw [← htw hOk (Cert.Spec.rowOf (m (uLoc d) (ix1 (n := 16384) ⟨512 * (wL L).val + (y 1).val, run_lt L _ (y 1).isLt⟩)))
    ⟨(y 0).val, (y 0).isLt⟩]
  unfold Gout
  show twc _ = twc _
  refine congrArg twc ?_
  funext a
  apply Fin.ext
  match a with
  | ⟨0, _⟩ =>
    show (rowW d L U (ix1 (n := 512) ⟨(y 1).val, (y 1).isLt⟩)).toNat % 32768 = _ % 32768
    rw [hrow, hv]; omega
  | ⟨1, _⟩ =>
    show ((laneW d L U (ix1 (n := 512) ⟨(y 1).val, (y 1).isLt⟩)).toNat + (y 0).val) % 128 = 32 * (_ / 32768) + (y 0).val
    rw [hlane, hv]; omega

end Final

section Gather
variable (d : Dev nD) (L : grid1.Coords)
variable (U : Buf (Elt F) ((thrV d L).loc cc1_scratch0)) (twc : Buf (Elt F) (twLoc d))

/-- The rows gathered for slab s: with the row words in the index scratch, row r of the gather of the packed table by the
    index scratch's positions [128 s, 128 (s + 1)) is the packed table's row named by id 128 s + r. -/
theorem gather_val (s : ℕ) (hs : s < 4) (g1 : Buf (Elt F) ((thrV d L).loc cc1_scratch1))
    (h1 : ∀ y, (sIdx).view.read (Elt F) g1 y = rowW d L U y)
    (inbR : ∀ a, (![128 * s] : Fin 1 → ℕ) a + S128.size a ≤ S512.size a)
    (R : Rect S512) (hoff : R = Rect.unit (s := S512) ![128 * s] S128.size inbR) (hR : ∀ a, R.stride a = 1)
    (hn : R.shape.numel = S128x128.size gathers_S32768x128_S128x128.axis')
    (hin : ∀ x, (((sIdx).slice R hR).view.read (Elt F) g1 x).toNat < S32768x128.size gathers_S32768x128_S128x128.axis)
    (y : S128x128.Idx) :
    SparseCore.gatherPayload gathers_S32768x128_S128x128
        (((aTW).slice (Rect.unit (s := S32768x128) ![0, 0] S32768x128.size inb_S32768x128_S32768x128_0_0) (fun _ => rfl)).view.read (Elt F) twc)
        (SparseCore.rows (((sIdx).slice R hR).view.read (Elt F) g1) hn hin) y
      = Grow d L U twc s y := by
  subst hoff
  have hy0 : (y 0).val < 128 := (y 0).isLt
  -- the position of the index scratch that names row (y 0) of the gather
  set x : (Rect.unit (s := S512) ![128 * s] S128.size inbR).shape.Idx :=
    (Rect.unit (s := S512) ![128 * s] S128.size inbR).shape.rowMajor.symm ((y 0).cast hn.symm) with hx
  have hx0 : (x 0).val = (y 0).val := by
    have e := congrArg Fin.val ((Rect.unit (s := S512) ![128 * s] S128.size inbR).shape.rowMajor.apply_symm_apply ((y 0).cast hn.symm))
    rw [← hx] at e
    rw [Shape.rowMajor_val_one] at e
    exact e
  have hidx : ((sIdx).slice (Rect.unit (s := S512) ![128 * s] S128.size inbR) hR).view.read (Elt F) g1 x
      = rowW d L U (ix1 (n := 512) (Fin.ofNat 512 (128 * s + (y 0).val))) := by
    show (sIdx).view.read (Elt F) g1 ((Rect.unit (s := S512) ![128 * s] S128.size inbR).emb x) = _
    rw [h1]
    refine congrArg (rowW d L U) ?_
    funext a
    obtain rfl : a = 0 := Subsingleton.elim _ _
    apply Fin.ext
    show 128 * s + 1 * (x 0).val = (128 * s + (y 0).val) % 512
    rw [hx0]; omega
  have hlt := hin x
  rw [hidx] at hlt
  unfold SparseCore.gatherPayload Grow twR
  show twc _ = twc _
  refine congrArg twc ?_
  funext a
  apply Fin.ext
  match a with
  | ⟨0, _⟩ =>
    show 0 + 1 * (((sIdx).slice (Rect.unit (s := S512) ![128 * s] S128.size inbR) hR).view.read (Elt F) g1 x).toNat
      = (rowW d L U (ix1 (n := 512) (Fin.ofNat 512 (128 * s + (y 0).val)))).toNat % 32768
    rw [hidx]
    have : (rowW d L U (ix1 (n := 512) (Fin.ofNat 512 (128 * s + (y 0).val)))).toNat < 32768 := hlt
    omega
  | ⟨1, _⟩ =>
    show 0 + 1 * (y 1).val = (y 1).val
    omega

end Gather

end Cert.Proof.KI

end
-- ==== Proof.KI.TileAuxVal2.lean ====
/-
  The copy of a worker's run of the ids into its id scratch, read at a position: the scratch written whole with the run
  holds, at position j, id number 512 w + j.
-/
import proofs.«217943_g20899310862962_cont_8to1_1374_33_alg».proof.Proof.KI.TileAuxVal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section CopyIn
variable (m : (ℓ : Loc nD τ sig) → Buf (Elt F) ℓ) (d : Dev nD) (L : grid1.Coords)

omit [FloatOps F] in
/-- The run of the ids copied into the id scratch: position j of the scratch holds id number 512 w + j. -/
theorem copy_val (f0 : Buf (Elt F) ((thrV d L).loc cc1_scratch0)) (hs : ∀ a, (uRect L).stride a = 1) (y : S512.Idx) :
    (sUid).view.read (Elt F)
        (View.write (Elt F) (sUid).view f0
          (ReadAs.same.apply (View.read (Elt F) ((aU).slice (uRect L) hs).view (m (uLoc d)))) Finset.univ) y
      = m (uLoc d) (ix1 (n := 16384) ⟨512 * (wL L).val + (y 0).val, run_lt L _ (y 0).isLt⟩) := by
  rw [View.read_write_of_mem _ _ (Finset.mem_univ y)]
  show m (uLoc d) ((uRect L).emb y) = _
  refine congrArg (m (uLoc d)) ?_
  funext a
  obtain rfl : a = 0 := Subsingleton.elim _ _
  apply Fin.ext
  show k1_off1 L 0 + 1 * (y 0).val = 512 * (wL L).val + (y 0).val
  rw [k1_off1_eq L]
  show 1024 * (L 1).val + 512 * (L 0).val + 1 * (y 0).val = 512 * (2 * (L 1).val + (L 0).val) + (y 0).val
  omega

end CopyIn

end Cert.Proof.KI

end
-- ==== Proof.KI.TileAuxVal3.lean ====
/-
  The four outgoing copies, read at an entry. The staged output [32, 512] leaves in four column slabs of 128: slab s is
  written onto columns [512 w + 128 s, 512 w + 128 (s + 1)) of the transposed output, every row. A column of the worker's
  run lies in exactly one slab, so after the four writes entry (dd, 512 w + j) holds what the staged output held at
  (dd, j) when slab j div 128 left.
-/
import proofs.«217943_g20899310862962_cont_8to1_1374_33_alg».proof.Proof.KI.TileAuxVal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section CopyOut
variable (m : (ℓ : Loc nD τ sig) → Buf (Elt F) ℓ) (d : Dev nD) (L : grid1.Coords)

omit [FloatOps F] in
/-- Where slab r of the worker's columns starts: column 512 w + 128 r. -/
theorem off36 (r : Fin 4) :
    k1_off36 L (BitVec.ofNat 32 (128 * r.val)) = ![0, 512 * (wL L).val + 128 * r.val] := by
  rw [k1_off36_eq L r]
  refine congrArg (fun x : ℕ => (![0, x] : Fin 2 → ℕ)) ?_
  show 1024 * (L 1).val + 512 * (L 0).val + 128 * r.val = 512 * (2 * (L 1).val + (L 0).val) + 128 * r.val
  omega

omit [FloatOps F] in
/-- One outgoing copy at a column of its slab: the entry takes what the staged output holds there. -/
theorem slab_hit (s : ℕ) (offS : Fin 2 → ℕ) (hoffS : offS = ![0, 128 * s])
    (inbS : ∀ a, offS a + S32x128.size a ≤ S32x512.size a)
    (hsS : ∀ a, (Rect.unit (s := S32x512) offS S32x128.size inbS).stride a = 1)
    (offO : Fin 2 → ℕ) (hoffO : offO = ![0, 512 * (wL L).val + 128 * s])
    (inbO : ∀ a, offO a + S32x128.size a ≤ S32x16384.size a)
    (hoO : ∀ a, (Rect.unit (s := S32x16384) offO S32x128.size inbO).stride a = 1)
    (f : Buf (Elt F) (oLoc d)) (fO : Buf (Elt F) ((thrV d L).loc cc1_scratch5))
    (dd : Fin 32) (j : Fin 512) (hlo : 128 * s ≤ j.val) (hhi : j.val < 128 * s + 128) :
    View.write (Elt F) ((aO).slice (Rect.unit (s := S32x16384) offO S32x128.size inbO) hoO).view f
        (ReadAs.same.apply (View.read (Elt F) ((sOut).slice (Rect.unit (s := S32x512) offS S32x128.size inbS) hsS).view fO))
        Finset.univ (ix2 (n0 := 32) (n1 := 16384) dd ⟨512 * (wL L).val + j.val, run_lt L _ j.isLt⟩)
      = (sOut).view.read (Elt F) fO (ix2 (n0 := 32) (n1 := 512) dd j) := by
  subst hoffS hoffO
  have e : ix2 (n0 := 32) (n1 := 16384) dd ⟨512 * (wL L).val + j.val, run_lt L _ j.isLt⟩
      = ((aO).slice (Rect.unit (s := S32x16384) ![0, 512 * (wL L).val + 128 * s] S32x128.size inbO) hoO).view.emb
          (ix2 (n0 := 32) (n1 := 128) dd ⟨j.val - 128 * s, by omega⟩) := by
    funext a
    apply Fin.ext
    match a with
    | ⟨0, _⟩ =>
      show dd.val = 0 + 1 * dd.val
      omega
    | ⟨1, _⟩ =>
      show 512 * (wL L).val + j.val = 512 * (wL L).val + 128 * s + 1 * (j.val - 128 * s)
      omega
  rw [e, View.write_emb_of_mem _ _ (Finset.mem_univ _)]
  refine (cast_eq _ _).trans ?_
  show (sOut).view.read (Elt F) fO ((Rect.unit (s := S32x512) ![0, 128 * s] S32x128.size inbS).emb
      (ix2 (n0 := 32) (n1 := 128) dd ⟨j.val - 128 * s, by omega⟩)) = _
  refine congrArg ((sOut).view.read (Elt F) fO) ?_
  funext a
  apply Fin.ext
  match a with
  | ⟨0, _⟩ =>
    show 0 + 1 * dd.val = dd.val
    omega
  | ⟨1, _⟩ =>
    show 128 * s + 1 * (j.val - 128 * s) = j.val
    omega

omit [FloatOps F] in
/-- One outgoing copy at a column of another slab: the entry is not touched. -/
theorem slab_miss (s : ℕ) (offS : Fin 2 → ℕ)
    (inbS : ∀ a, offS a + S32x128.size a ≤ S32x512.size a)
    (hsS : ∀ a, (Rect.unit (s := S32x512) offS S32x128.size inbS).stride a = 1)
    (offO : Fin 2 → ℕ) (hoffO : offO = ![0, 512 * (wL L).val + 128 * s])
    (inbO : ∀ a, offO a + S32x128.size a ≤ S32x16384.size a)
    (hoO : ∀ a, (Rect.unit (s := S32x16384) offO S32x128.size inbO).stride a = 1)
    (f : Buf (Elt F) (oLoc d)) (fO : Buf (Elt F) ((thrV d L).loc cc1_scratch5))
    (dd : Fin 32) (j : Fin 512) (hout : j.val < 128 * s ∨ 128 * s + 128 ≤ j.val) :
    View.write (Elt F) ((aO).slice (Rect.unit (s := S32x16384) offO S32x128.size inbO) hoO).view f
        (ReadAs.same.apply (View.read (Elt F) ((sOut).slice (Rect.unit (s := S32x512) offS S32x128.size inbS) hsS).view fO))
        Finset.univ (ix2 (n0 := 32) (n1 := 16384) dd ⟨512 * (wL L).val + j.val, run_lt L _ j.isLt⟩)
      = f (ix2 (n0 := 32) (n1 := 16384) dd ⟨512 * (wL L).val + j.val, run_lt L _ j.isLt⟩) := by
  subst hoffO
  refine View.write_of_not_mem _ _ _ ?_
  rw [View.setOn_univ]
  show ix2 (n0 := 32) (n1 := 16384) dd ⟨512 * (wL L).val + j.val, run_lt L _ j.isLt⟩
    ∉ ((View.whole main_v11_scv).slice (Rect.unit (s := S32x16384) ![0, 512 * (wL L).val + 128 * s] S32x128.size inbO)).set
  rw [View.set_slice_whole, Rect.mem_set_unit]
  intro h
  have h1 := h 1
  change 512 * (wL L).val + 128 * s ≤ 512 * (wL L).val + j.val
    ∧ 512 * (wL L).val + j.val < 512 * (wL L).val + 128 * s + 128 at h1
  omega

omit [FloatOps F] in
/-- After the four outgoing copies, entry (dd, 512 w + j) of the transposed output holds the staged output's entry (dd, j),
    each slab having held it when it left. -/
theorem out_val (fO0 fO1 fO2 fO3 : Buf (Elt F) ((thrV d L).loc cc1_scratch5)) (G : S32x512.Idx → Elt F .f32)
    (h0 : ∀ y : S32x512.Idx, (y 1).val < 128 → (sOut).view.read (Elt F) fO0 y = G y)
    (h1 : ∀ y : S32x512.Idx, (y 1).val < 256 → (sOut).view.read (Elt F) fO1 y = G y)
    (h2 : ∀ y : S32x512.Idx, (y 1).val < 384 → (sOut).view.read (Elt F) fO2 y = G y)
    (h3 : ∀ y : S32x512.Idx, (y 1).val < 512 → (sOut).view.read (Elt F) fO3 y = G y)
    (hs0 : ∀ a, (Rect.unit (s := S32x512) ![0, 0] S32x128.size inb_S32x512_S32x128_0_0).stride a = 1)
    (hs1 : ∀ a, (Rect.unit (s := S32x512) ![0, 128] S32x128.size inb_S32x512_S32x128_0_128).stride a = 1)
    (hs2 : ∀ a, (Rect.unit (s := S32x512) ![0, 256] S32x128.size inb_S32x512_S32x128_0_256).stride a = 1)
    (hs3 : ∀ a, (Rect.unit (s := S32x512) ![0, 384] S32x128.size inb_S32x512_S32x128_0_384).stride a = 1)
    (ho0 : ∀ a, (Rect.unit (s := S32x16384) (k1_off36 L 0#32) S32x128.size (k1_off36_inb L 0)).stride a = 1)
    (ho1 : ∀ a, (Rect.unit (s := S32x16384) (k1_off36 L 128#32) S32x128.size (k1_off36_inb L 1)).stride a = 1)
    (ho2 : ∀ a, (Rect.unit (s := S32x16384) (k1_off36 L 256#32) S32x128.size (k1_off36_inb L 2)).stride a = 1)
    (ho3 : ∀ a, (Rect.unit (s := S32x16384) (k1_off36 L 384#32) S32x128.size (k1_off36_inb L 3)).stride a = 1)
    (dd : Fin 32) (j : Fin 512) :
    View.write (Elt F) ((aO).slice (Rect.unit (s := S32x16384) (k1_off36 L 384#32) S32x128.size (k1_off36_inb L 3)) ho3).view
        (View.write (Elt F) ((aO).slice (Rect.unit (s := S32x16384) (k1_off36 L 256#32) S32x128.size (k1_off36_inb L 2)) ho2).view
          (View.write (Elt F) ((aO).slice (Rect.unit (s := S32x16384) (k1_off36 L 128#32) S32x128.size (k1_off36_inb L 1)) ho1).view
            (View.write (Elt F) ((aO).slice (Rect.unit (s := S32x16384) (k1_off36 L 0#32) S32x128.size (k1_off36_inb L 0)) ho0).view
              (m (oLoc d))
              (ReadAs.same.apply (View.read (Elt F) ((sOut).slice (Rect.unit (s := S32x512) ![0, 0] S32x128.size inb_S32x512_S32x128_0_0) hs0).view fO0))
              Finset.univ)
            (ReadAs.same.apply (View.read (Elt F) ((sOut).slice (Rect.unit (s := S32x512) ![0, 128] S32x128.size inb_S32x512_S32x128_0_128) hs1).view fO1))
            Finset.univ)
          (ReadAs.same.apply (View.read (Elt F) ((sOut).slice (Rect.unit (s := S32x512) ![0, 256] S32x128.size inb_S32x512_S32x128_0_256) hs2).view fO2))
          Finset.univ)
        (ReadAs.same.apply (View.read (Elt F) ((sOut).slice (Rect.unit (s := S32x512) ![0, 384] S32x128.size inb_S32x512_S32x128_0_384) hs3).view fO3))
        Finset.univ (ix2 (n0 := 32) (n1 := 16384) dd ⟨512 * (wL L).val + j.val, run_lt L _ j.isLt⟩)
      = G (ix2 (n0 := 32) (n1 := 512) dd j) := by
  have hj := j.isLt
  have o0 : k1_off36 L 0#32 = ![0, 512 * (wL L).val + 128 * 0] := off36 L 0
  have o1 : k1_off36 L 128#32 = ![0, 512 * (wL L).val + 128 * 1] := off36 L 1
  have o2 : k1_off36 L 256#32 = ![0, 512 * (wL L).val + 128 * 2] := off36 L 2
  have o3 : k1_off36 L 384#32 = ![0, 512 * (wL L).val + 128 * 3] := off36 L 3
  by_cases c3 : 384 ≤ j.val
  · rw [slab_hit d L 3 _ rfl _ hs3 _ o3 _ ho3 _ fO3 dd j (by omega) (by omega)]
    exact h3 _ (by show j.val < 512; omega)
  rw [slab_miss d L 3 _ _ hs3 _ o3 _ ho3 _ fO3 dd j (by omega)]
  by_cases c2 : 256 ≤ j.val
  · rw [slab_hit d L 2 _ rfl _ hs2 _ o2 _ ho2 _ fO2 dd j (by omega) (by omega)]
    exact h2 _ (by show j.val < 384; omega)
  rw [slab_miss d L 2 _ _ hs2 _ o2 _ ho2 _ fO2 dd j (by omega)]
  by_cases c1 : 128 ≤ j.val
  · rw [slab_hit d L 1 _ rfl _ hs1 _ o1 _ ho1 _ fO1 dd j (by omega) (by omega)]
    exact h1 _ (by show j.val < 256; omega)
  rw [slab_miss d L 1 _ _ hs1 _ o1 _ ho1 _ fO1 dd j (by omega)]
  rw [slab_hit d L 0 _ rfl _ hs0 _ o0 _ ho0 _ fO0 dd j (by omega) (by omega)]
  exact h0 _ (by show j.val < 128; omega)

end CopyOut

end Cert.Proof.KI

end
-- ==== Proof.KI.TileAuxVal4.lean ====
/-
  A worker's columns of the transposed output after its task. The id scratch holds the worker's run of the ids; each
  slab of the staged output, when it leaves, holds on the columns filled so far the packed table at each id's row and
  lanes; the packed table holds the projections. So after the four outgoing copies, entry (dd, r) of the worker's
  columns is the projection, at feature dd, of the table row that id r names.
-/
import proofs.«217943_g20899310862962_cont_8to1_1374_33_alg».proof.Proof.KI.TileAuxVal2
import proofs.«217943_g20899310862962_cont_8to1_1374_33_alg».proof.Proof.KI.TileAuxVal3

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Out
variable (m : (ℓ : Loc nD τ sig) → Buf (Elt F) ℓ) (pv : Fin 100001 → Fin 32 → F .f32) (Ok : Prop)
variable (d : Dev nD) (L : grid1.Coords)

/-- The worker's columns hold the looked-up projections. -/
theorem out_ok (f0 : Buf (Elt F) ((thrV d L).loc cc1_scratch0)) (twc : Buf (Elt F) (twLoc d))
    (fO0 fO1 fO2 fO3 : Buf (Elt F) ((thrV d L).loc cc1_scratch5))
    (hpre : PreOK m) (htw : TWok pv Ok d twc) (hsU : ∀ a, (uRect L).stride a = 1)
    (h0 : ∀ y : S32x512.Idx, (y 1).val < 128 → (sOut).view.read (Elt F) fO0 y = Gout d L (View.write (Elt F) (sUid).view f0 (ReadAs.same.apply (View.read (Elt F) ((aU).slice (uRect L) hsU).view (m (uLoc d)))) Finset.univ) twc y)
    (h1 : ∀ y : S32x512.Idx, (y 1).val < 256 → (sOut).view.read (Elt F) fO1 y = Gout d L (View.write (Elt F) (sUid).view f0 (ReadAs.same.apply (View.read (Elt F) ((aU).slice (uRect L) hsU).view (m (uLoc d)))) Finset.univ) twc y)
    (h2 : ∀ y : S32x512.Idx, (y 1).val < 384 → (sOut).view.read (Elt F) fO2 y = Gout d L (View.write (Elt F) (sUid).view f0 (ReadAs.same.apply (View.read (Elt F) ((aU).slice (uRect L) hsU).view (m (uLoc d)))) Finset.univ) twc y)
    (h3 : ∀ y : S32x512.Idx, (y 1).val < 512 → (sOut).view.read (Elt F) fO3 y = Gout d L (View.write (Elt F) (sUid).view f0 (ReadAs.same.apply (View.read (Elt F) ((aU).slice (uRect L) hsU).view (m (uLoc d)))) Finset.univ) twc y)
    (hs0 : ∀ a, (Rect.unit (s := S32x512) ![0, 0] S32x128.size inb_S32x512_S32x128_0_0).stride a = 1)
    (hs1 : ∀ a, (Rect.unit (s := S32x512) ![0, 128] S32x128.size inb_S32x512_S32x128_0_128).stride a = 1)
    (hs2 : ∀ a, (Rect.unit (s := S32x512) ![0, 256] S32x128.size inb_S32x512_S32x128_0_256).stride a = 1)
    (hs3 : ∀ a, (Rect.unit (s := S32x512) ![0, 384] S32x128.size inb_S32x512_S32x128_0_384).stride a = 1)
    (ho0 : ∀ a, (Rect.unit (s := S32x16384) (k1_off36 L 0#32) S32x128.size (k1_off36_inb L 0)).stride a = 1)
    (ho1 : ∀ a, (Rect.unit (s := S32x16384) (k1_off36 L 128#32) S32x128.size (k1_off36_inb L 1)).stride a = 1)
    (ho2 : ∀ a, (Rect.unit (s := S32x16384) (k1_off36 L 256#32) S32x128.size (k1_off36_inb L 2)).stride a = 1)
    (ho3 : ∀ a, (Rect.unit (s := S32x16384) (k1_off36 L 384#32) S32x128.size (k1_off36_inb L 3)).stride a = 1) :
    OutOkOn m pv Ok d (wL L)
      (View.write (Elt F) ((aO).slice (Rect.unit (s := S32x16384) (k1_off36 L 384#32) S32x128.size (k1_off36_inb L 3)) ho3).view
        (View.write (Elt F) ((aO).slice (Rect.unit (s := S32x16384) (k1_off36 L 256#32) S32x128.size (k1_off36_inb L 2)) ho2).view
          (View.write (Elt F) ((aO).slice (Rect.unit (s := S32x16384) (k1_off36 L 128#32) S32x128.size (k1_off36_inb L 1)) ho1).view
            (View.write (Elt F) ((aO).slice (Rect.unit (s := S32x16384) (k1_off36 L 0#32) S32x128.size (k1_off36_inb L 0)) ho0).view
              (m (oLoc d))
              (ReadAs.same.apply (View.read (Elt F) ((sOut).slice (Rect.unit (s := S32x512) ![0, 0] S32x128.size inb_S32x512_S32x128_0_0) hs0).view fO0))
              Finset.univ)
            (ReadAs.same.apply (View.read (Elt F) ((sOut).slice (Rect.unit (s := S32x512) ![0, 128] S32x128.size inb_S32x512_S32x128_0_128) hs1).view fO1))
            Finset.univ)
          (ReadAs.same.apply (View.read (Elt F) ((sOut).slice (Rect.unit (s := S32x512) ![0, 256] S32x128.size inb_S32x512_S32x128_0_256) hs2).view fO2))
          Finset.univ)
        (ReadAs.same.apply (View.read (Elt F) ((sOut).slice (Rect.unit (s := S32x512) ![0, 384] S32x128.size inb_S32x512_S32x128_0_384) hs3).view fO3))
        Finset.univ : Buf (Elt F) (oLoc d)) := by
  intro hOk dd r hr
  have hw := (wL L).isLt
  obtain ⟨j, hjr⟩ : ∃ j : Fin 512, r.val = 512 * (wL L).val + j.val :=
    ⟨⟨r.val - 512 * (wL L).val, by omega⟩, by show r.val = 512 * (wL L).val + (r.val - 512 * (wL L).val); omega⟩
  have er : (⟨512 * (wL L).val + j.val, run_lt L _ j.isLt⟩ : Fin 16384) = r := Fin.ext hjr.symm
  have key := out_val m d L fO0 fO1 fO2 fO3 (Gout d L (View.write (Elt F) (sUid).view f0 (ReadAs.same.apply (View.read (Elt F) ((aU).slice (uRect L) hsU).view (m (uLoc d)))) Finset.univ) twc) h0 h1 h2 h3 hs0 hs1 hs2 hs3 ho0 ho1 ho2 ho3 dd j
  rw [er] at key
  refine key.trans ?_
  rw [gout_pv m pv Ok d L (View.write (Elt F) (sUid).view f0 (ReadAs.same.apply (View.read (Elt F) ((aU).slice (uRect L) hsU).view (m (uLoc d)))) Finset.univ) twc hpre htw hOk (fun y => copy_val m d L f0 hsU y) (ix2 (n0 := 32) (n1 := 512) dd j)]
  show pv (Cert.Spec.rowOf (m (uLoc d) (ix1 (n := 16384) ⟨512 * (wL L).val + j.val, run_lt L _ j.isLt⟩))) dd = _
  rw [er]

end Out

end Cert.Proof.KI

end
-- ==== Proof.KI.TileAuxRJoin.lean ====
/-
  The staged output scratch, given back whole. At the end of the task the [32, 512] scratch is held in four pieces: its
  first three [32, 128] column windows, each at the contents its outgoing copy left, and the rest (the fourth window's
  columns). Windows at different column offsets do not meet, so each window lies in what remains once the earlier ones
  are taken out; joining the pieces innermost first gives the scratch whole at the contents pieced together.
-/
import proofs.«217943_g20899310862962_cont_8to1_1374_33_alg».proof.Proof.KI.TileSets
import Idealize.ShloMosaic.Rules.PointsTo
import Idealize.ShloMosaic.Lib.Exec.Geometry

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The first three column windows of the staged output, as rectangles of the scratch. -/
abbrev oWin0 : Rect S32x512 := Rect.unit (s := S32x512) ![0, 0] S32x128.size inb_S32x512_S32x128_0_0
abbrev oWin1 : Rect S32x512 := Rect.unit (s := S32x512) ![0, 128] S32x128.size inb_S32x512_S32x128_0_128
abbrev oWin2 : Rect S32x512 := Rect.unit (s := S32x512) ![0, 256] S32x128.size inb_S32x512_S32x128_0_256

/-- A window's elements are the scratch's elements in the window's rectangle. -/
theorem oWin_set (r : Rect S32x512) (h : ∀ a, r.stride a = 1) :
    ((sOut).slice r h).view.set = (sOut).view.setOn r.set := by
  show ((sOut).view.slice r).set = _
  rw [View.set_slice]
  rfl

/-- Windows at different column offsets do not meet. -/
theorem oWin10_disj (h1 : ∀ a, oWin1.stride a = 1) (h0 : ∀ a, oWin0.stride a = 1) :
    Disjoint ((sOut).slice oWin1 h1).view.set ((sOut).slice oWin0 h0).view.set :=
  View.disjoint_of_boxes (sOut).view oWin1.toLoadRect oWin0.toLoadRect (subset_of_eq (oWin_set _ _)) (subset_of_eq (oWin_set _ _)) 1
    (Or.inr (Or.inr (by show 0 + 1 * (128 - 1) < 128; omega)))
theorem oWin20_disj (h2 : ∀ a, oWin2.stride a = 1) (h0 : ∀ a, oWin0.stride a = 1) :
    Disjoint ((sOut).slice oWin2 h2).view.set ((sOut).slice oWin0 h0).view.set :=
  View.disjoint_of_boxes (sOut).view oWin2.toLoadRect oWin0.toLoadRect (subset_of_eq (oWin_set _ _)) (subset_of_eq (oWin_set _ _)) 1
    (Or.inr (Or.inr (by show 0 + 1 * (128 - 1) < 256; omega)))
theorem oWin21_disj (h2 : ∀ a, oWin2.stride a = 1) (h1 : ∀ a, oWin1.stride a = 1) :
    Disjoint ((sOut).slice oWin2 h2).view.set ((sOut).slice oWin1 h1).view.set :=
  View.disjoint_of_boxes (sOut).view oWin2.toLoadRect oWin1.toLoadRect (subset_of_eq (oWin_set _ _)) (subset_of_eq (oWin_set _ _)) 1
    (Or.inr (Or.inr (by show 128 + 1 * (128 - 1) < 256; omega)))

/-- The four pieces of the staged output make it whole, at some contents. -/
theorem sOut_rejoin (d : Dev nD) (L : grid1.Coords) (f0 f1 f2 f3 : Buf (Elt F) ((thrV d L).loc cc1_scratch5)) :
    (iprop(
        (((sOut).slice (Rect.unit (s := S32x512) ![0, 0] S32x128.size inb_S32x512_S32x128_0_0) (fun _ => rfl)).view.loc (thrV d L)
          ↦[((sOut).slice (Rect.unit (s := S32x512) ![0, 0] S32x128.size inb_S32x512_S32x128_0_0) (fun _ => rfl)).view.set]{fullShare} f0)
      ∗ (((sOut).slice (Rect.unit (s := S32x512) ![0, 128] S32x128.size inb_S32x512_S32x128_0_128) (fun _ => rfl)).view.loc (thrV d L)
          ↦[((sOut).slice (Rect.unit (s := S32x512) ![0, 128] S32x128.size inb_S32x512_S32x128_0_128) (fun _ => rfl)).view.set]{fullShare} f1)
      ∗ (((sOut).slice (Rect.unit (s := S32x512) ![0, 256] S32x128.size inb_S32x512_S32x128_0_256) (fun _ => rfl)).view.loc (thrV d L)
          ↦[((sOut).slice (Rect.unit (s := S32x512) ![0, 256] S32x128.size inb_S32x512_S32x128_0_256) (fun _ => rfl)).view.set]{fullShare} f2)
      ∗ ((sOut).view.loc (thrV d L)
          ↦[((Finset.univ \ ((sOut).slice (Rect.unit (s := S32x512) ![0, 0] S32x128.size inb_S32x512_S32x128_0_0) (fun _ => rfl)).view.set)
              \ ((sOut).slice (Rect.unit (s := S32x512) ![0, 128] S32x128.size inb_S32x512_S32x128_0_128) (fun _ => rfl)).view.set)
              \ ((sOut).slice (Rect.unit (s := S32x512) ![0, 256] S32x128.size inb_S32x512_S32x128_0_256) (fun _ => rfl)).view.set]{fullShare} f3))
      : sProp 𝕄)
      ⊢ iprop(∃ f, (thrV d L).loc cc1_scratch5 ↦{fullShare} f) := by
  have h2 : ((sOut).slice oWin2 (fun _ => rfl)).view.set
      ⊆ (Finset.univ \ ((sOut).slice oWin0 (fun _ => rfl)).view.set) \ ((sOut).slice oWin1 (fun _ => rfl)).view.set :=
    Finset.subset_sdiff.mpr ⟨Finset.subset_sdiff.mpr ⟨Finset.subset_univ _, oWin20_disj _ _⟩, oWin21_disj _ _⟩
  have h1 : ((sOut).slice oWin1 (fun _ => rfl)).view.set ⊆ Finset.univ \ ((sOut).slice oWin0 (fun _ => rfl)).view.set :=
    Finset.subset_sdiff.mpr ⟨Finset.subset_univ _, oWin10_disj _ _⟩
  have h0 : ((sOut).slice oWin0 (fun _ => rfl)).view.set ⊆ (Finset.univ : Finset (sOut).view.ty.Idx) := Finset.subset_univ _
  iintro ⟨H0, H1, H2, H3⟩
  ihave H23 := (pointsTo_join_subset (ℓ := (sOut).view.loc (thrV d L)) (q := fullShare) (g := f2) (f := f3) h2) $$ [H2 H3]
  · isplitl [H2]
    · iexact H2
    · iexact H3
  ihave H123 := (pointsTo_join_subset (ℓ := (sOut).view.loc (thrV d L)) (q := fullShare) (g := f1) h1) $$ [H1 H23]
  · isplitl [H1]
    · iexact H1
    · iexact H23
  ihave H := (pointsTo_join_subset (ℓ := (sOut).view.loc (thrV d L)) (q := fullShare) (g := f0) h0) $$ [H0 H123]
  · isplitl [H0]
    · iexact H0
    · iexact H123
  iexists _
  iexact H

end Cert.Proof.KI

end
-- ==== Proof.KI.TileBody.lean ====
/-
  The body of the lookup's SparseCore task, run once at a symbolic (device, SparseCore, vector subcore). The task
  copies its run of 512 ids into scratch, computes each id's row and lane words (loop 1), gathers the packed table's
  rows 128 at a time into two row buffers in turn (gathers s = 0..3, two in flight), and for each slab s extracts
  from the gathered rows the 32 projected features of its 128 ids into columns 128 s .. 128 s + 127 of the staged
  output (loops 2..5), which it then copies out to its columns of the transposed output; the four outgoing copies
  share one semaphore and are waited for at the very end, the later loops writing other columns only. The values are
  carried in the loops' invariants; the last step reads the output's columns off the four landed copies.
-/
import proofs.«217943_g20899310862962_cont_8to1_1374_33_alg».proof.Proof.KI.TileTrip1
import proofs.«217943_g20899310862962_cont_8to1_1374_33_alg».proof.Proof.KI.TileTripE0
import proofs.«217943_g20899310862962_cont_8to1_1374_33_alg».proof.Proof.KI.TileInv
import proofs.«217943_g20899310862962_cont_8to1_1374_33_alg».proof.Proof.KI.TileAuxVal4
import proofs.«217943_g20899310862962_cont_8to1_1374_33_alg».proof.Proof.KI.TileAuxRJoin
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (pv : Fin 100001 → Fin 32 → F .f32) (Ok : Prop)
variable [FloatOps F]

section Tile
variable (d : Dev nD) (L : grid1.Coords)

omit [FloatOps F] in
theorem pts_s0 (f : Buf (Elt F) ((thrV d L).loc cc1_scratch0)) : ((sUid).view.loc (thrV d L) ↦{fullShare} f : sProp 𝕄) = (thrV d L).loc cc1_scratch0 ↦{fullShare} f := rfl
omit [FloatOps F] in
theorem pts_s1 (f : Buf (Elt F) ((thrV d L).loc cc1_scratch1)) : ((sIdx).view.loc (thrV d L) ↦{fullShare} f : sProp 𝕄) = (thrV d L).loc cc1_scratch1 ↦{fullShare} f := rfl
omit [FloatOps F] in
theorem pts_s2 (f : Buf (Elt F) ((thrV d L).loc cc1_scratch2)) : ((sLane).view.loc (thrV d L) ↦{fullShare} f : sProp 𝕄) = (thrV d L).loc cc1_scratch2 ↦{fullShare} f := rfl
omit [FloatOps F] in
theorem pts_s3 (f : Buf (Elt F) ((thrV d L).loc cc1_scratch3)) : ((sRA).view.loc (thrV d L) ↦{fullShare} f : sProp 𝕄) = (thrV d L).loc cc1_scratch3 ↦{fullShare} f := rfl
omit [FloatOps F] in
theorem pts_s4 (f : Buf (Elt F) ((thrV d L).loc cc1_scratch4)) : ((sRB).view.loc (thrV d L) ↦{fullShare} f : sProp 𝕄) = (thrV d L).loc cc1_scratch4 ↦{fullShare} f := rfl
omit [FloatOps F] in
theorem pts_s5 (f : Buf (Elt F) ((thrV d L).loc cc1_scratch5)) : ((sOut).view.loc (thrV d L) ↦{fullShare} f : sProp 𝕄) = (thrV d L).loc cc1_scratch5 ↦{fullShare} f := rfl

omit [FloatOps F] in
/-- Two read tokens of a read share, for the two gather semaphores (cells 12 and 13), the rest let go. -/
theorem tw_toks (q : PosShare TreeShare) (twc : Buf (Elt F) (twLoc d)) :
    ((aTW).view.loc (thrV d L) ↦{q} twc : sProp 𝕄)
      ⊢ iprop(((aTW).view.loc (thrV d L) ↦{Transfers.shareTokN q 12} twc) ∗ ((aTW).view.loc (thrV d L) ↦{Transfers.shareTokN q 13} twc)) := by
  refine BIBase.Entails.trans ?_ (Entails.of_eq (show iprop((((aTW).view.loc (thrV d L) ↦{(Transfers.shareDrop q 12).right} twc : sProp 𝕄))
      ∗ ((aTW).view.loc (thrV d L) ↦{((Transfers.shareDrop q 12).left).right} twc)) = _ from rfl))
  iintro H
  ihave H' := (Transfers.pointsTo_toks_range (Ix := HIx 1) (Name := ℕ) (U := UU) (Lvl := ℕ) q 12).1 $$ H
  icases H' with ⟨Hd, -⟩
  ihave H2 := (pointsTo_share (PosShare.mem_left_op_right (Transfers.shareDrop q 12))).1 $$ Hd
  icases H2 with ⟨Hd, H12⟩
  ihave H3 := (pointsTo_share (PosShare.mem_left_op_right ((Transfers.shareDrop q 12).left))).1 $$ Hd
  icases H3 with ⟨-, H13⟩
  isplitl [H12]; · iexact H12
  iexact H13

/-- After a gather of slab `s` landed in a rows buffer (the last write, of the whole buffer), row r of the buffer is the
    packed table's row named by id 128 s + r, whatever the buffer held before. -/
theorem gather_read (U : Buf (Elt F) ((thrV d L).loc cc1_scratch0)) (twc : Buf (Elt F) (twLoc d)) (s : ℕ) (hs : s < 4)
    (B : Memref sig .scVector .vmem S128x128 .f32) (f : Buf (Elt F) (B.view.loc (thrV d L)))
    (Lr : List (View.Piece (Elt F) S128x128 .f32))
    (g1 : Buf (Elt F) ((thrV d L).loc cc1_scratch1)) (h1 : ∀ y, (sIdx).view.read (Elt F) g1 y = rowW d L U y)
    (inbR : ∀ a, (![128 * s] : Fin 1 → ℕ) a + S128.size a ≤ S512.size a)
    (hR : ∀ a, (Rect.unit (s := S512) ![128 * s] S128.size inbR).stride a = 1)
    (hn : (Rect.unit (s := S512) ![128 * s] S128.size inbR).shape.numel = S128x128.size gathers_S32768x128_S128x128.axis')
    (hin : ∀ x, (((sIdx).slice (Rect.unit (s := S512) ![128 * s] S128.size inbR) hR).view.read (Elt F) g1 x).toNat < S32768x128.size gathers_S32768x128_S128x128.axis)
    (y : S128x128.Idx) :
    B.view.read (Elt F) (B.view.writes (Elt F) f (⟨Rect.whole S128x128,
        SparseCore.gatherPayload gathers_S32768x128_S128x128
          (((aTW).slice (Rect.unit (s := S32768x128) ![0, 0] S32768x128.size inb_S32768x128_S32768x128_0_0) (fun _ => rfl)).view.read (Elt F) twc)
          (SparseCore.rows (((sIdx).slice (Rect.unit (s := S512) ![128 * s] S128.size inbR) hR).view.read (Elt F) g1) hn hin)⟩ :: Lr)) y
      = Grow d L U twc s y := by
  refine Eq.trans ?_ (gather_val d L U twc s hs g1 h1 inbR _ rfl hR hn hin y)
  have e := View.read_writes_cons_emb B.view f (Rect.whole S128x128) (SparseCore.gatherPayload gathers_S32768x128_S128x128
          (((aTW).slice (Rect.unit (s := S32768x128) ![0, 0] S32768x128.size inb_S32768x128_S32768x128_0_0) (fun _ => rfl)).view.read (Elt F) twc)
          (SparseCore.rows (((sIdx).slice (Rect.unit (s := S512) ![128 * s] S128.size inbR) hR).view.read (Elt F) g1) hn hin)) Lr y
  rwa [Rect.emb_whole_apply] at e

/-- One trip of the loop over slab 1 keeps its invariant (the statement of the trip's triple). -/
def TripE1 : Prop :=
  ∀ (U : Buf (Elt F) ((thrV d L).loc cc1_scratch0)) (twc : Buf (Elt F) (twLoc d)) (v2 : BitVec 32) (k : Fin k1_t3_loop.trips)
    (fL : Buf (Elt F) ((thrV d L).loc cc1_scratch2)) (fR : Buf (Elt F) ((thrV d L).loc cc1_scratch4)),
    (∀ y, (sLane).view.read (Elt F) fL y = laneW d L U y) → (∀ y, (laneW d L U y).toNat ≤ 96) →
    (∀ y, (sRB).view.read (Elt F) fR y = Grow d L U twc 1 y) →
    (invE1 d L U twc fL fR k.val ()
      ⊢ wp frame (wpE (defs₀ (F := F)) 𝒱₀ (thrV d L) none) Set.univ
          (k1_t3_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE1 d L U twc fL fR (k.val + 1)))

/-- One trip of the loop over slab 2 keeps its invariant (the statement of the trip's triple). -/
def TripE2 : Prop :=
  ∀ (U : Buf (Elt F) ((thrV d L).loc cc1_scratch0)) (twc : Buf (Elt F) (twLoc d)) (v2 : BitVec 32) (k : Fin k1_t4_loop.trips)
    (fL : Buf (Elt F) ((thrV d L).loc cc1_scratch2)) (fR : Buf (Elt F) ((thrV d L).loc cc1_scratch3)),
    (∀ y, (sLane).view.read (Elt F) fL y = laneW d L U y) → (∀ y, (laneW d L U y).toNat ≤ 96) →
    (∀ y, (sRA).view.read (Elt F) fR y = Grow d L U twc 2 y) →
    (invE2 d L U twc fL fR k.val ()
      ⊢ wp frame (wpE (defs₀ (F := F)) 𝒱₀ (thrV d L) none) Set.univ
          (k1_t4_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE2 d L U twc fL fR (k.val + 1)))

/-- One trip of the loop over slab 3 keeps its invariant (the statement of the trip's triple). -/
def TripE3 : Prop :=
  ∀ (U : Buf (Elt F) ((thrV d L).loc cc1_scratch0)) (twc : Buf (Elt F) (twLoc d)) (v2 : BitVec 32) (k : Fin k1_t5_loop.trips)
    (fL : Buf (Elt F) ((thrV d L).loc cc1_scratch2)) (fR : Buf (Elt F) ((thrV d L).loc cc1_scratch4)),
    (∀ y, (sLane).view.read (Elt F) fL y = laneW d L U y) → (∀ y, (laneW d L U y).toNat ≤ 96) →
    (∀ y, (sRB).view.read (Elt F) fR y = Grow d L U twc 3 y) →
    (invE3 d L U twc fL fR k.val ()
      ⊢ wp frame (wpE (defs₀ (F := F)) 𝒱₀ (thrV d L) none) Set.univ
          (k1_t5_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE3 d L U twc fL fR (k.val + 1)))

set_option maxHeartbeats 4000000 in
/-- The task of the vector subcore at grid point `L` of device `d`: from its read share of the packed table, its run of
    the ids and its columns of the transposed output, it ends with the ids unchanged and its columns holding the
    looked-up projections, its scratch buffers and semaphores given back. -/
theorem tile_body_of (hE1 : TripE1 (F := F) d L) (hE2 : TripE2 (F := F) d L) (hE3 : TripE3 (F := F) d L) (hF : (K (F := F)).Facts) (hpre : PreOK m) (O : CellTallies nD τ sig (HIx 1)) (W : Waits sig (HIx 1)) (hO : ∀ g, O g none = 0) :
    iprop(levAts (K (F := F)).L (K (F := F)).lev ∗ emp ∗ goW m pv Ok d (wL L)
        ∗ scopedBufs (thrV d L) ∗ scopedSems0 (thrV d L) ∗ owes (thrV d L) O W)
      ⊢ wp frame (wpE (defs₀ (F := F)) 𝒱₀ (thrV d L) none) Set.univ
          (cc1_gather_kernel L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0)
          fun _ => iprop(tdW m pv Ok d (wL L) ∗ scopedBufs (thrV d L) ∗ scopedSems0 (thrV d L)
            ∗ ∃ W', ⌜∀ p ∈ W', p ∈ W ∨ p.2 = none⌝ ∗ owes (thrV d L) O W') := by
  simp only [cc1_gather_kernel_eq_skeleton]; unfold cc1_gather_kernel_skel
  simp only [k1_part25_eq_skeleton, k1_part26_eq_skeleton, k1_part27_eq_skeleton]
  rw [(K (F := F)).scopedBufs_V hF d (cV L) (jV L), SparseCore.Cfg.scopedSems0_V (Val := Elt F) d (cV L) (jV L), ownSems0_V, ownBufs_V]
  unfold goW tdW
  iintro ⟨#Hlv, -, ⟨⟨%twc, %htw, Htw⟩, Hu, Ho⟩, ⟨⟨%f0, H0⟩, ⟨%f1, H1⟩, ⟨%f2, H2⟩, ⟨%f3, H3⟩, ⟨%f4, H4⟩, ⟨%f5, H5⟩, Hbufs⟩, ⟨S6, S7, S8, S0, Hsems⟩, HO⟩
  ihave Hmw := ((K (F := F)).mayWaits_none (thr := thrV d L) hO) $$ Hlv
  ihave Htw' := (Entails.of_eq (pts_tw (F := F) d L _ _).symm) $$ Htw
  ihave Hu' := (Entails.of_eq (pts_u (F := F) d L _).symm) $$ Hu
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave H5' := (Entails.of_eq (pts_s5 (F := F) d L _).symm) $$ H5
  have plan : Transfers.BatchOf (thrV d L) (SemLoc.dma (sig := sig) cc1_scratch8.sem) 4 (windows := true) := trivial
  sl_exec
  sl_for (inv1 d L _) $$ [H0' H1' H2']
  pick_goal 2

  · unfold inv1
    isplitl [H0']; · iexact H0'
    isplitl [H1']
    · iexists _; isplitl [H1']; · iexact H1'
      ipureintro; intro y hy; exact absurd hy (by omega)
    · iexists _; isplitl [H2']; · iexact H2'
      ipureintro; intro y hy; exact absurd hy (by omega)
  case region => intro k acc; exact trip1 (F := F) d L _ k
  iintro %_ HI
  unfold inv1
  icases HI with ⟨H0, ⟨%g1, H1, %h1⟩, ⟨%g2, H2, %h2⟩⟩
  have htr1 : Scf.trips k1_t1_loop.lb k1_t1_loop.ub k1_t1_loop.st = 32 := by decide
  have htr2 : Scf.trips k1_t2_loop.lb k1_t2_loop.ub k1_t2_loop.st = 8 := by decide
  have htr3 : Scf.trips k1_t3_loop.lb k1_t3_loop.ub k1_t3_loop.st = 8 := by decide
  have htr4 : Scf.trips k1_t4_loop.lb k1_t4_loop.ub k1_t4_loop.st = 8 := by decide
  have htr5 : Scf.trips k1_t5_loop.lb k1_t5_loop.ub k1_t5_loop.st = 8 := by decide
  let U0 : Buf (Elt F) ((thrV d L).loc cc1_scratch0) :=
    View.write (Elt F) (sUid).view f0 (ReadAs.same.apply (View.read (Elt F) ((aU).slice (uRect L) (fun _ => rfl)).view (m (uLoc d)))) Finset.univ
  have hU : ∀ y : S512.Idx, (sUid).view.read (Elt F) U0 y = m (uLoc d) (ix1 (n := 16384) ⟨512 * (wL L).val + (y 0).val, run_lt L _ (y 0).isLt⟩) :=
    copy_val m d L f0 (fun _ => rfl)
  have h1' : ∀ y, (sIdx).view.read (Elt F) g1 y = rowW d L U0 y := fun y => h1 y (by rw [htr1]; have : (y 0).val < 512 := (y 0).isLt; omega)
  have h2' : ∀ y, (sLane).view.read (Elt F) g2 y = laneW d L U0 y := fun y => h2 y (by rw [htr1]; have : (y 0).val < 512 := (y 0).isLt; omega)
  have hLb : ∀ y : S512.Idx, (laneW d L U0 y).toNat ≤ 96 := lane_le m d L U0 hpre hU
  have hin : ∀ (R : Rect S512) (hR : ∀ a, R.stride a = 1) (x : R.shape.Idx), (((sIdx).slice R hR).view.read (Elt F) g1 x).toNat < S32768x128.size gathers_S32768x128_S128x128.axis := by
    intro R hR x
    have e : ((sIdx).slice R hR).view.read (Elt F) g1 x = (sIdx).view.read (Elt F) g1 (R.emb x) := rfl
    rw [e, h1']
    show (IntOp.andi _ 32767#32).toNat < 32768
    rw [andw_toNat]
    exact Nat.mod_lt _ (by decide)
  ihave Htok := (tw_toks (F := F) d L _ _) $$ Htw'
  icases Htok with ⟨Htw12, Htw13⟩
  sl_exec
  sl_for (invE0 d L U0 twc _ _) $$ [H2 H3' H5']
  pick_goal 2
  · unfold invE0
    isplitl [H2]; · iexact H2
    isplitl [H3']; · iexact H3'
    iexists _; isplitl [H5']; · iexact H5'
    ipureintro; intro y hy
    exact absurd hy (by omega)
  case region =>
    intro k acc
    exact tripE0 (F := F) d L U0 twc 0#32 k _ _ h2' hLb (fun y => gather_read (F := F) d L U0 twc 0 (by omega) _ _ _ g1 h1' _ _ _ _ y)
  iintro %_ HI
  unfold invE0
  icases HI with ⟨HL0, HR0, ⟨%fO0, HOut0, %hO0⟩⟩
  sl_exec
  sl_for (invE1 d L U0 twc _ _) $$ [HL0 H4' HOut0]
  pick_goal 2
  · unfold invE1
    isplitl [HL0]; · iexact HL0
    isplitl [H4']; · iexact H4'
    iexists _; isplitl [HOut0]; · iexact HOut0
    ipureintro; intro y hy
    exact hO0 y (by rw [htr2]; omega)
  case region =>
    intro k acc
    exact hE1 U0 twc _ k _ _ h2' hLb (fun y => gather_read (F := F) d L U0 twc 1 (by omega) _ _ _ g1 h1' _ _ _ _ y)
  iintro %_ HI
  unfold invE1
  icases HI with ⟨HL1, HR1, ⟨%fO1, HOut1, %hO1⟩⟩
  sl_exec
  sl_for (invE2 d L U0 twc _ _) $$ [HL1 HR0 HOut1]
  pick_goal 2
  · unfold invE2
    isplitl [HL1]; · iexact HL1
    isplitl [HR0]; · iexact HR0
    iexists _; isplitl [HOut1]; · iexact HOut1
    ipureintro; intro y hy
    exact hO1 y (by rw [htr3]; omega)
  case region =>
    intro k acc
    exact hE2 U0 twc _ k _ _ h2' hLb (fun y => gather_read (F := F) d L U0 twc 2 (by omega) _ _ _ g1 h1' _ _ _ _ y)
  iintro %_ HI
  unfold invE2
  icases HI with ⟨HL2, HR2, ⟨%fO2, HOut2, %hO2⟩⟩
  sl_exec
  sl_for (invE3 d L U0 twc _ _) $$ [HL2 HR1 HOut2]
  pick_goal 2
  · unfold invE3
    isplitl [HL2]; · iexact HL2
    isplitl [HR1]; · iexact HR1
    iexists _; isplitl [HOut2]; · iexact HOut2
    ipureintro; intro y hy
    exact hO2 y (by rw [htr4]; omega)
  case region =>
    intro k acc
    exact hE3 U0 twc _ k _ _ h2' hLb (fun y => gather_read (F := F) d L U0 twc 3 (by omega) _ _ _ g1 h1' _ _ _ _ y)
  iintro %_ HI
  unfold invE3
  icases HI with ⟨HL3, HR3, ⟨%fO3, HOut3, %hO3⟩⟩
  sl_exec
  sl_step
  -- the task's results: the ids back, the columns filled
  isplitl [Hu' Ho']
  · isplitl [Hu']
    · iapply (Entails.of_eq (pts_u (F := F) d L _)); iexact Hu'
    iexists _; isplitr
    · ipureintro
      exact out_ok m pv Ok d L f0 twc fO0 fO1 fO2 fO3 hpre htw (fun _ => rfl)
        (fun y hy => hO0 y (by rw [htr2]; omega)) (fun y hy => hO1 y (by rw [htr3]; omega))
        (fun y hy => hO2 y (by rw [htr4]; omega)) (fun y hy => hO3 y (by rw [htr5]; omega))
        (fun _ => rfl) (fun _ => rfl) (fun _ => rfl) (fun _ => rfl) (fun _ => rfl) (fun _ => rfl) (fun _ => rfl) (fun _ => rfl)
    · iapply (Entails.of_eq (pts_o (F := F) d L _)); iexact Ho'
  -- the scratch buffers
  isplitl [H0 H1 HL3 HR2 HR3 HOut0 HOut1 HOut2 HOut3 Hbufs]
  · isplitl [H0]; · iexists _; iapply (Entails.of_eq (pts_s0 (F := F) d L _)); iexact H0
    isplitl [H1]; · iexists _; iapply (Entails.of_eq (pts_s1 (F := F) d L _)); iexact H1
    isplitl [HL3]; · iexists _; iapply (Entails.of_eq (pts_s2 (F := F) d L _)); iexact HL3
    isplitl [HR2]; · iexists _; iapply (Entails.of_eq (pts_s3 (F := F) d L _)); iexact HR2
    isplitl [HR3]; · iexists _; iapply (Entails.of_eq (pts_s4 (F := F) d L _)); iexact HR3
    isplitl [HOut0 HOut1 HOut2 HOut3]
    · iapply (sOut_rejoin (F := F) d L fO0 fO1 fO2 fO3)
      isplitl [HOut0]; · iexact HOut0
      isplitl [HOut1]; · iexact HOut1
      isplitl [HOut2]; · iexact HOut2
      iexact HOut3
    iexact Hbufs
  -- the semaphores
  isplitl [S6 S7 S8 S0 Hsems]
  · isplitl [S6]; · iexact S6
    isplitl [S7]; · iexact S7
    isplitl [S8]; · iexact S8
    isplitl [S0]; · iexact S0
    iexact Hsems
  iexists _; isplitr
  pick_goal 2
  · iexact HO
  · ipureintro
    intro p hp
    iterate 9 (rcases Finset.mem_insert.mp hp with h | hp; · exact .inr (by rw [h]; rfl))
    exact .inl hp

end Tile
end Cert.Proof.KI
end
-- ==== Proof.KI.TileTripE1.lean ====
/-
  The loop over slab 1 of the staged output: trip k loads the sixteen lane words of ids 128 * 1 + 16 k .. + 15 and,
  for each of the 32 features dd, gathers from the rows buffer the entries (16 k + x, lane word + dd) and stores them
  as row dd, columns 128 * 1 + 16 k .. + 15 of the staged output. Each stored segment holds the output's entries
  (piece_ok); the 32 segments cover the sixteen new columns; earlier columns are kept.
-/
import proofs.«217943_g20899310862962_cont_8to1_1374_33_alg».proof.Proof.KI.TileInv
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

set_option maxHeartbeats 4000000 in
set_option sl_exec.dischHeartbeats 100000 in
theorem tripE1 (U : Buf (Elt F) ((thrV d L).loc cc1_scratch0)) (twc : Buf (Elt F) (twLoc d)) (v2 : BitVec 32) (k : Fin k1_t3_loop.trips)
    (fL : Buf (Elt F) ((thrV d L).loc cc1_scratch2)) (fR : Buf (Elt F) ((thrV d L).loc cc1_scratch4))
    (hL : ∀ y, (sLane).view.read (Elt F) fL y = laneW d L U y) (hLb : ∀ y, (laneW d L U y).toNat ≤ 96)
    (hR : ∀ y, (sRB).view.read (Elt F) fR y = Grow d L U twc 1 y) :
    invE1 d L U twc fL fR k.val ⟨⟩
      ⊢ wp frame (wpE (defs₀ (F := F)) 𝒱₀ (thrV d L) none) Set.univ
          (k1_t3_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE1 d L U twc fL fR (k.val + 1)) := by
  have hk : k.val < 8 := lt_of_lt_of_le k.isLt k1_t3_abs.2.1
  have h63 : ∀ x : S16.Idx, (k1_pay34 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay34 (iota .scVector S16 32 [0] iota_S16_d0_w32_scVector) 0#32 1#32 k, addi ((sLane).view.readAt (Elt F) (Rect.unit (s := S512) (k1_off37 k) S16.size (k1_off37_inb k)).toLoadRect fL) (broadcast S16 c)] : Fin 2 → IVec S16 32) a x).toNat < S128x128.size a := by
    intro c hc a x
    have hx : (x 0).val < 16 := (x 0).isLt
    fin_cases a
    · show (k1_pay34 (iota .scVector S16 32 [0] iota_S16_d0_w32_scVector) 0#32 1#32 k x).toNat < 128
      rw [h63]; omega
    · show (IntOp.addi ((sLane).view.read (Elt F) fL ((Rect.unit (s := S512) (k1_off37 k) S16.size (k1_off37_inb k)).toLoadRect.idx x)) c).toNat < 128
      rw [hL, addw_toNat _ _ (hLb _) hc]
      have := hLb ((Rect.unit (s := S512) (k1_off37 k) S16.size (k1_off37_inb k)).toLoadRect.idx x)
      omega
  unfold k1_t3_body
  simp only [k1_part7_eq_skeleton, k1_part8_eq_skeleton, k1_part9_eq_skeleton, k1_part10_eq_skeleton, k1_part11_eq_skeleton, k1_part12_eq_skeleton]
  unfold k1_part7_skel k1_part8_skel k1_part9_skel k1_part10_skel k1_part11_skel k1_part12_skel
  simp only [SparseCore.vectorLoadIdx_bind (thrV d L)]
  unfold invE1
  iintro ⟨HL, HR, ⟨%fO, HOut, %hO⟩⟩
  sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm)
  repeat (sl_rw [SparseCore.vectorLoadIdx_bind (thrV d L)]; sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 128 + 16 * k.val)
  refine key _ ?hw hO y ?cov
  case hw =>
    intro p hp
    rcases List.mem_cons.1 hp with rfl | hp
    · intro x
      exact piece_ok d L U twc 1 k.val 31 (16 * k.val + 128) (by omega) hk (by omega) (by omega) _ _ hR _ hL hLb _ h63 _ (k1_off37_eq k) (k1_off37_inb k) 31#32 rfl _ (k1_off69_eq k) (k1_off69_inb k) _ x
    rcases List.mem_cons.1 hp with rfl | hp
    · intro x
      exact piece_ok d L U twc 1 k.val 30 (16 * k.val + 128) (by omega) hk (by omega) (by omega) _ _ hR _ hL hLb _ h63 _ (k1_off37_eq k) (k1_off37_inb k) 30#32 rfl _ (k1_off68_eq k) (k1_off68_inb k) _ x
    rcases List.mem_cons.1 hp with rfl | hp
    · intro x
      exact piece_ok d L U twc 1 k.val 29 (16 * k.val + 128) (by omega) hk (by omega) (by omega) _ _ hR _ hL hLb _ h63 _ (k1_off37_eq k) (k1_off37_inb k) 29#32 rfl _ (k1_off67_eq k) (k1_off67_inb k) _ x
    rcases List.mem_cons.1 hp with rfl | hp
    · intro x
      exact piece_ok d L U twc 1 k.val 28 (16 * k.val + 128) (by omega) hk (by omega) (by omega) _ _ hR _ hL hLb _ h63 _ (k1_off37_eq k) (k1_off37_inb k) 28#32 rfl _ (k1_off66_eq k) (k1_off66_inb k) _ x
    rcases List.mem_cons.1 hp with rfl | hp
    · intro x
      exact piece_ok d L U twc 1 k.val 27 (16 * k.val + 128) (by omega) hk (by omega) (by omega) _ _ hR _ hL hLb _ h63 _ (k1_off37_eq k) (k1_off37_inb k) 27#32 rfl _ (k1_off65_eq k) (k1_off65_inb k) _ x
    rcases List.mem_cons.1 hp with rfl | hp
    · intro x
      exact piece_ok d L U twc 1 k.val 26 (16 * k.val + 128) (by omega) hk (by omega) (by omega) _ _ hR _ hL hLb _ h63 _ (k1_off37_eq k) (k1_off37_inb k) 26#32 rfl _ (k1_off64_eq k) (k1_off64_inb k) _ x
    rcases List.mem_cons.1 hp with rfl | hp
    · intro x
      exact piece_ok d L U twc 1 k.val 25 (16 * k.val + 128) (by omega) hk (by omega) (by omega) _ _ hR _ hL hLb _ h63 _ (k1_off37_eq k) (k1_off37_inb k) 25#32 rfl _ (k1_off63_eq k) (k1_off63_inb k) _ x
    rcases List.mem_cons.1 hp with rfl | hp
    · intro x
      exact piece_ok d L U twc 1 k.val 24 (16 * k.val + 128) (by omega) hk (by omega) (by omega) _ _ hR _ hL hLb _ h63 _ (k1_off37_eq k) (k1_off37_inb k) 24#32 rfl _ (k1_off62_eq k) (k1_off62_inb k) _ x
    rcases List.mem_cons.1 hp with rfl | hp
    · intro x
      exact piece_ok d L U twc 1 k.val 23 (16 * k.val + 128) (by omega) hk (by omega) (by omega) _ _ hR _ hL hLb _ h63 _ (k1_off37_eq k) (k1_off37_inb k) 23#32 rfl _ (k1_off61_eq k) (k1_off61_inb k) _ x
    rcases List.mem_cons.1 hp with rfl | hp
    · intro x
      exact piece_ok d L U twc 1 k.val 22 (16 * k.val + 128) (by omega) hk (by omega) (by omega) _ _ hR _ hL hLb _ h63 _ (k1_off37_eq k) (k1_off37_inb k) 22#32 rfl _ (k1_off60_eq k) (k1_off60_inb k) _ x
    rcases List.mem_cons.1 hp with rfl | hp
    · intro x
      exact piece_ok d L U twc 1 k.val 21 (16 * k.val + 128) (by omega) hk (by omega) (by omega) _ _ hR _ hL hLb _ h63 _ (k1_off37_eq k) (k1_off37_inb k) 21#32 rfl _ (k1_off59_eq k) (k1_off59_inb k) _ x
    rcases List.mem_cons.1 hp with rfl | hp
    · intro x
      exact piece_ok d L U twc 1 k.val 20 (16 * k.val + 128) (by omega) hk (by omega) (by omega) _ _ hR _ hL hLb _ h63 _ (k1_off37_eq k) (k1_off37_inb k) 20#32 rfl _ (k1_off58_eq k) (k1_off58_inb k) _ x
    rcases List.mem_cons.1 hp with rfl | hp
    · intro x
      exact piece_ok d L U twc 1 k.val 19 (16 * k.val + 128) (by omega) hk (by omega) (by omega) _ _ hR _ hL hLb _ h63 _ (k1_off37_eq k) (k1_off37_inb k) 19#32 rfl _ (k1_off57_eq k) (k1_off57_inb k) _ x
    rcases List.mem_cons.1 hp with rfl | hp
    · intro x
      exact piece_ok d L U twc 1 k.val 18 (16 * k.val + 128) (by omega) hk (by omega) (by omega) _ _ hR _ hL hLb _ h63 _ (k1_off37_eq k) (k1_off37_inb k) 18#32 rfl _ (k1_off56_eq k) (k1_off56_inb k) _ x
    rcases List.mem_cons.1 hp with rfl | hp
    · intro x
      exact piece_ok d L U twc 1 k.val 17 (16 * k.val + 128) (by omega) hk (by omega) (by omega) _ _ hR _ hL hLb _ h63 _ (k1_off37_eq k) (k1_off37_inb k) 17#32 rfl _ (k1_off55_eq k) (k1_off55_inb k) _ x
    rcases List.mem_cons.1 hp with rfl | hp
    · intro x
      exact piece_ok d L U twc 1 k.val 16 (16 * k.val + 128) (by omega) hk (by omega) (by omega) _ _ hR _ hL hLb _ h63 _ (k1_off37_eq k) (k1_off37_inb k) 16#32 rfl _ (k1_off54_eq k) (k1_off54_inb k) _ x
    rcases List.mem_cons.1 hp with rfl | hp
    · intro x
      exact piece_ok d L U twc 1 k.val 15 (16 * k.val + 128) (by omega) hk (by omega) (by omega) _ _ hR _ hL hLb _ h63 _ (k1_off37_eq k) (k1_off37_inb k) 15#32 rfl _ (k1_off53_eq k) (k1_off53_inb k) _ x
    rcases List.mem_cons.1 hp with rfl | hp
    · intro x
      exact piece_ok d L U twc 1 k.val 14 (16 * k.val + 128) (by omega) hk (by omega) (by omega) _ _ hR _ hL hLb _ h63 _ (k1_off37_eq k) (k1_off37_inb k) 14#32 rfl _ (k1_off52_eq k) (k1_off52_inb k) _ x
    rcases List.mem_cons.1 hp with rfl | hp
    · intro x
      exact piece_ok d L U twc 1 k.val 13 (16 * k.val + 128) (by omega) hk (by omega) (by omega) _ _ hR _ hL hLb _ h63 _ (k1_off37_eq k) (k1_off37_inb k) 13#32 rfl _ (k1_off51_eq k) (k1_off51_inb k) _ x
    rcases List.mem_cons.1 hp with rfl | hp
    · intro x
      exact piece_ok d L U twc 1 k.val 12 (16 * k.val + 128) (by omega) hk (by omega) (by omega) _ _ hR _ hL hLb _ h63 _ (k1_off37_eq k) (k1_off37_inb k) 12#32 rfl _ (k1_off50_eq k) (k1_off50_inb k) _ x
    rcases List.mem_cons.1 hp with rfl | hp
    · intro x
      exact piece_ok d L U twc 1 k.val 11 (16 * k.val + 128) (by omega) hk (by omega) (by omega) _ _ hR _ hL hLb _ h63 _ (k1_off37_eq k) (k1_off37_inb k) 11#32 rfl _ (k1_off49_eq k) (k1_off49_inb k) _ x
    rcases List.mem_cons.1 hp with rfl | hp
    · intro x
      exact piece_ok d L U twc 1 k.val 10 (16 * k.val + 128) (by omega) hk (by omega) (by omega) _ _ hR _ hL hLb _ h63 _ (k1_off37_eq k) (k1_off37_inb k) 10#32 rfl _ (k1_off48_eq k) (k1_off48_inb k) _ x
    rcases List.mem_cons.1 hp with rfl | hp
    · intro x
      exact piece_ok d L U twc 1 k.val 9 (16 * k.val + 128) (by omega) hk (by omega) (by omega) _ _ hR _ hL hLb _ h63 _ (k1_off37_eq k) (k1_off37_inb k) 9#32 rfl _ (k1_off47_eq k) (k1_off47_inb k) _ x
    rcases List.mem_cons.1 hp with rfl | hp
    · intro x
      exact piece_ok d L U twc 1 k.val 8 (16 * k.val + 128) (by omega) hk (by omega) (by omega) _ _ hR _ hL hLb _ h63 _ (k1_off37_eq k) (k1_off37_inb k) 8#32 rfl _ (k1_off46_eq k) (k1_off46_inb k) _ x
    rcases List.mem_cons.1 hp with rfl | hp
    · intro x
      exact piece_ok d L U twc 1 k.val 7 (16 * k.val + 128) (by omega) hk (by omega) (by omega) _ _ hR _ hL hLb _ h63 _ (k1_off37_eq k) (k1_off37_inb k) 7#32 rfl _ (k1_off45_eq k) (k1_off45_inb k) _ x
    rcases List.mem_cons.1 hp with rfl | hp
    · intro x
      exact piece_ok d L U twc 1 k.val 6 (16 * k.val + 128) (by omega) hk (by omega) (by omega) _ _ hR _ hL hLb _ h63 _ (k1_off37_eq k) (k1_off37_inb k) 6#32 rfl _ (k1_off44_eq k) (k1_off44_inb k) _ x
    rcases List.mem_cons.1 hp with rfl | hp
    · intro x
      exact piece_ok d L U twc 1 k.val 5 (16 * k.val + 128) (by omega) hk (by omega) (by omega) _ _ hR _ hL hLb _ h63 _ (k1_off37_eq k) (k1_off37_inb k) 5#32 rfl _ (k1_off43_eq k) (k1_off43_inb k) _ x
    rcases List.mem_cons.1 hp with rfl | hp
    · intro x
      exact piece_ok d L U twc 1 k.val 4 (16 * k.val + 128) (by omega) hk (by omega) (by omega) _ _ hR _ hL hLb _ h63 _ (k1_off37_eq k) (k1_off37_inb k) 4#32 rfl _ (k1_off42_eq k) (k1_off42_inb k) _ x
    rcases List.mem_cons.1 hp with rfl | hp
    · intro x
      exact piece_ok d L U twc 1 k.val 3 (16 * k.val + 128) (by omega) hk (by omega) (by omega) _ _ hR _ hL hLb _ h63 _ (k1_off37_eq k) (k1_off37_inb k) 3#32 rfl _ (k1_off41_eq k) (k1_off41_inb k) _ x
    rcases List.mem_cons.1 hp with rfl | hp
    · intro x
      exact piece_ok d L U twc 1 k.val 2 (16 * k.val + 128) (by omega) hk (by omega) (by omega) _ _ hR _ hL hLb _ h63 _ (k1_off37_eq k) (k1_off37_inb k) 2#32 rfl _ (k1_off40_eq k) (k1_off40_inb k) _ x
    rcases List.mem_cons.1 hp with rfl | hp
    · intro x
      exact piece_ok d L U twc 1 k.val 1 (16 * k.val + 128) (by omega) hk (by omega) (by omega) _ _ hR _ hL hLb _ h63 _ (k1_off37_eq k) (k1_off37_inb k) 1#32 rfl _ (k1_off39_eq k) (k1_off39_inb k) _ x
    rcases List.mem_cons.1 hp with rfl | hp
    · intro x
      exact piece_ok d L U twc 1 k.val 0 (16 * k.val + 128) (by omega) hk (by omega) (by omega) _ _ hR _ hL hLb _ h63 _ (k1_off37_eq k) (k1_off37_inb k) 0#32 rfl _ (k1_off38_eq k) (k1_off38_inb k) _ x
    cases hp
  case cov =>
    by_cases h : (y 1).val < 128 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off38_eq]
        intro a; fin_cases a
        · show 0 ≤ (y 0).val ∧ (y 0).val < 0 + 1
          omega
        · show 16 * k.val + 128 ≤ (y 1).val ∧ (y 1).val < 16 * k.val + 128 + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off39_eq]
        intro a; fin_cases a
        · show 1 ≤ (y 0).val ∧ (y 0).val < 1 + 1
          omega
        · show 16 * k.val + 128 ≤ (y 1).val ∧ (y 1).val < 16 * k.val + 128 + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off40_eq]
        intro a; fin_cases a
        · show 2 ≤ (y 0).val ∧ (y 0).val < 2 + 1
          omega
        · show 16 * k.val + 128 ≤ (y 1).val ∧ (y 1).val < 16 * k.val + 128 + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off41_eq]
        intro a; fin_cases a
        · show 3 ≤ (y 0).val ∧ (y 0).val < 3 + 1
          omega
        · show 16 * k.val + 128 ≤ (y 1).val ∧ (y 1).val < 16 * k.val + 128 + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off42_eq]
        intro a; fin_cases a
        · show 4 ≤ (y 0).val ∧ (y 0).val < 4 + 1
          omega
        · show 16 * k.val + 128 ≤ (y 1).val ∧ (y 1).val < 16 * k.val + 128 + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off43_eq]
        intro a; fin_cases a
        · show 5 ≤ (y 0).val ∧ (y 0).val < 5 + 1
          omega
        · show 16 * k.val + 128 ≤ (y 1).val ∧ (y 1).val < 16 * k.val + 128 + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off44_eq]
        intro a; fin_cases a
        · show 6 ≤ (y 0).val ∧ (y 0).val < 6 + 1
          omega
        · show 16 * k.val + 128 ≤ (y 1).val ∧ (y 1).val < 16 * k.val + 128 + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off45_eq]
        intro a; fin_cases a
        · show 7 ≤ (y 0).val ∧ (y 0).val < 7 + 1
          omega
        · show 16 * k.val + 128 ≤ (y 1).val ∧ (y 1).val < 16 * k.val + 128 + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off46_eq]
        intro a; fin_cases a
        · show 8 ≤ (y 0).val ∧ (y 0).val < 8 + 1
          omega
        · show 16 * k.val + 128 ≤ (y 1).val ∧ (y 1).val < 16 * k.val + 128 + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off47_eq]
        intro a; fin_cases a
        · show 9 ≤ (y 0).val ∧ (y 0).val < 9 + 1
          omega
        · show 16 * k.val + 128 ≤ (y 1).val ∧ (y 1).val < 16 * k.val + 128 + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off48_eq]
        intro a; fin_cases a
        · show 10 ≤ (y 0).val ∧ (y 0).val < 10 + 1
          omega
        · show 16 * k.val + 128 ≤ (y 1).val ∧ (y 1).val < 16 * k.val + 128 + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off49_eq]
        intro a; fin_cases a
        · show 11 ≤ (y 0).val ∧ (y 0).val < 11 + 1
          omega
        · show 16 * k.val + 128 ≤ (y 1).val ∧ (y 1).val < 16 * k.val + 128 + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off50_eq]
        intro a; fin_cases a
        · show 12 ≤ (y 0).val ∧ (y 0).val < 12 + 1
          omega
        · show 16 * k.val + 128 ≤ (y 1).val ∧ (y 1).val < 16 * k.val + 128 + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off51_eq]
        intro a; fin_cases a
        · show 13 ≤ (y 0).val ∧ (y 0).val < 13 + 1
          omega
        · show 16 * k.val + 128 ≤ (y 1).val ∧ (y 1).val < 16 * k.val + 128 + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off52_eq]
        intro a; fin_cases a
        · show 14 ≤ (y 0).val ∧ (y 0).val < 14 + 1
          omega
        · show 16 * k.val + 128 ≤ (y 1).val ∧ (y 1).val < 16 * k.val + 128 + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off53_eq]
        intro a; fin_cases a
        · show 15 ≤ (y 0).val ∧ (y 0).val < 15 + 1
          omega
        · show 16 * k.val + 128 ≤ (y 1).val ∧ (y 1).val < 16 * k.val + 128 + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off54_eq]
        intro a; fin_cases a
        · show 16 ≤ (y 0).val ∧ (y 0).val < 16 + 1
          omega
        · show 16 * k.val + 128 ≤ (y 1).val ∧ (y 1).val < 16 * k.val + 128 + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off55_eq]
        intro a; fin_cases a
        · show 17 ≤ (y 0).val ∧ (y 0).val < 17 + 1
          omega
        · show 16 * k.val + 128 ≤ (y 1).val ∧ (y 1).val < 16 * k.val + 128 + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off56_eq]
        intro a; fin_cases a
        · show 18 ≤ (y 0).val ∧ (y 0).val < 18 + 1
          omega
        · show 16 * k.val + 128 ≤ (y 1).val ∧ (y 1).val < 16 * k.val + 128 + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off57_eq]
        intro a; fin_cases a
        · show 19 ≤ (y 0).val ∧ (y 0).val < 19 + 1
          omega
        · show 16 * k.val + 128 ≤ (y 1).val ∧ (y 1).val < 16 * k.val + 128 + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off58_eq]
        intro a; fin_cases a
        · show 20 ≤ (y 0).val ∧ (y 0).val < 20 + 1
          omega
        · show 16 * k.val + 128 ≤ (y 1).val ∧ (y 1).val < 16 * k.val + 128 + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off59_eq]
        intro a; fin_cases a
        · show 21 ≤ (y 0).val ∧ (y 0).val < 21 + 1
          omega
        · show 16 * k.val + 128 ≤ (y 1).val ∧ (y 1).val < 16 * k.val + 128 + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off60_eq]
        intro a; fin_cases a
        · show 22 ≤ (y 0).val ∧ (y 0).val < 22 + 1
          omega
        · show 16 * k.val + 128 ≤ (y 1).val ∧ (y 1).val < 16 * k.val + 128 + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off61_eq]
        intro a; fin_cases a
        · show 23 ≤ (y 0).val ∧ (y 0).val < 23 + 1
          omega
        · show 16 * k.val + 128 ≤ (y 1).val ∧ (y 1).val < 16 * k.val + 128 + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off62_eq]
        intro a; fin_cases a
        · show 24 ≤ (y 0).val ∧ (y 0).val < 24 + 1
          omega
        · show 16 * k.val + 128 ≤ (y 1).val ∧ (y 1).val < 16 * k.val + 128 + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off63_eq]
        intro a; fin_cases a
        · show 25 ≤ (y 0).val ∧ (y 0).val < 25 + 1
          omega
        · show 16 * k.val + 128 ≤ (y 1).val ∧ (y 1).val < 16 * k.val + 128 + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off64_eq]
        intro a; fin_cases a
        · show 26 ≤ (y 0).val ∧ (y 0).val < 26 + 1
          omega
        · show 16 * k.val + 128 ≤ (y 1).val ∧ (y 1).val < 16 * k.val + 128 + 16
          omega
      · have hr' : (y 0).val = 27 := hr.symm
        refine ⟨_, (List.Mem.tail _ (List.Mem.tail _ (List.Mem.tail _ (List.Mem.tail _ (List.Mem.head _))))), ?_⟩
        rw [Rect.mem_set_unit, k1_off65_eq]
        intro a; fin_cases a
        · show 27 ≤ (y 0).val ∧ (y 0).val < 27 + 1
          omega
        · show 16 * k.val + 128 ≤ (y 1).val ∧ (y 1).val < 16 * k.val + 128 + 16
          omega
      · have hr' : (y 0).val = 28 := hr.symm
        refine ⟨_, (List.Mem.tail _ (List.Mem.tail _ (List.Mem.tail _ (List.Mem.head _)))), ?_⟩
        rw [Rect.mem_set_unit, k1_off66_eq]
        intro a; fin_cases a
        · show 28 ≤ (y 0).val ∧ (y 0).val < 28 + 1
          omega
        · show 16 * k.val + 128 ≤ (y 1).val ∧ (y 1).val < 16 * k.val + 128 + 16
          omega
      · have hr' : (y 0).val = 29 := hr.symm
        refine ⟨_, (List.Mem.tail _ (List.Mem.tail _ (List.Mem.head _))), ?_⟩
        rw [Rect.mem_set_unit, k1_off67_eq]
        intro a; fin_cases a
        · show 29 ≤ (y 0).val ∧ (y 0).val < 29 + 1
          omega
        · show 16 * k.val + 128 ≤ (y 1).val ∧ (y 1).val < 16 * k.val + 128 + 16
          omega
      · have hr' : (y 0).val = 30 := hr.symm
        refine ⟨_, (List.Mem.tail _ (List.Mem.head _)), ?_⟩
        rw [Rect.mem_set_unit, k1_off68_eq]
        intro a; fin_cases a
        · show 30 ≤ (y 0).val ∧ (y 0).val < 30 + 1
          omega
        · show 16 * k.val + 128 ≤ (y 1).val ∧ (y 1).val < 16 * k.val + 128 + 16
          omega
      · have hr' : (y 0).val = 31 := hr.symm
        refine ⟨_, (List.Mem.head _), ?_⟩
        rw [Rect.mem_set_unit, k1_off69_eq]
        intro a; fin_cases a
        · show 31 ≤ (y 0).val ∧ (y 0).val < 31 + 1
          omega
        · show 16 * k.val + 128 ≤ (y 1).val ∧ (y 1).val < 16 * k.val + 128 + 16
          omega

end Tile
end Cert.Proof.KI
end
-- ==== Proof.KI.TileTripE2.lean ====
/-
  The loop over slab 2 of the staged output: trip k loads the sixteen lane words of ids 128 * 2 + 16 k .. + 15 and,
  for each of the 32 features dd, gathers from the rows buffer the entries (16 k + x, lane word + dd) and stores them
  as row dd, columns 128 * 2 + 16 k .. + 15 of the staged output. Each stored segment holds the output's entries
  (piece_ok); the 32 segments cover the sixteen new columns; earlier columns are kept.
-/
import proofs.«217943_g20899310862962_cont_8to1_1374_33_alg».proof.Proof.KI.TileInv
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

set_option maxHeartbeats 4000000 in
set_option sl_exec.dischHeartbeats 100000 in
theorem tripE2 (U : Buf (Elt F) ((thrV d L).loc cc1_scratch0)) (twc : Buf (Elt F) (twLoc d)) (v2 : BitVec 32) (k : Fin k1_t4_loop.trips)
    (fL : Buf (Elt F) ((thrV d L).loc cc1_scratch2)) (fR : Buf (Elt F) ((thrV d L).loc cc1_scratch3))
    (hL : ∀ y, (sLane).view.read (Elt F) fL y = laneW d L U y) (hLb : ∀ y, (laneW d L U y).toNat ≤ 96)
    (hR : ∀ y, (sRA).view.read (Elt F) fR y = Grow d L U twc 2 y) :
    invE2 d L U twc fL fR k.val ⟨⟩
      ⊢ wp frame (wpE (defs₀ (F := F)) 𝒱₀ (thrV d L) none) Set.univ
          (k1_t4_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE2 d L U twc fL fR (k.val + 1)) := by
  have hk : k.val < 8 := lt_of_lt_of_le k.isLt k1_t4_abs.2.1
  have h63 : ∀ x : S16.Idx, (k1_pay67 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay67 (iota .scVector S16 32 [0] iota_S16_d0_w32_scVector) 0#32 1#32 k, addi ((sLane).view.readAt (Elt F) (Rect.unit (s := S512) (k1_off70 k) S16.size (k1_off70_inb k)).toLoadRect fL) (broadcast S16 c)] : Fin 2 → IVec S16 32) a x).toNat < S128x128.size a := by
    intro c hc a x
    have hx : (x 0).val < 16 := (x 0).isLt
    fin_cases a
    · show (k1_pay67 (iota .scVector S16 32 [0] iota_S16_d0_w32_scVector) 0#32 1#32 k x).toNat < 128
      rw [h63]; omega
    · show (IntOp.addi ((sLane).view.read (Elt F) fL ((Rect.unit (s := S512) (k1_off70 k) S16.size (k1_off70_inb k)).toLoadRect.idx x)) c).toNat < 128
      rw [hL, addw_toNat _ _ (hLb _) hc]
      have := hLb ((Rect.unit (s := S512) (k1_off70 k) S16.size (k1_off70_inb k)).toLoadRect.idx x)
      omega
  unfold k1_t4_body
  simp only [k1_part13_eq_skeleton, k1_part14_eq_skeleton, k1_part15_eq_skeleton, k1_part16_eq_skeleton, k1_part17_eq_skeleton, k1_part18_eq_skeleton]
  unfold k1_part13_skel k1_part14_skel k1_part15_skel k1_part16_skel k1_part17_skel k1_part18_skel
  simp only [SparseCore.vectorLoadIdx_bind (thrV d L)]
  unfold invE2
  iintro ⟨HL, HR, ⟨%fO, HOut, %hO⟩⟩
  sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm)
  repeat (sl_rw [SparseCore.vectorLoadIdx_bind (thrV d L)]; sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 256 + 16 * k.val)
  refine key _ ?hw hO y ?cov
  case hw =>
    intro p hp
    rcases List.mem_cons.1 hp with rfl | hp
    · intro x
      exact piece_ok d L U twc 2 k.val 31 (16 * k.val + 256) (by omega) hk (by omega) (by omega) _ _ hR _ hL hLb _ h63 _ (k1_off70_eq k) (k1_off70_inb k) 31#32 rfl _ (k1_off102_eq k) (k1_off102_inb k) _ x
    rcases List.mem_cons.1 hp with rfl | hp
    · intro x
      exact piece_ok d L U twc 2 k.val 30 (16 * k.val + 256) (by omega) hk (by omega) (by omega) _ _ hR _ hL hLb _ h63 _ (k1_off70_eq k) (k1_off70_inb k) 30#32 rfl _ (k1_off101_eq k) (k1_off101_inb k) _ x
    rcases List.mem_cons.1 hp with rfl | hp
    · intro x
      exact piece_ok d L U twc 2 k.val 29 (16 * k.val + 256) (by omega) hk (by omega) (by omega) _ _ hR _ hL hLb _ h63 _ (k1_off70_eq k) (k1_off70_inb k) 29#32 rfl _ (k1_off100_eq k) (k1_off100_inb k) _ x
    rcases List.mem_cons.1 hp with rfl | hp
    · intro x
      exact piece_ok d L U twc 2 k.val 28 (16 * k.val + 256) (by omega) hk (by omega) (by omega) _ _ hR _ hL hLb _ h63 _ (k1_off70_eq k) (k1_off70_inb k) 28#32 rfl _ (k1_off99_eq k) (k1_off99_inb k) _ x
    rcases List.mem_cons.1 hp with rfl | hp
    · intro x
      exact piece_ok d L U twc 2 k.val 27 (16 * k.val + 256) (by omega) hk (by omega) (by omega) _ _ hR _ hL hLb _ h63 _ (k1_off70_eq k) (k1_off70_inb k) 27#32 rfl _ (k1_off98_eq k) (k1_off98_inb k) _ x
    rcases List.mem_cons.1 hp with rfl | hp
    · intro x
      exact piece_ok d L U twc 2 k.val 26 (16 * k.val + 256) (by omega) hk (by omega) (by omega) _ _ hR _ hL hLb _ h63 _ (k1_off70_eq k) (k1_off70_inb k) 26#32 rfl _ (k1_off97_eq k) (k1_off97_inb k) _ x
    rcases List.mem_cons.1 hp with rfl | hp
    · intro x
      exact piece_ok d L U twc 2 k.val 25 (16 * k.val + 256) (by omega) hk (by omega) (by omega) _ _ hR _ hL hLb _ h63 _ (k1_off70_eq k) (k1_off70_inb k) 25#32 rfl _ (k1_off96_eq k) (k1_off96_inb k) _ x
    rcases List.mem_cons.1 hp with rfl | hp
    · intro x
      exact piece_ok d L U twc 2 k.val 24 (16 * k.val + 256) (by omega) hk (by omega) (by omega) _ _ hR _ hL hLb _ h63 _ (k1_off70_eq k) (k1_off70_inb k) 24#32 rfl _ (k1_off95_eq k) (k1_off95_inb k) _ x
    rcases List.mem_cons.1 hp with rfl | hp
    · intro x
      exact piece_ok d L U twc 2 k.val 23 (16 * k.val + 256) (by omega) hk (by omega) (by omega) _ _ hR _ hL hLb _ h63 _ (k1_off70_eq k) (k1_off70_inb k) 23#32 rfl _ (k1_off94_eq k) (k1_off94_inb k) _ x
    rcases List.mem_cons.1 hp with rfl | hp
    · intro x
      exact piece_ok d L U twc 2 k.val 22 (16 * k.val + 256) (by omega) hk (by omega) (by omega) _ _ hR _ hL hLb _ h63 _ (k1_off70_eq k) (k1_off70_inb k) 22#32 rfl _ (k1_off93_eq k) (k1_off93_inb k) _ x
    rcases List.mem_cons.1 hp with rfl | hp
    · intro x
      exact piece_ok d L U twc 2 k.val 21 (16 * k.val + 256) (by omega) hk (by omega) (by omega) _ _ hR _ hL hLb _ h63 _ (k1_off70_eq k) (k1_off70_inb k) 21#32 rfl _ (k1_off92_eq k) (k1_off92_inb k) _ x
    rcases List.mem_cons.1 hp with rfl | hp
    · intro x
      exact piece_ok d L U twc 2 k.val 20 (16 * k.val + 256) (by omega) hk (by omega) (by omega) _ _ hR _ hL hLb _ h63 _ (k1_off70_eq k) (k1_off70_inb k) 20#32 rfl _ (k1_off91_eq k) (k1_off91_inb k) _ x
    rcases List.mem_cons.1 hp with rfl | hp
    · intro x
      exact piece_ok d L U twc 2 k.val 19 (16 * k.val + 256) (by omega) hk (by omega) (by omega) _ _ hR _ hL hLb _ h63 _ (k1_off70_eq k) (k1_off70_inb k) 19#32 rfl _ (k1_off90_eq k) (k1_off90_inb k) _ x
    rcases List.mem_cons.1 hp with rfl | hp
    · intro x
      exact piece_ok d L U twc 2 k.val 18 (16 * k.val + 256) (by omega) hk (by omega) (by omega) _ _ hR _ hL hLb _ h63 _ (k1_off70_eq k) (k1_off70_inb k) 18#32 rfl _ (k1_off89_eq k) (k1_off89_inb k) _ x
    rcases List.mem_cons.1 hp with rfl | hp
    · intro x
      exact piece_ok d L U twc 2 k.val 17 (16 * k.val + 256) (by omega) hk (by omega) (by omega) _ _ hR _ hL hLb _ h63 _ (k1_off70_eq k) (k1_off70_inb k) 17#32 rfl _ (k1_off88_eq k) (k1_off88_inb k) _ x
    rcases List.mem_cons.1 hp with rfl | hp
    · intro x
      exact piece_ok d L U twc 2 k.val 16 (16 * k.val + 256) (by omega) hk (by omega) (by omega) _ _ hR _ hL hLb _ h63 _ (k1_off70_eq k) (k1_off70_inb k) 16#32 rfl _ (k1_off87_eq k) (k1_off87_inb k) _ x
    rcases List.mem_cons.1 hp with rfl | hp
    · intro x
      exact piece_ok d L U twc 2 k.val 15 (16 * k.val + 256) (by omega) hk (by omega) (by omega) _ _ hR _ hL hLb _ h63 _ (k1_off70_eq k) (k1_off70_inb k) 15#32 rfl _ (k1_off86_eq k) (k1_off86_inb k) _ x
    rcases List.mem_cons.1 hp with rfl | hp
    · intro x
      exact piece_ok d L U twc 2 k.val 14 (16 * k.val + 256) (by omega) hk (by omega) (by omega) _ _ hR _ hL hLb _ h63 _ (k1_off70_eq k) (k1_off70_inb k) 14#32 rfl _ (k1_off85_eq k) (k1_off85_inb k) _ x
    rcases List.mem_cons.1 hp with rfl | hp
    · intro x
      exact piece_ok d L U twc 2 k.val 13 (16 * k.val + 256) (by omega) hk (by omega) (by omega) _ _ hR _ hL hLb _ h63 _ (k1_off70_eq k) (k1_off70_inb k) 13#32 rfl _ (k1_off84_eq k) (k1_off84_inb k) _ x
    rcases List.mem_cons.1 hp with rfl | hp
    · intro x
      exact piece_ok d L U twc 2 k.val 12 (16 * k.val + 256) (by omega) hk (by omega) (by omega) _ _ hR _ hL hLb _ h63 _ (k1_off70_eq k) (k1_off70_inb k) 12#32 rfl _ (k1_off83_eq k) (k1_off83_inb k) _ x
    rcases List.mem_cons.1 hp with rfl | hp
    · intro x
      exact piece_ok d L U twc 2 k.val 11 (16 * k.val + 256) (by omega) hk (by omega) (by omega) _ _ hR _ hL hLb _ h63 _ (k1_off70_eq k) (k1_off70_inb k) 11#32 rfl _ (k1_off82_eq k) (k1_off82_inb k) _ x
    rcases List.mem_cons.1 hp with rfl | hp
    · intro x
      exact piece_ok d L U twc 2 k.val 10 (16 * k.val + 256) (by omega) hk (by omega) (by omega) _ _ hR _ hL hLb _ h63 _ (k1_off70_eq k) (k1_off70_inb k) 10#32 rfl _ (k1_off81_eq k) (k1_off81_inb k) _ x
    rcases List.mem_cons.1 hp with rfl | hp
    · intro x
      exact piece_ok d L U twc 2 k.val 9 (16 * k.val + 256) (by omega) hk (by omega) (by omega) _ _ hR _ hL hLb _ h63 _ (k1_off70_eq k) (k1_off70_inb k) 9#32 rfl _ (k1_off80_eq k) (k1_off80_inb k) _ x
    rcases List.mem_cons.1 hp with rfl | hp
    · intro x
      exact piece_ok d L U twc 2 k.val 8 (16 * k.val + 256) (by omega) hk (by omega) (by omega) _ _ hR _ hL hLb _ h63 _ (k1_off70_eq k) (k1_off70_inb k) 8#32 rfl _ (k1_off79_eq k) (k1_off79_inb k) _ x
    rcases List.mem_cons.1 hp with rfl | hp
    · intro x
      exact piece_ok d L U twc 2 k.val 7 (16 * k.val + 256) (by omega) hk (by omega) (by omega) _ _ hR _ hL hLb _ h63 _ (k1_off70_eq k) (k1_off70_inb k) 7#32 rfl _ (k1_off78_eq k) (k1_off78_inb k) _ x
    rcases List.mem_cons.1 hp with rfl | hp
    · intro x
      exact piece_ok d L U twc 2 k.val 6 (16 * k.val + 256) (by omega) hk (by omega) (by omega) _ _ hR _ hL hLb _ h63 _ (k1_off70_eq k) (k1_off70_inb k) 6#32 rfl _ (k1_off77_eq k) (k1_off77_inb k) _ x
    rcases List.mem_cons.1 hp with rfl | hp
    · intro x
      exact piece_ok d L U twc 2 k.val 5 (16 * k.val + 256) (by omega) hk (by omega) (by omega) _ _ hR _ hL hLb _ h63 _ (k1_off70_eq k) (k1_off70_inb k) 5#32 rfl _ (k1_off76_eq k) (k1_off76_inb k) _ x
    rcases List.mem_cons.1 hp with rfl | hp
    · intro x
      exact piece_ok d L U twc 2 k.val 4 (16 * k.val + 256) (by omega) hk (by omega) (by omega) _ _ hR _ hL hLb _ h63 _ (k1_off70_eq k) (k1_off70_inb k) 4#32 rfl _ (k1_off75_eq k) (k1_off75_inb k) _ x
    rcases List.mem_cons.1 hp with rfl | hp
    · intro x
      exact piece_ok d L U twc 2 k.val 3 (16 * k.val + 256) (by omega) hk (by omega) (by omega) _ _ hR _ hL hLb _ h63 _ (k1_off70_eq k) (k1_off70_inb k) 3#32 rfl _ (k1_off74_eq k) (k1_off74_inb k) _ x
    rcases List.mem_cons.1 hp with rfl | hp
    · intro x
      exact piece_ok d L U twc 2 k.val 2 (16 * k.val + 256) (by omega) hk (by omega) (by omega) _ _ hR _ hL hLb _ h63 _ (k1_off70_eq k) (k1_off70_inb k) 2#32 rfl _ (k1_off73_eq k) (k1_off73_inb k) _ x
    rcases List.mem_cons.1 hp with rfl | hp
    · intro x
      exact piece_ok d L U twc 2 k.val 1 (16 * k.val + 256) (by omega) hk (by omega) (by omega) _ _ hR _ hL hLb _ h63 _ (k1_off70_eq k) (k1_off70_inb k) 1#32 rfl _ (k1_off72_eq k) (k1_off72_inb k) _ x
    rcases List.mem_cons.1 hp with rfl | hp
    · intro x
      exact piece_ok d L U twc 2 k.val 0 (16 * k.val + 256) (by omega) hk (by omega) (by omega) _ _ hR _ hL hLb _ h63 _ (k1_off70_eq k) (k1_off70_inb k) 0#32 rfl _ (k1_off71_eq k) (k1_off71_inb k) _ x
    cases hp
  case cov =>
    by_cases h : (y 1).val < 256 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off71_eq]
        intro a; fin_cases a
        · show 0 ≤ (y 0).val ∧ (y 0).val < 0 + 1
          omega
        · show 16 * k.val + 256 ≤ (y 1).val ∧ (y 1).val < 16 * k.val + 256 + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off72_eq]
        intro a; fin_cases a
        · show 1 ≤ (y 0).val ∧ (y 0).val < 1 + 1
          omega
        · show 16 * k.val + 256 ≤ (y 1).val ∧ (y 1).val < 16 * k.val + 256 + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off73_eq]
        intro a; fin_cases a
        · show 2 ≤ (y 0).val ∧ (y 0).val < 2 + 1
          omega
        · show 16 * k.val + 256 ≤ (y 1).val ∧ (y 1).val < 16 * k.val + 256 + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off74_eq]
        intro a; fin_cases a
        · show 3 ≤ (y 0).val ∧ (y 0).val < 3 + 1
          omega
        · show 16 * k.val + 256 ≤ (y 1).val ∧ (y 1).val < 16 * k.val + 256 + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off75_eq]
        intro a; fin_cases a
        · show 4 ≤ (y 0).val ∧ (y 0).val < 4 + 1
          omega
        · show 16 * k.val + 256 ≤ (y 1).val ∧ (y 1).val < 16 * k.val + 256 + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off76_eq]
        intro a; fin_cases a
        · show 5 ≤ (y 0).val ∧ (y 0).val < 5 + 1
          omega
        · show 16 * k.val + 256 ≤ (y 1).val ∧ (y 1).val < 16 * k.val + 256 + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off77_eq]
        intro a; fin_cases a
        · show 6 ≤ (y 0).val ∧ (y 0).val < 6 + 1
          omega
        · show 16 * k.val + 256 ≤ (y 1).val ∧ (y 1).val < 16 * k.val + 256 + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off78_eq]
        intro a; fin_cases a
        · show 7 ≤ (y 0).val ∧ (y 0).val < 7 + 1
          omega
        · show 16 * k.val + 256 ≤ (y 1).val ∧ (y 1).val < 16 * k.val + 256 + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off79_eq]
        intro a; fin_cases a
        · show 8 ≤ (y 0).val ∧ (y 0).val < 8 + 1
          omega
        · show 16 * k.val + 256 ≤ (y 1).val ∧ (y 1).val < 16 * k.val + 256 + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off80_eq]
        intro a; fin_cases a
        · show 9 ≤ (y 0).val ∧ (y 0).val < 9 + 1
          omega
        · show 16 * k.val + 256 ≤ (y 1).val ∧ (y 1).val < 16 * k.val + 256 + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off81_eq]
        intro a; fin_cases a
        · show 10 ≤ (y 0).val ∧ (y 0).val < 10 + 1
          omega
        · show 16 * k.val + 256 ≤ (y 1).val ∧ (y 1).val < 16 * k.val + 256 + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off82_eq]
        intro a; fin_cases a
        · show 11 ≤ (y 0).val ∧ (y 0).val < 11 + 1
          omega
        · show 16 * k.val + 256 ≤ (y 1).val ∧ (y 1).val < 16 * k.val + 256 + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off83_eq]
        intro a; fin_cases a
        · show 12 ≤ (y 0).val ∧ (y 0).val < 12 + 1
          omega
        · show 16 * k.val + 256 ≤ (y 1).val ∧ (y 1).val < 16 * k.val + 256 + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off84_eq]
        intro a; fin_cases a
        · show 13 ≤ (y 0).val ∧ (y 0).val < 13 + 1
          omega
        · show 16 * k.val + 256 ≤ (y 1).val ∧ (y 1).val < 16 * k.val + 256 + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off85_eq]
        intro a; fin_cases a
        · show 14 ≤ (y 0).val ∧ (y 0).val < 14 + 1
          omega
        · show 16 * k.val + 256 ≤ (y 1).val ∧ (y 1).val < 16 * k.val + 256 + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off86_eq]
        intro a; fin_cases a
        · show 15 ≤ (y 0).val ∧ (y 0).val < 15 + 1
          omega
        · show 16 * k.val + 256 ≤ (y 1).val ∧ (y 1).val < 16 * k.val + 256 + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off87_eq]
        intro a; fin_cases a
        · show 16 ≤ (y 0).val ∧ (y 0).val < 16 + 1
          omega
        · show 16 * k.val + 256 ≤ (y 1).val ∧ (y 1).val < 16 * k.val + 256 + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off88_eq]
        intro a; fin_cases a
        · show 17 ≤ (y 0).val ∧ (y 0).val < 17 + 1
          omega
        · show 16 * k.val + 256 ≤ (y 1).val ∧ (y 1).val < 16 * k.val + 256 + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off89_eq]
        intro a; fin_cases a
        · show 18 ≤ (y 0).val ∧ (y 0).val < 18 + 1
          omega
        · show 16 * k.val + 256 ≤ (y 1).val ∧ (y 1).val < 16 * k.val + 256 + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off90_eq]
        intro a; fin_cases a
        · show 19 ≤ (y 0).val ∧ (y 0).val < 19 + 1
          omega
        · show 16 * k.val + 256 ≤ (y 1).val ∧ (y 1).val < 16 * k.val + 256 + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off91_eq]
        intro a; fin_cases a
        · show 20 ≤ (y 0).val ∧ (y 0).val < 20 + 1
          omega
        · show 16 * k.val + 256 ≤ (y 1).val ∧ (y 1).val < 16 * k.val + 256 + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off92_eq]
        intro a; fin_cases a
        · show 21 ≤ (y 0).val ∧ (y 0).val < 21 + 1
          omega
        · show 16 * k.val + 256 ≤ (y 1).val ∧ (y 1).val < 16 * k.val + 256 + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off93_eq]
        intro a; fin_cases a
        · show 22 ≤ (y 0).val ∧ (y 0).val < 22 + 1
          omega
        · show 16 * k.val + 256 ≤ (y 1).val ∧ (y 1).val < 16 * k.val + 256 + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off94_eq]
        intro a; fin_cases a
        · show 23 ≤ (y 0).val ∧ (y 0).val < 23 + 1
          omega
        · show 16 * k.val + 256 ≤ (y 1).val ∧ (y 1).val < 16 * k.val + 256 + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off95_eq]
        intro a; fin_cases a
        · show 24 ≤ (y 0).val ∧ (y 0).val < 24 + 1
          omega
        · show 16 * k.val + 256 ≤ (y 1).val ∧ (y 1).val < 16 * k.val + 256 + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off96_eq]
        intro a; fin_cases a
        · show 25 ≤ (y 0).val ∧ (y 0).val < 25 + 1
          omega
        · show 16 * k.val + 256 ≤ (y 1).val ∧ (y 1).val < 16 * k.val + 256 + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off97_eq]
        intro a; fin_cases a
        · show 26 ≤ (y 0).val ∧ (y 0).val < 26 + 1
          omega
        · show 16 * k.val + 256 ≤ (y 1).val ∧ (y 1).val < 16 * k.val + 256 + 16
          omega
      · have hr' : (y 0).val = 27 := hr.symm
        refine ⟨_, (List.Mem.tail _ (List.Mem.tail _ (List.Mem.tail _ (List.Mem.tail _ (List.Mem.head _))))), ?_⟩
        rw [Rect.mem_set_unit, k1_off98_eq]
        intro a; fin_cases a
        · show 27 ≤ (y 0).val ∧ (y 0).val < 27 + 1
          omega
        · show 16 * k.val + 256 ≤ (y 1).val ∧ (y 1).val < 16 * k.val + 256 + 16
          omega
      · have hr' : (y 0).val = 28 := hr.symm
        refine ⟨_, (List.Mem.tail _ (List.Mem.tail _ (List.Mem.tail _ (List.Mem.head _)))), ?_⟩
        rw [Rect.mem_set_unit, k1_off99_eq]
        intro a; fin_cases a
        · show 28 ≤ (y 0).val ∧ (y 0).val < 28 + 1
          omega
        · show 16 * k.val + 256 ≤ (y 1).val ∧ (y 1).val < 16 * k.val + 256 + 16
          omega
      · have hr' : (y 0).val = 29 := hr.symm
        refine ⟨_, (List.Mem.tail _ (List.Mem.tail _ (List.Mem.head _))), ?_⟩
        rw [Rect.mem_set_unit, k1_off100_eq]
        intro a; fin_cases a
        · show 29 ≤ (y 0).val ∧ (y 0).val < 29 + 1
          omega
        · show 16 * k.val + 256 ≤ (y 1).val ∧ (y 1).val < 16 * k.val + 256 + 16
          omega
      · have hr' : (y 0).val = 30 := hr.symm
        refine ⟨_, (List.Mem.tail _ (List.Mem.head _)), ?_⟩
        rw [Rect.mem_set_unit, k1_off101_eq]
        intro a; fin_cases a
        · show 30 ≤ (y 0).val ∧ (y 0).val < 30 + 1
          omega
        · show 16 * k.val + 256 ≤ (y 1).val ∧ (y 1).val < 16 * k.val + 256 + 16
          omega
      · have hr' : (y 0).val = 31 := hr.symm
        refine ⟨_, (List.Mem.head _), ?_⟩
        rw [Rect.mem_set_unit, k1_off102_eq]
        intro a; fin_cases a
        · show 31 ≤ (y 0).val ∧ (y 0).val < 31 + 1
          omega
        · show 16 * k.val + 256 ≤ (y 1).val ∧ (y 1).val < 16 * k.val + 256 + 16
          omega

end Tile
end Cert.Proof.KI
end
-- ==== Proof.KI.TileTripE3.lean ====
/-
  The loop over slab 3 of the staged output: trip k loads the sixteen lane words of ids 128 * 3 + 16 k .. + 15 and,
  for each of the 32 features dd, gathers from the rows buffer the entries (16 k + x, lane word + dd) and stores them
  as row dd, columns 128 * 3 + 16 k .. + 15 of the staged output. Each stored segment holds the output's entries
  (piece_ok); the 32 segments cover the sixteen new columns; earlier columns are kept.
-/
import proofs.«217943_g20899310862962_cont_8to1_1374_33_alg».proof.Proof.KI.TileInv
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

set_option maxHeartbeats 4000000 in
set_option sl_exec.dischHeartbeats 100000 in
theorem tripE3 (U : Buf (Elt F) ((thrV d L).loc cc1_scratch0)) (twc : Buf (Elt F) (twLoc d)) (v2 : BitVec 32) (k : Fin k1_t5_loop.trips)
    (fL : Buf (Elt F) ((thrV d L).loc cc1_scratch2)) (fR : Buf (Elt F) ((thrV d L).loc cc1_scratch4))
    (hL : ∀ y, (sLane).view.read (Elt F) fL y = laneW d L U y) (hLb : ∀ y, (laneW d L U y).toNat ≤ 96)
    (hR : ∀ y, (sRB).view.read (Elt F) fR y = Grow d L U twc 3 y) :
    invE3 d L U twc fL fR k.val ⟨⟩
      ⊢ wp frame (wpE (defs₀ (F := F)) 𝒱₀ (thrV d L) none) Set.univ
          (k1_t5_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE3 d L U twc fL fR (k.val + 1)) := by
  have hk : k.val < 8 := lt_of_lt_of_le k.isLt k1_t5_abs.2.1
  have h63 : ∀ x : S16.Idx, (k1_pay100 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay100 (iota .scVector S16 32 [0] iota_S16_d0_w32_scVector) 0#32 1#32 k, addi ((sLane).view.readAt (Elt F) (Rect.unit (s := S512) (k1_off103 k) S16.size (k1_off103_inb k)).toLoadRect fL) (broadcast S16 c)] : Fin 2 → IVec S16 32) a x).toNat < S128x128.size a := by
    intro c hc a x
    have hx : (x 0).val < 16 := (x 0).isLt
    fin_cases a
    · show (k1_pay100 (iota .scVector S16 32 [0] iota_S16_d0_w32_scVector) 0#32 1#32 k x).toNat < 128
      rw [h63]; omega
    · show (IntOp.addi ((sLane).view.read (Elt F) fL ((Rect.unit (s := S512) (k1_off103 k) S16.size (k1_off103_inb k)).toLoadRect.idx x)) c).toNat < 128
      rw [hL, addw_toNat _ _ (hLb _) hc]
      have := hLb ((Rect.unit (s := S512) (k1_off103 k) S16.size (k1_off103_inb k)).toLoadRect.idx x)
      omega
  unfold k1_t5_body
  simp only [k1_part19_eq_skeleton, k1_part20_eq_skeleton, k1_part21_eq_skeleton, k1_part22_eq_skeleton, k1_part23_eq_skeleton, k1_part24_eq_skeleton]
  unfold k1_part19_skel k1_part20_skel k1_part21_skel k1_part22_skel k1_part23_skel k1_part24_skel
  simp only [SparseCore.vectorLoadIdx_bind (thrV d L)]
  unfold invE3
  iintro ⟨HL, HR, ⟨%fO, HOut, %hO⟩⟩
  sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm)
  repeat (sl_rw [SparseCore.vectorLoadIdx_bind (thrV d L)]; sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 384 + 16 * k.val)
  refine key _ ?hw hO y ?cov
  case hw =>
    intro p hp
    rcases List.mem_cons.1 hp with rfl | hp
    · intro x
      exact piece_ok d L U twc 3 k.val 31 (16 * k.val + 384) (by omega) hk (by omega) (by omega) _ _ hR _ hL hLb _ h63 _ (k1_off103_eq k) (k1_off103_inb k) 31#32 rfl _ (k1_off135_eq k) (k1_off135_inb k) _ x
    rcases List.mem_cons.1 hp with rfl | hp
    · intro x
      exact piece_ok d L U twc 3 k.val 30 (16 * k.val + 384) (by omega) hk (by omega) (by omega) _ _ hR _ hL hLb _ h63 _ (k1_off103_eq k) (k1_off103_inb k) 30#32 rfl _ (k1_off134_eq k) (k1_off134_inb k) _ x
    rcases List.mem_cons.1 hp with rfl | hp
    · intro x
      exact piece_ok d L U twc 3 k.val 29 (16 * k.val + 384) (by omega) hk (by omega) (by omega) _ _ hR _ hL hLb _ h63 _ (k1_off103_eq k) (k1_off103_inb k) 29#32 rfl _ (k1_off133_eq k) (k1_off133_inb k) _ x
    rcases List.mem_cons.1 hp with rfl | hp
    · intro x
      exact piece_ok d L U twc 3 k.val 28 (16 * k.val + 384) (by omega) hk (by omega) (by omega) _ _ hR _ hL hLb _ h63 _ (k1_off103_eq k) (k1_off103_inb k) 28#32 rfl _ (k1_off132_eq k) (k1_off132_inb k) _ x
    rcases List.mem_cons.1 hp with rfl | hp
    · intro x
      exact piece_ok d L U twc 3 k.val 27 (16 * k.val + 384) (by omega) hk (by omega) (by omega) _ _ hR _ hL hLb _ h63 _ (k1_off103_eq k) (k1_off103_inb k) 27#32 rfl _ (k1_off131_eq k) (k1_off131_inb k) _ x
    rcases List.mem_cons.1 hp with rfl | hp
    · intro x
      exact piece_ok d L U twc 3 k.val 26 (16 * k.val + 384) (by omega) hk (by omega) (by omega) _ _ hR _ hL hLb _ h63 _ (k1_off103_eq k) (k1_off103_inb k) 26#32 rfl _ (k1_off130_eq k) (k1_off130_inb k) _ x
    rcases List.mem_cons.1 hp with rfl | hp
    · intro x
      exact piece_ok d L U twc 3 k.val 25 (16 * k.val + 384) (by omega) hk (by omega) (by omega) _ _ hR _ hL hLb _ h63 _ (k1_off103_eq k) (k1_off103_inb k) 25#32 rfl _ (k1_off129_eq k) (k1_off129_inb k) _ x
    rcases List.mem_cons.1 hp with rfl | hp
    · intro x
      exact piece_ok d L U twc 3 k.val 24 (16 * k.val + 384) (by omega) hk (by omega) (by omega) _ _ hR _ hL hLb _ h63 _ (k1_off103_eq k) (k1_off103_inb k) 24#32 rfl _ (k1_off128_eq k) (k1_off128_inb k) _ x
    rcases List.mem_cons.1 hp with rfl | hp
    · intro x
      exact piece_ok d L U twc 3 k.val 23 (16 * k.val + 384) (by omega) hk (by omega) (by omega) _ _ hR _ hL hLb _ h63 _ (k1_off103_eq k) (k1_off103_inb k) 23#32 rfl _ (k1_off127_eq k) (k1_off127_inb k) _ x
    rcases List.mem_cons.1 hp with rfl | hp
    · intro x
      exact piece_ok d L U twc 3 k.val 22 (16 * k.val + 384) (by omega) hk (by omega) (by omega) _ _ hR _ hL hLb _ h63 _ (k1_off103_eq k) (k1_off103_inb k) 22#32 rfl _ (k1_off126_eq k) (k1_off126_inb k) _ x
    rcases List.mem_cons.1 hp with rfl | hp
    · intro x
      exact piece_ok d L U twc 3 k.val 21 (16 * k.val + 384) (by omega) hk (by omega) (by omega) _ _ hR _ hL hLb _ h63 _ (k1_off103_eq k) (k1_off103_inb k) 21#32 rfl _ (k1_off125_eq k) (k1_off125_inb k) _ x
    rcases List.mem_cons.1 hp with rfl | hp
    · intro x
      exact piece_ok d L U twc 3 k.val 20 (16 * k.val + 384) (by omega) hk (by omega) (by omega) _ _ hR _ hL hLb _ h63 _ (k1_off103_eq k) (k1_off103_inb k) 20#32 rfl _ (k1_off124_eq k) (k1_off124_inb k) _ x
    rcases List.mem_cons.1 hp with rfl | hp
    · intro x
      exact piece_ok d L U twc 3 k.val 19 (16 * k.val + 384) (by omega) hk (by omega) (by omega) _ _ hR _ hL hLb _ h63 _ (k1_off103_eq k) (k1_off103_inb k) 19#32 rfl _ (k1_off123_eq k) (k1_off123_inb k) _ x
    rcases List.mem_cons.1 hp with rfl | hp
    · intro x
      exact piece_ok d L U twc 3 k.val 18 (16 * k.val + 384) (by omega) hk (by omega) (by omega) _ _ hR _ hL hLb _ h63 _ (k1_off103_eq k) (k1_off103_inb k) 18#32 rfl _ (k1_off122_eq k) (k1_off122_inb k) _ x
    rcases List.mem_cons.1 hp with rfl | hp
    · intro x
      exact piece_ok d L U twc 3 k.val 17 (16 * k.val + 384) (by omega) hk (by omega) (by omega) _ _ hR _ hL hLb _ h63 _ (k1_off103_eq k) (k1_off103_inb k) 17#32 rfl _ (k1_off121_eq k) (k1_off121_inb k) _ x
    rcases List.mem_cons.1 hp with rfl | hp
    · intro x
      exact piece_ok d L U twc 3 k.val 16 (16 * k.val + 384) (by omega) hk (by omega) (by omega) _ _ hR _ hL hLb _ h63 _ (k1_off103_eq k) (k1_off103_inb k) 16#32 rfl _ (k1_off120_eq k) (k1_off120_inb k) _ x
    rcases List.mem_cons.1 hp with rfl | hp
    · intro x
      exact piece_ok d L U twc 3 k.val 15 (16 * k.val + 384) (by omega) hk (by omega) (by omega) _ _ hR _ hL hLb _ h63 _ (k1_off103_eq k) (k1_off103_inb k) 15#32 rfl _ (k1_off119_eq k) (k1_off119_inb k) _ x
    rcases List.mem_cons.1 hp with rfl | hp
    · intro x
      exact piece_ok d L U twc 3 k.val 14 (16 * k.val + 384) (by omega) hk (by omega) (by omega) _ _ hR _ hL hLb _ h63 _ (k1_off103_eq k) (k1_off103_inb k) 14#32 rfl _ (k1_off118_eq k) (k1_off118_inb k) _ x
    rcases List.mem_cons.1 hp with rfl | hp
    · intro x
      exact piece_ok d L U twc 3 k.val 13 (16 * k.val + 384) (by omega) hk (by omega) (by omega) _ _ hR _ hL hLb _ h63 _ (k1_off103_eq k) (k1_off103_inb k) 13#32 rfl _ (k1_off117_eq k) (k1_off117_inb k) _ x
    rcases List.mem_cons.1 hp with rfl | hp
    · intro x
      exact piece_ok d L U twc 3 k.val 12 (16 * k.val + 384) (by omega) hk (by omega) (by omega) _ _ hR _ hL hLb _ h63 _ (k1_off103_eq k) (k1_off103_inb k) 12#32 rfl _ (k1_off116_eq k) (k1_off116_inb k) _ x
    rcases List.mem_cons.1 hp with rfl | hp
    · intro x
      exact piece_ok d L U twc 3 k.val 11 (16 * k.val + 384) (by omega) hk (by omega) (by omega) _ _ hR _ hL hLb _ h63 _ (k1_off103_eq k) (k1_off103_inb k) 11#32 rfl _ (k1_off115_eq k) (k1_off115_inb k) _ x
    rcases List.mem_cons.1 hp with rfl | hp
    · intro x
      exact piece_ok d L U twc 3 k.val 10 (16 * k.val + 384) (by omega) hk (by omega) (by omega) _ _ hR _ hL hLb _ h63 _ (k1_off103_eq k) (k1_off103_inb k) 10#32 rfl _ (k1_off114_eq k) (k1_off114_inb k) _ x
    rcases List.mem_cons.1 hp with rfl | hp
    · intro x
      exact piece_ok d L U twc 3 k.val 9 (16 * k.val + 384) (by omega) hk (by omega) (by omega) _ _ hR _ hL hLb _ h63 _ (k1_off103_eq k) (k1_off103_inb k) 9#32 rfl _ (k1_off113_eq k) (k1_off113_inb k) _ x
    rcases List.mem_cons.1 hp with rfl | hp
    · intro x
      exact piece_ok d L U twc 3 k.val 8 (16 * k.val + 384) (by omega) hk (by omega) (by omega) _ _ hR _ hL hLb _ h63 _ (k1_off103_eq k) (k1_off103_inb k) 8#32 rfl _ (k1_off112_eq k) (k1_off112_inb k) _ x
    rcases List.mem_cons.1 hp with rfl | hp
    · intro x
      exact piece_ok d L U twc 3 k.val 7 (16 * k.val + 384) (by omega) hk (by omega) (by omega) _ _ hR _ hL hLb _ h63 _ (k1_off103_eq k) (k1_off103_inb k) 7#32 rfl _ (k1_off111_eq k) (k1_off111_inb k) _ x
    rcases List.mem_cons.1 hp with rfl | hp
    · intro x
      exact piece_ok d L U twc 3 k.val 6 (16 * k.val + 384) (by omega) hk (by omega) (by omega) _ _ hR _ hL hLb _ h63 _ (k1_off103_eq k) (k1_off103_inb k) 6#32 rfl _ (k1_off110_eq k) (k1_off110_inb k) _ x
    rcases List.mem_cons.1 hp with rfl | hp
    · intro x
      exact piece_ok d L U twc 3 k.val 5 (16 * k.val + 384) (by omega) hk (by omega) (by omega) _ _ hR _ hL hLb _ h63 _ (k1_off103_eq k) (k1_off103_inb k) 5#32 rfl _ (k1_off109_eq k) (k1_off109_inb k) _ x
    rcases List.mem_cons.1 hp with rfl | hp
    · intro x
      exact piece_ok d L U twc 3 k.val 4 (16 * k.val + 384) (by omega) hk (by omega) (by omega) _ _ hR _ hL hLb _ h63 _ (k1_off103_eq k) (k1_off103_inb k) 4#32 rfl _ (k1_off108_eq k) (k1_off108_inb k) _ x
    rcases List.mem_cons.1 hp with rfl | hp
    · intro x
      exact piece_ok d L U twc 3 k.val 3 (16 * k.val + 384) (by omega) hk (by omega) (by omega) _ _ hR _ hL hLb _ h63 _ (k1_off103_eq k) (k1_off103_inb k) 3#32 rfl _ (k1_off107_eq k) (k1_off107_inb k) _ x
    rcases List.mem_cons.1 hp with rfl | hp
    · intro x
      exact piece_ok d L U twc 3 k.val 2 (16 * k.val + 384) (by omega) hk (by omega) (by omega) _ _ hR _ hL hLb _ h63 _ (k1_off103_eq k) (k1_off103_inb k) 2#32 rfl _ (k1_off106_eq k) (k1_off106_inb k) _ x
    rcases List.mem_cons.1 hp with rfl | hp
    · intro x
      exact piece_ok d L U twc 3 k.val 1 (16 * k.val + 384) (by omega) hk (by omega) (by omega) _ _ hR _ hL hLb _ h63 _ (k1_off103_eq k) (k1_off103_inb k) 1#32 rfl _ (k1_off105_eq k) (k1_off105_inb k) _ x
    rcases List.mem_cons.1 hp with rfl | hp
    · intro x
      exact piece_ok d L U twc 3 k.val 0 (16 * k.val + 384) (by omega) hk (by omega) (by omega) _ _ hR _ hL hLb _ h63 _ (k1_off103_eq k) (k1_off103_inb k) 0#32 rfl _ (k1_off104_eq k) (k1_off104_inb k) _ x
    cases hp
  case cov =>
    by_cases h : (y 1).val < 384 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off104_eq]
        intro a; fin_cases a
        · show 0 ≤ (y 0).val ∧ (y 0).val < 0 + 1
          omega
        · show 16 * k.val + 384 ≤ (y 1).val ∧ (y 1).val < 16 * k.val + 384 + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off105_eq]
        intro a; fin_cases a
        · show 1 ≤ (y 0).val ∧ (y 0).val < 1 + 1
          omega
        · show 16 * k.val + 384 ≤ (y 1).val ∧ (y 1).val < 16 * k.val + 384 + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off106_eq]
        intro a; fin_cases a
        · show 2 ≤ (y 0).val ∧ (y 0).val < 2 + 1
          omega
        · show 16 * k.val + 384 ≤ (y 1).val ∧ (y 1).val < 16 * k.val + 384 + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off107_eq]
        intro a; fin_cases a
        · show 3 ≤ (y 0).val ∧ (y 0).val < 3 + 1
          omega
        · show 16 * k.val + 384 ≤ (y 1).val ∧ (y 1).val < 16 * k.val + 384 + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off108_eq]
        intro a; fin_cases a
        · show 4 ≤ (y 0).val ∧ (y 0).val < 4 + 1
          omega
        · show 16 * k.val + 384 ≤ (y 1).val ∧ (y 1).val < 16 * k.val + 384 + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off109_eq]
        intro a; fin_cases a
        · show 5 ≤ (y 0).val ∧ (y 0).val < 5 + 1
          omega
        · show 16 * k.val + 384 ≤ (y 1).val ∧ (y 1).val < 16 * k.val + 384 + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off110_eq]
        intro a; fin_cases a
        · show 6 ≤ (y 0).val ∧ (y 0).val < 6 + 1
          omega
        · show 16 * k.val + 384 ≤ (y 1).val ∧ (y 1).val < 16 * k.val + 384 + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off111_eq]
        intro a; fin_cases a
        · show 7 ≤ (y 0).val ∧ (y 0).val < 7 + 1
          omega
        · show 16 * k.val + 384 ≤ (y 1).val ∧ (y 1).val < 16 * k.val + 384 + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off112_eq]
        intro a; fin_cases a
        · show 8 ≤ (y 0).val ∧ (y 0).val < 8 + 1
          omega
        · show 16 * k.val + 384 ≤ (y 1).val ∧ (y 1).val < 16 * k.val + 384 + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off113_eq]
        intro a; fin_cases a
        · show 9 ≤ (y 0).val ∧ (y 0).val < 9 + 1
          omega
        · show 16 * k.val + 384 ≤ (y 1).val ∧ (y 1).val < 16 * k.val + 384 + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off114_eq]
        intro a; fin_cases a
        · show 10 ≤ (y 0).val ∧ (y 0).val < 10 + 1
          omega
        · show 16 * k.val + 384 ≤ (y 1).val ∧ (y 1).val < 16 * k.val + 384 + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off115_eq]
        intro a; fin_cases a
        · show 11 ≤ (y 0).val ∧ (y 0).val < 11 + 1
          omega
        · show 16 * k.val + 384 ≤ (y 1).val ∧ (y 1).val < 16 * k.val + 384 + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off116_eq]
        intro a; fin_cases a
        · show 12 ≤ (y 0).val ∧ (y 0).val < 12 + 1
          omega
        · show 16 * k.val + 384 ≤ (y 1).val ∧ (y 1).val < 16 * k.val + 384 + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off117_eq]
        intro a; fin_cases a
        · show 13 ≤ (y 0).val ∧ (y 0).val < 13 + 1
          omega
        · show 16 * k.val + 384 ≤ (y 1).val ∧ (y 1).val < 16 * k.val + 384 + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off118_eq]
        intro a; fin_cases a
        · show 14 ≤ (y 0).val ∧ (y 0).val < 14 + 1
          omega
        · show 16 * k.val + 384 ≤ (y 1).val ∧ (y 1).val < 16 * k.val + 384 + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off119_eq]
        intro a; fin_cases a
        · show 15 ≤ (y 0).val ∧ (y 0).val < 15 + 1
          omega
        · show 16 * k.val + 384 ≤ (y 1).val ∧ (y 1).val < 16 * k.val + 384 + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off120_eq]
        intro a; fin_cases a
        · show 16 ≤ (y 0).val ∧ (y 0).val < 16 + 1
          omega
        · show 16 * k.val + 384 ≤ (y 1).val ∧ (y 1).val < 16 * k.val + 384 + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off121_eq]
        intro a; fin_cases a
        · show 17 ≤ (y 0).val ∧ (y 0).val < 17 + 1
          omega
        · show 16 * k.val + 384 ≤ (y 1).val ∧ (y 1).val < 16 * k.val + 384 + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off122_eq]
        intro a; fin_cases a
        · show 18 ≤ (y 0).val ∧ (y 0).val < 18 + 1
          omega
        · show 16 * k.val + 384 ≤ (y 1).val ∧ (y 1).val < 16 * k.val + 384 + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off123_eq]
        intro a; fin_cases a
        · show 19 ≤ (y 0).val ∧ (y 0).val < 19 + 1
          omega
        · show 16 * k.val + 384 ≤ (y 1).val ∧ (y 1).val < 16 * k.val + 384 + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off124_eq]
        intro a; fin_cases a
        · show 20 ≤ (y 0).val ∧ (y 0).val < 20 + 1
          omega
        · show 16 * k.val + 384 ≤ (y 1).val ∧ (y 1).val < 16 * k.val + 384 + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off125_eq]
        intro a; fin_cases a
        · show 21 ≤ (y 0).val ∧ (y 0).val < 21 + 1
          omega
        · show 16 * k.val + 384 ≤ (y 1).val ∧ (y 1).val < 16 * k.val + 384 + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off126_eq]
        intro a; fin_cases a
        · show 22 ≤ (y 0).val ∧ (y 0).val < 22 + 1
          omega
        · show 16 * k.val + 384 ≤ (y 1).val ∧ (y 1).val < 16 * k.val + 384 + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off127_eq]
        intro a; fin_cases a
        · show 23 ≤ (y 0).val ∧ (y 0).val < 23 + 1
          omega
        · show 16 * k.val + 384 ≤ (y 1).val ∧ (y 1).val < 16 * k.val + 384 + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off128_eq]
        intro a; fin_cases a
        · show 24 ≤ (y 0).val ∧ (y 0).val < 24 + 1
          omega
        · show 16 * k.val + 384 ≤ (y 1).val ∧ (y 1).val < 16 * k.val + 384 + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off129_eq]
        intro a; fin_cases a
        · show 25 ≤ (y 0).val ∧ (y 0).val < 25 + 1
          omega
        · show 16 * k.val + 384 ≤ (y 1).val ∧ (y 1).val < 16 * k.val + 384 + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off130_eq]
        intro a; fin_cases a
        · show 26 ≤ (y 0).val ∧ (y 0).val < 26 + 1
          omega
        · show 16 * k.val + 384 ≤ (y 1).val ∧ (y 1).val < 16 * k.val + 384 + 16
          omega
      · have hr' : (y 0).val = 27 := hr.symm
        refine ⟨_, (List.Mem.tail _ (List.Mem.tail _ (List.Mem.tail _ (List.Mem.tail _ (List.Mem.head _))))), ?_⟩
        rw [Rect.mem_set_unit, k1_off131_eq]
        intro a; fin_cases a
        · show 27 ≤ (y 0).val ∧ (y 0).val < 27 + 1
          omega
        · show 16 * k.val + 384 ≤ (y 1).val ∧ (y 1).val < 16 * k.val + 384 + 16
          omega
      · have hr' : (y 0).val = 28 := hr.symm
        refine ⟨_, (List.Mem.tail _ (List.Mem.tail _ (List.Mem.tail _ (List.Mem.head _)))), ?_⟩
        rw [Rect.mem_set_unit, k1_off132_eq]
        intro a; fin_cases a
        · show 28 ≤ (y 0).val ∧ (y 0).val < 28 + 1
          omega
        · show 16 * k.val + 384 ≤ (y 1).val ∧ (y 1).val < 16 * k.val + 384 + 16
          omega
      · have hr' : (y 0).val = 29 := hr.symm
        refine ⟨_, (List.Mem.tail _ (List.Mem.tail _ (List.Mem.head _))), ?_⟩
        rw [Rect.mem_set_unit, k1_off133_eq]
        intro a; fin_cases a
        · show 29 ≤ (y 0).val ∧ (y 0).val < 29 + 1
          omega
        · show 16 * k.val + 384 ≤ (y 1).val ∧ (y 1).val < 16 * k.val + 384 + 16
          omega
      · have hr' : (y 0).val = 30 := hr.symm
        refine ⟨_, (List.Mem.tail _ (List.Mem.head _)), ?_⟩
        rw [Rect.mem_set_unit, k1_off134_eq]
        intro a; fin_cases a
        · show 30 ≤ (y 0).val ∧ (y 0).val < 30 + 1
          omega
        · show 16 * k.val + 384 ≤ (y 1).val ∧ (y 1).val < 16 * k.val + 384 + 16
          omega
      · have hr' : (y 0).val = 31 := hr.symm
        refine ⟨_, (List.Mem.head _), ?_⟩
        rw [Rect.mem_set_unit, k1_off135_eq]
        intro a; fin_cases a
        · show 31 ≤ (y 0).val ∧ (y 0).val < 31 + 1
          omega
        · show 16 * k.val + 384 ≤ (y 1).val ∧ (y 1).val < 16 * k.val + 384 + 16
          omega

end Tile
end Cert.Proof.KI
end
-- ==== Proof.KI.TileBodyFull.lean ====
/-
  The task's body with the trips of all four extract loops supplied.
-/
import proofs.«217943_g20899310862962_cont_8to1_1374_33_alg».proof.Proof.KI.TileBody
import proofs.«217943_g20899310862962_cont_8to1_1374_33_alg».proof.Proof.KI.TileTripE1
import proofs.«217943_g20899310862962_cont_8to1_1374_33_alg».proof.Proof.KI.TileTripE2
import proofs.«217943_g20899310862962_cont_8to1_1374_33_alg».proof.Proof.KI.TileTripE3
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (pv : Fin 100001 → Fin 32 → F .f32) (Ok : Prop)
variable [FloatOps F]

section Tile
variable (d : Dev nD) (L : grid1.Coords)

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m pv Ok d (wL L)
        ∗ scopedBufs (thrV d L) ∗ scopedSems0 (thrV d L) ∗ owes (thrV d L) O W)
      ⊢ wp frame (wpE (defs₀ (F := F)) 𝒱₀ (thrV d L) none) Set.univ
          (cc1_gather_kernel L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0)
          fun _ => iprop(tdW m pv Ok d (wL L) ∗ scopedBufs (thrV d L) ∗ scopedSems0 (thrV d L)
            ∗ ∃ W', ⌜∀ p ∈ W', p ∈ W ∨ p.2 = none⌝ ∗ owes (thrV d L) O W') := by
  exact tile_body_of m pv Ok d L
    (fun U twc v2 k fL fR hL hLb hR => tripE1 (F := F) d L U twc v2 k fL fR hL hLb hR)
    (fun U twc v2 k fL fR hL hLb hR => tripE2 (F := F) d L U twc v2 k fL fR hL hLb hR)
    (fun U twc v2 k fL fR hL hLb hR => tripE3 (F := F) d L U twc v2 k fL fR hL hLb hR)
    hF hpre O W hO

end Tile
end Cert.Proof.KI
end
-- ==== Proof.KI.TileAuxRObl.lean ====
/-
  The SparseCore kernel's task, as the launch theorem asks for it. The launch theorem wants, for every vector subcore
  (c, i) of the call's grid, the label's body run from the task's share to its results; the label's body on that
  subcore is the printed kernel at the grid point (c, i) on the whole arrays and the subcore's scratch, the task's
  share is worker 2 i + c's, and the worker at grid point (c, i) is that worker. So a proof of the kernel's body at
  every grid point is the obligation, its post weakened to the launch theorem's.
-/
import proofs.«217943_g20899310862962_cont_8to1_1374_33_alg».proof.Proof.KI.TileSets

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (pv : Fin 100001 → Fin 32 → F .f32) (Ok : Prop)

/-- The grid point of SparseCore c, vector subcore s. -/
def coordsV (c : Fin (grid1.bound 0)) (s : Fin (grid1.bound 1)) : grid1.Coords :=
  fun | 0 => c | 1 => s | ⟨_ + 2, h⟩ => absurd h (Nat.not_lt.2 (Nat.le_add_left _ _))

/-- The kernel's label on a vector subcore is the printed kernel at the subcore's grid point, on the whole arrays and
    the subcore's scratch. -/
theorem defs₀_vector (c : Fin τ.nSC) (s : Fin τ.nSub) :
    defs₀ (F := F) (.scVector c s) 1 ()
      = SparseCore.onTile hcore1 hsub1 (fun c s => cc1_gather_kernel (coordsV c s)
          aTW (Memref.isWhole_whole _) aU (Memref.isWhole_whole _) aO (Memref.isWhole_whole _)
          sUid (Memref.isWhole_whole _) sIdx (Memref.isWhole_whole _) sLane (Memref.isWhole_whole _)
          sRA (Memref.isWhole_whole _) sRB (Memref.isWhole_whole _) sOut (Memref.isWhole_whole _)
          cc1_scratch6 cc1_scratch7 cc1_scratch8 cc1_scoped0) ⟨⟩ c s := rfl

omit [FloatOps F] in
/-- The post a task's proof ends in is the launch theorem's: waits left over from the kernel's own protocol are
    allowed there too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The kernel's body at every grid point: from the worker's share and the subcore's scoped storage, the printed
    kernel ends with the worker's results, the scoped storage back, and no wait of its own left. -/
def TileBodyAt : Prop :=
  ∀ (d : Dev nD) (L : grid1.Coords) (O : CellTallies nD τ sig (HIx 1)) (W : Waits sig (HIx 1)), (∀ g, O g none = 0) →
    iprop(levAts (K (F := F)).L (K (F := F)).lev ∗ emp ∗ goW m pv Ok d (wL L) ∗ scopedBufs (thrV d L) ∗ scopedSems0 (thrV d L) ∗ owes (thrV d L) O W)
      ⊢ wp frame (wpE (defs₀ (F := F)) 𝒱₀ (thrV d L) none) Set.univ
          (cc1_gather_kernel L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0)
          fun _ => iprop(tdW m pv Ok d (wL L) ∗ scopedBufs (thrV d L) ∗ scopedSems0 (thrV d L)
            ∗ ∃ W', ⌜∀ p ∈ W', p ∈ W ∨ p.2 = none⌝ ∗ owes (thrV d L) O W')

/-- From the kernel's body at every grid point, the launch theorem's obligation for the call's tasks. -/
theorem tileObl_of (hbody : TileBodyAt (F := F) m pv Ok) :
    (K (F := F)).TileObl (D (F := F)) 𝒱 (P m pv Ok) v₀ 0 := by
  intro d c i O W hO _ _
  -- this kernel owes nothing for a protocol of its own
  simp only [show (P m pv Ok).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KI

end
-- ==== Proof.KI.TileObl.lean ====
/-
  The launch theorem's obligation for the SparseCore call's tasks: the kernel's body, proved at every grid point,
  handed to the launch-side wrapper.
-/
import proofs.«217943_g20899310862962_cont_8to1_1374_33_alg».proof.Proof.KI.TileBodyFull
import proofs.«217943_g20899310862962_cont_8to1_1374_33_alg».proof.Proof.KI.TileAuxRObl

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type} [FloatOps F]

/-- Every task of the call meets the launch theorem's obligation, given that one trip of each of the loops over slabs
    1, 2 and 3 keeps its invariant at every grid point. -/
theorem tileObl_of_trips (m : (ℓ : Loc nD τ sig) → Buf (Elt F) ℓ) (pv : Fin 100001 → Fin 32 → F .f32) (Ok : Prop)
    (hT : ∀ (d : Dev nD) (L : grid1.Coords), TripE1 (F := F) d L ∧ TripE2 (F := F) d L ∧ TripE3 (F := F) d L)
    (hF : (K (F := F)).Facts) (hpre : PreOK m) : (K (F := F)).TileObl (D (F := F)) 𝒱 (P m pv Ok) v₀ 0 :=
  tileObl_of m pv Ok (fun d L O W hO => tile_body_of m pv Ok d L (hT d L).1 (hT d L).2.1 (hT d L).2.2 hF hpre O W hO)

/-- Every task of the call meets the launch theorem's obligation. -/
theorem tileObl (m : (ℓ : Loc nD τ sig) → Buf (Elt F) ℓ) (pv : Fin 100001 → Fin 32 → F .f32) (Ok : Prop)
    (hF : (K (F := F)).Facts) (hpre : PreOK m) : (K (F := F)).TileObl (D (F := F)) 𝒱 (P m pv Ok) v₀ 0 :=
  tileObl_of m pv Ok (fun d L O W hO => tile_body m pv Ok d L hF hpre O W hO)

end Cert.Proof.KI

end
-- ==== Proof.KI.Run.lean ====
import proofs.«217943_g20899310862962_cont_8to1_1374_33_alg».proof.Proof.KI.Common
import proofs.«217943_g20899310862962_cont_8to1_1374_33_alg».proof.Proof.KI.Launch
import proofs.«217943_g20899310862962_cont_8to1_1374_33_alg».proof.Proof.KI.TileObl

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx
variable {F : FTy → Type} [FloatOps F]

local notation "𝕄" => MT nD τ sig (HIx 1) (Elt F) ℕ UU ℕ

/-! ## The program's run -/

variable (m : (ℓ : Loc nD τ sig) → Buf (Elt F) ℓ) (ρ : Dev nD → PrngReg)
variable (pv : Fin 100001 → Fin 32 → F .f32) (Ok : Prop)
variable (OutRel : Fin cfg0.N → (S16384x128.Idx → Elt F .f32) → Prop)

/-- From any memory with zero counters whose ids are rows of the table, every weakly fair execution of the device's
    threads (the TensorCore's @main, two sequencers, thirty-two vector subcores) terminates, nothing faulting, with the
    arguments unchanged and the result as the instance's relation specifies. -/
theorem run_main [∀ e, Nonempty (Elt F e)] (hpre : PreOK m)
    (hOut : ∀ (d : Dev nD) (t : Fin cfg0.N) (Y : (w : Fin cfg0.W) → (cfg0.win w).block.Idx → Elt F (cfg0.win w).elt),
      (∀ w, (rdat (M1 m) OutRel d).Finds w t (Y w)) → OutRel t (k0_pay1 (Y 0) (Y 1) (Y 2) (Y 3) (Y 4) (Y 5)))
    (hTW : ∀ (d : Dev nD) (Fc : Buf (Elt F) (twLoc d)), (rdat (M1 m) OutRel d).ArrAt 6 cfg0.N Fc → TWok pv Ok d Fc) :
    θ_run (Cert.KernelIdeal.defs (F := F)) (Cert.KernelIdeal.threads (F := F)) ⟨m, fun _ => 0, ρ⟩ (QC m pv Ok) :=
  SparseCore.Cfg.θ_run_sc (K := K (F := F)) (D := D (F := F)) (𝒱 := 𝒱) (EH := EH) (P := P m pv Ok) facts v₀
    (fun q hq => match q with | 0 => nomatch hq)
    (fun q _ => match q with | 0 => tileObl m pv Ok facts hpre)
    (fun q _ => match q with | 0 => SparseCore.Cfg.VecSplit.of_plain (vecSplit m pv Ok))
    m ρ main (G (F := F)) (FIN m pv Ok) (u₀ (F := F)) (sep_elim_left.trans (hu₀ m pv Ok)) (hmain m ρ pv Ok OutRel hOut hTW) (fq m pv Ok) (hfin m pv Ok)
    (QC m pv Ok) (fun _ h => h)

end Cert.Proof.KI

end
-- ==== Proof.TCValueHost.lean ====
/-
  The three small arrays the host builds before the TensorCore kernel runs, and the transposed table, each written as
  the composition of the printed operations in the printed order and read at one entry, on the extended reals.

  * the bias row: the bias [32] made a row [1, 32] and written four times side by side, [1, 128]; lane 32c + dd holds
    b[dd];
  * the 4 x 4 identity: the row number plus zero compared with the column number, the bit made a float; entry (a, c) is
    1 when a = c and 0 otherwise;
  * the block-diagonal weights [128, 128]: the identity and W spread over [4, 32, 4, 32], multiplied entry by entry and
    read row-major as [128, 128]; entry (32a + k, 32c + dd) is identity(a, c) * W[k, dd];
  * the transposed table [32, 100001]: entry (k, u) is table[u, k].
-/
import proofs.«217943_g20899310862962_cont_8to1_1374_33_alg».proof.KernelIdeal
import proofs.«217943_g20899310862962_cont_8to1_1374_33_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Proof.TCV

open Idealize.ShloMosaic Idealize.ShloMosaic.ValueIdx
open Cert.KernelIdeal Cert.KernelIdeal.Gen

/-! ## The bias row -/

/-- The bias made a row [1, 32] and concatenated with itself four times along the lanes. -/
def hostB128 (b : FVec Ideal S32 .f32) : FVec Ideal S1x128 .f32 :=
  concatenate S1x128 1
    [⟨S1x32, shapeCast S1x32 b shapeCasts_S32_S1x32⟩, ⟨S1x32, shapeCast S1x32 b shapeCasts_S32_S1x32⟩,
     ⟨S1x32, shapeCast S1x32 b shapeCasts_S32_S1x32⟩, ⟨S1x32, shapeCast S1x32 b shapeCasts_S32_S1x32⟩]
    concatenates_S1x32_S1x32_S1x32_S1x32_S1x128_d1

/-- Lane 32c + dd of the bias row is b[dd]. -/
theorem hostB128_apply (b : FVec Ideal S32 .f32) (c : Fin 4) (dd : Fin 32) :
    hostB128 b (ix2 (n0 := 1) (n1 := 128) 0 ⟨32 * c.val + dd.val, by omega⟩) = b (ix1 (n := 32) dd) := by
  unfold hostB128
  refine (concatenate_replicate_apply (t := S1x128) (s₁ := S1x32) 1 4 (shapeCast S1x32 b shapeCasts_S32_S1x32)
    concatenates_S1x32_S1x32_S1x32_S1x32_S1x128_d1 rfl
    (ix2 (n0 := 1) (n1 := 128) 0 ⟨32 * c.val + dd.val, by omega⟩) (ix2 (n0 := 1) (n1 := 32) 0 dd) ?_ ?_).trans ?_
  · show dd.val = (32 * c.val + dd.val) % 32
    omega
  · intro ax hax
    match ax with
    | ⟨0, _⟩ => rfl
    | ⟨1, _⟩ => exact absurd rfl hax
  · exact shapeCast_a_1a_apply b shapeCasts_S32_S1x32 0 dd

/-! ## The 4 x 4 identity -/

/-- The row number plus a zero, compared for equality with the column number, the bit converted to a float. -/
def hostEye : FVec Ideal S4x4 .f32 :=
  uitofp .f32
    (cmpi .eq
      (addi (iotaInDim S4x4 32 0) (broadcastInDim S4x4 ![] bcast_S_S4x4 (constantI S_ 32 0#32)))
      (iotaInDim S4x4 32 1))

/-- The words compared: row and column numbers below four, as 32-bit words, are equal exactly when the numbers are. -/
theorem eye_bit (a c : Fin 4) :
    IntOp.cmpi .eq (IntOp.addi (BitVec.ofNat 32 a.val) 0#32) (BitVec.ofNat 32 c.val) = if a = c then 1#1 else 0#1 := by
  revert a c
  decide

/-- Entry (a, c) of the identity is 1 on the diagonal and 0 off it. -/
theorem hostEye_apply (a c : Fin 4) :
    hostEye (ix2 (n0 := 4) (n1 := 4) a c) = if a = c then (1 : EReal) else 0 := by
  show FloatOps.uitofp (F := Ideal) .f32
      (IntOp.cmpi .eq (IntOp.addi (BitVec.ofNat 32 a.val) 0#32) (BitVec.ofNat 32 c.val)) = _
  rw [eye_bit]
  by_cases h : a = c
  · rw [if_pos h, if_pos h]
    show (((1#1 : BitVec 1).toNat : ℝ) : EReal) = 1
    simp
  · rw [if_neg h, if_neg h]
    show (((0#1 : BitVec 1).toNat : ℝ) : EReal) = 0
    simp

/-! ## The block-diagonal weights -/

/-- The Kronecker product of a 4 x 4 matrix with W as the host forms it: both spread over [4, 32, 4, 32], multiplied
    entry by entry, and read row-major as [128, 128]. -/
def kronBody (E : FVec Ideal S4x4 .f32) (W : FVec Ideal S32x32 .f32) : FVec Ideal S128x128 .f32 :=
  shapeCast S128x128
    (mulf
      (broadcastInDim S4x32x4x32 ![0, 1, 2, 3] bcast_S4x1x4x1_S4x32x4x32_0_1_2_3
        (broadcastInDim S4x1x4x1 ![0, 2] bcast_S4x4_S4x1x4x1_0_2 E))
      (broadcastInDim S4x32x4x32 ![0, 1, 2, 3] bcast_S1x32x1x32_S4x32x4x32_0_1_2_3
        (broadcastInDim S1x32x1x32 ![1, 3] bcast_S32x32_S1x32x1x32_1_3 W)))
    shapeCasts_S4x32x4x32_S128x128

/-- Entry (32a + k, 32c + dd) of the product is E(a, c) * W(k, dd). -/
theorem kronBody_apply (E : FVec Ideal S4x4 .f32) (W : FVec Ideal S32x32 .f32) (a c : Fin 4) (k dd : Fin 32) :
    kronBody E W (ix2 (n0 := 128) (n1 := 128) ⟨32 * a.val + k.val, by omega⟩ ⟨32 * c.val + dd.val, by omega⟩)
      = E (ix2 (n0 := 4) (n1 := 4) a c) * W (ix2 (n0 := 32) (n1 := 32) k dd) := by
  unfold kronBody
  rw [shapeCast_apply _ shapeCasts_S4x32x4x32_S128x128 _ (ix4 (n0 := 4) (n1 := 32) (n2 := 4) (n3 := 32) a k c dd) (by
    rw [Shape.rowMajor_val_four, Shape.rowMajor_val_two]
    show ((a.val * 32 + k.val) * 4 + c.val) * 32 + dd.val = (32 * a.val + k.val) * 128 + (32 * c.val + dd.val)
    omega)]
  rw [mulf_apply]
  congr 1
  · refine (broadcastInDim_apply _ bcast_S4x1x4x1_S4x32x4x32_0_1_2_3 _ _
      (ix4 (n0 := 4) (n1 := 1) (n2 := 4) (n3 := 1) a 0 c 0) fun ax => ?_).trans
      (broadcastInDim_apply _ bcast_S4x4_S4x1x4x1_0_2 E _ (ix2 (n0 := 4) (n1 := 4) a c) fun ax => ?_)
    · match ax with
      | ⟨0, _⟩ => rfl
      | ⟨1, _⟩ => rfl
      | ⟨2, _⟩ => rfl
      | ⟨3, _⟩ => rfl
    · match ax with
      | ⟨0, _⟩ => rfl
      | ⟨1, _⟩ => rfl
  · refine (broadcastInDim_apply _ bcast_S1x32x1x32_S4x32x4x32_0_1_2_3 _ _
      (ix4 (n0 := 1) (n1 := 32) (n2 := 1) (n3 := 32) 0 k 0 dd) fun ax => ?_).trans
      (broadcastInDim_apply _ bcast_S32x32_S1x32x1x32_1_3 W _ (ix2 (n0 := 32) (n1 := 32) k dd) fun ax => ?_)
    · match ax with
      | ⟨0, _⟩ => rfl
      | ⟨1, _⟩ => rfl
      | ⟨2, _⟩ => rfl
      | ⟨3, _⟩ => rfl
    · match ax with
      | ⟨0, _⟩ => rfl
      | ⟨1, _⟩ => rfl

/-- The weights the kernel is handed: the Kronecker product of the identity with W. -/
def hostW4 (W : FVec Ideal S32x32 .f32) : FVec Ideal S128x128 .f32 := kronBody hostEye W

/-- Entry (32a + k, 32c + dd) of the weights is W(k, dd) on the diagonal blocks and 0 * W(k, dd) off them. -/
theorem hostW4_apply (W : FVec Ideal S32x32 .f32) (a c : Fin 4) (k dd : Fin 32) :
    hostW4 W (ix2 (n0 := 128) (n1 := 128) ⟨32 * a.val + k.val, by omega⟩ ⟨32 * c.val + dd.val, by omega⟩)
      = (if a = c then (1 : EReal) else 0) * W (ix2 (n0 := 32) (n1 := 32) k dd) := by
  unfold hostW4
  rw [kronBody_apply, hostEye_apply]

/-! ## The transposed table -/

/-- The table with its two axes exchanged. -/
def hostTT (T : FVec Ideal S100001x32 .f32) : FVec Ideal S32x100001 .f32 :=
  transpose S32x100001 [1, 0] T transposes_S100001x32_S32x100001_1_0

/-- Entry (k, u) of the transposed table is table[u, k]. -/
theorem hostTT_apply (T : FVec Ideal S100001x32 .f32) (k : Fin 32) (u : Fin 100001) :
    hostTT T (ix2 (n0 := 32) (n1 := 100001) k u) = T (ix2 (n0 := 100001) (n1 := 32) u k) :=
  transpose_ix2_apply T transposes_S100001x32_S32x100001_1_0 k u

end Cert.Proof.TCV

end
-- ==== Proof.TCValuePay.lean ====
/-
  What the TensorCore kernel's body stores, read at one entry, on the extended reals.

  The body stacks four [32, 16384] blocks into x4 [128, 16384], contracts axis 0 of x4 with axis 0 of the [128, 128]
  weights into a zero accumulator, and adds the [1, 128] bias row repeated down the rows. Row 32a + k of x4 is row k of
  block a, so entry (r, q) of the result is
      sum over a < 4 and k < 32 of block_a[k, r] * weights[32a + k, q], plus bias[0, q].
-/
import proofs.«217943_g20899310862962_cont_8to1_1374_33_alg».proof.KernelIdeal
import proofs.«217943_g20899310862962_cont_8to1_1374_33_alg».proof.Proof.Gen.KernelIdeal
import proofs.«217943_g20899310862962_cont_8to1_1374_33_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Proof.TCV

open Idealize.ShloMosaic Idealize.ShloMosaic.ValueIdx
open Cert.KernelIdeal Cert.KernelIdeal.Gen

/-! ## The product that contracts the first axis of both operands -/

/-- The kernel's dimension numbers: contract axis 0 of the left operand with axis 0 of the right, no batch axes. -/
abbrev dotTN : DotDims S128x16384 S128x128 S16384x128 := dot_S128x16384_S128x128_S16384x128_0_0_1_1_n_n

/-- Its contraction shape has one axis, -/
theorem dotTN_rank : dotTN.contr.rank = 1 := rfl

/-- of extent 128. -/
theorem dotTN_size : dotTN.contr.size ⟨0, by rw [dotTN_rank]; exact Nat.one_pos⟩ = 128 := rfl

/-- The product into the zero accumulator at (r, q) is the sum over i < 128 of l(i, r) * w(i, q). -/
theorem matmulTN_zero_apply (l : FVec Ideal S128x16384 .f32) (w : FVec Ideal S128x128 .f32) (r : Fin 16384) (q : Fin 128) :
    matmul dotTN none l w (constant S16384x128 .f32 0x00000000#32) (ix2 (n0 := 16384) (n1 := 128) r q)
      = ∑ i : Fin 128, l (ix2 (n0 := 128) (n1 := 16384) i r) * w (ix2 (n0 := 128) (n1 := 128) i q) := by
  refine (Ideal.matmul_constant_zero_apply dotTN none l w (ix2 (n0 := 16384) (n1 := 128) r q)).trans ?_
  refine (Equiv.sum_comp (contrEquiv1 dotTN 128 dotTN_rank dotTN_size).symm _).symm.trans ?_
  refine Finset.sum_congr rfl fun i _ => ?_
  have hi := contrEquiv1_symm_val dotTN 128 dotTN_rank dotTN_size i
  have hl : dotTN.lhsIdx (ix2 (n0 := 16384) (n1 := 128) r q) ((contrEquiv1 dotTN 128 dotTN_rank dotTN_size).symm i)
      = ix2 (n0 := 128) (n1 := 16384) i r := by
    funext a; apply Fin.ext
    match a with
    | ⟨0, _⟩ => exact (DotDims.lhsIdx_val_of_single dotTN (cl := 0) rfl (ix2 (n0 := 16384) (n1 := 128) r q) _).trans hi
    | ⟨1, _⟩ => simp [DotDims.lhsIdx, dot_S128x16384_S128x128_S16384x128_0_0_1_1_n_n]; rfl
  have hr : dotTN.rhsIdx (ix2 (n0 := 16384) (n1 := 128) r q) ((contrEquiv1 dotTN 128 dotTN_rank dotTN_size).symm i)
      = ix2 (n0 := 128) (n1 := 128) i q := by
    funext a; apply Fin.ext
    match a with
    | ⟨0, _⟩ => exact (DotDims.rhsIdx_val_of_single dotTN (cr := 0) rfl (ix2 (n0 := 16384) (n1 := 128) r q) _).trans hi
    | ⟨1, _⟩ => simp [DotDims.rhsIdx, dot_S128x16384_S128x128_S16384x128_0_0_1_1_n_n]; rfl
  show l _ * w _ = _
  rw [hl, hr]

/-! ## A sum over 128 rows as four sums over 32 -/

/-- Row i < 128 is row k of block a with i = 32a + k: the sum over the rows is the double sum. -/
theorem sum_fin128 (f : Fin 128 → EReal) :
    ∑ i : Fin 128, f i = ∑ a : Fin 4, ∑ k : Fin 32, f ⟨32 * a.val + k.val, by omega⟩ := by
  have e : ∑ i : Fin (4 * 32), f i = ∑ p : Fin 4 × Fin 32, f (finProdFinEquiv p) :=
    (Equiv.sum_comp (finProdFinEquiv (m := 4) (n := 32)) f).symm
  refine e.trans ?_
  rw [Fintype.sum_prod_type]
  refine Finset.sum_congr rfl fun a _ => Finset.sum_congr rfl fun k _ => ?_
  refine congrArg f (Fin.ext ?_)
  show k.val + 32 * a.val = 32 * a.val + k.val
  omega

/-! ## The four blocks stacked -/

/-- Row 32a + k of the stack of four [32, 16384] blocks is row k of block a. -/
theorem stack4_apply (x0 x1 x2 x3 : FVec Ideal S32x16384 .f32) (a : Fin 4) (k : Fin 32) (r : Fin 16384) :
    concatenate S128x16384 0 [⟨S32x16384, x0⟩, ⟨S32x16384, x1⟩, ⟨S32x16384, x2⟩, ⟨S32x16384, x3⟩]
        concatenates_S32x16384_S32x16384_S32x16384_S32x16384_S128x16384_d0
        (ix2 (n0 := 128) (n1 := 16384) ⟨32 * a.val + k.val, by omega⟩ r)
      = (![x0, x1, x2, x3] a) (ix2 (n0 := 32) (n1 := 16384) k r) := by
  have off : ∀ (p : Fin 128) (b : Fin S32x16384.rank),
      b.cast (rfl : S32x16384.rank = S128x16384.rank) ≠ (0 : Fin S128x16384.rank) →
      ((ix2 (n0 := 32) (n1 := 16384) k r) b).val = ((ix2 (n0 := 128) (n1 := 16384) p r) (b.cast rfl)).val := fun p b hb => by
    match b with
    | ⟨0, _⟩ => exact absurd rfl hb
    | ⟨1, _⟩ => rfl
  match a with
  | ⟨0, _⟩ =>
    exact concatenate_apply_piece (t := S128x16384) 0 [⟨S32x16384, x0⟩, ⟨S32x16384, x1⟩, ⟨S32x16384, x2⟩, ⟨S32x16384, x3⟩]
      concatenates_S32x16384_S32x16384_S32x16384_S32x16384_S128x16384_d0 _
      0 (by show 0 < 4; omega) S32x16384 x0 rfl rfl 0 rfl (ix2 (n0 := 32) (n1 := 16384) k r) (off _) (by show 0 + k.val = 32 * 0 + k.val; omega)
  | ⟨1, _⟩ =>
    exact concatenate_apply_piece (t := S128x16384) 0 [⟨S32x16384, x0⟩, ⟨S32x16384, x1⟩, ⟨S32x16384, x2⟩, ⟨S32x16384, x3⟩]
      concatenates_S32x16384_S32x16384_S32x16384_S32x16384_S128x16384_d0 _
      1 (by show 1 < 4; omega) S32x16384 x1 rfl rfl 32 rfl (ix2 (n0 := 32) (n1 := 16384) k r) (off _) (by show 32 + k.val = 32 * 1 + k.val; omega)
  | ⟨2, _⟩ =>
    exact concatenate_apply_piece (t := S128x16384) 0 [⟨S32x16384, x0⟩, ⟨S32x16384, x1⟩, ⟨S32x16384, x2⟩, ⟨S32x16384, x3⟩]
      concatenates_S32x16384_S32x16384_S32x16384_S32x16384_S128x16384_d0 _
      2 (by show 2 < 4; omega) S32x16384 x2 rfl rfl 64 rfl (ix2 (n0 := 32) (n1 := 16384) k r) (off _) (by show 64 + k.val = 32 * 2 + k.val; omega)
  | ⟨3, _⟩ =>
    exact concatenate_apply_piece (t := S128x16384) 0 [⟨S32x16384, x0⟩, ⟨S32x16384, x1⟩, ⟨S32x16384, x2⟩, ⟨S32x16384, x3⟩]
      concatenates_S32x16384_S32x16384_S32x16384_S32x16384_S128x16384_d0 _
      3 (by show 3 < 4; omega) S32x16384 x3 rfl rfl 96 rfl (ix2 (n0 := 32) (n1 := 16384) k r) (off _) (by show 96 + k.val = 32 * 3 + k.val; omega)

/-! ## The payload at an entry -/

/-- Entry (r, 32c + dd) of what the body stores: the double sum over the blocks and their rows of the block's entry
    (k, r) times the weights' entry (32a + k, 32c + dd), plus the bias row's entry there. -/
theorem pay_apply (v0 v2 v4 v6 : Vec Ideal S32x16384 .f32) (v9 : Vec Ideal S128x128 .f32) (v12 : Vec Ideal S1x128 .f32)
    (r : Fin 16384) (c : Fin 4) (dd : Fin 32) :
    k0_pay1 (F := Ideal) v0 v2 v4 v6 v9 v12 (ix2 (n0 := 16384) (n1 := 128) r ⟨32 * c.val + dd.val, by omega⟩)
      = (∑ a : Fin 4, ∑ k : Fin 32, (![v0, v2, v4, v6] a) (ix2 (n0 := 32) (n1 := 16384) k r)
            * v9 (ix2 (n0 := 128) (n1 := 128) ⟨32 * a.val + k.val, by omega⟩ ⟨32 * c.val + dd.val, by omega⟩))
        + v12 (ix2 (n0 := 1) (n1 := 128) 0 ⟨32 * c.val + dd.val, by omega⟩) := by
  unfold k0_pay1
  simp only [shapeCast_self]
  rw [addf_apply, broadcastTo_1b_ab_apply]
  refine congrArg (· + v12 (ix2 (n0 := 1) (n1 := 128) 0 ⟨32 * c.val + dd.val, by omega⟩)) ?_
  refine (matmulTN_zero_apply _ v9 r ⟨32 * c.val + dd.val, by omega⟩).trans ?_
  rw [sum_fin128]
  refine Finset.sum_congr rfl fun a _ => Finset.sum_congr rfl fun k _ => ?_
  rw [stack4_apply]
  simp only [shapeCast_self]

end Cert.Proof.TCV

end
-- ==== Proof.TCValueSpec.lean ====
/-
  The kernel's payload is the dense layer on one table row.

  With the block-diagonal weights (identity(a, c) * W[k, dd] at (32a + k, 32c + dd)) the terms of the payload's double sum
  with a different from c are x * (0 * y) = 0 for every extended real x and y, the infinities included, so no finiteness
  is needed: entry (r, 32c + dd) is the sum over k < 32 of block_c[k, r] * W[k, dd], plus b[dd]. When block c's column r
  holds table row u, that is the dense layer at row u, which is also what the specification states entry by entry.
-/
import proofs.«217943_g20899310862962_cont_8to1_1374_33_alg».proof.Proof.TCValueHost
import proofs.«217943_g20899310862962_cont_8to1_1374_33_alg».proof.Proof.TCValuePay
import proofs.«217943_g20899310862962_cont_8to1_1374_33_alg».proof.Proof.Spec

noncomputable section

open scoped BigOperators

namespace Cert.Proof.TCV

open Idealize.ShloMosaic Idealize.ShloMosaic.ValueIdx
open Cert.KernelIdeal Cert.KernelIdeal.Gen

/-- The dense layer at table row u, output feature dd: the sum over the 32 features k of T[u, k] * W[k, dd], plus b[dd]. -/
def pvI (T : FVec Ideal S100001x32 .f32) (W : FVec Ideal S32x32 .f32) (b : FVec Ideal S32 .f32) (u : Fin 100001)
    (dd : Fin 32) : EReal :=
  (∑ k : Fin 32, T (ix2 (n0 := 100001) (n1 := 32) u k) * W (ix2 (n0 := 32) (n1 := 32) k dd)) + b (ix1 (n := 32) dd)

/-- With the host's weights and bias row, and block c's column r holding table row u, the payload at (r, 32c + dd) is
    the dense layer at row u. -/
theorem pay_eq_pvI (T : FVec Ideal S100001x32 .f32) (W : FVec Ideal S32x32 .f32) (b : FVec Ideal S32 .f32)
    (v0 v2 v4 v6 : Vec Ideal S32x16384 .f32) (r : Fin 16384) (c : Fin 4) (dd : Fin 32) (u : Fin 100001)
    (h : ∀ k : Fin 32, (![v0, v2, v4, v6] c) (ix2 (n0 := 32) (n1 := 16384) k r) = T (ix2 (n0 := 100001) (n1 := 32) u k)) :
    k0_pay1 (F := Ideal) v0 v2 v4 v6 (hostW4 W) (hostB128 b)
        (ix2 (n0 := 16384) (n1 := 128) r ⟨32 * c.val + dd.val, by omega⟩)
      = pvI T W b u dd := by
  rw [pay_apply, hostB128_apply]
  unfold pvI
  refine congrArg (· + b (ix1 (n := 32) dd)) ?_
  simp only [hostW4_apply]
  rw [Finset.sum_eq_single c]
  · refine Finset.sum_congr rfl fun k _ => ?_
    rw [if_pos rfl, one_mul, h k]
  · intro a _ hac
    refine Finset.sum_eq_zero fun k _ => ?_
    rw [if_neg hac, zero_mul, mul_zero]
  · intro hc
    exact absurd (Finset.mem_univ c) hc

/-- The specification, entry by entry, is the dense layer at the row the id names. -/
theorem G_eq_pvI (uu : IVec S16384 32) (T : FVec Ideal S100001x32 .f32) (W : FVec Ideal S32x32 .f32)
    (b : FVec Ideal S32 .f32) (e : Fin 16384) (q : Fin 32) :
    Cert.Spec.G uu T W b (ix2 (n0 := 16384) (n1 := 32) e q)
      = pvI T W b (Cert.Spec.rowOf (uu (ix1 (n := 16384) e))) q := rfl

end Cert.Proof.TCV

end
-- ==== Proof.TCRegionValue.lean ====
/-
  The TensorCore region, read at an entry: what the body finds in its seven staging buffers, that the block it stores is
  the dense layer on the table rows the block covers, and that after both write-backs the packed table holds every table
  row's projection where the lookup reads it.

  The region runs two points t = 0, 1. Window c < 4 stages block min(t + 2c, 6) of the transposed table [32, 100001], in
  blocks of 16384 columns: blocks 0..5 lie inside the table and are fetched whole; block 6 starts at column 98304 and
  overhangs the table's end, so only its first 1697 columns are fetched and nothing is said of the rest. Windows 4 and 5
  stage the whole weights and the whole bias row, fetched at the first point and found again at the second. Window 6 writes
  rows [16384 t, 16384 (t + 1)) of the packed table [32768, 128] back at each point. So at point t the body's payload at
  (r, 32c + dd) is the dense layer at table row (t + 2c) * 16384 + r whenever that is a row of the table and t + 2c <= 6;
  and table row u is found at row u mod 32768, lane group u div 32768.
-/
import proofs.«217943_g20899310862962_cont_8to1_1374_33_alg».proof.Proof.KI.RegionData
import proofs.«217943_g20899310862962_cont_8to1_1374_33_alg».proof.Proof.KI.TileSpec
import proofs.«217943_g20899310862962_cont_8to1_1374_33_alg».proof.Proof.TCValueSpec

noncomputable section

open scoped BigOperators

namespace Cert.Proof.TCV

open Cert.Proof.KI Cert.KernelIdeal Cert.KernelIdeal.Gen
open Idealize.ShloMosaic Idealize.ShloMosaic.ValueIdx
open Idealize.ShloMosaic.TcCoe
open Idealize.ShloMosaic.SparseCore (S V T)
open Idealize.ShloMosaic.SparseCore.Cfg (HIx)
open Idealize.ShloMosaic.Pipeline (RDat Cfg Window)

/-- What point t's block of the packed table must hold: at (r, 32c + dd) the dense layer at table row
    (t + 2c) * 16384 + r, for every such row of the table with t + 2c at most 6. -/
def OutRelI (T : FVec Ideal S100001x32 .f32) (W : FVec Ideal S32x32 .f32) (b : FVec Ideal S32 .f32) (t : Fin cfg0.N)
    (X : S16384x128.Idx → Elt Ideal .f32) : Prop :=
  ∀ (r : Fin 16384) (c : Fin 4) (dd : Fin 32) (u : Fin 100001), u.val = (t.val + 2 * c.val) * 16384 + r.val →
    t.val + 2 * c.val ≤ 6 →
    X (ix2 (n0 := 16384) (n1 := 128) r ⟨32 * c.val + dd.val, by omega⟩) = pvI T W b u dd

variable (M1 : (ℓ : Loc nD τ sig) → Buf (Elt Ideal) ℓ) (OutRel : Fin cfg0.N → (S16384x128.Idx → Elt Ideal .f32) → Prop)

/-! ## The four windows of the transposed table -/

theorem idx0 : ∀ t : Fin grid0.N, win0_0.index t 0 = 0 ∧ win0_0.index t 1 = t.val + 0 := by decide +kernel
theorem xs0 : ∀ t : Fin grid0.N, win0_0.xsize (grid0.coords t) 0 = 32 ∧ win0_0.xsize (grid0.coords t) 1 = 16384 := by decide +kernel

/-- What the body finds in window 0's buffer, on the part of the block inside the table: the transposed table's block
    t + 0. -/
theorem found0 (d : Dev nD) (t : Fin cfg0.N) (X : S32x16384.Idx → Elt Ideal .f32)
    (h : (rdat M1 OutRel d).Finds 0 t X) (k : Fin 32) (r : Fin 16384) (hu : (t.val + 0) * 16384 + r.val < 100001) :
    X (ix2 (n0 := 32) (n1 := 16384) k r)
      = (M1 ((SparseCore.T d : Thread nD τ).loc main_v9) : S32x100001.Idx → Elt Ideal .f32)
          (ix2 (n0 := 32) (n1 := 100001) k ⟨(t.val + 0) * 16384 + r.val, hu⟩) := by
  rw [(rdat M1 OutRel d).finds_of_fetch (fetch0_0 t)] at h
  obtain ⟨d', rfl⟩ := h
  have hm : win0_0.moved (grid0.coords t) (ix2 (n0 := 32) (n1 := 16384) k r) = true := by
    rw [Window.moved_iff]
    intro a
    match a with
    | ⟨0, _⟩ => show k.val < win0_0.xsize (grid0.coords t) 0; rw [(xs0 t).1]; exact k.isLt
    | ⟨1, _⟩ => show r.val < win0_0.xsize (grid0.coords t) 1; rw [(xs0 t).2]; exact r.isLt
  show win0_0.fill (grid0.coords t) d'
    ((win0_0.blk t).view.read (Elt Ideal) (M1 ((SparseCore.T d : Thread nD τ).loc main_v9))) (ix2 (n0 := 32) (n1 := 16384) k r) = _
  unfold Window.fill
  rw [dif_pos hm, View.read_apply]
  refine (cast_eq _ _).trans (congrArg (M1 ((SparseCore.T d : Thread nD τ).loc main_v9) : S32x100001.Idx → Elt Ideal .f32) ?_)
  funext a
  apply Fin.ext
  match a with
  | ⟨0, _⟩ =>
    show win0_0.index t 0 * 32 + 1 * k.val = k.val
    rw [(idx0 t).1]; omega
  | ⟨1, _⟩ =>
    show win0_0.index t 1 * 16384 + 1 * r.val = (t.val + 0) * 16384 + r.val
    rw [(idx0 t).2]; omega

theorem idx1 : ∀ t : Fin grid0.N, win0_1.index t 0 = 0 ∧ win0_1.index t 1 = t.val + 2 := by decide +kernel
theorem xs1 : ∀ t : Fin grid0.N, win0_1.xsize (grid0.coords t) 0 = 32 ∧ win0_1.xsize (grid0.coords t) 1 = 16384 := by decide +kernel

/-- What the body finds in window 1's buffer, on the part of the block inside the table: the transposed table's block
    t + 2. -/
theorem found1 (d : Dev nD) (t : Fin cfg0.N) (X : S32x16384.Idx → Elt Ideal .f32)
    (h : (rdat M1 OutRel d).Finds 1 t X) (k : Fin 32) (r : Fin 16384) (hu : (t.val + 2) * 16384 + r.val < 100001) :
    X (ix2 (n0 := 32) (n1 := 16384) k r)
      = (M1 ((SparseCore.T d : Thread nD τ).loc main_v9) : S32x100001.Idx → Elt Ideal .f32)
          (ix2 (n0 := 32) (n1 := 100001) k ⟨(t.val + 2) * 16384 + r.val, hu⟩) := by
  rw [(rdat M1 OutRel d).finds_of_fetch (fetch0_1 t)] at h
  obtain ⟨d', rfl⟩ := h
  have hm : win0_1.moved (grid0.coords t) (ix2 (n0 := 32) (n1 := 16384) k r) = true := by
    rw [Window.moved_iff]
    intro a
    match a with
    | ⟨0, _⟩ => show k.val < win0_1.xsize (grid0.coords t) 0; rw [(xs1 t).1]; exact k.isLt
    | ⟨1, _⟩ => show r.val < win0_1.xsize (grid0.coords t) 1; rw [(xs1 t).2]; exact r.isLt
  show win0_1.fill (grid0.coords t) d'
    ((win0_1.blk t).view.read (Elt Ideal) (M1 ((SparseCore.T d : Thread nD τ).loc main_v9))) (ix2 (n0 := 32) (n1 := 16384) k r) = _
  unfold Window.fill
  rw [dif_pos hm, View.read_apply]
  refine (cast_eq _ _).trans (congrArg (M1 ((SparseCore.T d : Thread nD τ).loc main_v9) : S32x100001.Idx → Elt Ideal .f32) ?_)
  funext a
  apply Fin.ext
  match a with
  | ⟨0, _⟩ =>
    show win0_1.index t 0 * 32 + 1 * k.val = k.val
    rw [(idx1 t).1]; omega
  | ⟨1, _⟩ =>
    show win0_1.index t 1 * 16384 + 1 * r.val = (t.val + 2) * 16384 + r.val
    rw [(idx1 t).2]; omega

theorem idx2 : ∀ t : Fin grid0.N, win0_2.index t 0 = 0 ∧ win0_2.index t 1 = t.val + 4 := by decide +kernel
theorem xs2 : ∀ t : Fin grid0.N, win0_2.xsize (grid0.coords t) 0 = 32 ∧ win0_2.xsize (grid0.coords t) 1 = 16384 := by decide +kernel

/-- What the body finds in window 2's buffer, on the part of the block inside the table: the transposed table's block
    t + 4. -/
theorem found2 (d : Dev nD) (t : Fin cfg0.N) (X : S32x16384.Idx → Elt Ideal .f32)
    (h : (rdat M1 OutRel d).Finds 2 t X) (k : Fin 32) (r : Fin 16384) (hu : (t.val + 4) * 16384 + r.val < 100001) :
    X (ix2 (n0 := 32) (n1 := 16384) k r)
      = (M1 ((SparseCore.T d : Thread nD τ).loc main_v9) : S32x100001.Idx → Elt Ideal .f32)
          (ix2 (n0 := 32) (n1 := 100001) k ⟨(t.val + 4) * 16384 + r.val, hu⟩) := by
  rw [(rdat M1 OutRel d).finds_of_fetch (fetch0_2 t)] at h
  obtain ⟨d', rfl⟩ := h
  have hm : win0_2.moved (grid0.coords t) (ix2 (n0 := 32) (n1 := 16384) k r) = true := by
    rw [Window.moved_iff]
    intro a
    match a with
    | ⟨0, _⟩ => show k.val < win0_2.xsize (grid0.coords t) 0; rw [(xs2 t).1]; exact k.isLt
    | ⟨1, _⟩ => show r.val < win0_2.xsize (grid0.coords t) 1; rw [(xs2 t).2]; exact r.isLt
  show win0_2.fill (grid0.coords t) d'
    ((win0_2.blk t).view.read (Elt Ideal) (M1 ((SparseCore.T d : Thread nD τ).loc main_v9))) (ix2 (n0 := 32) (n1 := 16384) k r) = _
  unfold Window.fill
  rw [dif_pos hm, View.read_apply]
  refine (cast_eq _ _).trans (congrArg (M1 ((SparseCore.T d : Thread nD τ).loc main_v9) : S32x100001.Idx → Elt Ideal .f32) ?_)
  funext a
  apply Fin.ext
  match a with
  | ⟨0, _⟩ =>
    show win0_2.index t 0 * 32 + 1 * k.val = k.val
    rw [(idx2 t).1]; omega
  | ⟨1, _⟩ =>
    show win0_2.index t 1 * 16384 + 1 * r.val = (t.val + 4) * 16384 + r.val
    rw [(idx2 t).2]; omega

theorem idx3 : ∀ t : Fin grid0.N, win0_3.index t 0 = 0 ∧ win0_3.index t 1 = 6 := by decide +kernel
theorem xs3 : ∀ t : Fin grid0.N, win0_3.xsize (grid0.coords t) 0 = 32 ∧ win0_3.xsize (grid0.coords t) 1 = 1697 := by decide +kernel

/-- What the body finds in window 3's buffer, on the part of the block inside the table: the transposed table's block
    6 (the window is fetched at the first point only, and the block overhangs the table's end). -/
theorem found3 (d : Dev nD) (t : Fin cfg0.N) (X : S32x16384.Idx → Elt Ideal .f32)
    (h : (rdat M1 OutRel d).Finds 3 t X) (k : Fin 32) (r : Fin 16384) (hle : t.val + 6 ≤ 6) (hu : (t.val + 6) * 16384 + r.val < 100001) :
    X (ix2 (n0 := 32) (n1 := 16384) k r)
      = (M1 ((SparseCore.T d : Thread nD τ).loc main_v9) : S32x100001.Idx → Elt Ideal .f32)
          (ix2 (n0 := 32) (n1 := 100001) k ⟨(t.val + 6) * 16384 + r.val, hu⟩) := by
  have ht : t.val = 0 := by omega
  rw [(rdat M1 OutRel d).finds_of_fetch ((fetch0_3 t).mpr (by rw [ht]))] at h
  obtain ⟨d', rfl⟩ := h
  have hm : win0_3.moved (grid0.coords t) (ix2 (n0 := 32) (n1 := 16384) k r) = true := by
    rw [Window.moved_iff]
    intro a
    match a with
    | ⟨0, _⟩ => show k.val < win0_3.xsize (grid0.coords t) 0; rw [(xs3 t).1]; exact k.isLt
    | ⟨1, _⟩ => show r.val < win0_3.xsize (grid0.coords t) 1; rw [(xs3 t).2]; omega
  show win0_3.fill (grid0.coords t) d'
    ((win0_3.blk t).view.read (Elt Ideal) (M1 ((SparseCore.T d : Thread nD τ).loc main_v9))) (ix2 (n0 := 32) (n1 := 16384) k r) = _
  unfold Window.fill
  rw [dif_pos hm, View.read_apply]
  refine (cast_eq _ _).trans (congrArg (M1 ((SparseCore.T d : Thread nD τ).loc main_v9) : S32x100001.Idx → Elt Ideal .f32) ?_)
  funext a
  apply Fin.ext
  match a with
  | ⟨0, _⟩ =>
    show win0_3.index t 0 * 32 + 1 * k.val = k.val
    rw [(idx3 t).1]; omega
  | ⟨1, _⟩ =>
    show win0_3.index t 1 * 16384 + 1 * r.val = (t.val + 6) * 16384 + r.val
    rw [(idx3 t).2]; omega

/-! ## The weights and the bias row -/

theorem idx4 : ∀ t : Fin grid0.N, win0_4.index t 0 = 0 ∧ win0_4.index t 1 = 0 := by decide +kernel
theorem noflush4 : ∀ t : Fin grid0.N, win0_4.flush t = false := by decide +kernel

/-- A buffer of window 4 just fetched holds the whole array. -/
theorem fetched4 (d : Dev nD) (t : Fin cfg0.N) (d' : S128x128.Idx → Elt Ideal .f32) :
    (rdat M1 OutRel d).fetched 4 t d' = (M1 ((SparseCore.T d : Thread nD τ).loc main_v8) : S128x128.Idx → Elt Ideal .f32) := by
  funext j
  show (win0_4.blk t).view.read (Elt Ideal) (M1 ((SparseCore.T d : Thread nD τ).loc main_v8)) j = _
  rw [View.read_apply]
  refine (cast_eq _ _).trans (congrArg (M1 ((SparseCore.T d : Thread nD τ).loc main_v8) : S128x128.Idx → Elt Ideal .f32) ?_)
  funext a
  apply Fin.ext
  match a with
  | ⟨0, _⟩ =>
    show win0_4.index t 0 * 128 + 1 * (j 0).val = (j 0).val
    rw [(idx4 t).1]; omega
  | ⟨1, _⟩ =>
    show win0_4.index t 1 * 128 + 1 * (j 1).val = (j 1).val
    rw [(idx4 t).2]; omega

/-- What the body finds in window 4's buffer at either point: the whole array (fetched at the first point, left as
    found there and not written back, so found again at the second). -/
theorem found4 (d : Dev nD) (t : Fin cfg0.N) (X : S128x128.Idx → Elt Ideal .f32)
    (h : (rdat M1 OutRel d).Finds 4 t X) : X = (M1 ((SparseCore.T d : Thread nD τ).loc main_v8) : S128x128.Idx → Elt Ideal .f32) := by
  rcases fin_N0 t with rfl | rfl
  · rw [(rdat M1 OutRel d).finds_of_fetch ((fetch0_4 t0_0).mpr rfl)] at h
    obtain ⟨d', rfl⟩ := h
    exact fetched4 M1 OutRel d t0_0 d'
  · have hf : (cfg0.win 4).fetch t0_1 = false := by
      cases hb : (cfg0.win 4).fetch t0_1 with
      | false => rfl
      | true => exact absurd ((fetch0_4 t0_1).mp hb) (by decide)
    rw [(rdat M1 OutRel d).finds_of_pos hf (by decide)] at h
    rcases h with h | h
    · exact absurd h (by rw [show (cfg0.win 4).flush _ = win0_4.flush _ from rfl, noflush4]; exact Bool.false_ne_true)
    · obtain ⟨Y, hY, hYX⟩ := h
      have e : X = Y := hYX
      rw [e]
      rw [(rdat M1 OutRel d).finds_of_fetch ((fetch0_4 _).mpr rfl)] at hY
      obtain ⟨d', rfl⟩ := hY
      exact fetched4 M1 OutRel d _ d'

theorem idx5 : ∀ t : Fin grid0.N, win0_5.index t 0 = 0 ∧ win0_5.index t 1 = 0 := by decide +kernel
theorem noflush5 : ∀ t : Fin grid0.N, win0_5.flush t = false := by decide +kernel

/-- A buffer of window 5 just fetched holds the whole array. -/
theorem fetched5 (d : Dev nD) (t : Fin cfg0.N) (d' : S1x128.Idx → Elt Ideal .f32) :
    (rdat M1 OutRel d).fetched 5 t d' = (M1 ((SparseCore.T d : Thread nD τ).loc main_v1) : S1x128.Idx → Elt Ideal .f32) := by
  funext j
  show (win0_5.blk t).view.read (Elt Ideal) (M1 ((SparseCore.T d : Thread nD τ).loc main_v1)) j = _
  rw [View.read_apply]
  refine (cast_eq _ _).trans (congrArg (M1 ((SparseCore.T d : Thread nD τ).loc main_v1) : S1x128.Idx → Elt Ideal .f32) ?_)
  funext a
  apply Fin.ext
  match a with
  | ⟨0, _⟩ =>
    show win0_5.index t 0 * 1 + 1 * (j 0).val = (j 0).val
    rw [(idx5 t).1]; omega
  | ⟨1, _⟩ =>
    show win0_5.index t 1 * 128 + 1 * (j 1).val = (j 1).val
    rw [(idx5 t).2]; omega

/-- What the body finds in window 5's buffer at either point: the whole array (fetched at the first point, left as
    found there and not written back, so found again at the second). -/
theorem found5 (d : Dev nD) (t : Fin cfg0.N) (X : S1x128.Idx → Elt Ideal .f32)
    (h : (rdat M1 OutRel d).Finds 5 t X) : X = (M1 ((SparseCore.T d : Thread nD τ).loc main_v1) : S1x128.Idx → Elt Ideal .f32) := by
  rcases fin_N0 t with rfl | rfl
  · rw [(rdat M1 OutRel d).finds_of_fetch ((fetch0_5 t0_0).mpr rfl)] at h
    obtain ⟨d', rfl⟩ := h
    exact fetched5 M1 OutRel d t0_0 d'
  · have hf : (cfg0.win 5).fetch t0_1 = false := by
      cases hb : (cfg0.win 5).fetch t0_1 with
      | false => rfl
      | true => exact absurd ((fetch0_5 t0_1).mp hb) (by decide)
    rw [(rdat M1 OutRel d).finds_of_pos hf (by decide)] at h
    rcases h with h | h
    · exact absurd h (by rw [show (cfg0.win 5).flush _ = win0_5.flush _ from rfl, noflush5]; exact Bool.false_ne_true)
    · obtain ⟨Y, hY, hYX⟩ := h
      have e : X = Y := hYX
      rw [e]
      rw [(rdat M1 OutRel d).finds_of_fetch ((fetch0_5 _).mpr rfl)] at hY
      obtain ⟨d', rfl⟩ := hY
      exact fetched5 M1 OutRel d _ d'

/-! ## The payload the body stores -/

/-- A lane group is one of four. -/
theorem fin4_cases (c : Fin 4) : c = 0 ∨ c = 1 ∨ c = 2 ∨ c = 3 := by
  revert c
  decide

/-- With the transposed table, the host's weights and the host's bias row in the three arrays when the region is
    entered, whatever the body finds in its buffers at point t, the block it stores is in the relation above. -/
theorem hOutI (T : FVec Ideal S100001x32 .f32) (W : FVec Ideal S32x32 .f32) (b : FVec Ideal S32 .f32)
    (h9 : ∀ d : Dev nD, M1 ((SparseCore.T d).loc main_v9) = hostTT T)
    (h8 : ∀ d : Dev nD, M1 ((SparseCore.T d).loc main_v8) = hostW4 W)
    (h1 : ∀ d : Dev nD, M1 ((SparseCore.T d).loc main_v1) = hostB128 b) :
    ∀ (d : Dev nD) (t : Fin cfg0.N) (Y : (w : Fin cfg0.W) → (cfg0.win w).block.Idx → Elt Ideal (cfg0.win w).elt),
      (∀ w, (rdat M1 (OutRelI T W b) d).Finds w t (Y w)) →
      OutRelI T W b t (k0_pay1 (Y 0) (Y 1) (Y 2) (Y 3) (Y 4) (Y 5)) := by
  intro d t Y hY r c dd u hu hle
  have e4 : Y 4 = hostW4 W := (found4 M1 _ d t (Y 4) (hY 4)).trans (h8 d)
  have e5 : Y 5 = hostB128 b := (found5 M1 _ d t (Y 5) (hY 5)).trans (h1 d)
  rw [e4, e5]
  refine pay_eq_pvI T W b (Y 0) (Y 1) (Y 2) (Y 3) r c dd u fun k => ?_
  have hu' := u.isLt
  rcases fin4_cases c with rfl | rfl | rfl | rfl
  · have hu0 : u.val = (t.val + 0) * 16384 + r.val := hu
    have hle0 : t.val + 0 ≤ 6 := hle
    show Y 0 (ix2 (n0 := 32) (n1 := 16384) k r) = _
    rw [found0 M1 _ d t (Y 0) (hY 0) k r (by omega), h9 d, hostTT_apply]
    exact congrArg (fun p => T (ix2 (n0 := 100001) (n1 := 32) p k)) (Fin.ext hu0.symm)
  · have hu0 : u.val = (t.val + 2) * 16384 + r.val := hu
    have hle0 : t.val + 2 ≤ 6 := hle
    show Y 1 (ix2 (n0 := 32) (n1 := 16384) k r) = _
    rw [found1 M1 _ d t (Y 1) (hY 1) k r (by omega), h9 d, hostTT_apply]
    exact congrArg (fun p => T (ix2 (n0 := 100001) (n1 := 32) p k)) (Fin.ext hu0.symm)
  · have hu0 : u.val = (t.val + 4) * 16384 + r.val := hu
    have hle0 : t.val + 4 ≤ 6 := hle
    show Y 2 (ix2 (n0 := 32) (n1 := 16384) k r) = _
    rw [found2 M1 _ d t (Y 2) (hY 2) k r (by omega), h9 d, hostTT_apply]
    exact congrArg (fun p => T (ix2 (n0 := 100001) (n1 := 32) p k)) (Fin.ext hu0.symm)
  · have hu0 : u.val = (t.val + 6) * 16384 + r.val := hu
    have hle0 : t.val + 6 ≤ 6 := hle
    show Y 3 (ix2 (n0 := 32) (n1 := 16384) k r) = _
    rw [found3 M1 _ d t (Y 3) (hY 3) k r (by omega) (by omega), h9 d, hostTT_apply]
    exact congrArg (fun p => T (ix2 (n0 := 100001) (n1 := 32) p k)) (Fin.ext hu0.symm)

/-! ## The packed table after both write-backs -/

theorem idx6 : ∀ t : Fin grid0.N, win0_6.index t 0 = t.val ∧ win0_6.index t 1 = 0 := by decide +kernel

/-- The rows of the packed table that point t's write-back covers: rows [16384 t, 16384 (t + 1)), every lane. -/
theorem mem_blk6 (t : Fin cfg0.N) (i : S32768x128.Idx) :
    i ∈ ((cfg0.win 6).blk t).view.setOn Finset.univ ↔ t.val * 16384 ≤ (i 0).val ∧ (i 0).val < t.val * 16384 + 16384 := by
  rw [View.setOn_univ]
  show i ∈ ((View.whole main_v10).slice (win0_6.rect t)).set ↔ _
  rw [View.set_slice_whole, Rect.mem_set_unit]
  have h1 : (i 1).val < 128 := (i 1).isLt
  refine ⟨fun h => ?_, fun h a => ?_⟩
  · have h0 := h 0
    change win0_6.index t 0 * 16384 ≤ (i 0).val ∧ (i 0).val < win0_6.index t 0 * 16384 + 16384 at h0
    rw [(idx6 t).1] at h0
    exact h0
  · match a with
    | ⟨0, _⟩ =>
      show win0_6.index t 0 * 16384 ≤ (i 0).val ∧ (i 0).val < win0_6.index t 0 * 16384 + 16384
      rw [(idx6 t).1]; exact h
    | ⟨1, _⟩ =>
      show win0_6.index t 1 * 128 ≤ (i 1).val ∧ (i 1).val < win0_6.index t 1 * 128 + 128
      rw [(idx6 t).2]; omega

/-- Row 16384 t + p of the packed table is row p of point t's block. -/
theorem emb_blk6 (t : Fin cfg0.N) (p : Fin 16384) (q : Fin 128) (hp : t.val * 16384 + p.val < 32768) :
    ((cfg0.win 6).blk t).view.emb (ix2 (n0 := 16384) (n1 := 128) p q)
      = ix2 (n0 := 32768) (n1 := 128) ⟨t.val * 16384 + p.val, hp⟩ q := by
  funext a
  apply Fin.ext
  match a with
  | ⟨0, _⟩ =>
    show win0_6.index t 0 * 16384 + 1 * p.val = t.val * 16384 + p.val
    rw [(idx6 t).1]; omega
  | ⟨1, _⟩ =>
    show win0_6.index t 1 * 128 + 1 * q.val = q.val
    rw [(idx6 t).2]; omega

/-- After both write-backs the packed table holds, for every table row u, its projection at row u mod 32768,
    lanes 32 (u div 32768) + dd: rows below 16384 come from the first point's block (table block 2c at lane group c),
    the others from the second's (table block 2c + 1, which exists for c at most 2). -/
theorem TWok_of_ArrAt (T : FVec Ideal S100001x32 .f32) (W : FVec Ideal S32x32 .f32) (b : FVec Ideal S32 .f32)
    (d : Dev nD) (Fc : Buf (Elt Ideal) (twLoc d))
    (h : (rdat M1 (OutRelI T W b) d).ArrAt 6 cfg0.N Fc) : TWok (pvI T W b) True d Fc := by
  intro _ u dd
  have h2 : (rdat M1 (OutRelI T W b) d).ArrAt 6 (t0_1.val + 1) Fc := h
  rw [(rdat M1 (OutRelI T W b) d).ArrAt_succ 6 t0_1, if_pos (flush0_6 _)] at h2
  obtain ⟨G1, X1, hG1, ⟨Y1, -, hX1⟩, rfl⟩ := h2
  have hG1' : (rdat M1 (OutRelI T W b) d).ArrAt 6 (t0_0.val + 1) G1 := hG1
  rw [(rdat M1 (OutRelI T W b) d).ArrAt_succ 6 t0_0, if_pos (flush0_6 _)] at hG1'
  obtain ⟨G0, X0, -, ⟨Y0, -, hX0⟩, rfl⟩ := hG1'
  have hX0' : OutRelI T W b t0_0 X0 := hX0
  have hX1' : OutRelI T W b t0_1 X1 := hX1
  have hu := u.isLt
  have hdd := dd.isLt
  have hc : u.val / 32768 < 4 := by omega
  by_cases hR : u.val % 32768 < 16384
  · -- a row the first point wrote and the second did not touch
    rw [View.write_of_not_mem _ _ _ (by
      rw [mem_blk6]
      show ¬((1 : ℕ) * 16384 ≤ u.val % 32768 ∧ u.val % 32768 < 1 * 16384 + 16384)
      omega)]
    have e := emb_blk6 t0_0 ⟨u.val % 32768, hR⟩ ⟨32 * (u.val / 32768) + dd.val, packLane_lt u dd⟩
      (by show 0 * 16384 + u.val % 32768 < 32768; omega)
    have e' : ix2 (n0 := 32768) (n1 := 128) ⟨u.val % 32768, packRow_lt u⟩ ⟨32 * (u.val / 32768) + dd.val, packLane_lt u dd⟩
        = ((cfg0.win 6).blk t0_0).view.emb (ix2 (n0 := 16384) (n1 := 128) ⟨u.val % 32768, hR⟩ ⟨32 * (u.val / 32768) + dd.val, packLane_lt u dd⟩) := by
      rw [e]
      refine congrArg (fun p => ix2 (n0 := 32768) (n1 := 128) p _) (Fin.ext ?_)
      show u.val % 32768 = 0 * 16384 + u.val % 32768
      omega
    rw [e', View.write_emb_of_mem _ _ (Finset.mem_univ _)]
    refine (cast_eq _ _).trans ?_
    exact hX0' ⟨u.val % 32768, hR⟩ ⟨u.val / 32768, hc⟩ dd u
      (by show u.val = (0 + 2 * (u.val / 32768)) * 16384 + u.val % 32768; omega)
      (by show 0 + 2 * (u.val / 32768) ≤ 6; omega)
  · -- a row the second point wrote
    have hR' : u.val % 32768 - 16384 < 16384 := by omega
    have e := emb_blk6 t0_1 ⟨u.val % 32768 - 16384, hR'⟩ ⟨32 * (u.val / 32768) + dd.val, packLane_lt u dd⟩
      (by show 1 * 16384 + (u.val % 32768 - 16384) < 32768; omega)
    have e' : ix2 (n0 := 32768) (n1 := 128) ⟨u.val % 32768, packRow_lt u⟩ ⟨32 * (u.val / 32768) + dd.val, packLane_lt u dd⟩
        = ((cfg0.win 6).blk t0_1).view.emb (ix2 (n0 := 16384) (n1 := 128) ⟨u.val % 32768 - 16384, hR'⟩ ⟨32 * (u.val / 32768) + dd.val, packLane_lt u dd⟩) := by
      rw [e]
      refine congrArg (fun p => ix2 (n0 := 32768) (n1 := 128) p _) (Fin.ext ?_)
      show u.val % 32768 = 1 * 16384 + (u.val % 32768 - 16384)
      omega
    rw [e', View.write_emb_of_mem _ _ (Finset.mem_univ _)]
    refine (cast_eq _ _).trans ?_
    exact hX1' ⟨u.val % 32768 - 16384, hR'⟩ ⟨u.val / 32768, hc⟩ dd u
      (by show u.val = (1 + 2 * (u.val / 32768)) * 16384 + (u.val % 32768 - 16384); omega)
      (by show 1 + 2 * (u.val / 32768) ≤ 6; omega)

end Cert.Proof.TCV

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.HostValues.lean ====
/-
  What the first stretch of host lines leaves in three buffers, at the exact values: the table transposed, the
  block-diagonal weights (the Kronecker product of the 4 x 4 identity with W), and the bias row written four times.
  Each buffer is read back through the fold of the sixteen operations: an operation's result is its function of its
  operands' contents, a buffer another operation writes is left as it was.
-/
import proofs.«217943_g20899310862962_cont_8to1_1374_33_alg».proof.Proof.KI.Host
import proofs.«217943_g20899310862962_cont_8to1_1374_33_alg».proof.Proof.TCValueHost
import proofs.«217943_g20899310862962_cont_8to1_1374_33_alg».proof.Proof.LibTypedRefs

noncomputable section

namespace Cert.Proof.TCV

open Cert.Proof.KI Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (d : Dev nD)

/-- The table's buffer after the first stretch: the table with its axes exchanged. -/
theorem M1_v9 : M1 m ((SparseCore.T d).loc main_v9) = hostTT (m ((SparseCore.T d).loc main_arg1)) := by
  show after ops1 (V0 m d) (main_v9 : DevRef τ sig) = _
  after_results_simp
  rfl

set_option maxRecDepth 8192 in
/-- The weights' buffer after the first stretch: the Kronecker product of the 4 x 4 identity with W. The outlined
    product's lines move contents between a value's type and its buffer's; there and back cancels, and at these
    buffers each is the identity. -/
theorem M1_v8 : M1 m ((SparseCore.T d).loc main_v8) = hostW4 (m ((SparseCore.T d).loc main_arg2)) := by
  show after ops1 (V0 m d) (main_v8 : DevRef τ sig) = _
  after_results_simp
  simp only [Cert.Lib.ofBuf_toBuf]
  unfold hostW4 kronBody hostEye
  simp only [TRef.toBuf, TRef.ofBuf, cast_eq]
  rfl

/-- The bias row's buffer after the first stretch: the bias made a row and written four times side by side. -/
theorem M1_v1 : M1 m ((SparseCore.T d).loc main_v1) = hostB128 (m ((SparseCore.T d).loc main_arg3)) := by
  show after ops1 (V0 m d) (main_v1 : DevRef τ sig) = _
  after_results
  rfl

end Cert.Proof.TCV

end
-- ==== Proof.PreFacts.lean ====
/-
  What the precondition says about the ids. The printed predicate is a conjunction of four tests and-reduced to one bit:
  three say every float input is finite, the fourth says every id e satisfies 0 <= id e and id e <= 100000, both read
  signed. From the predicate being 1 we keep the fourth: each id is nonnegative as a signed word and, read unsigned,
  at most 100000 (a nonnegative signed word reads the same unsigned).
-/
import proofs.«217943_g20899310862962_cont_8to1_1374_33_alg».proof.Pre_input_domain
import proofs.«217943_g20899310862962_cont_8to1_1374_33_alg».proof.Proof.Gen.Pre_input_domain
import Idealize.ShloMosaic.Lib.ReduceAll
import Idealize.ShloMosaic.Lib.ValueIdx

namespace Cert.Proof.PreFacts

open Idealize.ShloMosaic Idealize.ShloMosaic.ValueIdx

instance subsingleton_scalar_idx : Subsingleton Cert.Pre_input_domain.S_.Idx := ⟨fun a b => funext fun d => d.elim0⟩

/-- A signed word between 0 and 100000 reads the same unsigned. -/
theorem toNat_le_of_toInt {x : BitVec 32} (h0 : 0 ≤ x.toInt) (h1 : x.toInt ≤ 100000) : x.toNat ≤ 100000 := by
  have hlt := x.isLt
  rw [BitVec.toInt_eq_toNat_cond] at h0 h1
  split at h0 <;> omega

/-- Under the precondition every id is nonnegative (signed) and at most 100000 (unsigned). -/
theorem ids_le {F : FTy → Type} [FloatOps F] [Cert.Pre_input_domain.Facts] (u : IVec Cert.Pre_input_domain.S16384 32)
    (T : FVec F Cert.Pre_input_domain.S100001x32 .f32) (W : FVec F Cert.Pre_input_domain.S32x32 .f32)
    (b : FVec F Cert.Pre_input_domain.S32 .f32)
    (h : Cert.Pre_input_domain.fn (F := F) u T W b = fun _ => 1#1) :
    ∀ e, (u e).toNat ≤ 100000 ∧ 0 ≤ (u e).toInt := by
  intro e
  have h0 := congrFun h ix0
  dsimp only [Cert.Pre_input_domain.fn, Cert.Pre_input_domain.fn_part1] at h0
  obtain ⟨-, hall⟩ := IntOp.andi_eq_one.1 h0
  have he := Host.reduce_andi_all _ _ _ _ _ hall e
  obtain ⟨hge, hle⟩ := IntOp.andi_eq_one.1 he
  have hge' : (0#32 : BitVec 32).toInt ≤ (u e).toInt := IntOp.cmpi_sge.1 hge
  have hle' : (u e).toInt ≤ (100000#32 : BitVec 32).toInt := IntOp.cmpi_sle.1 hle
  have z0 : (0#32 : BitVec 32).toInt = 0 := by decide
  have z1 : (100000#32 : BitVec 32).toInt = 100000 := by decide
  rw [z0] at hge'
  rw [z1] at hle'
  exact ⟨toNat_le_of_toInt hge' hle', hge'⟩

end Cert.Proof.PreFacts
-- ==== Proof.RefOps.lean ====
/-
  The reference program's run, read back by hand: its @main, with the outlined index lookup and the outlined select
  unfolded at their calls, is one straight line of 27 host operations. Every weakly fair execution of it terminates
  with the result buffer at the operations' composed pure term of the four argument arrays, and the arguments unchanged.
  The term is named in pieces: the ids with negatives wrapped, the id column, the in-range test, the rows taken,
  and the dense layer on them.
-/
import proofs.«217943_g20899310862962_cont_8to1_1374_33_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The pure term, in pieces -/

/-- The ids, a negative one moved up by the number of rows (100001). -/
def wrapped (u : IVec S16384 32) : IVec S16384 32 :=
  select (cmpi .slt u (broadcastInDim S16384 ![] bcast_S_S16384 (constantI S_ 32 0#32)))
    (addi u (broadcastInDim S16384 ![] bcast_S_S16384 (constantI S_ 32 100001#32))) u

/-- The wrapped ids as a column. -/
def col (u : IVec S16384 32) : IVec S16384x1 32 :=
  broadcastInDim S16384x1 ![0] bcast_S16384_S16384x1_0 (wrapped u)

/-- Per id: is the wrapped id between 0 and 100000 (signed)? -/
def inRange (u : IVec S16384 32) : IVec S16384 1 :=
  Host.reduce IntOp.andi
    (andi (cmpi .sge (col u) (broadcastInDim S16384x1 ![] bcast_S_S16384x1 (constantI S_ 32 0#32)))
      (cmpi .sle (col u) (broadcastInDim S16384x1 ![0, 1] bcast_S1x1_S16384x1_0_1
        (broadcastInDim S1x1 ![1] bcast_S1_S1x1_1 (constantI S1 32 100000#32)))))
    (constantI S_ 1 1#1) reducesTo_S16384x1_S16384_d1 h_S_

/-- The rows of the table the ids name; a row whose id is out of range is filled with the fill constant. -/
def taken (T : FVec F S100001x32 .f32) (u : IVec S16384 32) : FVec F S16384x32 .f32 :=
  select (broadcastInDim S16384x32 ![0] bcast_S16384_S16384x32_0 (inRange u))
    (Host.gather gather_S100001x32_S16384x1_S16384x32_1_0_n_n_0_1_132 T (col u))
    (broadcastInDim S16384x32 ![] bcast_S_S16384x32 (constant S_ .f32 0x7FC00000#32))

/-- The dense layer on the taken rows: the product with the weights plus the bias repeated down the rows. -/
def out (u : IVec S16384 32) (T : FVec F S100001x32 .f32) (W : FVec F S32x32 .f32) (b : FVec F S32 .f32) :
    FVec F S16384x32 .f32 :=
  addf (Host.dotGeneral dot_S16384x32_S32x32_S16384x32_1_0_0_1_n_n none (taken T u) W)
    (broadcastInDim S16384x32 ![0, 1] bcast_S1x32_S16384x32_0_1 (broadcastInDim S1x32 ![1] bcast_S32_S1x32_1 b))

/-! ## The straight line -/

/-- @main's operations in order, the two calls unfolded: the lookup's 23 (the select of the wrap written into the
    inner call's buffer) and @main's own four. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100001#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 100000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100001x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select,
    binary main_v0 main_arg2 main_v1 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    unary main_arg3 main_v2 (broadcastInDim S1x32 ![1] bcast_S32_S1x32_1 : (⟨S32, .f32⟩ : BufTy).Contents (Elt F) → (⟨S1x32, .f32⟩ : BufTy).Contents (Elt F)),
    unary main_v2 main_v3 (broadcastInDim S16384x32 ![0, 1] bcast_S1x32_S16384x32_0_1 : (⟨S1x32, .f32⟩ : BufTy).Contents (Elt F) → (⟨S16384x32, .f32⟩ : BufTy).Contents (Elt F)),
    binary main_v1 main_v3 main_v4 (addf : (⟨S16384x32, .f32⟩ : BufTy).Contents (Elt F) → (⟨S16384x32, .f32⟩ : BufTy).Contents (Elt F) → (⟨S16384x32, .f32⟩ : BufTy).Contents (Elt F)) ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

/-- Every weakly fair execution of @main terminates with each buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefRun.lean ====
/-
  The reference program's run: every weakly fair execution of its @main terminates with the result buffer at the
  composed pure term of the four argument arrays (the dense layer on the rows taken), and the arguments unchanged.
  The fold of the 27 operations is read back buffer by buffer.
-/
import proofs.«217943_g20899310862962_cont_8to1_1374_33_alg».proof.Proof.RefOps
import proofs.«217943_g20899310862962_cont_8to1_1374_33_alg».proof.Proof.LibTypedRefs

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The fold at the result buffer is the composed term: each operation's result is its function of its operands'
    contents, a buffer another operation writes is left as it was, and the typed references' transports cancel or are
    the identity (the buffer's type is the value's). -/
theorem out_eq (V : Valuation τ sig (Elt F)) :
    after ops V (main_v4 : DevRef τ sig)
      = out (F := F) (V (main_arg0 : DevRef τ sig)) (V (main_arg1 : DevRef τ sig)) (V (main_arg2 : DevRef τ sig))
          (V (main_arg3 : DevRef τ sig)) := by
  after_results_simp
  simp only [Cert.Lib.ofBuf_toBuf]
  unfold out taken inRange col wrapped
  simp only [TRef.toBuf, TRef.ofBuf, cast_eq]

/-- No operation writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of @main
    terminates with the result at the composed term of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = out (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq _),
      (h c main_arg0).trans (arg0_eq _), (h c main_arg1).trans (arg1_eq _),
      (h c main_arg2).trans (arg2_eq _), (h c main_arg3).trans (arg3_eq _)⟩)
    (run_main m ρ)

end Cert.Proof.Ref

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.RefIds.lean ====
/-
  The id stretch of the reference, read entry by entry under the id facts (every id nonnegative as a signed word and at
  most 100000 unsigned): a nonnegative id is not wrapped; the id column at (e, 0) is the id; the in-range test is 1 at
  every id; so the row taken for entry e is the table's row at the id, which is the row the specification names.
  Generic in the float values: nothing here looks at a float.
-/
import proofs.«217943_g20899310862962_cont_8to1_1374_33_alg».proof.Proof.RefOps
import proofs.«217943_g20899310862962_cont_8to1_1374_33_alg».proof.Proof.Spec
import proofs.«217943_g20899310862962_cont_8to1_1374_33_alg».proof.Proof.LibRowOps
import Idealize.ShloMosaic.Lib.Pipeline.Value
import Idealize.ShloMosaic.Lib.ValueIdx
import Idealize.ShloMosaic.Lib.Affine
import Idealize.ShloMosaic.PureOps.Reduce

noncomputable section

namespace Cert.Proof.Ref

open Cert.ReferenceIdeal Cert.ReferenceIdeal.Gen Idealize.ShloMosaic Idealize.ShloMosaic.ValueIdx

variable {F : FTy → Type} [FloatOps F]

/-- A word that is at most 100000 unsigned is at most 100000 signed. -/
theorem toInt_le_of_toNat {x : BitVec 32} (h : x.toNat ≤ 100000) : x.toInt ≤ 100000 := by
  rw [BitVec.toInt_eq_toNat_cond]
  split <;> omega

/-- A word that is nonnegative signed reads the same unsigned. -/
theorem toNat_toInt_of_nonneg {x : BitVec 32} (h : 0 ≤ x.toInt) : x.toInt.toNat = x.toNat := by
  have hlt := x.isLt
  rw [BitVec.toInt_eq_toNat_cond] at h ⊢
  split at h <;> rename_i hc
  · rw [if_pos hc]; omega
  · omega

/-- A left fold by `and` from 1 over bits that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-- A nonnegative id is not wrapped. -/
theorem wrapped_apply (u : IVec S16384 32) (i : S16384.Idx) (h0 : 0 ≤ (u i).toInt) : wrapped u i = u i := by
  unfold wrapped
  rw [select_apply]
  have hc : cmpi .slt u (broadcastInDim S16384 ![] bcast_S_S16384 (constantI S_ 32 0#32)) i = 0#1 := by
    apply eq_zero_of_ne_one
    intro h1
    have h2 : (u i).toInt < (0#32 : BitVec 32).toInt := IntOp.cmpi_slt.1 h1
    have z0 : (0#32 : BitVec 32).toInt = 0 := by decide
    omega
  rw [hc, select_zero]

/-- The id column at (e, 0) is the wrapped id e. -/
theorem col_apply (u : IVec S16384 32) (e : Fin 16384) (z : Fin 1) : col u (ix2 e z) = wrapped u (ix1 e) := by
  unfold col
  refine broadcastInDim_apply _ _ _ (ix2 e z) (ix1 e) (fun a => ?_)
  match a with
  | ⟨0, _⟩ =>
    show e.val = if (16384 : ℕ) = 1 then 0 else e.val
    rw [if_neg (by decide)]

/-- Under the id facts the id column at (e, 0) is the id e. -/
theorem col_eq (u : IVec S16384 32) (hu : ∀ i, (u i).toNat ≤ 100000 ∧ 0 ≤ (u i).toInt) (e : Fin 16384) (z : Fin 1) :
    col u (ix2 e z) = u (ix1 e) :=
  (col_apply u e z).trans (wrapped_apply u _ (hu _).2)

/-- Under the id facts the in-range test is 1 at every id. -/
theorem inRange_eq_one (u : IVec S16384 32) (hu : ∀ i, (u i).toNat ≤ 100000 ∧ 0 ≤ (u i).toInt) (j : S16384.Idx) :
    inRange u j = 1#1 := by
  unfold inRange
  rw [Host.reduce_eq_foldl]
  refine foldl_andi_one _ (fun i => ?_) _
  obtain ⟨e, z, rfl⟩ : ∃ (e : Fin 16384) (z : Fin 1), i = ix2 e z := ⟨i 0, i 1, eq_ix2 i⟩
  have hcol := col_eq u hu e z
  have z0 : (0#32 : BitVec 32).toInt = 0 := by decide
  have z1 : (100000#32 : BitVec 32).toInt = 100000 := by decide
  refine IntOp.andi_eq_one.2 ⟨IntOp.cmpi_sge.2 ?_, IntOp.cmpi_sle.2 ?_⟩
  · show (0#32 : BitVec 32).toInt ≤ (col u (ix2 e z)).toInt
    rw [hcol, z0]
    exact (hu _).2
  · show (col u (ix2 e z)).toInt ≤ (100000#32 : BitVec 32).toInt
    rw [hcol, z1]
    exact toInt_le_of_toNat (hu _).1

/-- The printed gather record is the row gather's. -/
theorem gather_eq : gather_S100001x32_S16384x1_S16384x32_1_0_n_n_0_1_132
    = Cert.Lib.rowGather 100001 16384 32 gather_S100001x32_S16384x1_S16384x32_1_0_n_n_0_1_132_wf := rfl

/-- Under the id facts the row taken for entry e is the table's row at the id: the test passes, the gather's clamp
    does not act, and the row is the one the specification names. -/
theorem taken_apply (T : FVec F S100001x32 .f32) (u : IVec S16384 32)
    (hu : ∀ i, (u i).toNat ≤ 100000 ∧ 0 ≤ (u i).toInt) (e : Fin 16384) (k : Fin 32) :
    taken T u (ix2 e k) = T (ix2 (Cert.Spec.rowOf (u (ix1 e))) k) := by
  unfold taken
  rw [select_apply]
  have hb : broadcastInDim S16384x32 ![0] bcast_S16384_S16384x32_0 (inRange u) (ix2 e k) = 1#1 := by
    refine (broadcastInDim_apply _ _ _ (ix2 e k) (ix1 e) (fun a => ?_)).trans (inRange_eq_one u hu _)
    match a with
    | ⟨0, _⟩ =>
      show e.val = if (16384 : ℕ) = 1 then 0 else e.val
      rw [if_neg (by decide)]
  rw [hb, select_one, gather_eq]
  refine (Cert.Lib.rowGather_apply (by decide : 0 < 100001) _ T (col u) e k).trans ?_
  have hr : Cert.Lib.clampRow 100001 (by decide) (col u (ix2 e 0)) = Cert.Spec.rowOf (u (ix1 e)) := by
    rw [col_eq u hu e 0]
    refine Fin.ext ?_
    show min (u (ix1 e)).toInt.toNat (100001 - 1) = min (u (ix1 e)).toNat 100000
    rw [toNat_toInt_of_nonneg (hu _).2]
  rw [hr]

end Cert.Proof.Ref

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«217943_g20899310862962_cont_8to1_1374_33_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.RefValue.lean ====
/-
  The reference computes the specified function. Under the id facts the composed term of the reference's run, read at
  entry (e, q), is the sum over the 32 features k of table[id e, k] * W[k, q], plus b[q]: the product is the host's plain
  matrix product, the bias is the vector made a row and repeated down the rows, and the row taken for entry e is the
  table's row at the id. With the precondition supplying the id facts, every weakly fair execution of the reference
  ends with its result at the specified function of the arguments and the arguments unchanged.
-/
import proofs.«217943_g20899310862962_cont_8to1_1374_33_alg».proof.Defs
import proofs.«217943_g20899310862962_cont_8to1_1374_33_alg».proof.Proof.Gen.ReferenceIdeal
import proofs.«217943_g20899310862962_cont_8to1_1374_33_alg».proof.Proof.Gen.Pre_input_domain
import proofs.«217943_g20899310862962_cont_8to1_1374_33_alg».proof.Proof.PreFacts
import proofs.«217943_g20899310862962_cont_8to1_1374_33_alg».proof.Proof.RefRun
import proofs.«217943_g20899310862962_cont_8to1_1374_33_alg».proof.Proof.RefIds
import proofs.«217943_g20899310862962_cont_8to1_1374_33_alg».proof.Proof.Spec
import proofs.«217943_g20899310862962_cont_8to1_1374_33_alg».proof.Proof.LibHostDot2
import proofs.«217943_g20899310862962_cont_8to1_1374_33_alg».proof.Proof.LibHostRowCol

noncomputable section

open scoped BigOperators

namespace Cert.Proof.Ref

open Cert.ReferenceIdeal Cert.ReferenceIdeal.Gen Idealize.ShloMosaic Idealize.ShloMosaic.ValueIdx Idealize.SL.Sem

/-- The printed product record is the plain matrix product's. -/
theorem dot_eq : dot_S16384x32_S32x32_S16384x32_1_0_0_1_n_n
    = Cert.Lib.plain2 dot_S16384x32_S32x32_S16384x32_1_0_0_1_n_n_wf := rfl

/-- Under the id facts the reference's composed term is the specified function. -/
theorem out_eq_G (u : IVec S16384 32) (T : FVec Ideal S100001x32 .f32) (W : FVec Ideal S32x32 .f32)
    (b : FVec Ideal S32 .f32) (hu : ∀ i, (u i).toNat ≤ 100000 ∧ 0 ≤ (u i).toInt) :
    out (F := Ideal) u T W b = Cert.Spec.G u T W b := by
  funext i
  obtain ⟨e, q, rfl⟩ : ∃ (e : Fin 16384) (q : Fin 32), i = ix2 e q := ⟨i 0, i 1, eq_ix2 i⟩
  rw [Cert.Spec.G_apply]
  unfold out
  rw [addf_apply, dot_eq, Cert.Lib.hostDot2_apply, Cert.Lib.bcast_row_rows_apply]
  simp only [taken_apply T u hu]

/-- Under the precondition, every weakly fair execution of the reference terminates with its result at the specified
    function of the four argument arrays, and the arguments unchanged. -/
theorem run_G (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v4)
        = Cert.Spec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (out_eq_G _ _ _ _ (Cert.Proof.PreFacts.ids_le (F := Ideal) _ _ _ _ (hpre c))), (h c).2⟩)
    (run (F := Ideal) m g)

end Cert.Proof.Ref

end
-- ==== Proof.ClaimsIdeal.lean ====
/-
  The exact instance: the kernel program's run, with the projected table and the looked-up rows named, and the three
  claims that speak of the idealized programs. The kernel packs the projection of table row u — the sum over the 32
  features k of table[u, k] * W[k, q], plus b[q] — at row u mod 32768, lanes 32 * (u div 32768) + q of a
  [32768, 128] array; the lookup reads it back there for each id; the reference gathers the row and applies the dense
  layer: one function of the arguments, entry by entry.
-/
import proofs.«217943_g20899310862962_cont_8to1_1374_33_alg».proof.Defs
import proofs.«217943_g20899310862962_cont_8to1_1374_33_alg».proof.Proof.KI.Run
import proofs.«217943_g20899310862962_cont_8to1_1374_33_alg».proof.Proof.TCRegionValue
import proofs.«217943_g20899310862962_cont_8to1_1374_33_alg».proof.Proof.HostValues
import proofs.«217943_g20899310862962_cont_8to1_1374_33_alg».proof.Proof.RefValue

noncomputable section

namespace Cert.Proof.IdealSide

open Cert.KernelIdeal Cert.KernelIdeal.Gen Cert.Proof.KI Cert.Proof.TCV
open Idealize.ShloMosaic Idealize.ShloMosaic.TcCoe Idealize.ShloMosaic.ValueIdx Idealize.SL.Sem

variable (m : (ℓ : Loc nD τ sig) → Buf (Elt Ideal) ℓ)

/-- The one device. -/
abbrev d0 : Dev nD := ⟨0, by decide⟩
theorem dev_eq (d : Dev nD) : d = d0 := Subsingleton.elim _ _

abbrev Um : IVec S16384 32 := m ((SparseCore.T d0).loc main_arg0)
abbrev Tm : FVec Ideal S100001x32 .f32 := m ((SparseCore.T d0).loc main_arg1)
abbrev Wm : FVec Ideal S32x32 .f32 := m ((SparseCore.T d0).loc main_arg2)
abbrev bm : FVec Ideal S32 .f32 := m ((SparseCore.T d0).loc main_arg3)

/-- The precondition's last conjunct: every id is a row of the table. -/
theorem preOK (h : Cert.Pre_KernelIdeal (hPre_input_domain := Cert.Pre_input_domain.Gen.facts) m) : PreOK (F := Ideal) m :=
  fun d r => ((@Cert.Proof.PreFacts.ids_le Ideal _ Cert.Pre_input_domain.Gen.facts _ _ _ _ (h d)) r).1

/-- The kernel program's run at the exact instance: arguments unchanged, the result at the dense layer of the
    looked-up rows. -/
theorem run (ρ : Dev nD → PrngReg) (h : Cert.Pre_KernelIdeal (hPre_input_domain := Cert.Pre_input_domain.Gen.facts) m) :
    θ_run (Cert.KernelIdeal.defs (F := Ideal)) (Cert.KernelIdeal.threads (F := Ideal)) ⟨m, fun _ => 0, ρ⟩
      (QC m (pvI (Tm m) (Wm m) (bm m)) True) :=
  run_main m ρ (pvI (Tm m) (Wm m) (bm m)) True (OutRelI (Tm m) (Wm m) (bm m)) (preOK m h)
    (hOutI (M1 m) (Tm m) (Wm m) (bm m) (fun d => by rw [dev_eq d]; exact M1_v9 m d0) (fun d => by rw [dev_eq d]; exact M1_v8 m d0)
      (fun d => by rw [dev_eq d]; exact M1_v1 m d0))
    (fun d Fc hh => TWok_of_ArrAt (M1 m) (Tm m) (Wm m) (bm m) d Fc hh)

/-- The result the run names is the specification's function of the arguments. -/
theorem res_eq (c : Dev nD) (g : Buf (Elt Ideal) ((SparseCore.T (τ := τ) c).loc main_v12))
    (hg : ResOk m (pvI (Tm m) (Wm m) (bm m)) True c g) :
    g = Cert.Spec.G (m ((SparseCore.T c).loc main_arg0)) (m ((SparseCore.T c).loc main_arg1)) (m ((SparseCore.T c).loc main_arg2))
      (m ((SparseCore.T c).loc main_arg3)) := by
  obtain rfl := dev_eq c
  funext i
  rw [eq_ix2 i]
  exact (hg trivial (i 0) (i 1)).trans (G_eq_pvI _ _ _ _ (i 0) (i 1)).symm

end Cert.Proof.IdealSide

namespace Cert.Proof.IdealClaims

open Idealize.ShloMosaic Idealize.SL.Sem Cert.Proof.IdealSide

theorem frame_ki : Cert.frame_KernelIdeal (hKernelIdeal := Cert.KernelIdeal.Gen.facts) (hPre_input_domain := Cert.Pre_input_domain.Gen.facts) :=
  fun m ρ hpre => (θ_run (Cert.KernelIdeal.defs (F := Ideal)) _ _).mono
    (fun _ h c => ⟨(h c).1, (h c).2.1, (h c).2.2.1, (h c).2.2.2.1⟩) (run m ρ hpre)

theorem frame_ri : Cert.frame_ReferenceIdeal (hReferenceIdeal := Cert.ReferenceIdeal.Gen.facts) (hPre_input_domain := Cert.Pre_input_domain.Gen.facts) :=
  fun m g hpre => (θ_run (Cert.ReferenceIdeal.defs (F := Ideal)) _ _).mono (fun _ h c => (h c).2) (Cert.Proof.Ref.run_G m g hpre)

/-- Both idealized programs end with the specification's function of the (agreeing) arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hpre' : Cert.Pre_ReferenceIdeal (hPre_input_domain := Cert.Pre_input_domain.Gen.facts) m' := fun c => by
    have := hpre c
    rw [← (hagree c).1, ← (hagree c).2.1, ← (hagree c).2.2.1, ← (hagree c).2.2.2] at this
    exact this
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨res_eq m c _ (h c).2.2.2.2, (h c).1, (h c).2.1, (h c).2.2.1, (h c).2.2.2.1⟩) (run m g hpre)
  · refine (θ_run (Cert.ReferenceIdeal.defs (F := Ideal)) _ _).mono (fun _ h c => ⟨(h c).1.trans ?_, (h c).2⟩) (Cert.Proof.Ref.run_G m' g' hpre')
    rw [(hagree c).1, (hagree c).2.1, (hagree c).2.2.1, (hagree c).2.2.2]

end Cert.Proof.IdealClaims

end
-- ==== Proof.KB.Common.lean ====
/-
  What every module of the kernel side shares: the program as the SparseCore launch theorem sees it (its label
  table, configuration and variants), the resource algebra (the handshakes' rounds, the TensorCore pipeline's
  staging cells, the transfers' counters), and the arrays the two processors pass between them.
-/
import proofs.«217943_g20899310862962_cont_8to1_1374_33_alg».proof.Kernel
import proofs.«217943_g20899310862962_cont_8to1_1374_33_alg».proof.Proof.Gen.Kernel
import proofs.«217943_g20899310862962_cont_8to1_1374_33_alg».proof.Proof.Gen.Kernel.Skeleton
import proofs.«217943_g20899310862962_cont_8to1_1374_33_alg».proof.Proof.Gen.Kernel.Launch
import proofs.«217943_g20899310862962_cont_8to1_1374_33_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := UR sig nD τ
abbrev UU : Type := UH × (UP × Counters)

/-- The handshakes' rounds, the left factor. -/
abbrev EH : Emb UH (MT nD τ sig (HIx 1) (Elt F) ℕ UU ℕ) := embL
/-- The pipeline's staging cells, the middle factor; the counters are found by instance in the right. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays the processors pass between them, as locations of device `d` -/

/-- The ids (an argument), the packed projected table (the TensorCore call's result), the transposed output (the
    SparseCore call's result). -/
abbrev uLoc (d : Dev nD) : Loc nD τ sig := (SparseCore.T d).loc main_arg0
abbrev twLoc (d : Dev nD) : Loc nD τ sig := (SparseCore.T d).loc main_v10
abbrev oLoc (d : Dev nD) : Loc nD τ sig := (SparseCore.T d).loc main_v11

end Cert.Proof.KB

end
-- ==== Proof.KB.RegionBody.lean ====
import proofs.«217943_g20899310862962_cont_8to1_1374_33_alg».proof.Proof.KB.Common
import Idealize.ShloMosaic.Lib.Pipeline.FrameBody
import Idealize.ShloMosaic.Lib.Pipeline.Value

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg Window cellOf kernel pipe)
variable {F : FTy → Type} [FloatOps F]

local notation "𝕄" => MT nD τ sig (HIx 1) (Elt F) ℕ UU ℕ

set_option maxRecDepth 16384

/-! ## The TensorCore kernel's body on its staging buffers

Six whole loads (the four table blocks, the block-diagonal weights, the bias row), the dead load of the result's
buffer, one whole store of the product plus bias: the inputs' buffers are left as found, the result's holds the
payload of what the six hold. -/

abbrev rT : Rect S32x16384 := Rect.unit (s := S32x16384) ![0, 0] S32x16384.size inb_S32x16384_S32x16384_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S16384x128 := Rect.unit (s := S16384x128) ![0, 0] S16384x128.size inb_S16384x128_S16384x128_0_0

/-- The result's staging buffer after the body, from what the six input buffers hold: its one whole store. -/
def out6 (x0 x1 x2 x3 : Vec F S32x16384 .f32) (x4 : Vec F S128x128 .f32) (x5 : Vec F S1x128 .f32) : Vec F S16384x128 .f32 :=
  View.canon [⟨rO, k0_pay1 (View.ld x0 rT) (View.ld x1 rT) (View.ld x2 rT) (View.ld x3 rT) (View.ld x4 rW) (View.ld x5 rB)⟩]

theorem cover6 (p0 : Vec F S16384x128 .f32) (y : S16384x128.Idx) :
    ∃ pc ∈ ([⟨rO, p0⟩] : List (View.Piece (Elt F) S16384x128 .f32)), y ∈ pc.1.set :=
  View.cover_of_tiled [⟨rO, p0⟩] S16384x128.size (by rfl) y

theorem hz2 : (![0, 0] : Fin 2 → Nat) = fun _ => 0 := funext fun a => by fin_cases a <;> rfl

/-- The store is whole and the loads are whole: the buffer holds the payload of the six contents. -/
theorem out6_eq (x0 x1 x2 x3 : Vec F S32x16384 .f32) (x4 : Vec F S128x128 .f32) (x5 : Vec F S1x128 .f32) :
    out6 x0 x1 x2 x3 x4 x5 = k0_pay1 x0 x1 x2 x3 x4 x5 := by
  unfold out6
  rw [View.canon_unit_zero hz2]
  simp only [View.ld_unit_zero (S := S32x16384) hz2, View.ld_unit_zero (S := S128x128) hz2, View.ld_unit_zero (S := S1x128) hz2]

set_option maxHeartbeats 1000000 in
theorem sound_body (d : Dev nD) (E : Set ℕ) (i : grid0.Coords)
    (arg1 : Memref sig .tc .vmem S32x16384 .f32) (harg1 : arg1.IsWhole) (arg2 : Memref sig .tc .vmem S32x16384 .f32) (harg2 : arg2.IsWhole)
    (arg3 : Memref sig .tc .vmem S32x16384 .f32) (harg3 : arg3.IsWhole) (arg4 : Memref sig .tc .vmem S32x16384 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S16384x128 .f32) (harg7 : arg7.IsWhole)
    (x0 x1 x2 x3 : Vec F S32x16384 .f32) (x4 : Vec F S128x128 .f32) (x5 : Vec F S1x128 .f32) (Kt : PUnit → sProp 𝕄) :
    iprop(owns (d : Thread nD τ) arg1 fullShare x0 ∗ owns (d : Thread nD τ) arg2 fullShare x1 ∗ owns (d : Thread nD τ) arg3 fullShare x2
          ∗ owns (d : Thread nD τ) arg4 fullShare x3 ∗ owns (d : Thread nD τ) arg5 fullShare x4 ∗ owns (d : Thread nD τ) arg6 fullShare x5
          ∗ (∃ y, owns (d : Thread nD τ) arg7 fullShare y)
          ∗ (iprop(owns (d : Thread nD τ) arg1 fullShare x0 ∗ owns (d : Thread nD τ) arg2 fullShare x1 ∗ owns (d : Thread nD τ) arg3 fullShare x2
            ∗ owns (d : Thread nD τ) arg4 fullShare x3 ∗ owns (d : Thread nD τ) arg5 fullShare x4 ∗ owns (d : Thread nD τ) arg6 fullShare x5
            ∗ owns (d : Thread nD τ) arg7 fullShare (k0_pay1 x0 x1 x2 x3 x4 x5)) -∗ Kt ⟨⟩))
      ⊢ wp frame (wpE (defs₀ (F := F)) 𝒱₀ (d : Thread nD τ) none) E
          (cc0_body i arg1 harg1 arg2 harg2 arg3 harg3 arg4 harg4 arg5 harg5 arg6 harg6 arg7 harg7) Kt := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%y6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover6 _)).trans (out6_eq _ _ _ _ _ _)

end Cert.Proof.KB

end
-- ==== Proof.KB.RegionData.lean ====
import proofs.«217943_g20899310862962_cont_8to1_1374_33_alg».proof.Proof.KB.Common
import proofs.«217943_g20899310862962_cont_8to1_1374_33_alg».proof.Proof.KB.RegionBody

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
variable {F : FTy → Type} [FloatOps F]

local notation "𝕄" => MT nD τ sig (HIx 1) (Elt F) ℕ UU ℕ

/-! ## The TensorCore call as a region of @main

The proof data is relational: the four table windows, the weights and the bias row are left as found; of the
result's staging buffer the body leaves contents in a relation `OutRel t` the instance chooses (nothing at the
word-level instance; the closed form on the rows inside the table at the exact one) — a function of the launch memory
it cannot be, because the last table block overhangs the table and what the staging buffer holds past the table's end
nobody names. -/

abbrev adm : (p : Fin 1) → (pcfgs (F := F) p).Adm := fun p => (cfgs p).toPCfg_adm

variable (M1 : (ℓ : Loc nD τ sig) → Buf (Elt F) ℓ)
variable (OutRel : Fin cfg0.N → (S16384x128.Idx → Elt F .f32) → Prop)

/-- The shares of the transposed table its four windows hold: four read shares cut off the whole. -/
def qW (w : Fin 7) : PosShare TreeShare :=
  if h : w.val < 4 then Transfers.shareTok fullShare 4 ⟨w.val, h⟩ else fullShare

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

def rdat (d : Dev nD) : RDat τ (Elt F) (HIx 1) ℕ UU ℕ cfg0 d where
  A w := M1 ((cfg0.win w).arr.view.loc (d.tc : Thread nD τ))
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => OutRel t X
  Φ _ := iprop(emp)
  q := qW
  owed _ := (K (F := F)).Otc d 0
  recorded _ := {p | p.2 = none}

def rdats : (p : Fin 1) → (c : Dev nD) → RDat τ (Elt F) (HIx 1) ℕ UU ℕ (Pipeline.pin (pcfgs (F := F)) adm p) c
  | 0 => rdat M1 OutRel

variable {M1 OutRel}

/-- The body obligation: the six inputs left as found, the result's buffer at the payload, which the instance's
    relation admits (`hOut`). -/
theorem body_obl (d : Dev nD)
    (hOut : ∀ (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5))) :
    (rdat M1 OutRel d).BodyObligation defs₀ 𝒱₀ (none : HIx 1) Set.univ := fun t Y hY => by
  rw [Gen.bigSep_W0, Gen.bigSep_W0]
  rw [show (rdat M1 OutRel d).Φ t.succ = (rdat M1 OutRel d).Φ t.castSucc from rfl,
    show (rdat M1 OutRel d).owesAt (none : HIx 1) t.succ = (rdat M1 OutRel d).owesAt (none : HIx 1) t.castSucc from rfl]
  show _ ⊢ wp frame _ Set.univ (bodyAt0 t) _
  iintro ⟨HΦ, HO, H0, H1, H2, H3, H4, H5, H6⟩
  iapply (sound_body d Set.univ (grid0.coords t) _ _ _ _ _ _ _ _ _ _ _ _ _ _ (Y 0) (Y 1) (Y 2) (Y 3) (Y 4) (Y 5))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [HO]; · iexact HO
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  isplitl [H5]; · iexists (Y 5); isplitr; · ipureintro; exact rfl
                  iexact H5
  iexists _; isplitr; · ipureintro; exact hOut t Y hY
  iexact H6

end Cert.Proof.KB

end
-- ==== Proof.KB.Region.lean ====
import proofs.«217943_g20899310862962_cont_8to1_1374_33_alg».proof.Proof.KB.Common
import proofs.«217943_g20899310862962_cont_8to1_1374_33_alg».proof.Proof.KB.RegionData

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
variable {F : FTy → Type} [FloatOps F]

local notation "𝕄" => MT nD τ sig (HIx 1) (Elt F) ℕ UU ℕ

variable {M1 : (ℓ : Loc nD τ sig) → Buf (Elt F) ℓ} {OutRel : Fin cfg0.N → (S16384x128.Idx → Elt F .f32) → Prop}

/-! ## The region's record -/

abbrev LK : GSem nD τ sig → Finset (HIx 1) := (K (F := F)).L
abbrev lvK : GSem nD τ sig → HIx 1 → ℕ := (K (F := F)).lev

theorem bigSep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

omit [FloatOps F] in
/-- A whole array as a window names it is the array as @main holds it. -/
theorem arrPt_eq (d : Dev nD) (b : Ref sig .tc) (q : PosShare TreeShare) (f : Buf (Elt F) ((SparseCore.T d).loc b)) :
    (((Memref.whole b).view.loc (d.tc : Thread nD τ) ↦[(Memref.whole b).view.set]{q} f : sProp 𝕄)) = ((SparseCore.T d).loc b ↦{q} f) := by
  simp only [Memref.view_whole, View.set_whole]

theorem bigSep_F0 {M : Type} [URA M] (Φ : Fin 0 → sProp M) : bigSep Finset.univ Φ = (BI.emp : sProp M) :=
  bigSep_univ_eq_bigSepL [] (by decide) (by decide) Φ

omit [FloatOps F] in
theorem prefHeld_emp (d : Dev nD) (q) (pf) :
    (Pipeline.prefHeld (Ix := HIx 1) (Name := ℕ) (U := UU) (Lvl := ℕ) (Val := Elt F) (pcfgs (F := F) 0).pre d q pf : sProp 𝕄) = BI.emp :=
  bigSep_F0 _

/-- The seven windows' arrays, from the four read shares of the transposed table and the three other arrays. -/
theorem arrays_intro (d : Dev nD) :
    iprop(((SparseCore.T d).loc main_v9 ↦{Transfers.shareTok fullShare 4 0} M1 ((SparseCore.T d).loc main_v9))
        ∗ ((SparseCore.T d).loc main_v9 ↦{Transfers.shareTok fullShare 4 1} M1 ((SparseCore.T d).loc main_v9))
        ∗ ((SparseCore.T d).loc main_v9 ↦{Transfers.shareTok fullShare 4 2} M1 ((SparseCore.T d).loc main_v9))
        ∗ ((SparseCore.T d).loc main_v9 ↦{Transfers.shareTok fullShare 4 3} M1 ((SparseCore.T d).loc main_v9))
        ∗ ((SparseCore.T d).loc main_v8 ↦{fullShare} M1 ((SparseCore.T d).loc main_v8))
        ∗ ((SparseCore.T d).loc main_v1 ↦{fullShare} M1 ((SparseCore.T d).loc main_v1))
        ∗ ((SparseCore.T d).loc main_v10 ↦{fullShare} M1 ((SparseCore.T d).loc main_v10)))
      ⊢ ((rdat M1 OutRel d).arrays (rdat M1 OutRel d).A : sProp 𝕄) := by
  unfold RDat.arrays
  rw [Gen.bigSep_W0]
  iintro ⟨T0, T1, T2, T3, H8, H1, H10⟩
  isplitl [T0]; · iapply (Entails.of_eq (arrPt_eq d main_v9 _ _).symm); iexact T0
  isplitl [T1]; · iapply (Entails.of_eq (arrPt_eq d main_v9 _ _).symm); iexact T1
  isplitl [T2]; · iapply (Entails.of_eq (arrPt_eq d main_v9 _ _).symm); iexact T2
  isplitl [T3]; · iapply (Entails.of_eq (arrPt_eq d main_v9 _ _).symm); iexact T3
  isplitl [H8]; · iapply (Entails.of_eq (arrPt_eq d main_v8 _ _).symm); iexact H8
  isplitl [H1]; · iapply (Entails.of_eq (arrPt_eq d main_v1 _ _).symm); iexact H1
  iapply (Entails.of_eq (arrPt_eq d main_v10 _ _).symm); iexact H10

theorem owesAt_intro (d : Dev nD) (t : Fin (cfg0.N + 1)) (W : Waits sig (HIx 1)) (hW : ∀ p ∈ W, p.2 = (none : HIx 1)) :
    (owes (SparseCore.T d) ((K (F := F)).Otc d 0) W : sProp 𝕄) ⊢ (rdat M1 OutRel d).owesAt (none : HIx 1) t := by
  iintro HO
  iexists W; isplitr; · ipureintro; exact fun p hp => Or.inl (hW p hp)
  iexact HO

theorem owesAt_elim (d : Dev nD) (t : Fin (cfg0.N + 1)) :
    ((rdat M1 OutRel d).owesAt (none : HIx 1) t : sProp 𝕄)
      ⊢ iprop(∃ W, ⌜∀ p ∈ W, p.2 = (none : HIx 1)⌝ ∗ owes (SparseCore.T d) ((K (F := F)).Otc d 0) W) := by
  iintro ⟨%W, %hW, HO⟩
  iexists W; isplitr
  · ipureintro; intro p hp
    rcases hW hp with h | ⟨w, s, rfl⟩
    · exact h
    · rfl
  · iexact HO

/-- The result array after both write-backs: at some contents they may have made. -/
theorem arraysAt_6 (d : Dev nD) :
    ((rdat M1 OutRel d).arraysAt cfg0.N : sProp 𝕄) ⊢ iprop(∃ Fc, ⌜(rdat M1 OutRel d).ArrAt 6 cfg0.N Fc⌝ ∗ twLoc d ↦{fullShare} Fc) := by
  unfold RDat.arraysAt
  rw [Gen.bigSep_W0]
  iintro ⟨-, -, -, -, -, -, %Fc, %hFc, H6⟩
  iexists Fc; isplitr; · ipureintro; exact hFc
  iapply (Entails.of_eq (arrPt_eq d main_v10 _ _)); iexact H6

variable (M1 OutRel)

/-- The arrays the region moves, as @main holds them at its entry: the transposed table, the block-diagonal weights,
    the tiled bias row, the result (at anything); and what the TensorCore owes the SparseCore call's handshakes. -/
def regPre (d : Dev nD) : sProp 𝕄 :=
  iprop(((SparseCore.T d).loc main_v9 ↦{fullShare} M1 ((SparseCore.T d).loc main_v9)) ∗ ((SparseCore.T d).loc main_v8 ↦{fullShare} M1 ((SparseCore.T d).loc main_v8))
    ∗ ((SparseCore.T d).loc main_v1 ↦{fullShare} M1 ((SparseCore.T d).loc main_v1)) ∗ ((SparseCore.T d).loc main_v10 ↦{fullShare} M1 ((SparseCore.T d).loc main_v10))
    ∗ ∃ W, ⌜∀ p ∈ W, p.2 = (none : HIx 1)⌝ ∗ owes (SparseCore.T d) ((K (F := F)).Otc d 0) W)

/-- What the region leaves: the result array at contents the two write-backs may have made, the three inputs back,
    the same debt. -/
def regPost (d : Dev nD) : sProp 𝕄 :=
  iprop((∃ Fc, ⌜(rdat M1 OutRel d).ArrAt 6 cfg0.N Fc⌝ ∗ twLoc d ↦{fullShare} Fc)
    ∗ ∃ W, ⌜∀ p ∈ W, p.2 = (none : HIx 1)⌝ ∗ owes (SparseCore.T d) ((K (F := F)).Otc d 0) W)

def R0 (hOut : ∀ (d : Dev nD) (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5))) :
    Pipeline.RDat.RegionSeg (pcfgs (F := F)) adm (rdats M1 OutRel) (none : HIx 1) defs₀ 𝒱₀ (LK (F := F)) (lvK (F := F)) 0 where
  win := winFacts₀0
  block_pos := block_pos0
  stage_whole := stage_whole0
  K := PEmpty
  osem k := k.elim
  ho := Pipeline.OwnSemFacts.none _
  hbody d := body_obl d (hOut d)
  hwaits d := Pipeline.RDat.cellsWaits_intro _ _ _ _ _ fun w s t =>
    (K (F := F)).mayWait_none _ (fun g => Otc_none d 0 g)
  pre := regPre M1
  post := regPost M1 OutRel
  X _ := iprop(emp)
  Y _ := iprop(emp)
  Z d := (SparseCore.T d).loc main_v9 ↦{Transfers.shareDrop fullShare 4} M1 ((SparseCore.T d).loc main_v9)
  hentry d := by
    rw [Pipeline.ownSems0_none, prefHeld_emp]
    unfold regPre
    iintro ⟨⟨H9, H8, H1, H10, %W, %hW, HO⟩, -, -⟩
    ihave H9s := (Transfers.pointsTo_toks_split fullShare 4) $$ H9
    icases H9s with ⟨H9d, H9t⟩
    ihave H9t' := (Entails.of_eq (bigSep4 _)) $$ H9t
    icases H9t' with ⟨T0, T1, T2, T3⟩
    imodintro
    isplitl [T0 T1 T2 T3 H8 H1 H10]
    · iapply (arrays_intro (M1 := M1) (OutRel := OutRel) d)
      isplitl [T0]; · iexact T0
      isplitl [T1]; · iexact T1
      isplitl [T2]; · iexact T2
      isplitl [T3]; · iexact T3
      isplitl [H8]; · iexact H8
      isplitl [H1]; · iexact H1
      iexact H10
    isplitr; · iempintro
    isplitl [HO]
    · iapply (owesAt_intro (M1 := M1) (OutRel := OutRel) d 0 W hW); iexact HO
    isplitr; · iempintro
    iexact H9d
  hin d := by
    show _ ⊢ (iprop(emp) : sProp 𝕄)
    iintro -; iempintro
  hout d := by
    show (iprop(emp) : sProp 𝕄) ⊢ iprop(emp ∗ Pipeline.ownSems0 (fun k : PEmpty => k.elim) d ∗ Pipeline.scopedRest spec0 d)
    rw [Pipeline.ownSems0_none, scopedRest0_eq]
    iintro -
    isplitr; · iempintro
    isplitr <;> iempintro
  hexit d := by
    unfold regPost
    iintro ⟨Harr, HO, -, -⟩
    imodintro
    isplitl [Harr]
    · iapply (show ((rdats M1 OutRel 0 d).arraysAt (Pipeline.pin (pcfgs (F := F)) adm 0).N : sProp 𝕄) ⊢ _ from arraysAt_6 (M1 := M1) (OutRel := OutRel) d)
      iexact Harr
    · iapply (show ((rdats M1 OutRel 0 d).owesAt (none : HIx 1) (Fin.last (Pipeline.pin (pcfgs (F := F)) adm 0).N) : sProp 𝕄) ⊢ _ from
        owesAt_elim (M1 := M1) (OutRel := OutRel) d (Fin.last cfg0.N))
      iexact HO

end Cert.Proof.KB

end
-- ==== Proof.KB.RegionWp.lean ====
import proofs.«217943_g20899310862962_cont_8to1_1374_33_alg».proof.Proof.KB.Common
import proofs.«217943_g20899310862962_cont_8to1_1374_33_alg».proof.Proof.KB.Region

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
variable {F : FTy → Type} [FloatOps F]

local notation "𝕄" => MT nD τ sig (HIx 1) (Elt F) ℕ UU ℕ

variable {M1 : (ℓ : Loc nD τ sig) → Buf (Elt F) ℓ} {OutRel : Fin cfg0.N → (S16384x128.Idx → Elt F .f32) → Prop}

theorem cellOf_inj' : Function.Injective (Pipeline.cellOf (nD := nD) (τ := τ) (Pipeline.pin (pcfgs (F := F)) adm)) := cellOf_inj

set_option maxHeartbeats 1000000 in
/-- The region in the pipelines' own label table. -/
theorem region_wp_D (hOut : ∀ (d : Dev nD) (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5)))
    [∀ e, Nonempty (Elt F e)] (d : Dev nD) (Φ : PUnit → sProp 𝕄) :
    iprop((iprop(boundary (d.tc : Thread nD τ) ∗ (R0 M1 OutRel hOut).post d) -∗ wp frame (wpE (D (F := F)) 𝒱 (d.tc : Thread nD τ) none) Set.univ (.ret ⟨⟩) Φ)
        ∗ boundary (d.tc : Thread nD τ) ∗ (R0 M1 OutRel hOut).pre d ∗ levAts (LK (F := F)) (lvK (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Φ :=
  Pipeline.RDat.RegionSeg.wp (pcfgs (F := F)) adm (rdats M1 OutRel) (none : HIx 1) cellOf_inj' EP defs₀ 𝒱₀ (LK (F := F)) (lvK (F := F))
    (R0 M1 OutRel hOut) d none (fun _ h => nomatch h) (fun _ => .ret ⟨⟩) Φ

set_option maxHeartbeats 1000000 in
/-- The TensorCore call as @main meets it, inside the SparseCore program's label table: from the boundary, the region's
    arrays and debt, the level facts and the pipeline's launch ghost state, to the boundary and what the region leaves. -/
theorem region_wp (hOut : ∀ (d : Dev nD) (t : Fin cfg0.N) (Y : (w : Fin cfg0.W) → (cfg0.win w).block.Idx → Elt F (cfg0.win w).elt),
      (∀ w, (rdat M1 OutRel d).Finds w t (Y w)) → OutRel t (k0_pay1 (Y 0) (Y 1) (Y 2) (Y 3) (Y 4) (Y 5)))
    [∀ e, Nonempty (Elt F e)] (d : Dev nD) {Φ : PUnit → sProp 𝕄} :
    iprop(boundary (SparseCore.T d) ∗ regPre M1 d ∗ levAts (LK (F := F)) (lvK (F := F))
        ∗ Pipeline.cellsGhost (Pipeline.pin (pcfgs (F := F)) adm) EP 0 d ∗ Pipeline.toksInit (Pipeline.pin (pcfgs (F := F)) adm) EP 0 d
        ∗ (iprop(boundary (SparseCore.T d) ∗ regPost M1 OutRel d) -∗ Φ ⟨⟩))
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) Set.univ none
    (Prog.op (.customCall (Pipeline.entry 0) ()) fun _ => Prog.ret PUnit.unit) Φ
  have haux : iprop(boundary (SparseCore.T d) ∗ regPre M1 d ∗ levAts (LK (F := F)) (lvK (F := F))
        ∗ Pipeline.cellsGhost (Pipeline.pin (pcfgs (F := F)) adm) EP 0 d ∗ Pipeline.toksInit (Pipeline.pin (pcfgs (F := F)) adm) EP 0 d
        ∗ (iprop(boundary (SparseCore.T d) ∗ regPost M1 OutRel d) -∗ Φ ⟨⟩))
      ⊢ iprop((iprop(boundary (d.tc : Thread nD τ) ∗ (R0 M1 OutRel hOut).post d) -∗ wp frame (wpE (D (F := F)) 𝒱 (d.tc : Thread nD τ) none) Set.univ (.ret ⟨⟩) Φ)
        ∗ boundary (d.tc : Thread nD τ) ∗ (R0 M1 OutRel hOut).pre d ∗ levAts (LK (F := F)) (lvK (F := F))
        ∗ Pipeline.cellsGhost (Pipeline.pin (pcfgs (F := F)) adm) EP 0 d ∗ Pipeline.toksInit (Pipeline.pin (pcfgs (F := F)) adm) EP 0 d) := by
    iintro ⟨Hb, Hpre, Hlev, Hcg, Htk, Hk⟩
    isplitl [Hk]
    · iintro ⟨Hb', Hp'⟩
      rw [wp_ret]; imodintro
      iapply Hk
      isplitl [Hb']; · iexact Hb'
      iapply (Entails.of_eq (show (R0 M1 OutRel hOut).post d = regPost M1 OutRel d from rfl)); iexact Hp'
    isplitl [Hb]; · iexact Hb
    isplitl [Hpre]; · iapply (Entails.of_eq (show regPre M1 d = (R0 M1 OutRel hOut).pre d from rfl)); iexact Hpre
    isplitl [Hlev]; · iexact Hlev
    isplitl [Hcg]; · iexact Hcg
    iexact Htk
  exact haux.trans ((region_wp_D hOut d Φ).trans hl)

end Cert.Proof.KB

end
-- ==== Proof.KB.Host.lean ====
import proofs.«217943_g20899310862962_cont_8to1_1374_33_alg».proof.Proof.KB.Common

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
variable {F : FTy → Type} [FloatOps F]

local notation "𝕄" => MT nD τ sig (HIx 1) (Elt F) ℕ UU ℕ

/-! ## @main's host lines

Before the TensorCore call: the bias row tiled four times, the 4 x 4 identity, its Kronecker product with W, the
table transposed. After the SparseCore call: the transposition back. -/

abbrev ops1 : List (HloOp τ sig (Elt F)) :=
  [ reshape main_arg3 main_v0 rfl shapeCasts_S32_S1x32,
    nary ![main_v0, main_v0, main_v0, main_v0] main_v1 (fun u => concatenate S1x128 1 [⟨S1x32, u 0⟩, ⟨S1x32, u 1⟩, ⟨S1x32, u 2⟩, ⟨S1x32, u 3⟩] concatenates_S1x32_S1x32_S1x32_S1x32_S1x128_d1),
    nullary main_v2 (iotaInDim S4x4 32 0),
    nullary main_v3 (iotaInDim S4x4 32 1),
    nullary main_c (constantI S_ 32 0#32),
    unary main_c main_v4 (broadcastInDim S4x4 ![] bcast_S_S4x4 : (⟨S_, .i32⟩ : BufTy).Contents (Elt F) → (⟨S4x4, .i32⟩ : BufTy).Contents (Elt F)),
    binary main_v2 main_v4 main_v5 (addi : (⟨S4x4, .i32⟩ : BufTy).Contents (Elt F) → (⟨S4x4, .i32⟩ : BufTy).Contents (Elt F) → (⟨S4x4, .i32⟩ : BufTy).Contents (Elt F)),
    binary main_v5 main_v3 main_v6 (cmpi .eq : (⟨S4x4, .i32⟩ : BufTy).Contents (Elt F) → (⟨S4x4, .i32⟩ : BufTy).Contents (Elt F) → (⟨S4x4, .i1⟩ : BufTy).Contents (Elt F)),
    unary main_v6 main_v7 (uitofp .f32 : (⟨S4x4, .i1⟩ : BufTy).Contents (Elt F) → (⟨S4x4, .f32⟩ : BufTy).Contents (Elt F)),
    TRef.unary (.of main_v7 : TRef sig ⟨S4x4, .f32⟩) main_call0.v0 (broadcastInDim S4x1x4x1 ![0, 2] bcast_S4x4_S4x1x4x1_0_2),
    TRef.unary (.of main_arg2 : TRef sig ⟨S32x32, .f32⟩) main_call0.v1 (broadcastInDim S1x32x1x32 ![1, 3] bcast_S32x32_S1x32x1x32_1_3),
    TRef.unary main_call0.v0 main_call0.v2 (broadcastInDim S4x32x4x32 ![0, 1, 2, 3] bcast_S4x1x4x1_S4x32x4x32_0_1_2_3),
    TRef.unary main_call0.v1 main_call0.v3 (broadcastInDim S4x32x4x32 ![0, 1, 2, 3] bcast_S1x32x1x32_S4x32x4x32_0_1_2_3),
    TRef.binary main_call0.v2 main_call0.v3 main_call0.v4 mulf,
    TRef.reshape main_call0.v4 main_call0.v5 rfl shapeCasts_S4x32x4x32_S128x128,
    unary main_arg1 main_v9 ((transpose S32x100001 [1, 0] · transposes_S100001x32_S32x100001_1_0) : (⟨S100001x32, .f32⟩ : BufTy).Contents (Elt F) → (⟨S32x100001, .f32⟩ : BufTy).Contents (Elt F)) ]

abbrev ops2 : List (HloOp τ sig (Elt F)) :=
  [ unary main_v11 main_v12 ((transpose S16384x32 [1, 0] · transposes_S32x16384_S16384x32_1_0) : (⟨S32x16384, .f32⟩ : BufTy).Contents (Elt F) → (⟨S16384x32, .f32⟩ : BufTy).Contents (Elt F)) ]

set_option maxRecDepth 4096 in
/-- @main is the first stretch, the TensorCore call, the SparseCore call, the last line. -/
theorem main_eq (d : Dev nD) :
    main (F := F) d = (seq ops1 >>= fun _ => Prog.lift (.customCall (SparseCore.inner (Pipeline.entry 0)) ()) >>= fun _ =>
      sc.run d 0 >>= fun _ => seq ops2) := by
  simp only [main, fn_kron.body, seq, bind_assoc, pure_bind]

/-- The device's buffers at launch and after the first stretch of host lines; the latter as a memory. -/
abbrev V0 (m : (ℓ : Loc nD τ sig) → Buf (Elt F) ℓ) (d : Dev nD) : Valuation τ sig (Elt F) := fun b => m (d, b)
abbrev V1 (m : (ℓ : Loc nD τ sig) → Buf (Elt F) ℓ) (d : Dev nD) : Valuation τ sig (Elt F) := after ops1 (V0 m d)
abbrev M1 (m : (ℓ : Loc nD τ sig) → Buf (Elt F) ℓ) : (ℓ : Loc nD τ sig) → Buf (Elt F) ℓ := fun ℓ => V1 m ℓ.1 ℓ.2

end Cert.Proof.KB

end
-- ==== Proof.KB.TileSpec.lean ====
/-
  What the SparseCore call carries and what a vector subcore's task must do with it.
  The 16384 ids are cut into 32 runs of 512; worker w = 2 * subcore + core owns run w of the ids and columns
  [512 w, 512 (w + 1)) of the transposed output; every worker reads the packed projected table through a read share.
  The packed table keeps the projection of table row u at row (u mod 32768), lanes 32 * (u div 32768) + dd, dd < 32;
  a worker's columns must end holding, at (dd, r), the projection of the row that id r names, at feature dd.
-/
import proofs.«217943_g20899310862962_cont_8to1_1374_33_alg».proof.Proof.KB.Common
import proofs.«217943_g20899310862962_cont_8to1_1374_33_alg».proof.Proof.Spec
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
-- The projected value of table row `u` at feature `dd`, and whether values are tracked at all (they are at the exact
-- instance, not at the word-level one). The packed table's contents when the SparseCore call starts are not a function
-- of the launch memory (blocks that overhang the table's end leave lanes nobody names), so they travel existentially.
variable (pv : Fin 100001 → Fin 32 → F .f32) (Ok : Prop)

/-! ## The pure facts -/

/-- Every id is a row of the table (the precondition's last conjunct, read unsigned). -/
def PreOK : Prop := ∀ (d : Dev nD) (r : S16384.Idx), (m (uLoc d) r).toNat ≤ 100000

theorem packRow_lt (u : Fin 100001) : u.val % 32768 < 32768 := Nat.mod_lt _ (by decide)
theorem packLane_lt (u : Fin 100001) (dd : Fin 32) : 32 * (u.val / 32768) + dd.val < 128 := by
  have := u.isLt; have := dd.isLt; omega

/-- The packed table holds every table row's projection where the lookup will read it. -/
def TWok (d : Dev nD) (twc : Buf (Elt F) (twLoc d)) : Prop :=
  Ok → ∀ (u : Fin 100001) (dd : Fin 32),
    twc (ix2 (n0 := 32768) (n1 := 128) ⟨u.val % 32768, packRow_lt u⟩ ⟨32 * (u.val / 32768) + dd.val, packLane_lt u dd⟩) = pv u dd

/-- Columns of worker `w` of a transposed output `f` hold the looked-up projections. -/
def OutOkOn (d : Dev nD) (w : Fin 32) (f : Buf (Elt F) (oLoc d)) : Prop :=
  Ok → ∀ (dd : Fin 32) (r : Fin 16384), r.val / 512 = w.val →
    f (ix2 (n0 := 32) (n1 := 16384) dd r) = pv (Cert.Spec.rowOf (m (uLoc d) (ix1 (n := 16384) r))) dd

/-- The whole transposed output holds them. -/
def OutOk (d : Dev nD) (f : Buf (Elt F) (oLoc d)) : Prop :=
  Ok → ∀ (dd : Fin 32) (r : Fin 16384),
    f (ix2 (n0 := 32) (n1 := 16384) dd r) = pv (Cert.Spec.rowOf (m (uLoc d) (ix1 (n := 16384) r))) dd

/-! ## The workers' parts of the arrays -/

theorem hdivU : 32 ∣ S16384.size 0 := ⟨512, rfl⟩
theorem hdivO : 32 ∣ S32x16384.size 1 := ⟨512, rfl⟩

/-- The worker a (core, subcore) pair is: 2 * subcore + core, as the kernel computes it. -/
def wid (c : Fin 2) (i : Fin 16) : Fin 32 := ⟨2 * i.val + c.val, by omega⟩

abbrev uPart (w : Fin 32) : Rect S16384 := Rect.part (s := S16384) (a₀ := 0) hdivU w
abbrev oPart (w : Fin 32) : Rect S32x16384 := Rect.part (s := S32x16384) (a₀ := 1) hdivO w
abbrev uSet (w : Fin 32) : Finset S16384.Idx := (uPart w).set
abbrev oSet (w : Fin 32) : Finset S32x16384.Idx := (oPart w).set

/-- Worker `w`'s read share of the packed table at contents `twc`, its run of the ids, its columns of the output at
    contents `f`. -/
abbrev twTok (d : Dev nD) (w : Fin 32) (twc : Buf (Elt F) (twLoc d)) : sProp 𝕄 := twLoc d ↦{Transfers.shareTok fullShare 32 w} twc
abbrev uPts (d : Dev nD) (w : Fin 32) : sProp 𝕄 := uLoc d ↦[uSet w]{fullShare} m (uLoc d)
abbrev oPts (d : Dev nD) (w : Fin 32) (f : Buf (Elt F) (oLoc d)) : sProp 𝕄 := oLoc d ↦[oSet w]{fullShare} f

/-- What the sequencer's go hands worker `w` (a read share of the packed table at some contents that hold the
    projections, its ids, its columns), and what its taskDone hands back (the ids, the columns filled; the read share
    is not needed again and is let go). -/
def goW (d : Dev nD) (w : Fin 32) : sProp 𝕄 :=
  iprop((∃ twc, ⌜TWok pv Ok d twc⌝ ∗ twTok d w twc) ∗ uPts m d w ∗ oPts d w (m (oLoc d)))
def tdW (d : Dev nD) (w : Fin 32) : sProp 𝕄 := iprop(uPts m d w ∗ ∃ f, ⌜OutOkOn m pv Ok d w f⌝ ∗ oPts d w f)

/-- The one SparseCore call: a SparseCore is handed exactly what its sixteen tasks are, and hands back what they do;
    no task consumes anything of the launch's. -/
def P : (K (F := F)).Pay (nD := nD) (Val := Elt F) (Name := ℕ) (U := UU) where
  st := fun q d c => match q with | 0 => bigSep Finset.univ fun i : Fin 16 => goW m pv Ok d (wid (Fin.cast nCore_zero c) i)
  dn := fun q d c => match q with | 0 => bigSep Finset.univ fun i : Fin 16 => tdW m pv Ok d (wid (Fin.cast nCore_zero c) i)
  go := fun q d c i => match q with | 0 => goW m pv Ok d (wid (Fin.cast nCore_zero c) (Fin.cast nSub_zero i))
  td := fun q d c i => match q with | 0 => tdW m pv Ok d (wid (Fin.cast nCore_zero c) (Fin.cast nSub_zero i))
  x := fun _ _ => iprop(emp)

instance P_storable : (P (F := F) m pv Ok).IsStorable where
  st q d c := match q with | 0 => by unfold P goW; infer_instance
  dn q d c := match q with | 0 => by unfold P tdW; infer_instance
  go q d c i := match q with | 0 => by unfold P goW; infer_instance
  td q d c i := match q with | 0 => by unfold P tdW; infer_instance

end Cert.Proof.KB

end
-- ==== Proof.KB.Split.lean ====
/-
  The SparseCore call's resources, split and rejoined. Before the call the device holds the packed projected table, the
  ids and the transposed output whole. The table's full share is cut into 32 read tokens and a remainder; the ids are
  cut into 32 runs of 512 and the output into 32 bands of 512 columns; worker w = 2 * subcore + core receives token w,
  run w and band w, and the pairs (core, subcore) name the 32 workers once each. After the call the 32 runs make the ids
  whole again, and the 32 bands, each holding the looked-up projections on its own columns, make a whole output that
  holds them on every column: column r lies in band r / 512 and in no other.
-/
import proofs.«217943_g20899310862962_cont_8to1_1374_33_alg».proof.Proof.KB.TileSpec
import Idealize.ShloMosaic.Lib.Transfers
import Idealize.ShloMosaic.Rules.PointsTo
import Idealize.ShloMosaic.Lib.SparseCore.Launch

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (pv : Fin 100001 → Fin 32 → F .f32) (Ok : Prop)

/-! ## The workers, once each -/

/-- Different (core, subcore) pairs are different workers. -/
theorem wid_injective : Function.Injective (fun p : Fin 2 × Fin 16 => wid p.1 p.2) := by
  rintro ⟨c, i⟩ ⟨c', i'⟩ h
  have hv : (wid c i).val = (wid c' i').val := congrArg Fin.val h
  change 2 * i.val + c.val = 2 * i'.val + c'.val at hv
  have hc := c.isLt
  have hc' := c'.isLt
  exact Prod.ext (Fin.ext (by show c.val = c'.val; omega)) (Fin.ext (by show i.val = i'.val; omega))

/-- Every worker is some pair's: worker w is core w mod 2, subcore w div 2. -/
theorem wid_image : (Finset.univ : Finset (Fin 2 × Fin 16)).image (fun p => wid p.1 p.2) = Finset.univ := by
  ext w
  simp only [Finset.mem_image, Finset.mem_univ, true_and, iff_true]
  exact ⟨(⟨w.val % 2, Nat.mod_lt _ (by decide)⟩, ⟨w.val / 2, by have := w.isLt; omega⟩),
    Fin.ext (by show 2 * (w.val / 2) + w.val % 2 = w.val; omega)⟩

/-- A family over the workers, gathered core by core and subcore by subcore, is the family over the 32 workers. -/
theorem bigSep_wid (Φ : Fin 32 → sProp 𝕄) :
    (bigSep Finset.univ fun c : Fin 2 => bigSep Finset.univ fun i : Fin 16 => Φ (wid c i)) = bigSep Finset.univ Φ := by
  rw [← wid_image, SparseCore.bigSep_image_of_injOn (wid_injective.injOn), ← Finset.univ_product_univ,
    SparseCore.bigSep_product]

/-- The call's cores are the two cores. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's tasks are the sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the two cores are handed together is what the 32 workers are handed. -/
theorem st_all (d : Dev nD) :
    (bigSep Finset.univ fun c : Fin ((K (F := F)).nCore 0) => (P m pv Ok).st 0 d c)
      = bigSep Finset.univ fun w : Fin 32 => goW m pv Ok d w := by
  show (bigSep Finset.univ fun c : Fin ((K (F := F)).nCore 0) =>
      bigSep Finset.univ fun i : Fin 16 => goW m pv Ok d (wid (Fin.cast nCore_zero c) i)) = _
  rw [bigSep_cores (F := F) (fun c => bigSep Finset.univ fun i : Fin 16 => goW m pv Ok d (wid c i)),
    bigSep_wid (F := F) (fun w => goW m pv Ok d w)]

/-- What the two cores hand back together is what the 32 workers hand back. -/
theorem dn_all (d : Dev nD) :
    (bigSep Finset.univ fun c : Fin ((K (F := F)).nCore 0) => (P m pv Ok).dn 0 d c)
      = bigSep Finset.univ fun w : Fin 32 => tdW m pv Ok d w := by
  show (bigSep Finset.univ fun c : Fin ((K (F := F)).nCore 0) =>
      bigSep Finset.univ fun i : Fin 16 => tdW m pv Ok d (wid (Fin.cast nCore_zero c) i)) = _
  rw [bigSep_cores (F := F) (fun c => bigSep Finset.univ fun i : Fin 16 => tdW m pv Ok d (wid c i)),
    bigSep_wid (F := F) (fun w => tdW m pv Ok d w)]

/-! ## The runs of the ids and the bands of the output -/

theorem uParts_disjoint : ∀ i ∈ (Finset.univ : Finset (Fin 32)), ∀ j ∈ (Finset.univ : Finset (Fin 32)), i ≠ j →
    Disjoint (uSet i) (uSet j) :=
  fun _ _ _ _ h => Rect.part_disjoint hdivU h
theorem uParts_cover : (Finset.univ : Finset (Fin 32)).biUnion uSet = Finset.univ := Rect.biUnion_part hdivU
theorem oParts_disjoint : ∀ i ∈ (Finset.univ : Finset (Fin 32)), ∀ j ∈ (Finset.univ : Finset (Fin 32)), i ≠ j →
    Disjoint (oSet i) (oSet j) :=
  fun _ _ _ _ h => Rect.part_disjoint hdivO h
theorem oParts_cover : (Finset.univ : Finset (Fin 32)).biUnion oSet = Finset.univ := Rect.biUnion_part hdivO

/-- The ids whole are their 32 runs. -/
theorem uPts_parts (d : Dev nD) (f : Buf (Elt F) (uLoc d)) :
    (uLoc d ↦{fullShare} f : sProp 𝕄) = bigSep Finset.univ fun w : Fin 32 => uLoc d ↦[uSet w]{fullShare} f := by
  rw [← pointsTo_biUnion Finset.univ (ℓ := uLoc d) uSet uParts_disjoint, uParts_cover]; try rfl

/-- The output whole is its 32 bands. -/
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oParts_disjoint, oParts_cover]; try rfl

/-- Column r of the output lies in band r div 512. -/
theorem mem_oSet (dd : Fin 32) (r : Fin 16384) (w : Fin 32) (h : r.val / 512 = w.val) :
    ix2 (n0 := 32) (n1 := 16384) dd r ∈ oSet w := by
  refine Rect.mem_set_unit.mpr fun a => ?_
  match a with
  | ⟨0, _⟩ =>
    show Shape.partIx S32x16384 1 w.val 0 * Shape.partSize S32x16384 1 32 0 ≤ dd.val
      ∧ dd.val < Shape.partIx S32x16384 1 w.val 0 * Shape.partSize S32x16384 1 32 0 + Shape.partSize S32x16384 1 32 0
    have h0 : Shape.partIx S32x16384 1 w.val 0 = 0 := rfl
    have h1 : Shape.partSize S32x16384 1 32 0 = 32 := rfl
    rw [h0, h1]
    have := dd.isLt
    omega
  | ⟨1, _⟩ =>
    show Shape.partIx S32x16384 1 w.val 1 * Shape.partSize S32x16384 1 32 1 ≤ r.val
      ∧ r.val < Shape.partIx S32x16384 1 w.val 1 * Shape.partSize S32x16384 1 32 1 + Shape.partSize S32x16384 1 32 1
    have h0 : Shape.partIx S32x16384 1 w.val 1 = w.val := rfl
    have h1 : Shape.partSize S32x16384 1 32 1 = 512 := rfl
    rw [h0, h1]
    omega

/-- A whole output that agrees with 32 band-wise correct outputs, each on its own band, is correct on every column. -/
theorem outOk_of_parts (d : Dev nD) (fs : Fin 32 → Buf (Elt F) (oLoc d)) (g : Buf (Elt F) (oLoc d))
    (hok : ∀ w ∈ (Finset.univ : Finset (Fin 32)), OutOkOn m pv Ok d w (fs w))
    (hg : ∀ t ∈ (Finset.univ : Finset (Fin 32)), ∀ i ∈ oSet t, g i = fs t i) : OutOk m pv Ok d g := by
  intro hOk dd r
  have hw : r.val / 512 < 32 := by have := r.isLt; omega
  have hmem := mem_oSet dd r ⟨r.val / 512, hw⟩ rfl
  rw [hg ⟨r.val / 512, hw⟩ (Finset.mem_univ _) _ hmem]
  exact hok ⟨r.val / 512, hw⟩ (Finset.mem_univ _) hOk dd r rfl

/-! ## Into the call, and out of it -/

/-- From the three arrays whole, the packed table's contents holding the projections: what the two cores are handed,
    and the remainder of the table's share. -/
theorem st_intro (pv : Fin 100001 → Fin 32 → F .f32) (Ok : Prop) (d : Dev nD) (twc : Buf (Elt F) (twLoc d))
    (htw : TWok pv Ok d twc) :
    iprop((twLoc d ↦{fullShare} twc) ∗ (uLoc d ↦{fullShare} m (uLoc d)) ∗ (oLoc d ↦{fullShare} m (oLoc d)))
      ⊢ (iprop((bigSep Finset.univ fun c : Fin ((K (F := F)).nCore 0) => (P m pv Ok).st 0 d c)
          ∗ (twLoc d ↦{Transfers.shareDrop fullShare 32} twc)) : sProp 𝕄) := by
  have htoks : (bigSep Finset.univ fun w : Fin 32 => (twLoc d ↦{Transfers.shareTok fullShare 32 w} twc : sProp 𝕄))
      ⊢ bigSep Finset.univ fun w : Fin 32 => iprop(∃ twc', ⌜TWok pv Ok d twc'⌝ ∗ twTok d w twc') :=
    bigSep_mono fun w _ => by
      show (twLoc d ↦{Transfers.shareTok fullShare 32 w} twc : sProp 𝕄) ⊢ iprop(∃ twc', ⌜TWok pv Ok d twc'⌝ ∗ twTok d w twc')
      iintro H
      iexists twc
      isplitr
      · ipureintro; exact htw
      · iexact H
  rw [st_all]
  unfold goW
  rw [bigSep_sep', bigSep_sep', uPts_parts, oPts_parts]
  iintro ⟨Htw, Hu, Ho⟩
  ihave Ht := (Transfers.pointsTo_toks_split (ℓ := twLoc d) (S := Finset.univ) (f := twc) fullShare 32) $$ Htw
  icases Ht with ⟨Hd, Hts⟩
  isplitr [Hd]
  · isplitl [Hts]
    · iapply htoks $$ Hts
    isplitl [Hu]
    · iexact Hu
    · iexact Ho
  · iexact Hd

/-- From what the two cores hand back: the ids whole, and the output whole at contents that hold the looked-up
    projections on every column. -/
theorem dn_elim (pv : Fin 100001 → Fin 32 → F .f32) (Ok : Prop) (d : Dev nD) :
    (bigSep Finset.univ fun c : Fin ((K (F := F)).nCore 0) => (P m pv Ok).dn 0 d c)
      ⊢ (iprop((uLoc d ↦{fullShare} m (uLoc d)) ∗ ∃ f, ⌜OutOk m pv Ok d f⌝ ∗ oLoc d ↦{fullShare} f) : sProp 𝕄) := by
  rw [dn_all]
  unfold tdW
  rw [bigSep_sep', uPts_parts]
  iintro ⟨Hu, Ho⟩
  isplitl [Hu]
  · iexact Hu
  ihave Ho1 := (bigSep_exists_pi Finset.univ
    (fun (w : Fin 32) (f : Buf (Elt F) (oLoc d)) => iprop(⌜OutOkOn m pv Ok d w f⌝ ∗ oPts d w f))) $$ Ho
  icases Ho1 with ⟨%fs, Ho1⟩
  ihave Ho2 := (bigSep_pure_sep Finset.univ (fun w : Fin 32 => OutOkOn m pv Ok d w (fs w))
    (fun w : Fin 32 => oPts d w (fs w))) $$ Ho1
  icases Ho2 with ⟨%hok, Ho2⟩
  ihave Hj := (pointsTo_biUnion_join Finset.univ oSet fs (fs 0) oParts_disjoint) $$ Ho2
  icases Hj with ⟨%g, %hg, Hg⟩
  rw [oParts_cover]
  iexists g
  isplitr
  · ipureintro; exact outOk_of_parts m pv Ok d fs g hok hg
  · iexact Hg

/-- A core's share is its sixteen tasks' shares, there and back. -/
theorem vecSplit (pv : Fin 100001 → Fin 32 → F .f32) (Ok : Prop) : (K (F := F)).VecSplit' (P m pv Ok) 0 := by
  intro d c
  show (bigSep Finset.univ fun i : Fin 16 => goW m pv Ok d (wid (Fin.cast nCore_zero c) i)) ⊢ |={Set.univ}=> iprop(
      (bigSep Finset.univ fun i : Fin ((K (F := F)).nSub 0) => goW m pv Ok d (wid (Fin.cast nCore_zero c) (Fin.cast nSub_zero i)))
      ∗ ((bigSep Finset.univ fun i : Fin ((K (F := F)).nSub 0) => tdW m pv Ok d (wid (Fin.cast nCore_zero c) (Fin.cast nSub_zero i)))
          -∗ bigSep Finset.univ fun i : Fin 16 => tdW m pv Ok d (wid (Fin.cast nCore_zero c) i)))
  rw [bigSep_tasks (F := F) (fun i => goW m pv Ok d (wid (Fin.cast nCore_zero c) i)),
    bigSep_tasks (F := F) (fun i => tdW m pv Ok d (wid (Fin.cast nCore_zero c) i))]
  iintro H
  imodintro
  isplitl [H]
  · iexact H
  iintro H
  iexact H

end Cert.Proof.KB

end
-- ==== Proof.KB.Launch.lean ====
import proofs.«217943_g20899310862962_cont_8to1_1374_33_alg».proof.Proof.KB.Common
import proofs.«217943_g20899310862962_cont_8to1_1374_33_alg».proof.Proof.KB.RegionWp
import proofs.«217943_g20899310862962_cont_8to1_1374_33_alg».proof.Proof.KB.Host
import proofs.«217943_g20899310862962_cont_8to1_1374_33_alg».proof.Proof.KB.TileSpec
import proofs.«217943_g20899310862962_cont_8to1_1374_33_alg».proof.Proof.KB.Split
import Idealize.ShloMosaic.Lib.ValueLayout

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within wp_seq after seq)
open Idealize.ShloMosaic.Pipeline (RDat Cfg Window cellOf kernel pipe)
open Idealize.ShloMosaic.ValueIdx
variable {F : FTy → Type} [FloatOps F]

local notation "𝕄" => MT nD τ sig (HIx 1) (Elt F) ℕ UU ℕ

/-! ## The launch: @main on the TensorCore around its two calls, the launch element, the final memory -/

variable (m : (ℓ : Loc nD τ sig) → Buf (Elt F) ℓ) (ρ : Dev nD → PrngReg)
variable (pv : Fin 100001 → Fin 32 → F .f32) (Ok : Prop)
variable (OutRel : Fin cfg0.N → (S16384x128.Idx → Elt F .f32) → Prop)

/-- The TensorCore's unscoped buffers. -/
def bufs : Finset (DevRef τ sig) := (StableHlo.tcRefs τ sig).filter fun b => ¬ b.isScoped

omit [FloatOps F] in
theorem unscopedBufs_held (d : Dev nD) (W : Valuation τ sig (Elt F)) :
    (unscopedBufs d (fun b => W b) : sProp 𝕄) = held (SparseCore.T d) bufs W := by
  unfold unscopedBufs held bufs StableHlo.tcRefs
  rw [Finset.filter_map, BI.bigSep_map]
  rfl

abbrev r9 : DevRef τ sig := Proc.devRef .tc (main_v9 : Ref sig .tc)
abbrev r8 : DevRef τ sig := Proc.devRef .tc (main_v8 : Ref sig .tc)
abbrev r1 : DevRef τ sig := Proc.devRef .tc (main_v1 : Ref sig .tc)
abbrev r10 : DevRef τ sig := Proc.devRef .tc (main_v10 : Ref sig .tc)
abbrev r11 : DevRef τ sig := Proc.devRef .tc (main_v11 : Ref sig .tc)
abbrev r12 : DevRef τ sig := Proc.devRef .tc (main_v12 : Ref sig .tc)
abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)

/-- The buffers @main's proof names: the region's four arrays, the four arguments, the SparseCore call's result and
    the program's. -/
def S10 : Finset (DevRef τ sig) := {r9, r8, r1, r10, a0, a1, a2, a3, r11, r12}
def S2 : Finset (DevRef τ sig) := {r11, r12}

theorem S10_sub : S10 ⊆ bufs := by decide

abbrev ptr (d : Dev nD) (b : Ref sig .tc) (f : Buf (Elt F) ((SparseCore.T (τ := τ) d).loc b)) : sProp 𝕄 := (SparseCore.T (τ := τ) d).loc b ↦{fullShare} f

omit [FloatOps F] in
theorem held_S10 (d : Dev nD) (W : Valuation τ sig (Elt F)) :
    (held (SparseCore.T d) S10 W : sProp 𝕄) = iprop(ptr d main_v9 (W r9) ∗ ptr d main_v8 (W r8) ∗ ptr d main_v1 (W r1) ∗ ptr d main_v10 (W r10)
      ∗ ptr d main_arg0 (W a0) ∗ ptr d main_arg1 (W a1) ∗ ptr d main_arg2 (W a2) ∗ ptr d main_arg3 (W a3) ∗ ptr d main_v11 (W r11) ∗ ptr d main_v12 (W r12)) := by
  unfold held
  rw [bigSep_eq_bigSepL_of_eq [r9, r8, r1, r10, a0, a1, a2, a3, r11, r12] (by decide) (by decide)]
  rfl

omit [FloatOps F] in
theorem held_S2 (d : Dev nD) (W : Valuation τ sig (Elt F)) :
    (held (SparseCore.T d) S2 W : sProp 𝕄) = iprop(ptr d main_v11 (W r11) ∗ ptr d main_v12 (W r12)) := by
  unfold held
  rw [bigSep_eq_bigSepL_of_eq [r11, r12] (by decide) (by decide)]
  rfl

theorem ops1_sub : ∀ op ∈ (ops1 : List (HloOp τ sig (Elt F))), op.bufs ⊆ bufs := by
  intro op h
  simp only [ops1, List.mem_cons, List.mem_nil_iff, or_false] at h
  rcases h with rfl | rfl | rfl | rfl | rfl | rfl | rfl | rfl | rfl | rfl | rfl | rfl | rfl | rfl | rfl | rfl
  · exact (by decide : ({Proc.devRef .tc (main_arg3 : Ref sig .tc), Proc.devRef .tc (main_v0 : Ref sig .tc)} : Finset (DevRef τ sig)) ⊆ bufs)
  · exact (by decide : (insert (Proc.devRef .tc (main_v1 : Ref sig .tc)) (Finset.univ.image fun k => (Proc.devRef .tc ((![main_v0, main_v0, main_v0, main_v0] : Fin 4 → Ref sig .tc) k) : DevRef τ sig)) : Finset (DevRef τ sig)) ⊆ bufs)
  · exact (by decide : ({Proc.devRef .tc (main_v2 : Ref sig .tc)} : Finset (DevRef τ sig)) ⊆ bufs)
  · exact (by decide : ({Proc.devRef .tc (main_v3 : Ref sig .tc)} : Finset (DevRef τ sig)) ⊆ bufs)
  · exact (by decide : ({Proc.devRef .tc (main_c : Ref sig .tc)} : Finset (DevRef τ sig)) ⊆ bufs)
  · exact (by decide : ({Proc.devRef .tc (main_c : Ref sig .tc), Proc.devRef .tc (main_v4 : Ref sig .tc)} : Finset (DevRef τ sig)) ⊆ bufs)
  · exact (by decide : ({Proc.devRef .tc (main_v2 : Ref sig .tc), Proc.devRef .tc (main_v4 : Ref sig .tc), Proc.devRef .tc (main_v5 : Ref sig .tc)} : Finset (DevRef τ sig)) ⊆ bufs)
  · exact (by decide : ({Proc.devRef .tc (main_v5 : Ref sig .tc), Proc.devRef .tc (main_v3 : Ref sig .tc), Proc.devRef .tc (main_v6 : Ref sig .tc)} : Finset (DevRef τ sig)) ⊆ bufs)
  · exact (by decide : ({Proc.devRef .tc (main_v6 : Ref sig .tc), Proc.devRef .tc (main_v7 : Ref sig .tc)} : Finset (DevRef τ sig)) ⊆ bufs)
  · exact (by decide : ({Proc.devRef .tc (main_v7 : Ref sig .tc), Proc.devRef .tc (main_call0_v0 : Ref sig .tc)} : Finset (DevRef τ sig)) ⊆ bufs)
  · exact (by decide : ({Proc.devRef .tc (main_arg2 : Ref sig .tc), Proc.devRef .tc (main_call0_v1 : Ref sig .tc)} : Finset (DevRef τ sig)) ⊆ bufs)
  · exact (by decide : ({Proc.devRef .tc (main_call0_v0 : Ref sig .tc), Proc.devRef .tc (main_call0_v2 : Ref sig .tc)} : Finset (DevRef τ sig)) ⊆ bufs)
  · exact (by decide : ({Proc.devRef .tc (main_call0_v1 : Ref sig .tc), Proc.devRef .tc (main_call0_v3 : Ref sig .tc)} : Finset (DevRef τ sig)) ⊆ bufs)
  · exact (by decide : ({Proc.devRef .tc (main_call0_v2 : Ref sig .tc), Proc.devRef .tc (main_call0_v3 : Ref sig .tc), Proc.devRef .tc (main_call0_v4 : Ref sig .tc)} : Finset (DevRef τ sig)) ⊆ bufs)
  · exact (by decide : ({Proc.devRef .tc (main_call0_v4 : Ref sig .tc), Proc.devRef .tc (main_v8 : Ref sig .tc)} : Finset (DevRef τ sig)) ⊆ bufs)
  · exact (by decide : ({Proc.devRef .tc (main_arg1 : Ref sig .tc), Proc.devRef .tc (main_v9 : Ref sig .tc)} : Finset (DevRef τ sig)) ⊆ bufs)
theorem ops1_fresh : ∀ op ∈ (ops1 : List (HloOp τ sig (Elt F))), op.fresh = ∅ := by
  intro op h
  simp only [ops1, List.mem_cons, List.mem_nil_iff, or_false] at h
  rcases h with rfl | rfl | rfl | rfl | rfl | rfl | rfl | rfl | rfl | rfl | rfl | rfl | rfl | rfl | rfl | rfl <;> rfl
theorem ops2_sub : ∀ op ∈ (ops2 : List (HloOp τ sig (Elt F))), op.bufs ⊆ S2 := by
  intro op h
  simp only [ops2, List.mem_cons, List.mem_nil_iff, or_false] at h
  subst h; exact (by decide : ({Proc.devRef .tc (main_v11 : Ref sig .tc), Proc.devRef .tc (main_v12 : Ref sig .tc)} : Finset (DevRef τ sig)) ⊆ S2)
theorem ops2_fresh : ∀ op ∈ (ops2 : List (HloOp τ sig (Elt F))), op.fresh = ∅ := by
  intro op h
  simp only [ops2, List.mem_cons, List.mem_nil_iff, or_false] at h
  subst h; rfl

/-- The first stretch writes none of the arguments, nor the two calls' results. -/
theorem V1_a0 (d : Dev nD) : V1 m d a0 = m ((SparseCore.T d).loc main_arg0) := by
  unfold V1; simp only [ops1, StableHlo.after_cons, StableHlo.after_nil]; rfl
theorem V1_a1 (d : Dev nD) : V1 m d a1 = m ((SparseCore.T d).loc main_arg1) := by
  unfold V1; simp only [ops1, StableHlo.after_cons, StableHlo.after_nil]; rfl
theorem V1_a2 (d : Dev nD) : V1 m d a2 = m ((SparseCore.T d).loc main_arg2) := by
  unfold V1; simp only [ops1, StableHlo.after_cons, StableHlo.after_nil]; rfl
theorem V1_a3 (d : Dev nD) : V1 m d a3 = m ((SparseCore.T d).loc main_arg3) := by
  unfold V1; simp only [ops1, StableHlo.after_cons, StableHlo.after_nil]; rfl
theorem V1_r11 (d : Dev nD) : V1 m d r11 = m ((SparseCore.T d).loc main_v11) := by
  unfold V1; simp only [ops1, StableHlo.after_cons, StableHlo.after_nil]; rfl

/-! ## @main on the TensorCore -/

/-- What the launch deals @main beside the handshakes: the pipeline's launch ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The program's result holds, at (e, q), the projection of the row id e names, at feature q. -/
def ResOk (d : Dev nD) (g : Buf (Elt F) ((SparseCore.T (τ := τ) d).loc main_v12)) : Prop :=
  Ok → ∀ (e : Fin 16384) (q : Fin 32), g (ix2 (n0 := 16384) (n1 := 32) e q) = pv (Cert.Spec.rowOf (m (uLoc d) (ix1 (n := 16384) e))) q

/-- What @main leaves the claim: the four arguments at their launch contents, the result at contents that hold. -/
abbrev FIN (d : Dev nD) : sProp 𝕄 :=
  iprop(ptr d main_arg0 (m ((SparseCore.T d).loc main_arg0)) ∗ ptr d main_arg1 (m ((SparseCore.T d).loc main_arg1))
    ∗ ptr d main_arg2 (m ((SparseCore.T d).loc main_arg2)) ∗ ptr d main_arg3 (m ((SparseCore.T d).loc main_arg3))
    ∗ ∃ g, ⌜ResOk m pv Ok d g⌝ ∗ ptr d main_v12 g)

/-- The last line transposes the SparseCore call's result. -/
theorem after_ops2 (W : Valuation τ sig (Elt F)) :
    after ops2 W r12 = transpose S16384x32 [1, 0] (W r11) transposes_S32x16384_S16384x32_1_0 := by
  simp only [ops2, StableHlo.after_cons, StableHlo.after_nil]; rfl

theorem resOk_of_outOk (d : Dev nD) (f : Buf (Elt F) (oLoc d)) (hf : OutOk m pv Ok d f) :
    ResOk m pv Ok d (transpose S16384x32 [1, 0] f transposes_S32x16384_S16384x32_1_0) := by
  intro hOk e q
  rw [transpose_ix2_apply]
  exact hf hOk q e

/-- The TensorCore's handshake state before call `n` but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := by
  unfold SparseCore.Cfg.tcSt tcRest; rfl

omit [FloatOps F] in
theorem wbelow_iff (d : Dev nD) (W : Waits sig (HIx 1)) : (K (F := F)).WBelow (SparseCore.T d) W (8 * 0) ↔ ∀ p ∈ W, p.2 = none := by
  constructor
  · intro h p hp
    have := h p hp
    cases hq : p.2 with
    | none => rfl
    | some q =>
      rw [hq] at this
      have h1 := (K (F := F)).lev_some_pos (SparseCore.T d, p.1) q
      omega
  · intro h p hp
    rw [h p hp]; exact Nat.le_of_eq (SparseCore.Cfg.lev_none _ _)

set_option backward.isDefEq.respectTransparency.types false in
set_option maxHeartbeats 1000000 in
/-- @main on device `d`'s TensorCore: the first stretch of host lines, the TensorCore call (the region), the
    SparseCore call (the library's `wp_run`), the last line. -/
theorem hmain [∀ e, Nonempty (Elt F e)]
    (hOut : ∀ (d : Dev nD) (t : Fin cfg0.N) (Y : (w : Fin cfg0.W) → (cfg0.win w).block.Idx → Elt F (cfg0.win w).elt),
      (∀ w, (rdat (M1 m) OutRel d).Finds w t (Y w)) → OutRel t (k0_pay1 (Y 0) (Y 1) (Y 2) (Y 3) (Y 4) (Y 5)))
    (hTW : ∀ (d : Dev nD) (Fc : Buf (Elt F) (twLoc d)), (rdat (M1 m) OutRel d).ArrAt 6 cfg0.N Fc → TWok pv Ok d Fc)
    (κ : GSem nD τ sig → ℕ) (d : Dev nD) :
    iprop((K (F := F)).ctx EH (P m pv Ok) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m pv Ok d) := by
  unfold SparseCore.Cfg.tcRes
  rw [show (unscopedBufs d (fun b => m ((SparseCore.T d).loc b)) : sProp 𝕄) = held (SparseCore.T d) bufs (V0 m d) from unscopedBufs_held d (V0 m d), main_eq]
  rw [tcSt_eq d 0]
  iintro ⟨#Hctx, ⟨⟨%W0, %hW0, HO⟩, Hst'⟩, ⟨Hb, Hheld, -, -⟩, Hcg, Htk⟩
  ihave #Hlev := ((K (F := F)).ctx_levAts (EH := EH) (P := P m pv Ok) κ) $$ Hctx
  -- the first stretch of host lines
  iapply (StableHlo.wp_seq 𝒱 none Set.univ d bufs _ ops1 ops1_sub ops1_fresh (V0 m d)) $$ [Hb Hheld]
  · isplitl [Hb]; · iexact Hb
    iexact Hheld
  iintro ⟨Hb, Hheld⟩
  ihave Hh := (Entails.of_eq (held_sub_split (SparseCore.T d) S10_sub (V1 m d))) $$ Hheld
  icases Hh with ⟨Hh, -⟩
  ihave Hh' := (Entails.of_eq (held_S10 d (V1 m d))) $$ Hh
  icases Hh' with ⟨H9, H8, H1, H10, Ha0, Ha1, Ha2, Ha3, H11, H12⟩
  -- the TensorCore call
  rw [wp_bind]
  iapply (region_wp (M1 := M1 m) (OutRel := OutRel) hOut d)
  isplitl [Hb]; · iexact Hb
  isplitl [H9 H8 H1 H10 HO]
  · unfold regPre
    isplitl [H9]; · iexact H9
    isplitl [H8]; · iexact H8
    isplitl [H1]; · iexact H1
    isplitl [H10]; · iexact H10
    iexists W0; isplitr; · ipureintro; exact (wbelow_iff d W0).mp hW0
    iexact HO
  isplitr; · iexact Hlev
  isplitl [Hcg]; · iexact Hcg
  isplitl [Htk]; · iexact Htk
  iintro ⟨Hb, Hpost⟩
  ihave Hpost' := (show regPost (M1 m) OutRel d ⊢ _ from Entails.of_eq (by unfold regPost; rfl)) $$ Hpost
  icases Hpost' with ⟨⟨%Fc, %hFc, Htw⟩, %W1, %hW1, HO⟩
  -- the SparseCore call
  rw [wp_bind]
  ihave Ha0' := (Entails.of_eq (congrArg (ptr d main_arg0) (V1_a0 m d))) $$ Ha0
  ihave H11' := (Entails.of_eq (congrArg (ptr d main_v11) (V1_r11 m d))) $$ H11
  ihave Hs := (st_intro m pv Ok d Fc (hTW d Fc hFc)) $$ [Htw Ha0' H11']
  · isplitl [Htw]; · iexact Htw
    isplitl [Ha0']; · iexact Ha0'
    iexact H11'
  icases Hs with ⟨Hstp, -⟩
  iapply ((K (F := F)).wp_run (D (F := F)) 𝒱 (EH := EH) (P := P m pv Ok) κ d 0)
  isplitr; · iexact Hctx
  isplitl [HO Hst']
  · iapply (Entails.of_eq (tcSt_eq (F := F) d 0).symm)
    isplitl [HO]
    · iexists W1; isplitr; · ipureintro; exact (wbelow_iff d W1).mpr hW1
      iexact HO
    iexact Hst'
  isplitl [Hstp]; · iexact Hstp
  iintro ⟨Hst, Hdn⟩
  ihave Hd := (dn_elim m pv Ok d) $$ Hdn
  icases Hd with ⟨Ha0, %f, %hf, H11⟩
  -- the last line
  rw [← bind_pure (seq ops2)]
  iapply (StableHlo.wp_seq 𝒱 none Set.univ d S2 _ ops2 ops2_sub ops2_fresh (Function.update (V1 m d) r11 f)) $$ [Hb H11 H12]
  · isplitl [Hb]; · iexact Hb
    rw [held_S2, Function.update_self, Function.update_of_ne (show r12 ≠ r11 by decide)]
    isplitl [H11]; · iexact H11
    iexact H12
  iintro ⟨Hb, Hheld⟩
  ihave Hh := (Entails.of_eq (held_S2 d _)) $$ Hheld
  icases Hh with ⟨-, H12⟩
  rw [wp_pure]
  imodintro
  isplitl [Hst]; · iexact Hst
  ihave Ha1' := (Entails.of_eq (congrArg (ptr d main_arg1) (V1_a1 m d))) $$ Ha1
  ihave Ha2' := (Entails.of_eq (congrArg (ptr d main_arg2) (V1_a2 m d))) $$ Ha2
  ihave Ha3' := (Entails.of_eq (congrArg (ptr d main_arg3) (V1_a3 m d))) $$ Ha3
  isplitl [Ha0]; · iexact Ha0
  isplitl [Ha1']; · iexact Ha1'
  isplitl [Ha2']; · iexact Ha2'
  isplitl [Ha3']; · iexact Ha3'
  iexists _; isplitr
  swap; · iexact H12
  ipureintro
  rw [after_ops2, Function.update_self]
  exact resOk_of_outOk m pv Ok d f hf

/-! ## The launch element -/

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

omit [FloatOps F] in
theorem bigSep_emp' {I : Type} (s : Finset I) : (bigSep s fun _ => iprop(emp)) = (iprop(emp) : sProp 𝕄) := bigSep_emp_const s

omit [FloatOps F] in
theorem ghost1 (d : Dev nD) : (bigSep Finset.univ fun p : Fin 1 => (Pipeline.cellsGhost (Pipeline.pin (pcfgs (F := F)) adm) EP p d : sProp 𝕄))
    = Pipeline.cellsGhost (Pipeline.pin (pcfgs (F := F)) adm) EP 0 d := bigSep_univ_of_subsingleton (0 : Fin 1)
omit [FloatOps F] in
theorem toks1 (d : Dev nD) : (bigSep Finset.univ fun p : Fin 1 => (Pipeline.toksInit (Pipeline.pin (pcfgs (F := F)) adm) EP p d : sProp 𝕄))
    = Pipeline.toksInit (Pipeline.pin (pcfgs (F := F)) adm) EP 0 d := bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m pv Ok).x q thr) := by
  unfold u₀
  iintro Hu
  ihave H := (ownU_pair _ _) $$ Hu
  icases H with ⟨HH, HR⟩
  ihave H2 := (own_pair_emb embR _ _) $$ HR
  icases H2 with ⟨HP0, -⟩
  ihave HP := (Entails.of_eq (show (BI.own (((Emb.inl : Emb UP (UP × Counters)).trans embR) _) : sProp 𝕄) = BI.own (EP _) from rfl)) $$ HP0
  imod (Pipeline.fund_ghost (Pipeline.pin (pcfgs (F := F)) adm) EP cellOf_inj') $$ HP with ⟨Hcg, Htk⟩
  imodintro
  isplitl [HH]; · iexact HH
  isplitl [Hcg Htk]
  · rw [bigSep_sep']
    isplitl [Hcg]
    · iapply (Entails.of_eq (bigSep_congr fun d _ => ghost1 (F := F) d)); iexact Hcg
    · iapply (Entails.of_eq (bigSep_congr fun d _ => toks1 (F := F) d)); iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory, the run -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ ResOk m pv Ok d (s'.mem.mem ((SparseCore.T d).loc main_v12))

theorem hfin (d : Dev nD) (s' : Phys nD τ sig (Elt F)) : iprop(FIN m pv Ok d ∗ SI s') ⊢ (⌜fq m pv Ok d s'⌝ : sProp 𝕄) := by
  iintro ⟨⟨H0, H1, H2, H3, %g, %hg, H12⟩, HSI⟩
  icombine HSI H0 gives %h0
  icombine HSI H1 gives %h1
  icombine HSI H2 gives %h2
  icombine HSI H3 gives %h3
  icombine HSI H12 gives %h12
  ipureintro
  exact ⟨Buf.eq_of_forall_mem_univ h0, Buf.eq_of_forall_mem_univ h1, Buf.eq_of_forall_mem_univ h2, Buf.eq_of_forall_mem_univ h3,
    (Buf.eq_of_forall_mem_univ h12) ▸ hg⟩

/-- The run's post: on every device the arguments unchanged and the result as specified. -/
def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)
  ∧ ResOk m pv Ok c (r.2.mem ((SparseCore.T c).loc main_v12))

end Cert.Proof.KB

end
-- ==== Proof.KB.TileSets.lean ====
/-
  The task's memrefs and the parts of the arrays a vector subcore's task touches. Worker w = 2 * subcore + core owns
  ids [512 w, 512 (w + 1)) and columns [512 w, 512 (w + 1)) of the transposed output. The task's first copy reads its
  run of the ids through the rectangle at the printed offset 1024 * subcore + 512 * core, which is 512 w; its four
  outgoing copies write the four [32, 128] column slabs of its columns. The sets of those rectangles are the worker's
  parts of the arrays; the subcore's six scratch buffers and four DMA semaphores are taken out of the subcore's own.
-/
import proofs.«217943_g20899310862962_cont_8to1_1374_33_alg».proof.Proof.KB.TileSpec
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (pv : Fin 100001 → Fin 32 → F .f32) (Ok : Prop)

abbrev aTW : Memref sig .scVector .hbm S32768x128 .f32 := Memref.whole main_v10_scv
abbrev aU : Memref sig .scVector .hbm S16384 .i32 := Memref.whole main_arg0_scv
abbrev aO : Memref sig .scVector .hbm S32x16384 .f32 := Memref.whole main_v11_scv
abbrev sUid : Memref sig .scVector .vmem S512 .i32 := Memref.whole cc1_scratch0
abbrev sIdx : Memref sig .scVector .vmem S512 .i32 := Memref.whole cc1_scratch1
abbrev sLane : Memref sig .scVector .vmem S512 .i32 := Memref.whole cc1_scratch2
abbrev sRA : Memref sig .scVector .vmem S128x128 .f32 := Memref.whole cc1_scratch3
abbrev sRB : Memref sig .scVector .vmem S128x128 .f32 := Memref.whole cc1_scratch4
abbrev sOut : Memref sig .scVector .vmem S32x512 .f32 := Memref.whole cc1_scratch5

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

theorem L0_lt (L : grid1.Coords) : (L 0).val < 2 := (L 0).isLt
theorem L1_lt (L : grid1.Coords) : (L 1).val < 16 := (L 1).isLt

/-- The worker at grid point `L`: 2 * subcore + core. -/
def wL (L : grid1.Coords) : Fin 32 := ⟨2 * (L 1).val + (L 0).val, by have := L0_lt L; have := L1_lt L; omega⟩

/-- The worker's run of the ids, as the task's first copy slices it. -/
abbrev uRect (L : grid1.Coords) : Rect S16384 := Rect.unit (s := S16384) (k1_off1 L) S512.size (k1_off1_inb L)

theorem oRect_inb (L : grid1.Coords) : ∀ a, (![0, 1024 * (L 1).val + 512 * (L 0).val] : Fin 2 → Nat) a + S32x512.size a ≤ S32x16384.size a := by
  have := L0_lt L; have := L1_lt L
  intro a; fin_cases a
  · show 0 + 32 ≤ 32; omega
  · show 1024 * (L 1).val + 512 * (L 0).val + 512 ≤ 16384; omega
/-- The worker's columns of the transposed output. -/
abbrev oRect (L : grid1.Coords) : Rect S32x16384 := Rect.unit (s := S32x16384) ![0, 1024 * (L 1).val + 512 * (L 0).val] S32x512.size (oRect_inb L)

theorem set_uRect (L : grid1.Coords) : (uRect L).set = uSet (wL L) := by
  ext i
  unfold uSet uPart Rect.part Rect.block
  rw [Rect.mem_set_unit, Rect.mem_set_unit, k1_off1_eq]
  have h0 := L0_lt L; have h1 := L1_lt L
  constructor
  · intro h a
    obtain rfl : a = 0 := Subsingleton.elim _ _
    have := h 0
    simp only [Shape.partIx, Shape.partSize, wL, if_true] at this ⊢
    simp at this ⊢
    omega
  · intro h a
    obtain rfl : a = 0 := Subsingleton.elim _ _
    have := h 0
    simp only [Shape.partIx, Shape.partSize, wL, if_true] at this ⊢
    simp at this ⊢
    omega

theorem set_oRect (L : grid1.Coords) : (oRect L).set = oSet (wL L) := by
  ext i
  unfold oSet oPart Rect.part Rect.block
  rw [Rect.mem_set_unit, Rect.mem_set_unit]
  have h0 := L0_lt L; have h1 := L1_lt L
  constructor
  · intro h a
    fin_cases a
    · have := h 0
      simp [Shape.partIx, Shape.partSize, wL] at this ⊢
      first | exact this | omega
    · have := h 1
      simp [Shape.partIx, Shape.partSize, wL] at this ⊢
      omega
  · intro h a
    fin_cases a
    · have := h 0
      simp [Shape.partIx, Shape.partSize, wL] at this ⊢
      omega
    · have := h 1
      simp [Shape.partIx, Shape.partSize, wL] at this ⊢
      omega

section Pts
variable (d : Dev nD) (L : grid1.Coords)

theorem pts_tw (q : PosShare TreeShare) (f : Buf (Elt F) (twLoc d)) :
    ((aTW).view.loc (thrV d L) ↦{q} f : sProp 𝕄) = twLoc d ↦{q} f := rfl
theorem pts_u (f : Buf (Elt F) (uLoc d)) :
    ((aU).view.loc (thrV d L) ↦[(aU).view.setOn (uRect L).set]{fullShare} f : sProp 𝕄) = uLoc d ↦[uSet (wL L)]{fullShare} f := by
  rw [← set_uRect]
  have h : Finset.map (aU).view.emb (uRect L).set = (uRect L).set := Finset.map_refl
  show (_ ↦[Finset.map _ _]{_} _ : sProp 𝕄) = _
  rw [h]
theorem pts_o (f : Buf (Elt F) (oLoc d)) :
    ((aO).view.loc (thrV d L) ↦[(aO).view.setOn (oRect L).set]{fullShare} f : sProp 𝕄) = oLoc d ↦[oSet (wL L)]{fullShare} f := by
  rw [← set_oRect]
  have h : Finset.map (aO).view.emb (oRect L).set = (oRect L).set := Finset.map_refl
  show (_ ↦[Finset.map _ _]{_} _ : sProp 𝕄) = _
  rw [h]
end Pts

section Own
variable [FloatOps F] (d : Dev nD) (L : grid1.Coords)

omit [FloatOps F] in
/-- The six scratch buffers are among the subcore's own: they are them, at some contents, and the rest. -/
theorem ownBufs_V :
    (ownBufs (thrV d L) : sProp 𝕄)
      = iprop((∃ f, (thrV d L).loc cc1_scratch0 ↦{fullShare} f)
          ∗ (∃ f, (thrV d L).loc cc1_scratch1 ↦{fullShare} f)
          ∗ (∃ f, (thrV d L).loc cc1_scratch2 ↦{fullShare} f)
          ∗ (∃ f, (thrV d L).loc cc1_scratch3 ↦{fullShare} f)
          ∗ (∃ f, (thrV d L).loc cc1_scratch4 ↦{fullShare} f)
          ∗ (∃ f, (thrV d L).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV L) (jV L))) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV L) (jV L))) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV L) (jV L))) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector (cV L) (jV L))) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := (Proc.scVector (cV L) (jV L))) (b := ((Proc.scVector (cV L) (jV L)).devRef cc1_scratch5)) rfl⟩⟩⟩⟩⟩)]

omit [FloatOps F] in
theorem ownSems0_V :
    (ownSems0 (thrV d L) : sProp 𝕄)
      = iprop(semVal (thrV d L, SemLoc.dma cc1_scratch6.sem) 0 ∗ semVal (thrV d L, SemLoc.dma cc1_scratch7.sem) 0 ∗ semVal (thrV d L, SemLoc.dma cc1_scratch8.sem) 0 ∗ semVal (thrV d L, SemLoc.dma cc1_scoped0.sem) 0
          ∗ bigSep (((((ownCells (thrV d L)).erase (thrV d L, SemLoc.dma cc1_scratch6.sem)).erase (thrV d L, SemLoc.dma cc1_scratch7.sem)).erase (thrV d L, SemLoc.dma cc1_scratch8.sem)).erase (thrV d L, SemLoc.dma cc1_scoped0.sem)) fun g => semVal g 0) := by
  unfold SparseCore.Cfg.ownSems0
  rw [SparseCore.bigSep_erase' ((mem_ownCells (g := ((thrV d L, SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨by simp; decide, (mem_ownCells (g := ((thrV d L, SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨by simp; decide, Finset.mem_erase.mpr ⟨by simp; decide, (mem_ownCells (g := ((thrV d L, SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨by simp; decide, Finset.mem_erase.mpr ⟨by simp; decide, Finset.mem_erase.mpr ⟨by simp; decide, (mem_ownCells (g := ((thrV d L, SemLoc.dma cc1_scoped0.sem) : GSem nD τ sig))).mpr ⟨rfl, by show (SemLoc.dma cc1_scoped0.sem : SemLoc sig).isScoped .scVector = true; decide⟩⟩⟩⟩)]

end Own

end Cert.Proof.KB
end
-- ==== Proof.KB.TileVals.lean ====
/-
  Word arithmetic of the lookup and one fact about stores. An id u ≤ 100000 names row (u mod 32768) of the packed
  table and lanes 32 * (u div 32768) + dd, dd < 32: the task computes the row as u AND 32767 and the lane base as
  (u SHR 15) * 32, which are these numbers, the lane base at most 96. After a list of stores whose payloads all agree
  with one function of the index, every index that already held that function's value or lies under a store holds it.
-/
import Idealize.ShloMosaic.PureOps
import Idealize.ShloMosaic.Lib.ValueIdx
import Idealize.ShloMosaic.Lib.Writes

namespace Cert.Proof.KB

open Idealize.ShloMosaic

theorem andw_toNat (u : BitVec 32) : (IntOp.andi u 32767#32).toNat = u.toNat % 32768 := by
  show (u &&& 32767#32).toNat = _
  rw [BitVec.toNat_and]
  exact Nat.and_two_pow_sub_one_eq_mod u.toNat 15

theorem shrw_toNat (u : BitVec 32) : (IntOp.shrui .vector u 15#32).toNat = u.toNat / 32768 := by
  unfold IntOp.shrui
  rw [if_pos (by decide)]
  rw [BitVec.ushiftRight_eq', BitVec.toNat_ushiftRight, Nat.shiftRight_eq_div_pow]
  rfl

theorem lanew_toNat (u : BitVec 32) (h : u.toNat ≤ 100000) :
    (IntOp.muli (IntOp.shrui .vector u 15#32) 32#32).toNat = 32 * (u.toNat / 32768) := by
  show ((IntOp.shrui .vector u 15#32) * 32#32).toNat = _
  rw [BitVec.toNat_mul, shrw_toNat]
  have : u.toNat / 32768 ≤ 3 := by omega
  show (u.toNat / 32768 * 32) % 4294967296 = _
  omega

theorem lanew_le (u : BitVec 32) (h : u.toNat ≤ 100000) : (IntOp.muli (IntOp.shrui .vector u 15#32) 32#32).toNat ≤ 96 := by
  rw [lanew_toNat u h]; omega

theorem addw_toNat (x c : BitVec 32) (hx : x.toNat ≤ 96) (hc : c.toNat < 32) : (IntOp.addi x c).toNat = x.toNat + c.toNat := by
  show (x + c).toNat = _
  rw [BitVec.toNat_add]
  show (x.toNat + c.toNat) % 4294967296 = _
  omega

section Writes
variable {sig : RefSig} {κ : Kind} {sp : Space} {s : Shape} {e : EltTy} {Val : EltTy → Type}

/-- After a list of stores whose payloads all agree with one function `G` of the index, every index that already
    held `G`'s value (`P`) or lies under some store holds `G`'s value. -/
theorem read_writes_list (v : View sig κ sp s e) (f : v.ty.Contents Val) (G : s.Idx → Val e) (P : s.Idx → Prop)
    (Ls : List (View.Piece Val s e))
    (hw : ∀ p ∈ Ls, ∀ x : p.1.shape.Idx, p.2 x = G (p.1.emb x))
    (hf : ∀ y, P y → v.read Val f y = G y) (y : s.Idx) (hy : P y ∨ ∃ p ∈ Ls, y ∈ p.1.set) :
    v.read Val (v.writes Val f Ls) y = G y := by
  by_cases hm : ∃ p ∈ Ls, y ∈ p.1.set
  · exact View.read_writes_apply_of_pieces v f G Ls hw y hm
  · rw [View.read_writes_apply_of_forall_not_mem v f y Ls (fun p hp hyp => hm ⟨p, hp, hyp⟩)]
    exact hf y (hy.resolve_right hm)

/-- An index under none of the stores keeps what it held. -/
theorem read_writes_keep (v : View sig κ sp s e) (f : v.ty.Contents Val) (Ls : List (View.Piece Val s e)) (y : s.Idx)
    (hy : ∀ p ∈ Ls, y ∉ p.1.set) : v.read Val (v.writes Val f Ls) y = v.read Val f y :=
  View.read_writes_apply_of_forall_not_mem v f y Ls hy
end Writes

end Cert.Proof.KB
-- ==== Proof.KB.TileTrip1.lean ====
/-
  The first loop of the task: trip k reads ids 16 k .. 16 k + 15 of the copied run and stores, for each id u, the
  row word u AND 32767 and the lane word (u SHR 15) * 32. Before trip k the words of the first 16 k ids are written;
  the trip writes sixteen more of each and touches nothing else.
-/
import proofs.«217943_g20899310862962_cont_8to1_1374_33_alg».proof.Proof.KB.TileSets
import proofs.«217943_g20899310862962_cont_8to1_1374_33_alg».proof.Proof.KB.TileVals
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- Before trip k of the first loop: the row and lane words of the first 16 k ids are written. -/
def inv1 (U : Buf (Elt F) ((thrV d L).loc cc1_scratch0)) (k : Nat) (_ : PUnit) : sProp 𝕄 :=
  iprop(((sUid).view.loc (thrV d L) ↦{fullShare} U)
    ∗ (∃ f1, ((sIdx).view.loc (thrV d L) ↦{fullShare} f1)
        ∗ ⌜∀ y : S512.Idx, (y 0).val < 16 * k → (sIdx).view.read (Elt F) f1 y = IntOp.andi ((sUid).view.read (Elt F) U y) 32767#32⌝)
    ∗ (∃ f2, ((sLane).view.loc (thrV d L) ↦{fullShare} f2)
        ∗ ⌜∀ y : S512.Idx, (y 0).val < 16 * k → (sLane).view.read (Elt F) f2 y = IntOp.muli (IntOp.shrui .vector ((sUid).view.read (Elt F) U y) 15#32) 32#32⌝))

theorem trip1 (U : Buf (Elt F) ((thrV d L).loc cc1_scratch0)) (k : Fin k1_t1_loop.trips) :
    inv1 d L U k.val ⟨⟩
      ⊢ wp frame (wpE (defs₀ (F := F)) 𝒱₀ (thrV d L) none) Set.univ
          (k1_t1_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 k ⟨⟩)
          (inv1 d L U (k.val + 1)) := by
  unfold k1_t1_body
  unfold inv1
  iintro ⟨H0, ⟨%f1', H1, %h1⟩, ⟨%f2', H2, %h2⟩⟩
  sl_exec
  sl_step
  isplitl [H0]; · iexact H0
  isplitl [H1]
  · iexists _; isplitl [H1]; · iexact H1
    ipureintro
    intro y hy
    have key := read_writes_list (Val := Elt F) (sIdx).view f1'
      (fun y : S512.Idx => (IntOp.andi ((sUid).view.read (Elt F) U y) 32767#32 : Elt F .i32))
      (fun y : S512.Idx => (y 0).val < 16 * k.val)
    exact key _ (by intro p hp x; rw [List.mem_singleton] at hp; subst hp; rfl) h1 y (by
      by_cases h : (y 0).val < 16 * k.val
      · exact .inl h
      · refine .inr ⟨_, List.mem_singleton_self _, ?_⟩
        rw [Rect.mem_set_unit, k1_off2_eq]
        intro a; obtain rfl : a = 0 := Subsingleton.elim _ _
        show 16 * k.val ≤ (y 0).val ∧ (y 0).val < 16 * k.val + 16
        omega)
  · iexists _; isplitl [H2]; · iexact H2
    ipureintro
    intro y hy
    have key := read_writes_list (Val := Elt F) (sLane).view f2'
      (fun y : S512.Idx => (IntOp.muli (IntOp.shrui .vector ((sUid).view.read (Elt F) U y) 15#32) 32#32 : Elt F .i32))
      (fun y : S512.Idx => (y 0).val < 16 * k.val)
    exact key _ (by intro p hp x; rw [List.mem_singleton] at hp; subst hp; rfl) h2 y (by
      by_cases h : (y 0).val < 16 * k.val
      · exact .inl h
      · refine .inr ⟨_, List.mem_singleton_self _, ?_⟩
        rw [Rect.mem_set_unit, k1_off2_eq]
        intro a; obtain rfl : a = 0 := Subsingleton.elim _ _
        show 16 * k.val ≤ (y 0).val ∧ (y 0).val < 16 * k.val + 16
        omega)

end Tile
end Cert.Proof.KB
end
-- ==== Proof.KB.TileGoal.lean ====
/-
  What the task's scratch buffers must hold, stated once. For the id u at position j of the worker's run: the row
  word u AND 32767, the lane word (u SHR 15) * 32; row r of the rows gathered for slab s is the packed table's row
  named by id 128 s + r; entry (dd, j) of the staged output is the packed table at id j's row and lane (lane word + dd).
  One load_gather of a trip followed by its store writes, at (dd, 128 s + 16 k + x), exactly that entry (piece_ok);
  a stored row segment right of a column window does not meet the window (out_disj).
-/
import proofs.«217943_g20899310862962_cont_8to1_1374_33_alg».proof.Proof.KB.TileSets
import proofs.«217943_g20899310862962_cont_8to1_1374_33_alg».proof.Proof.KB.TileVals
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Vals
variable (d : Dev nD) (L : grid1.Coords)
variable (U : Buf (Elt F) ((thrV d L).loc cc1_scratch0)) (twc : Buf (Elt F) (twLoc d))

/-- The id at position `y` of the task's run, its row word and its lane word. -/
def Ur (y : S512.Idx) : BitVec 32 := (sUid).view.read (Elt F) U y
def rowW (y : S512.Idx) : BitVec 32 := IntOp.andi (Ur d L U y) 32767#32
def laneW (y : S512.Idx) : BitVec 32 := IntOp.muli (IntOp.shrui .vector (Ur d L U y) 15#32) 32#32
/-- The packed table, read. -/
def twR : S32768x128.Idx → Elt F .f32 := (aTW).view.read (Elt F) twc
/-- Row `r` of the rows gathered for slab `s` is the packed table's row named by id `128 s + r`. -/
def Grow (s : ℕ) (y : S128x128.Idx) : Elt F .f32 :=
  twR d twc (ix2 (n0 := 32768) (n1 := 128) (Fin.ofNat 32768 (rowW d L U (ix1 (n := 512) (Fin.ofNat 512 (128 * s + (y 0).val)))).toNat) ⟨(y 1).val, (y 1).isLt⟩)
/-- Entry (dd, j) of the task's staged output: the packed table at id j's row and lane base + dd. -/
def Gout (y : S32x512.Idx) : Elt F .f32 :=
  twR d twc (ix2 (n0 := 32768) (n1 := 128) (Fin.ofNat 32768 (rowW d L U (ix1 (n := 512) ⟨(y 1).val, (y 1).isLt⟩)).toNat)
    (Fin.ofNat 128 ((laneW d L U (ix1 (n := 512) ⟨(y 1).val, (y 1).isLt⟩)).toNat + (y 0).val)))

omit [FloatOps F] in
theorem reshape_S1x16 (x : S1x16.Idx) : ((Shape.reshapeEquiv (shapeCasts_S16_S1x16 : S16.ShapeCasts S1x16) x) 0).val = (x 1).val := by
  have hx : x = Shape.reshapeEquiv (s := S1x16) (s' := S16) (shapeCasts_S16_S1x16 : S16.ShapeCasts S1x16).symm (ix1 (n := 16) ⟨(x 1).val, (x 1).isLt⟩) := by
    rw [Shape.reshapeEquiv_cons_one]
    funext a; fin_cases a
    · apply Fin.ext; have h0 : (x 0).val < 1 := (x 0).isLt; show (x 0).val = 0; omega
    · rfl
  conv_lhs => rw [hx]
  rw [Shape.reshapeEquiv_reshapeEquiv, Shape.reshapeEquiv_self]

end Vals

section Piece
variable (d : Dev nD) (L : grid1.Coords)
variable (U : Buf (Elt F) ((thrV d L).loc cc1_scratch0)) (twc : Buf (Elt F) (twLoc d))

theorem piece_ok (s kk c col : ℕ) (hs : s < 4) (hk : kk < 8) (hc : c < 32) (hcol : col = 128 * s + 16 * kk)
    (B : Memref sig .scVector .vmem S128x128 .f32) (fR : Buf (Elt F) (B.view.loc (thrV d L)))
    (hR : ∀ y, B.view.read (Elt F) fR y = Grow d L U twc s y)
    (fL : Buf (Elt F) ((thrV d L).loc cc1_scratch2))
    (hL : ∀ y, (sLane).view.read (Elt F) fL y = laneW d L U y) (hLb : ∀ y, (laneW d L U y).toNat ≤ 96)
    (v63 : IVec S16 32) (h63 : ∀ x : S16.Idx, (v63 x).toNat = 16 * kk + (x 0).val)
    (offL : Fin 1 → ℕ) (hoffL : offL = ![col]) (inbL : ∀ a, offL a + S16.size a ≤ S512.size a)
    (cw : BitVec 32) (hcw : cw.toNat = c)
    (off : Fin 2 → ℕ) (hoff : off = ![c, col]) (inb : ∀ a, off a + S1x16.size a ≤ S32x512.size a)
    (h : ∀ a x, ((![v63, addi ((sLane).view.readAt (Elt F) (Rect.unit (s := S512) offL S16.size inbL).toLoadRect fL) (broadcast S16 cw)] : Fin 2 → IVec S16 32) a x).toNat < S128x128.size a)
    (x : (Rect.unit (s := S32x512) off S1x16.size inb).shape.Idx) :
    shapeCast S1x16 (loadIdx (B.view.readAt (Elt F) (LoadRect.whole S128x128) fR)
        ![v63, addi ((sLane).view.readAt (Elt F) (Rect.unit (s := S512) offL S16.size inbL).toLoadRect fL) (broadcast S16 cw)] h) shapeCasts_S16_S1x16 x
      = Gout d L U twc ((Rect.unit (s := S32x512) off S1x16.size inb).emb x) := by
  subst hoff hoffL
  have hx1 : (x 1).val < 16 := (x 1).isLt
  have hx0 : (x 0).val < 1 := (x 0).isLt
  -- the lane the stored vector's element x comes from
  set x' : S16.Idx := Shape.reshapeEquiv (shapeCasts_S16_S1x16 : S16.ShapeCasts S1x16) x with hx'
  have hx'0 : (x' 0).val = (x 1).val := reshape_S1x16 x
  show (B.view.readAt (Elt F) (LoadRect.whole S128x128) fR) (idxAt _ h x') = _
  rw [View.readAt_apply, hR]
  unfold Grow Gout
  congr 1
  congr 5
  · -- the row
    apply Fin.ext
    show (128 * s + (0 + 1 * (v63 x').toNat)) % 512 = col + 1 * (x 1).val
    rw [h63, hx'0]; omega
  · -- the lane
    show 0 + 1 * (IntOp.addi ((sLane).view.read (Elt F) fL ((Rect.unit (s := S512) ![col] S16.size inbL).toLoadRect.idx x')) cw).toNat
      = ((laneW d L U (ix1 (n := 512) ⟨col + 1 * (x 1).val, _⟩)).toNat + (c + 1 * (x 0).val)) % 128
    rw [hL, addw_toNat _ _ (hLb _) (by omega), hcw]
    have e : (Rect.unit (s := S512) ![col] S16.size inbL).toLoadRect.idx x' = ix1 (n := 512) ⟨col + 1 * (x 1).val, by omega⟩ := by
      funext a; obtain rfl : a = 0 := Subsingleton.elim _ _
      apply Fin.ext
      show col + 1 * (x' 0).val = col + 1 * (x 1).val
      rw [hx'0]
    rw [e]
    have := hLb (ix1 (n := 512) ⟨col + 1 * (x 1).val, by omega⟩)
    omega
end Piece

section Geo
variable (d : Dev nD) (L : grid1.Coords)

omit [FloatOps F] in
/-- A row segment of the staged output right of a column window does not meet the window. -/
theorem out_disj (off : Fin 2 → ℕ) (inb : ∀ a, off a + S1x16.size a ≤ S32x512.size a) (c0 : ℕ)
    (inbw : ∀ a, (![0, c0] : Fin 2 → ℕ) a + S32x128.size a ≤ S32x512.size a)
    (hw : ∀ a, (Rect.unit (s := S32x512) ![0, c0] S32x128.size inbw).stride a = 1)
    (r col : ℕ) (heq : off = ![r, col]) (h : c0 + 128 ≤ col) :
    Disjoint ((sOut).view.setOn (Rect.unit (s := S32x512) off S1x16.size inb).set)
      ((sOut).slice (Rect.unit (s := S32x512) ![0, c0] S32x128.size inbw) hw).view.set := by
  subst heq
  refine View.disjoint_of_boxes (sOut).view (Rect.unit (s := S32x512) ![r, col] S1x16.size inb).toLoadRect
    (Rect.unit (s := S32x512) ![0, c0] S32x128.size inbw).toLoadRect (subset_of_eq rfl) ?_ 1 ?_
  · show ((sOut).view.slice _).set ⊆ _
    rw [View.set_slice]; exact subset_of_eq rfl
  · right; right
    show c0 + 1 * (128 - 1) < col
    omega

omit [FloatOps F] in
/-- The rows a trip gathers: 16 kk + lane. -/
theorem rows_toNat (kk : ℕ) (hk : kk < 8) (x : S16.Idx) :
    ((addi (broadcast S16 (Scalar.muli (Scf.iv 0#32 1#32 kk) 16#32)) (iota .scVector S16 32 [0] iota_S16_d0_w32_scVector)) x).toNat = 16 * kk + (x 0).val := by
  have hx : (x 0).val < 16 := (x 0).isLt
  show ((0#32 + BitVec.ofNat 32 kk * 1#32) * 16#32 + BitVec.ofNat 32 (0 * 16 + (x 0).val)).toNat = _
  simp only [BitVec.toNat_add, BitVec.toNat_mul, BitVec.toNat_ofNat]
  norm_num
  omega
end Geo

end Cert.Proof.KB
end
-- ==== Proof.KB.TileTripE0.lean ====
/-
  The loop over slab 0 of the staged output: trip k loads the sixteen lane words of ids 128 * 0 + 16 k .. + 15 and,
  for each of the 32 features dd, gathers from the rows buffer the entries (16 k + x, lane word + dd) and stores them
  as row dd, columns 128 * 0 + 16 k .. + 15 of the staged output. Each stored segment holds the output's entries
  (piece_ok); the 32 segments cover the sixteen new columns; earlier columns are kept.
-/
import proofs.«217943_g20899310862962_cont_8to1_1374_33_alg».proof.Proof.KB.TileGoal
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- Before trip k of the loop over slab 0: the staged output holds its entries in every column below 128 * 0 + 16 k. -/
def invE0 (U : Buf (Elt F) ((thrV d L).loc cc1_scratch0)) (twc : Buf (Elt F) (twLoc d))
    (fL : Buf (Elt F) ((thrV d L).loc cc1_scratch2)) (fR : Buf (Elt F) ((thrV d L).loc cc1_scratch3)) (k : Nat) (_ : PUnit) : sProp 𝕄 :=
  iprop(((sLane).view.loc (thrV d L) ↦{fullShare} fL) ∗ ((sRA).view.loc (thrV d L) ↦{fullShare} fR)
    ∗ (∃ fO, ((sOut).view.loc (thrV d L) ↦{fullShare} fO)
        ∗ ⌜∀ y : S32x512.Idx, (y 1).val < 0 + 16 * k → (sOut).view.read (Elt F) fO y = Gout d L U twc y⌝))

set_option maxHeartbeats 4000000 in
theorem tripE0 (U : Buf (Elt F) ((thrV d L).loc cc1_scratch0)) (twc : Buf (Elt F) (twLoc d)) (v2 : BitVec 32) (k : Fin k1_t2_loop.trips)
    (fL : Buf (Elt F) ((thrV d L).loc cc1_scratch2)) (fR : Buf (Elt F) ((thrV d L).loc cc1_scratch3))
    (hL : ∀ y, (sLane).view.read (Elt F) fL y = laneW d L U y) (hLb : ∀ y, (laneW d L U y).toNat ≤ 96)
    (hR : ∀ y, (sRA).view.read (Elt F) fR y = Grow d L U twc 0 y) :
    invE0 d L U twc fL fR k.val ⟨⟩
      ⊢ wp frame (wpE (defs₀ (F := F)) 𝒱₀ (thrV d L) none) Set.univ
          (k1_t2_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 (iota .scVector S16 32 [0] iota_S16_d0_w32_scVector) k ⟨⟩)
          (invE0 d L U twc fL fR (k.val + 1)) := by
  have hk : k.val < 8 := lt_of_lt_of_le k.isLt k1_t2_abs.2.1
  have h63 : ∀ x : S16.Idx, (k1_pay1 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay1 (iota .scVector S16 32 [0] iota_S16_d0_w32_scVector) 0#32 1#32 k, addi ((sLane).view.readAt (Elt F) (Rect.unit (s := S512) (k1_off3 k) S16.size (k1_off3_inb k)).toLoadRect fL) (broadcast S16 c)] : Fin 2 → IVec S16 32) a x).toNat < S128x128.size a := by
    intro c hc a x
    have hx : (x 0).val < 16 := (x 0).isLt
    fin_cases a
    · show (k1_pay1 (iota .scVector S16 32 [0] iota_S16_d0_w32_scVector) 0#32 1#32 k x).toNat < 128
      rw [h63]; omega
    · show (IntOp.addi ((sLane).view.read (Elt F) fL ((Rect.unit (s := S512) (k1_off3 k) S16.size (k1_off3_inb k)).toLoadRect.idx x)) c).toNat < 128
      rw [hL, addw_toNat _ _ (hLb _) hc]
      have := hLb ((Rect.unit (s := S512) (k1_off3 k) S16.size (k1_off3_inb k)).toLoadRect.idx x)
      omega
  unfold k1_t2_body
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  simp only [SparseCore.vectorLoadIdx_bind (thrV d L)]
  unfold invE0
  iintro ⟨HL, HR, ⟨%fO, HOut, %hO⟩⟩
  sl_exec (disch := first | exact hchk _ (by decide) | exact out_disj _ _ _ _ _ _ _ ClosedOff.eq (by omega))
  repeat (sl_rw [SparseCore.vectorLoadIdx_bind (thrV d L)]; sl_exec (disch := first | exact hchk _ (by decide) | exact out_disj _ _ _ _ _ _ _ ClosedOff.eq (by omega)))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 0 + 16 * k.val)
  refine key _ ?hw hO y ?cov
  case hw =>
    intro p hp
    rcases List.mem_cons.1 hp with rfl | hp
    · intro x
      exact piece_ok d L U twc 0 k.val 31 (16 * k.val) (by omega) hk (by omega) (by omega) _ _ hR _ hL hLb _ h63 _ (k1_off3_eq k) (k1_off3_inb k) 31#32 rfl _ (k1_off35_eq k) (k1_off35_inb k) _ x
    rcases List.mem_cons.1 hp with rfl | hp
    · intro x
      exact piece_ok d L U twc 0 k.val 30 (16 * k.val) (by omega) hk (by omega) (by omega) _ _ hR _ hL hLb _ h63 _ (k1_off3_eq k) (k1_off3_inb k) 30#32 rfl _ (k1_off34_eq k) (k1_off34_inb k) _ x
    rcases List.mem_cons.1 hp with rfl | hp
    · intro x
      exact piece_ok d L U twc 0 k.val 29 (16 * k.val) (by omega) hk (by omega) (by omega) _ _ hR _ hL hLb _ h63 _ (k1_off3_eq k) (k1_off3_inb k) 29#32 rfl _ (k1_off33_eq k) (k1_off33_inb k) _ x
    rcases List.mem_cons.1 hp with rfl | hp
    · intro x
      exact piece_ok d L U twc 0 k.val 28 (16 * k.val) (by omega) hk (by omega) (by omega) _ _ hR _ hL hLb _ h63 _ (k1_off3_eq k) (k1_off3_inb k) 28#32 rfl _ (k1_off32_eq k) (k1_off32_inb k) _ x
    rcases List.mem_cons.1 hp with rfl | hp
    · intro x
      exact piece_ok d L U twc 0 k.val 27 (16 * k.val) (by omega) hk (by omega) (by omega) _ _ hR _ hL hLb _ h63 _ (k1_off3_eq k) (k1_off3_inb k) 27#32 rfl _ (k1_off31_eq k) (k1_off31_inb k) _ x
    rcases List.mem_cons.1 hp with rfl | hp
    · intro x
      exact piece_ok d L U twc 0 k.val 26 (16 * k.val) (by omega) hk (by omega) (by omega) _ _ hR _ hL hLb _ h63 _ (k1_off3_eq k) (k1_off3_inb k) 26#32 rfl _ (k1_off30_eq k) (k1_off30_inb k) _ x
    rcases List.mem_cons.1 hp with rfl | hp
    · intro x
      exact piece_ok d L U twc 0 k.val 25 (16 * k.val) (by omega) hk (by omega) (by omega) _ _ hR _ hL hLb _ h63 _ (k1_off3_eq k) (k1_off3_inb k) 25#32 rfl _ (k1_off29_eq k) (k1_off29_inb k) _ x
    rcases List.mem_cons.1 hp with rfl | hp
    · intro x
      exact piece_ok d L U twc 0 k.val 24 (16 * k.val) (by omega) hk (by omega) (by omega) _ _ hR _ hL hLb _ h63 _ (k1_off3_eq k) (k1_off3_inb k) 24#32 rfl _ (k1_off28_eq k) (k1_off28_inb k) _ x
    rcases List.mem_cons.1 hp with rfl | hp
    · intro x
      exact piece_ok d L U twc 0 k.val 23 (16 * k.val) (by omega) hk (by omega) (by omega) _ _ hR _ hL hLb _ h63 _ (k1_off3_eq k) (k1_off3_inb k) 23#32 rfl _ (k1_off27_eq k) (k1_off27_inb k) _ x
    rcases List.mem_cons.1 hp with rfl | hp
    · intro x
      exact piece_ok d L U twc 0 k.val 22 (16 * k.val) (by omega) hk (by omega) (by omega) _ _ hR _ hL hLb _ h63 _ (k1_off3_eq k) (k1_off3_inb k) 22#32 rfl _ (k1_off26_eq k) (k1_off26_inb k) _ x
    rcases List.mem_cons.1 hp with rfl | hp
    · intro x
      exact piece_ok d L U twc 0 k.val 21 (16 * k.val) (by omega) hk (by omega) (by omega) _ _ hR _ hL hLb _ h63 _ (k1_off3_eq k) (k1_off3_inb k) 21#32 rfl _ (k1_off25_eq k) (k1_off25_inb k) _ x
    rcases List.mem_cons.1 hp with rfl | hp
    · intro x
      exact piece_ok d L U twc 0 k.val 20 (16 * k.val) (by omega) hk (by omega) (by omega) _ _ hR _ hL hLb _ h63 _ (k1_off3_eq k) (k1_off3_inb k) 20#32 rfl _ (k1_off24_eq k) (k1_off24_inb k) _ x
    rcases List.mem_cons.1 hp with rfl | hp
    · intro x
      exact piece_ok d L U twc 0 k.val 19 (16 * k.val) (by omega) hk (by omega) (by omega) _ _ hR _ hL hLb _ h63 _ (k1_off3_eq k) (k1_off3_inb k) 19#32 rfl _ (k1_off23_eq k) (k1_off23_inb k) _ x
    rcases List.mem_cons.1 hp with rfl | hp
    · intro x
      exact piece_ok d L U twc 0 k.val 18 (16 * k.val) (by omega) hk (by omega) (by omega) _ _ hR _ hL hLb _ h63 _ (k1_off3_eq k) (k1_off3_inb k) 18#32 rfl _ (k1_off22_eq k) (k1_off22_inb k) _ x
    rcases List.mem_cons.1 hp with rfl | hp
    · intro x
      exact piece_ok d L U twc 0 k.val 17 (16 * k.val) (by omega) hk (by omega) (by omega) _ _ hR _ hL hLb _ h63 _ (k1_off3_eq k) (k1_off3_inb k) 17#32 rfl _ (k1_off21_eq k) (k1_off21_inb k) _ x
    rcases List.mem_cons.1 hp with rfl | hp
    · intro x
      exact piece_ok d L U twc 0 k.val 16 (16 * k.val) (by omega) hk (by omega) (by omega) _ _ hR _ hL hLb _ h63 _ (k1_off3_eq k) (k1_off3_inb k) 16#32 rfl _ (k1_off20_eq k) (k1_off20_inb k) _ x
    rcases List.mem_cons.1 hp with rfl | hp
    · intro x
      exact piece_ok d L U twc 0 k.val 15 (16 * k.val) (by omega) hk (by omega) (by omega) _ _ hR _ hL hLb _ h63 _ (k1_off3_eq k) (k1_off3_inb k) 15#32 rfl _ (k1_off19_eq k) (k1_off19_inb k) _ x
    rcases List.mem_cons.1 hp with rfl | hp
    · intro x
      exact piece_ok d L U twc 0 k.val 14 (16 * k.val) (by omega) hk (by omega) (by omega) _ _ hR _ hL hLb _ h63 _ (k1_off3_eq k) (k1_off3_inb k) 14#32 rfl _ (k1_off18_eq k) (k1_off18_inb k) _ x
    rcases List.mem_cons.1 hp with rfl | hp
    · intro x
      exact piece_ok d L U twc 0 k.val 13 (16 * k.val) (by omega) hk (by omega) (by omega) _ _ hR _ hL hLb _ h63 _ (k1_off3_eq k) (k1_off3_inb k) 13#32 rfl _ (k1_off17_eq k) (k1_off17_inb k) _ x
    rcases List.mem_cons.1 hp with rfl | hp
    · intro x
      exact piece_ok d L U twc 0 k.val 12 (16 * k.val) (by omega) hk (by omega) (by omega) _ _ hR _ hL hLb _ h63 _ (k1_off3_eq k) (k1_off3_inb k) 12#32 rfl _ (k1_off16_eq k) (k1_off16_inb k) _ x
    rcases List.mem_cons.1 hp with rfl | hp
    · intro x
      exact piece_ok d L U twc 0 k.val 11 (16 * k.val) (by omega) hk (by omega) (by omega) _ _ hR _ hL hLb _ h63 _ (k1_off3_eq k) (k1_off3_inb k) 11#32 rfl _ (k1_off15_eq k) (k1_off15_inb k) _ x
    rcases List.mem_cons.1 hp with rfl | hp
    · intro x
      exact piece_ok d L U twc 0 k.val 10 (16 * k.val) (by omega) hk (by omega) (by omega) _ _ hR _ hL hLb _ h63 _ (k1_off3_eq k) (k1_off3_inb k) 10#32 rfl _ (k1_off14_eq k) (k1_off14_inb k) _ x
    rcases List.mem_cons.1 hp with rfl | hp
    · intro x
      exact piece_ok d L U twc 0 k.val 9 (16 * k.val) (by omega) hk (by omega) (by omega) _ _ hR _ hL hLb _ h63 _ (k1_off3_eq k) (k1_off3_inb k) 9#32 rfl _ (k1_off13_eq k) (k1_off13_inb k) _ x
    rcases List.mem_cons.1 hp with rfl | hp
    · intro x
      exact piece_ok d L U twc 0 k.val 8 (16 * k.val) (by omega) hk (by omega) (by omega) _ _ hR _ hL hLb _ h63 _ (k1_off3_eq k) (k1_off3_inb k) 8#32 rfl _ (k1_off12_eq k) (k1_off12_inb k) _ x
    rcases List.mem_cons.1 hp with rfl | hp
    · intro x
      exact piece_ok d L U twc 0 k.val 7 (16 * k.val) (by omega) hk (by omega) (by omega) _ _ hR _ hL hLb _ h63 _ (k1_off3_eq k) (k1_off3_inb k) 7#32 rfl _ (k1_off11_eq k) (k1_off11_inb k) _ x
    rcases List.mem_cons.1 hp with rfl | hp
    · intro x
      exact piece_ok d L U twc 0 k.val 6 (16 * k.val) (by omega) hk (by omega) (by omega) _ _ hR _ hL hLb _ h63 _ (k1_off3_eq k) (k1_off3_inb k) 6#32 rfl _ (k1_off10_eq k) (k1_off10_inb k) _ x
    rcases List.mem_cons.1 hp with rfl | hp
    · intro x
      exact piece_ok d L U twc 0 k.val 5 (16 * k.val) (by omega) hk (by omega) (by omega) _ _ hR _ hL hLb _ h63 _ (k1_off3_eq k) (k1_off3_inb k) 5#32 rfl _ (k1_off9_eq k) (k1_off9_inb k) _ x
    rcases List.mem_cons.1 hp with rfl | hp
    · intro x
      exact piece_ok d L U twc 0 k.val 4 (16 * k.val) (by omega) hk (by omega) (by omega) _ _ hR _ hL hLb _ h63 _ (k1_off3_eq k) (k1_off3_inb k) 4#32 rfl _ (k1_off8_eq k) (k1_off8_inb k) _ x
    rcases List.mem_cons.1 hp with rfl | hp
    · intro x
      exact piece_ok d L U twc 0 k.val 3 (16 * k.val) (by omega) hk (by omega) (by omega) _ _ hR _ hL hLb _ h63 _ (k1_off3_eq k) (k1_off3_inb k) 3#32 rfl _ (k1_off7_eq k) (k1_off7_inb k) _ x
    rcases List.mem_cons.1 hp with rfl | hp
    · intro x
      exact piece_ok d L U twc 0 k.val 2 (16 * k.val) (by omega) hk (by omega) (by omega) _ _ hR _ hL hLb _ h63 _ (k1_off3_eq k) (k1_off3_inb k) 2#32 rfl _ (k1_off6_eq k) (k1_off6_inb k) _ x
    rcases List.mem_cons.1 hp with rfl | hp
    · intro x
      exact piece_ok d L U twc 0 k.val 1 (16 * k.val) (by omega) hk (by omega) (by omega) _ _ hR _ hL hLb _ h63 _ (k1_off3_eq k) (k1_off3_inb k) 1#32 rfl _ (k1_off5_eq k) (k1_off5_inb k) _ x
    rcases List.mem_cons.1 hp with rfl | hp
    · intro x
      exact piece_ok d L U twc 0 k.val 0 (16 * k.val) (by omega) hk (by omega) (by omega) _ _ hR _ hL hLb _ h63 _ (k1_off3_eq k) (k1_off3_inb k) 0#32 rfl _ (k1_off4_eq k) (k1_off4_inb k) _ x
    cases hp
  case cov =>
    by_cases h : (y 1).val < 0 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off4_eq]
        intro a; fin_cases a
        · show 0 ≤ (y 0).val ∧ (y 0).val < 0 + 1
          omega
        · show 16 * k.val ≤ (y 1).val ∧ (y 1).val < 16 * k.val + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off5_eq]
        intro a; fin_cases a
        · show 1 ≤ (y 0).val ∧ (y 0).val < 1 + 1
          omega
        · show 16 * k.val ≤ (y 1).val ∧ (y 1).val < 16 * k.val + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off6_eq]
        intro a; fin_cases a
        · show 2 ≤ (y 0).val ∧ (y 0).val < 2 + 1
          omega
        · show 16 * k.val ≤ (y 1).val ∧ (y 1).val < 16 * k.val + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off7_eq]
        intro a; fin_cases a
        · show 3 ≤ (y 0).val ∧ (y 0).val < 3 + 1
          omega
        · show 16 * k.val ≤ (y 1).val ∧ (y 1).val < 16 * k.val + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off8_eq]
        intro a; fin_cases a
        · show 4 ≤ (y 0).val ∧ (y 0).val < 4 + 1
          omega
        · show 16 * k.val ≤ (y 1).val ∧ (y 1).val < 16 * k.val + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off9_eq]
        intro a; fin_cases a
        · show 5 ≤ (y 0).val ∧ (y 0).val < 5 + 1
          omega
        · show 16 * k.val ≤ (y 1).val ∧ (y 1).val < 16 * k.val + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off10_eq]
        intro a; fin_cases a
        · show 6 ≤ (y 0).val ∧ (y 0).val < 6 + 1
          omega
        · show 16 * k.val ≤ (y 1).val ∧ (y 1).val < 16 * k.val + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off11_eq]
        intro a; fin_cases a
        · show 7 ≤ (y 0).val ∧ (y 0).val < 7 + 1
          omega
        · show 16 * k.val ≤ (y 1).val ∧ (y 1).val < 16 * k.val + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off12_eq]
        intro a; fin_cases a
        · show 8 ≤ (y 0).val ∧ (y 0).val < 8 + 1
          omega
        · show 16 * k.val ≤ (y 1).val ∧ (y 1).val < 16 * k.val + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off13_eq]
        intro a; fin_cases a
        · show 9 ≤ (y 0).val ∧ (y 0).val < 9 + 1
          omega
        · show 16 * k.val ≤ (y 1).val ∧ (y 1).val < 16 * k.val + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off14_eq]
        intro a; fin_cases a
        · show 10 ≤ (y 0).val ∧ (y 0).val < 10 + 1
          omega
        · show 16 * k.val ≤ (y 1).val ∧ (y 1).val < 16 * k.val + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off15_eq]
        intro a; fin_cases a
        · show 11 ≤ (y 0).val ∧ (y 0).val < 11 + 1
          omega
        · show 16 * k.val ≤ (y 1).val ∧ (y 1).val < 16 * k.val + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off16_eq]
        intro a; fin_cases a
        · show 12 ≤ (y 0).val ∧ (y 0).val < 12 + 1
          omega
        · show 16 * k.val ≤ (y 1).val ∧ (y 1).val < 16 * k.val + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off17_eq]
        intro a; fin_cases a
        · show 13 ≤ (y 0).val ∧ (y 0).val < 13 + 1
          omega
        · show 16 * k.val ≤ (y 1).val ∧ (y 1).val < 16 * k.val + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off18_eq]
        intro a; fin_cases a
        · show 14 ≤ (y 0).val ∧ (y 0).val < 14 + 1
          omega
        · show 16 * k.val ≤ (y 1).val ∧ (y 1).val < 16 * k.val + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off19_eq]
        intro a; fin_cases a
        · show 15 ≤ (y 0).val ∧ (y 0).val < 15 + 1
          omega
        · show 16 * k.val ≤ (y 1).val ∧ (y 1).val < 16 * k.val + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off20_eq]
        intro a; fin_cases a
        · show 16 ≤ (y 0).val ∧ (y 0).val < 16 + 1
          omega
        · show 16 * k.val ≤ (y 1).val ∧ (y 1).val < 16 * k.val + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off21_eq]
        intro a; fin_cases a
        · show 17 ≤ (y 0).val ∧ (y 0).val < 17 + 1
          omega
        · show 16 * k.val ≤ (y 1).val ∧ (y 1).val < 16 * k.val + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off22_eq]
        intro a; fin_cases a
        · show 18 ≤ (y 0).val ∧ (y 0).val < 18 + 1
          omega
        · show 16 * k.val ≤ (y 1).val ∧ (y 1).val < 16 * k.val + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off23_eq]
        intro a; fin_cases a
        · show 19 ≤ (y 0).val ∧ (y 0).val < 19 + 1
          omega
        · show 16 * k.val ≤ (y 1).val ∧ (y 1).val < 16 * k.val + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off24_eq]
        intro a; fin_cases a
        · show 20 ≤ (y 0).val ∧ (y 0).val < 20 + 1
          omega
        · show 16 * k.val ≤ (y 1).val ∧ (y 1).val < 16 * k.val + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off25_eq]
        intro a; fin_cases a
        · show 21 ≤ (y 0).val ∧ (y 0).val < 21 + 1
          omega
        · show 16 * k.val ≤ (y 1).val ∧ (y 1).val < 16 * k.val + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off26_eq]
        intro a; fin_cases a
        · show 22 ≤ (y 0).val ∧ (y 0).val < 22 + 1
          omega
        · show 16 * k.val ≤ (y 1).val ∧ (y 1).val < 16 * k.val + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off27_eq]
        intro a; fin_cases a
        · show 23 ≤ (y 0).val ∧ (y 0).val < 23 + 1
          omega
        · show 16 * k.val ≤ (y 1).val ∧ (y 1).val < 16 * k.val + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off28_eq]
        intro a; fin_cases a
        · show 24 ≤ (y 0).val ∧ (y 0).val < 24 + 1
          omega
        · show 16 * k.val ≤ (y 1).val ∧ (y 1).val < 16 * k.val + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off29_eq]
        intro a; fin_cases a
        · show 25 ≤ (y 0).val ∧ (y 0).val < 25 + 1
          omega
        · show 16 * k.val ≤ (y 1).val ∧ (y 1).val < 16 * k.val + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off30_eq]
        intro a; fin_cases a
        · show 26 ≤ (y 0).val ∧ (y 0).val < 26 + 1
          omega
        · show 16 * k.val ≤ (y 1).val ∧ (y 1).val < 16 * k.val + 16
          omega
      · have hr' : (y 0).val = 27 := hr.symm
        refine ⟨_, (List.Mem.tail _ (List.Mem.tail _ (List.Mem.tail _ (List.Mem.tail _ (List.Mem.head _))))), ?_⟩
        rw [Rect.mem_set_unit, k1_off31_eq]
        intro a; fin_cases a
        · show 27 ≤ (y 0).val ∧ (y 0).val < 27 + 1
          omega
        · show 16 * k.val ≤ (y 1).val ∧ (y 1).val < 16 * k.val + 16
          omega
      · have hr' : (y 0).val = 28 := hr.symm
        refine ⟨_, (List.Mem.tail _ (List.Mem.tail _ (List.Mem.tail _ (List.Mem.head _)))), ?_⟩
        rw [Rect.mem_set_unit, k1_off32_eq]
        intro a; fin_cases a
        · show 28 ≤ (y 0).val ∧ (y 0).val < 28 + 1
          omega
        · show 16 * k.val ≤ (y 1).val ∧ (y 1).val < 16 * k.val + 16
          omega
      · have hr' : (y 0).val = 29 := hr.symm
        refine ⟨_, (List.Mem.tail _ (List.Mem.tail _ (List.Mem.head _))), ?_⟩
        rw [Rect.mem_set_unit, k1_off33_eq]
        intro a; fin_cases a
        · show 29 ≤ (y 0).val ∧ (y 0).val < 29 + 1
          omega
        · show 16 * k.val ≤ (y 1).val ∧ (y 1).val < 16 * k.val + 16
          omega
      · have hr' : (y 0).val = 30 := hr.symm
        refine ⟨_, (List.Mem.tail _ (List.Mem.head _)), ?_⟩
        rw [Rect.mem_set_unit, k1_off34_eq]
        intro a; fin_cases a
        · show 30 ≤ (y 0).val ∧ (y 0).val < 30 + 1
          omega
        · show 16 * k.val ≤ (y 1).val ∧ (y 1).val < 16 * k.val + 16
          omega
      · have hr' : (y 0).val = 31 := hr.symm
        refine ⟨_, (List.Mem.head _), ?_⟩
        rw [Rect.mem_set_unit, k1_off35_eq]
        intro a; fin_cases a
        · show 31 ≤ (y 0).val ∧ (y 0).val < 31 + 1
          omega
        · show 16 * k.val ≤ (y 1).val ∧ (y 1).val < 16 * k.val + 16
          omega

end Tile
end Cert.Proof.KB
end
-- ==== Proof.KB.TileGoal2.lean ====
/-
  A stored row segment of the staged output, as a store's own element set, does not meet a column window to its left.
-/
import proofs.«217943_g20899310862962_cont_8to1_1374_33_alg».proof.Proof.KB.TileGoal
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Geo2
variable (d : Dev nD) (L : grid1.Coords)

theorem out_disjA (off : Fin 2 → ℕ) (inb : ∀ a, off a + S1x16.size a ≤ S32x512.size a) (c0 : ℕ)
    (inbw : ∀ a, (![0, c0] : Fin 2 → ℕ) a + S32x128.size a ≤ S32x512.size a)
    (hw : ∀ a, (Rect.unit (s := S32x512) ![0, c0] S32x128.size inbw).stride a = 1)
    (r col : ℕ) (heq : off = ![r, col]) (h : c0 + 128 ≤ col) :
    Disjoint ((sOut).access (Rect.unit (s := S32x512) off S1x16.size inb)).set
      ((sOut).slice (Rect.unit (s := S32x512) ![0, c0] S32x128.size inbw) hw).view.set := by
  subst heq
  refine View.disjoint_of_boxes (sOut).view (Rect.unit (s := S32x512) ![r, col] S1x16.size inb).toLoadRect
    (Rect.unit (s := S32x512) ![0, c0] S32x128.size inbw).toLoadRect ?_ ?_ 1 ?_
  · show ((sOut).view.slice _).set ⊆ _
    rw [View.set_slice]; exact subset_of_eq rfl
  · show ((sOut).view.slice _).set ⊆ _
    rw [View.set_slice]; exact subset_of_eq rfl
  · right; right
    show c0 + 1 * (128 - 1) < col
    omega
end Geo2
end Cert.Proof.KB
end
-- ==== Proof.KB.TileInv.lean ====
/-
  The invariants of the loops over slabs 1, 2, 3 of the staged output: before trip k of the loop over slab s the staged
  output, held less the column windows of the outgoing copies already started, holds its entries in every column
  below 128 s + 16 k.
-/
import proofs.«217943_g20899310862962_cont_8to1_1374_33_alg».proof.Proof.KB.TileGoal2
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)
/-- Before trip k of the loop over slab 1: the staged output holds its entries in every column below 128 * 1 + 16 k. -/
def invE1 (U : Buf (Elt F) ((thrV d L).loc cc1_scratch0)) (twc : Buf (Elt F) (twLoc d))
    (fL : Buf (Elt F) ((thrV d L).loc cc1_scratch2)) (fR : Buf (Elt F) ((thrV d L).loc cc1_scratch4)) (k : Nat) (_ : PUnit) : sProp 𝕄 :=
  iprop(((sLane).view.loc (thrV d L) ↦{fullShare} fL) ∗ ((sRB).view.loc (thrV d L) ↦{fullShare} fR)
    ∗ (∃ fO, ((sOut).view.loc (thrV d L) ↦[(Finset.univ \ (sOut.slice (Rect.unit (s := S32x512) ![0, 0] S32x128.size inb_S32x512_S32x128_0_0) (fun _ => rfl)).view.set)]{fullShare} fO)
        ∗ ⌜∀ y : S32x512.Idx, (y 1).val < 128 + 16 * k → (sOut).view.read (Elt F) fO y = Gout d L U twc y⌝))

/-- Before trip k of the loop over slab 2: the staged output holds its entries in every column below 128 * 2 + 16 k. -/
def invE2 (U : Buf (Elt F) ((thrV d L).loc cc1_scratch0)) (twc : Buf (Elt F) (twLoc d))
    (fL : Buf (Elt F) ((thrV d L).loc cc1_scratch2)) (fR : Buf (Elt F) ((thrV d L).loc cc1_scratch3)) (k : Nat) (_ : PUnit) : sProp 𝕄 :=
  iprop(((sLane).view.loc (thrV d L) ↦{fullShare} fL) ∗ ((sRA).view.loc (thrV d L) ↦{fullShare} fR)
    ∗ (∃ fO, ((sOut).view.loc (thrV d L) ↦[((Finset.univ \ (sOut.slice (Rect.unit (s := S32x512) ![0, 0] S32x128.size inb_S32x512_S32x128_0_0) (fun _ => rfl)).view.set) \ (sOut.slice (Rect.unit (s := S32x512) ![0, 128] S32x128.size inb_S32x512_S32x128_0_128) (fun _ => rfl)).view.set)]{fullShare} fO)
        ∗ ⌜∀ y : S32x512.Idx, (y 1).val < 256 + 16 * k → (sOut).view.read (Elt F) fO y = Gout d L U twc y⌝))

/-- Before trip k of the loop over slab 3: the staged output holds its entries in every column below 128 * 3 + 16 k. -/
def invE3 (U : Buf (Elt F) ((thrV d L).loc cc1_scratch0)) (twc : Buf (Elt F) (twLoc d))
    (fL : Buf (Elt F) ((thrV d L).loc cc1_scratch2)) (fR : Buf (Elt F) ((thrV d L).loc cc1_scratch4)) (k : Nat) (_ : PUnit) : sProp 𝕄 :=
  iprop(((sLane).view.loc (thrV d L) ↦{fullShare} fL) ∗ ((sRB).view.loc (thrV d L) ↦{fullShare} fR)
    ∗ (∃ fO, ((sOut).view.loc (thrV d L) ↦[(((Finset.univ \ (sOut.slice (Rect.unit (s := S32x512) ![0, 0] S32x128.size inb_S32x512_S32x128_0_0) (fun _ => rfl)).view.set) \ (sOut.slice (Rect.unit (s := S32x512) ![0, 128] S32x128.size inb_S32x512_S32x128_0_128) (fun _ => rfl)).view.set) \ (sOut.slice (Rect.unit (s := S32x512) ![0, 256] S32x128.size inb_S32x512_S32x128_0_256) (fun _ => rfl)).view.set)]{fullShare} fO)
        ∗ ⌜∀ y : S32x512.Idx, (y 1).val < 384 + 16 * k → (sOut).view.read (Elt F) fO y = Gout d L U twc y⌝))

end Tile
end Cert.Proof.KB
end
-- ==== Proof.KB.TileAuxVal.lean ====
/-
  Two values of the lookup, read at an entry. For the id u at position j of a worker's run, u at most 100000: the row
  word u AND 32767 is u mod 32768 and the lane word (u SHR 15) * 32 is 32 * (u div 32768), so the staged output's entry
  (dd, j) — the packed table at that row and lane (lane word + dd) — is the projection of table row u at feature dd
  wherever the packed table holds the projections; and the lane word is at most 96.
-/
import proofs.«217943_g20899310862962_cont_8to1_1374_33_alg».proof.Proof.KB.TileGoal

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Final
variable (m : (ℓ : Loc nD τ sig) → Buf (Elt F) ℓ) (pv : Fin 100001 → Fin 32 → F .f32) (Ok : Prop)
variable (d : Dev nD) (L : grid1.Coords)
variable (U : Buf (Elt F) ((thrV d L).loc cc1_scratch0)) (twc : Buf (Elt F) (twLoc d))

omit [FloatOps F] in
/-- Position j < 512 of worker w's run is id number 512 w + j, below 16384. -/
theorem run_lt (j : ℕ) (hj : j < 512) : 512 * (wL L).val + j < 16384 := by
  have := (wL L).isLt
  omega

/-- The lane word of an id that is a row of the table is at most 96. -/
theorem lane_le (hpre : PreOK m)
    (hU : ∀ y : S512.Idx, (sUid).view.read (Elt F) U y
      = m (uLoc d) (ix1 (n := 16384) ⟨512 * (wL L).val + (y 0).val, run_lt L _ (y 0).isLt⟩)) :
    ∀ y : S512.Idx, (laneW d L U y).toNat ≤ 96 := by
  intro y
  unfold laneW Ur
  rw [hU y]
  exact lanew_le _ (hpre d _)

/-- Entry (dd, j) of the staged output is the projection, at feature dd, of the table row that id j of the run names. -/
theorem gout_pv (hpre : PreOK m) (htw : TWok pv Ok d twc) (hOk : Ok)
    (hU : ∀ y : S512.Idx, (sUid).view.read (Elt F) U y
      = m (uLoc d) (ix1 (n := 16384) ⟨512 * (wL L).val + (y 0).val, run_lt L _ (y 0).isLt⟩))
    (y : S32x512.Idx) :
    Gout d L U twc y
      = pv (Cert.Spec.rowOf (m (uLoc d) (ix1 (n := 16384) ⟨512 * (wL L).val + (y 1).val, run_lt L _ (y 1).isLt⟩)))
          ⟨(y 0).val, (y 0).isLt⟩ := by
  have hle : (m (uLoc d) (ix1 (n := 16384) ⟨512 * (wL L).val + (y 1).val, run_lt L _ (y 1).isLt⟩)).toNat ≤ 100000 :=
    hpre d _
  have hur : Ur d L U (ix1 (n := 512) ⟨(y 1).val, (y 1).isLt⟩)
      = m (uLoc d) (ix1 (n := 16384) ⟨512 * (wL L).val + (y 1).val, run_lt L _ (y 1).isLt⟩) := hU _
  have hrow : (rowW d L U (ix1 (n := 512) ⟨(y 1).val, (y 1).isLt⟩)).toNat
      = (m (uLoc d) (ix1 (n := 16384) ⟨512 * (wL L).val + (y 1).val, run_lt L _ (y 1).isLt⟩)).toNat % 32768 := by
    unfold rowW; rw [hur]; exact andw_toNat _
  have hlane : (laneW d L U (ix1 (n := 512) ⟨(y 1).val, (y 1).isLt⟩)).toNat
      = 32 * ((m (uLoc d) (ix1 (n := 16384) ⟨512 * (wL L).val + (y 1).val, run_lt L _ (y 1).isLt⟩)).toNat / 32768) := by
    unfold laneW; rw [hur]; exact lanew_toNat _ hle
  have hv := Cert.Spec.rowOf_val_of_le hle
  have hy0 : (y 0).val < 32 := (y 0).isLt
  rw [← htw hOk (Cert.Spec.rowOf (m (uLoc d) (ix1 (n := 16384) ⟨512 * (wL L).val + (y 1).val, run_lt L _ (y 1).isLt⟩)))
    ⟨(y 0).val, (y 0).isLt⟩]
  unfold Gout
  show twc _ = twc _
  refine congrArg twc ?_
  funext a
  apply Fin.ext
  match a with
  | ⟨0, _⟩ =>
    show (rowW d L U (ix1 (n := 512) ⟨(y 1).val, (y 1).isLt⟩)).toNat % 32768 = _ % 32768
    rw [hrow, hv]; omega
  | ⟨1, _⟩ =>
    show ((laneW d L U (ix1 (n := 512) ⟨(y 1).val, (y 1).isLt⟩)).toNat + (y 0).val) % 128 = 32 * (_ / 32768) + (y 0).val
    rw [hlane, hv]; omega

end Final

section Gather
variable (d : Dev nD) (L : grid1.Coords)
variable (U : Buf (Elt F) ((thrV d L).loc cc1_scratch0)) (twc : Buf (Elt F) (twLoc d))

/-- The rows gathered for slab s: with the row words in the index scratch, row r of the gather of the packed table by the
    index scratch's positions [128 s, 128 (s + 1)) is the packed table's row named by id 128 s + r. -/
theorem gather_val (s : ℕ) (hs : s < 4) (g1 : Buf (Elt F) ((thrV d L).loc cc1_scratch1))
    (h1 : ∀ y, (sIdx).view.read (Elt F) g1 y = rowW d L U y)
    (inbR : ∀ a, (![128 * s] : Fin 1 → ℕ) a + S128.size a ≤ S512.size a)
    (R : Rect S512) (hoff : R = Rect.unit (s := S512) ![128 * s] S128.size inbR) (hR : ∀ a, R.stride a = 1)
    (hn : R.shape.numel = S128x128.size gathers_S32768x128_S128x128.axis')
    (hin : ∀ x, (((sIdx).slice R hR).view.read (Elt F) g1 x).toNat < S32768x128.size gathers_S32768x128_S128x128.axis)
    (y : S128x128.Idx) :
    SparseCore.gatherPayload gathers_S32768x128_S128x128
        (((aTW).slice (Rect.unit (s := S32768x128) ![0, 0] S32768x128.size inb_S32768x128_S32768x128_0_0) (fun _ => rfl)).view.read (Elt F) twc)
        (SparseCore.rows (((sIdx).slice R hR).view.read (Elt F) g1) hn hin) y
      = Grow d L U twc s y := by
  subst hoff
  have hy0 : (y 0).val < 128 := (y 0).isLt
  -- the position of the index scratch that names row (y 0) of the gather
  set x : (Rect.unit (s := S512) ![128 * s] S128.size inbR).shape.Idx :=
    (Rect.unit (s := S512) ![128 * s] S128.size inbR).shape.rowMajor.symm ((y 0).cast hn.symm) with hx
  have hx0 : (x 0).val = (y 0).val := by
    have e := congrArg Fin.val ((Rect.unit (s := S512) ![128 * s] S128.size inbR).shape.rowMajor.apply_symm_apply ((y 0).cast hn.symm))
    rw [← hx] at e
    rw [Shape.rowMajor_val_one] at e
    exact e
  have hidx : ((sIdx).slice (Rect.unit (s := S512) ![128 * s] S128.size inbR) hR).view.read (Elt F) g1 x
      = rowW d L U (ix1 (n := 512) (Fin.ofNat 512 (128 * s + (y 0).val))) := by
    show (sIdx).view.read (Elt F) g1 ((Rect.unit (s := S512) ![128 * s] S128.size inbR).emb x) = _
    rw [h1]
    refine congrArg (rowW d L U) ?_
    funext a
    obtain rfl : a = 0 := Subsingleton.elim _ _
    apply Fin.ext
    show 128 * s + 1 * (x 0).val = (128 * s + (y 0).val) % 512
    rw [hx0]; omega
  have hlt := hin x
  rw [hidx] at hlt
  unfold SparseCore.gatherPayload Grow twR
  show twc _ = twc _
  refine congrArg twc ?_
  funext a
  apply Fin.ext
  match a with
  | ⟨0, _⟩ =>
    show 0 + 1 * (((sIdx).slice (Rect.unit (s := S512) ![128 * s] S128.size inbR) hR).view.read (Elt F) g1 x).toNat
      = (rowW d L U (ix1 (n := 512) (Fin.ofNat 512 (128 * s + (y 0).val)))).toNat % 32768
    rw [hidx]
    have : (rowW d L U (ix1 (n := 512) (Fin.ofNat 512 (128 * s + (y 0).val)))).toNat < 32768 := hlt
    omega
  | ⟨1, _⟩ =>
    show 0 + 1 * (y 1).val = (y 1).val
    omega

end Gather

end Cert.Proof.KB

end
-- ==== Proof.KB.TileAuxVal2.lean ====
/-
  The copy of a worker's run of the ids into its id scratch, read at a position: the scratch written whole with the run
  holds, at position j, id number 512 w + j.
-/
import proofs.«217943_g20899310862962_cont_8to1_1374_33_alg».proof.Proof.KB.TileAuxVal

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section CopyIn
variable (m : (ℓ : Loc nD τ sig) → Buf (Elt F) ℓ) (d : Dev nD) (L : grid1.Coords)

omit [FloatOps F] in
/-- The run of the ids copied into the id scratch: position j of the scratch holds id number 512 w + j. -/
theorem copy_val (f0 : Buf (Elt F) ((thrV d L).loc cc1_scratch0)) (hs : ∀ a, (uRect L).stride a = 1) (y : S512.Idx) :
    (sUid).view.read (Elt F)
        (View.write (Elt F) (sUid).view f0
          (ReadAs.same.apply (View.read (Elt F) ((aU).slice (uRect L) hs).view (m (uLoc d)))) Finset.univ) y
      = m (uLoc d) (ix1 (n := 16384) ⟨512 * (wL L).val + (y 0).val, run_lt L _ (y 0).isLt⟩) := by
  rw [View.read_write_of_mem _ _ (Finset.mem_univ y)]
  show m (uLoc d) ((uRect L).emb y) = _
  refine congrArg (m (uLoc d)) ?_
  funext a
  obtain rfl : a = 0 := Subsingleton.elim _ _
  apply Fin.ext
  show k1_off1 L 0 + 1 * (y 0).val = 512 * (wL L).val + (y 0).val
  rw [k1_off1_eq L]
  show 1024 * (L 1).val + 512 * (L 0).val + 1 * (y 0).val = 512 * (2 * (L 1).val + (L 0).val) + (y 0).val
  omega

end CopyIn

end Cert.Proof.KB

end
-- ==== Proof.KB.TileAuxVal3.lean ====
/-
  The four outgoing copies, read at an entry. The staged output [32, 512] leaves in four column slabs of 128: slab s is
  written onto columns [512 w + 128 s, 512 w + 128 (s + 1)) of the transposed output, every row. A column of the worker's
  run lies in exactly one slab, so after the four writes entry (dd, 512 w + j) holds what the staged output held at
  (dd, j) when slab j div 128 left.
-/
import proofs.«217943_g20899310862962_cont_8to1_1374_33_alg».proof.Proof.KB.TileAuxVal

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section CopyOut
variable (m : (ℓ : Loc nD τ sig) → Buf (Elt F) ℓ) (d : Dev nD) (L : grid1.Coords)

omit [FloatOps F] in
/-- Where slab r of the worker's columns starts: column 512 w + 128 r. -/
theorem off36 (r : Fin 4) :
    k1_off36 L (BitVec.ofNat 32 (128 * r.val)) = ![0, 512 * (wL L).val + 128 * r.val] := by
  rw [k1_off36_eq L r]
  refine congrArg (fun x : ℕ => (![0, x] : Fin 2 → ℕ)) ?_
  show 1024 * (L 1).val + 512 * (L 0).val + 128 * r.val = 512 * (2 * (L 1).val + (L 0).val) + 128 * r.val
  omega

omit [FloatOps F] in
/-- One outgoing copy at a column of its slab: the entry takes what the staged output holds there. -/
theorem slab_hit (s : ℕ) (offS : Fin 2 → ℕ) (hoffS : offS = ![0, 128 * s])
    (inbS : ∀ a, offS a + S32x128.size a ≤ S32x512.size a)
    (hsS : ∀ a, (Rect.unit (s := S32x512) offS S32x128.size inbS).stride a = 1)
    (offO : Fin 2 → ℕ) (hoffO : offO = ![0, 512 * (wL L).val + 128 * s])
    (inbO : ∀ a, offO a + S32x128.size a ≤ S32x16384.size a)
    (hoO : ∀ a, (Rect.unit (s := S32x16384) offO S32x128.size inbO).stride a = 1)
    (f : Buf (Elt F) (oLoc d)) (fO : Buf (Elt F) ((thrV d L).loc cc1_scratch5))
    (dd : Fin 32) (j : Fin 512) (hlo : 128 * s ≤ j.val) (hhi : j.val < 128 * s + 128) :
    View.write (Elt F) ((aO).slice (Rect.unit (s := S32x16384) offO S32x128.size inbO) hoO).view f
        (ReadAs.same.apply (View.read (Elt F) ((sOut).slice (Rect.unit (s := S32x512) offS S32x128.size inbS) hsS).view fO))
        Finset.univ (ix2 (n0 := 32) (n1 := 16384) dd ⟨512 * (wL L).val + j.val, run_lt L _ j.isLt⟩)
      = (sOut).view.read (Elt F) fO (ix2 (n0 := 32) (n1 := 512) dd j) := by
  subst hoffS hoffO
  have e : ix2 (n0 := 32) (n1 := 16384) dd ⟨512 * (wL L).val + j.val, run_lt L _ j.isLt⟩
      = ((aO).slice (Rect.unit (s := S32x16384) ![0, 512 * (wL L).val + 128 * s] S32x128.size inbO) hoO).view.emb
          (ix2 (n0 := 32) (n1 := 128) dd ⟨j.val - 128 * s, by omega⟩) := by
    funext a
    apply Fin.ext
    match a with
    | ⟨0, _⟩ =>
      show dd.val = 0 + 1 * dd.val
      omega
    | ⟨1, _⟩ =>
      show 512 * (wL L).val + j.val = 512 * (wL L).val + 128 * s + 1 * (j.val - 128 * s)
      omega
  rw [e, View.write_emb_of_mem _ _ (Finset.mem_univ _)]
  refine (cast_eq _ _).trans ?_
  show (sOut).view.read (Elt F) fO ((Rect.unit (s := S32x512) ![0, 128 * s] S32x128.size inbS).emb
      (ix2 (n0 := 32) (n1 := 128) dd ⟨j.val - 128 * s, by omega⟩)) = _
  refine congrArg ((sOut).view.read (Elt F) fO) ?_
  funext a
  apply Fin.ext
  match a with
  | ⟨0, _⟩ =>
    show 0 + 1 * dd.val = dd.val
    omega
  | ⟨1, _⟩ =>
    show 128 * s + 1 * (j.val - 128 * s) = j.val
    omega

omit [FloatOps F] in
/-- One outgoing copy at a column of another slab: the entry is not touched. -/
theorem slab_miss (s : ℕ) (offS : Fin 2 → ℕ)
    (inbS : ∀ a, offS a + S32x128.size a ≤ S32x512.size a)
    (hsS : ∀ a, (Rect.unit (s := S32x512) offS S32x128.size inbS).stride a = 1)
    (offO : Fin 2 → ℕ) (hoffO : offO = ![0, 512 * (wL L).val + 128 * s])
    (inbO : ∀ a, offO a + S32x128.size a ≤ S32x16384.size a)
    (hoO : ∀ a, (Rect.unit (s := S32x16384) offO S32x128.size inbO).stride a = 1)
    (f : Buf (Elt F) (oLoc d)) (fO : Buf (Elt F) ((thrV d L).loc cc1_scratch5))
    (dd : Fin 32) (j : Fin 512) (hout : j.val < 128 * s ∨ 128 * s + 128 ≤ j.val) :
    View.write (Elt F) ((aO).slice (Rect.unit (s := S32x16384) offO S32x128.size inbO) hoO).view f
        (ReadAs.same.apply (View.read (Elt F) ((sOut).slice (Rect.unit (s := S32x512) offS S32x128.size inbS) hsS).view fO))
        Finset.univ (ix2 (n0 := 32) (n1 := 16384) dd ⟨512 * (wL L).val + j.val, run_lt L _ j.isLt⟩)
      = f (ix2 (n0 := 32) (n1 := 16384) dd ⟨512 * (wL L).val + j.val, run_lt L _ j.isLt⟩) := by
  subst hoffO
  refine View.write_of_not_mem _ _ _ ?_
  rw [View.setOn_univ]
  show ix2 (n0 := 32) (n1 := 16384) dd ⟨512 * (wL L).val + j.val, run_lt L _ j.isLt⟩
    ∉ ((View.whole main_v11_scv).slice (Rect.unit (s := S32x16384) ![0, 512 * (wL L).val + 128 * s] S32x128.size inbO)).set
  rw [View.set_slice_whole, Rect.mem_set_unit]
  intro h
  have h1 := h 1
  change 512 * (wL L).val + 128 * s ≤ 512 * (wL L).val + j.val
    ∧ 512 * (wL L).val + j.val < 512 * (wL L).val + 128 * s + 128 at h1
  omega

omit [FloatOps F] in
/-- After the four outgoing copies, entry (dd, 512 w + j) of the transposed output holds the staged output's entry (dd, j),
    each slab having held it when it left. -/
theorem out_val (fO0 fO1 fO2 fO3 : Buf (Elt F) ((thrV d L).loc cc1_scratch5)) (G : S32x512.Idx → Elt F .f32)
    (h0 : ∀ y : S32x512.Idx, (y 1).val < 128 → (sOut).view.read (Elt F) fO0 y = G y)
    (h1 : ∀ y : S32x512.Idx, (y 1).val < 256 → (sOut).view.read (Elt F) fO1 y = G y)
    (h2 : ∀ y : S32x512.Idx, (y 1).val < 384 → (sOut).view.read (Elt F) fO2 y = G y)
    (h3 : ∀ y : S32x512.Idx, (y 1).val < 512 → (sOut).view.read (Elt F) fO3 y = G y)
    (hs0 : ∀ a, (Rect.unit (s := S32x512) ![0, 0] S32x128.size inb_S32x512_S32x128_0_0).stride a = 1)
    (hs1 : ∀ a, (Rect.unit (s := S32x512) ![0, 128] S32x128.size inb_S32x512_S32x128_0_128).stride a = 1)
    (hs2 : ∀ a, (Rect.unit (s := S32x512) ![0, 256] S32x128.size inb_S32x512_S32x128_0_256).stride a = 1)
    (hs3 : ∀ a, (Rect.unit (s := S32x512) ![0, 384] S32x128.size inb_S32x512_S32x128_0_384).stride a = 1)
    (ho0 : ∀ a, (Rect.unit (s := S32x16384) (k1_off36 L 0#32) S32x128.size (k1_off36_inb L 0)).stride a = 1)
    (ho1 : ∀ a, (Rect.unit (s := S32x16384) (k1_off36 L 128#32) S32x128.size (k1_off36_inb L 1)).stride a = 1)
    (ho2 : ∀ a, (Rect.unit (s := S32x16384) (k1_off36 L 256#32) S32x128.size (k1_off36_inb L 2)).stride a = 1)
    (ho3 : ∀ a, (Rect.unit (s := S32x16384) (k1_off36 L 384#32) S32x128.size (k1_off36_inb L 3)).stride a = 1)
    (dd : Fin 32) (j : Fin 512) :
    View.write (Elt F) ((aO).slice (Rect.unit (s := S32x16384) (k1_off36 L 384#32) S32x128.size (k1_off36_inb L 3)) ho3).view
        (View.write (Elt F) ((aO).slice (Rect.unit (s := S32x16384) (k1_off36 L 256#32) S32x128.size (k1_off36_inb L 2)) ho2).view
          (View.write (Elt F) ((aO).slice (Rect.unit (s := S32x16384) (k1_off36 L 128#32) S32x128.size (k1_off36_inb L 1)) ho1).view
            (View.write (Elt F) ((aO).slice (Rect.unit (s := S32x16384) (k1_off36 L 0#32) S32x128.size (k1_off36_inb L 0)) ho0).view
              (m (oLoc d))
              (ReadAs.same.apply (View.read (Elt F) ((sOut).slice (Rect.unit (s := S32x512) ![0, 0] S32x128.size inb_S32x512_S32x128_0_0) hs0).view fO0))
              Finset.univ)
            (ReadAs.same.apply (View.read (Elt F) ((sOut).slice (Rect.unit (s := S32x512) ![0, 128] S32x128.size inb_S32x512_S32x128_0_128) hs1).view fO1))
            Finset.univ)
          (ReadAs.same.apply (View.read (Elt F) ((sOut).slice (Rect.unit (s := S32x512) ![0, 256] S32x128.size inb_S32x512_S32x128_0_256) hs2).view fO2))
          Finset.univ)
        (ReadAs.same.apply (View.read (Elt F) ((sOut).slice (Rect.unit (s := S32x512) ![0, 384] S32x128.size inb_S32x512_S32x128_0_384) hs3).view fO3))
        Finset.univ (ix2 (n0 := 32) (n1 := 16384) dd ⟨512 * (wL L).val + j.val, run_lt L _ j.isLt⟩)
      = G (ix2 (n0 := 32) (n1 := 512) dd j) := by
  have hj := j.isLt
  have o0 : k1_off36 L 0#32 = ![0, 512 * (wL L).val + 128 * 0] := off36 L 0
  have o1 : k1_off36 L 128#32 = ![0, 512 * (wL L).val + 128 * 1] := off36 L 1
  have o2 : k1_off36 L 256#32 = ![0, 512 * (wL L).val + 128 * 2] := off36 L 2
  have o3 : k1_off36 L 384#32 = ![0, 512 * (wL L).val + 128 * 3] := off36 L 3
  by_cases c3 : 384 ≤ j.val
  · rw [slab_hit d L 3 _ rfl _ hs3 _ o3 _ ho3 _ fO3 dd j (by omega) (by omega)]
    exact h3 _ (by show j.val < 512; omega)
  rw [slab_miss d L 3 _ _ hs3 _ o3 _ ho3 _ fO3 dd j (by omega)]
  by_cases c2 : 256 ≤ j.val
  · rw [slab_hit d L 2 _ rfl _ hs2 _ o2 _ ho2 _ fO2 dd j (by omega) (by omega)]
    exact h2 _ (by show j.val < 384; omega)
  rw [slab_miss d L 2 _ _ hs2 _ o2 _ ho2 _ fO2 dd j (by omega)]
  by_cases c1 : 128 ≤ j.val
  · rw [slab_hit d L 1 _ rfl _ hs1 _ o1 _ ho1 _ fO1 dd j (by omega) (by omega)]
    exact h1 _ (by show j.val < 256; omega)
  rw [slab_miss d L 1 _ _ hs1 _ o1 _ ho1 _ fO1 dd j (by omega)]
  rw [slab_hit d L 0 _ rfl _ hs0 _ o0 _ ho0 _ fO0 dd j (by omega) (by omega)]
  exact h0 _ (by show j.val < 128; omega)

end CopyOut

end Cert.Proof.KB

end
-- ==== Proof.KB.TileAuxVal4.lean ====
/-
  A worker's columns of the transposed output after its task. The id scratch holds the worker's run of the ids; each
  slab of the staged output, when it leaves, holds on the columns filled so far the packed table at each id's row and
  lanes; the packed table holds the projections. So after the four outgoing copies, entry (dd, r) of the worker's
  columns is the projection, at feature dd, of the table row that id r names.
-/
import proofs.«217943_g20899310862962_cont_8to1_1374_33_alg».proof.Proof.KB.TileAuxVal2
import proofs.«217943_g20899310862962_cont_8to1_1374_33_alg».proof.Proof.KB.TileAuxVal3

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Out
variable (m : (ℓ : Loc nD τ sig) → Buf (Elt F) ℓ) (pv : Fin 100001 → Fin 32 → F .f32) (Ok : Prop)
variable (d : Dev nD) (L : grid1.Coords)

/-- The worker's columns hold the looked-up projections. -/
theorem out_ok (f0 : Buf (Elt F) ((thrV d L).loc cc1_scratch0)) (twc : Buf (Elt F) (twLoc d))
    (fO0 fO1 fO2 fO3 : Buf (Elt F) ((thrV d L).loc cc1_scratch5))
    (hpre : PreOK m) (htw : TWok pv Ok d twc) (hsU : ∀ a, (uRect L).stride a = 1)
    (h0 : ∀ y : S32x512.Idx, (y 1).val < 128 → (sOut).view.read (Elt F) fO0 y = Gout d L (View.write (Elt F) (sUid).view f0 (ReadAs.same.apply (View.read (Elt F) ((aU).slice (uRect L) hsU).view (m (uLoc d)))) Finset.univ) twc y)
    (h1 : ∀ y : S32x512.Idx, (y 1).val < 256 → (sOut).view.read (Elt F) fO1 y = Gout d L (View.write (Elt F) (sUid).view f0 (ReadAs.same.apply (View.read (Elt F) ((aU).slice (uRect L) hsU).view (m (uLoc d)))) Finset.univ) twc y)
    (h2 : ∀ y : S32x512.Idx, (y 1).val < 384 → (sOut).view.read (Elt F) fO2 y = Gout d L (View.write (Elt F) (sUid).view f0 (ReadAs.same.apply (View.read (Elt F) ((aU).slice (uRect L) hsU).view (m (uLoc d)))) Finset.univ) twc y)
    (h3 : ∀ y : S32x512.Idx, (y 1).val < 512 → (sOut).view.read (Elt F) fO3 y = Gout d L (View.write (Elt F) (sUid).view f0 (ReadAs.same.apply (View.read (Elt F) ((aU).slice (uRect L) hsU).view (m (uLoc d)))) Finset.univ) twc y)
    (hs0 : ∀ a, (Rect.unit (s := S32x512) ![0, 0] S32x128.size inb_S32x512_S32x128_0_0).stride a = 1)
    (hs1 : ∀ a, (Rect.unit (s := S32x512) ![0, 128] S32x128.size inb_S32x512_S32x128_0_128).stride a = 1)
    (hs2 : ∀ a, (Rect.unit (s := S32x512) ![0, 256] S32x128.size inb_S32x512_S32x128_0_256).stride a = 1)
    (hs3 : ∀ a, (Rect.unit (s := S32x512) ![0, 384] S32x128.size inb_S32x512_S32x128_0_384).stride a = 1)
    (ho0 : ∀ a, (Rect.unit (s := S32x16384) (k1_off36 L 0#32) S32x128.size (k1_off36_inb L 0)).stride a = 1)
    (ho1 : ∀ a, (Rect.unit (s := S32x16384) (k1_off36 L 128#32) S32x128.size (k1_off36_inb L 1)).stride a = 1)
    (ho2 : ∀ a, (Rect.unit (s := S32x16384) (k1_off36 L 256#32) S32x128.size (k1_off36_inb L 2)).stride a = 1)
    (ho3 : ∀ a, (Rect.unit (s := S32x16384) (k1_off36 L 384#32) S32x128.size (k1_off36_inb L 3)).stride a = 1) :
    OutOkOn m pv Ok d (wL L)
      (View.write (Elt F) ((aO).slice (Rect.unit (s := S32x16384) (k1_off36 L 384#32) S32x128.size (k1_off36_inb L 3)) ho3).view
        (View.write (Elt F) ((aO).slice (Rect.unit (s := S32x16384) (k1_off36 L 256#32) S32x128.size (k1_off36_inb L 2)) ho2).view
          (View.write (Elt F) ((aO).slice (Rect.unit (s := S32x16384) (k1_off36 L 128#32) S32x128.size (k1_off36_inb L 1)) ho1).view
            (View.write (Elt F) ((aO).slice (Rect.unit (s := S32x16384) (k1_off36 L 0#32) S32x128.size (k1_off36_inb L 0)) ho0).view
              (m (oLoc d))
              (ReadAs.same.apply (View.read (Elt F) ((sOut).slice (Rect.unit (s := S32x512) ![0, 0] S32x128.size inb_S32x512_S32x128_0_0) hs0).view fO0))
              Finset.univ)
            (ReadAs.same.apply (View.read (Elt F) ((sOut).slice (Rect.unit (s := S32x512) ![0, 128] S32x128.size inb_S32x512_S32x128_0_128) hs1).view fO1))
            Finset.univ)
          (ReadAs.same.apply (View.read (Elt F) ((sOut).slice (Rect.unit (s := S32x512) ![0, 256] S32x128.size inb_S32x512_S32x128_0_256) hs2).view fO2))
          Finset.univ)
        (ReadAs.same.apply (View.read (Elt F) ((sOut).slice (Rect.unit (s := S32x512) ![0, 384] S32x128.size inb_S32x512_S32x128_0_384) hs3).view fO3))
        Finset.univ : Buf (Elt F) (oLoc d)) := by
  intro hOk dd r hr
  have hw := (wL L).isLt
  obtain ⟨j, hjr⟩ : ∃ j : Fin 512, r.val = 512 * (wL L).val + j.val :=
    ⟨⟨r.val - 512 * (wL L).val, by omega⟩, by show r.val = 512 * (wL L).val + (r.val - 512 * (wL L).val); omega⟩
  have er : (⟨512 * (wL L).val + j.val, run_lt L _ j.isLt⟩ : Fin 16384) = r := Fin.ext hjr.symm
  have key := out_val m d L fO0 fO1 fO2 fO3 (Gout d L (View.write (Elt F) (sUid).view f0 (ReadAs.same.apply (View.read (Elt F) ((aU).slice (uRect L) hsU).view (m (uLoc d)))) Finset.univ) twc) h0 h1 h2 h3 hs0 hs1 hs2 hs3 ho0 ho1 ho2 ho3 dd j
  rw [er] at key
  refine key.trans ?_
  rw [gout_pv m pv Ok d L (View.write (Elt F) (sUid).view f0 (ReadAs.same.apply (View.read (Elt F) ((aU).slice (uRect L) hsU).view (m (uLoc d)))) Finset.univ) twc hpre htw hOk (fun y => copy_val m d L f0 hsU y) (ix2 (n0 := 32) (n1 := 512) dd j)]
  show pv (Cert.Spec.rowOf (m (uLoc d) (ix1 (n := 16384) ⟨512 * (wL L).val + j.val, run_lt L _ j.isLt⟩))) dd = _
  rw [er]

end Out

end Cert.Proof.KB

end
-- ==== Proof.KB.TileAuxRJoin.lean ====
/-
  The staged output scratch, given back whole. At the end of the task the [32, 512] scratch is held in four pieces: its
  first three [32, 128] column windows, each at the contents its outgoing copy left, and the rest (the fourth window's
  columns). Windows at different column offsets do not meet, so each window lies in what remains once the earlier ones
  are taken out; joining the pieces innermost first gives the scratch whole at the contents pieced together.
-/
import proofs.«217943_g20899310862962_cont_8to1_1374_33_alg».proof.Proof.KB.TileSets
import Idealize.ShloMosaic.Rules.PointsTo
import Idealize.ShloMosaic.Lib.Exec.Geometry

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The first three column windows of the staged output, as rectangles of the scratch. -/
abbrev oWin0 : Rect S32x512 := Rect.unit (s := S32x512) ![0, 0] S32x128.size inb_S32x512_S32x128_0_0
abbrev oWin1 : Rect S32x512 := Rect.unit (s := S32x512) ![0, 128] S32x128.size inb_S32x512_S32x128_0_128
abbrev oWin2 : Rect S32x512 := Rect.unit (s := S32x512) ![0, 256] S32x128.size inb_S32x512_S32x128_0_256

/-- A window's elements are the scratch's elements in the window's rectangle. -/
theorem oWin_set (r : Rect S32x512) (h : ∀ a, r.stride a = 1) :
    ((sOut).slice r h).view.set = (sOut).view.setOn r.set := by
  show ((sOut).view.slice r).set = _
  rw [View.set_slice]
  rfl

/-- Windows at different column offsets do not meet. -/
theorem oWin10_disj (h1 : ∀ a, oWin1.stride a = 1) (h0 : ∀ a, oWin0.stride a = 1) :
    Disjoint ((sOut).slice oWin1 h1).view.set ((sOut).slice oWin0 h0).view.set :=
  View.disjoint_of_boxes (sOut).view oWin1.toLoadRect oWin0.toLoadRect (subset_of_eq (oWin_set _ _)) (subset_of_eq (oWin_set _ _)) 1
    (Or.inr (Or.inr (by show 0 + 1 * (128 - 1) < 128; omega)))
theorem oWin20_disj (h2 : ∀ a, oWin2.stride a = 1) (h0 : ∀ a, oWin0.stride a = 1) :
    Disjoint ((sOut).slice oWin2 h2).view.set ((sOut).slice oWin0 h0).view.set :=
  View.disjoint_of_boxes (sOut).view oWin2.toLoadRect oWin0.toLoadRect (subset_of_eq (oWin_set _ _)) (subset_of_eq (oWin_set _ _)) 1
    (Or.inr (Or.inr (by show 0 + 1 * (128 - 1) < 256; omega)))
theorem oWin21_disj (h2 : ∀ a, oWin2.stride a = 1) (h1 : ∀ a, oWin1.stride a = 1) :
    Disjoint ((sOut).slice oWin2 h2).view.set ((sOut).slice oWin1 h1).view.set :=
  View.disjoint_of_boxes (sOut).view oWin2.toLoadRect oWin1.toLoadRect (subset_of_eq (oWin_set _ _)) (subset_of_eq (oWin_set _ _)) 1
    (Or.inr (Or.inr (by show 128 + 1 * (128 - 1) < 256; omega)))

/-- The four pieces of the staged output make it whole, at some contents. -/
theorem sOut_rejoin (d : Dev nD) (L : grid1.Coords) (f0 f1 f2 f3 : Buf (Elt F) ((thrV d L).loc cc1_scratch5)) :
    (iprop(
        (((sOut).slice (Rect.unit (s := S32x512) ![0, 0] S32x128.size inb_S32x512_S32x128_0_0) (fun _ => rfl)).view.loc (thrV d L)
          ↦[((sOut).slice (Rect.unit (s := S32x512) ![0, 0] S32x128.size inb_S32x512_S32x128_0_0) (fun _ => rfl)).view.set]{fullShare} f0)
      ∗ (((sOut).slice (Rect.unit (s := S32x512) ![0, 128] S32x128.size inb_S32x512_S32x128_0_128) (fun _ => rfl)).view.loc (thrV d L)
          ↦[((sOut).slice (Rect.unit (s := S32x512) ![0, 128] S32x128.size inb_S32x512_S32x128_0_128) (fun _ => rfl)).view.set]{fullShare} f1)
      ∗ (((sOut).slice (Rect.unit (s := S32x512) ![0, 256] S32x128.size inb_S32x512_S32x128_0_256) (fun _ => rfl)).view.loc (thrV d L)
          ↦[((sOut).slice (Rect.unit (s := S32x512) ![0, 256] S32x128.size inb_S32x512_S32x128_0_256) (fun _ => rfl)).view.set]{fullShare} f2)
      ∗ ((sOut).view.loc (thrV d L)
          ↦[((Finset.univ \ ((sOut).slice (Rect.unit (s := S32x512) ![0, 0] S32x128.size inb_S32x512_S32x128_0_0) (fun _ => rfl)).view.set)
              \ ((sOut).slice (Rect.unit (s := S32x512) ![0, 128] S32x128.size inb_S32x512_S32x128_0_128) (fun _ => rfl)).view.set)
              \ ((sOut).slice (Rect.unit (s := S32x512) ![0, 256] S32x128.size inb_S32x512_S32x128_0_256) (fun _ => rfl)).view.set]{fullShare} f3))
      : sProp 𝕄)
      ⊢ iprop(∃ f, (thrV d L).loc cc1_scratch5 ↦{fullShare} f) := by
  have h2 : ((sOut).slice oWin2 (fun _ => rfl)).view.set
      ⊆ (Finset.univ \ ((sOut).slice oWin0 (fun _ => rfl)).view.set) \ ((sOut).slice oWin1 (fun _ => rfl)).view.set :=
    Finset.subset_sdiff.mpr ⟨Finset.subset_sdiff.mpr ⟨Finset.subset_univ _, oWin20_disj _ _⟩, oWin21_disj _ _⟩
  have h1 : ((sOut).slice oWin1 (fun _ => rfl)).view.set ⊆ Finset.univ \ ((sOut).slice oWin0 (fun _ => rfl)).view.set :=
    Finset.subset_sdiff.mpr ⟨Finset.subset_univ _, oWin10_disj _ _⟩
  have h0 : ((sOut).slice oWin0 (fun _ => rfl)).view.set ⊆ (Finset.univ : Finset (sOut).view.ty.Idx) := Finset.subset_univ _
  iintro ⟨H0, H1, H2, H3⟩
  ihave H23 := (pointsTo_join_subset (ℓ := (sOut).view.loc (thrV d L)) (q := fullShare) (g := f2) (f := f3) h2) $$ [H2 H3]
  · isplitl [H2]
    · iexact H2
    · iexact H3
  ihave H123 := (pointsTo_join_subset (ℓ := (sOut).view.loc (thrV d L)) (q := fullShare) (g := f1) h1) $$ [H1 H23]
  · isplitl [H1]
    · iexact H1
    · iexact H23
  ihave H := (pointsTo_join_subset (ℓ := (sOut).view.loc (thrV d L)) (q := fullShare) (g := f0) h0) $$ [H0 H123]
  · isplitl [H0]
    · iexact H0
    · iexact H123
  iexists _
  iexact H

end Cert.Proof.KB

end
-- ==== Proof.KB.TileBody.lean ====
/-
  The body of the lookup's SparseCore task, run once at a symbolic (device, SparseCore, vector subcore). The task
  copies its run of 512 ids into scratch, computes each id's row and lane words (loop 1), gathers the packed table's
  rows 128 at a time into two row buffers in turn (gathers s = 0..3, two in flight), and for each slab s extracts
  from the gathered rows the 32 projected features of its 128 ids into columns 128 s .. 128 s + 127 of the staged
  output (loops 2..5), which it then copies out to its columns of the transposed output; the four outgoing copies
  share one semaphore and are waited for at the very end, the later loops writing other columns only. The values are
  carried in the loops' invariants; the last step reads the output's columns off the four landed copies.
-/
import proofs.«217943_g20899310862962_cont_8to1_1374_33_alg».proof.Proof.KB.TileTrip1
import proofs.«217943_g20899310862962_cont_8to1_1374_33_alg».proof.Proof.KB.TileTripE0
import proofs.«217943_g20899310862962_cont_8to1_1374_33_alg».proof.Proof.KB.TileInv
import proofs.«217943_g20899310862962_cont_8to1_1374_33_alg».proof.Proof.KB.TileAuxVal4
import proofs.«217943_g20899310862962_cont_8to1_1374_33_alg».proof.Proof.KB.TileAuxRJoin
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (pv : Fin 100001 → Fin 32 → F .f32) (Ok : Prop)
variable [FloatOps F]

section Tile
variable (d : Dev nD) (L : grid1.Coords)

omit [FloatOps F] in
theorem pts_s0 (f : Buf (Elt F) ((thrV d L).loc cc1_scratch0)) : ((sUid).view.loc (thrV d L) ↦{fullShare} f : sProp 𝕄) = (thrV d L).loc cc1_scratch0 ↦{fullShare} f := rfl
omit [FloatOps F] in
theorem pts_s1 (f : Buf (Elt F) ((thrV d L).loc cc1_scratch1)) : ((sIdx).view.loc (thrV d L) ↦{fullShare} f : sProp 𝕄) = (thrV d L).loc cc1_scratch1 ↦{fullShare} f := rfl
omit [FloatOps F] in
theorem pts_s2 (f : Buf (Elt F) ((thrV d L).loc cc1_scratch2)) : ((sLane).view.loc (thrV d L) ↦{fullShare} f : sProp 𝕄) = (thrV d L).loc cc1_scratch2 ↦{fullShare} f := rfl
omit [FloatOps F] in
theorem pts_s3 (f : Buf (Elt F) ((thrV d L).loc cc1_scratch3)) : ((sRA).view.loc (thrV d L) ↦{fullShare} f : sProp 𝕄) = (thrV d L).loc cc1_scratch3 ↦{fullShare} f := rfl
omit [FloatOps F] in
theorem pts_s4 (f : Buf (Elt F) ((thrV d L).loc cc1_scratch4)) : ((sRB).view.loc (thrV d L) ↦{fullShare} f : sProp 𝕄) = (thrV d L).loc cc1_scratch4 ↦{fullShare} f := rfl
omit [FloatOps F] in
theorem pts_s5 (f : Buf (Elt F) ((thrV d L).loc cc1_scratch5)) : ((sOut).view.loc (thrV d L) ↦{fullShare} f : sProp 𝕄) = (thrV d L).loc cc1_scratch5 ↦{fullShare} f := rfl

omit [FloatOps F] in
/-- Two read tokens of a read share, for the two gather semaphores (cells 12 and 13), the rest let go. -/
theorem tw_toks (q : PosShare TreeShare) (twc : Buf (Elt F) (twLoc d)) :
    ((aTW).view.loc (thrV d L) ↦{q} twc : sProp 𝕄)
      ⊢ iprop(((aTW).view.loc (thrV d L) ↦{Transfers.shareTokN q 12} twc) ∗ ((aTW).view.loc (thrV d L) ↦{Transfers.shareTokN q 13} twc)) := by
  refine BIBase.Entails.trans ?_ (Entails.of_eq (show iprop((((aTW).view.loc (thrV d L) ↦{(Transfers.shareDrop q 12).right} twc : sProp 𝕄))
      ∗ ((aTW).view.loc (thrV d L) ↦{((Transfers.shareDrop q 12).left).right} twc)) = _ from rfl))
  iintro H
  ihave H' := (Transfers.pointsTo_toks_range (Ix := HIx 1) (Name := ℕ) (U := UU) (Lvl := ℕ) q 12).1 $$ H
  icases H' with ⟨Hd, -⟩
  ihave H2 := (pointsTo_share (PosShare.mem_left_op_right (Transfers.shareDrop q 12))).1 $$ Hd
  icases H2 with ⟨Hd, H12⟩
  ihave H3 := (pointsTo_share (PosShare.mem_left_op_right ((Transfers.shareDrop q 12).left))).1 $$ Hd
  icases H3 with ⟨-, H13⟩
  isplitl [H12]; · iexact H12
  iexact H13

/-- After a gather of slab `s` landed in a rows buffer (the last write, of the whole buffer), row r of the buffer is the
    packed table's row named by id 128 s + r, whatever the buffer held before. -/
theorem gather_read (U : Buf (Elt F) ((thrV d L).loc cc1_scratch0)) (twc : Buf (Elt F) (twLoc d)) (s : ℕ) (hs : s < 4)
    (B : Memref sig .scVector .vmem S128x128 .f32) (f : Buf (Elt F) (B.view.loc (thrV d L)))
    (Lr : List (View.Piece (Elt F) S128x128 .f32))
    (g1 : Buf (Elt F) ((thrV d L).loc cc1_scratch1)) (h1 : ∀ y, (sIdx).view.read (Elt F) g1 y = rowW d L U y)
    (inbR : ∀ a, (![128 * s] : Fin 1 → ℕ) a + S128.size a ≤ S512.size a)
    (hR : ∀ a, (Rect.unit (s := S512) ![128 * s] S128.size inbR).stride a = 1)
    (hn : (Rect.unit (s := S512) ![128 * s] S128.size inbR).shape.numel = S128x128.size gathers_S32768x128_S128x128.axis')
    (hin : ∀ x, (((sIdx).slice (Rect.unit (s := S512) ![128 * s] S128.size inbR) hR).view.read (Elt F) g1 x).toNat < S32768x128.size gathers_S32768x128_S128x128.axis)
    (y : S128x128.Idx) :
    B.view.read (Elt F) (B.view.writes (Elt F) f (⟨Rect.whole S128x128,
        SparseCore.gatherPayload gathers_S32768x128_S128x128
          (((aTW).slice (Rect.unit (s := S32768x128) ![0, 0] S32768x128.size inb_S32768x128_S32768x128_0_0) (fun _ => rfl)).view.read (Elt F) twc)
          (SparseCore.rows (((sIdx).slice (Rect.unit (s := S512) ![128 * s] S128.size inbR) hR).view.read (Elt F) g1) hn hin)⟩ :: Lr)) y
      = Grow d L U twc s y := by
  refine Eq.trans ?_ (gather_val d L U twc s hs g1 h1 inbR _ rfl hR hn hin y)
  have e := View.read_writes_cons_emb B.view f (Rect.whole S128x128) (SparseCore.gatherPayload gathers_S32768x128_S128x128
          (((aTW).slice (Rect.unit (s := S32768x128) ![0, 0] S32768x128.size inb_S32768x128_S32768x128_0_0) (fun _ => rfl)).view.read (Elt F) twc)
          (SparseCore.rows (((sIdx).slice (Rect.unit (s := S512) ![128 * s] S128.size inbR) hR).view.read (Elt F) g1) hn hin)) Lr y
  rwa [Rect.emb_whole_apply] at e

/-- One trip of the loop over slab 1 keeps its invariant (the statement of the trip's triple). -/
def TripE1 : Prop :=
  ∀ (U : Buf (Elt F) ((thrV d L).loc cc1_scratch0)) (twc : Buf (Elt F) (twLoc d)) (v2 : BitVec 32) (k : Fin k1_t3_loop.trips)
    (fL : Buf (Elt F) ((thrV d L).loc cc1_scratch2)) (fR : Buf (Elt F) ((thrV d L).loc cc1_scratch4)),
    (∀ y, (sLane).view.read (Elt F) fL y = laneW d L U y) → (∀ y, (laneW d L U y).toNat ≤ 96) →
    (∀ y, (sRB).view.read (Elt F) fR y = Grow d L U twc 1 y) →
    (invE1 d L U twc fL fR k.val ()
      ⊢ wp frame (wpE (defs₀ (F := F)) 𝒱₀ (thrV d L) none) Set.univ
          (k1_t3_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE1 d L U twc fL fR (k.val + 1)))

/-- One trip of the loop over slab 2 keeps its invariant (the statement of the trip's triple). -/
def TripE2 : Prop :=
  ∀ (U : Buf (Elt F) ((thrV d L).loc cc1_scratch0)) (twc : Buf (Elt F) (twLoc d)) (v2 : BitVec 32) (k : Fin k1_t4_loop.trips)
    (fL : Buf (Elt F) ((thrV d L).loc cc1_scratch2)) (fR : Buf (Elt F) ((thrV d L).loc cc1_scratch3)),
    (∀ y, (sLane).view.read (Elt F) fL y = laneW d L U y) → (∀ y, (laneW d L U y).toNat ≤ 96) →
    (∀ y, (sRA).view.read (Elt F) fR y = Grow d L U twc 2 y) →
    (invE2 d L U twc fL fR k.val ()
      ⊢ wp frame (wpE (defs₀ (F := F)) 𝒱₀ (thrV d L) none) Set.univ
          (k1_t4_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE2 d L U twc fL fR (k.val + 1)))

/-- One trip of the loop over slab 3 keeps its invariant (the statement of the trip's triple). -/
def TripE3 : Prop :=
  ∀ (U : Buf (Elt F) ((thrV d L).loc cc1_scratch0)) (twc : Buf (Elt F) (twLoc d)) (v2 : BitVec 32) (k : Fin k1_t5_loop.trips)
    (fL : Buf (Elt F) ((thrV d L).loc cc1_scratch2)) (fR : Buf (Elt F) ((thrV d L).loc cc1_scratch4)),
    (∀ y, (sLane).view.read (Elt F) fL y = laneW d L U y) → (∀ y, (laneW d L U y).toNat ≤ 96) →
    (∀ y, (sRB).view.read (Elt F) fR y = Grow d L U twc 3 y) →
    (invE3 d L U twc fL fR k.val ()
      ⊢ wp frame (wpE (defs₀ (F := F)) 𝒱₀ (thrV d L) none) Set.univ
          (k1_t5_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE3 d L U twc fL fR (k.val + 1)))

set_option maxHeartbeats 4000000 in
/-- The task of the vector subcore at grid point `L` of device `d`: from its read share of the packed table, its run of
    the ids and its columns of the transposed output, it ends with the ids unchanged and its columns holding the
    looked-up projections, its scratch buffers and semaphores given back. -/
theorem tile_body_of (hE1 : TripE1 (F := F) d L) (hE2 : TripE2 (F := F) d L) (hE3 : TripE3 (F := F) d L) (hF : (K (F := F)).Facts) (hpre : PreOK m) (O : CellTallies nD τ sig (HIx 1)) (W : Waits sig (HIx 1)) (hO : ∀ g, O g none = 0) :
    iprop(levAts (K (F := F)).L (K (F := F)).lev ∗ emp ∗ goW m pv Ok d (wL L)
        ∗ scopedBufs (thrV d L) ∗ scopedSems0 (thrV d L) ∗ owes (thrV d L) O W)
      ⊢ wp frame (wpE (defs₀ (F := F)) 𝒱₀ (thrV d L) none) Set.univ
          (cc1_gather_kernel L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0)
          fun _ => iprop(tdW m pv Ok d (wL L) ∗ scopedBufs (thrV d L) ∗ scopedSems0 (thrV d L)
            ∗ ∃ W', ⌜∀ p ∈ W', p ∈ W ∨ p.2 = none⌝ ∗ owes (thrV d L) O W') := by
  simp only [cc1_gather_kernel_eq_skeleton]; unfold cc1_gather_kernel_skel
  simp only [k1_part25_eq_skeleton, k1_part26_eq_skeleton, k1_part27_eq_skeleton]
  rw [(K (F := F)).scopedBufs_V hF d (cV L) (jV L), SparseCore.Cfg.scopedSems0_V (Val := Elt F) d (cV L) (jV L), ownSems0_V, ownBufs_V]
  unfold goW tdW
  iintro ⟨#Hlv, -, ⟨⟨%twc, %htw, Htw⟩, Hu, Ho⟩, ⟨⟨%f0, H0⟩, ⟨%f1, H1⟩, ⟨%f2, H2⟩, ⟨%f3, H3⟩, ⟨%f4, H4⟩, ⟨%f5, H5⟩, Hbufs⟩, ⟨S6, S7, S8, S0, Hsems⟩, HO⟩
  ihave Hmw := ((K (F := F)).mayWaits_none (thr := thrV d L) hO) $$ Hlv
  ihave Htw' := (Entails.of_eq (pts_tw (F := F) d L _ _).symm) $$ Htw
  ihave Hu' := (Entails.of_eq (pts_u (F := F) d L _).symm) $$ Hu
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave H5' := (Entails.of_eq (pts_s5 (F := F) d L _).symm) $$ H5
  have plan : Transfers.BatchOf (thrV d L) (SemLoc.dma (sig := sig) cc1_scratch8.sem) 4 (windows := true) := trivial
  sl_exec
  sl_for (inv1 d L _) $$ [H0' H1' H2']
  pick_goal 2

  · unfold inv1
    isplitl [H0']; · iexact H0'
    isplitl [H1']
    · iexists _; isplitl [H1']; · iexact H1'
      ipureintro; intro y hy; exact absurd hy (by omega)
    · iexists _; isplitl [H2']; · iexact H2'
      ipureintro; intro y hy; exact absurd hy (by omega)
  case region => intro k acc; exact trip1 (F := F) d L _ k
  iintro %_ HI
  unfold inv1
  icases HI with ⟨H0, ⟨%g1, H1, %h1⟩, ⟨%g2, H2, %h2⟩⟩
  have htr1 : Scf.trips k1_t1_loop.lb k1_t1_loop.ub k1_t1_loop.st = 32 := by decide
  have htr2 : Scf.trips k1_t2_loop.lb k1_t2_loop.ub k1_t2_loop.st = 8 := by decide
  have htr3 : Scf.trips k1_t3_loop.lb k1_t3_loop.ub k1_t3_loop.st = 8 := by decide
  have htr4 : Scf.trips k1_t4_loop.lb k1_t4_loop.ub k1_t4_loop.st = 8 := by decide
  have htr5 : Scf.trips k1_t5_loop.lb k1_t5_loop.ub k1_t5_loop.st = 8 := by decide
  let U0 : Buf (Elt F) ((thrV d L).loc cc1_scratch0) :=
    View.write (Elt F) (sUid).view f0 (ReadAs.same.apply (View.read (Elt F) ((aU).slice (uRect L) (fun _ => rfl)).view (m (uLoc d)))) Finset.univ
  have hU : ∀ y : S512.Idx, (sUid).view.read (Elt F) U0 y = m (uLoc d) (ix1 (n := 16384) ⟨512 * (wL L).val + (y 0).val, run_lt L _ (y 0).isLt⟩) :=
    copy_val m d L f0 (fun _ => rfl)
  have h1' : ∀ y, (sIdx).view.read (Elt F) g1 y = rowW d L U0 y := fun y => h1 y (by rw [htr1]; have : (y 0).val < 512 := (y 0).isLt; omega)
  have h2' : ∀ y, (sLane).view.read (Elt F) g2 y = laneW d L U0 y := fun y => h2 y (by rw [htr1]; have : (y 0).val < 512 := (y 0).isLt; omega)
  have hLb : ∀ y : S512.Idx, (laneW d L U0 y).toNat ≤ 96 := lane_le m d L U0 hpre hU
  have hin : ∀ (R : Rect S512) (hR : ∀ a, R.stride a = 1) (x : R.shape.Idx), (((sIdx).slice R hR).view.read (Elt F) g1 x).toNat < S32768x128.size gathers_S32768x128_S128x128.axis := by
    intro R hR x
    have e : ((sIdx).slice R hR).view.read (Elt F) g1 x = (sIdx).view.read (Elt F) g1 (R.emb x) := rfl
    rw [e, h1']
    show (IntOp.andi _ 32767#32).toNat < 32768
    rw [andw_toNat]
    exact Nat.mod_lt _ (by decide)
  ihave Htok := (tw_toks (F := F) d L _ _) $$ Htw'
  icases Htok with ⟨Htw12, Htw13⟩
  sl_exec
  sl_for (invE0 d L U0 twc _ _) $$ [H2 H3' H5']
  pick_goal 2
  · unfold invE0
    isplitl [H2]; · iexact H2
    isplitl [H3']; · iexact H3'
    iexists _; isplitl [H5']; · iexact H5'
    ipureintro; intro y hy
    exact absurd hy (by omega)
  case region =>
    intro k acc
    exact tripE0 (F := F) d L U0 twc 0#32 k _ _ h2' hLb (fun y => gather_read (F := F) d L U0 twc 0 (by omega) _ _ _ g1 h1' _ _ _ _ y)
  iintro %_ HI
  unfold invE0
  icases HI with ⟨HL0, HR0, ⟨%fO0, HOut0, %hO0⟩⟩
  sl_exec
  sl_for (invE1 d L U0 twc _ _) $$ [HL0 H4' HOut0]
  pick_goal 2
  · unfold invE1
    isplitl [HL0]; · iexact HL0
    isplitl [H4']; · iexact H4'
    iexists _; isplitl [HOut0]; · iexact HOut0
    ipureintro; intro y hy
    exact hO0 y (by rw [htr2]; omega)
  case region =>
    intro k acc
    exact hE1 U0 twc _ k _ _ h2' hLb (fun y => gather_read (F := F) d L U0 twc 1 (by omega) _ _ _ g1 h1' _ _ _ _ y)
  iintro %_ HI
  unfold invE1
  icases HI with ⟨HL1, HR1, ⟨%fO1, HOut1, %hO1⟩⟩
  sl_exec
  sl_for (invE2 d L U0 twc _ _) $$ [HL1 HR0 HOut1]
  pick_goal 2
  · unfold invE2
    isplitl [HL1]; · iexact HL1
    isplitl [HR0]; · iexact HR0
    iexists _; isplitl [HOut1]; · iexact HOut1
    ipureintro; intro y hy
    exact hO1 y (by rw [htr3]; omega)
  case region =>
    intro k acc
    exact hE2 U0 twc _ k _ _ h2' hLb (fun y => gather_read (F := F) d L U0 twc 2 (by omega) _ _ _ g1 h1' _ _ _ _ y)
  iintro %_ HI
  unfold invE2
  icases HI with ⟨HL2, HR2, ⟨%fO2, HOut2, %hO2⟩⟩
  sl_exec
  sl_for (invE3 d L U0 twc _ _) $$ [HL2 HR1 HOut2]
  pick_goal 2
  · unfold invE3
    isplitl [HL2]; · iexact HL2
    isplitl [HR1]; · iexact HR1
    iexists _; isplitl [HOut2]; · iexact HOut2
    ipureintro; intro y hy
    exact hO2 y (by rw [htr4]; omega)
  case region =>
    intro k acc
    exact hE3 U0 twc _ k _ _ h2' hLb (fun y => gather_read (F := F) d L U0 twc 3 (by omega) _ _ _ g1 h1' _ _ _ _ y)
  iintro %_ HI
  unfold invE3
  icases HI with ⟨HL3, HR3, ⟨%fO3, HOut3, %hO3⟩⟩
  sl_exec
  sl_step
  -- the task's results: the ids back, the columns filled
  isplitl [Hu' Ho']
  · isplitl [Hu']
    · iapply (Entails.of_eq (pts_u (F := F) d L _)); iexact Hu'
    iexists _; isplitr
    · ipureintro
      exact out_ok m pv Ok d L f0 twc fO0 fO1 fO2 fO3 hpre htw (fun _ => rfl)
        (fun y hy => hO0 y (by rw [htr2]; omega)) (fun y hy => hO1 y (by rw [htr3]; omega))
        (fun y hy => hO2 y (by rw [htr4]; omega)) (fun y hy => hO3 y (by rw [htr5]; omega))
        (fun _ => rfl) (fun _ => rfl) (fun _ => rfl) (fun _ => rfl) (fun _ => rfl) (fun _ => rfl) (fun _ => rfl) (fun _ => rfl)
    · iapply (Entails.of_eq (pts_o (F := F) d L _)); iexact Ho'
  -- the scratch buffers
  isplitl [H0 H1 HL3 HR2 HR3 HOut0 HOut1 HOut2 HOut3 Hbufs]
  · isplitl [H0]; · iexists _; iapply (Entails.of_eq (pts_s0 (F := F) d L _)); iexact H0
    isplitl [H1]; · iexists _; iapply (Entails.of_eq (pts_s1 (F := F) d L _)); iexact H1
    isplitl [HL3]; · iexists _; iapply (Entails.of_eq (pts_s2 (F := F) d L _)); iexact HL3
    isplitl [HR2]; · iexists _; iapply (Entails.of_eq (pts_s3 (F := F) d L _)); iexact HR2
    isplitl [HR3]; · iexists _; iapply (Entails.of_eq (pts_s4 (F := F) d L _)); iexact HR3
    isplitl [HOut0 HOut1 HOut2 HOut3]
    · iapply (sOut_rejoin (F := F) d L fO0 fO1 fO2 fO3)
      isplitl [HOut0]; · iexact HOut0
      isplitl [HOut1]; · iexact HOut1
      isplitl [HOut2]; · iexact HOut2
      iexact HOut3
    iexact Hbufs
  -- the semaphores
  isplitl [S6 S7 S8 S0 Hsems]
  · isplitl [S6]; · iexact S6
    isplitl [S7]; · iexact S7
    isplitl [S8]; · iexact S8
    isplitl [S0]; · iexact S0
    iexact Hsems
  iexists _; isplitr
  pick_goal 2
  · iexact HO
  · ipureintro
    intro p hp
    iterate 9 (rcases Finset.mem_insert.mp hp with h | hp; · exact .inr (by rw [h]; rfl))
    exact .inl hp

end Tile
end Cert.Proof.KB
end
-- ==== Proof.KB.TileTripE1.lean ====
/-
  The loop over slab 1 of the staged output: trip k loads the sixteen lane words of ids 128 * 1 + 16 k .. + 15 and,
  for each of the 32 features dd, gathers from the rows buffer the entries (16 k + x, lane word + dd) and stores them
  as row dd, columns 128 * 1 + 16 k .. + 15 of the staged output. Each stored segment holds the output's entries
  (piece_ok); the 32 segments cover the sixteen new columns; earlier columns are kept.
-/
import proofs.«217943_g20899310862962_cont_8to1_1374_33_alg».proof.Proof.KB.TileInv
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

set_option maxHeartbeats 4000000 in
set_option sl_exec.dischHeartbeats 100000 in
theorem tripE1 (U : Buf (Elt F) ((thrV d L).loc cc1_scratch0)) (twc : Buf (Elt F) (twLoc d)) (v2 : BitVec 32) (k : Fin k1_t3_loop.trips)
    (fL : Buf (Elt F) ((thrV d L).loc cc1_scratch2)) (fR : Buf (Elt F) ((thrV d L).loc cc1_scratch4))
    (hL : ∀ y, (sLane).view.read (Elt F) fL y = laneW d L U y) (hLb : ∀ y, (laneW d L U y).toNat ≤ 96)
    (hR : ∀ y, (sRB).view.read (Elt F) fR y = Grow d L U twc 1 y) :
    invE1 d L U twc fL fR k.val ⟨⟩
      ⊢ wp frame (wpE (defs₀ (F := F)) 𝒱₀ (thrV d L) none) Set.univ
          (k1_t3_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE1 d L U twc fL fR (k.val + 1)) := by
  have hk : k.val < 8 := lt_of_lt_of_le k.isLt k1_t3_abs.2.1
  have h63 : ∀ x : S16.Idx, (k1_pay34 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay34 (iota .scVector S16 32 [0] iota_S16_d0_w32_scVector) 0#32 1#32 k, addi ((sLane).view.readAt (Elt F) (Rect.unit (s := S512) (k1_off37 k) S16.size (k1_off37_inb k)).toLoadRect fL) (broadcast S16 c)] : Fin 2 → IVec S16 32) a x).toNat < S128x128.size a := by
    intro c hc a x
    have hx : (x 0).val < 16 := (x 0).isLt
    fin_cases a
    · show (k1_pay34 (iota .scVector S16 32 [0] iota_S16_d0_w32_scVector) 0#32 1#32 k x).toNat < 128
      rw [h63]; omega
    · show (IntOp.addi ((sLane).view.read (Elt F) fL ((Rect.unit (s := S512) (k1_off37 k) S16.size (k1_off37_inb k)).toLoadRect.idx x)) c).toNat < 128
      rw [hL, addw_toNat _ _ (hLb _) hc]
      have := hLb ((Rect.unit (s := S512) (k1_off37 k) S16.size (k1_off37_inb k)).toLoadRect.idx x)
      omega
  unfold k1_t3_body
  simp only [k1_part7_eq_skeleton, k1_part8_eq_skeleton, k1_part9_eq_skeleton, k1_part10_eq_skeleton, k1_part11_eq_skeleton, k1_part12_eq_skeleton]
  unfold k1_part7_skel k1_part8_skel k1_part9_skel k1_part10_skel k1_part11_skel k1_part12_skel
  simp only [SparseCore.vectorLoadIdx_bind (thrV d L)]
  unfold invE1
  iintro ⟨HL, HR, ⟨%fO, HOut, %hO⟩⟩
  sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm)
  repeat (sl_rw [SparseCore.vectorLoadIdx_bind (thrV d L)]; sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 128 + 16 * k.val)
  refine key _ ?hw hO y ?cov
  case hw =>
    intro p hp
    rcases List.mem_cons.1 hp with rfl | hp
    · intro x
      exact piece_ok d L U twc 1 k.val 31 (16 * k.val + 128) (by omega) hk (by omega) (by omega) _ _ hR _ hL hLb _ h63 _ (k1_off37_eq k) (k1_off37_inb k) 31#32 rfl _ (k1_off69_eq k) (k1_off69_inb k) _ x
    rcases List.mem_cons.1 hp with rfl | hp
    · intro x
      exact piece_ok d L U twc 1 k.val 30 (16 * k.val + 128) (by omega) hk (by omega) (by omega) _ _ hR _ hL hLb _ h63 _ (k1_off37_eq k) (k1_off37_inb k) 30#32 rfl _ (k1_off68_eq k) (k1_off68_inb k) _ x
    rcases List.mem_cons.1 hp with rfl | hp
    · intro x
      exact piece_ok d L U twc 1 k.val 29 (16 * k.val + 128) (by omega) hk (by omega) (by omega) _ _ hR _ hL hLb _ h63 _ (k1_off37_eq k) (k1_off37_inb k) 29#32 rfl _ (k1_off67_eq k) (k1_off67_inb k) _ x
    rcases List.mem_cons.1 hp with rfl | hp
    · intro x
      exact piece_ok d L U twc 1 k.val 28 (16 * k.val + 128) (by omega) hk (by omega) (by omega) _ _ hR _ hL hLb _ h63 _ (k1_off37_eq k) (k1_off37_inb k) 28#32 rfl _ (k1_off66_eq k) (k1_off66_inb k) _ x
    rcases List.mem_cons.1 hp with rfl | hp
    · intro x
      exact piece_ok d L U twc 1 k.val 27 (16 * k.val + 128) (by omega) hk (by omega) (by omega) _ _ hR _ hL hLb _ h63 _ (k1_off37_eq k) (k1_off37_inb k) 27#32 rfl _ (k1_off65_eq k) (k1_off65_inb k) _ x
    rcases List.mem_cons.1 hp with rfl | hp
    · intro x
      exact piece_ok d L U twc 1 k.val 26 (16 * k.val + 128) (by omega) hk (by omega) (by omega) _ _ hR _ hL hLb _ h63 _ (k1_off37_eq k) (k1_off37_inb k) 26#32 rfl _ (k1_off64_eq k) (k1_off64_inb k) _ x
    rcases List.mem_cons.1 hp with rfl | hp
    · intro x
      exact piece_ok d L U twc 1 k.val 25 (16 * k.val + 128) (by omega) hk (by omega) (by omega) _ _ hR _ hL hLb _ h63 _ (k1_off37_eq k) (k1_off37_inb k) 25#32 rfl _ (k1_off63_eq k) (k1_off63_inb k) _ x
    rcases List.mem_cons.1 hp with rfl | hp
    · intro x
      exact piece_ok d L U twc 1 k.val 24 (16 * k.val + 128) (by omega) hk (by omega) (by omega) _ _ hR _ hL hLb _ h63 _ (k1_off37_eq k) (k1_off37_inb k) 24#32 rfl _ (k1_off62_eq k) (k1_off62_inb k) _ x
    rcases List.mem_cons.1 hp with rfl | hp
    · intro x
      exact piece_ok d L U twc 1 k.val 23 (16 * k.val + 128) (by omega) hk (by omega) (by omega) _ _ hR _ hL hLb _ h63 _ (k1_off37_eq k) (k1_off37_inb k) 23#32 rfl _ (k1_off61_eq k) (k1_off61_inb k) _ x
    rcases List.mem_cons.1 hp with rfl | hp
    · intro x
      exact piece_ok d L U twc 1 k.val 22 (16 * k.val + 128) (by omega) hk (by omega) (by omega) _ _ hR _ hL hLb _ h63 _ (k1_off37_eq k) (k1_off37_inb k) 22#32 rfl _ (k1_off60_eq k) (k1_off60_inb k) _ x
    rcases List.mem_cons.1 hp with rfl | hp
    · intro x
      exact piece_ok d L U twc 1 k.val 21 (16 * k.val + 128) (by omega) hk (by omega) (by omega) _ _ hR _ hL hLb _ h63 _ (k1_off37_eq k) (k1_off37_inb k) 21#32 rfl _ (k1_off59_eq k) (k1_off59_inb k) _ x
    rcases List.mem_cons.1 hp with rfl | hp
    · intro x
      exact piece_ok d L U twc 1 k.val 20 (16 * k.val + 128) (by omega) hk (by omega) (by omega) _ _ hR _ hL hLb _ h63 _ (k1_off37_eq k) (k1_off37_inb k) 20#32 rfl _ (k1_off58_eq k) (k1_off58_inb k) _ x
    rcases List.mem_cons.1 hp with rfl | hp
    · intro x
      exact piece_ok d L U twc 1 k.val 19 (16 * k.val + 128) (by omega) hk (by omega) (by omega) _ _ hR _ hL hLb _ h63 _ (k1_off37_eq k) (k1_off37_inb k) 19#32 rfl _ (k1_off57_eq k) (k1_off57_inb k) _ x
    rcases List.mem_cons.1 hp with rfl | hp
    · intro x
      exact piece_ok d L U twc 1 k.val 18 (16 * k.val + 128) (by omega) hk (by omega) (by omega) _ _ hR _ hL hLb _ h63 _ (k1_off37_eq k) (k1_off37_inb k) 18#32 rfl _ (k1_off56_eq k) (k1_off56_inb k) _ x
    rcases List.mem_cons.1 hp with rfl | hp
    · intro x
      exact piece_ok d L U twc 1 k.val 17 (16 * k.val + 128) (by omega) hk (by omega) (by omega) _ _ hR _ hL hLb _ h63 _ (k1_off37_eq k) (k1_off37_inb k) 17#32 rfl _ (k1_off55_eq k) (k1_off55_inb k) _ x
    rcases List.mem_cons.1 hp with rfl | hp
    · intro x
      exact piece_ok d L U twc 1 k.val 16 (16 * k.val + 128) (by omega) hk (by omega) (by omega) _ _ hR _ hL hLb _ h63 _ (k1_off37_eq k) (k1_off37_inb k) 16#32 rfl _ (k1_off54_eq k) (k1_off54_inb k) _ x
    rcases List.mem_cons.1 hp with rfl | hp
    · intro x
      exact piece_ok d L U twc 1 k.val 15 (16 * k.val + 128) (by omega) hk (by omega) (by omega) _ _ hR _ hL hLb _ h63 _ (k1_off37_eq k) (k1_off37_inb k) 15#32 rfl _ (k1_off53_eq k) (k1_off53_inb k) _ x
    rcases List.mem_cons.1 hp with rfl | hp
    · intro x
      exact piece_ok d L U twc 1 k.val 14 (16 * k.val + 128) (by omega) hk (by omega) (by omega) _ _ hR _ hL hLb _ h63 _ (k1_off37_eq k) (k1_off37_inb k) 14#32 rfl _ (k1_off52_eq k) (k1_off52_inb k) _ x
    rcases List.mem_cons.1 hp with rfl | hp
    · intro x
      exact piece_ok d L U twc 1 k.val 13 (16 * k.val + 128) (by omega) hk (by omega) (by omega) _ _ hR _ hL hLb _ h63 _ (k1_off37_eq k) (k1_off37_inb k) 13#32 rfl _ (k1_off51_eq k) (k1_off51_inb k) _ x
    rcases List.mem_cons.1 hp with rfl | hp
    · intro x
      exact piece_ok d L U twc 1 k.val 12 (16 * k.val + 128) (by omega) hk (by omega) (by omega) _ _ hR _ hL hLb _ h63 _ (k1_off37_eq k) (k1_off37_inb k) 12#32 rfl _ (k1_off50_eq k) (k1_off50_inb k) _ x
    rcases List.mem_cons.1 hp with rfl | hp
    · intro x
      exact piece_ok d L U twc 1 k.val 11 (16 * k.val + 128) (by omega) hk (by omega) (by omega) _ _ hR _ hL hLb _ h63 _ (k1_off37_eq k) (k1_off37_inb k) 11#32 rfl _ (k1_off49_eq k) (k1_off49_inb k) _ x
    rcases List.mem_cons.1 hp with rfl | hp
    · intro x
      exact piece_ok d L U twc 1 k.val 10 (16 * k.val + 128) (by omega) hk (by omega) (by omega) _ _ hR _ hL hLb _ h63 _ (k1_off37_eq k) (k1_off37_inb k) 10#32 rfl _ (k1_off48_eq k) (k1_off48_inb k) _ x
    rcases List.mem_cons.1 hp with rfl | hp
    · intro x
      exact piece_ok d L U twc 1 k.val 9 (16 * k.val + 128) (by omega) hk (by omega) (by omega) _ _ hR _ hL hLb _ h63 _ (k1_off37_eq k) (k1_off37_inb k) 9#32 rfl _ (k1_off47_eq k) (k1_off47_inb k) _ x
    rcases List.mem_cons.1 hp with rfl | hp
    · intro x
      exact piece_ok d L U twc 1 k.val 8 (16 * k.val + 128) (by omega) hk (by omega) (by omega) _ _ hR _ hL hLb _ h63 _ (k1_off37_eq k) (k1_off37_inb k) 8#32 rfl _ (k1_off46_eq k) (k1_off46_inb k) _ x
    rcases List.mem_cons.1 hp with rfl | hp
    · intro x
      exact piece_ok d L U twc 1 k.val 7 (16 * k.val + 128) (by omega) hk (by omega) (by omega) _ _ hR _ hL hLb _ h63 _ (k1_off37_eq k) (k1_off37_inb k) 7#32 rfl _ (k1_off45_eq k) (k1_off45_inb k) _ x
    rcases List.mem_cons.1 hp with rfl | hp
    · intro x
      exact piece_ok d L U twc 1 k.val 6 (16 * k.val + 128) (by omega) hk (by omega) (by omega) _ _ hR _ hL hLb _ h63 _ (k1_off37_eq k) (k1_off37_inb k) 6#32 rfl _ (k1_off44_eq k) (k1_off44_inb k) _ x
    rcases List.mem_cons.1 hp with rfl | hp
    · intro x
      exact piece_ok d L U twc 1 k.val 5 (16 * k.val + 128) (by omega) hk (by omega) (by omega) _ _ hR _ hL hLb _ h63 _ (k1_off37_eq k) (k1_off37_inb k) 5#32 rfl _ (k1_off43_eq k) (k1_off43_inb k) _ x
    rcases List.mem_cons.1 hp with rfl | hp
    · intro x
      exact piece_ok d L U twc 1 k.val 4 (16 * k.val + 128) (by omega) hk (by omega) (by omega) _ _ hR _ hL hLb _ h63 _ (k1_off37_eq k) (k1_off37_inb k) 4#32 rfl _ (k1_off42_eq k) (k1_off42_inb k) _ x
    rcases List.mem_cons.1 hp with rfl | hp
    · intro x
      exact piece_ok d L U twc 1 k.val 3 (16 * k.val + 128) (by omega) hk (by omega) (by omega) _ _ hR _ hL hLb _ h63 _ (k1_off37_eq k) (k1_off37_inb k) 3#32 rfl _ (k1_off41_eq k) (k1_off41_inb k) _ x
    rcases List.mem_cons.1 hp with rfl | hp
    · intro x
      exact piece_ok d L U twc 1 k.val 2 (16 * k.val + 128) (by omega) hk (by omega) (by omega) _ _ hR _ hL hLb _ h63 _ (k1_off37_eq k) (k1_off37_inb k) 2#32 rfl _ (k1_off40_eq k) (k1_off40_inb k) _ x
    rcases List.mem_cons.1 hp with rfl | hp
    · intro x
      exact piece_ok d L U twc 1 k.val 1 (16 * k.val + 128) (by omega) hk (by omega) (by omega) _ _ hR _ hL hLb _ h63 _ (k1_off37_eq k) (k1_off37_inb k) 1#32 rfl _ (k1_off39_eq k) (k1_off39_inb k) _ x
    rcases List.mem_cons.1 hp with rfl | hp
    · intro x
      exact piece_ok d L U twc 1 k.val 0 (16 * k.val + 128) (by omega) hk (by omega) (by omega) _ _ hR _ hL hLb _ h63 _ (k1_off37_eq k) (k1_off37_inb k) 0#32 rfl _ (k1_off38_eq k) (k1_off38_inb k) _ x
    cases hp
  case cov =>
    by_cases h : (y 1).val < 128 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off38_eq]
        intro a; fin_cases a
        · show 0 ≤ (y 0).val ∧ (y 0).val < 0 + 1
          omega
        · show 16 * k.val + 128 ≤ (y 1).val ∧ (y 1).val < 16 * k.val + 128 + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off39_eq]
        intro a; fin_cases a
        · show 1 ≤ (y 0).val ∧ (y 0).val < 1 + 1
          omega
        · show 16 * k.val + 128 ≤ (y 1).val ∧ (y 1).val < 16 * k.val + 128 + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off40_eq]
        intro a; fin_cases a
        · show 2 ≤ (y 0).val ∧ (y 0).val < 2 + 1
          omega
        · show 16 * k.val + 128 ≤ (y 1).val ∧ (y 1).val < 16 * k.val + 128 + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off41_eq]
        intro a; fin_cases a
        · show 3 ≤ (y 0).val ∧ (y 0).val < 3 + 1
          omega
        · show 16 * k.val + 128 ≤ (y 1).val ∧ (y 1).val < 16 * k.val + 128 + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off42_eq]
        intro a; fin_cases a
        · show 4 ≤ (y 0).val ∧ (y 0).val < 4 + 1
          omega
        · show 16 * k.val + 128 ≤ (y 1).val ∧ (y 1).val < 16 * k.val + 128 + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off43_eq]
        intro a; fin_cases a
        · show 5 ≤ (y 0).val ∧ (y 0).val < 5 + 1
          omega
        · show 16 * k.val + 128 ≤ (y 1).val ∧ (y 1).val < 16 * k.val + 128 + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off44_eq]
        intro a; fin_cases a
        · show 6 ≤ (y 0).val ∧ (y 0).val < 6 + 1
          omega
        · show 16 * k.val + 128 ≤ (y 1).val ∧ (y 1).val < 16 * k.val + 128 + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off45_eq]
        intro a; fin_cases a
        · show 7 ≤ (y 0).val ∧ (y 0).val < 7 + 1
          omega
        · show 16 * k.val + 128 ≤ (y 1).val ∧ (y 1).val < 16 * k.val + 128 + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off46_eq]
        intro a; fin_cases a
        · show 8 ≤ (y 0).val ∧ (y 0).val < 8 + 1
          omega
        · show 16 * k.val + 128 ≤ (y 1).val ∧ (y 1).val < 16 * k.val + 128 + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off47_eq]
        intro a; fin_cases a
        · show 9 ≤ (y 0).val ∧ (y 0).val < 9 + 1
          omega
        · show 16 * k.val + 128 ≤ (y 1).val ∧ (y 1).val < 16 * k.val + 128 + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off48_eq]
        intro a; fin_cases a
        · show 10 ≤ (y 0).val ∧ (y 0).val < 10 + 1
          omega
        · show 16 * k.val + 128 ≤ (y 1).val ∧ (y 1).val < 16 * k.val + 128 + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off49_eq]
        intro a; fin_cases a
        · show 11 ≤ (y 0).val ∧ (y 0).val < 11 + 1
          omega
        · show 16 * k.val + 128 ≤ (y 1).val ∧ (y 1).val < 16 * k.val + 128 + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off50_eq]
        intro a; fin_cases a
        · show 12 ≤ (y 0).val ∧ (y 0).val < 12 + 1
          omega
        · show 16 * k.val + 128 ≤ (y 1).val ∧ (y 1).val < 16 * k.val + 128 + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off51_eq]
        intro a; fin_cases a
        · show 13 ≤ (y 0).val ∧ (y 0).val < 13 + 1
          omega
        · show 16 * k.val + 128 ≤ (y 1).val ∧ (y 1).val < 16 * k.val + 128 + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off52_eq]
        intro a; fin_cases a
        · show 14 ≤ (y 0).val ∧ (y 0).val < 14 + 1
          omega
        · show 16 * k.val + 128 ≤ (y 1).val ∧ (y 1).val < 16 * k.val + 128 + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off53_eq]
        intro a; fin_cases a
        · show 15 ≤ (y 0).val ∧ (y 0).val < 15 + 1
          omega
        · show 16 * k.val + 128 ≤ (y 1).val ∧ (y 1).val < 16 * k.val + 128 + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off54_eq]
        intro a; fin_cases a
        · show 16 ≤ (y 0).val ∧ (y 0).val < 16 + 1
          omega
        · show 16 * k.val + 128 ≤ (y 1).val ∧ (y 1).val < 16 * k.val + 128 + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off55_eq]
        intro a; fin_cases a
        · show 17 ≤ (y 0).val ∧ (y 0).val < 17 + 1
          omega
        · show 16 * k.val + 128 ≤ (y 1).val ∧ (y 1).val < 16 * k.val + 128 + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off56_eq]
        intro a; fin_cases a
        · show 18 ≤ (y 0).val ∧ (y 0).val < 18 + 1
          omega
        · show 16 * k.val + 128 ≤ (y 1).val ∧ (y 1).val < 16 * k.val + 128 + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off57_eq]
        intro a; fin_cases a
        · show 19 ≤ (y 0).val ∧ (y 0).val < 19 + 1
          omega
        · show 16 * k.val + 128 ≤ (y 1).val ∧ (y 1).val < 16 * k.val + 128 + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off58_eq]
        intro a; fin_cases a
        · show 20 ≤ (y 0).val ∧ (y 0).val < 20 + 1
          omega
        · show 16 * k.val + 128 ≤ (y 1).val ∧ (y 1).val < 16 * k.val + 128 + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off59_eq]
        intro a; fin_cases a
        · show 21 ≤ (y 0).val ∧ (y 0).val < 21 + 1
          omega
        · show 16 * k.val + 128 ≤ (y 1).val ∧ (y 1).val < 16 * k.val + 128 + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off60_eq]
        intro a; fin_cases a
        · show 22 ≤ (y 0).val ∧ (y 0).val < 22 + 1
          omega
        · show 16 * k.val + 128 ≤ (y 1).val ∧ (y 1).val < 16 * k.val + 128 + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off61_eq]
        intro a; fin_cases a
        · show 23 ≤ (y 0).val ∧ (y 0).val < 23 + 1
          omega
        · show 16 * k.val + 128 ≤ (y 1).val ∧ (y 1).val < 16 * k.val + 128 + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off62_eq]
        intro a; fin_cases a
        · show 24 ≤ (y 0).val ∧ (y 0).val < 24 + 1
          omega
        · show 16 * k.val + 128 ≤ (y 1).val ∧ (y 1).val < 16 * k.val + 128 + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off63_eq]
        intro a; fin_cases a
        · show 25 ≤ (y 0).val ∧ (y 0).val < 25 + 1
          omega
        · show 16 * k.val + 128 ≤ (y 1).val ∧ (y 1).val < 16 * k.val + 128 + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off64_eq]
        intro a; fin_cases a
        · show 26 ≤ (y 0).val ∧ (y 0).val < 26 + 1
          omega
        · show 16 * k.val + 128 ≤ (y 1).val ∧ (y 1).val < 16 * k.val + 128 + 16
          omega
      · have hr' : (y 0).val = 27 := hr.symm
        refine ⟨_, (List.Mem.tail _ (List.Mem.tail _ (List.Mem.tail _ (List.Mem.tail _ (List.Mem.head _))))), ?_⟩
        rw [Rect.mem_set_unit, k1_off65_eq]
        intro a; fin_cases a
        · show 27 ≤ (y 0).val ∧ (y 0).val < 27 + 1
          omega
        · show 16 * k.val + 128 ≤ (y 1).val ∧ (y 1).val < 16 * k.val + 128 + 16
          omega
      · have hr' : (y 0).val = 28 := hr.symm
        refine ⟨_, (List.Mem.tail _ (List.Mem.tail _ (List.Mem.tail _ (List.Mem.head _)))), ?_⟩
        rw [Rect.mem_set_unit, k1_off66_eq]
        intro a; fin_cases a
        · show 28 ≤ (y 0).val ∧ (y 0).val < 28 + 1
          omega
        · show 16 * k.val + 128 ≤ (y 1).val ∧ (y 1).val < 16 * k.val + 128 + 16
          omega
      · have hr' : (y 0).val = 29 := hr.symm
        refine ⟨_, (List.Mem.tail _ (List.Mem.tail _ (List.Mem.head _))), ?_⟩
        rw [Rect.mem_set_unit, k1_off67_eq]
        intro a; fin_cases a
        · show 29 ≤ (y 0).val ∧ (y 0).val < 29 + 1
          omega
        · show 16 * k.val + 128 ≤ (y 1).val ∧ (y 1).val < 16 * k.val + 128 + 16
          omega
      · have hr' : (y 0).val = 30 := hr.symm
        refine ⟨_, (List.Mem.tail _ (List.Mem.head _)), ?_⟩
        rw [Rect.mem_set_unit, k1_off68_eq]
        intro a; fin_cases a
        · show 30 ≤ (y 0).val ∧ (y 0).val < 30 + 1
          omega
        · show 16 * k.val + 128 ≤ (y 1).val ∧ (y 1).val < 16 * k.val + 128 + 16
          omega
      · have hr' : (y 0).val = 31 := hr.symm
        refine ⟨_, (List.Mem.head _), ?_⟩
        rw [Rect.mem_set_unit, k1_off69_eq]
        intro a; fin_cases a
        · show 31 ≤ (y 0).val ∧ (y 0).val < 31 + 1
          omega
        · show 16 * k.val + 128 ≤ (y 1).val ∧ (y 1).val < 16 * k.val + 128 + 16
          omega

end Tile
end Cert.Proof.KB
end
-- ==== Proof.KB.TileTripE2.lean ====
/-
  The loop over slab 2 of the staged output: trip k loads the sixteen lane words of ids 128 * 2 + 16 k .. + 15 and,
  for each of the 32 features dd, gathers from the rows buffer the entries (16 k + x, lane word + dd) and stores them
  as row dd, columns 128 * 2 + 16 k .. + 15 of the staged output. Each stored segment holds the output's entries
  (piece_ok); the 32 segments cover the sixteen new columns; earlier columns are kept.
-/
import proofs.«217943_g20899310862962_cont_8to1_1374_33_alg».proof.Proof.KB.TileInv
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

set_option maxHeartbeats 4000000 in
set_option sl_exec.dischHeartbeats 100000 in
theorem tripE2 (U : Buf (Elt F) ((thrV d L).loc cc1_scratch0)) (twc : Buf (Elt F) (twLoc d)) (v2 : BitVec 32) (k : Fin k1_t4_loop.trips)
    (fL : Buf (Elt F) ((thrV d L).loc cc1_scratch2)) (fR : Buf (Elt F) ((thrV d L).loc cc1_scratch3))
    (hL : ∀ y, (sLane).view.read (Elt F) fL y = laneW d L U y) (hLb : ∀ y, (laneW d L U y).toNat ≤ 96)
    (hR : ∀ y, (sRA).view.read (Elt F) fR y = Grow d L U twc 2 y) :
    invE2 d L U twc fL fR k.val ⟨⟩
      ⊢ wp frame (wpE (defs₀ (F := F)) 𝒱₀ (thrV d L) none) Set.univ
          (k1_t4_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE2 d L U twc fL fR (k.val + 1)) := by
  have hk : k.val < 8 := lt_of_lt_of_le k.isLt k1_t4_abs.2.1
  have h63 : ∀ x : S16.Idx, (k1_pay67 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay67 (iota .scVector S16 32 [0] iota_S16_d0_w32_scVector) 0#32 1#32 k, addi ((sLane).view.readAt (Elt F) (Rect.unit (s := S512) (k1_off70 k) S16.size (k1_off70_inb k)).toLoadRect fL) (broadcast S16 c)] : Fin 2 → IVec S16 32) a x).toNat < S128x128.size a := by
    intro c hc a x
    have hx : (x 0).val < 16 := (x 0).isLt
    fin_cases a
    · show (k1_pay67 (iota .scVector S16 32 [0] iota_S16_d0_w32_scVector) 0#32 1#32 k x).toNat < 128
      rw [h63]; omega
    · show (IntOp.addi ((sLane).view.read (Elt F) fL ((Rect.unit (s := S512) (k1_off70 k) S16.size (k1_off70_inb k)).toLoadRect.idx x)) c).toNat < 128
      rw [hL, addw_toNat _ _ (hLb _) hc]
      have := hLb ((Rect.unit (s := S512) (k1_off70 k) S16.size (k1_off70_inb k)).toLoadRect.idx x)
      omega
  unfold k1_t4_body
  simp only [k1_part13_eq_skeleton, k1_part14_eq_skeleton, k1_part15_eq_skeleton, k1_part16_eq_skeleton, k1_part17_eq_skeleton, k1_part18_eq_skeleton]
  unfold k1_part13_skel k1_part14_skel k1_part15_skel k1_part16_skel k1_part17_skel k1_part18_skel
  simp only [SparseCore.vectorLoadIdx_bind (thrV d L)]
  unfold invE2
  iintro ⟨HL, HR, ⟨%fO, HOut, %hO⟩⟩
  sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm)
  repeat (sl_rw [SparseCore.vectorLoadIdx_bind (thrV d L)]; sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 256 + 16 * k.val)
  refine key _ ?hw hO y ?cov
  case hw =>
    intro p hp
    rcases List.mem_cons.1 hp with rfl | hp
    · intro x
      exact piece_ok d L U twc 2 k.val 31 (16 * k.val + 256) (by omega) hk (by omega) (by omega) _ _ hR _ hL hLb _ h63 _ (k1_off70_eq k) (k1_off70_inb k) 31#32 rfl _ (k1_off102_eq k) (k1_off102_inb k) _ x
    rcases List.mem_cons.1 hp with rfl | hp
    · intro x
      exact piece_ok d L U twc 2 k.val 30 (16 * k.val + 256) (by omega) hk (by omega) (by omega) _ _ hR _ hL hLb _ h63 _ (k1_off70_eq k) (k1_off70_inb k) 30#32 rfl _ (k1_off101_eq k) (k1_off101_inb k) _ x
    rcases List.mem_cons.1 hp with rfl | hp
    · intro x
      exact piece_ok d L U twc 2 k.val 29 (16 * k.val + 256) (by omega) hk (by omega) (by omega) _ _ hR _ hL hLb _ h63 _ (k1_off70_eq k) (k1_off70_inb k) 29#32 rfl _ (k1_off100_eq k) (k1_off100_inb k) _ x
    rcases List.mem_cons.1 hp with rfl | hp
    · intro x
      exact piece_ok d L U twc 2 k.val 28 (16 * k.val + 256) (by omega) hk (by omega) (by omega) _ _ hR _ hL hLb _ h63 _ (k1_off70_eq k) (k1_off70_inb k) 28#32 rfl _ (k1_off99_eq k) (k1_off99_inb k) _ x
    rcases List.mem_cons.1 hp with rfl | hp
    · intro x
      exact piece_ok d L U twc 2 k.val 27 (16 * k.val + 256) (by omega) hk (by omega) (by omega) _ _ hR _ hL hLb _ h63 _ (k1_off70_eq k) (k1_off70_inb k) 27#32 rfl _ (k1_off98_eq k) (k1_off98_inb k) _ x
    rcases List.mem_cons.1 hp with rfl | hp
    · intro x
      exact piece_ok d L U twc 2 k.val 26 (16 * k.val + 256) (by omega) hk (by omega) (by omega) _ _ hR _ hL hLb _ h63 _ (k1_off70_eq k) (k1_off70_inb k) 26#32 rfl _ (k1_off97_eq k) (k1_off97_inb k) _ x
    rcases List.mem_cons.1 hp with rfl | hp
    · intro x
      exact piece_ok d L U twc 2 k.val 25 (16 * k.val + 256) (by omega) hk (by omega) (by omega) _ _ hR _ hL hLb _ h63 _ (k1_off70_eq k) (k1_off70_inb k) 25#32 rfl _ (k1_off96_eq k) (k1_off96_inb k) _ x
    rcases List.mem_cons.1 hp with rfl | hp
    · intro x
      exact piece_ok d L U twc 2 k.val 24 (16 * k.val + 256) (by omega) hk (by omega) (by omega) _ _ hR _ hL hLb _ h63 _ (k1_off70_eq k) (k1_off70_inb k) 24#32 rfl _ (k1_off95_eq k) (k1_off95_inb k) _ x
    rcases List.mem_cons.1 hp with rfl | hp
    · intro x
      exact piece_ok d L U twc 2 k.val 23 (16 * k.val + 256) (by omega) hk (by omega) (by omega) _ _ hR _ hL hLb _ h63 _ (k1_off70_eq k) (k1_off70_inb k) 23#32 rfl _ (k1_off94_eq k) (k1_off94_inb k) _ x
    rcases List.mem_cons.1 hp with rfl | hp
    · intro x
      exact piece_ok d L U twc 2 k.val 22 (16 * k.val + 256) (by omega) hk (by omega) (by omega) _ _ hR _ hL hLb _ h63 _ (k1_off70_eq k) (k1_off70_inb k) 22#32 rfl _ (k1_off93_eq k) (k1_off93_inb k) _ x
    rcases List.mem_cons.1 hp with rfl | hp
    · intro x
      exact piece_ok d L U twc 2 k.val 21 (16 * k.val + 256) (by omega) hk (by omega) (by omega) _ _ hR _ hL hLb _ h63 _ (k1_off70_eq k) (k1_off70_inb k) 21#32 rfl _ (k1_off92_eq k) (k1_off92_inb k) _ x
    rcases List.mem_cons.1 hp with rfl | hp
    · intro x
      exact piece_ok d L U twc 2 k.val 20 (16 * k.val + 256) (by omega) hk (by omega) (by omega) _ _ hR _ hL hLb _ h63 _ (k1_off70_eq k) (k1_off70_inb k) 20#32 rfl _ (k1_off91_eq k) (k1_off91_inb k) _ x
    rcases List.mem_cons.1 hp with rfl | hp
    · intro x
      exact piece_ok d L U twc 2 k.val 19 (16 * k.val + 256) (by omega) hk (by omega) (by omega) _ _ hR _ hL hLb _ h63 _ (k1_off70_eq k) (k1_off70_inb k) 19#32 rfl _ (k1_off90_eq k) (k1_off90_inb k) _ x
    rcases List.mem_cons.1 hp with rfl | hp
    · intro x
      exact piece_ok d L U twc 2 k.val 18 (16 * k.val + 256) (by omega) hk (by omega) (by omega) _ _ hR _ hL hLb _ h63 _ (k1_off70_eq k) (k1_off70_inb k) 18#32 rfl _ (k1_off89_eq k) (k1_off89_inb k) _ x
    rcases List.mem_cons.1 hp with rfl | hp
    · intro x
      exact piece_ok d L U twc 2 k.val 17 (16 * k.val + 256) (by omega) hk (by omega) (by omega) _ _ hR _ hL hLb _ h63 _ (k1_off70_eq k) (k1_off70_inb k) 17#32 rfl _ (k1_off88_eq k) (k1_off88_inb k) _ x
    rcases List.mem_cons.1 hp with rfl | hp
    · intro x
      exact piece_ok d L U twc 2 k.val 16 (16 * k.val + 256) (by omega) hk (by omega) (by omega) _ _ hR _ hL hLb _ h63 _ (k1_off70_eq k) (k1_off70_inb k) 16#32 rfl _ (k1_off87_eq k) (k1_off87_inb k) _ x
    rcases List.mem_cons.1 hp with rfl | hp
    · intro x
      exact piece_ok d L U twc 2 k.val 15 (16 * k.val + 256) (by omega) hk (by omega) (by omega) _ _ hR _ hL hLb _ h63 _ (k1_off70_eq k) (k1_off70_inb k) 15#32 rfl _ (k1_off86_eq k) (k1_off86_inb k) _ x
    rcases List.mem_cons.1 hp with rfl | hp
    · intro x
      exact piece_ok d L U twc 2 k.val 14 (16 * k.val + 256) (by omega) hk (by omega) (by omega) _ _ hR _ hL hLb _ h63 _ (k1_off70_eq k) (k1_off70_inb k) 14#32 rfl _ (k1_off85_eq k) (k1_off85_inb k) _ x
    rcases List.mem_cons.1 hp with rfl | hp
    · intro x
      exact piece_ok d L U twc 2 k.val 13 (16 * k.val + 256) (by omega) hk (by omega) (by omega) _ _ hR _ hL hLb _ h63 _ (k1_off70_eq k) (k1_off70_inb k) 13#32 rfl _ (k1_off84_eq k) (k1_off84_inb k) _ x
    rcases List.mem_cons.1 hp with rfl | hp
    · intro x
      exact piece_ok d L U twc 2 k.val 12 (16 * k.val + 256) (by omega) hk (by omega) (by omega) _ _ hR _ hL hLb _ h63 _ (k1_off70_eq k) (k1_off70_inb k) 12#32 rfl _ (k1_off83_eq k) (k1_off83_inb k) _ x
    rcases List.mem_cons.1 hp with rfl | hp
    · intro x
      exact piece_ok d L U twc 2 k.val 11 (16 * k.val + 256) (by omega) hk (by omega) (by omega) _ _ hR _ hL hLb _ h63 _ (k1_off70_eq k) (k1_off70_inb k) 11#32 rfl _ (k1_off82_eq k) (k1_off82_inb k) _ x
    rcases List.mem_cons.1 hp with rfl | hp
    · intro x
      exact piece_ok d L U twc 2 k.val 10 (16 * k.val + 256) (by omega) hk (by omega) (by omega) _ _ hR _ hL hLb _ h63 _ (k1_off70_eq k) (k1_off70_inb k) 10#32 rfl _ (k1_off81_eq k) (k1_off81_inb k) _ x
    rcases List.mem_cons.1 hp with rfl | hp
    · intro x
      exact piece_ok d L U twc 2 k.val 9 (16 * k.val + 256) (by omega) hk (by omega) (by omega) _ _ hR _ hL hLb _ h63 _ (k1_off70_eq k) (k1_off70_inb k) 9#32 rfl _ (k1_off80_eq k) (k1_off80_inb k) _ x
    rcases List.mem_cons.1 hp with rfl | hp
    · intro x
      exact piece_ok d L U twc 2 k.val 8 (16 * k.val + 256) (by omega) hk (by omega) (by omega) _ _ hR _ hL hLb _ h63 _ (k1_off70_eq k) (k1_off70_inb k) 8#32 rfl _ (k1_off79_eq k) (k1_off79_inb k) _ x
    rcases List.mem_cons.1 hp with rfl | hp
    · intro x
      exact piece_ok d L U twc 2 k.val 7 (16 * k.val + 256) (by omega) hk (by omega) (by omega) _ _ hR _ hL hLb _ h63 _ (k1_off70_eq k) (k1_off70_inb k) 7#32 rfl _ (k1_off78_eq k) (k1_off78_inb k) _ x
    rcases List.mem_cons.1 hp with rfl | hp
    · intro x
      exact piece_ok d L U twc 2 k.val 6 (16 * k.val + 256) (by omega) hk (by omega) (by omega) _ _ hR _ hL hLb _ h63 _ (k1_off70_eq k) (k1_off70_inb k) 6#32 rfl _ (k1_off77_eq k) (k1_off77_inb k) _ x
    rcases List.mem_cons.1 hp with rfl | hp
    · intro x
      exact piece_ok d L U twc 2 k.val 5 (16 * k.val + 256) (by omega) hk (by omega) (by omega) _ _ hR _ hL hLb _ h63 _ (k1_off70_eq k) (k1_off70_inb k) 5#32 rfl _ (k1_off76_eq k) (k1_off76_inb k) _ x
    rcases List.mem_cons.1 hp with rfl | hp
    · intro x
      exact piece_ok d L U twc 2 k.val 4 (16 * k.val + 256) (by omega) hk (by omega) (by omega) _ _ hR _ hL hLb _ h63 _ (k1_off70_eq k) (k1_off70_inb k) 4#32 rfl _ (k1_off75_eq k) (k1_off75_inb k) _ x
    rcases List.mem_cons.1 hp with rfl | hp
    · intro x
      exact piece_ok d L U twc 2 k.val 3 (16 * k.val + 256) (by omega) hk (by omega) (by omega) _ _ hR _ hL hLb _ h63 _ (k1_off70_eq k) (k1_off70_inb k) 3#32 rfl _ (k1_off74_eq k) (k1_off74_inb k) _ x
    rcases List.mem_cons.1 hp with rfl | hp
    · intro x
      exact piece_ok d L U twc 2 k.val 2 (16 * k.val + 256) (by omega) hk (by omega) (by omega) _ _ hR _ hL hLb _ h63 _ (k1_off70_eq k) (k1_off70_inb k) 2#32 rfl _ (k1_off73_eq k) (k1_off73_inb k) _ x
    rcases List.mem_cons.1 hp with rfl | hp
    · intro x
      exact piece_ok d L U twc 2 k.val 1 (16 * k.val + 256) (by omega) hk (by omega) (by omega) _ _ hR _ hL hLb _ h63 _ (k1_off70_eq k) (k1_off70_inb k) 1#32 rfl _ (k1_off72_eq k) (k1_off72_inb k) _ x
    rcases List.mem_cons.1 hp with rfl | hp
    · intro x
      exact piece_ok d L U twc 2 k.val 0 (16 * k.val + 256) (by omega) hk (by omega) (by omega) _ _ hR _ hL hLb _ h63 _ (k1_off70_eq k) (k1_off70_inb k) 0#32 rfl _ (k1_off71_eq k) (k1_off71_inb k) _ x
    cases hp
  case cov =>
    by_cases h : (y 1).val < 256 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off71_eq]
        intro a; fin_cases a
        · show 0 ≤ (y 0).val ∧ (y 0).val < 0 + 1
          omega
        · show 16 * k.val + 256 ≤ (y 1).val ∧ (y 1).val < 16 * k.val + 256 + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off72_eq]
        intro a; fin_cases a
        · show 1 ≤ (y 0).val ∧ (y 0).val < 1 + 1
          omega
        · show 16 * k.val + 256 ≤ (y 1).val ∧ (y 1).val < 16 * k.val + 256 + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off73_eq]
        intro a; fin_cases a
        · show 2 ≤ (y 0).val ∧ (y 0).val < 2 + 1
          omega
        · show 16 * k.val + 256 ≤ (y 1).val ∧ (y 1).val < 16 * k.val + 256 + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off74_eq]
        intro a; fin_cases a
        · show 3 ≤ (y 0).val ∧ (y 0).val < 3 + 1
          omega
        · show 16 * k.val + 256 ≤ (y 1).val ∧ (y 1).val < 16 * k.val + 256 + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off75_eq]
        intro a; fin_cases a
        · show 4 ≤ (y 0).val ∧ (y 0).val < 4 + 1
          omega
        · show 16 * k.val + 256 ≤ (y 1).val ∧ (y 1).val < 16 * k.val + 256 + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off76_eq]
        intro a; fin_cases a
        · show 5 ≤ (y 0).val ∧ (y 0).val < 5 + 1
          omega
        · show 16 * k.val + 256 ≤ (y 1).val ∧ (y 1).val < 16 * k.val + 256 + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off77_eq]
        intro a; fin_cases a
        · show 6 ≤ (y 0).val ∧ (y 0).val < 6 + 1
          omega
        · show 16 * k.val + 256 ≤ (y 1).val ∧ (y 1).val < 16 * k.val + 256 + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off78_eq]
        intro a; fin_cases a
        · show 7 ≤ (y 0).val ∧ (y 0).val < 7 + 1
          omega
        · show 16 * k.val + 256 ≤ (y 1).val ∧ (y 1).val < 16 * k.val + 256 + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off79_eq]
        intro a; fin_cases a
        · show 8 ≤ (y 0).val ∧ (y 0).val < 8 + 1
          omega
        · show 16 * k.val + 256 ≤ (y 1).val ∧ (y 1).val < 16 * k.val + 256 + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off80_eq]
        intro a; fin_cases a
        · show 9 ≤ (y 0).val ∧ (y 0).val < 9 + 1
          omega
        · show 16 * k.val + 256 ≤ (y 1).val ∧ (y 1).val < 16 * k.val + 256 + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off81_eq]
        intro a; fin_cases a
        · show 10 ≤ (y 0).val ∧ (y 0).val < 10 + 1
          omega
        · show 16 * k.val + 256 ≤ (y 1).val ∧ (y 1).val < 16 * k.val + 256 + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off82_eq]
        intro a; fin_cases a
        · show 11 ≤ (y 0).val ∧ (y 0).val < 11 + 1
          omega
        · show 16 * k.val + 256 ≤ (y 1).val ∧ (y 1).val < 16 * k.val + 256 + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off83_eq]
        intro a; fin_cases a
        · show 12 ≤ (y 0).val ∧ (y 0).val < 12 + 1
          omega
        · show 16 * k.val + 256 ≤ (y 1).val ∧ (y 1).val < 16 * k.val + 256 + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off84_eq]
        intro a; fin_cases a
        · show 13 ≤ (y 0).val ∧ (y 0).val < 13 + 1
          omega
        · show 16 * k.val + 256 ≤ (y 1).val ∧ (y 1).val < 16 * k.val + 256 + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off85_eq]
        intro a; fin_cases a
        · show 14 ≤ (y 0).val ∧ (y 0).val < 14 + 1
          omega
        · show 16 * k.val + 256 ≤ (y 1).val ∧ (y 1).val < 16 * k.val + 256 + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off86_eq]
        intro a; fin_cases a
        · show 15 ≤ (y 0).val ∧ (y 0).val < 15 + 1
          omega
        · show 16 * k.val + 256 ≤ (y 1).val ∧ (y 1).val < 16 * k.val + 256 + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off87_eq]
        intro a; fin_cases a
        · show 16 ≤ (y 0).val ∧ (y 0).val < 16 + 1
          omega
        · show 16 * k.val + 256 ≤ (y 1).val ∧ (y 1).val < 16 * k.val + 256 + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off88_eq]
        intro a; fin_cases a
        · show 17 ≤ (y 0).val ∧ (y 0).val < 17 + 1
          omega
        · show 16 * k.val + 256 ≤ (y 1).val ∧ (y 1).val < 16 * k.val + 256 + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off89_eq]
        intro a; fin_cases a
        · show 18 ≤ (y 0).val ∧ (y 0).val < 18 + 1
          omega
        · show 16 * k.val + 256 ≤ (y 1).val ∧ (y 1).val < 16 * k.val + 256 + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off90_eq]
        intro a; fin_cases a
        · show 19 ≤ (y 0).val ∧ (y 0).val < 19 + 1
          omega
        · show 16 * k.val + 256 ≤ (y 1).val ∧ (y 1).val < 16 * k.val + 256 + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off91_eq]
        intro a; fin_cases a
        · show 20 ≤ (y 0).val ∧ (y 0).val < 20 + 1
          omega
        · show 16 * k.val + 256 ≤ (y 1).val ∧ (y 1).val < 16 * k.val + 256 + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off92_eq]
        intro a; fin_cases a
        · show 21 ≤ (y 0).val ∧ (y 0).val < 21 + 1
          omega
        · show 16 * k.val + 256 ≤ (y 1).val ∧ (y 1).val < 16 * k.val + 256 + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off93_eq]
        intro a; fin_cases a
        · show 22 ≤ (y 0).val ∧ (y 0).val < 22 + 1
          omega
        · show 16 * k.val + 256 ≤ (y 1).val ∧ (y 1).val < 16 * k.val + 256 + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off94_eq]
        intro a; fin_cases a
        · show 23 ≤ (y 0).val ∧ (y 0).val < 23 + 1
          omega
        · show 16 * k.val + 256 ≤ (y 1).val ∧ (y 1).val < 16 * k.val + 256 + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off95_eq]
        intro a; fin_cases a
        · show 24 ≤ (y 0).val ∧ (y 0).val < 24 + 1
          omega
        · show 16 * k.val + 256 ≤ (y 1).val ∧ (y 1).val < 16 * k.val + 256 + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off96_eq]
        intro a; fin_cases a
        · show 25 ≤ (y 0).val ∧ (y 0).val < 25 + 1
          omega
        · show 16 * k.val + 256 ≤ (y 1).val ∧ (y 1).val < 16 * k.val + 256 + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off97_eq]
        intro a; fin_cases a
        · show 26 ≤ (y 0).val ∧ (y 0).val < 26 + 1
          omega
        · show 16 * k.val + 256 ≤ (y 1).val ∧ (y 1).val < 16 * k.val + 256 + 16
          omega
      · have hr' : (y 0).val = 27 := hr.symm
        refine ⟨_, (List.Mem.tail _ (List.Mem.tail _ (List.Mem.tail _ (List.Mem.tail _ (List.Mem.head _))))), ?_⟩
        rw [Rect.mem_set_unit, k1_off98_eq]
        intro a; fin_cases a
        · show 27 ≤ (y 0).val ∧ (y 0).val < 27 + 1
          omega
        · show 16 * k.val + 256 ≤ (y 1).val ∧ (y 1).val < 16 * k.val + 256 + 16
          omega
      · have hr' : (y 0).val = 28 := hr.symm
        refine ⟨_, (List.Mem.tail _ (List.Mem.tail _ (List.Mem.tail _ (List.Mem.head _)))), ?_⟩
        rw [Rect.mem_set_unit, k1_off99_eq]
        intro a; fin_cases a
        · show 28 ≤ (y 0).val ∧ (y 0).val < 28 + 1
          omega
        · show 16 * k.val + 256 ≤ (y 1).val ∧ (y 1).val < 16 * k.val + 256 + 16
          omega
      · have hr' : (y 0).val = 29 := hr.symm
        refine ⟨_, (List.Mem.tail _ (List.Mem.tail _ (List.Mem.head _))), ?_⟩
        rw [Rect.mem_set_unit, k1_off100_eq]
        intro a; fin_cases a
        · show 29 ≤ (y 0).val ∧ (y 0).val < 29 + 1
          omega
        · show 16 * k.val + 256 ≤ (y 1).val ∧ (y 1).val < 16 * k.val + 256 + 16
          omega
      · have hr' : (y 0).val = 30 := hr.symm
        refine ⟨_, (List.Mem.tail _ (List.Mem.head _)), ?_⟩
        rw [Rect.mem_set_unit, k1_off101_eq]
        intro a; fin_cases a
        · show 30 ≤ (y 0).val ∧ (y 0).val < 30 + 1
          omega
        · show 16 * k.val + 256 ≤ (y 1).val ∧ (y 1).val < 16 * k.val + 256 + 16
          omega
      · have hr' : (y 0).val = 31 := hr.symm
        refine ⟨_, (List.Mem.head _), ?_⟩
        rw [Rect.mem_set_unit, k1_off102_eq]
        intro a; fin_cases a
        · show 31 ≤ (y 0).val ∧ (y 0).val < 31 + 1
          omega
        · show 16 * k.val + 256 ≤ (y 1).val ∧ (y 1).val < 16 * k.val + 256 + 16
          omega

end Tile
end Cert.Proof.KB
end
-- ==== Proof.KB.TileTripE3.lean ====
/-
  The loop over slab 3 of the staged output: trip k loads the sixteen lane words of ids 128 * 3 + 16 k .. + 15 and,
  for each of the 32 features dd, gathers from the rows buffer the entries (16 k + x, lane word + dd) and stores them
  as row dd, columns 128 * 3 + 16 k .. + 15 of the staged output. Each stored segment holds the output's entries
  (piece_ok); the 32 segments cover the sixteen new columns; earlier columns are kept.
-/
import proofs.«217943_g20899310862962_cont_8to1_1374_33_alg».proof.Proof.KB.TileInv
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

set_option maxHeartbeats 4000000 in
set_option sl_exec.dischHeartbeats 100000 in
theorem tripE3 (U : Buf (Elt F) ((thrV d L).loc cc1_scratch0)) (twc : Buf (Elt F) (twLoc d)) (v2 : BitVec 32) (k : Fin k1_t5_loop.trips)
    (fL : Buf (Elt F) ((thrV d L).loc cc1_scratch2)) (fR : Buf (Elt F) ((thrV d L).loc cc1_scratch4))
    (hL : ∀ y, (sLane).view.read (Elt F) fL y = laneW d L U y) (hLb : ∀ y, (laneW d L U y).toNat ≤ 96)
    (hR : ∀ y, (sRB).view.read (Elt F) fR y = Grow d L U twc 3 y) :
    invE3 d L U twc fL fR k.val ⟨⟩
      ⊢ wp frame (wpE (defs₀ (F := F)) 𝒱₀ (thrV d L) none) Set.univ
          (k1_t5_body L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0 v2 (iota .scVector S16 32 [0] iota_S16_d0_w32_scVector) k ⟨⟩)
          (invE3 d L U twc fL fR (k.val + 1)) := by
  have hk : k.val < 8 := lt_of_lt_of_le k.isLt k1_t5_abs.2.1
  have h63 : ∀ x : S16.Idx, (k1_pay100 (iota .scVector S16 32 [0] iota_S16_d0_w32_scVector) 0#32 1#32 k x).toNat = 16 * k.val + (x 0).val := fun x => rows_toNat k.val hk x
  have hchk : ∀ (c : BitVec 32), c.toNat < 32 → ∀ a x, ((![k1_pay100 (iota .scVector S16 32 [0] iota_S16_d0_w32_scVector) 0#32 1#32 k, addi ((sLane).view.readAt (Elt F) (Rect.unit (s := S512) (k1_off103 k) S16.size (k1_off103_inb k)).toLoadRect fL) (broadcast S16 c)] : Fin 2 → IVec S16 32) a x).toNat < S128x128.size a := by
    intro c hc a x
    have hx : (x 0).val < 16 := (x 0).isLt
    fin_cases a
    · show (k1_pay100 (iota .scVector S16 32 [0] iota_S16_d0_w32_scVector) 0#32 1#32 k x).toNat < 128
      rw [h63]; omega
    · show (IntOp.addi ((sLane).view.read (Elt F) fL ((Rect.unit (s := S512) (k1_off103 k) S16.size (k1_off103_inb k)).toLoadRect.idx x)) c).toNat < 128
      rw [hL, addw_toNat _ _ (hLb _) hc]
      have := hLb ((Rect.unit (s := S512) (k1_off103 k) S16.size (k1_off103_inb k)).toLoadRect.idx x)
      omega
  unfold k1_t5_body
  simp only [k1_part19_eq_skeleton, k1_part20_eq_skeleton, k1_part21_eq_skeleton, k1_part22_eq_skeleton, k1_part23_eq_skeleton, k1_part24_eq_skeleton]
  unfold k1_part19_skel k1_part20_skel k1_part21_skel k1_part22_skel k1_part23_skel k1_part24_skel
  simp only [SparseCore.vectorLoadIdx_bind (thrV d L)]
  unfold invE3
  iintro ⟨HL, HR, ⟨%fO, HOut, %hO⟩⟩
  sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm)
  repeat (sl_rw [SparseCore.vectorLoadIdx_bind (thrV d L)]; sl_exec (disch := first | exact hchk _ (by decide) | with_reducible exact out_disj _ _ _ _ _ _ _ ClosedOff.eq (by omega) | with_reducible exact out_disjA _ _ _ _ _ _ _ ClosedOff.eq (by omega) | with_reducible exact (out_disjA _ _ _ _ _ _ _ ClosedOff.eq (by omega)).symm | with_reducible exact (out_disj _ _ _ _ _ _ _ ClosedOff.eq (by omega)).symm))
  sl_step
  isplitl [HL]; · iexact HL
  isplitl [HR]; · iexact HR
  iexists _; isplitl [HOut]; · iexact HOut
  ipureintro
  intro y hy
  have key := read_writes_list (Val := Elt F) (sOut).view fO (Gout d L U twc) (fun y : S32x512.Idx => (y 1).val < 384 + 16 * k.val)
  refine key _ ?hw hO y ?cov
  case hw =>
    intro p hp
    rcases List.mem_cons.1 hp with rfl | hp
    · intro x
      exact piece_ok d L U twc 3 k.val 31 (16 * k.val + 384) (by omega) hk (by omega) (by omega) _ _ hR _ hL hLb _ h63 _ (k1_off103_eq k) (k1_off103_inb k) 31#32 rfl _ (k1_off135_eq k) (k1_off135_inb k) _ x
    rcases List.mem_cons.1 hp with rfl | hp
    · intro x
      exact piece_ok d L U twc 3 k.val 30 (16 * k.val + 384) (by omega) hk (by omega) (by omega) _ _ hR _ hL hLb _ h63 _ (k1_off103_eq k) (k1_off103_inb k) 30#32 rfl _ (k1_off134_eq k) (k1_off134_inb k) _ x
    rcases List.mem_cons.1 hp with rfl | hp
    · intro x
      exact piece_ok d L U twc 3 k.val 29 (16 * k.val + 384) (by omega) hk (by omega) (by omega) _ _ hR _ hL hLb _ h63 _ (k1_off103_eq k) (k1_off103_inb k) 29#32 rfl _ (k1_off133_eq k) (k1_off133_inb k) _ x
    rcases List.mem_cons.1 hp with rfl | hp
    · intro x
      exact piece_ok d L U twc 3 k.val 28 (16 * k.val + 384) (by omega) hk (by omega) (by omega) _ _ hR _ hL hLb _ h63 _ (k1_off103_eq k) (k1_off103_inb k) 28#32 rfl _ (k1_off132_eq k) (k1_off132_inb k) _ x
    rcases List.mem_cons.1 hp with rfl | hp
    · intro x
      exact piece_ok d L U twc 3 k.val 27 (16 * k.val + 384) (by omega) hk (by omega) (by omega) _ _ hR _ hL hLb _ h63 _ (k1_off103_eq k) (k1_off103_inb k) 27#32 rfl _ (k1_off131_eq k) (k1_off131_inb k) _ x
    rcases List.mem_cons.1 hp with rfl | hp
    · intro x
      exact piece_ok d L U twc 3 k.val 26 (16 * k.val + 384) (by omega) hk (by omega) (by omega) _ _ hR _ hL hLb _ h63 _ (k1_off103_eq k) (k1_off103_inb k) 26#32 rfl _ (k1_off130_eq k) (k1_off130_inb k) _ x
    rcases List.mem_cons.1 hp with rfl | hp
    · intro x
      exact piece_ok d L U twc 3 k.val 25 (16 * k.val + 384) (by omega) hk (by omega) (by omega) _ _ hR _ hL hLb _ h63 _ (k1_off103_eq k) (k1_off103_inb k) 25#32 rfl _ (k1_off129_eq k) (k1_off129_inb k) _ x
    rcases List.mem_cons.1 hp with rfl | hp
    · intro x
      exact piece_ok d L U twc 3 k.val 24 (16 * k.val + 384) (by omega) hk (by omega) (by omega) _ _ hR _ hL hLb _ h63 _ (k1_off103_eq k) (k1_off103_inb k) 24#32 rfl _ (k1_off128_eq k) (k1_off128_inb k) _ x
    rcases List.mem_cons.1 hp with rfl | hp
    · intro x
      exact piece_ok d L U twc 3 k.val 23 (16 * k.val + 384) (by omega) hk (by omega) (by omega) _ _ hR _ hL hLb _ h63 _ (k1_off103_eq k) (k1_off103_inb k) 23#32 rfl _ (k1_off127_eq k) (k1_off127_inb k) _ x
    rcases List.mem_cons.1 hp with rfl | hp
    · intro x
      exact piece_ok d L U twc 3 k.val 22 (16 * k.val + 384) (by omega) hk (by omega) (by omega) _ _ hR _ hL hLb _ h63 _ (k1_off103_eq k) (k1_off103_inb k) 22#32 rfl _ (k1_off126_eq k) (k1_off126_inb k) _ x
    rcases List.mem_cons.1 hp with rfl | hp
    · intro x
      exact piece_ok d L U twc 3 k.val 21 (16 * k.val + 384) (by omega) hk (by omega) (by omega) _ _ hR _ hL hLb _ h63 _ (k1_off103_eq k) (k1_off103_inb k) 21#32 rfl _ (k1_off125_eq k) (k1_off125_inb k) _ x
    rcases List.mem_cons.1 hp with rfl | hp
    · intro x
      exact piece_ok d L U twc 3 k.val 20 (16 * k.val + 384) (by omega) hk (by omega) (by omega) _ _ hR _ hL hLb _ h63 _ (k1_off103_eq k) (k1_off103_inb k) 20#32 rfl _ (k1_off124_eq k) (k1_off124_inb k) _ x
    rcases List.mem_cons.1 hp with rfl | hp
    · intro x
      exact piece_ok d L U twc 3 k.val 19 (16 * k.val + 384) (by omega) hk (by omega) (by omega) _ _ hR _ hL hLb _ h63 _ (k1_off103_eq k) (k1_off103_inb k) 19#32 rfl _ (k1_off123_eq k) (k1_off123_inb k) _ x
    rcases List.mem_cons.1 hp with rfl | hp
    · intro x
      exact piece_ok d L U twc 3 k.val 18 (16 * k.val + 384) (by omega) hk (by omega) (by omega) _ _ hR _ hL hLb _ h63 _ (k1_off103_eq k) (k1_off103_inb k) 18#32 rfl _ (k1_off122_eq k) (k1_off122_inb k) _ x
    rcases List.mem_cons.1 hp with rfl | hp
    · intro x
      exact piece_ok d L U twc 3 k.val 17 (16 * k.val + 384) (by omega) hk (by omega) (by omega) _ _ hR _ hL hLb _ h63 _ (k1_off103_eq k) (k1_off103_inb k) 17#32 rfl _ (k1_off121_eq k) (k1_off121_inb k) _ x
    rcases List.mem_cons.1 hp with rfl | hp
    · intro x
      exact piece_ok d L U twc 3 k.val 16 (16 * k.val + 384) (by omega) hk (by omega) (by omega) _ _ hR _ hL hLb _ h63 _ (k1_off103_eq k) (k1_off103_inb k) 16#32 rfl _ (k1_off120_eq k) (k1_off120_inb k) _ x
    rcases List.mem_cons.1 hp with rfl | hp
    · intro x
      exact piece_ok d L U twc 3 k.val 15 (16 * k.val + 384) (by omega) hk (by omega) (by omega) _ _ hR _ hL hLb _ h63 _ (k1_off103_eq k) (k1_off103_inb k) 15#32 rfl _ (k1_off119_eq k) (k1_off119_inb k) _ x
    rcases List.mem_cons.1 hp with rfl | hp
    · intro x
      exact piece_ok d L U twc 3 k.val 14 (16 * k.val + 384) (by omega) hk (by omega) (by omega) _ _ hR _ hL hLb _ h63 _ (k1_off103_eq k) (k1_off103_inb k) 14#32 rfl _ (k1_off118_eq k) (k1_off118_inb k) _ x
    rcases List.mem_cons.1 hp with rfl | hp
    · intro x
      exact piece_ok d L U twc 3 k.val 13 (16 * k.val + 384) (by omega) hk (by omega) (by omega) _ _ hR _ hL hLb _ h63 _ (k1_off103_eq k) (k1_off103_inb k) 13#32 rfl _ (k1_off117_eq k) (k1_off117_inb k) _ x
    rcases List.mem_cons.1 hp with rfl | hp
    · intro x
      exact piece_ok d L U twc 3 k.val 12 (16 * k.val + 384) (by omega) hk (by omega) (by omega) _ _ hR _ hL hLb _ h63 _ (k1_off103_eq k) (k1_off103_inb k) 12#32 rfl _ (k1_off116_eq k) (k1_off116_inb k) _ x
    rcases List.mem_cons.1 hp with rfl | hp
    · intro x
      exact piece_ok d L U twc 3 k.val 11 (16 * k.val + 384) (by omega) hk (by omega) (by omega) _ _ hR _ hL hLb _ h63 _ (k1_off103_eq k) (k1_off103_inb k) 11#32 rfl _ (k1_off115_eq k) (k1_off115_inb k) _ x
    rcases List.mem_cons.1 hp with rfl | hp
    · intro x
      exact piece_ok d L U twc 3 k.val 10 (16 * k.val + 384) (by omega) hk (by omega) (by omega) _ _ hR _ hL hLb _ h63 _ (k1_off103_eq k) (k1_off103_inb k) 10#32 rfl _ (k1_off114_eq k) (k1_off114_inb k) _ x
    rcases List.mem_cons.1 hp with rfl | hp
    · intro x
      exact piece_ok d L U twc 3 k.val 9 (16 * k.val + 384) (by omega) hk (by omega) (by omega) _ _ hR _ hL hLb _ h63 _ (k1_off103_eq k) (k1_off103_inb k) 9#32 rfl _ (k1_off113_eq k) (k1_off113_inb k) _ x
    rcases List.mem_cons.1 hp with rfl | hp
    · intro x
      exact piece_ok d L U twc 3 k.val 8 (16 * k.val + 384) (by omega) hk (by omega) (by omega) _ _ hR _ hL hLb _ h63 _ (k1_off103_eq k) (k1_off103_inb k) 8#32 rfl _ (k1_off112_eq k) (k1_off112_inb k) _ x
    rcases List.mem_cons.1 hp with rfl | hp
    · intro x
      exact piece_ok d L U twc 3 k.val 7 (16 * k.val + 384) (by omega) hk (by omega) (by omega) _ _ hR _ hL hLb _ h63 _ (k1_off103_eq k) (k1_off103_inb k) 7#32 rfl _ (k1_off111_eq k) (k1_off111_inb k) _ x
    rcases List.mem_cons.1 hp with rfl | hp
    · intro x
      exact piece_ok d L U twc 3 k.val 6 (16 * k.val + 384) (by omega) hk (by omega) (by omega) _ _ hR _ hL hLb _ h63 _ (k1_off103_eq k) (k1_off103_inb k) 6#32 rfl _ (k1_off110_eq k) (k1_off110_inb k) _ x
    rcases List.mem_cons.1 hp with rfl | hp
    · intro x
      exact piece_ok d L U twc 3 k.val 5 (16 * k.val + 384) (by omega) hk (by omega) (by omega) _ _ hR _ hL hLb _ h63 _ (k1_off103_eq k) (k1_off103_inb k) 5#32 rfl _ (k1_off109_eq k) (k1_off109_inb k) _ x
    rcases List.mem_cons.1 hp with rfl | hp
    · intro x
      exact piece_ok d L U twc 3 k.val 4 (16 * k.val + 384) (by omega) hk (by omega) (by omega) _ _ hR _ hL hLb _ h63 _ (k1_off103_eq k) (k1_off103_inb k) 4#32 rfl _ (k1_off108_eq k) (k1_off108_inb k) _ x
    rcases List.mem_cons.1 hp with rfl | hp
    · intro x
      exact piece_ok d L U twc 3 k.val 3 (16 * k.val + 384) (by omega) hk (by omega) (by omega) _ _ hR _ hL hLb _ h63 _ (k1_off103_eq k) (k1_off103_inb k) 3#32 rfl _ (k1_off107_eq k) (k1_off107_inb k) _ x
    rcases List.mem_cons.1 hp with rfl | hp
    · intro x
      exact piece_ok d L U twc 3 k.val 2 (16 * k.val + 384) (by omega) hk (by omega) (by omega) _ _ hR _ hL hLb _ h63 _ (k1_off103_eq k) (k1_off103_inb k) 2#32 rfl _ (k1_off106_eq k) (k1_off106_inb k) _ x
    rcases List.mem_cons.1 hp with rfl | hp
    · intro x
      exact piece_ok d L U twc 3 k.val 1 (16 * k.val + 384) (by omega) hk (by omega) (by omega) _ _ hR _ hL hLb _ h63 _ (k1_off103_eq k) (k1_off103_inb k) 1#32 rfl _ (k1_off105_eq k) (k1_off105_inb k) _ x
    rcases List.mem_cons.1 hp with rfl | hp
    · intro x
      exact piece_ok d L U twc 3 k.val 0 (16 * k.val + 384) (by omega) hk (by omega) (by omega) _ _ hR _ hL hLb _ h63 _ (k1_off103_eq k) (k1_off103_inb k) 0#32 rfl _ (k1_off104_eq k) (k1_off104_inb k) _ x
    cases hp
  case cov =>
    by_cases h : (y 1).val < 384 + 16 * k.val
    · exact .inl h
    · right
      have hy0 : (y 0).val < 32 := (y 0).isLt
      obtain ⟨r, hr⟩ : ∃ r : Fin 32, r.val = (y 0).val := ⟨⟨_, hy0⟩, rfl⟩
      fin_cases r
      · have hr' : (y 0).val = 0 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), ?_⟩
        rw [Rect.mem_set_unit, k1_off104_eq]
        intro a; fin_cases a
        · show 0 ≤ (y 0).val ∧ (y 0).val < 0 + 1
          omega
        · show 16 * k.val + 384 ≤ (y 1).val ∧ (y 1).val < 16 * k.val + 384 + 16
          omega
      · have hr' : (y 0).val = 1 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), ?_⟩
        rw [Rect.mem_set_unit, k1_off105_eq]
        intro a; fin_cases a
        · show 1 ≤ (y 0).val ∧ (y 0).val < 1 + 1
          omega
        · show 16 * k.val + 384 ≤ (y 1).val ∧ (y 1).val < 16 * k.val + 384 + 16
          omega
      · have hr' : (y 0).val = 2 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), ?_⟩
        rw [Rect.mem_set_unit, k1_off106_eq]
        intro a; fin_cases a
        · show 2 ≤ (y 0).val ∧ (y 0).val < 2 + 1
          omega
        · show 16 * k.val + 384 ≤ (y 1).val ∧ (y 1).val < 16 * k.val + 384 + 16
          omega
      · have hr' : (y 0).val = 3 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), ?_⟩
        rw [Rect.mem_set_unit, k1_off107_eq]
        intro a; fin_cases a
        · show 3 ≤ (y 0).val ∧ (y 0).val < 3 + 1
          omega
        · show 16 * k.val + 384 ≤ (y 1).val ∧ (y 1).val < 16 * k.val + 384 + 16
          omega
      · have hr' : (y 0).val = 4 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), ?_⟩
        rw [Rect.mem_set_unit, k1_off108_eq]
        intro a; fin_cases a
        · show 4 ≤ (y 0).val ∧ (y 0).val < 4 + 1
          omega
        · show 16 * k.val + 384 ≤ (y 1).val ∧ (y 1).val < 16 * k.val + 384 + 16
          omega
      · have hr' : (y 0).val = 5 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), ?_⟩
        rw [Rect.mem_set_unit, k1_off109_eq]
        intro a; fin_cases a
        · show 5 ≤ (y 0).val ∧ (y 0).val < 5 + 1
          omega
        · show 16 * k.val + 384 ≤ (y 1).val ∧ (y 1).val < 16 * k.val + 384 + 16
          omega
      · have hr' : (y 0).val = 6 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), ?_⟩
        rw [Rect.mem_set_unit, k1_off110_eq]
        intro a; fin_cases a
        · show 6 ≤ (y 0).val ∧ (y 0).val < 6 + 1
          omega
        · show 16 * k.val + 384 ≤ (y 1).val ∧ (y 1).val < 16 * k.val + 384 + 16
          omega
      · have hr' : (y 0).val = 7 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), ?_⟩
        rw [Rect.mem_set_unit, k1_off111_eq]
        intro a; fin_cases a
        · show 7 ≤ (y 0).val ∧ (y 0).val < 7 + 1
          omega
        · show 16 * k.val + 384 ≤ (y 1).val ∧ (y 1).val < 16 * k.val + 384 + 16
          omega
      · have hr' : (y 0).val = 8 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), ?_⟩
        rw [Rect.mem_set_unit, k1_off112_eq]
        intro a; fin_cases a
        · show 8 ≤ (y 0).val ∧ (y 0).val < 8 + 1
          omega
        · show 16 * k.val + 384 ≤ (y 1).val ∧ (y 1).val < 16 * k.val + 384 + 16
          omega
      · have hr' : (y 0).val = 9 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), ?_⟩
        rw [Rect.mem_set_unit, k1_off113_eq]
        intro a; fin_cases a
        · show 9 ≤ (y 0).val ∧ (y 0).val < 9 + 1
          omega
        · show 16 * k.val + 384 ≤ (y 1).val ∧ (y 1).val < 16 * k.val + 384 + 16
          omega
      · have hr' : (y 0).val = 10 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), ?_⟩
        rw [Rect.mem_set_unit, k1_off114_eq]
        intro a; fin_cases a
        · show 10 ≤ (y 0).val ∧ (y 0).val < 10 + 1
          omega
        · show 16 * k.val + 384 ≤ (y 1).val ∧ (y 1).val < 16 * k.val + 384 + 16
          omega
      · have hr' : (y 0).val = 11 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), ?_⟩
        rw [Rect.mem_set_unit, k1_off115_eq]
        intro a; fin_cases a
        · show 11 ≤ (y 0).val ∧ (y 0).val < 11 + 1
          omega
        · show 16 * k.val + 384 ≤ (y 1).val ∧ (y 1).val < 16 * k.val + 384 + 16
          omega
      · have hr' : (y 0).val = 12 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), ?_⟩
        rw [Rect.mem_set_unit, k1_off116_eq]
        intro a; fin_cases a
        · show 12 ≤ (y 0).val ∧ (y 0).val < 12 + 1
          omega
        · show 16 * k.val + 384 ≤ (y 1).val ∧ (y 1).val < 16 * k.val + 384 + 16
          omega
      · have hr' : (y 0).val = 13 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), ?_⟩
        rw [Rect.mem_set_unit, k1_off117_eq]
        intro a; fin_cases a
        · show 13 ≤ (y 0).val ∧ (y 0).val < 13 + 1
          omega
        · show 16 * k.val + 384 ≤ (y 1).val ∧ (y 1).val < 16 * k.val + 384 + 16
          omega
      · have hr' : (y 0).val = 14 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), ?_⟩
        rw [Rect.mem_set_unit, k1_off118_eq]
        intro a; fin_cases a
        · show 14 ≤ (y 0).val ∧ (y 0).val < 14 + 1
          omega
        · show 16 * k.val + 384 ≤ (y 1).val ∧ (y 1).val < 16 * k.val + 384 + 16
          omega
      · have hr' : (y 0).val = 15 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), ?_⟩
        rw [Rect.mem_set_unit, k1_off119_eq]
        intro a; fin_cases a
        · show 15 ≤ (y 0).val ∧ (y 0).val < 15 + 1
          omega
        · show 16 * k.val + 384 ≤ (y 1).val ∧ (y 1).val < 16 * k.val + 384 + 16
          omega
      · have hr' : (y 0).val = 16 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), ?_⟩
        rw [Rect.mem_set_unit, k1_off120_eq]
        intro a; fin_cases a
        · show 16 ≤ (y 0).val ∧ (y 0).val < 16 + 1
          omega
        · show 16 * k.val + 384 ≤ (y 1).val ∧ (y 1).val < 16 * k.val + 384 + 16
          omega
      · have hr' : (y 0).val = 17 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), ?_⟩
        rw [Rect.mem_set_unit, k1_off121_eq]
        intro a; fin_cases a
        · show 17 ≤ (y 0).val ∧ (y 0).val < 17 + 1
          omega
        · show 16 * k.val + 384 ≤ (y 1).val ∧ (y 1).val < 16 * k.val + 384 + 16
          omega
      · have hr' : (y 0).val = 18 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), ?_⟩
        rw [Rect.mem_set_unit, k1_off122_eq]
        intro a; fin_cases a
        · show 18 ≤ (y 0).val ∧ (y 0).val < 18 + 1
          omega
        · show 16 * k.val + 384 ≤ (y 1).val ∧ (y 1).val < 16 * k.val + 384 + 16
          omega
      · have hr' : (y 0).val = 19 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), ?_⟩
        rw [Rect.mem_set_unit, k1_off123_eq]
        intro a; fin_cases a
        · show 19 ≤ (y 0).val ∧ (y 0).val < 19 + 1
          omega
        · show 16 * k.val + 384 ≤ (y 1).val ∧ (y 1).val < 16 * k.val + 384 + 16
          omega
      · have hr' : (y 0).val = 20 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), ?_⟩
        rw [Rect.mem_set_unit, k1_off124_eq]
        intro a; fin_cases a
        · show 20 ≤ (y 0).val ∧ (y 0).val < 20 + 1
          omega
        · show 16 * k.val + 384 ≤ (y 1).val ∧ (y 1).val < 16 * k.val + 384 + 16
          omega
      · have hr' : (y 0).val = 21 := hr.symm
        refine ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), ?_⟩
        rw [Rect.mem_set_unit, k1_off125_eq]
        intro a; fin_cases a
        · show 21 ≤ (y 0).val ∧ (y 0).val < 21 + 1
          omega
        · show 16 * k.val + 384 ≤ (y 1).val ∧ (y 1).val < 16 * k.val + 384 + 16
          omega
      · have hr' : (y 0).val = 22 := hr.symm
        refine ⟨_, (List.Mem.tail _ (List.Mem.tail _ (List.Mem.tail _ (List.Mem.tail _ (List.Mem.tail _ (List.Mem.tail _ (List.Mem.tail _ (List.Mem.tail _ (List.Mem.tail _ (List.Mem.head _)))))))))), ?_⟩
        rw [Rect.mem_set_unit, k1_off126_eq]
        intro a; fin_cases a
        · show 22 ≤ (y 0).val ∧ (y 0).val < 22 + 1
          omega
        · show 16 * k.val + 384 ≤ (y 1).val ∧ (y 1).val < 16 * k.val + 384 + 16
          omega
      · have hr' : (y 0).val = 23 := hr.symm
        refine ⟨_, (List.Mem.tail _ (List.Mem.tail _ (List.Mem.tail _ (List.Mem.tail _ (List.Mem.tail _ (List.Mem.tail _ (List.Mem.tail _ (List.Mem.tail _ (List.Mem.head _))))))))), ?_⟩
        rw [Rect.mem_set_unit, k1_off127_eq]
        intro a; fin_cases a
        · show 23 ≤ (y 0).val ∧ (y 0).val < 23 + 1
          omega
        · show 16 * k.val + 384 ≤ (y 1).val ∧ (y 1).val < 16 * k.val + 384 + 16
          omega
      · have hr' : (y 0).val = 24 := hr.symm
        refine ⟨_, (List.Mem.tail _ (List.Mem.tail _ (List.Mem.tail _ (List.Mem.tail _ (List.Mem.tail _ (List.Mem.tail _ (List.Mem.tail _ (List.Mem.head _)))))))), ?_⟩
        rw [Rect.mem_set_unit, k1_off128_eq]
        intro a; fin_cases a
        · show 24 ≤ (y 0).val ∧ (y 0).val < 24 + 1
          omega
        · show 16 * k.val + 384 ≤ (y 1).val ∧ (y 1).val < 16 * k.val + 384 + 16
          omega
      · have hr' : (y 0).val = 25 := hr.symm
        refine ⟨_, (List.Mem.tail _ (List.Mem.tail _ (List.Mem.tail _ (List.Mem.tail _ (List.Mem.tail _ (List.Mem.tail _ (List.Mem.head _))))))), ?_⟩
        rw [Rect.mem_set_unit, k1_off129_eq]
        intro a; fin_cases a
        · show 25 ≤ (y 0).val ∧ (y 0).val < 25 + 1
          omega
        · show 16 * k.val + 384 ≤ (y 1).val ∧ (y 1).val < 16 * k.val + 384 + 16
          omega
      · have hr' : (y 0).val = 26 := hr.symm
        refine ⟨_, (List.Mem.tail _ (List.Mem.tail _ (List.Mem.tail _ (List.Mem.tail _ (List.Mem.tail _ (List.Mem.head _)))))), ?_⟩
        rw [Rect.mem_set_unit, k1_off130_eq]
        intro a; fin_cases a
        · show 26 ≤ (y 0).val ∧ (y 0).val < 26 + 1
          omega
        · show 16 * k.val + 384 ≤ (y 1).val ∧ (y 1).val < 16 * k.val + 384 + 16
          omega
      · have hr' : (y 0).val = 27 := hr.symm
        refine ⟨_, (List.Mem.tail _ (List.Mem.tail _ (List.Mem.tail _ (List.Mem.tail _ (List.Mem.head _))))), ?_⟩
        rw [Rect.mem_set_unit, k1_off131_eq]
        intro a; fin_cases a
        · show 27 ≤ (y 0).val ∧ (y 0).val < 27 + 1
          omega
        · show 16 * k.val + 384 ≤ (y 1).val ∧ (y 1).val < 16 * k.val + 384 + 16
          omega
      · have hr' : (y 0).val = 28 := hr.symm
        refine ⟨_, (List.Mem.tail _ (List.Mem.tail _ (List.Mem.tail _ (List.Mem.head _)))), ?_⟩
        rw [Rect.mem_set_unit, k1_off132_eq]
        intro a; fin_cases a
        · show 28 ≤ (y 0).val ∧ (y 0).val < 28 + 1
          omega
        · show 16 * k.val + 384 ≤ (y 1).val ∧ (y 1).val < 16 * k.val + 384 + 16
          omega
      · have hr' : (y 0).val = 29 := hr.symm
        refine ⟨_, (List.Mem.tail _ (List.Mem.tail _ (List.Mem.head _))), ?_⟩
        rw [Rect.mem_set_unit, k1_off133_eq]
        intro a; fin_cases a
        · show 29 ≤ (y 0).val ∧ (y 0).val < 29 + 1
          omega
        · show 16 * k.val + 384 ≤ (y 1).val ∧ (y 1).val < 16 * k.val + 384 + 16
          omega
      · have hr' : (y 0).val = 30 := hr.symm
        refine ⟨_, (List.Mem.tail _ (List.Mem.head _)), ?_⟩
        rw [Rect.mem_set_unit, k1_off134_eq]
        intro a; fin_cases a
        · show 30 ≤ (y 0).val ∧ (y 0).val < 30 + 1
          omega
        · show 16 * k.val + 384 ≤ (y 1).val ∧ (y 1).val < 16 * k.val + 384 + 16
          omega
      · have hr' : (y 0).val = 31 := hr.symm
        refine ⟨_, (List.Mem.head _), ?_⟩
        rw [Rect.mem_set_unit, k1_off135_eq]
        intro a; fin_cases a
        · show 31 ≤ (y 0).val ∧ (y 0).val < 31 + 1
          omega
        · show 16 * k.val + 384 ≤ (y 1).val ∧ (y 1).val < 16 * k.val + 384 + 16
          omega

end Tile
end Cert.Proof.KB
end
-- ==== Proof.KB.TileBodyFull.lean ====
/-
  The task's body with the trips of all four extract loops supplied.
-/
import proofs.«217943_g20899310862962_cont_8to1_1374_33_alg».proof.Proof.KB.TileBody
import proofs.«217943_g20899310862962_cont_8to1_1374_33_alg».proof.Proof.KB.TileTripE1
import proofs.«217943_g20899310862962_cont_8to1_1374_33_alg».proof.Proof.KB.TileTripE2
import proofs.«217943_g20899310862962_cont_8to1_1374_33_alg».proof.Proof.KB.TileTripE3
import Idealize.ShloMosaic.Lib.Transfers
import Idealize.ShloMosaic.Lib.Batch
import Idealize.ShloMosaic.Lib.SparseCore.Stream
import Idealize.ShloMosaic.Lib.Writes

set_option pp.maxSteps 5000
set_option pp.deepTerms false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (pv : Fin 100001 → Fin 32 → F .f32) (Ok : Prop)
variable [FloatOps F]

section Tile
variable (d : Dev nD) (L : grid1.Coords)

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m pv Ok d (wL L)
        ∗ scopedBufs (thrV d L) ∗ scopedSems0 (thrV d L) ∗ owes (thrV d L) O W)
      ⊢ wp frame (wpE (defs₀ (F := F)) 𝒱₀ (thrV d L) none) Set.univ
          (cc1_gather_kernel L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0)
          fun _ => iprop(tdW m pv Ok d (wL L) ∗ scopedBufs (thrV d L) ∗ scopedSems0 (thrV d L)
            ∗ ∃ W', ⌜∀ p ∈ W', p ∈ W ∨ p.2 = none⌝ ∗ owes (thrV d L) O W') := by
  exact tile_body_of m pv Ok d L
    (fun U twc v2 k fL fR hL hLb hR => tripE1 (F := F) d L U twc v2 k fL fR hL hLb hR)
    (fun U twc v2 k fL fR hL hLb hR => tripE2 (F := F) d L U twc v2 k fL fR hL hLb hR)
    (fun U twc v2 k fL fR hL hLb hR => tripE3 (F := F) d L U twc v2 k fL fR hL hLb hR)
    hF hpre O W hO

end Tile
end Cert.Proof.KB
end
-- ==== Proof.KB.TileAuxRObl.lean ====
/-
  The SparseCore kernel's task, as the launch theorem asks for it. The launch theorem wants, for every vector subcore
  (c, i) of the call's grid, the label's body run from the task's share to its results; the label's body on that
  subcore is the printed kernel at the grid point (c, i) on the whole arrays and the subcore's scratch, the task's
  share is worker 2 i + c's, and the worker at grid point (c, i) is that worker. So a proof of the kernel's body at
  every grid point is the obligation, its post weakened to the launch theorem's.
-/
import proofs.«217943_g20899310862962_cont_8to1_1374_33_alg».proof.Proof.KB.TileSets

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (pv : Fin 100001 → Fin 32 → F .f32) (Ok : Prop)

/-- The grid point of SparseCore c, vector subcore s. -/
def coordsV (c : Fin (grid1.bound 0)) (s : Fin (grid1.bound 1)) : grid1.Coords :=
  fun | 0 => c | 1 => s | ⟨_ + 2, h⟩ => absurd h (Nat.not_lt.2 (Nat.le_add_left _ _))

/-- The kernel's label on a vector subcore is the printed kernel at the subcore's grid point, on the whole arrays and
    the subcore's scratch. -/
theorem defs₀_vector (c : Fin τ.nSC) (s : Fin τ.nSub) :
    defs₀ (F := F) (.scVector c s) 1 ()
      = SparseCore.onTile hcore1 hsub1 (fun c s => cc1_gather_kernel (coordsV c s)
          aTW (Memref.isWhole_whole _) aU (Memref.isWhole_whole _) aO (Memref.isWhole_whole _)
          sUid (Memref.isWhole_whole _) sIdx (Memref.isWhole_whole _) sLane (Memref.isWhole_whole _)
          sRA (Memref.isWhole_whole _) sRB (Memref.isWhole_whole _) sOut (Memref.isWhole_whole _)
          cc1_scratch6 cc1_scratch7 cc1_scratch8 cc1_scoped0) ⟨⟩ c s := rfl

omit [FloatOps F] in
/-- The post a task's proof ends in is the launch theorem's: waits left over from the kernel's own protocol are
    allowed there too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The kernel's body at every grid point: from the worker's share and the subcore's scoped storage, the printed
    kernel ends with the worker's results, the scoped storage back, and no wait of its own left. -/
def TileBodyAt : Prop :=
  ∀ (d : Dev nD) (L : grid1.Coords) (O : CellTallies nD τ sig (HIx 1)) (W : Waits sig (HIx 1)), (∀ g, O g none = 0) →
    iprop(levAts (K (F := F)).L (K (F := F)).lev ∗ emp ∗ goW m pv Ok d (wL L) ∗ scopedBufs (thrV d L) ∗ scopedSems0 (thrV d L) ∗ owes (thrV d L) O W)
      ⊢ wp frame (wpE (defs₀ (F := F)) 𝒱₀ (thrV d L) none) Set.univ
          (cc1_gather_kernel L aTW (Memref.isWhole_whole _) aU (Memref.isWhole_whole _) aO (Memref.isWhole_whole _)
            sUid (Memref.isWhole_whole _) sIdx (Memref.isWhole_whole _) sLane (Memref.isWhole_whole _)
            sRA (Memref.isWhole_whole _) sRB (Memref.isWhole_whole _) sOut (Memref.isWhole_whole _)
            cc1_scratch6 cc1_scratch7 cc1_scratch8 cc1_scoped0)
          fun _ => iprop(tdW m pv Ok d (wL L) ∗ scopedBufs (thrV d L) ∗ scopedSems0 (thrV d L)
            ∗ ∃ W', ⌜∀ p ∈ W', p ∈ W ∨ p.2 = none⌝ ∗ owes (thrV d L) O W')

/-- From the kernel's body at every grid point, the launch theorem's obligation for the call's tasks. -/
theorem tileObl_of (hbody : TileBodyAt (F := F) m pv Ok) :
    (K (F := F)).TileObl (D (F := F)) 𝒱 (P m pv Ok) v₀ 0 := by
  intro d c i O W hO _ _
  -- this kernel owes nothing for a protocol of its own
  simp only [show (P m pv Ok).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KB

end
-- ==== Proof.KB.TileObl.lean ====
/-
  The launch theorem's obligation for the SparseCore call's tasks: the kernel's body, proved at every grid point,
  handed to the launch-side wrapper.
-/
import proofs.«217943_g20899310862962_cont_8to1_1374_33_alg».proof.Proof.KB.TileBodyFull
import proofs.«217943_g20899310862962_cont_8to1_1374_33_alg».proof.Proof.KB.TileAuxRObl

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type} [FloatOps F]

/-- Every task of the call meets the launch theorem's obligation, given that one trip of each of the loops over slabs
    1, 2 and 3 keeps its invariant at every grid point. -/
theorem tileObl_of_trips (m : (ℓ : Loc nD τ sig) → Buf (Elt F) ℓ) (pv : Fin 100001 → Fin 32 → F .f32) (Ok : Prop)
    (hT : ∀ (d : Dev nD) (L : grid1.Coords), TripE1 (F := F) d L ∧ TripE2 (F := F) d L ∧ TripE3 (F := F) d L)
    (hF : (K (F := F)).Facts) (hpre : PreOK m) : (K (F := F)).TileObl (D (F := F)) 𝒱 (P m pv Ok) v₀ 0 :=
  tileObl_of m pv Ok (fun d L O W hO => tile_body_of m pv Ok d L (hT d L).1 (hT d L).2.1 (hT d L).2.2 hF hpre O W hO)

/-- Every task of the call meets the launch theorem's obligation. -/
theorem tileObl (m : (ℓ : Loc nD τ sig) → Buf (Elt F) ℓ) (pv : Fin 100001 → Fin 32 → F .f32) (Ok : Prop)
    (hF : (K (F := F)).Facts) (hpre : PreOK m) : (K (F := F)).TileObl (D (F := F)) 𝒱 (P m pv Ok) v₀ 0 :=
  tileObl_of m pv Ok (fun d L O W hO => tile_body m pv Ok d L hF hpre O W hO)

end Cert.Proof.KB

end
-- ==== Proof.KB.Run.lean ====
import proofs.«217943_g20899310862962_cont_8to1_1374_33_alg».proof.Proof.KB.Common
import proofs.«217943_g20899310862962_cont_8to1_1374_33_alg».proof.Proof.KB.Launch
import proofs.«217943_g20899310862962_cont_8to1_1374_33_alg».proof.Proof.KB.TileObl

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx
variable {F : FTy → Type} [FloatOps F]

local notation "𝕄" => MT nD τ sig (HIx 1) (Elt F) ℕ UU ℕ

/-! ## The program's run -/

variable (m : (ℓ : Loc nD τ sig) → Buf (Elt F) ℓ) (ρ : Dev nD → PrngReg)
variable (pv : Fin 100001 → Fin 32 → F .f32) (Ok : Prop)
variable (OutRel : Fin cfg0.N → (S16384x128.Idx → Elt F .f32) → Prop)

/-- From any memory with zero counters whose ids are rows of the table, every weakly fair execution of the device's
    threads (the TensorCore's @main, two sequencers, thirty-two vector subcores) terminates, nothing faulting, with the
    arguments unchanged and the result as the instance's relation specifies. -/
theorem run_main [∀ e, Nonempty (Elt F e)] (hpre : PreOK m)
    (hOut : ∀ (d : Dev nD) (t : Fin cfg0.N) (Y : (w : Fin cfg0.W) → (cfg0.win w).block.Idx → Elt F (cfg0.win w).elt),
      (∀ w, (rdat (M1 m) OutRel d).Finds w t (Y w)) → OutRel t (k0_pay1 (Y 0) (Y 1) (Y 2) (Y 3) (Y 4) (Y 5)))
    (hTW : ∀ (d : Dev nD) (Fc : Buf (Elt F) (twLoc d)), (rdat (M1 m) OutRel d).ArrAt 6 cfg0.N Fc → TWok pv Ok d Fc) :
    θ_run (Cert.Kernel.defs (F := F)) (Cert.Kernel.threads (F := F)) ⟨m, fun _ => 0, ρ⟩ (QC m pv Ok) :=
  SparseCore.Cfg.θ_run_sc (K := K (F := F)) (D := D (F := F)) (𝒱 := 𝒱) (EH := EH) (P := P m pv Ok) facts v₀
    (fun q hq => match q with | 0 => nomatch hq)
    (fun q _ => match q with | 0 => tileObl m pv Ok facts hpre)
    (fun q _ => match q with | 0 => SparseCore.Cfg.VecSplit.of_plain (vecSplit m pv Ok))
    m ρ main (G (F := F)) (FIN m pv Ok) (u₀ (F := F)) (sep_elim_left.trans (hu₀ m pv Ok)) (hmain m ρ pv Ok OutRel hOut hTW) (fq m pv Ok) (hfin m pv Ok)
    (QC m pv Ok) (fun _ h => h)

end Cert.Proof.KB

end
-- ==== Proof.ClaimsBits.lean ====
/-
  The word-level instance: the kernel program as printed runs to its end, faults nowhere and leaves its four arguments
  unchanged. The run is the same as at the exact instance, with no value tracked: the packed table's contents are
  whatever the matrix unit computed, and the lookup moves them.
-/
import proofs.«217943_g20899310862962_cont_8to1_1374_33_alg».proof.Defs
import proofs.«217943_g20899310862962_cont_8to1_1374_33_alg».proof.Proof.KB.Run
import proofs.«217943_g20899310862962_cont_8to1_1374_33_alg».proof.Proof.PreFacts

noncomputable section

namespace Cert.Proof.BitsClaims

open Cert.Kernel Cert.Kernel.Gen Cert.Proof.KB
open Idealize.ShloMosaic Idealize.ShloMosaic.TcCoe Idealize.SL.Sem

theorem preOK (m : (ℓ : Loc nD τ sig) → Buf (Elt Bits) ℓ)
    (h : Cert.Pre_Kernel (hPre_input_domain := Cert.Pre_input_domain.Gen.facts) m) : PreOK (F := Bits) m :=
  fun d r => ((@Cert.Proof.PreFacts.ids_le Bits _ Cert.Pre_input_domain.Gen.facts _ _ _ _ (h d)) r).1

theorem frame_k : Cert.frame_Kernel (hKernel := Cert.Kernel.Gen.facts) (hPre_input_domain := Cert.Pre_input_domain.Gen.facts) :=
  fun m ρ hpre => (θ_run (Cert.Kernel.defs (F := Bits)) _ _).mono
    (fun _ h c => ⟨(h c).1, (h c).2.1, (h c).2.2.1, (h c).2.2.2.1⟩)
    (run_main m ρ (fun _ _ => Scalar.ofBits .f32 0#32) False (fun _ _ => True) (preOK m hpre) (fun _ _ _ _ => trivial)
      (fun _ _ _ hf => hf.elim))

end Cert.Proof.BitsClaims

end
-- ==== Proof.lean ====
/-
  The certificate's claim: an embedding lookup followed by a dense layer, computed by the kernel as a projection of
  the whole table on the matrix unit (packed four table rows to a 128-lane row) followed by a row lookup that reads
  each id's 32 lanes back, against the reference's gather followed by a matrix product. Both are, entry by entry, the
  sum over the 32 features k of table[id, k] * W[k, q], plus b[q], on the extended reals: the terms the packing adds
  are products with exact zeros. The three frames, the (empty) idealization ledger, and the equality of results.
-/
import proofs.«217943_g20899310862962_cont_8to1_1374_33_alg».proof.Defs
import proofs.«217943_g20899310862962_cont_8to1_1374_33_alg».proof.Proof.ClaimsIdeal
import proofs.«217943_g20899310862962_cont_8to1_1374_33_alg».proof.Proof.ClaimsBits
import proofs.«217943_g20899310862962_cont_8to1_1374_33_alg».proof.Proof.Gen.Kernel
import proofs.«217943_g20899310862962_cont_8to1_1374_33_alg».proof.Proof.Gen.KernelIdeal
import proofs.«217943_g20899310862962_cont_8to1_1374_33_alg».proof.Proof.Gen.ReferenceIdeal
import proofs.«217943_g20899310862962_cont_8to1_1374_33_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.BitsClaims.frame_k, Cert.Proof.IdealClaims.frame_ki, Cert.Proof.IdealClaims.frame_ri, trivial,
    Cert.Proof.IdealClaims.algebraic⟩

end Cert.Proof

end
